-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v199)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v199) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v441) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S8x128 : Shape := ⟨2, ![8, 128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128x40 .f32) (main_arg6 : FVec F S40 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S128x40 .f32 := Host.absf main_arg5
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x128 .f32) (main_arg1 : IVec S2x640000 32) (main_arg2 : FVec F S640000 .f32) (main_arg3 : FVec F S8x128x128 .f32) (main_arg4 : FVec F S8x128 .f32) (main_arg5 : FVec F S128x40 .f32) (main_arg6 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg4
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg5 main_arg6 main_v13 main_v16
-- ==== Kernel.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S8x128 : Shape := ⟨2, ![8, 128]⟩
abbrev S128x40 : Shape := ⟨2, ![128, 40]⟩
abbrev S40 : Shape := ⟨1, ![40]⟩
abbrev S100000 : Shape := ⟨1, ![100000]⟩
abbrev S1x640000 : Shape := ⟨2, ![1, 640000]⟩
abbrev S740000 : Shape := ⟨1, ![740000]⟩
abbrev S_ : Shape := ⟨0, ![]⟩
abbrev S740000x1 : Shape := ⟨2, ![740000, 1]⟩
abbrev S1x128x128 : Shape := ⟨3, ![1, 128, 128]⟩
abbrev S128x128 : Shape := ⟨2, ![128, 128]⟩
abbrev S10000x128 : Shape := ⟨2, ![10000, 128]⟩
abbrev S740000x128 : Shape := ⟨2, ![740000, 128]⟩
abbrev S1x128 : Shape := ⟨2, ![1, 128]⟩
abbrev S128 : Shape := ⟨1, ![128]⟩
abbrev S10000 : Shape := ⟨1, ![10000]⟩
abbrev S10000x1 : Shape := ⟨2, ![10000, 1]⟩
abbrev S100000x40 : Shape := ⟨2, ![100000, 40]⟩
abbrev S10000x40 : Shape := ⟨2, ![10000, 40]⟩
abbrev S740000x40 : Shape := ⟨2, ![740000, 40]⟩
abbrev S1x40 : Shape := ⟨2, ![1, 40]⟩

abbrev nBuf : Space → Nat
  | .hbm => 248
  | .vmem => 74
  | .smem => 0
  | _ => 0

abbrev hbmTy0_0 (i : Nat) : BufTy := match i % 128 with
  | 0 => ⟨S100000x128, .f32⟩
  | 1 => ⟨S2x640000, .i32⟩
  | 2 => ⟨S640000, .f32⟩
  | 3 => ⟨S8x128x128, .f32⟩
  | 4 => ⟨S8x128, .f32⟩
  | 5 => ⟨S128x40, .f32⟩
  | 6 => ⟨S40, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S100000, .f32⟩
  | 16 => ⟨S740000, .f32⟩
  | 17 => ⟨S_, .f32⟩
  | 18 => ⟨S100000, .f32⟩
  | 19 => ⟨S740000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S740000, .i32⟩
  | 31 => ⟨S740000, .i1⟩
  | 32 => ⟨S_, .i32⟩
  | 33 => ⟨S740000, .i32⟩
  | 34 => ⟨S740000, .i32⟩
  | 35 => ⟨S740000, .i32⟩
  | 36 => ⟨S740000x1, .i32⟩
  | 37 => ⟨S740000, .f32⟩
  | 38 => ⟨S740000, .f32⟩
  | 39 => ⟨S_, .i32⟩
  | 40 => ⟨S740000, .i32⟩
  | 41 => ⟨S740000, .i1⟩
  | 42 => ⟨S_, .i32⟩
  | 43 => ⟨S740000, .i32⟩
  | 44 => ⟨S740000, .i32⟩
  | 45 => ⟨S740000, .i32⟩
  | 46 => ⟨S740000x1, .i32⟩
  | 47 => ⟨S740000, .f32⟩
  | 48 => ⟨S740000, .f32⟩
  | 49 => ⟨S1x128x128, .f32⟩
  | 50 => ⟨S128x128, .f32⟩
  | 51 => ⟨S100000x128, .f32⟩
  | 52 => ⟨S_, .i32⟩
  | 53 => ⟨S740000, .i32⟩
  | 54 => ⟨S740000, .i1⟩
  | 55 => ⟨S_, .i32⟩
  | 56 => ⟨S740000, .i32⟩
  | 57 => ⟨S740000, .i32⟩
  | 58 => ⟨S740000, .i32⟩
  | 59 => ⟨S740000x1, .i32⟩
  | 60 => ⟨S740000x128, .f32⟩
  | 61 => ⟨S740000x1, .f32⟩
  | 62 => ⟨S740000x128, .f32⟩
  | 63 => ⟨S740000x128, .f32⟩
  | 64 => ⟨S_, .f32⟩
  | 65 => ⟨S100000x128, .f32⟩
  | 66 => ⟨S740000x1, .i32⟩
  | 67 => ⟨S100000x128, .f32⟩
  | 68 => ⟨S1x128, .f32⟩
  | 69 => ⟨S128, .f32⟩
  | 70 => ⟨S1x128, .f32⟩
  | 71 => ⟨S1x128x128, .f32⟩
  | 72 => ⟨S128x128, .f32⟩
  | 73 => ⟨S100000x128, .f32⟩
  | 74 => ⟨S_, .i32⟩
  | 75 => ⟨S740000, .i32⟩
  | 76 => ⟨S740000, .i1⟩
  | 77 => ⟨S_, .i32⟩
  | 78 => ⟨S740000, .i32⟩
  | 79 => ⟨S740000, .i32⟩
  | 80 => ⟨S740000, .i32⟩
  | 81 => ⟨S740000x1, .i32⟩
  | 82 => ⟨S740000x128, .f32⟩
  | 83 => ⟨S740000x1, .f32⟩
  | 84 => ⟨S740000x128, .f32⟩
  | 85 => ⟨S740000x128, .f32⟩
  | 86 => ⟨S_, .f32⟩
  | 87 => ⟨S100000x128, .f32⟩
  | 88 => ⟨S740000x1, .i32⟩
  | 89 => ⟨S100000x128, .f32⟩
  | 90 => ⟨S1x128x128, .f32⟩
  | 91 => ⟨S128x128, .f32⟩
  | 92 => ⟨S1x128, .f32⟩
  | 93 => ⟨S128, .f32⟩
  | 94 => ⟨S1x128, .f32⟩
  | 95 => ⟨S100000x128, .f32⟩
  | 96 => ⟨S100000x128, .f32⟩
  | 97 => ⟨S_, .i32⟩
  | 98 => ⟨S740000, .i32⟩
  | 99 => ⟨S740000, .i1⟩
  | 100 => ⟨S_, .i32⟩
  | 101 => ⟨S740000, .i32⟩
  | 102 => ⟨S740000, .i32⟩
  | 103 => ⟨S740000, .i32⟩
  | 104 => ⟨S740000x1, .i32⟩
  | 105 => ⟨S740000x128, .f32⟩
  | 106 => ⟨S740000x1, .f32⟩
  | 107 => ⟨S740000x128, .f32⟩
  | 108 => ⟨S740000x128, .f32⟩
  | 109 => ⟨S_, .f32⟩
  | 110 => ⟨S100000x128, .f32⟩
  | 111 => ⟨S740000x1, .i32⟩
  | 112 => ⟨S100000x128, .f32⟩
  | 113 => ⟨S1x128, .f32⟩
  | 114 => ⟨S128, .f32⟩
  | 115 => ⟨S1x128, .f32⟩
  | 116 => ⟨S1x128x128, .f32⟩
  | 117 => ⟨S128x128, .f32⟩
  | 118 => ⟨S100000x128, .f32⟩
  | 119 => ⟨S_, .i32⟩
  | 120 => ⟨S740000, .i32⟩
  | 121 => ⟨S740000, .i1⟩
  | 122 => ⟨S_, .i32⟩
  | 123 => ⟨S740000, .i32⟩
  | 124 => ⟨S740000, .i32⟩
  | 125 => ⟨S740000, .i32⟩
  | 126 => ⟨S740000x1, .i32⟩
  | 127 => ⟨S740000x128, .f32⟩
  | _ => ⟨S100000x128, .f32⟩

abbrev hbmTy0_1 (i : Nat) : BufTy := match i % 128 with
  | 0 => ⟨S740000x1, .f32⟩
  | 1 => ⟨S740000x128, .f32⟩
  | 2 => ⟨S740000x128, .f32⟩
  | 3 => ⟨S_, .f32⟩
  | 4 => ⟨S100000x128, .f32⟩
  | 5 => ⟨S740000x1, .i32⟩
  | 6 => ⟨S100000x128, .f32⟩
  | 7 => ⟨S1x128x128, .f32⟩
  | 8 => ⟨S128x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S_, .i32⟩
  | 15 => ⟨S740000, .i32⟩
  | 16 => ⟨S740000, .i1⟩
  | 17 => ⟨S_, .i32⟩
  | 18 => ⟨S740000, .i32⟩
  | 19 => ⟨S740000, .i32⟩
  | 20 => ⟨S740000, .i32⟩
  | 21 => ⟨S740000x1, .i32⟩
  | 22 => ⟨S740000x128, .f32⟩
  | 23 => ⟨S740000x1, .f32⟩
  | 24 => ⟨S740000x128, .f32⟩
  | 25 => ⟨S740000x128, .f32⟩
  | 26 => ⟨S_, .f32⟩
  | 27 => ⟨S100000x128, .f32⟩
  | 28 => ⟨S740000x1, .i32⟩
  | 29 => ⟨S100000x128, .f32⟩
  | 30 => ⟨S1x128, .f32⟩
  | 31 => ⟨S128, .f32⟩
  | 32 => ⟨S1x128, .f32⟩
  | 33 => ⟨S1x128x128, .f32⟩
  | 34 => ⟨S128x128, .f32⟩
  | 35 => ⟨S100000x128, .f32⟩
  | 36 => ⟨S_, .i32⟩
  | 37 => ⟨S740000, .i32⟩
  | 38 => ⟨S740000, .i1⟩
  | 39 => ⟨S_, .i32⟩
  | 40 => ⟨S740000, .i32⟩
  | 41 => ⟨S740000, .i32⟩
  | 42 => ⟨S740000, .i32⟩
  | 43 => ⟨S740000x1, .i32⟩
  | 44 => ⟨S740000x128, .f32⟩
  | 45 => ⟨S740000x1, .f32⟩
  | 46 => ⟨S740000x128, .f32⟩
  | 47 => ⟨S740000x128, .f32⟩
  | 48 => ⟨S_, .f32⟩
  | 49 => ⟨S100000x128, .f32⟩
  | 50 => ⟨S740000x1, .i32⟩
  | 51 => ⟨S100000x128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S_, .i32⟩
  | 60 => ⟨S740000, .i32⟩
  | 61 => ⟨S740000, .i1⟩
  | 62 => ⟨S_, .i32⟩
  | 63 => ⟨S740000, .i32⟩
  | 64 => ⟨S740000, .i32⟩
  | 65 => ⟨S740000, .i32⟩
  | 66 => ⟨S740000x1, .i32⟩
  | 67 => ⟨S740000x128, .f32⟩
  | 68 => ⟨S740000x1, .f32⟩
  | 69 => ⟨S740000x128, .f32⟩
  | 70 => ⟨S740000x128, .f32⟩
  | 71 => ⟨S_, .f32⟩
  | 72 => ⟨S100000x128, .f32⟩
  | 73 => ⟨S740000x1, .i32⟩
  | 74 => ⟨S100000x128, .f32⟩
  | 75 => ⟨S1x128, .f32⟩
  | 76 => ⟨S128, .f32⟩
  | 77 => ⟨S1x128, .f32⟩
  | 78 => ⟨S1x128x128, .f32⟩
  | 79 => ⟨S128x128, .f32⟩
  | 80 => ⟨S100000x128, .f32⟩
  | 81 => ⟨S_, .i32⟩
  | 82 => ⟨S740000, .i32⟩
  | 83 => ⟨S740000, .i1⟩
  | 84 => ⟨S_, .i32⟩
  | 85 => ⟨S740000, .i32⟩
  | 86 => ⟨S740000, .i32⟩
  | 87 => ⟨S740000, .i32⟩
  | 88 => ⟨S740000x1, .i32⟩
  | 89 => ⟨S740000x128, .f32⟩
  | 90 => ⟨S740000x1, .f32⟩
  | 91 => ⟨S740000x128, .f32⟩
  | 92 => ⟨S740000x128, .f32⟩
  | 93 => ⟨S_, .f32⟩
  | 94 => ⟨S100000x128, .f32⟩
  | 95 => ⟨S740000x1, .i32⟩
  | 96 => ⟨S100000x128, .f32⟩
  | 97 => ⟨S1x128, .f32⟩
  | 98 => ⟨S128, .f32⟩
  | 99 => ⟨S1x128, .f32⟩
  | 100 => ⟨S100000x128, .f32⟩
  | 101 => ⟨S100000x40, .f32⟩
  | 102 => ⟨S_, .i32⟩
  | 103 => ⟨S740000, .i32⟩
  | 104 => ⟨S740000, .i1⟩
  | 105 => ⟨S_, .i32⟩
  | 106 => ⟨S740000, .i32⟩
  | 107 => ⟨S740000, .i32⟩
  | 108 => ⟨S740000, .i32⟩
  | 109 => ⟨S740000x1, .i32⟩
  | 110 => ⟨S740000x40, .f32⟩
  | 111 => ⟨S740000x1, .f32⟩
  | 112 => ⟨S740000x40, .f32⟩
  | 113 => ⟨S740000x40, .f32⟩
  | 114 => ⟨S_, .f32⟩
  | 115 => ⟨S100000x40, .f32⟩
  | 116 => ⟨S740000x1, .i32⟩
  | 117 => ⟨S100000x40, .f32⟩
  | 118 => ⟨S1x40, .f32⟩
  | 119 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S10000x128, .f32⟩
  | .local _ .vmem, ⟨15, _⟩ => ⟨S10000x128, .f32⟩
  | .local _ .vmem, ⟨16, _⟩ => ⟨S128x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S1x128, .f32⟩
  | .local _ .vmem, ⟨24, _⟩ => ⟨S128x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S1x128, .f32⟩
  | .local _ .vmem, ⟨30, _⟩ => ⟨S10000x128, .f32⟩
  | .local _ .vmem, ⟨31, _⟩ => ⟨S10000x128, .f32⟩
  | .local _ .vmem, ⟨32, _⟩ => ⟨S128x128, .f32⟩
  | .local _ .vmem, ⟨33, _⟩ => ⟨S10000x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S10000x128, .f32⟩
  | .local _ .vmem, ⟨39, _⟩ => ⟨S1x128, .f32⟩
  | .local _ .vmem, ⟨40, _⟩ => ⟨S128x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S1x128, .f32⟩
  | .local _ .vmem, ⟨46, _⟩ => ⟨S10000x128, .f32⟩
  | .local _ .vmem, ⟨47, _⟩ => ⟨S10000x128, .f32⟩
  | .local _ .vmem, ⟨48, _⟩ => ⟨S128x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S1x128, .f32⟩
  | .local _ .vmem, ⟨56, _⟩ => ⟨S128x128, .f32⟩
  | .local _ .vmem, ⟨57, _⟩ => ⟨S10000x128, .f32⟩
  | .local _ .vmem, ⟨58, _⟩ => ⟨S10000x128, .f32⟩
  | .local _ .vmem, ⟨59, _⟩ => ⟨S10000x128, .f32⟩
  | .local _ .vmem, ⟨60, _⟩ => ⟨S10000x128, .f32⟩
  | .local _ .vmem, ⟨61, _⟩ => ⟨S1x128, .f32⟩
  | .local _ .vmem, ⟨62, _⟩ => ⟨S10000x128, .f32⟩
  | .local _ .vmem, ⟨63, _⟩ => ⟨S10000x128, .f32⟩
  | .local _ .vmem, ⟨64, _⟩ => ⟨S128x40, .f32⟩
  | .local _ .vmem, ⟨65, _⟩ => ⟨S10000x128, .f32⟩
  | .local _ .vmem, ⟨66, _⟩ => ⟨S10000x128, .f32⟩
  | .local _ .vmem, ⟨67, _⟩ => ⟨S10000x40, .f32⟩
  | .local _ .vmem, ⟨68, _⟩ => ⟨S10000x40, .f32⟩
  | .local _ .vmem, ⟨69, _⟩ => ⟨S10000x40, .f32⟩
  | .local _ .vmem, ⟨70, _⟩ => ⟨S10000x40, .f32⟩
  | .local _ .vmem, ⟨71, _⟩ => ⟨S1x40, .f32⟩
  | .local _ .vmem, ⟨72, _⟩ => ⟨S10000x40, .f32⟩
  | .local _ .vmem, ⟨73, _⟩ => ⟨S10000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_9 : Ref sig .tc := ⟨.hbm, 74, rfl⟩
abbrev main_v54 : Ref sig .tc := ⟨.hbm, 75, rfl⟩
abbrev main_v55 : Ref sig .tc := ⟨.hbm, 76, rfl⟩
abbrev main_c_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72_0 : Ref sig .tc := ⟨.hbm, 95, rfl⟩
abbrev main_v72_1 : Ref sig .tc := ⟨.hbm, 96, rfl⟩
abbrev main_c_12 : Ref sig .tc := ⟨.hbm, 97, rfl⟩
abbrev main_v73 : Ref sig .tc := ⟨.hbm, 98, rfl⟩
abbrev main_v74 : Ref sig .tc := ⟨.hbm, 99, rfl⟩
abbrev main_c_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_c_15 : Ref sig .tc := ⟨.hbm, 119, rfl⟩
abbrev main_v92 : Ref sig .tc := ⟨.hbm, 120, rfl⟩
abbrev main_v93 : Ref sig .tc := ⟨.hbm, 121, rfl⟩
abbrev main_c_16 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_17 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110_0 : Ref sig .tc := ⟨.hbm, 140, rfl⟩
abbrev main_v110_1 : Ref sig .tc := ⟨.hbm, 141, rfl⟩
abbrev main_c_18 : Ref sig .tc := ⟨.hbm, 142, rfl⟩
abbrev main_v111 : Ref sig .tc := ⟨.hbm, 143, rfl⟩
abbrev main_v112 : Ref sig .tc := ⟨.hbm, 144, rfl⟩
abbrev main_c_19 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_20 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_c_21 : Ref sig .tc := ⟨.hbm, 164, rfl⟩
abbrev main_v130 : Ref sig .tc := ⟨.hbm, 165, rfl⟩
abbrev main_v131 : Ref sig .tc := ⟨.hbm, 166, rfl⟩
abbrev main_c_22 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_23 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148_0 : Ref sig .tc := ⟨.hbm, 185, rfl⟩
abbrev main_v148_1 : Ref sig .tc := ⟨.hbm, 186, rfl⟩
abbrev main_c_24 : Ref sig .tc := ⟨.hbm, 187, rfl⟩
abbrev main_v149 : Ref sig .tc := ⟨.hbm, 188, rfl⟩
abbrev main_v150 : Ref sig .tc := ⟨.hbm, 189, rfl⟩
abbrev main_c_25 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_cst_26 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_c_27 : Ref sig .tc := ⟨.hbm, 209, rfl⟩
abbrev main_v168 : Ref sig .tc := ⟨.hbm, 210, rfl⟩
abbrev main_v169 : Ref sig .tc := ⟨.hbm, 211, rfl⟩
abbrev main_c_28 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_cst_29 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184_0 : Ref sig .tc := ⟨.hbm, 228, rfl⟩
abbrev main_v184_1 : Ref sig .tc := ⟨.hbm, 229, rfl⟩
abbrev main_c_30 : Ref sig .tc := ⟨.hbm, 230, rfl⟩
abbrev main_v185 : Ref sig .tc := ⟨.hbm, 231, rfl⟩
abbrev main_v186 : Ref sig .tc := ⟨.hbm, 232, rfl⟩
abbrev main_c_31 : Ref sig .tc := ⟨.hbm, 233, rfl⟩
abbrev main_v187 : Ref sig .tc := ⟨.hbm, 234, rfl⟩
abbrev main_v188 : Ref sig .tc := ⟨.hbm, 235, rfl⟩
abbrev main_v189 : Ref sig .tc := ⟨.hbm, 236, rfl⟩
abbrev main_v190 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_cst_32 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg2_1 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg4_1 : Ref sig .tc := ⟨.vmem, 34, rfl⟩
abbrev cc4_stg5_0 : Ref sig .tc := ⟨.vmem, 35, rfl⟩
abbrev cc4_stg5_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc6_stg5_0 : Ref sig .tc := ⟨.vmem, 51, rfl⟩
abbrev cc6_stg5_1 : Ref sig .tc := ⟨.vmem, 52, rfl⟩
abbrev cc7_stg0_0 : Ref sig .tc := ⟨.vmem, 53, rfl⟩
abbrev cc7_stg0_1 : Ref sig .tc := ⟨.vmem, 54, rfl⟩
abbrev cc7_stg1_0 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg2_0 : Ref sig .tc := ⟨.vmem, 62, rfl⟩
abbrev cc8_stg2_1 : Ref sig .tc := ⟨.vmem, 63, rfl⟩
abbrev cc8_stg3_0 : Ref sig .tc := ⟨.vmem, 64, rfl⟩
abbrev cc8_stg4_0 : Ref sig .tc := ⟨.vmem, 65, rfl⟩
abbrev cc8_stg4_1 : Ref sig .tc := ⟨.vmem, 66, rfl⟩
abbrev cc8_stg5_0 : Ref sig .tc := ⟨.vmem, 67, rfl⟩
abbrev cc8_stg5_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem4_0 : DmaSem sig := 17
abbrev cc2_sem4_1 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem2_1 : DmaSem sig := 31
abbrev cc4_sem3_0 : DmaSem sig := 32
abbrev cc4_sem4_0 : DmaSem sig := 33
abbrev cc4_sem4_1 : DmaSem sig := 34
abbrev cc4_sem5_0 : DmaSem sig := 35
abbrev cc4_sem5_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc6_sem5_0 : DmaSem sig := 51
abbrev cc6_sem5_1 : DmaSem sig := 52
abbrev cc7_sem0_0 : DmaSem sig := 53
abbrev cc7_sem0_1 : DmaSem sig := 54
abbrev cc7_sem1_0 : DmaSem sig := 55
abbrev cc7_sem2_0 : DmaSem sig := 56
abbrev cc7_sem3_0 : DmaSem sig := 57
abbrev cc7_sem3_1 : DmaSem sig := 58
abbrev cc8_sem0_0 : DmaSem sig := 59
abbrev cc8_sem0_1 : DmaSem sig := 60
abbrev cc8_sem1_0 : DmaSem sig := 61
abbrev cc8_sem2_0 : DmaSem sig := 62
abbrev cc8_sem2_1 : DmaSem sig := 63
abbrev cc8_sem3_0 : DmaSem sig := 64
abbrev cc8_sem4_0 : DmaSem sig := 65
abbrev cc8_sem4_1 : DmaSem sig := 66
abbrev cc8_sem5_0 : DmaSem sig := 67
abbrev cc8_sem5_1 : DmaSem sig := 68
abbrev cc9_sem0_0 : DmaSem sig := 69
abbrev cc9_sem0_1 : DmaSem sig := 70
abbrev cc9_sem1_0 : DmaSem sig := 71
abbrev cc9_sem2_0 : DmaSem sig := 72
abbrev cc9_sem2_1 : DmaSem sig := 73

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S10000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S128x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S10000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S128x40 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S10000x40 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x40 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x40 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x40 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  bcast_S740000_S740000x1_0 : S740000.BroadcastsInDim S740000x1 (![0] : Fin 1 → Fin S740000x1.rank)
  bcast_S_S740000 : S_.BroadcastsInDim S740000 (![] : Fin 0 → Fin S740000.rank)
  slices_S8x128x128_S1x128x128_0_0_0 : S8x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  slices_S8x128_S1x128_0_0 : S8x128.Slices ![0, 0] S1x128
  shapeCasts_S1x128_S128 : S1x128.ShapeCasts S128
  shapeCasts_S128_S1x128 : S128.ShapeCasts S1x128
  slices_S8x128x128_S1x128x128_1_0_0 : S8x128x128.Slices ![1, 0, 0] S1x128x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S8x128x128_S1x128x128_2_0_0 : S8x128x128.Slices ![2, 0, 0] S1x128x128
  slices_S8x128_S1x128_1_0 : S8x128.Slices ![1, 0] S1x128
  reduces_S10000x128_S10000 : S10000x128.Reduces [1] S10000
  shapeCasts_S10000_S10000x1 : S10000.ShapeCasts S10000x1
  broadcasts_S10000x1_S10000x128 : S10000x1.Broadcasts S10000x128
  slices_S8x128_S1x128_2_0 : S8x128.Slices ![2, 0] S1x128
  slices_S8x128x128_S1x128x128_3_0_0 : S8x128x128.Slices ![3, 0, 0] S1x128x128
  slices_S8x128x128_S1x128x128_4_0_0 : S8x128x128.Slices ![4, 0, 0] S1x128x128
  slices_S8x128_S1x128_3_0 : S8x128.Slices ![3, 0] S1x128
  slices_S8x128_S1x128_4_0 : S8x128.Slices ![4, 0] S1x128
  slices_S8x128x128_S1x128x128_5_0_0 : S8x128x128.Slices ![5, 0, 0] S1x128x128
  slices_S8x128x128_S1x128x128_6_0_0 : S8x128x128.Slices ![6, 0, 0] S1x128x128
  slices_S8x128_S1x128_5_0 : S8x128.Slices ![5, 0] S1x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  broadcasts_S10000x1_S10000x40 : S10000x1.Broadcasts S10000x40
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  dot_S10000x128_S128x128_S10000x128_1_0_0_1_n_n_wf : DotDims.WF S10000x128 S128x128 S10000x128 [1] [0] [0] [1] [] []
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S10000x128_S128x40_S10000x40_1_0_0_1_n_n_wf : DotDims.WF S10000x128 S128x40 S10000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S100000x128.size a
  hwx2_4 : ∀ i : grid2.Coords, EltTy.bits .f32 = 32 ∨ (Rect.block (s := S100000x128) S10000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S100000x128.size a
  hwx3_3 : ∀ i : grid3.Coords, EltTy.bits .f32 = 32 ∨ (Rect.block (s := S100000x128) S10000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x128.size a ≤ S100000x128.size a
  hwx4_2 : ∀ i : grid4.Coords, EltTy.bits .f32 = 32 ∨ (Rect.block (s := S100000x128) S10000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S100000x128.size a
  hwx4_4 : ∀ i : grid4.Coords, EltTy.bits .f32 = 32 ∨ (Rect.block (s := S100000x128) S10000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S100000x128.size a
  hwx4_5 : ∀ i : grid4.Coords, EltTy.bits .f32 = 32 ∨ (Rect.block (s := S100000x128) S10000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S100000x128.size a
  hwx5_3 : ∀ i : grid5.Coords, EltTy.bits .f32 = 32 ∨ (Rect.block (s := S100000x128) S10000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x128.size a ≤ S100000x128.size a
  hwx6_2 : ∀ i : grid6.Coords, EltTy.bits .f32 = 32 ∨ (Rect.block (s := S100000x128) S10000x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S128x128.size a ≤ S128x128.size a
  hwx6_3 : ∀ i : grid6.Coords, EltTy.bits .f32 = 32 ∨ (Rect.block (s := S128x128) S128x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S100000x128.size a
  hwx6_4 : ∀ i : grid6.Coords, EltTy.bits .f32 = 32 ∨ (Rect.block (s := S100000x128) S10000x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S10000x128.size a ≤ S100000x128.size a
  hwx6_5 : ∀ i : grid6.Coords, EltTy.bits .f32 = 32 ∨ (Rect.block (s := S100000x128) S10000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S100000x128.size a
  hwx7_3 : ∀ i : grid7.Coords, EltTy.bits .f32 = 32 ∨ (Rect.block (s := S100000x128) S10000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S100000x128.size a
  hwx8_0 : ∀ i : grid8.Coords, EltTy.bits .f32 = 32 ∨ (Rect.block (s := S100000x128) S10000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x128.size a ≤ S100000x128.size a
  hwx8_2 : ∀ i : grid8.Coords, EltTy.bits .f32 = 32 ∨ (Rect.block (s := S100000x128) S10000x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S128x40.size a ≤ S128x40.size a
  hwx8_3 : ∀ i : grid8.Coords, EltTy.bits .f32 = 32 ∨ (Rect.block (s := S128x40) S128x40.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x128.size a ≤ S100000x128.size a
  hwx8_4 : ∀ i : grid8.Coords, EltTy.bits .f32 = 32 ∨ (Rect.block (s := S100000x128) S10000x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S10000x40.size a ≤ S100000x40.size a
  hwx8_5 : ∀ i : grid8.Coords, EltTy.bits .f32 = 32 ∨ (Rect.block (s := S100000x40) S10000x40.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x40.size a ≤ S100000x40.size a
  hwx9_0 : ∀ i : grid9.Coords, EltTy.bits .f32 = 32 ∨ (Rect.block (s := S100000x40) S10000x40.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x40.size a ≤ S1x40.size a
  hwx9_1 : ∀ i : grid9.Coords, EltTy.bits .f32 = 32 ∨ (Rect.block (s := S1x40) S1x40.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x40.size a ≤ S100000x40.size a
  hwx9_2 : ∀ i : grid9.Coords, EltTy.bits .f32 = 32 ∨ (Rect.block (s := S100000x40) S10000x40.size (cc9_transform_2 i) (hinb9_2 i)).WholeWords (EltTy.packing .f32)

variable [Facts₀]

def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72_0) S10000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v72_1) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v85) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v90) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v91) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v104) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v109) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72_0) S10000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v106) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v110_0) S10000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v110_1) S10000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v123) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v126) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v128) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v129) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v142) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v147) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v110_0) S10000x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v144) S128x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v148_0) S10000x128.size cc6_transform_4 reads6_4 true false 2 stage6_4 sem6_4
    hrank6 hreads6_4 hinb6_4 nbuf6_4 (Memref.isWhole_whole _) hwx6_4 hstage6_4

abbrev win6_5 : Pipeline.Window sig grid6 :=
  Pipeline.Window.ofSpec (Memref.whole main_v148_1) S10000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v161) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v164) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v166) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v167) S10000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v180) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v183) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v148_0) S10000x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_arg5) S128x40.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v184_0) S10000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v184_1) S10000x40.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v197) S10000x40.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v198) S1x40.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v199) S10000x40.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S640000 : Shape := ⟨1, ![640000]⟩
abbrev S8x128x128 : Shape := ⟨3, ![8, 128, 128]⟩
abbrev S8x128 : Shape := ⟨2, ![8, 128]⟩
abbrev S128x40 : Shape := ⟨2, ![128, 40]⟩
abbrev S40 : Shape := ⟨1, ![40]⟩
abbrev S100000 : Shape := ⟨1, ![100000]⟩
abbrev S1x640000 : Shape := ⟨2, ![1, 640000]⟩
abbrev S740000 : Shape := ⟨1, ![740000]⟩
abbrev S_ : Shape := ⟨0, ![]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S740000x1 : Shape := ⟨2, ![740000, 1]⟩
abbrev S740000x128 : Shape := ⟨2, ![740000, 128]⟩
abbrev S100000x1 : Shape := ⟨2, ![100000, 1]⟩
abbrev S100000x40 : Shape := ⟨2, ![100000, 40]⟩
abbrev S740000x40 : Shape := ⟨2, ![740000, 40]⟩
abbrev S1x40 : Shape := ⟨2, ![1, 40]⟩

abbrev nBuf : Space → Nat
  | .hbm => 612
  | .vmem => 0
  | .smem => 0
  | _ => 0

abbrev hbmTy0_0 (i : Nat) : BufTy := match i % 128 with
  | 0 => ⟨S100000x128, .f32⟩
  | 1 => ⟨S2x640000, .i32⟩
  | 2 => ⟨S640000, .f32⟩
  | 3 => ⟨S8x128x128, .f32⟩
  | 4 => ⟨S8x128, .f32⟩
  | 5 => ⟨S128x40, .f32⟩
  | 6 => ⟨S40, .f32⟩
  | 7 => ⟨S100000, .i32⟩
  | 8 => ⟨S1x640000, .i32⟩
  | 9 => ⟨S640000, .i32⟩
  | 10 => ⟨S740000, .i32⟩
  | 11 => ⟨S1x640000, .i32⟩
  | 12 => ⟨S640000, .i32⟩
  | 13 => ⟨S740000, .i32⟩
  | 14 => ⟨S_, .f32⟩
  | 15 => ⟨S100000, .f32⟩
  | 16 => ⟨S740000, .f32⟩
  | 17 => ⟨S1x128x128, .f32⟩
  | 18 => ⟨S128x128, .f32⟩
  | 19 => ⟨S1x128, .f32⟩
  | 20 => ⟨S128, .f32⟩
  | 21 => ⟨S100000x128, .f32⟩
  | 22 => ⟨S_, .f32⟩
  | 23 => ⟨S100000, .f32⟩
  | 24 => ⟨S740000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S740000, .i32⟩
  | 36 => ⟨S740000, .i1⟩
  | 37 => ⟨S_, .i32⟩
  | 38 => ⟨S740000, .i32⟩
  | 39 => ⟨S740000, .i32⟩
  | 40 => ⟨S740000, .i32⟩
  | 41 => ⟨S740000x1, .i32⟩
  | 42 => ⟨S740000, .f32⟩
  | 43 => ⟨S740000, .f32⟩
  | 44 => ⟨S_, .i32⟩
  | 45 => ⟨S740000, .i32⟩
  | 46 => ⟨S740000, .i1⟩
  | 47 => ⟨S_, .i32⟩
  | 48 => ⟨S740000, .i32⟩
  | 49 => ⟨S740000, .i32⟩
  | 50 => ⟨S740000, .i32⟩
  | 51 => ⟨S740000x1, .i32⟩
  | 52 => ⟨S740000, .f32⟩
  | 53 => ⟨S740000, .f32⟩
  | 54 => ⟨S_, .i32⟩
  | 55 => ⟨S740000, .i32⟩
  | 56 => ⟨S740000, .i1⟩
  | 57 => ⟨S_, .i32⟩
  | 58 => ⟨S740000, .i32⟩
  | 59 => ⟨S740000, .i32⟩
  | 60 => ⟨S740000, .i32⟩
  | 61 => ⟨S740000x1, .i32⟩
  | 62 => ⟨S740000x128, .f32⟩
  | 63 => ⟨S740000x1, .f32⟩
  | 64 => ⟨S740000x128, .f32⟩
  | 65 => ⟨S740000x128, .f32⟩
  | 66 => ⟨S_, .f32⟩
  | 67 => ⟨S100000x128, .f32⟩
  | 68 => ⟨S740000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S1x128x128, .f32⟩
  | 77 => ⟨S128x128, .f32⟩
  | 78 => ⟨S1x128, .f32⟩
  | 79 => ⟨S128, .f32⟩
  | 80 => ⟨S100000x128, .f32⟩
  | 81 => ⟨S_, .f32⟩
  | 82 => ⟨S100000, .f32⟩
  | 83 => ⟨S740000x1, .i32⟩
  | 84 => ⟨S100000, .f32⟩
  | 85 => ⟨S_, .f32⟩
  | 86 => ⟨S100000, .f32⟩
  | 87 => ⟨S100000, .i1⟩
  | 88 => ⟨S100000, .f32⟩
  | 89 => ⟨S_, .f32⟩
  | 90 => ⟨S_, .f32⟩
  | 91 => ⟨S100000, .f32⟩
  | 92 => ⟨S100000, .f32⟩
  | 93 => ⟨S_, .i32⟩
  | 94 => ⟨S740000, .i32⟩
  | 95 => ⟨S740000, .i1⟩
  | 96 => ⟨S_, .i32⟩
  | 97 => ⟨S740000, .i32⟩
  | 98 => ⟨S740000, .i32⟩
  | 99 => ⟨S740000, .i32⟩
  | 100 => ⟨S740000x1, .i32⟩
  | 101 => ⟨S740000, .f32⟩
  | 102 => ⟨S740000, .f32⟩
  | 103 => ⟨S_, .i32⟩
  | 104 => ⟨S740000, .i32⟩
  | 105 => ⟨S740000, .i1⟩
  | 106 => ⟨S_, .i32⟩
  | 107 => ⟨S740000, .i32⟩
  | 108 => ⟨S740000, .i32⟩
  | 109 => ⟨S740000, .i32⟩
  | 110 => ⟨S740000x1, .i32⟩
  | 111 => ⟨S740000, .f32⟩
  | 112 => ⟨S740000, .f32⟩
  | 113 => ⟨S_, .i32⟩
  | 114 => ⟨S740000, .i32⟩
  | 115 => ⟨S740000, .i1⟩
  | 116 => ⟨S_, .i32⟩
  | 117 => ⟨S740000, .i32⟩
  | 118 => ⟨S740000, .i32⟩
  | 119 => ⟨S740000, .i32⟩
  | 120 => ⟨S740000x1, .i32⟩
  | 121 => ⟨S740000x128, .f32⟩
  | 122 => ⟨S740000x1, .f32⟩
  | 123 => ⟨S740000x128, .f32⟩
  | 124 => ⟨S740000x128, .f32⟩
  | 125 => ⟨S_, .f32⟩
  | 126 => ⟨S100000x128, .f32⟩
  | 127 => ⟨S740000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S100000x128, .f32⟩
  | 8 => ⟨S_, .f32⟩
  | 9 => ⟨S100000, .f32⟩
  | 10 => ⟨S100000x1, .f32⟩
  | 11 => ⟨S100000x1, .f32⟩
  | 12 => ⟨S_, .f32⟩
  | 13 => ⟨S100000x1, .f32⟩
  | 14 => ⟨S100000x1, .f32⟩
  | 15 => ⟨S100000x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x128x128, .f32⟩
  | 22 => ⟨S128x128, .f32⟩
  | 23 => ⟨S1x128, .f32⟩
  | 24 => ⟨S128, .f32⟩
  | 25 => ⟨S100000x128, .f32⟩
  | 26 => ⟨S_, .f32⟩
  | 27 => ⟨S100000, .f32⟩
  | 28 => ⟨S740000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S740000, .i32⟩
  | 40 => ⟨S740000, .i1⟩
  | 41 => ⟨S_, .i32⟩
  | 42 => ⟨S740000, .i32⟩
  | 43 => ⟨S740000, .i32⟩
  | 44 => ⟨S740000, .i32⟩
  | 45 => ⟨S740000x1, .i32⟩
  | 46 => ⟨S740000, .f32⟩
  | 47 => ⟨S740000, .f32⟩
  | 48 => ⟨S_, .i32⟩
  | 49 => ⟨S740000, .i32⟩
  | 50 => ⟨S740000, .i1⟩
  | 51 => ⟨S_, .i32⟩
  | 52 => ⟨S740000, .i32⟩
  | 53 => ⟨S740000, .i32⟩
  | 54 => ⟨S740000, .i32⟩
  | 55 => ⟨S740000x1, .i32⟩
  | 56 => ⟨S740000, .f32⟩
  | 57 => ⟨S740000, .f32⟩
  | 58 => ⟨S_, .i32⟩
  | 59 => ⟨S740000, .i32⟩
  | 60 => ⟨S740000, .i1⟩
  | 61 => ⟨S_, .i32⟩
  | 62 => ⟨S740000, .i32⟩
  | 63 => ⟨S740000, .i32⟩
  | 64 => ⟨S740000, .i32⟩
  | 65 => ⟨S740000x1, .i32⟩
  | 66 => ⟨S740000x128, .f32⟩
  | 67 => ⟨S740000x1, .f32⟩
  | 68 => ⟨S740000x128, .f32⟩
  | 69 => ⟨S740000x128, .f32⟩
  | 70 => ⟨S_, .f32⟩
  | 71 => ⟨S100000x128, .f32⟩
  | 72 => ⟨S740000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S1x128x128, .f32⟩
  | 81 => ⟨S128x128, .f32⟩
  | 82 => ⟨S1x128, .f32⟩
  | 83 => ⟨S128, .f32⟩
  | 84 => ⟨S100000x128, .f32⟩
  | 85 => ⟨S_, .f32⟩
  | 86 => ⟨S100000, .f32⟩
  | 87 => ⟨S740000x1, .i32⟩
  | 88 => ⟨S100000, .f32⟩
  | 89 => ⟨S_, .f32⟩
  | 90 => ⟨S100000, .f32⟩
  | 91 => ⟨S100000, .i1⟩
  | 92 => ⟨S100000, .f32⟩
  | 93 => ⟨S_, .f32⟩
  | 94 => ⟨S_, .f32⟩
  | 95 => ⟨S100000, .f32⟩
  | 96 => ⟨S100000, .f32⟩
  | 97 => ⟨S_, .i32⟩
  | 98 => ⟨S740000, .i32⟩
  | 99 => ⟨S740000, .i1⟩
  | 100 => ⟨S_, .i32⟩
  | 101 => ⟨S740000, .i32⟩
  | 102 => ⟨S740000, .i32⟩
  | 103 => ⟨S740000, .i32⟩
  | 104 => ⟨S740000x1, .i32⟩
  | 105 => ⟨S740000, .f32⟩
  | 106 => ⟨S740000, .f32⟩
  | 107 => ⟨S_, .i32⟩
  | 108 => ⟨S740000, .i32⟩
  | 109 => ⟨S740000, .i1⟩
  | 110 => ⟨S_, .i32⟩
  | 111 => ⟨S740000, .i32⟩
  | 112 => ⟨S740000, .i32⟩
  | 113 => ⟨S740000, .i32⟩
  | 114 => ⟨S740000x1, .i32⟩
  | 115 => ⟨S740000, .f32⟩
  | 116 => ⟨S740000, .f32⟩
  | 117 => ⟨S_, .i32⟩
  | 118 => ⟨S740000, .i32⟩
  | 119 => ⟨S740000, .i1⟩
  | 120 => ⟨S_, .i32⟩
  | 121 => ⟨S740000, .i32⟩
  | 122 => ⟨S740000, .i32⟩
  | 123 => ⟨S740000, .i32⟩
  | 124 => ⟨S740000x1, .i32⟩
  | 125 => ⟨S740000x128, .f32⟩
  | 126 => ⟨S740000x1, .f32⟩
  | 127 => ⟨S740000x128, .f32⟩
  | _ => ⟨S100000x128, .f32⟩

abbrev hbmTy0_2 (i : Nat) : BufTy := match i % 128 with
  | 0 => ⟨S740000x128, .f32⟩
  | 1 => ⟨S_, .f32⟩
  | 2 => ⟨S100000x128, .f32⟩
  | 3 => ⟨S740000x1, .i32⟩
  | 4 => ⟨S100000x128, .f32⟩
  | 5 => ⟨S1x128, .f32⟩
  | 6 => ⟨S100000x128, .f32⟩
  | 7 => ⟨S100000x128, .f32⟩
  | 8 => ⟨S_, .f32⟩
  | 9 => ⟨S100000x128, .f32⟩
  | 10 => ⟨S100000x128, .f32⟩
  | 11 => ⟨S100000x128, .f32⟩
  | 12 => ⟨S_, .f32⟩
  | 13 => ⟨S100000, .f32⟩
  | 14 => ⟨S100000x1, .f32⟩
  | 15 => ⟨S100000x1, .f32⟩
  | 16 => ⟨S_, .f32⟩
  | 17 => ⟨S100000x1, .f32⟩
  | 18 => ⟨S100000x1, .f32⟩
  | 19 => ⟨S100000x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S1x128x128, .f32⟩
  | 26 => ⟨S128x128, .f32⟩
  | 27 => ⟨S1x128, .f32⟩
  | 28 => ⟨S128, .f32⟩
  | 29 => ⟨S100000x128, .f32⟩
  | 30 => ⟨S_, .f32⟩
  | 31 => ⟨S100000, .f32⟩
  | 32 => ⟨S740000x1, .i32⟩
  | 33 => ⟨S100000, .f32⟩
  | 34 => ⟨S_, .f32⟩
  | 35 => ⟨S100000, .f32⟩
  | 36 => ⟨S100000, .i1⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S740000, .i32⟩
  | 44 => ⟨S740000, .i1⟩
  | 45 => ⟨S_, .i32⟩
  | 46 => ⟨S740000, .i32⟩
  | 47 => ⟨S740000, .i32⟩
  | 48 => ⟨S740000, .i32⟩
  | 49 => ⟨S740000x1, .i32⟩
  | 50 => ⟨S740000, .f32⟩
  | 51 => ⟨S740000, .f32⟩
  | 52 => ⟨S_, .i32⟩
  | 53 => ⟨S740000, .i32⟩
  | 54 => ⟨S740000, .i1⟩
  | 55 => ⟨S_, .i32⟩
  | 56 => ⟨S740000, .i32⟩
  | 57 => ⟨S740000, .i32⟩
  | 58 => ⟨S740000, .i32⟩
  | 59 => ⟨S740000x1, .i32⟩
  | 60 => ⟨S740000, .f32⟩
  | 61 => ⟨S740000, .f32⟩
  | 62 => ⟨S_, .i32⟩
  | 63 => ⟨S740000, .i32⟩
  | 64 => ⟨S740000, .i1⟩
  | 65 => ⟨S_, .i32⟩
  | 66 => ⟨S740000, .i32⟩
  | 67 => ⟨S740000, .i32⟩
  | 68 => ⟨S740000, .i32⟩
  | 69 => ⟨S740000x1, .i32⟩
  | 70 => ⟨S740000x128, .f32⟩
  | 71 => ⟨S740000x1, .f32⟩
  | 72 => ⟨S740000x128, .f32⟩
  | 73 => ⟨S740000x128, .f32⟩
  | 74 => ⟨S_, .f32⟩
  | 75 => ⟨S100000x128, .f32⟩
  | 76 => ⟨S740000x1, .i32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S1x128x128, .f32⟩
  | 85 => ⟨S128x128, .f32⟩
  | 86 => ⟨S1x128, .f32⟩
  | 87 => ⟨S128, .f32⟩
  | 88 => ⟨S100000x128, .f32⟩
  | 89 => ⟨S_, .f32⟩
  | 90 => ⟨S100000, .f32⟩
  | 91 => ⟨S740000x1, .i32⟩
  | 92 => ⟨S100000, .f32⟩
  | 93 => ⟨S_, .f32⟩
  | 94 => ⟨S100000, .f32⟩
  | 95 => ⟨S100000, .i1⟩
  | 96 => ⟨S100000, .f32⟩
  | 97 => ⟨S_, .f32⟩
  | 98 => ⟨S_, .f32⟩
  | 99 => ⟨S100000, .f32⟩
  | 100 => ⟨S100000, .f32⟩
  | 101 => ⟨S_, .i32⟩
  | 102 => ⟨S740000, .i32⟩
  | 103 => ⟨S740000, .i1⟩
  | 104 => ⟨S_, .i32⟩
  | 105 => ⟨S740000, .i32⟩
  | 106 => ⟨S740000, .i32⟩
  | 107 => ⟨S740000, .i32⟩
  | 108 => ⟨S740000x1, .i32⟩
  | 109 => ⟨S740000, .f32⟩
  | 110 => ⟨S740000, .f32⟩
  | 111 => ⟨S_, .i32⟩
  | 112 => ⟨S740000, .i32⟩
  | 113 => ⟨S740000, .i1⟩
  | 114 => ⟨S_, .i32⟩
  | 115 => ⟨S740000, .i32⟩
  | 116 => ⟨S740000, .i32⟩
  | 117 => ⟨S740000, .i32⟩
  | 118 => ⟨S740000x1, .i32⟩
  | 119 => ⟨S740000, .f32⟩
  | 120 => ⟨S740000, .f32⟩
  | 121 => ⟨S_, .i32⟩
  | 122 => ⟨S740000, .i32⟩
  | 123 => ⟨S740000, .i1⟩
  | 124 => ⟨S_, .i32⟩
  | 125 => ⟨S740000, .i32⟩
  | 126 => ⟨S740000, .i32⟩
  | 127 => ⟨S740000, .i32⟩
  | _ => ⟨S100000x128, .f32⟩

abbrev hbmTy0_3 (i : Nat) : BufTy := match i % 128 with
  | 0 => ⟨S740000x1, .i32⟩
  | 1 => ⟨S740000x128, .f32⟩
  | 2 => ⟨S740000x1, .f32⟩
  | 3 => ⟨S740000x128, .f32⟩
  | 4 => ⟨S740000x128, .f32⟩
  | 5 => ⟨S_, .f32⟩
  | 6 => ⟨S100000x128, .f32⟩
  | 7 => ⟨S740000x1, .i32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x128, .f32⟩
  | 16 => ⟨S_, .f32⟩
  | 17 => ⟨S100000, .f32⟩
  | 18 => ⟨S100000x1, .f32⟩
  | 19 => ⟨S100000x1, .f32⟩
  | 20 => ⟨S_, .f32⟩
  | 21 => ⟨S100000x1, .f32⟩
  | 22 => ⟨S100000x1, .f32⟩
  | 23 => ⟨S100000x128, .f32⟩
  | 24 => ⟨S100000x128, .f32⟩
  | 25 => ⟨S100000x128, .f32⟩
  | 26 => ⟨S_, .f32⟩
  | 27 => ⟨S100000x128, .f32⟩
  | 28 => ⟨S100000x128, .f32⟩
  | 29 => ⟨S1x128x128, .f32⟩
  | 30 => ⟨S128x128, .f32⟩
  | 31 => ⟨S1x128, .f32⟩
  | 32 => ⟨S128, .f32⟩
  | 33 => ⟨S100000x128, .f32⟩
  | 34 => ⟨S_, .f32⟩
  | 35 => ⟨S100000, .f32⟩
  | 36 => ⟨S740000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000, .f32⟩
  | 55 => ⟨S740000, .f32⟩
  | 56 => ⟨S_, .i32⟩
  | 57 => ⟨S740000, .i32⟩
  | 58 => ⟨S740000, .i1⟩
  | 59 => ⟨S_, .i32⟩
  | 60 => ⟨S740000, .i32⟩
  | 61 => ⟨S740000, .i32⟩
  | 62 => ⟨S740000, .i32⟩
  | 63 => ⟨S740000x1, .i32⟩
  | 64 => ⟨S740000, .f32⟩
  | 65 => ⟨S740000, .f32⟩
  | 66 => ⟨S_, .i32⟩
  | 67 => ⟨S740000, .i32⟩
  | 68 => ⟨S740000, .i1⟩
  | 69 => ⟨S_, .i32⟩
  | 70 => ⟨S740000, .i32⟩
  | 71 => ⟨S740000, .i32⟩
  | 72 => ⟨S740000, .i32⟩
  | 73 => ⟨S740000x1, .i32⟩
  | 74 => ⟨S740000x128, .f32⟩
  | 75 => ⟨S740000x1, .f32⟩
  | 76 => ⟨S740000x128, .f32⟩
  | 77 => ⟨S740000x128, .f32⟩
  | 78 => ⟨S_, .f32⟩
  | 79 => ⟨S100000x128, .f32⟩
  | 80 => ⟨S740000x1, .i32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S100000x128, .f32⟩
  | 93 => ⟨S_, .f32⟩
  | 94 => ⟨S100000, .f32⟩
  | 95 => ⟨S740000x1, .i32⟩
  | 96 => ⟨S100000, .f32⟩
  | 97 => ⟨S_, .f32⟩
  | 98 => ⟨S100000, .f32⟩
  | 99 => ⟨S100000, .i1⟩
  | 100 => ⟨S100000, .f32⟩
  | 101 => ⟨S_, .f32⟩
  | 102 => ⟨S_, .f32⟩
  | 103 => ⟨S100000, .f32⟩
  | 104 => ⟨S100000, .f32⟩
  | 105 => ⟨S_, .i32⟩
  | 106 => ⟨S740000, .i32⟩
  | 107 => ⟨S740000, .i1⟩
  | 108 => ⟨S_, .i32⟩
  | 109 => ⟨S740000, .i32⟩
  | 110 => ⟨S740000, .i32⟩
  | 111 => ⟨S740000, .i32⟩
  | 112 => ⟨S740000x1, .i32⟩
  | 113 => ⟨S740000, .f32⟩
  | 114 => ⟨S740000, .f32⟩
  | 115 => ⟨S_, .i32⟩
  | 116 => ⟨S740000, .i32⟩
  | 117 => ⟨S740000, .i1⟩
  | 118 => ⟨S_, .i32⟩
  | 119 => ⟨S740000, .i32⟩
  | 120 => ⟨S740000, .i32⟩
  | 121 => ⟨S740000, .i32⟩
  | 122 => ⟨S740000x1, .i32⟩
  | 123 => ⟨S740000, .f32⟩
  | 124 => ⟨S740000, .f32⟩
  | 125 => ⟨S_, .i32⟩
  | 126 => ⟨S740000, .i32⟩
  | 127 => ⟨S740000, .i1⟩
  | _ => ⟨S100000x128, .f32⟩

abbrev hbmTy0_4 (i : Nat) : BufTy := match i % 128 with
  | 0 => ⟨S_, .i32⟩
  | 1 => ⟨S740000, .i32⟩
  | 2 => ⟨S740000, .i32⟩
  | 3 => ⟨S740000, .i32⟩
  | 4 => ⟨S740000x1, .i32⟩
  | 5 => ⟨S740000x128, .f32⟩
  | 6 => ⟨S740000x1, .f32⟩
  | 7 => ⟨S740000x128, .f32⟩
  | 8 => ⟨S740000x128, .f32⟩
  | 9 => ⟨S_, .f32⟩
  | 10 => ⟨S100000x128, .f32⟩
  | 11 => ⟨S740000x1, .i32⟩
  | 12 => ⟨S100000x128, .f32⟩
  | 13 => ⟨S1x128, .f32⟩
  | 14 => ⟨S100000x128, .f32⟩
  | 15 => ⟨S100000x128, .f32⟩
  | 16 => ⟨S_, .f32⟩
  | 17 => ⟨S100000x128, .f32⟩
  | 18 => ⟨S100000x128, .f32⟩
  | 19 => ⟨S100000x128, .f32⟩
  | 20 => ⟨S_, .f32⟩
  | 21 => ⟨S100000, .f32⟩
  | 22 => ⟨S100000x1, .f32⟩
  | 23 => ⟨S100000x1, .f32⟩
  | 24 => ⟨S_, .f32⟩
  | 25 => ⟨S100000x1, .f32⟩
  | 26 => ⟨S100000x1, .f32⟩
  | 27 => ⟨S100000x128, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x40, .f32⟩
  | 34 => ⟨S_, .f32⟩
  | 35 => ⟨S100000, .f32⟩
  | 36 => ⟨S740000x1, .i32⟩
  | 37 => ⟨S100000, .f32⟩
  | 38 => ⟨S_, .f32⟩
  | 39 => ⟨S100000, .f32⟩
  | 40 => ⟨S100000, .i1⟩
  | 41 => ⟨S100000, .f32⟩
  | 42 => ⟨S_, .f32⟩
  | 43 => ⟨S_, .f32⟩
  | 44 => ⟨S100000, .f32⟩
  | 45 => ⟨S100000, .f32⟩
  | 46 => ⟨S_, .i32⟩
  | 47 => ⟨S740000, .i32⟩
  | 48 => ⟨S740000, .i1⟩
  | 49 => ⟨S_, .i32⟩
  | 50 => ⟨S740000, .i32⟩
  | 51 => ⟨S740000, .i32⟩
  | 52 => ⟨S740000, .i32⟩
  | 53 => ⟨S740000x1, .i32⟩
  | 54 => ⟨S740000, .f32⟩
  | 55 => ⟨S740000, .f32⟩
  | 56 => ⟨S_, .i32⟩
  | 57 => ⟨S740000, .i32⟩
  | 58 => ⟨S740000, .i1⟩
  | 59 => ⟨S_, .i32⟩
  | 60 => ⟨S740000, .i32⟩
  | 61 => ⟨S740000, .i32⟩
  | 62 => ⟨S740000, .i32⟩
  | 63 => ⟨S740000x1, .i32⟩
  | 64 => ⟨S740000, .f32⟩
  | 65 => ⟨S740000, .f32⟩
  | 66 => ⟨S_, .i32⟩
  | 67 => ⟨S740000, .i32⟩
  | 68 => ⟨S740000, .i1⟩
  | 69 => ⟨S_, .i32⟩
  | 70 => ⟨S740000, .i32⟩
  | 71 => ⟨S740000, .i32⟩
  | 72 => ⟨S740000, .i32⟩
  | 73 => ⟨S740000x1, .i32⟩
  | 74 => ⟨S740000x40, .f32⟩
  | 75 => ⟨S740000x1, .f32⟩
  | 76 => ⟨S740000x40, .f32⟩
  | 77 => ⟨S740000x40, .f32⟩
  | 78 => ⟨S_, .f32⟩
  | 79 => ⟨S100000x40, .f32⟩
  | 80 => ⟨S740000x1, .i32⟩
  | 81 => ⟨S100000x40, .f32⟩
  | 82 => ⟨S1x40, .f32⟩
  | 83 => ⟨S100000x40, .f32⟩
  | 84 => ⟨S100000x40, .f32⟩
  | 85 => ⟨S_, .f32⟩
  | 86 => ⟨S100000, .f32⟩
  | 87 => ⟨S_, .f32⟩
  | 88 => ⟨S100000, .f32⟩
  | 89 => ⟨S100000, .f32⟩
  | 90 => ⟨S100000x1, .f32⟩
  | 91 => ⟨S100000x40, .f32⟩
  | 92 => ⟨S100000x40, .f32⟩
  | 93 => ⟨S100000x40, .f32⟩
  | 94 => ⟨S_, .f32⟩
  | 95 => ⟨S100000, .f32⟩
  | 96 => ⟨S100000x1, .f32⟩
  | 97 => ⟨S100000x1, .f32⟩
  | 98 => ⟨S100000x40, .f32⟩
  | 99 => ⟨S100000x40, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call1_cst : Ref sig .tc := ⟨.hbm, 73, rfl⟩
abbrev main_call1_v0 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_9 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_call2_v0 : Ref sig .tc := ⟨.hbm, 90, rfl⟩
abbrev main_call2_v1 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_c_14 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_16 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_18 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_call3_cst : Ref sig .tc := ⟨.hbm, 132, rfl⟩
abbrev main_call3_v0 : Ref sig .tc := ⟨.hbm, 133, rfl⟩
abbrev main_v98 : Ref sig .tc := ⟨.hbm, 134, rfl⟩
abbrev main_call4_v0 : Ref sig .tc := ⟨.hbm, 135, rfl⟩
abbrev main_call4_cst : Ref sig .tc := ⟨.hbm, 136, rfl⟩
abbrev main_call4_v1 : Ref sig .tc := ⟨.hbm, 137, rfl⟩
abbrev main_call4_v2 : Ref sig .tc := ⟨.hbm, 138, rfl⟩
abbrev main_v99 : Ref sig .tc := ⟨.hbm, 139, rfl⟩
abbrev main_cst_19 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_20 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_cst_21 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_23 : Ref sig .tc := ⟨.hbm, 162, rfl⟩
abbrev main_call5_v0 : Ref sig .tc := ⟨.hbm, 163, rfl⟩
abbrev main_call5_v1 : Ref sig .tc := ⟨.hbm, 164, rfl⟩
abbrev main_v118 : Ref sig .tc := ⟨.hbm, 165, rfl⟩
abbrev main_c_24 : Ref sig .tc := ⟨.hbm, 166, rfl⟩
abbrev main_v119 : Ref sig .tc := ⟨.hbm, 167, rfl⟩
abbrev main_v120 : Ref sig .tc := ⟨.hbm, 168, rfl⟩
abbrev main_c_25 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_26 : Ref sig .tc := ⟨.hbm, 176, rfl⟩
abbrev main_v127 : Ref sig .tc := ⟨.hbm, 177, rfl⟩
abbrev main_v128 : Ref sig .tc := ⟨.hbm, 178, rfl⟩
abbrev main_c_27 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_c_28 : Ref sig .tc := ⟨.hbm, 186, rfl⟩
abbrev main_v135 : Ref sig .tc := ⟨.hbm, 187, rfl⟩
abbrev main_v136 : Ref sig .tc := ⟨.hbm, 188, rfl⟩
abbrev main_c_29 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_30 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_call6_cst : Ref sig .tc := ⟨.hbm, 205, rfl⟩
abbrev main_call6_v0 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_cst_31 : Ref sig .tc := ⟨.hbm, 213, rfl⟩
abbrev main_v157 : Ref sig .tc := ⟨.hbm, 214, rfl⟩
abbrev main_v158 : Ref sig .tc := ⟨.hbm, 215, rfl⟩
abbrev main_v159 : Ref sig .tc := ⟨.hbm, 216, rfl⟩
abbrev main_cst_32 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_33 : Ref sig .tc := ⟨.hbm, 221, rfl⟩
abbrev main_call7_v0 : Ref sig .tc := ⟨.hbm, 222, rfl⟩
abbrev main_call7_v1 : Ref sig .tc := ⟨.hbm, 223, rfl⟩
abbrev main_v163 : Ref sig .tc := ⟨.hbm, 224, rfl⟩
abbrev main_c_34 : Ref sig .tc := ⟨.hbm, 225, rfl⟩
abbrev main_v164 : Ref sig .tc := ⟨.hbm, 226, rfl⟩
abbrev main_v165 : Ref sig .tc := ⟨.hbm, 227, rfl⟩
abbrev main_c_35 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_c_36 : Ref sig .tc := ⟨.hbm, 235, rfl⟩
abbrev main_v172 : Ref sig .tc := ⟨.hbm, 236, rfl⟩
abbrev main_v173 : Ref sig .tc := ⟨.hbm, 237, rfl⟩
abbrev main_c_37 : Ref sig .tc := ⟨.hbm, 238, rfl⟩
abbrev main_v174 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_c_38 : Ref sig .tc := ⟨.hbm, 245, rfl⟩
abbrev main_v180 : Ref sig .tc := ⟨.hbm, 246, rfl⟩
abbrev main_v181 : Ref sig .tc := ⟨.hbm, 247, rfl⟩
abbrev main_c_39 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_cst_40 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_call8_cst : Ref sig .tc := ⟨.hbm, 264, rfl⟩
abbrev main_call8_v0 : Ref sig .tc := ⟨.hbm, 265, rfl⟩
abbrev main_v196 : Ref sig .tc := ⟨.hbm, 266, rfl⟩
abbrev main_call9_v0 : Ref sig .tc := ⟨.hbm, 267, rfl⟩
abbrev main_call9_cst : Ref sig .tc := ⟨.hbm, 268, rfl⟩
abbrev main_call9_v1 : Ref sig .tc := ⟨.hbm, 269, rfl⟩
abbrev main_call9_v2 : Ref sig .tc := ⟨.hbm, 270, rfl⟩
abbrev main_v197 : Ref sig .tc := ⟨.hbm, 271, rfl⟩
abbrev main_cst_41 : Ref sig .tc := ⟨.hbm, 272, rfl⟩
abbrev main_v198 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_v202 : Ref sig .tc := ⟨.hbm, 277, rfl⟩
abbrev main_cst_42 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_cst_43 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_cst_44 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_45 : Ref sig .tc := ⟨.hbm, 294, rfl⟩
abbrev main_call10_v0 : Ref sig .tc := ⟨.hbm, 295, rfl⟩
abbrev main_call10_v1 : Ref sig .tc := ⟨.hbm, 296, rfl⟩
abbrev main_v216 : Ref sig .tc := ⟨.hbm, 297, rfl⟩
abbrev main_c_46 : Ref sig .tc := ⟨.hbm, 298, rfl⟩
abbrev main_v217 : Ref sig .tc := ⟨.hbm, 299, rfl⟩
abbrev main_v218 : Ref sig .tc := ⟨.hbm, 300, rfl⟩
abbrev main_c_47 : Ref sig .tc := ⟨.hbm, 301, rfl⟩
abbrev main_v219 : Ref sig .tc := ⟨.hbm, 302, rfl⟩
abbrev main_v220 : Ref sig .tc := ⟨.hbm, 303, rfl⟩
abbrev main_v221 : Ref sig .tc := ⟨.hbm, 304, rfl⟩
abbrev main_v222 : Ref sig .tc := ⟨.hbm, 305, rfl⟩
abbrev main_v223 : Ref sig .tc := ⟨.hbm, 306, rfl⟩
abbrev main_v224 : Ref sig .tc := ⟨.hbm, 307, rfl⟩
abbrev main_c_48 : Ref sig .tc := ⟨.hbm, 308, rfl⟩
abbrev main_v225 : Ref sig .tc := ⟨.hbm, 309, rfl⟩
abbrev main_v226 : Ref sig .tc := ⟨.hbm, 310, rfl⟩
abbrev main_c_49 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_v232 : Ref sig .tc := ⟨.hbm, 317, rfl⟩
abbrev main_c_50 : Ref sig .tc := ⟨.hbm, 318, rfl⟩
abbrev main_v233 : Ref sig .tc := ⟨.hbm, 319, rfl⟩
abbrev main_v234 : Ref sig .tc := ⟨.hbm, 320, rfl⟩
abbrev main_c_51 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_v239 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_cst_52 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_v247 : Ref sig .tc := ⟨.hbm, 335, rfl⟩
abbrev main_v248 : Ref sig .tc := ⟨.hbm, 336, rfl⟩
abbrev main_call11_cst : Ref sig .tc := ⟨.hbm, 337, rfl⟩
abbrev main_call11_v0 : Ref sig .tc := ⟨.hbm, 338, rfl⟩
abbrev main_v249 : Ref sig .tc := ⟨.hbm, 339, rfl⟩
abbrev main_v250 : Ref sig .tc := ⟨.hbm, 340, rfl⟩
abbrev main_v251 : Ref sig .tc := ⟨.hbm, 341, rfl⟩
abbrev main_v252 : Ref sig .tc := ⟨.hbm, 342, rfl⟩
abbrev main_v253 : Ref sig .tc := ⟨.hbm, 343, rfl⟩
abbrev main_v254 : Ref sig .tc := ⟨.hbm, 344, rfl⟩
abbrev main_cst_53 : Ref sig .tc := ⟨.hbm, 345, rfl⟩
abbrev main_v255 : Ref sig .tc := ⟨.hbm, 346, rfl⟩
abbrev main_v256 : Ref sig .tc := ⟨.hbm, 347, rfl⟩
abbrev main_v257 : Ref sig .tc := ⟨.hbm, 348, rfl⟩
abbrev main_cst_54 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_cst_55 : Ref sig .tc := ⟨.hbm, 353, rfl⟩
abbrev main_call12_v0 : Ref sig .tc := ⟨.hbm, 354, rfl⟩
abbrev main_call12_v1 : Ref sig .tc := ⟨.hbm, 355, rfl⟩
abbrev main_v261 : Ref sig .tc := ⟨.hbm, 356, rfl⟩
abbrev main_c_56 : Ref sig .tc := ⟨.hbm, 357, rfl⟩
abbrev main_v262 : Ref sig .tc := ⟨.hbm, 358, rfl⟩
abbrev main_v263 : Ref sig .tc := ⟨.hbm, 359, rfl⟩
abbrev main_c_57 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_c_58 : Ref sig .tc := ⟨.hbm, 367, rfl⟩
abbrev main_v270 : Ref sig .tc := ⟨.hbm, 368, rfl⟩
abbrev main_v271 : Ref sig .tc := ⟨.hbm, 369, rfl⟩
abbrev main_c_59 : Ref sig .tc := ⟨.hbm, 370, rfl⟩
abbrev main_v272 : Ref sig .tc := ⟨.hbm, 371, rfl⟩
abbrev main_v273 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_c_60 : Ref sig .tc := ⟨.hbm, 377, rfl⟩
abbrev main_v278 : Ref sig .tc := ⟨.hbm, 378, rfl⟩
abbrev main_v279 : Ref sig .tc := ⟨.hbm, 379, rfl⟩
abbrev main_c_61 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_v284 : Ref sig .tc := ⟨.hbm, 385, rfl⟩
abbrev main_v285 : Ref sig .tc := ⟨.hbm, 386, rfl⟩
abbrev main_v286 : Ref sig .tc := ⟨.hbm, 387, rfl⟩
abbrev main_v287 : Ref sig .tc := ⟨.hbm, 388, rfl⟩
abbrev main_cst_62 : Ref sig .tc := ⟨.hbm, 389, rfl⟩
abbrev main_v288 : Ref sig .tc := ⟨.hbm, 390, rfl⟩
abbrev main_v289 : Ref sig .tc := ⟨.hbm, 391, rfl⟩
abbrev main_v290 : Ref sig .tc := ⟨.hbm, 392, rfl⟩
abbrev main_v291 : Ref sig .tc := ⟨.hbm, 393, rfl⟩
abbrev main_v292 : Ref sig .tc := ⟨.hbm, 394, rfl⟩
abbrev main_v293 : Ref sig .tc := ⟨.hbm, 395, rfl⟩
abbrev main_call13_cst : Ref sig .tc := ⟨.hbm, 396, rfl⟩
abbrev main_call13_v0 : Ref sig .tc := ⟨.hbm, 397, rfl⟩
abbrev main_v294 : Ref sig .tc := ⟨.hbm, 398, rfl⟩
abbrev main_call14_v0 : Ref sig .tc := ⟨.hbm, 399, rfl⟩
abbrev main_call14_cst : Ref sig .tc := ⟨.hbm, 400, rfl⟩
abbrev main_call14_v1 : Ref sig .tc := ⟨.hbm, 401, rfl⟩
abbrev main_call14_v2 : Ref sig .tc := ⟨.hbm, 402, rfl⟩
abbrev main_v295 : Ref sig .tc := ⟨.hbm, 403, rfl⟩
abbrev main_cst_63 : Ref sig .tc := ⟨.hbm, 404, rfl⟩
abbrev main_v296 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_cst_64 : Ref sig .tc := ⟨.hbm, 410, rfl⟩
abbrev main_v301 : Ref sig .tc := ⟨.hbm, 411, rfl⟩
abbrev main_v302 : Ref sig .tc := ⟨.hbm, 412, rfl⟩
abbrev main_v303 : Ref sig .tc := ⟨.hbm, 413, rfl⟩
abbrev main_v304 : Ref sig .tc := ⟨.hbm, 414, rfl⟩
abbrev main_v305 : Ref sig .tc := ⟨.hbm, 415, rfl⟩
abbrev main_v306 : Ref sig .tc := ⟨.hbm, 416, rfl⟩
abbrev main_v307 : Ref sig .tc := ⟨.hbm, 417, rfl⟩
abbrev main_cst_65 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_cst_66 : Ref sig .tc := ⟨.hbm, 422, rfl⟩
abbrev main_v311 : Ref sig .tc := ⟨.hbm, 423, rfl⟩
abbrev main_v312 : Ref sig .tc := ⟨.hbm, 424, rfl⟩
abbrev main_v313 : Ref sig .tc := ⟨.hbm, 425, rfl⟩
abbrev main_cst_67 : Ref sig .tc := ⟨.hbm, 426, rfl⟩
abbrev main_call15_v0 : Ref sig .tc := ⟨.hbm, 427, rfl⟩
abbrev main_call15_v1 : Ref sig .tc := ⟨.hbm, 428, rfl⟩
abbrev main_v314 : Ref sig .tc := ⟨.hbm, 429, rfl⟩
abbrev main_c_68 : Ref sig .tc := ⟨.hbm, 430, rfl⟩
abbrev main_v315 : Ref sig .tc := ⟨.hbm, 431, rfl⟩
abbrev main_v316 : Ref sig .tc := ⟨.hbm, 432, rfl⟩
abbrev main_c_69 : Ref sig .tc := ⟨.hbm, 433, rfl⟩
abbrev main_v317 : Ref sig .tc := ⟨.hbm, 434, rfl⟩
abbrev main_v318 : Ref sig .tc := ⟨.hbm, 435, rfl⟩
abbrev main_v319 : Ref sig .tc := ⟨.hbm, 436, rfl⟩
abbrev main_v320 : Ref sig .tc := ⟨.hbm, 437, rfl⟩
abbrev main_v321 : Ref sig .tc := ⟨.hbm, 438, rfl⟩
abbrev main_v322 : Ref sig .tc := ⟨.hbm, 439, rfl⟩
abbrev main_c_70 : Ref sig .tc := ⟨.hbm, 440, rfl⟩
abbrev main_v323 : Ref sig .tc := ⟨.hbm, 441, rfl⟩
abbrev main_v324 : Ref sig .tc := ⟨.hbm, 442, rfl⟩
abbrev main_c_71 : Ref sig .tc := ⟨.hbm, 443, rfl⟩
abbrev main_v325 : Ref sig .tc := ⟨.hbm, 444, rfl⟩
abbrev main_v326 : Ref sig .tc := ⟨.hbm, 445, rfl⟩
abbrev main_v327 : Ref sig .tc := ⟨.hbm, 446, rfl⟩
abbrev main_v328 : Ref sig .tc := ⟨.hbm, 447, rfl⟩
abbrev main_v329 : Ref sig .tc := ⟨.hbm, 448, rfl⟩
abbrev main_v330 : Ref sig .tc := ⟨.hbm, 449, rfl⟩
abbrev main_c_72 : Ref sig .tc := ⟨.hbm, 450, rfl⟩
abbrev main_v331 : Ref sig .tc := ⟨.hbm, 451, rfl⟩
abbrev main_v332 : Ref sig .tc := ⟨.hbm, 452, rfl⟩
abbrev main_c_73 : Ref sig .tc := ⟨.hbm, 453, rfl⟩
abbrev main_v333 : Ref sig .tc := ⟨.hbm, 454, rfl⟩
abbrev main_v334 : Ref sig .tc := ⟨.hbm, 455, rfl⟩
abbrev main_v335 : Ref sig .tc := ⟨.hbm, 456, rfl⟩
abbrev main_v336 : Ref sig .tc := ⟨.hbm, 457, rfl⟩
abbrev main_v337 : Ref sig .tc := ⟨.hbm, 458, rfl⟩
abbrev main_v338 : Ref sig .tc := ⟨.hbm, 459, rfl⟩
abbrev main_v339 : Ref sig .tc := ⟨.hbm, 460, rfl⟩
abbrev main_v340 : Ref sig .tc := ⟨.hbm, 461, rfl⟩
abbrev main_cst_74 : Ref sig .tc := ⟨.hbm, 462, rfl⟩
abbrev main_v341 : Ref sig .tc := ⟨.hbm, 463, rfl⟩
abbrev main_v342 : Ref sig .tc := ⟨.hbm, 464, rfl⟩
abbrev main_v343 : Ref sig .tc := ⟨.hbm, 465, rfl⟩
abbrev main_v344 : Ref sig .tc := ⟨.hbm, 466, rfl⟩
abbrev main_v345 : Ref sig .tc := ⟨.hbm, 467, rfl⟩
abbrev main_v346 : Ref sig .tc := ⟨.hbm, 468, rfl⟩
abbrev main_call16_cst : Ref sig .tc := ⟨.hbm, 469, rfl⟩
abbrev main_call16_v0 : Ref sig .tc := ⟨.hbm, 470, rfl⟩
abbrev main_v347 : Ref sig .tc := ⟨.hbm, 471, rfl⟩
abbrev main_v348 : Ref sig .tc := ⟨.hbm, 472, rfl⟩
abbrev main_v349 : Ref sig .tc := ⟨.hbm, 473, rfl⟩
abbrev main_v350 : Ref sig .tc := ⟨.hbm, 474, rfl⟩
abbrev main_v351 : Ref sig .tc := ⟨.hbm, 475, rfl⟩
abbrev main_v352 : Ref sig .tc := ⟨.hbm, 476, rfl⟩
abbrev main_cst_75 : Ref sig .tc := ⟨.hbm, 477, rfl⟩
abbrev main_v353 : Ref sig .tc := ⟨.hbm, 478, rfl⟩
abbrev main_v354 : Ref sig .tc := ⟨.hbm, 479, rfl⟩
abbrev main_v355 : Ref sig .tc := ⟨.hbm, 480, rfl⟩
abbrev main_cst_76 : Ref sig .tc := ⟨.hbm, 481, rfl⟩
abbrev main_v356 : Ref sig .tc := ⟨.hbm, 482, rfl⟩
abbrev main_v357 : Ref sig .tc := ⟨.hbm, 483, rfl⟩
abbrev main_v358 : Ref sig .tc := ⟨.hbm, 484, rfl⟩
abbrev main_cst_77 : Ref sig .tc := ⟨.hbm, 485, rfl⟩
abbrev main_call17_v0 : Ref sig .tc := ⟨.hbm, 486, rfl⟩
abbrev main_call17_v1 : Ref sig .tc := ⟨.hbm, 487, rfl⟩
abbrev main_v359 : Ref sig .tc := ⟨.hbm, 488, rfl⟩
abbrev main_c_78 : Ref sig .tc := ⟨.hbm, 489, rfl⟩
abbrev main_v360 : Ref sig .tc := ⟨.hbm, 490, rfl⟩
abbrev main_v361 : Ref sig .tc := ⟨.hbm, 491, rfl⟩
abbrev main_c_79 : Ref sig .tc := ⟨.hbm, 492, rfl⟩
abbrev main_v362 : Ref sig .tc := ⟨.hbm, 493, rfl⟩
abbrev main_v363 : Ref sig .tc := ⟨.hbm, 494, rfl⟩
abbrev main_v364 : Ref sig .tc := ⟨.hbm, 495, rfl⟩
abbrev main_v365 : Ref sig .tc := ⟨.hbm, 496, rfl⟩
abbrev main_v366 : Ref sig .tc := ⟨.hbm, 497, rfl⟩
abbrev main_v367 : Ref sig .tc := ⟨.hbm, 498, rfl⟩
abbrev main_c_80 : Ref sig .tc := ⟨.hbm, 499, rfl⟩
abbrev main_v368 : Ref sig .tc := ⟨.hbm, 500, rfl⟩
abbrev main_v369 : Ref sig .tc := ⟨.hbm, 501, rfl⟩
abbrev main_c_81 : Ref sig .tc := ⟨.hbm, 502, rfl⟩
abbrev main_v370 : Ref sig .tc := ⟨.hbm, 503, rfl⟩
abbrev main_v371 : Ref sig .tc := ⟨.hbm, 504, rfl⟩
abbrev main_v372 : Ref sig .tc := ⟨.hbm, 505, rfl⟩
abbrev main_v373 : Ref sig .tc := ⟨.hbm, 506, rfl⟩
abbrev main_v374 : Ref sig .tc := ⟨.hbm, 507, rfl⟩
abbrev main_v375 : Ref sig .tc := ⟨.hbm, 508, rfl⟩
abbrev main_c_82 : Ref sig .tc := ⟨.hbm, 509, rfl⟩
abbrev main_v376 : Ref sig .tc := ⟨.hbm, 510, rfl⟩
abbrev main_v377 : Ref sig .tc := ⟨.hbm, 511, rfl⟩
abbrev main_c_83 : Ref sig .tc := ⟨.hbm, 512, rfl⟩
abbrev main_v378 : Ref sig .tc := ⟨.hbm, 513, rfl⟩
abbrev main_v379 : Ref sig .tc := ⟨.hbm, 514, rfl⟩
abbrev main_v380 : Ref sig .tc := ⟨.hbm, 515, rfl⟩
abbrev main_v381 : Ref sig .tc := ⟨.hbm, 516, rfl⟩
abbrev main_v382 : Ref sig .tc := ⟨.hbm, 517, rfl⟩
abbrev main_v383 : Ref sig .tc := ⟨.hbm, 518, rfl⟩
abbrev main_v384 : Ref sig .tc := ⟨.hbm, 519, rfl⟩
abbrev main_v385 : Ref sig .tc := ⟨.hbm, 520, rfl⟩
abbrev main_cst_84 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_v389 : Ref sig .tc := ⟨.hbm, 525, rfl⟩
abbrev main_v390 : Ref sig .tc := ⟨.hbm, 526, rfl⟩
abbrev main_v391 : Ref sig .tc := ⟨.hbm, 527, rfl⟩
abbrev main_call18_cst : Ref sig .tc := ⟨.hbm, 528, rfl⟩
abbrev main_call18_v0 : Ref sig .tc := ⟨.hbm, 529, rfl⟩
abbrev main_v392 : Ref sig .tc := ⟨.hbm, 530, rfl⟩
abbrev main_call19_v0 : Ref sig .tc := ⟨.hbm, 531, rfl⟩
abbrev main_call19_cst : Ref sig .tc := ⟨.hbm, 532, rfl⟩
abbrev main_call19_v1 : Ref sig .tc := ⟨.hbm, 533, rfl⟩
abbrev main_call19_v2 : Ref sig .tc := ⟨.hbm, 534, rfl⟩
abbrev main_v393 : Ref sig .tc := ⟨.hbm, 535, rfl⟩
abbrev main_cst_85 : Ref sig .tc := ⟨.hbm, 536, rfl⟩
abbrev main_v394 : Ref sig .tc := ⟨.hbm, 537, rfl⟩
abbrev main_v395 : Ref sig .tc := ⟨.hbm, 538, rfl⟩
abbrev main_v396 : Ref sig .tc := ⟨.hbm, 539, rfl⟩
abbrev main_v397 : Ref sig .tc := ⟨.hbm, 540, rfl⟩
abbrev main_v398 : Ref sig .tc := ⟨.hbm, 541, rfl⟩
abbrev main_cst_86 : Ref sig .tc := ⟨.hbm, 542, rfl⟩
abbrev main_v399 : Ref sig .tc := ⟨.hbm, 543, rfl⟩
abbrev main_v400 : Ref sig .tc := ⟨.hbm, 544, rfl⟩
abbrev main_v401 : Ref sig .tc := ⟨.hbm, 545, rfl⟩
abbrev main_cst_87 : Ref sig .tc := ⟨.hbm, 546, rfl⟩
abbrev main_v402 : Ref sig .tc := ⟨.hbm, 547, rfl⟩
abbrev main_v403 : Ref sig .tc := ⟨.hbm, 548, rfl⟩
abbrev main_v404 : Ref sig .tc := ⟨.hbm, 549, rfl⟩
abbrev main_cst_88 : Ref sig .tc := ⟨.hbm, 550, rfl⟩
abbrev main_v405 : Ref sig .tc := ⟨.hbm, 551, rfl⟩
abbrev main_v406 : Ref sig .tc := ⟨.hbm, 552, rfl⟩
abbrev main_v407 : Ref sig .tc := ⟨.hbm, 553, rfl⟩
abbrev main_cst_89 : Ref sig .tc := ⟨.hbm, 554, rfl⟩
abbrev main_call20_v0 : Ref sig .tc := ⟨.hbm, 555, rfl⟩
abbrev main_call20_v1 : Ref sig .tc := ⟨.hbm, 556, rfl⟩
abbrev main_v408 : Ref sig .tc := ⟨.hbm, 557, rfl⟩
abbrev main_c_90 : Ref sig .tc := ⟨.hbm, 558, rfl⟩
abbrev main_v409 : Ref sig .tc := ⟨.hbm, 559, rfl⟩
abbrev main_v410 : Ref sig .tc := ⟨.hbm, 560, rfl⟩
abbrev main_c_91 : Ref sig .tc := ⟨.hbm, 561, rfl⟩
abbrev main_v411 : Ref sig .tc := ⟨.hbm, 562, rfl⟩
abbrev main_v412 : Ref sig .tc := ⟨.hbm, 563, rfl⟩
abbrev main_v413 : Ref sig .tc := ⟨.hbm, 564, rfl⟩
abbrev main_v414 : Ref sig .tc := ⟨.hbm, 565, rfl⟩
abbrev main_v415 : Ref sig .tc := ⟨.hbm, 566, rfl⟩
abbrev main_v416 : Ref sig .tc := ⟨.hbm, 567, rfl⟩
abbrev main_c_92 : Ref sig .tc := ⟨.hbm, 568, rfl⟩
abbrev main_v417 : Ref sig .tc := ⟨.hbm, 569, rfl⟩
abbrev main_v418 : Ref sig .tc := ⟨.hbm, 570, rfl⟩
abbrev main_c_93 : Ref sig .tc := ⟨.hbm, 571, rfl⟩
abbrev main_v419 : Ref sig .tc := ⟨.hbm, 572, rfl⟩
abbrev main_v420 : Ref sig .tc := ⟨.hbm, 573, rfl⟩
abbrev main_v421 : Ref sig .tc := ⟨.hbm, 574, rfl⟩
abbrev main_v422 : Ref sig .tc := ⟨.hbm, 575, rfl⟩
abbrev main_v423 : Ref sig .tc := ⟨.hbm, 576, rfl⟩
abbrev main_v424 : Ref sig .tc := ⟨.hbm, 577, rfl⟩
abbrev main_c_94 : Ref sig .tc := ⟨.hbm, 578, rfl⟩
abbrev main_v425 : Ref sig .tc := ⟨.hbm, 579, rfl⟩
abbrev main_v426 : Ref sig .tc := ⟨.hbm, 580, rfl⟩
abbrev main_c_95 : Ref sig .tc := ⟨.hbm, 581, rfl⟩
abbrev main_v427 : Ref sig .tc := ⟨.hbm, 582, rfl⟩
abbrev main_v428 : Ref sig .tc := ⟨.hbm, 583, rfl⟩
abbrev main_v429 : Ref sig .tc := ⟨.hbm, 584, rfl⟩
abbrev main_v430 : Ref sig .tc := ⟨.hbm, 585, rfl⟩
abbrev main_v431 : Ref sig .tc := ⟨.hbm, 586, rfl⟩
abbrev main_v432 : Ref sig .tc := ⟨.hbm, 587, rfl⟩
abbrev main_v433 : Ref sig .tc := ⟨.hbm, 588, rfl⟩
abbrev main_v434 : Ref sig .tc := ⟨.hbm, 589, rfl⟩
abbrev main_cst_96 : Ref sig .tc := ⟨.hbm, 590, rfl⟩
abbrev main_v435 : Ref sig .tc := ⟨.hbm, 591, rfl⟩
abbrev main_v436 : Ref sig .tc := ⟨.hbm, 592, rfl⟩
abbrev main_v437 : Ref sig .tc := ⟨.hbm, 593, rfl⟩
abbrev main_v438 : Ref sig .tc := ⟨.hbm, 594, rfl⟩
abbrev main_v439 : Ref sig .tc := ⟨.hbm, 595, rfl⟩
abbrev main_v440 : Ref sig .tc := ⟨.hbm, 596, rfl⟩
abbrev main_call21_cst : Ref sig .tc := ⟨.hbm, 597, rfl⟩
abbrev main_call21_v0 : Ref sig .tc := ⟨.hbm, 598, rfl⟩
abbrev main_call21_cst_0 : Ref sig .tc := ⟨.hbm, 599, rfl⟩
abbrev main_call21_v1 : Ref sig .tc := ⟨.hbm, 600, rfl⟩
abbrev main_call21_v2 : Ref sig .tc := ⟨.hbm, 601, rfl⟩
abbrev main_call21_v3 : Ref sig .tc := ⟨.hbm, 602, rfl⟩
abbrev main_call21_v4 : Ref sig .tc := ⟨.hbm, 603, rfl⟩
abbrev main_call21_v5 : Ref sig .tc := ⟨.hbm, 604, rfl⟩
abbrev main_call21_v6 : Ref sig .tc := ⟨.hbm, 605, rfl⟩
abbrev main_call21_cst_1 : Ref sig .tc := ⟨.hbm, 606, rfl⟩
abbrev main_call21_v7 : Ref sig .tc := ⟨.hbm, 607, rfl⟩
abbrev main_call21_v8 : Ref sig .tc := ⟨.hbm, 608, rfl⟩
abbrev main_call21_v9 : Ref sig .tc := ⟨.hbm, 609, rfl⟩
abbrev main_call21_v10 : Ref sig .tc := ⟨.hbm, 610, rfl⟩
abbrev main_v441 : Ref sig .tc := ⟨.hbm, 611, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S100000_S740000_d0 : Shape.Concatenates [S640000, S100000] S740000 0
  slices_S2x640000_S1x640000_1_0 : S2x640000.Slices ![1, 0] S1x640000
  bcast_S_S100000 : S_.BroadcastsInDim S100000 (![] : Fin 0 → Fin S100000.rank)
  slices_S8x128x128_S1x128x128_0_0_0 : S8x128x128.Slices ![0, 0, 0] S1x128x128
  shapeCasts_S1x128x128_S128x128 : S1x128x128.ShapeCasts S128x128
  slices_S8x128_S1x128_0_0 : S8x128.Slices ![0, 0] S1x128
  shapeCasts_S1x128_S128 : S1x128.ShapeCasts S128
  bcast_S740000_S740000x1_0 : S740000.BroadcastsInDim S740000x1 (![0] : Fin 1 → Fin S740000x1.rank)
  bcast_S_S740000 : S_.BroadcastsInDim S740000 (![] : Fin 0 → Fin S740000.rank)
  bcast_S740000x1_S740000x128_0_1 : S740000x1.BroadcastsInDim S740000x128 (![0, 1] : Fin 2 → Fin S740000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S8x128x128_S1x128x128_1_0_0 : S8x128x128.Slices ![1, 0, 0] S1x128x128
  slices_S8x128_S1x128_1_0 : S8x128.Slices ![1, 0] S1x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S8x128x128_S1x128x128_2_0_0 : S8x128x128.Slices ![2, 0, 0] S1x128x128
  slices_S8x128_S1x128_2_0 : S8x128.Slices ![2, 0] S1x128
  slices_S8x128x128_S1x128x128_3_0_0 : S8x128x128.Slices ![3, 0, 0] S1x128x128
  slices_S8x128_S1x128_3_0 : S8x128.Slices ![3, 0] S1x128
  slices_S8x128x128_S1x128x128_4_0_0 : S8x128x128.Slices ![4, 0, 0] S1x128x128
  slices_S8x128_S1x128_4_0 : S8x128.Slices ![4, 0] S1x128
  slices_S8x128x128_S1x128x128_5_0_0 : S8x128x128.Slices ![5, 0, 0] S1x128x128
  slices_S8x128_S1x128_5_0 : S8x128.Slices ![5, 0] S1x128
  slices_S8x128x128_S1x128x128_6_0_0 : S8x128x128.Slices ![6, 0, 0] S1x128x128
  slices_S8x128_S1x128_6_0 : S8x128.Slices ![6, 0] S1x128
  slices_S8x128x128_S1x128x128_7_0_0 : S8x128x128.Slices ![7, 0, 0] S1x128x128
  slices_S8x128_S1x128_7_0 : S8x128.Slices ![7, 0] S1x128
  bcast_S740000x1_S740000x40_0_1 : S740000x1.BroadcastsInDim S740000x40 (![0, 1] : Fin 2 → Fin S740000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  bcast_S100000x1_S100000x40_0_1 : S100000x1.BroadcastsInDim S100000x40 (![0, 1] : Fin 2 → Fin S100000x40.rank)
  dot_S100000x128_S128x128_S100000x128_1_0_0_1_n_n_wf : DotDims.WF S100000x128 S128x128 S100000x128 [1] [0] [0] [1] [] []
  scatter_S100000_S740000x1_S740000_n_0_0_1_wf : ScatterDims.WF S100000 S740000x1 S740000 [] [0] [0] 1
  gather_S100000_S740000x1_S740000_n_0_n_n_0_1_1_wf : GatherDims.WF S100000 S740000x1 S740000 [] [0] [] [0] [] 1 ![1]
  gather_S100000x128_S740000x1_S740000x128_1_0_n_n_0_1_1128_wf : GatherDims.WF S100000x128 S740000x1 S740000x128 [1] [0] [] [0] [] 1 ![1, 128]
  scatter_S100000x128_S740000x1_S740000x128_1_0_0_1_wf : ScatterDims.WF S100000x128 S740000x1 S740000x128 [1] [0] [0] 1
  dot_S100000x128_S128x40_S100000x40_1_0_0_1_n_n_wf : DotDims.WF S100000x128 S128x40 S100000x40 [1] [0] [0] [1] [] []
  gather_S100000x40_S740000x1_S740000x40_1_0_n_n_0_1_140_wf : GatherDims.WF S100000x40 S740000x1 S740000x40 [1] [0] [] [0] [] 1 ![1, 40]
  scatter_S100000x40_S740000x1_S740000x40_1_0_0_1_wf : ScatterDims.WF S100000x40 S740000x1 S740000x40 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S740000x1_S740000_n_0_0_1 : ScatterDims S100000 S740000x1 S740000 where
  updateWindowDims := []
  insertedWindowDims := [0]
  scatterDimsToOperandDims := [0]
  indexVectorDim := 1
  wf := scatter_S100000_S740000x1_S740000_n_0_0_1_wf
def gather_S100000_S740000x1_S740000_n_0_n_n_0_1_1 : GatherDims S100000 S740000x1 S740000 where
  offsetDims := []
  collapsedSliceDims := [0]
  operandBatchingDims := []
  startIndicesBatchingDims := []
  startIndexMap := [0]
  indexVectorDim := 1
  sliceSizes := ![1]
  wf := gather_S100000_S740000x1_S740000_n_0_n_n_0_1_1_wf
def gather_S100000x128_S740000x1_S740000x128_1_0_n_n_0_1_1128 : GatherDims S100000x128 S740000x1 S740000x128 where
  offsetDims := [1]
  collapsedSliceDims := [0]
  operandBatchingDims := []
  startIndicesBatchingDims := []
  startIndexMap := [0]
  indexVectorDim := 1
  sliceSizes := ![1, 128]
  wf := gather_S100000x128_S740000x1_S740000x128_1_0_n_n_0_1_1128_wf
def scatter_S100000x128_S740000x1_S740000x128_1_0_0_1 : ScatterDims S100000x128 S740000x1 S740000x128 where
  updateWindowDims := [1]
  insertedWindowDims := [0]
  scatterDimsToOperandDims := [0]
  indexVectorDim := 1
  wf := scatter_S100000x128_S740000x1_S740000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S740000x1_S740000x40_1_0_n_n_0_1_140 : GatherDims S100000x40 S740000x1 S740000x40 where
  offsetDims := [1]
  collapsedSliceDims := [0]
  operandBatchingDims := []
  startIndicesBatchingDims := []
  startIndexMap := [0]
  indexVectorDim := 1
  sliceSizes := ![1, 40]
  wf := gather_S100000x40_S740000x1_S740000x40_1_0_n_n_0_1_140_wf
def scatter_S100000x40_S740000x1_S740000x40_1_0_0_1 : ScatterDims S100000x40 S740000x1 S740000x40 where
  updateWindowDims := [1]
  insertedWindowDims := [0]
  scatterDimsToOperandDims := [0]
  indexVectorDim := 1
  wf := scatter_S100000x40_S740000x1_S740000x40_1_0_0_1_wf

class Facts : Prop extends Facts₀ where

variable [Facts]
-- ==== Proof.KernelRun.lean ====
/-
  The idealized kernel's run, with its result named.

  @main is ten kernel regions among host stretches.  The contents of the TensorCore's buffers at every boundary
  between two segments form a fold from the launch memory: a host stretch maps them through its operations, a region
  replaces its windows' arrays by what its write-backs leave.  Every weakly fair execution terminates, without a fault,
  in a state that holds the last boundary's contents in every unscoped buffer; read at the result buffer this names
  the result, read at an argument it gives back the launch contents.
-/
import proofs.«147806_j25666724560908_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and every argument array as launched. -/
theorem run_result : θ_run defs (onTc (τ := τ) (main (F := F))) ⟨m, fun _ => 0, ρ⟩ (fun r => ∀ c : Dev nD,
      r.2.mem (((c : Thread nD τ)).1, Proc.devRef .tc main_v199) = W22 m ρ c (Proc.devRef .tc main_v199)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v199 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c)⟩)

end Cert.KernelIdeal.RunValue

end
-- ==== Proof.RefOps.lean ====
/-
  The reference's whole-array operations, composed once per kind of dense step.

  A graph-convolution layer is an aggregation (gather by source, scale, scatter-add by destination: left to the host
  on both sides) followed by a dense step on the aggregated rows.  The dense steps come in four kinds, all row-wise:

    * `lin x w`                 — the product `x · w` (each row of `x` against the whole of `w`);
    * `brm a b w`               — `relu (a + b) · w`, the bias `b` a row spread over every row of `a`;
    * `brnX a b id`             — `(y / max (‖y‖₂, ε) + id) / 2` with `y = relu (a + b)`, the norm taken row by row;
      `brnH a b id w` its product with the next weight;
    * `lsm a b`                 — the row-wise log-softmax of `a + b`: `z − max z − log ∑ exp (z − max z)`.

  They are written with the host operations of the reference program, in its order, so that the reference's result is
  literally a composition of them.
-/
import proofs.«147806_j25666724560908_2_alg».proof.ReferenceIdeal
import proofs.«147806_j25666724560908_2_alg».proof.Proof.Gen.ReferenceIdeal
import Idealize.ShloMosaic.PureOps.Ideal

noncomputable section

namespace Cert.RefOps

open Cert.ReferenceIdeal Cert.ReferenceIdeal.Gen Idealize.ShloMosaic

variable {F : FTy → Type} [FloatOps F]

/-- `max (x, 0)`, entry by entry, on a node-feature array. -/
def relu (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- A bias row added to every row of a node-feature array. -/
def addRow (a : (⟨S100000x128, .f32⟩ : BufTy).Contents (Elt F)) (b : (⟨S1x128, .f32⟩ : BufTy).Contents (Elt F)) :
    (⟨S100000x128, .f32⟩ : BufTy).Contents (Elt F) :=
  addf a (broadcastInDim S100000x128 ![0, 1] bcast_S1x128_S100000x128_0_1 b)

/-- The product with a square weight. -/
def lin (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The product with the final, class-count-wide weight. -/
def lin40 (x : (⟨S100000x128, .f32⟩ : BufTy).Contents (Elt F)) (w : (⟨S128x40, .f32⟩ : BufTy).Contents (Elt F)) :
    (⟨S100000x40, .f32⟩ : BufTy).Contents (Elt F) :=
  Host.dotGeneral dot_S100000x128_S128x40_S100000x40_1_0_0_1_n_n none x w

/-- `relu (a + b) · w`. -/
def brm (a : (⟨S100000x128, .f32⟩ : BufTy).Contents (Elt F)) (b : (⟨S1x128, .f32⟩ : BufTy).Contents (Elt F))
    (w : (⟨S128x128, .f32⟩ : BufTy).Contents (Elt F)) : (⟨S100000x128, .f32⟩ : BufTy).Contents (Elt F) :=
  lin (relu (addRow a b)) w

/-- The Euclidean norm of every row, kept as a column. -/
def rowNorm (y : (⟨S100000x128, .f32⟩ : BufTy).Contents (Elt F)) : (⟨S100000x1, .f32⟩ : BufTy).Contents (Elt F) :=
  Host.sqrt (broadcastInDim S100000x1 ![0] bcast_S100000_S100000x1_0
    (Host.reduceAdd (mulf y y) (constant S_ .f32 0x00000000#32) reducesTo_S100000x128_S100000_d1 h_S_))

/-- The end of a residual block: every row of `y` divided by its norm (bounded below by `ε`), averaged with `id`. -/
def blockEnd (y id : (⟨S100000x128, .f32⟩ : BufTy).Contents (Elt F)) : (⟨S100000x128, .f32⟩ : BufTy).Contents (Elt F) :=
  Host.divf
    (addf
      (Host.divf y (broadcastInDim S100000x128 ![0, 1] bcast_S100000x1_S100000x128_0_1
        (maximumf (rowNorm y) (broadcastInDim S100000x1 ![] bcast_S_S100000x1 (constant S_ .f32 0x2B8CBCCC#32)))))
      id)
    (broadcastInDim S100000x128 ![] bcast_S_S100000x128 (constant S_ .f32 0x40000000#32))

/-- The block's output features: `blockEnd (relu (a + b)) id`. -/
def brnX (a : (⟨S100000x128, .f32⟩ : BufTy).Contents (Elt F)) (b : (⟨S1x128, .f32⟩ : BufTy).Contents (Elt F))
    (id : (⟨S100000x128, .f32⟩ : BufTy).Contents (Elt F)) : (⟨S100000x128, .f32⟩ : BufTy).Contents (Elt F) :=
  blockEnd (relu (addRow a b)) id

/-- The block's output features times the next square weight. -/
def brnH (a : (⟨S100000x128, .f32⟩ : BufTy).Contents (Elt F)) (b : (⟨S1x128, .f32⟩ : BufTy).Contents (Elt F))
    (id : (⟨S100000x128, .f32⟩ : BufTy).Contents (Elt F)) (w : (⟨S128x128, .f32⟩ : BufTy).Contents (Elt F)) :
    (⟨S100000x128, .f32⟩ : BufTy).Contents (Elt F) :=
  lin (brnX a b id) w

/-- The last block's output features times the final weight. -/
def brnH40 (a : (⟨S100000x128, .f32⟩ : BufTy).Contents (Elt F)) (b : (⟨S1x128, .f32⟩ : BufTy).Contents (Elt F))
    (id : (⟨S100000x128, .f32⟩ : BufTy).Contents (Elt F)) (w : (⟨S128x40, .f32⟩ : BufTy).Contents (Elt F)) :
    (⟨S100000x40, .f32⟩ : BufTy).Contents (Elt F) :=
  lin40 (brnX a b id) w

/-- A class-score array shifted by its row maxima (the maxima taken from `-∞`). -/
def shifted (z : (⟨S100000x40, .f32⟩ : BufTy).Contents (Elt F)) : (⟨S100000x40, .f32⟩ : BufTy).Contents (Elt F) :=
  subf z (broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf z (constant S_ .f32 0xFF800000#32) reducesTo_S100000x40_S100000_d1 h_S_))))

/-- Row-wise log-softmax: the shifted scores minus the logarithm of the row sums of their exponentials. -/
def logSoftmax (z : (⟨S100000x40, .f32⟩ : BufTy).Contents (Elt F)) : (⟨S100000x40, .f32⟩ : BufTy).Contents (Elt F) :=
  subf (shifted z) (broadcastInDim S100000x40 ![0, 1] bcast_S100000x1_S100000x40_0_1
    (Host.log (broadcastInDim S100000x1 ![0] bcast_S100000_S100000x1_0
      (Host.reduceAdd (Host.exp (shifted z)) (constant S_ .f32 0x00000000#32) reducesTo_S100000x40_S100000_d1 h_S_))))

/-- The class scores: a bias row added to every row, then the row-wise log-softmax. -/
def lsm (a : (⟨S100000x40, .f32⟩ : BufTy).Contents (Elt F)) (b : (⟨S1x40, .f32⟩ : BufTy).Contents (Elt F)) :
    (⟨S100000x40, .f32⟩ : BufTy).Contents (Elt F) :=
  logSoftmax (addf a (broadcastInDim S100000x40 ![0, 1] bcast_S1x40_S100000x40_0_1 b))

end Cert.RefOps

end
-- ==== Proof.RegionForms.lean ====
/-
  What each kernel region leaves in each of its output arrays, as a whole-array function of its input arrays.

  Every region works on row blocks of 10000 rows and its body is row-wise (a product with a weight fetched whole, a
  bias row added to every row, a norm or a softmax taken along each row), so the array its write-backs leave is the
  same row-wise function applied to the whole input arrays, whatever the buffers held when the region was entered.
  The fourteen statements are collected here; the run is read through them.
-/
import proofs.«147806_j25666724560908_2_alg».proof.Proof.Gen.KernelIdeal.Frame
import proofs.«147806_j25666724560908_2_alg».proof.Proof.RefOps

noncomputable section

namespace Cert.KernelIdeal

open Cert.KernelIdeal.Gen Idealize.ShloMosaic Idealize.ShloMosaic.TcCoe Idealize.SL.Sem

set_option maxHeartbeats 8000000 in  -- fourteen statements, each reading several buffers' types off the signature
/-- The closed forms of the ten regions' fourteen output windows, for any entry contents `V`. -/
structure RegionForms : Prop where
  /-- region 0: the first product. -/
  r0 : ∀ (V : (c : Dev nD) → (b : Ref sig .tc) → Buf (Elt Ideal) ((c : Thread nD τ).loc b)) (c : Dev nD),
    (dat0 (F := Ideal) V c).arrAt 2 cfg0.N = Cert.RefOps.lin (V c (Pipeline.arrRef spec0 0)) (V c (Pipeline.arrRef spec0 1))
  /-- region 1: bias, relu, product. -/
  r1 : ∀ (V : (c : Dev nD) → (b : Ref sig .tc) → Buf (Elt Ideal) ((c : Thread nD τ).loc b)) (c : Dev nD),
    (dat1 (F := Ideal) V c).arrAt 3 cfg1.N = Cert.RefOps.brm (V c (Pipeline.arrRef spec1 0)) (V c (Pipeline.arrRef spec1 1)) (V c (Pipeline.arrRef spec1 2))
  /-- region 3: bias, relu, product. -/
  r3 : ∀ (V : (c : Dev nD) → (b : Ref sig .tc) → Buf (Elt Ideal) ((c : Thread nD τ).loc b)) (c : Dev nD),
    (dat3 (F := Ideal) V c).arrAt 3 cfg3.N = Cert.RefOps.brm (V c (Pipeline.arrRef spec3 0)) (V c (Pipeline.arrRef spec3 1)) (V c (Pipeline.arrRef spec3 2))
  /-- region 5: bias, relu, product. -/
  r5 : ∀ (V : (c : Dev nD) → (b : Ref sig .tc) → Buf (Elt Ideal) ((c : Thread nD τ).loc b)) (c : Dev nD),
    (dat5 (F := Ideal) V c).arrAt 3 cfg5.N = Cert.RefOps.brm (V c (Pipeline.arrRef spec5 0)) (V c (Pipeline.arrRef spec5 1)) (V c (Pipeline.arrRef spec5 2))
  /-- region 7: bias, relu, product. -/
  r7 : ∀ (V : (c : Dev nD) → (b : Ref sig .tc) → Buf (Elt Ideal) ((c : Thread nD τ).loc b)) (c : Dev nD),
    (dat7 (F := Ideal) V c).arrAt 3 cfg7.N = Cert.RefOps.brm (V c (Pipeline.arrRef spec7 0)) (V c (Pipeline.arrRef spec7 1)) (V c (Pipeline.arrRef spec7 2))
  /-- region 2: the block's output features. -/
  r2x : ∀ (V : (c : Dev nD) → (b : Ref sig .tc) → Buf (Elt Ideal) ((c : Thread nD τ).loc b)) (c : Dev nD),
    (dat2 (F := Ideal) V c).arrAt 4 cfg2.N = Cert.RefOps.brnX (V c (Pipeline.arrRef spec2 0)) (V c (Pipeline.arrRef spec2 1)) (V c (Pipeline.arrRef spec2 2))
  /-- region 2: their product with the next weight. -/
  r2h : ∀ (V : (c : Dev nD) → (b : Ref sig .tc) → Buf (Elt Ideal) ((c : Thread nD τ).loc b)) (c : Dev nD),
    (dat2 (F := Ideal) V c).arrAt 5 cfg2.N = Cert.RefOps.brnH (V c (Pipeline.arrRef spec2 0)) (V c (Pipeline.arrRef spec2 1)) (V c (Pipeline.arrRef spec2 2)) (V c (Pipeline.arrRef spec2 3))
  /-- region 4: the block's output features. -/
  r4x : ∀ (V : (c : Dev nD) → (b : Ref sig .tc) → Buf (Elt Ideal) ((c : Thread nD τ).loc b)) (c : Dev nD),
    (dat4 (F := Ideal) V c).arrAt 4 cfg4.N = Cert.RefOps.brnX (V c (Pipeline.arrRef spec4 0)) (V c (Pipeline.arrRef spec4 1)) (V c (Pipeline.arrRef spec4 2))
  /-- region 4: their product with the next weight. -/
  r4h : ∀ (V : (c : Dev nD) → (b : Ref sig .tc) → Buf (Elt Ideal) ((c : Thread nD τ).loc b)) (c : Dev nD),
    (dat4 (F := Ideal) V c).arrAt 5 cfg4.N = Cert.RefOps.brnH (V c (Pipeline.arrRef spec4 0)) (V c (Pipeline.arrRef spec4 1)) (V c (Pipeline.arrRef spec4 2)) (V c (Pipeline.arrRef spec4 3))
  /-- region 6: the block's output features. -/
  r6x : ∀ (V : (c : Dev nD) → (b : Ref sig .tc) → Buf (Elt Ideal) ((c : Thread nD τ).loc b)) (c : Dev nD),
    (dat6 (F := Ideal) V c).arrAt 4 cfg6.N = Cert.RefOps.brnX (V c (Pipeline.arrRef spec6 0)) (V c (Pipeline.arrRef spec6 1)) (V c (Pipeline.arrRef spec6 2))
  /-- region 6: their product with the next weight. -/
  r6h : ∀ (V : (c : Dev nD) → (b : Ref sig .tc) → Buf (Elt Ideal) ((c : Thread nD τ).loc b)) (c : Dev nD),
    (dat6 (F := Ideal) V c).arrAt 5 cfg6.N = Cert.RefOps.brnH (V c (Pipeline.arrRef spec6 0)) (V c (Pipeline.arrRef spec6 1)) (V c (Pipeline.arrRef spec6 2)) (V c (Pipeline.arrRef spec6 3))
  /-- region 8: the block's output features. -/
  r8x : ∀ (V : (c : Dev nD) → (b : Ref sig .tc) → Buf (Elt Ideal) ((c : Thread nD τ).loc b)) (c : Dev nD),
    (dat8 (F := Ideal) V c).arrAt 4 cfg8.N = Cert.RefOps.brnX (V c (Pipeline.arrRef spec8 0)) (V c (Pipeline.arrRef spec8 1)) (V c (Pipeline.arrRef spec8 2))
  /-- region 8: their product with the next weight. -/
  r8h : ∀ (V : (c : Dev nD) → (b : Ref sig .tc) → Buf (Elt Ideal) ((c : Thread nD τ).loc b)) (c : Dev nD),
    (dat8 (F := Ideal) V c).arrAt 5 cfg8.N = Cert.RefOps.brnH40 (V c (Pipeline.arrRef spec8 0)) (V c (Pipeline.arrRef spec8 1)) (V c (Pipeline.arrRef spec8 2)) (V c (Pipeline.arrRef spec8 3))
  /-- region 9: bias and row-wise log-softmax. -/
  r9 : ∀ (V : (c : Dev nD) → (b : Ref sig .tc) → Buf (Elt Ideal) ((c : Thread nD τ).loc b)) (c : Dev nD),
    (dat9 (F := Ideal) V c).arrAt 2 cfg9.N = Cert.RefOps.lsm (V c (Pipeline.arrRef spec9 0)) (V c (Pipeline.arrRef spec9 1))

end Cert.KernelIdeal

end
-- ==== Proof.Model.lean ====
/-
  The residual graph-convolution network as ONE function of its seven arguments.

  The graph enters through three vectors over the 640000 given edges followed by 100000 self-loops: the sources, the
  destinations and the edge weights (the self-loops weigh one).  The symmetric normalisation of an edge is
  `d(src)^(-1/2) · w · d(dst)^(-1/2)` with `d` the weighted in-degree (zero where the degree is not positive).  An
  aggregation gathers the rows of a feature array by source, scales each by its edge's normalisation and adds it into
  its destination's row.  A convolution is a product with a weight, an aggregation and a bias; two of them, with relu,
  row normalisation and a residual average, make a block; four blocks and a final convolution with a row-wise
  log-softmax make the network.  The dense steps are those of `RefOps`; the graph steps are written here with the same
  host operations in the same order, so that both programs' results unfold to compositions of these functions.
-/
import proofs.«147806_j25666724560908_2_alg».proof.Proof.RefOps

noncomputable section

namespace Cert.Model

open Cert.ReferenceIdeal Cert.ReferenceIdeal.Gen Cert.RefOps Idealize.ShloMosaic

variable {F : FTy → Type} [FloatOps F]

/-- The node numbers `0 … 99999`: the self-loops' endpoints. -/
def loops : (⟨S100000, .i32⟩ : BufTy).Contents (Elt F) := iotaInDim S100000 32 0

/-- The sources: row 0 of the edge list, then the self-loops. -/
def src (x1 : (⟨S2x640000, .i32⟩ : BufTy).Contents (Elt F)) : (⟨S740000, .i32⟩ : BufTy).Contents (Elt F) :=
  concatenate S740000 0 [⟨S640000, (shapeCast _ (extractStridedSlice S1x640000 ![0, 0] x1 slices_S2x640000_S1x640000_0_0) shapeCasts_S1x640000_S640000)⟩, ⟨S100000, (loops (F := F))⟩] concatenates_S640000_S100000_S740000_d0

/-- The destinations: row 1 of the edge list, then the self-loops. -/
def dst (x1 : (⟨S2x640000, .i32⟩ : BufTy).Contents (Elt F)) : (⟨S740000, .i32⟩ : BufTy).Contents (Elt F) :=
  concatenate S740000 0 [⟨S640000, (shapeCast _ (extractStridedSlice S1x640000 ![1, 0] x1 slices_S2x640000_S1x640000_1_0) shapeCasts_S1x640000_S640000)⟩, ⟨S100000, (loops (F := F))⟩] concatenates_S640000_S100000_S740000_d0

/-- The edge weights, the self-loops weighing one. -/
def wts (x2 : (⟨S640000, .f32⟩ : BufTy).Contents (Elt F)) : (⟨S740000, .f32⟩ : BufTy).Contents (Elt F) :=
  concatenate S740000 0 [⟨S640000, x2⟩, ⟨S100000, (broadcastInDim S100000 ![] bcast_S_S100000 (constant S_ .f32 0x3F800000#32))⟩] concatenates_S640000_S100000_S740000_d0

/-- An index vector with negative entries wrapped around the node count, as a column of gather / scatter positions. -/
def wrapCol (v : (⟨S740000, .i32⟩ : BufTy).Contents (Elt F)) : (⟨S740000x1, .i32⟩ : BufTy).Contents (Elt F) :=
  broadcastInDim S740000x1 ![0] bcast_S740000_S740000x1_0
    (select (cmpi .slt v (broadcastInDim S740000 ![] bcast_S_S740000 (constantI S_ 32 0#32)))
      (addi v (broadcastInDim S740000 ![] bcast_S_S740000 (constantI S_ 32 100000#32))) v)

/-- The weighted in-degree of every node. -/
def deg (x1 : (⟨S2x640000, .i32⟩ : BufTy).Contents (Elt F)) (x2 : (⟨S640000, .f32⟩ : BufTy).Contents (Elt F)) : (⟨S100000, .f32⟩ : BufTy).Contents (Elt F) :=
  Host.scatterAdd scatter_S100000_S740000x1_S740000_n_0_0_1
    (broadcastInDim S100000 ![] bcast_S_S100000 (constant S_ .f32 0x00000000#32))
    (broadcastInDim S740000x1 ![0] bcast_S740000_S740000x1_0 (dst x1)) (wts x2)

/-- The float zero as a scalar array. -/
def zeroScalar : (⟨S_, .f32⟩ : BufTy).Contents (Elt F) := constant S_ .f32 0x00000000#32

/-- Where the degree is positive. -/
def degPos (x1 : (⟨S2x640000, .i32⟩ : BufTy).Contents (Elt F)) (x2 : (⟨S640000, .f32⟩ : BufTy).Contents (Elt F)) : (⟨S100000, .i1⟩ : BufTy).Contents (Elt F) :=
  cmpf .ogt (deg x1 x2) (broadcastInDim S100000 ![] bcast_S_S100000 (constant S_ .f32 0x00000000#32))

/-- The inverse square root of the degree, wherever it is taken. -/
def degRsqrt (x1 : (⟨S2x640000, .i32⟩ : BufTy).Contents (Elt F)) (x2 : (⟨S640000, .f32⟩ : BufTy).Contents (Elt F)) : (⟨S100000, .f32⟩ : BufTy).Contents (Elt F) := Host.rsqrt (deg x1 x2)

/-- `d^(-1/2)` where the degree is positive, zero elsewhere. -/
def dinv (x1 : (⟨S2x640000, .i32⟩ : BufTy).Contents (Elt F)) (x2 : (⟨S640000, .f32⟩ : BufTy).Contents (Elt F)) : (⟨S100000, .f32⟩ : BufTy).Contents (Elt F) :=
  select (degPos x1 x2) (degRsqrt x1 x2) (broadcastInDim S100000 ![] bcast_S_S100000 (id (zeroScalar (F := F))))

/-- The symmetric normalisation of every edge. -/
def enorm (x1 : (⟨S2x640000, .i32⟩ : BufTy).Contents (Elt F)) (x2 : (⟨S640000, .f32⟩ : BufTy).Contents (Elt F)) : (⟨S740000, .f32⟩ : BufTy).Contents (Elt F) :=
  mulf
    (mulf (Host.gather gather_S100000_S740000x1_S740000_n_0_n_n_0_1_1 (dinv x1 x2) (wrapCol (src x1))) (wts x2))
    (Host.gather gather_S100000_S740000x1_S740000_n_0_n_n_0_1_1 (dinv x1 x2) (wrapCol (dst x1)))

/-- The aggregation of a node-feature array: rows gathered by source, scaled by the edge's normalisation, added into the
    destination's row. -/
def agg (h : (⟨S100000x128, .f32⟩ : BufTy).Contents (Elt F)) (x1 : (⟨S2x640000, .i32⟩ : BufTy).Contents (Elt F)) (x2 : (⟨S640000, .f32⟩ : BufTy).Contents (Elt F)) : (⟨S100000x128, .f32⟩ : BufTy).Contents (Elt F) :=
  Host.scatterAdd scatter_S100000x128_S740000x1_S740000x128_1_0_0_1
    (broadcastInDim S100000x128 ![] bcast_S_S100000x128 (constant S_ .f32 0x00000000#32))
    (broadcastInDim S740000x1 ![0] bcast_S740000_S740000x1_0 (dst x1))
    (mulf (Host.gather gather_S100000x128_S740000x1_S740000x128_1_0_n_n_0_1_1128 h (wrapCol (src x1)))
      (broadcastInDim S740000x128 ![0, 1] bcast_S740000x1_S740000x128_0_1
        (broadcastInDim S740000x1 ![0] bcast_S740000_S740000x1_0 (enorm x1 x2))))

/-- The same aggregation over class scores. -/
def agg40 (h : (⟨S100000x40, .f32⟩ : BufTy).Contents (Elt F)) (x1 : (⟨S2x640000, .i32⟩ : BufTy).Contents (Elt F)) (x2 : (⟨S640000, .f32⟩ : BufTy).Contents (Elt F)) : (⟨S100000x40, .f32⟩ : BufTy).Contents (Elt F) :=
  Host.scatterAdd scatter_S100000x40_S740000x1_S740000x40_1_0_0_1
    (broadcastInDim S100000x40 ![] bcast_S_S100000x40 (constant S_ .f32 0x00000000#32))
    (broadcastInDim S740000x1 ![0] bcast_S740000_S740000x1_0 (dst x1))
    (mulf (Host.gather gather_S100000x40_S740000x1_S740000x40_1_0_n_n_0_1_140 h (wrapCol (src x1)))
      (broadcastInDim S740000x40 ![0, 1] bcast_S740000x1_S740000x40_0_1
        (broadcastInDim S740000x1 ![0] bcast_S740000_S740000x1_0 (enorm x1 x2))))

/-- The weight of convolution 0: slice 0 of the stacked weights, as a matrix. -/
def weight0 (x3 : (⟨S8x128x128, .f32⟩ : BufTy).Contents (Elt F)) : (⟨S128x128, .f32⟩ : BufTy).Contents (Elt F) :=
  shapeCast _ (extractStridedSlice S1x128x128 ![0, 0, 0] x3 slices_S8x128x128_S1x128x128_0_0_0) shapeCasts_S1x128x128_S128x128

/-- The bias of convolution 0: slice 0 of the stacked biases, laid out as one row. -/
def biasRow0 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![0, 0] x4 slices_S8x128_S1x128_0_0) shapeCasts_S1x128_S128)

/-- The weight of convolution 1: slice 1 of the stacked weights, as a matrix. -/
def weight1 (x3 : (⟨S8x128x128, .f32⟩ : BufTy).Contents (Elt F)) : (⟨S128x128, .f32⟩ : BufTy).Contents (Elt F) :=
  shapeCast _ (extractStridedSlice S1x128x128 ![1, 0, 0] x3 slices_S8x128x128_S1x128x128_1_0_0) shapeCasts_S1x128x128_S128x128

/-- The bias of convolution 1: slice 1 of the stacked biases, laid out as one row. -/
def biasRow1 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![1, 0] x4 slices_S8x128_S1x128_1_0) shapeCasts_S1x128_S128)

/-- The weight of convolution 2: slice 2 of the stacked weights, as a matrix. -/
def weight2 (x3 : (⟨S8x128x128, .f32⟩ : BufTy).Contents (Elt F)) : (⟨S128x128, .f32⟩ : BufTy).Contents (Elt F) :=
  shapeCast _ (extractStridedSlice S1x128x128 ![2, 0, 0] x3 slices_S8x128x128_S1x128x128_2_0_0) shapeCasts_S1x128x128_S128x128

/-- The bias of convolution 2: slice 2 of the stacked biases, laid out as one row. -/
def biasRow2 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![2, 0] x4 slices_S8x128_S1x128_2_0) shapeCasts_S1x128_S128)

/-- The weight of convolution 3: slice 3 of the stacked weights, as a matrix. -/
def weight3 (x3 : (⟨S8x128x128, .f32⟩ : BufTy).Contents (Elt F)) : (⟨S128x128, .f32⟩ : BufTy).Contents (Elt F) :=
  shapeCast _ (extractStridedSlice S1x128x128 ![3, 0, 0] x3 slices_S8x128x128_S1x128x128_3_0_0) shapeCasts_S1x128x128_S128x128

/-- The bias of convolution 3: slice 3 of the stacked biases, laid out as one row. -/
def biasRow3 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![3, 0] x4 slices_S8x128_S1x128_3_0) shapeCasts_S1x128_S128)

/-- The weight of convolution 4: slice 4 of the stacked weights, as a matrix. -/
def weight4 (x3 : (⟨S8x128x128, .f32⟩ : BufTy).Contents (Elt F)) : (⟨S128x128, .f32⟩ : BufTy).Contents (Elt F) :=
  shapeCast _ (extractStridedSlice S1x128x128 ![4, 0, 0] x3 slices_S8x128x128_S1x128x128_4_0_0) shapeCasts_S1x128x128_S128x128

/-- The bias of convolution 4: slice 4 of the stacked biases, laid out as one row. -/
def biasRow4 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![4, 0] x4 slices_S8x128_S1x128_4_0) shapeCasts_S1x128_S128)

/-- The weight of convolution 5: slice 5 of the stacked weights, as a matrix. -/
def weight5 (x3 : (⟨S8x128x128, .f32⟩ : BufTy).Contents (Elt F)) : (⟨S128x128, .f32⟩ : BufTy).Contents (Elt F) :=
  shapeCast _ (extractStridedSlice S1x128x128 ![5, 0, 0] x3 slices_S8x128x128_S1x128x128_5_0_0) shapeCasts_S1x128x128_S128x128

/-- The bias of convolution 5: slice 5 of the stacked biases, laid out as one row. -/
def biasRow5 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![5, 0] x4 slices_S8x128_S1x128_5_0) shapeCasts_S1x128_S128)

/-- The weight of convolution 6: slice 6 of the stacked weights, as a matrix. -/
def weight6 (x3 : (⟨S8x128x128, .f32⟩ : BufTy).Contents (Elt F)) : (⟨S128x128, .f32⟩ : BufTy).Contents (Elt F) :=
  shapeCast _ (extractStridedSlice S1x128x128 ![6, 0, 0] x3 slices_S8x128x128_S1x128x128_6_0_0) shapeCasts_S1x128x128_S128x128

/-- The bias of convolution 6: slice 6 of the stacked biases, laid out as one row. -/
def biasRow6 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![6, 0] x4 slices_S8x128_S1x128_6_0) shapeCasts_S1x128_S128)

/-- The weight of convolution 7: slice 7 of the stacked weights, as a matrix. -/
def weight7 (x3 : (⟨S8x128x128, .f32⟩ : BufTy).Contents (Elt F)) : (⟨S128x128, .f32⟩ : BufTy).Contents (Elt F) :=
  shapeCast _ (extractStridedSlice S1x128x128 ![7, 0, 0] x3 slices_S8x128x128_S1x128x128_7_0_0) shapeCasts_S1x128x128_S128x128

/-- The bias of convolution 7: slice 7 of the stacked biases, laid out as one row. -/
def biasRow7 (x4 : (⟨S8x128, .f32⟩ : BufTy).Contents (Elt F)) : (⟨S1x128, .f32⟩ : BufTy).Contents (Elt F) :=
  broadcastInDim S1x128 ![1] bcast_S128_S1x128_1
    (shapeCast _ (extractStridedSlice S1x128 ![7, 0] x4 slices_S8x128_S1x128_7_0) shapeCasts_S1x128_S128)

/-- The final bias, laid out as one row. -/
def finalBiasRow (x6 : (⟨S40, .f32⟩ : BufTy).Contents (Elt F)) : (⟨S1x40, .f32⟩ : BufTy).Contents (Elt F) := broadcastInDim S1x40 ![1] bcast_S40_S1x40_1 x6

/-- The first product: the input features times the first weight. -/
def h0 (x0 : (⟨S100000x128, .f32⟩ : BufTy).Contents (Elt F)) (x3 : (⟨S8x128x128, .f32⟩ : BufTy).Contents (Elt F)) : (⟨S100000x128, .f32⟩ : BufTy).Contents (Elt F) := lin x0 (weight0 x3)

/-- Block 0: the first aggregation. -/
def aggA0 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (h0 x0 x3) x1 x2

/-- Block 0: bias, relu and the product with the block's second weight. -/
def hMid0 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brm (aggA0 x0 x1 x2 x3 x4) (biasRow0 x4) (weight1 x3)

/-- Block 0: the second aggregation. -/
def aggB0 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hMid0 x0 x1 x2 x3 x4) x1 x2

/-- Block 0: its output features (normalised rows averaged with the block's input). -/
def xOut0 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnX (aggB0 x0 x1 x2 x3 x4) (biasRow1 x4) (x0)

/-- Block 0: the product of its output with the next block's first weight. -/
def hOut0 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnH (aggB0 x0 x1 x2 x3 x4) (biasRow1 x4) (x0) (weight2 x3)

/-- Block 1: the first aggregation. -/
def aggA1 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hOut0 x0 x1 x2 x3 x4) x1 x2

/-- Block 1: bias, relu and the product with the block's second weight. -/
def hMid1 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brm (aggA1 x0 x1 x2 x3 x4) (biasRow2 x4) (weight3 x3)

/-- Block 1: the second aggregation. -/
def aggB1 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hMid1 x0 x1 x2 x3 x4) x1 x2

/-- Block 1: its output features (normalised rows averaged with the block's input). -/
def xOut1 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnX (aggB1 x0 x1 x2 x3 x4) (biasRow3 x4) (xOut0 x0 x1 x2 x3 x4)

/-- Block 1: the product of its output with the next block's first weight. -/
def hOut1 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnH (aggB1 x0 x1 x2 x3 x4) (biasRow3 x4) (xOut0 x0 x1 x2 x3 x4) (weight4 x3)

/-- Block 2: the first aggregation. -/
def aggA2 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hOut1 x0 x1 x2 x3 x4) x1 x2

/-- Block 2: bias, relu and the product with the block's second weight. -/
def hMid2 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brm (aggA2 x0 x1 x2 x3 x4) (biasRow4 x4) (weight5 x3)

/-- Block 2: the second aggregation. -/
def aggB2 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hMid2 x0 x1 x2 x3 x4) x1 x2

/-- Block 2: its output features (normalised rows averaged with the block's input). -/
def xOut2 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnX (aggB2 x0 x1 x2 x3 x4) (biasRow5 x4) (xOut1 x0 x1 x2 x3 x4)

/-- Block 2: the product of its output with the next block's first weight. -/
def hOut2 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnH (aggB2 x0 x1 x2 x3 x4) (biasRow5 x4) (xOut1 x0 x1 x2 x3 x4) (weight6 x3)

/-- Block 3: the first aggregation. -/
def aggA3 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hOut2 x0 x1 x2 x3 x4) x1 x2

/-- Block 3: bias, relu and the product with the block's second weight. -/
def hMid3 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brm (aggA3 x0 x1 x2 x3 x4) (biasRow6 x4) (weight7 x3)

/-- Block 3: the second aggregation. -/
def aggB3 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := agg (hMid3 x0 x1 x2 x3 x4) x1 x2

/-- Block 3: its output features (normalised rows averaged with the block's input). -/
def xOut3 (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) : (⟨S100000x128, .f32⟩ : BufTy).Contents (Elt F) := brnX (aggB3 x0 x1 x2 x3 x4) (biasRow7 x4) (xOut2 x0 x1 x2 x3 x4)

/-- The last block's output times the final weight. -/
def hFinal (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) (x5 : (⟨S128x40, .f32⟩ : BufTy).Contents (Elt F)) : (⟨S100000x40, .f32⟩ : BufTy).Contents (Elt F) :=
  brnH40 (aggB3 x0 x1 x2 x3 x4) (biasRow7 x4) (xOut2 x0 x1 x2 x3 x4) x5

/-- The final aggregation, over class scores. -/
def aggFinal (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) (x5 : (⟨S128x40, .f32⟩ : BufTy).Contents (Elt F)) : (⟨S100000x40, .f32⟩ : BufTy).Contents (Elt F) := agg40 (hFinal x0 x1 x2 x3 x4 x5) x1 x2

/-- The network's result: the final bias and the row-wise log-softmax. -/
def out (x0 : (⟨S100000x128, .f32⟩ : BufTy).Contents (Elt F)) (x1 : (⟨S2x640000, .i32⟩ : BufTy).Contents (Elt F)) (x2 : (⟨S640000, .f32⟩ : BufTy).Contents (Elt F)) (x3 : (⟨S8x128x128, .f32⟩ : BufTy).Contents (Elt F)) (x4 : (⟨S8x128, .f32⟩ : BufTy).Contents (Elt F)) (x5 : (⟨S128x40, .f32⟩ : BufTy).Contents (Elt F)) (x6 : (⟨S40, .f32⟩ : BufTy).Contents (Elt F)) : (⟨S100000x40, .f32⟩ : BufTy).Contents (Elt F) :=
  lsm (aggFinal x0 x1 x2 x3 x4 x5) (finalBiasRow x6)

end Cert.Model

end
-- ==== Proof.LibRowOfVector.lean ====
/-
  A vector laid out as one row, two ways.

  An array of shape `[n]` becomes an array of shape `[1, n]` either by a reshape or by a broadcast that sends its one axis
  to the second axis of the result. Both read, at `(u, j)`, the vector at `j` (the unit coordinate `u` is `0`), so they
  are the same array.
-/
import Idealize.ShloMosaic.Lib.Pipeline.Value
import Idealize.ShloMosaic.Lib.ValueIdx
import Idealize.ShloMosaic.Lib.ValueLayout

noncomputable section

namespace Idealize.ShloMosaic.RowOfVector

open Idealize.ShloMosaic Idealize.ShloMosaic.ValueIdx

/-- An `[n]` array reshaped to `[1, n]` is the same array broadcast along the second axis. -/
theorem shapeCast_eq_broadcastInDim {α : Type} (n : ℕ) (x : (⟨1, ![n]⟩ : Shape).Idx → α)
    (h1 : (⟨1, ![n]⟩ : Shape).ShapeCasts ⟨2, ![1, n]⟩)
    (h2 : (⟨1, ![n]⟩ : Shape).BroadcastsInDim ⟨2, ![1, n]⟩ (![1] : Fin 1 → Fin 2)) :
    shapeCast ⟨2, ![1, n]⟩ x h1 = broadcastInDim ⟨2, ![1, n]⟩ (![1] : Fin 1 → Fin 2) h2 x := by
  funext i
  obtain ⟨u, j, rfl⟩ : ∃ (u : Fin 1) (j : Fin n), i = ix2 u j := ⟨i 0, i 1, eq_ix2 i⟩
  rw [shapeCast_a_1a_apply]
  refine (broadcastInDim_apply _ h2 x (ix2 u j) (ix1 j) (fun a => ?_)).symm
  match a with
  | ⟨0, _⟩ =>
    show j.val = if n = 1 then 0 else j.val
    split
    · have := j.isLt; omega
    · rfl

end Idealize.ShloMosaic.RowOfVector

end
-- ==== Proof.LibJoinedPair.lean ====
/-
  Two arrays joined along an axis, with the pieces as plain arguments.

  `concatenate` takes its pieces as a list of (shape, array) pairs. A rewriting pass does not look inside such a pair
  (the array's type depends on the shape beside it), so what the pieces are stays unread. `joined` is the same array with
  the two pieces as ordinary arguments; `joined_eq` turns the one into the other (by definition), after which the pieces
  are rewritten like any other operand. `read_fold` is the library's one-pass reading of a fold of host operations with
  that equation added; `read_fold_casts` takes further rules.
-/
import Idealize.ShloMosaic.Lib.StableHlo.Run

noncomputable section

namespace Idealize.ShloMosaic.JoinedPair

open Idealize.ShloMosaic

/-- Two pieces joined along axis `d`. -/
def joined {α : Type} (S : Shape) (d : Fin S.rank) (S1 S2 : Shape) (h : Shape.Concatenates [S1, S2] S d) (a : S1.Idx → α) (b : S2.Idx → α) :
    S.Idx → α :=
  concatenate S d [⟨S1, a⟩, ⟨S2, b⟩] h

/-- A two-piece `concatenate` is `joined` of its pieces. -/
theorem joined_eq {α : Type} (S : Shape) (d : Fin S.rank) (S1 S2 : Shape) (h : Shape.Concatenates [S1, S2] S d) (a : S1.Idx → α) (b : S2.Idx → α) :
    concatenate S d [⟨S1, a⟩, ⟨S2, b⟩] h = joined S d S1 S2 h a b := rfl

end Idealize.ShloMosaic.JoinedPair

/-- What one buffer holds after a literal list of host operations, as the operations' functions of what the buffers held
    before: each operation's result at its own buffer is its function's value, at any other buffer what was there; the
    pieces of a two-piece concatenation are read too. -/
macro "read_fold" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne']))

/-- The same reading with more rewrite rules added: the rules that make a typed reference's transport of contents (the
    identity, at a literal buffer of the stated type) disappear, stated with `↓` so that each is removed before its argument
    is read, while that argument is still a small term. -/
macro "read_fold_casts" "[" ls:Lean.Parser.Tactic.simpLemma,* "]" : tactic =>
  `(tactic| (simp (disch := decide) only [Idealize.ShloMosaic.JoinedPair.joined_eq,
      Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne', $ls,*]))

end
-- ==== Proof.FoldA.lean ====
/-
  The contents of the TensorCore's buffers at the first boundaries of the idealized kernel's run.

  At every boundary between two segments of @main the buffers that later segments still read hold named functions
  of the seven arguments: the arguments themselves; the sources, the destinations and the edges' normalisation, made
  once by the three initial host stretches; the first weight; and, after region 0, the first product.  A host stretch
  is read operation by operation; a buffer it does not write keeps its contents; a region changes only its windows'
  arrays.
-/
import proofs.«147806_j25666724560908_2_alg».proof.Proof.Gen.KernelIdeal.Frame
import proofs.«147806_j25666724560908_2_alg».proof.Proof.RegionForms
import proofs.«147806_j25666724560908_2_alg».proof.Proof.Model
import proofs.«147806_j25666724560908_2_alg».proof.Proof.LibRowOfVector
import proofs.«147806_j25666724560908_2_alg».proof.Proof.LibJoinedPair

set_option maxRecDepth 16384

noncomputable section

namespace Cert.KernelIdeal.Fold

open Cert.KernelIdeal Cert.KernelIdeal.Gen
open Idealize.ShloMosaic Idealize.ShloMosaic.TcCoe Idealize.SL.Sem

/-- No operation of a literal host stretch writes the buffer: the stretch's write sets, one reference at a time. -/
macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

variable (m : (ℓ : Loc nD τ sig) → Buf (Elt Ideal) ℓ) (ρ : Dev nD → PrngReg) (c : Dev nD)

variable (hR : RegionForms)
include hR

/-! ### Boundary 0 -/

theorem at0_main_arg0 : W0 m ρ c (Proc.devRef .tc main_arg0) = (m ((c : Thread nD τ).loc main_arg0)) := rfl

theorem at0_main_arg3 : W0 m ρ c (Proc.devRef .tc main_arg3) = (m ((c : Thread nD τ).loc main_arg3)) := rfl

theorem at0_main_arg4 : W0 m ρ c (Proc.devRef .tc main_arg4) = (m ((c : Thread nD τ).loc main_arg4)) := rfl

theorem at0_main_arg5 : W0 m ρ c (Proc.devRef .tc main_arg5) = (m ((c : Thread nD τ).loc main_arg5)) := rfl

theorem at0_main_arg6 : W0 m ρ c (Proc.devRef .tc main_arg6) = (m ((c : Thread nD τ).loc main_arg6)) := rfl

/-! ### Boundary 1 -/

theorem at1_main_arg0 : W1 m ρ c (Proc.devRef .tc main_arg0) = (m ((c : Thread nD τ).loc main_arg0)) :=
  (StableHlo.after_of_forall_not_mem (b := Proc.devRef .tc main_arg0) _ _ (by not_written hostOps0)).trans (at0_main_arg0 m ρ c hR)

theorem at1_main_arg3 : W1 m ρ c (Proc.devRef .tc main_arg3) = (m ((c : Thread nD τ).loc main_arg3)) :=
  (StableHlo.after_of_forall_not_mem (b := Proc.devRef .tc main_arg3) _ _ (by not_written hostOps0)).trans (at0_main_arg3 m ρ c hR)

theorem at1_main_arg4 : W1 m ρ c (Proc.devRef .tc main_arg4) = (m ((c : Thread nD τ).loc main_arg4)) :=
  (StableHlo.after_of_forall_not_mem (b := Proc.devRef .tc main_arg4) _ _ (by not_written hostOps0)).trans (at0_main_arg4 m ρ c hR)

theorem at1_main_arg5 : W1 m ρ c (Proc.devRef .tc main_arg5) = (m ((c : Thread nD τ).loc main_arg5)) :=
  (StableHlo.after_of_forall_not_mem (b := Proc.devRef .tc main_arg5) _ _ (by not_written hostOps0)).trans (at0_main_arg5 m ρ c hR)

theorem at1_main_arg6 : W1 m ρ c (Proc.devRef .tc main_arg6) = (m ((c : Thread nD τ).loc main_arg6)) :=
  (StableHlo.after_of_forall_not_mem (b := Proc.devRef .tc main_arg6) _ _ (by not_written hostOps0)).trans (at0_main_arg6 m ρ c hR)

theorem at1_main_v3 : W1 m ρ c (Proc.devRef .tc main_v3) = Cert.Model.src (F := Ideal) (m ((c : Thread nD τ).loc main_arg1)) := by
  show StableHlo.after hostOps0 (W0 m ρ c) (Proc.devRef .tc main_v3) = _
  read_fold
  rfl

theorem at1_main_v6 : W1 m ρ c (Proc.devRef .tc main_v6) = Cert.Model.dst (F := Ideal) (m ((c : Thread nD τ).loc main_arg1)) := by
  show StableHlo.after hostOps0 (W0 m ρ c) (Proc.devRef .tc main_v6) = _
  read_fold
  rfl

theorem at1_main_v8 : W1 m ρ c (Proc.devRef .tc main_v8) = Cert.Model.wts (F := Ideal) (m ((c : Thread nD τ).loc main_arg2)) := by
  show StableHlo.after hostOps0 (W0 m ρ c) (Proc.devRef .tc main_v8) = _
  read_fold
  rfl

theorem at1_main_v13 : W1 m ρ c (Proc.devRef .tc main_v13) = Cert.Model.degPos (F := Ideal) (m ((c : Thread nD τ).loc main_arg1)) (m ((c : Thread nD τ).loc main_arg2)) := by
  show StableHlo.after hostOps0 (W0 m ρ c) (Proc.devRef .tc main_v13) = _
  read_fold
  rfl

theorem at1_main_v14 : W1 m ρ c (Proc.devRef .tc main_v14) = Cert.Model.degRsqrt (F := Ideal) (m ((c : Thread nD τ).loc main_arg1)) (m ((c : Thread nD τ).loc main_arg2)) := by
  show StableHlo.after hostOps0 (W0 m ρ c) (Proc.devRef .tc main_v14) = _
  read_fold
  rfl

theorem at1_main_cst_2 : W1 m ρ c (Proc.devRef .tc main_cst_2) = Cert.Model.zeroScalar (F := Ideal) := by
  show StableHlo.after hostOps0 (W0 m ρ c) (Proc.devRef .tc main_cst_2) = _
  read_fold
  rfl

/-! ### Boundary 2 -/

theorem at2_main_arg0 : W2 m ρ c (Proc.devRef .tc main_arg0) = (m ((c : Thread nD τ).loc main_arg0)) :=
  (StableHlo.after_of_forall_not_mem (b := Proc.devRef .tc main_arg0) _ _ (by not_written hostOps0_1)).trans (at1_main_arg0 m ρ c hR)

theorem at2_main_arg3 : W2 m ρ c (Proc.devRef .tc main_arg3) = (m ((c : Thread nD τ).loc main_arg3)) :=
  (StableHlo.after_of_forall_not_mem (b := Proc.devRef .tc main_arg3) _ _ (by not_written hostOps0_1)).trans (at1_main_arg3 m ρ c hR)

theorem at2_main_arg4 : W2 m ρ c (Proc.devRef .tc main_arg4) = (m ((c : Thread nD τ).loc main_arg4)) :=
  (StableHlo.after_of_forall_not_mem (b := Proc.devRef .tc main_arg4) _ _ (by not_written hostOps0_1)).trans (at1_main_arg4 m ρ c hR)

theorem at2_main_arg5 : W2 m ρ c (Proc.devRef .tc main_arg5) = (m ((c : Thread nD τ).loc main_arg5)) :=
  (StableHlo.after_of_forall_not_mem (b := Proc.devRef .tc main_arg5) _ _ (by not_written hostOps0_1)).trans (at1_main_arg5 m ρ c hR)

theorem at2_main_arg6 : W2 m ρ c (Proc.devRef .tc main_arg6) = (m ((c : Thread nD τ).loc main_arg6)) :=
  (StableHlo.after_of_forall_not_mem (b := Proc.devRef .tc main_arg6) _ _ (by not_written hostOps0_1)).trans (at1_main_arg6 m ρ c hR)

theorem at2_main_v3 : W2 m ρ c (Proc.devRef .tc main_v3) = Cert.Model.src (F := Ideal) (m ((c : Thread nD τ).loc main_arg1)) :=
  (StableHlo.after_of_forall_not_mem (b := Proc.devRef .tc main_v3) _ _ (by not_written hostOps0_1)).trans (at1_main_v3 m ρ c hR)

theorem at2_main_v6 : W2 m ρ c (Proc.devRef .tc main_v6) = Cert.Model.dst (F := Ideal) (m ((c : Thread nD τ).loc main_arg1)) :=
  (StableHlo.after_of_forall_not_mem (b := Proc.devRef .tc main_v6) _ _ (by not_written hostOps0_1)).trans (at1_main_v6 m ρ c hR)

theorem at2_main_v8 : W2 m ρ c (Proc.devRef .tc main_v8) = Cert.Model.wts (F := Ideal) (m ((c : Thread nD τ).loc main_arg2)) :=
  (StableHlo.after_of_forall_not_mem (b := Proc.devRef .tc main_v8) _ _ (by not_written hostOps0_1)).trans (at1_main_v8 m ρ c hR)

/-- The selection stretch, read over its own three input buffers. -/
theorem w2_main_v15_raw : W2 m ρ c (Proc.devRef .tc main_v15)
    = select (W1 m ρ c (Proc.devRef .tc main_v13)) (W1 m ρ c (Proc.devRef .tc main_v14))
        (broadcastInDim S100000 ![] bcast_S_S100000 (id (W1 m ρ c (Proc.devRef .tc main_cst_2)))) := by
  show StableHlo.after hostOps0_1 (W1 m ρ c) (Proc.devRef .tc main_v15) = _
  generalize W1 m ρ c = V
  read_fold
  rfl

theorem at2_main_v15 : W2 m ρ c (Proc.devRef .tc main_v15) = Cert.Model.dinv (F := Ideal) (m ((c : Thread nD τ).loc main_arg1)) (m ((c : Thread nD τ).loc main_arg2)) := by
  rw [w2_main_v15_raw m ρ c hR, at1_main_v13 m ρ c hR, at1_main_v14 m ρ c hR, at1_main_cst_2 m ρ c hR]
  rfl

/-! ### Boundary 3 -/

theorem at3_main_arg0 : W3 m ρ c (Proc.devRef .tc main_arg0) = (m ((c : Thread nD τ).loc main_arg0)) :=
  (StableHlo.after_of_forall_not_mem (b := Proc.devRef .tc main_arg0) _ _ (by not_written hostOps0_2)).trans (at2_main_arg0 m ρ c hR)

theorem at3_main_arg3 : W3 m ρ c (Proc.devRef .tc main_arg3) = (m ((c : Thread nD τ).loc main_arg3)) :=
  (StableHlo.after_of_forall_not_mem (b := Proc.devRef .tc main_arg3) _ _ (by not_written hostOps0_2)).trans (at2_main_arg3 m ρ c hR)

theorem at3_main_arg4 : W3 m ρ c (Proc.devRef .tc main_arg4) = (m ((c : Thread nD τ).loc main_arg4)) :=
  (StableHlo.after_of_forall_not_mem (b := Proc.devRef .tc main_arg4) _ _ (by not_written hostOps0_2)).trans (at2_main_arg4 m ρ c hR)

theorem at3_main_arg5 : W3 m ρ c (Proc.devRef .tc main_arg5) = (m ((c : Thread nD τ).loc main_arg5)) :=
  (StableHlo.after_of_forall_not_mem (b := Proc.devRef .tc main_arg5) _ _ (by not_written hostOps0_2)).trans (at2_main_arg5 m ρ c hR)

theorem at3_main_arg6 : W3 m ρ c (Proc.devRef .tc main_arg6) = (m ((c : Thread nD τ).loc main_arg6)) :=
  (StableHlo.after_of_forall_not_mem (b := Proc.devRef .tc main_arg6) _ _ (by not_written hostOps0_2)).trans (at2_main_arg6 m ρ c hR)

theorem at3_main_v3 : W3 m ρ c (Proc.devRef .tc main_v3) = Cert.Model.src (F := Ideal) (m ((c : Thread nD τ).loc main_arg1)) :=
  (StableHlo.after_of_forall_not_mem (b := Proc.devRef .tc main_v3) _ _ (by not_written hostOps0_2)).trans (at2_main_v3 m ρ c hR)

theorem at3_main_v6 : W3 m ρ c (Proc.devRef .tc main_v6) = Cert.Model.dst (F := Ideal) (m ((c : Thread nD τ).loc main_arg1)) :=
  (StableHlo.after_of_forall_not_mem (b := Proc.devRef .tc main_v6) _ _ (by not_written hostOps0_2)).trans (at2_main_v6 m ρ c hR)

theorem at3_main_v31 : W3 m ρ c (Proc.devRef .tc main_v31) = Cert.Model.enorm (F := Ideal) (m ((c : Thread nD τ).loc main_arg1)) (m ((c : Thread nD τ).loc main_arg2)) := by
  show StableHlo.after hostOps0_2 (W2 m ρ c) (Proc.devRef .tc main_v31) = _
  have h0 := at2_main_v15 m ρ c hR
  have h1 := at2_main_v3 m ρ c hR
  have h2 := at2_main_v8 m ρ c hR
  have h3 := at2_main_v6 m ρ c hR
  generalize W2 m ρ c = V at h0 h1 h2 h3 ⊢
  read_fold
  rw [h0, h1, h2, h3]
  rfl

theorem at3_main_v33 : W3 m ρ c (Proc.devRef .tc main_v33) = Cert.Model.weight0 (F := Ideal) (m ((c : Thread nD τ).loc main_arg3)) := by
  show StableHlo.after hostOps0_2 (W2 m ρ c) (Proc.devRef .tc main_v33) = _
  have h0 := at2_main_arg3 m ρ c hR
  generalize W2 m ρ c = V at h0 ⊢
  read_fold
  rw [h0]
  rfl

/-! ### Boundary 4 -/

theorem at4_main_arg0 : W4 m ρ c (Proc.devRef .tc main_arg0) = (m ((c : Thread nD τ).loc main_arg0)) :=
  (W4_arr m ρ c 0).trans ((((dat0 (V3 m ρ) c).arrAt_in 0 rfl _).trans (A_eq0 (V3 m ρ) c 0)).trans (at3_main_arg0 m ρ c hR))

theorem at4_main_arg3 : W4 m ρ c (Proc.devRef .tc main_arg3) = (m ((c : Thread nD τ).loc main_arg3)) :=
  (W4_of_ne m ρ c main_arg3 (by decide)).trans (at3_main_arg3 m ρ c hR)

theorem at4_main_arg4 : W4 m ρ c (Proc.devRef .tc main_arg4) = (m ((c : Thread nD τ).loc main_arg4)) :=
  (W4_of_ne m ρ c main_arg4 (by decide)).trans (at3_main_arg4 m ρ c hR)

theorem at4_main_arg5 : W4 m ρ c (Proc.devRef .tc main_arg5) = (m ((c : Thread nD τ).loc main_arg5)) :=
  (W4_of_ne m ρ c main_arg5 (by decide)).trans (at3_main_arg5 m ρ c hR)

theorem at4_main_arg6 : W4 m ρ c (Proc.devRef .tc main_arg6) = (m ((c : Thread nD τ).loc main_arg6)) :=
  (W4_of_ne m ρ c main_arg6 (by decide)).trans (at3_main_arg6 m ρ c hR)

theorem at4_main_v3 : W4 m ρ c (Proc.devRef .tc main_v3) = Cert.Model.src (F := Ideal) (m ((c : Thread nD τ).loc main_arg1)) :=
  (W4_of_ne m ρ c main_v3 (by decide)).trans (at3_main_v3 m ρ c hR)

theorem at4_main_v6 : W4 m ρ c (Proc.devRef .tc main_v6) = Cert.Model.dst (F := Ideal) (m ((c : Thread nD τ).loc main_arg1)) :=
  (W4_of_ne m ρ c main_v6 (by decide)).trans (at3_main_v6 m ρ c hR)

theorem at4_main_v31 : W4 m ρ c (Proc.devRef .tc main_v31) = Cert.Model.enorm (F := Ideal) (m ((c : Thread nD τ).loc main_arg1)) (m ((c : Thread nD τ).loc main_arg2)) :=
  (W4_of_ne m ρ c main_v31 (by decide)).trans (at3_main_v31 m ρ c hR)

theorem at4_main_v34 : W4 m ρ c (Proc.devRef .tc main_v34) = Cert.Model.h0 (F := Ideal) (m ((c : Thread nD τ).loc main_arg0)) (m ((c : Thread nD τ).loc main_arg3)) := by
  refine (W4_arr m ρ c 2).trans ?_
  rw [hR.r0 (V3 m ρ) c]
  show Cert.RefOps.lin (W3 m ρ c (Proc.devRef .tc main_arg0)) (W3 m ρ c (Proc.devRef .tc main_v33)) = _
  rw [at3_main_arg0 m ρ c hR, at3_main_v33 m ρ c hR]
  rfl

end Cert.KernelIdeal.Fold

end
-- ==== Proof.FoldB.lean ====
/-
  The contents of the TensorCore's buffers at the boundaries of the first two blocks of the idealized kernel's run.

  Each host stretch aggregates the features the previous region left (gather by source, scale by the edge's
  normalisation, scatter-add by destination) and slices the next weight and bias row; each region then leaves the
  next dense step of the network in its output arrays.
-/
import proofs.«147806_j25666724560908_2_alg».proof.Proof.FoldA

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

variable (hR : RegionForms)
include hR

/-! ### Boundary 5 -/

theorem at5_main_arg0 : W5 m ρ c (Proc.devRef .tc main_arg0) = (m ((c : Thread nD τ).loc main_arg0)) :=
  (StableHlo.after_of_forall_not_mem (b := Proc.devRef .tc main_arg0) _ _ (by not_written hostOps1)).trans (at4_main_arg0 m ρ c hR)

theorem at5_main_arg3 : W5 m ρ c (Proc.devRef .tc main_arg3) = (m ((c : Thread nD τ).loc main_arg3)) :=
  (StableHlo.after_of_forall_not_mem (b := Proc.devRef .tc main_arg3) _ _ (by not_written hostOps1)).trans (at4_main_arg3 m ρ c hR)

theorem at5_main_arg4 : W5 m ρ c (Proc.devRef .tc main_arg4) = (m ((c : Thread nD τ).loc main_arg4)) :=
  (StableHlo.after_of_forall_not_mem (b := Proc.devRef .tc main_arg4) _ _ (by not_written hostOps1)).trans (at4_main_arg4 m ρ c hR)

theorem at5_main_arg5 : W5 m ρ c (Proc.devRef .tc main_arg5) = (m ((c : Thread nD τ).loc main_arg5)) :=
  (StableHlo.after_of_forall_not_mem (b := Proc.devRef .tc main_arg5) _ _ (by not_written hostOps1)).trans (at4_main_arg5 m ρ c hR)

theorem at5_main_arg6 : W5 m ρ c (Proc.devRef .tc main_arg6) = (m ((c : Thread nD τ).loc main_arg6)) :=
  (StableHlo.after_of_forall_not_mem (b := Proc.devRef .tc main_arg6) _ _ (by not_written hostOps1)).trans (at4_main_arg6 m ρ c hR)

theorem at5_main_v3 : W5 m ρ c (Proc.devRef .tc main_v3) = Cert.Model.src (F := Ideal) (m ((c : Thread nD τ).loc main_arg1)) :=
  (StableHlo.after_of_forall_not_mem (b := Proc.devRef .tc main_v3) _ _ (by not_written hostOps1)).trans (at4_main_v3 m ρ c hR)

theorem at5_main_v6 : W5 m ρ c (Proc.devRef .tc main_v6) = Cert.Model.dst (F := Ideal) (m ((c : Thread nD τ).loc main_arg1)) :=
  (StableHlo.after_of_forall_not_mem (b := Proc.devRef .tc main_v6) _ _ (by not_written hostOps1)).trans (at4_main_v6 m ρ c hR)

theorem at5_main_v31 : W5 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps1)).trans (at4_main_v31 m ρ c hR)

theorem at5_main_v47 : W5 m ρ c (Proc.devRef .tc main_v47) = Cert.Model.aggA0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W4 m ρ c) (Proc.devRef .tc main_v47) = _
  have h0 := at4_main_v34 m ρ c hR
  have h1 := at4_main_v3 m ρ c hR
  have h2 := at4_main_v6 m ρ c hR
  have h3 := at4_main_v31 m ρ c hR
  generalize W4 m ρ c = V at h0 h1 h2 h3 ⊢
  after_results_simp
  rw [h0, h1, h2, h3]
  rfl

theorem at5_main_v50 : W5 m ρ c (Proc.devRef .tc main_v50) = Cert.Model.biasRow0 (F := Ideal) (m ((c : Thread nD τ).loc main_arg4)) := by
  show StableHlo.after hostOps1 (W4 m ρ c) (Proc.devRef .tc main_v50) = _
  have h0 := at4_main_arg4 m ρ c hR
  generalize W4 m ρ c = V at h0 ⊢
  after_results_simp
  rw [h0]
  exact RowOfVector.shapeCast_eq_broadcastInDim 128 _ _ _

theorem at5_main_v52 : W5 m ρ c (Proc.devRef .tc main_v52) = Cert.Model.weight1 (F := Ideal) (m ((c : Thread nD τ).loc main_arg3)) := by
  show StableHlo.after hostOps1 (W4 m ρ c) (Proc.devRef .tc main_v52) = _
  have h0 := at4_main_arg3 m ρ c hR
  generalize W4 m ρ c = V at h0 ⊢
  after_results_simp
  rw [h0]
  rfl

/-! ### Boundary 6 -/

theorem at6_main_arg0 : W6 m ρ c (Proc.devRef .tc main_arg0) = (m ((c : Thread nD τ).loc main_arg0)) :=
  (W6_of_ne m ρ c main_arg0 (by decide)).trans (at5_main_arg0 m ρ c hR)

theorem at6_main_arg3 : W6 m ρ c (Proc.devRef .tc main_arg3) = (m ((c : Thread nD τ).loc main_arg3)) :=
  (W6_of_ne m ρ c main_arg3 (by decide)).trans (at5_main_arg3 m ρ c hR)

theorem at6_main_arg4 : W6 m ρ c (Proc.devRef .tc main_arg4) = (m ((c : Thread nD τ).loc main_arg4)) :=
  (W6_of_ne m ρ c main_arg4 (by decide)).trans (at5_main_arg4 m ρ c hR)

theorem at6_main_arg5 : W6 m ρ c (Proc.devRef .tc main_arg5) = (m ((c : Thread nD τ).loc main_arg5)) :=
  (W6_of_ne m ρ c main_arg5 (by decide)).trans (at5_main_arg5 m ρ c hR)

theorem at6_main_arg6 : W6 m ρ c (Proc.devRef .tc main_arg6) = (m ((c : Thread nD τ).loc main_arg6)) :=
  (W6_of_ne m ρ c main_arg6 (by decide)).trans (at5_main_arg6 m ρ c hR)

theorem at6_main_v3 : W6 m ρ c (Proc.devRef .tc main_v3) = Cert.Model.src (F := Ideal) (m ((c : Thread nD τ).loc main_arg1)) :=
  (W6_of_ne m ρ c main_v3 (by decide)).trans (at5_main_v3 m ρ c hR)

theorem at6_main_v6 : W6 m ρ c (Proc.devRef .tc main_v6) = Cert.Model.dst (F := Ideal) (m ((c : Thread nD τ).loc main_arg1)) :=
  (W6_of_ne m ρ c main_v6 (by decide)).trans (at5_main_v6 m ρ c hR)

theorem at6_main_v31 : W6 m ρ c (Proc.devRef .tc main_v31) = Cert.Model.enorm (F := Ideal) (m ((c : Thread nD τ).loc main_arg1)) (m ((c : Thread nD τ).loc main_arg2)) :=
  (W6_of_ne m ρ c main_v31 (by decide)).trans (at5_main_v31 m ρ c hR)

theorem at6_main_v53 : W6 m ρ c (Proc.devRef .tc main_v53) = Cert.Model.hMid0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 3).trans ?_
  rw [hR.r1 (V5 m ρ) c]
  show Cert.RefOps.brm (W5 m ρ c (Proc.devRef .tc main_v47)) (W5 m ρ c (Proc.devRef .tc main_v50)) (W5 m ρ c (Proc.devRef .tc main_v52)) = _
  rw [at5_main_v47 m ρ c hR, at5_main_v50 m ρ c hR, at5_main_v52 m ρ c hR]
  rfl

/-! ### Boundary 7 -/

theorem at7_main_arg0 : W7 m ρ c (Proc.devRef .tc main_arg0) = (m ((c : Thread nD τ).loc main_arg0)) :=
  (StableHlo.after_of_forall_not_mem (b := Proc.devRef .tc main_arg0) _ _ (by not_written hostOps2)).trans (at6_main_arg0 m ρ c hR)

theorem at7_main_arg3 : W7 m ρ c (Proc.devRef .tc main_arg3) = (m ((c : Thread nD τ).loc main_arg3)) :=
  (StableHlo.after_of_forall_not_mem (b := Proc.devRef .tc main_arg3) _ _ (by not_written hostOps2)).trans (at6_main_arg3 m ρ c hR)

theorem at7_main_arg4 : W7 m ρ c (Proc.devRef .tc main_arg4) = (m ((c : Thread nD τ).loc main_arg4)) :=
  (StableHlo.after_of_forall_not_mem (b := Proc.devRef .tc main_arg4) _ _ (by not_written hostOps2)).trans (at6_main_arg4 m ρ c hR)

theorem at7_main_arg5 : W7 m ρ c (Proc.devRef .tc main_arg5) = (m ((c : Thread nD τ).loc main_arg5)) :=
  (StableHlo.after_of_forall_not_mem (b := Proc.devRef .tc main_arg5) _ _ (by not_written hostOps2)).trans (at6_main_arg5 m ρ c hR)

theorem at7_main_arg6 : W7 m ρ c (Proc.devRef .tc main_arg6) = (m ((c : Thread nD τ).loc main_arg6)) :=
  (StableHlo.after_of_forall_not_mem (b := Proc.devRef .tc main_arg6) _ _ (by not_written hostOps2)).trans (at6_main_arg6 m ρ c hR)

theorem at7_main_v3 : W7 m ρ c (Proc.devRef .tc main_v3) = Cert.Model.src (F := Ideal) (m ((c : Thread nD τ).loc main_arg1)) :=
  (StableHlo.after_of_forall_not_mem (b := Proc.devRef .tc main_v3) _ _ (by not_written hostOps2)).trans (at6_main_v3 m ρ c hR)

theorem at7_main_v6 : W7 m ρ c (Proc.devRef .tc main_v6) = Cert.Model.dst (F := Ideal) (m ((c : Thread nD τ).loc main_arg1)) :=
  (StableHlo.after_of_forall_not_mem (b := Proc.devRef .tc main_v6) _ _ (by not_written hostOps2)).trans (at6_main_v6 m ρ c hR)

theorem at7_main_v31 : W7 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps2)).trans (at6_main_v31 m ρ c hR)

theorem at7_main_v66 : W7 m ρ c (Proc.devRef .tc main_v66) = Cert.Model.aggB0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps2 (W6 m ρ c) (Proc.devRef .tc main_v66) = _
  have h0 := at6_main_v53 m ρ c hR
  have h1 := at6_main_v3 m ρ c hR
  have h2 := at6_main_v6 m ρ c hR
  have h3 := at6_main_v31 m ρ c hR
  generalize W6 m ρ c = V at h0 h1 h2 h3 ⊢
  after_results_simp
  rw [h0, h1, h2, h3]
  rfl

theorem at7_main_v71 : W7 m ρ c (Proc.devRef .tc main_v71) = Cert.Model.biasRow1 (F := Ideal) (m ((c : Thread nD τ).loc main_arg4)) := by
  show StableHlo.after hostOps2 (W6 m ρ c) (Proc.devRef .tc main_v71) = _
  have h0 := at6_main_arg4 m ρ c hR
  generalize W6 m ρ c = V at h0 ⊢
  after_results_simp
  rw [h0]
  exact RowOfVector.shapeCast_eq_broadcastInDim 128 _ _ _

theorem at7_main_v68 : W7 m ρ c (Proc.devRef .tc main_v68) = Cert.Model.weight2 (F := Ideal) (m ((c : Thread nD τ).loc main_arg3)) := by
  show StableHlo.after hostOps2 (W6 m ρ c) (Proc.devRef .tc main_v68) = _
  have h0 := at6_main_arg3 m ρ c hR
  generalize W6 m ρ c = V at h0 ⊢
  after_results_simp
  rw [h0]
  rfl

/-! ### Boundary 8 -/

theorem at8_main_arg3 : W8 m ρ c (Proc.devRef .tc main_arg3) = (m ((c : Thread nD τ).loc main_arg3)) :=
  (W8_of_ne m ρ c main_arg3 (by decide)).trans (at7_main_arg3 m ρ c hR)

theorem at8_main_arg4 : W8 m ρ c (Proc.devRef .tc main_arg4) = (m ((c : Thread nD τ).loc main_arg4)) :=
  (W8_of_ne m ρ c main_arg4 (by decide)).trans (at7_main_arg4 m ρ c hR)

theorem at8_main_arg5 : W8 m ρ c (Proc.devRef .tc main_arg5) = (m ((c : Thread nD τ).loc main_arg5)) :=
  (W8_of_ne m ρ c main_arg5 (by decide)).trans (at7_main_arg5 m ρ c hR)

theorem at8_main_arg6 : W8 m ρ c (Proc.devRef .tc main_arg6) = (m ((c : Thread nD τ).loc main_arg6)) :=
  (W8_of_ne m ρ c main_arg6 (by decide)).trans (at7_main_arg6 m ρ c hR)

theorem at8_main_v3 : W8 m ρ c (Proc.devRef .tc main_v3) = Cert.Model.src (F := Ideal) (m ((c : Thread nD τ).loc main_arg1)) :=
  (W8_of_ne m ρ c main_v3 (by decide)).trans (at7_main_v3 m ρ c hR)

theorem at8_main_v6 : W8 m ρ c (Proc.devRef .tc main_v6) = Cert.Model.dst (F := Ideal) (m ((c : Thread nD τ).loc main_arg1)) :=
  (W8_of_ne m ρ c main_v6 (by decide)).trans (at7_main_v6 m ρ c hR)

theorem at8_main_v31 : W8 m ρ c (Proc.devRef .tc main_v31) = Cert.Model.enorm (F := Ideal) (m ((c : Thread nD τ).loc main_arg1)) (m ((c : Thread nD τ).loc main_arg2)) :=
  (W8_of_ne m ρ c main_v31 (by decide)).trans (at7_main_v31 m ρ c hR)

theorem at8_main_v72_0 : W8 m ρ c (Proc.devRef .tc main_v72_0) = Cert.Model.xOut0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 4).trans ?_
  rw [hR.r2x (V7 m ρ) c]
  show Cert.RefOps.brnX (W7 m ρ c (Proc.devRef .tc main_v66)) (W7 m ρ c (Proc.devRef .tc main_v71)) (W7 m ρ c (Proc.devRef .tc main_arg0)) = _
  rw [at7_main_v66 m ρ c hR, at7_main_v71 m ρ c hR, at7_main_arg0 m ρ c hR]
  rfl

theorem at8_main_v72_1 : W8 m ρ c (Proc.devRef .tc main_v72_1) = Cert.Model.hOut0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W8_arr m ρ c 5).trans ?_
  rw [hR.r2h (V7 m ρ) c]
  show Cert.RefOps.brnH (W7 m ρ c (Proc.devRef .tc main_v66)) (W7 m ρ c (Proc.devRef .tc main_v71)) (W7 m ρ c (Proc.devRef .tc main_arg0)) (W7 m ρ c (Proc.devRef .tc main_v68)) = _
  rw [at7_main_v66 m ρ c hR, at7_main_v71 m ρ c hR, at7_main_arg0 m ρ c hR, at7_main_v68 m ρ c hR]
  rfl

/-! ### Boundary 9 -/

theorem at9_main_arg3 : W9 m ρ c (Proc.devRef .tc main_arg3) = (m ((c : Thread nD τ).loc main_arg3)) :=
  (StableHlo.after_of_forall_not_mem (b := Proc.devRef .tc main_arg3) _ _ (by not_written hostOps3)).trans (at8_main_arg3 m ρ c hR)

theorem at9_main_arg4 : W9 m ρ c (Proc.devRef .tc main_arg4) = (m ((c : Thread nD τ).loc main_arg4)) :=
  (StableHlo.after_of_forall_not_mem (b := Proc.devRef .tc main_arg4) _ _ (by not_written hostOps3)).trans (at8_main_arg4 m ρ c hR)

theorem at9_main_arg5 : W9 m ρ c (Proc.devRef .tc main_arg5) = (m ((c : Thread nD τ).loc main_arg5)) :=
  (StableHlo.after_of_forall_not_mem (b := Proc.devRef .tc main_arg5) _ _ (by not_written hostOps3)).trans (at8_main_arg5 m ρ c hR)

theorem at9_main_arg6 : W9 m ρ c (Proc.devRef .tc main_arg6) = (m ((c : Thread nD τ).loc main_arg6)) :=
  (StableHlo.after_of_forall_not_mem (b := Proc.devRef .tc main_arg6) _ _ (by not_written hostOps3)).trans (at8_main_arg6 m ρ c hR)

theorem at9_main_v3 : W9 m ρ c (Proc.devRef .tc main_v3) = Cert.Model.src (F := Ideal) (m ((c : Thread nD τ).loc main_arg1)) :=
  (StableHlo.after_of_forall_not_mem (b := Proc.devRef .tc main_v3) _ _ (by not_written hostOps3)).trans (at8_main_v3 m ρ c hR)

theorem at9_main_v6 : W9 m ρ c (Proc.devRef .tc main_v6) = Cert.Model.dst (F := Ideal) (m ((c : Thread nD τ).loc main_arg1)) :=
  (StableHlo.after_of_forall_not_mem (b := Proc.devRef .tc main_v6) _ _ (by not_written hostOps3)).trans (at8_main_v6 m ρ c hR)

theorem at9_main_v31 : W9 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps3)).trans (at8_main_v31 m ρ c hR)

theorem at9_main_v72_0 : W9 m ρ c (Proc.devRef .tc main_v72_0) = Cert.Model.xOut0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v72_0) _ _ (by not_written hostOps3)).trans (at8_main_v72_0 m ρ c hR)

theorem at9_main_v85 : W9 m ρ c (Proc.devRef .tc main_v85) = Cert.Model.aggA1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W8 m ρ c) (Proc.devRef .tc main_v85) = _
  have h0 := at8_main_v72_1 m ρ c hR
  have h1 := at8_main_v3 m ρ c hR
  have h2 := at8_main_v6 m ρ c hR
  have h3 := at8_main_v31 m ρ c hR
  generalize W8 m ρ c = V at h0 h1 h2 h3 ⊢
  after_results_simp
  rw [h0, h1, h2, h3]
  rfl

theorem at9_main_v88 : W9 m ρ c (Proc.devRef .tc main_v88) = Cert.Model.biasRow2 (F := Ideal) (m ((c : Thread nD τ).loc main_arg4)) := by
  show StableHlo.after hostOps3 (W8 m ρ c) (Proc.devRef .tc main_v88) = _
  have h0 := at8_main_arg4 m ρ c hR
  generalize W8 m ρ c = V at h0 ⊢
  after_results_simp
  rw [h0]
  exact RowOfVector.shapeCast_eq_broadcastInDim 128 _ _ _

theorem at9_main_v90 : W9 m ρ c (Proc.devRef .tc main_v90) = Cert.Model.weight3 (F := Ideal) (m ((c : Thread nD τ).loc main_arg3)) := by
  show StableHlo.after hostOps3 (W8 m ρ c) (Proc.devRef .tc main_v90) = _
  have h0 := at8_main_arg3 m ρ c hR
  generalize W8 m ρ c = V at h0 ⊢
  after_results_simp
  rw [h0]
  rfl

/-! ### Boundary 10 -/

theorem at10_main_arg3 : W10 m ρ c (Proc.devRef .tc main_arg3) = (m ((c : Thread nD τ).loc main_arg3)) :=
  (W10_of_ne m ρ c main_arg3 (by decide)).trans (at9_main_arg3 m ρ c hR)

theorem at10_main_arg4 : W10 m ρ c (Proc.devRef .tc main_arg4) = (m ((c : Thread nD τ).loc main_arg4)) :=
  (W10_of_ne m ρ c main_arg4 (by decide)).trans (at9_main_arg4 m ρ c hR)

theorem at10_main_arg5 : W10 m ρ c (Proc.devRef .tc main_arg5) = (m ((c : Thread nD τ).loc main_arg5)) :=
  (W10_of_ne m ρ c main_arg5 (by decide)).trans (at9_main_arg5 m ρ c hR)

theorem at10_main_arg6 : W10 m ρ c (Proc.devRef .tc main_arg6) = (m ((c : Thread nD τ).loc main_arg6)) :=
  (W10_of_ne m ρ c main_arg6 (by decide)).trans (at9_main_arg6 m ρ c hR)

theorem at10_main_v3 : W10 m ρ c (Proc.devRef .tc main_v3) = Cert.Model.src (F := Ideal) (m ((c : Thread nD τ).loc main_arg1)) :=
  (W10_of_ne m ρ c main_v3 (by decide)).trans (at9_main_v3 m ρ c hR)

theorem at10_main_v6 : W10 m ρ c (Proc.devRef .tc main_v6) = Cert.Model.dst (F := Ideal) (m ((c : Thread nD τ).loc main_arg1)) :=
  (W10_of_ne m ρ c main_v6 (by decide)).trans (at9_main_v6 m ρ c hR)

theorem at10_main_v31 : W10 m ρ c (Proc.devRef .tc main_v31) = Cert.Model.enorm (F := Ideal) (m ((c : Thread nD τ).loc main_arg1)) (m ((c : Thread nD τ).loc main_arg2)) :=
  (W10_of_ne m ρ c main_v31 (by decide)).trans (at9_main_v31 m ρ c hR)

theorem at10_main_v72_0 : W10 m ρ c (Proc.devRef .tc main_v72_0) = Cert.Model.xOut0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W10_of_ne m ρ c main_v72_0 (by decide)).trans (at9_main_v72_0 m ρ c hR)

theorem at10_main_v91 : W10 m ρ c (Proc.devRef .tc main_v91) = Cert.Model.hMid1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W10_arr m ρ c 3).trans ?_
  rw [hR.r3 (V9 m ρ) c]
  show Cert.RefOps.brm (W9 m ρ c (Proc.devRef .tc main_v85)) (W9 m ρ c (Proc.devRef .tc main_v88)) (W9 m ρ c (Proc.devRef .tc main_v90)) = _
  rw [at9_main_v85 m ρ c hR, at9_main_v88 m ρ c hR, at9_main_v90 m ρ c hR]
  rfl

/-! ### Boundary 11 -/

theorem at11_main_arg3 : W11 m ρ c (Proc.devRef .tc main_arg3) = (m ((c : Thread nD τ).loc main_arg3)) :=
  (StableHlo.after_of_forall_not_mem (b := Proc.devRef .tc main_arg3) _ _ (by not_written hostOps4)).trans (at10_main_arg3 m ρ c hR)

theorem at11_main_arg4 : W11 m ρ c (Proc.devRef .tc main_arg4) = (m ((c : Thread nD τ).loc main_arg4)) :=
  (StableHlo.after_of_forall_not_mem (b := Proc.devRef .tc main_arg4) _ _ (by not_written hostOps4)).trans (at10_main_arg4 m ρ c hR)

theorem at11_main_arg5 : W11 m ρ c (Proc.devRef .tc main_arg5) = (m ((c : Thread nD τ).loc main_arg5)) :=
  (StableHlo.after_of_forall_not_mem (b := Proc.devRef .tc main_arg5) _ _ (by not_written hostOps4)).trans (at10_main_arg5 m ρ c hR)

theorem at11_main_arg6 : W11 m ρ c (Proc.devRef .tc main_arg6) = (m ((c : Thread nD τ).loc main_arg6)) :=
  (StableHlo.after_of_forall_not_mem (b := Proc.devRef .tc main_arg6) _ _ (by not_written hostOps4)).trans (at10_main_arg6 m ρ c hR)

theorem at11_main_v3 : W11 m ρ c (Proc.devRef .tc main_v3) = Cert.Model.src (F := Ideal) (m ((c : Thread nD τ).loc main_arg1)) :=
  (StableHlo.after_of_forall_not_mem (b := Proc.devRef .tc main_v3) _ _ (by not_written hostOps4)).trans (at10_main_v3 m ρ c hR)

theorem at11_main_v6 : W11 m ρ c (Proc.devRef .tc main_v6) = Cert.Model.dst (F := Ideal) (m ((c : Thread nD τ).loc main_arg1)) :=
  (StableHlo.after_of_forall_not_mem (b := Proc.devRef .tc main_v6) _ _ (by not_written hostOps4)).trans (at10_main_v6 m ρ c hR)

theorem at11_main_v31 : W11 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps4)).trans (at10_main_v31 m ρ c hR)

theorem at11_main_v72_0 : W11 m ρ c (Proc.devRef .tc main_v72_0) = Cert.Model.xOut0 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v72_0) _ _ (by not_written hostOps4)).trans (at10_main_v72_0 m ρ c hR)

theorem at11_main_v104 : W11 m ρ c (Proc.devRef .tc main_v104) = Cert.Model.aggB1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps4 (W10 m ρ c) (Proc.devRef .tc main_v104) = _
  have h0 := at10_main_v91 m ρ c hR
  have h1 := at10_main_v3 m ρ c hR
  have h2 := at10_main_v6 m ρ c hR
  have h3 := at10_main_v31 m ρ c hR
  generalize W10 m ρ c = V at h0 h1 h2 h3 ⊢
  after_results_simp
  rw [h0, h1, h2, h3]
  rfl

theorem at11_main_v109 : W11 m ρ c (Proc.devRef .tc main_v109) = Cert.Model.biasRow3 (F := Ideal) (m ((c : Thread nD τ).loc main_arg4)) := by
  show StableHlo.after hostOps4 (W10 m ρ c) (Proc.devRef .tc main_v109) = _
  have h0 := at10_main_arg4 m ρ c hR
  generalize W10 m ρ c = V at h0 ⊢
  after_results_simp
  rw [h0]
  exact RowOfVector.shapeCast_eq_broadcastInDim 128 _ _ _

theorem at11_main_v106 : W11 m ρ c (Proc.devRef .tc main_v106) = Cert.Model.weight4 (F := Ideal) (m ((c : Thread nD τ).loc main_arg3)) := by
  show StableHlo.after hostOps4 (W10 m ρ c) (Proc.devRef .tc main_v106) = _
  have h0 := at10_main_arg3 m ρ c hR
  generalize W10 m ρ c = V at h0 ⊢
  after_results_simp
  rw [h0]
  rfl

/-! ### Boundary 12 -/

theorem at12_main_arg3 : W12 m ρ c (Proc.devRef .tc main_arg3) = (m ((c : Thread nD τ).loc main_arg3)) :=
  (W12_of_ne m ρ c main_arg3 (by decide)).trans (at11_main_arg3 m ρ c hR)

theorem at12_main_arg4 : W12 m ρ c (Proc.devRef .tc main_arg4) = (m ((c : Thread nD τ).loc main_arg4)) :=
  (W12_of_ne m ρ c main_arg4 (by decide)).trans (at11_main_arg4 m ρ c hR)

theorem at12_main_arg5 : W12 m ρ c (Proc.devRef .tc main_arg5) = (m ((c : Thread nD τ).loc main_arg5)) :=
  (W12_of_ne m ρ c main_arg5 (by decide)).trans (at11_main_arg5 m ρ c hR)

theorem at12_main_arg6 : W12 m ρ c (Proc.devRef .tc main_arg6) = (m ((c : Thread nD τ).loc main_arg6)) :=
  (W12_of_ne m ρ c main_arg6 (by decide)).trans (at11_main_arg6 m ρ c hR)

theorem at12_main_v3 : W12 m ρ c (Proc.devRef .tc main_v3) = Cert.Model.src (F := Ideal) (m ((c : Thread nD τ).loc main_arg1)) :=
  (W12_of_ne m ρ c main_v3 (by decide)).trans (at11_main_v3 m ρ c hR)

theorem at12_main_v6 : W12 m ρ c (Proc.devRef .tc main_v6) = Cert.Model.dst (F := Ideal) (m ((c : Thread nD τ).loc main_arg1)) :=
  (W12_of_ne m ρ c main_v6 (by decide)).trans (at11_main_v6 m ρ c hR)

theorem at12_main_v31 : W12 m ρ c (Proc.devRef .tc main_v31) = Cert.Model.enorm (F := Ideal) (m ((c : Thread nD τ).loc main_arg1)) (m ((c : Thread nD τ).loc main_arg2)) :=
  (W12_of_ne m ρ c main_v31 (by decide)).trans (at11_main_v31 m ρ c hR)

theorem at12_main_v110_0 : W12 m ρ c (Proc.devRef .tc main_v110_0) = Cert.Model.xOut1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W12_arr m ρ c 4).trans ?_
  rw [hR.r4x (V11 m ρ) c]
  show Cert.RefOps.brnX (W11 m ρ c (Proc.devRef .tc main_v104)) (W11 m ρ c (Proc.devRef .tc main_v109)) (W11 m ρ c (Proc.devRef .tc main_v72_0)) = _
  rw [at11_main_v104 m ρ c hR, at11_main_v109 m ρ c hR, at11_main_v72_0 m ρ c hR]
  rfl

theorem at12_main_v110_1 : W12 m ρ c (Proc.devRef .tc main_v110_1) = Cert.Model.hOut1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W12_arr m ρ c 5).trans ?_
  rw [hR.r4h (V11 m ρ) c]
  show Cert.RefOps.brnH (W11 m ρ c (Proc.devRef .tc main_v104)) (W11 m ρ c (Proc.devRef .tc main_v109)) (W11 m ρ c (Proc.devRef .tc main_v72_0)) (W11 m ρ c (Proc.devRef .tc main_v106)) = _
  rw [at11_main_v104 m ρ c hR, at11_main_v109 m ρ c hR, at11_main_v72_0 m ρ c hR, at11_main_v106 m ρ c hR]
  rfl

end Cert.KernelIdeal.Fold

end
-- ==== Proof.FoldC.lean ====
/-
  The contents of the TensorCore's buffers at the boundaries of the last two blocks and of the final convolution, and
  with them the result: the array the last region leaves is the network's function of the seven arguments.
-/
import proofs.«147806_j25666724560908_2_alg».proof.Proof.FoldB

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

variable (hR : RegionForms)
include hR

/-! ### Boundary 13 -/

theorem at13_main_arg3 : W13 m ρ c (Proc.devRef .tc main_arg3) = (m ((c : Thread nD τ).loc main_arg3)) :=
  (StableHlo.after_of_forall_not_mem (b := Proc.devRef .tc main_arg3) _ _ (by not_written hostOps5)).trans (at12_main_arg3 m ρ c hR)

theorem at13_main_arg4 : W13 m ρ c (Proc.devRef .tc main_arg4) = (m ((c : Thread nD τ).loc main_arg4)) :=
  (StableHlo.after_of_forall_not_mem (b := Proc.devRef .tc main_arg4) _ _ (by not_written hostOps5)).trans (at12_main_arg4 m ρ c hR)

theorem at13_main_arg5 : W13 m ρ c (Proc.devRef .tc main_arg5) = (m ((c : Thread nD τ).loc main_arg5)) :=
  (StableHlo.after_of_forall_not_mem (b := Proc.devRef .tc main_arg5) _ _ (by not_written hostOps5)).trans (at12_main_arg5 m ρ c hR)

theorem at13_main_arg6 : W13 m ρ c (Proc.devRef .tc main_arg6) = (m ((c : Thread nD τ).loc main_arg6)) :=
  (StableHlo.after_of_forall_not_mem (b := Proc.devRef .tc main_arg6) _ _ (by not_written hostOps5)).trans (at12_main_arg6 m ρ c hR)

theorem at13_main_v3 : W13 m ρ c (Proc.devRef .tc main_v3) = Cert.Model.src (F := Ideal) (m ((c : Thread nD τ).loc main_arg1)) :=
  (StableHlo.after_of_forall_not_mem (b := Proc.devRef .tc main_v3) _ _ (by not_written hostOps5)).trans (at12_main_v3 m ρ c hR)

theorem at13_main_v6 : W13 m ρ c (Proc.devRef .tc main_v6) = Cert.Model.dst (F := Ideal) (m ((c : Thread nD τ).loc main_arg1)) :=
  (StableHlo.after_of_forall_not_mem (b := Proc.devRef .tc main_v6) _ _ (by not_written hostOps5)).trans (at12_main_v6 m ρ c hR)

theorem at13_main_v31 : W13 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps5)).trans (at12_main_v31 m ρ c hR)

theorem at13_main_v110_0 : W13 m ρ c (Proc.devRef .tc main_v110_0) = Cert.Model.xOut1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v110_0) _ _ (by not_written hostOps5)).trans (at12_main_v110_0 m ρ c hR)

theorem at13_main_v123 : W13 m ρ c (Proc.devRef .tc main_v123) = Cert.Model.aggA2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps5 (W12 m ρ c) (Proc.devRef .tc main_v123) = _
  have h0 := at12_main_v110_1 m ρ c hR
  have h1 := at12_main_v3 m ρ c hR
  have h2 := at12_main_v6 m ρ c hR
  have h3 := at12_main_v31 m ρ c hR
  generalize W12 m ρ c = V at h0 h1 h2 h3 ⊢
  after_results_simp
  rw [h0, h1, h2, h3]
  rfl

theorem at13_main_v126 : W13 m ρ c (Proc.devRef .tc main_v126) = Cert.Model.biasRow4 (F := Ideal) (m ((c : Thread nD τ).loc main_arg4)) := by
  show StableHlo.after hostOps5 (W12 m ρ c) (Proc.devRef .tc main_v126) = _
  have h0 := at12_main_arg4 m ρ c hR
  generalize W12 m ρ c = V at h0 ⊢
  after_results_simp
  rw [h0]
  exact RowOfVector.shapeCast_eq_broadcastInDim 128 _ _ _

theorem at13_main_v128 : W13 m ρ c (Proc.devRef .tc main_v128) = Cert.Model.weight5 (F := Ideal) (m ((c : Thread nD τ).loc main_arg3)) := by
  show StableHlo.after hostOps5 (W12 m ρ c) (Proc.devRef .tc main_v128) = _
  have h0 := at12_main_arg3 m ρ c hR
  generalize W12 m ρ c = V at h0 ⊢
  after_results_simp
  rw [h0]
  rfl

/-! ### Boundary 14 -/

theorem at14_main_arg3 : W14 m ρ c (Proc.devRef .tc main_arg3) = (m ((c : Thread nD τ).loc main_arg3)) :=
  (W14_of_ne m ρ c main_arg3 (by decide)).trans (at13_main_arg3 m ρ c hR)

theorem at14_main_arg4 : W14 m ρ c (Proc.devRef .tc main_arg4) = (m ((c : Thread nD τ).loc main_arg4)) :=
  (W14_of_ne m ρ c main_arg4 (by decide)).trans (at13_main_arg4 m ρ c hR)

theorem at14_main_arg5 : W14 m ρ c (Proc.devRef .tc main_arg5) = (m ((c : Thread nD τ).loc main_arg5)) :=
  (W14_of_ne m ρ c main_arg5 (by decide)).trans (at13_main_arg5 m ρ c hR)

theorem at14_main_arg6 : W14 m ρ c (Proc.devRef .tc main_arg6) = (m ((c : Thread nD τ).loc main_arg6)) :=
  (W14_of_ne m ρ c main_arg6 (by decide)).trans (at13_main_arg6 m ρ c hR)

theorem at14_main_v3 : W14 m ρ c (Proc.devRef .tc main_v3) = Cert.Model.src (F := Ideal) (m ((c : Thread nD τ).loc main_arg1)) :=
  (W14_of_ne m ρ c main_v3 (by decide)).trans (at13_main_v3 m ρ c hR)

theorem at14_main_v6 : W14 m ρ c (Proc.devRef .tc main_v6) = Cert.Model.dst (F := Ideal) (m ((c : Thread nD τ).loc main_arg1)) :=
  (W14_of_ne m ρ c main_v6 (by decide)).trans (at13_main_v6 m ρ c hR)

theorem at14_main_v31 : W14 m ρ c (Proc.devRef .tc main_v31) = Cert.Model.enorm (F := Ideal) (m ((c : Thread nD τ).loc main_arg1)) (m ((c : Thread nD τ).loc main_arg2)) :=
  (W14_of_ne m ρ c main_v31 (by decide)).trans (at13_main_v31 m ρ c hR)

theorem at14_main_v110_0 : W14 m ρ c (Proc.devRef .tc main_v110_0) = Cert.Model.xOut1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W14_of_ne m ρ c main_v110_0 (by decide)).trans (at13_main_v110_0 m ρ c hR)

theorem at14_main_v129 : W14 m ρ c (Proc.devRef .tc main_v129) = Cert.Model.hMid2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W14_arr m ρ c 3).trans ?_
  rw [hR.r5 (V13 m ρ) c]
  show Cert.RefOps.brm (W13 m ρ c (Proc.devRef .tc main_v123)) (W13 m ρ c (Proc.devRef .tc main_v126)) (W13 m ρ c (Proc.devRef .tc main_v128)) = _
  rw [at13_main_v123 m ρ c hR, at13_main_v126 m ρ c hR, at13_main_v128 m ρ c hR]
  rfl

/-! ### Boundary 15 -/

theorem at15_main_arg3 : W15 m ρ c (Proc.devRef .tc main_arg3) = (m ((c : Thread nD τ).loc main_arg3)) :=
  (StableHlo.after_of_forall_not_mem (b := Proc.devRef .tc main_arg3) _ _ (by not_written hostOps6)).trans (at14_main_arg3 m ρ c hR)

theorem at15_main_arg4 : W15 m ρ c (Proc.devRef .tc main_arg4) = (m ((c : Thread nD τ).loc main_arg4)) :=
  (StableHlo.after_of_forall_not_mem (b := Proc.devRef .tc main_arg4) _ _ (by not_written hostOps6)).trans (at14_main_arg4 m ρ c hR)

theorem at15_main_arg5 : W15 m ρ c (Proc.devRef .tc main_arg5) = (m ((c : Thread nD τ).loc main_arg5)) :=
  (StableHlo.after_of_forall_not_mem (b := Proc.devRef .tc main_arg5) _ _ (by not_written hostOps6)).trans (at14_main_arg5 m ρ c hR)

theorem at15_main_arg6 : W15 m ρ c (Proc.devRef .tc main_arg6) = (m ((c : Thread nD τ).loc main_arg6)) :=
  (StableHlo.after_of_forall_not_mem (b := Proc.devRef .tc main_arg6) _ _ (by not_written hostOps6)).trans (at14_main_arg6 m ρ c hR)

theorem at15_main_v3 : W15 m ρ c (Proc.devRef .tc main_v3) = Cert.Model.src (F := Ideal) (m ((c : Thread nD τ).loc main_arg1)) :=
  (StableHlo.after_of_forall_not_mem (b := Proc.devRef .tc main_v3) _ _ (by not_written hostOps6)).trans (at14_main_v3 m ρ c hR)

theorem at15_main_v6 : W15 m ρ c (Proc.devRef .tc main_v6) = Cert.Model.dst (F := Ideal) (m ((c : Thread nD τ).loc main_arg1)) :=
  (StableHlo.after_of_forall_not_mem (b := Proc.devRef .tc main_v6) _ _ (by not_written hostOps6)).trans (at14_main_v6 m ρ c hR)

theorem at15_main_v31 : W15 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps6)).trans (at14_main_v31 m ρ c hR)

theorem at15_main_v110_0 : W15 m ρ c (Proc.devRef .tc main_v110_0) = Cert.Model.xOut1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v110_0) _ _ (by not_written hostOps6)).trans (at14_main_v110_0 m ρ c hR)

theorem at15_main_v142 : W15 m ρ c (Proc.devRef .tc main_v142) = Cert.Model.aggB2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps6 (W14 m ρ c) (Proc.devRef .tc main_v142) = _
  have h0 := at14_main_v129 m ρ c hR
  have h1 := at14_main_v3 m ρ c hR
  have h2 := at14_main_v6 m ρ c hR
  have h3 := at14_main_v31 m ρ c hR
  generalize W14 m ρ c = V at h0 h1 h2 h3 ⊢
  after_results_simp
  rw [h0, h1, h2, h3]
  rfl

theorem at15_main_v147 : W15 m ρ c (Proc.devRef .tc main_v147) = Cert.Model.biasRow5 (F := Ideal) (m ((c : Thread nD τ).loc main_arg4)) := by
  show StableHlo.after hostOps6 (W14 m ρ c) (Proc.devRef .tc main_v147) = _
  have h0 := at14_main_arg4 m ρ c hR
  generalize W14 m ρ c = V at h0 ⊢
  after_results_simp
  rw [h0]
  exact RowOfVector.shapeCast_eq_broadcastInDim 128 _ _ _

theorem at15_main_v144 : W15 m ρ c (Proc.devRef .tc main_v144) = Cert.Model.weight6 (F := Ideal) (m ((c : Thread nD τ).loc main_arg3)) := by
  show StableHlo.after hostOps6 (W14 m ρ c) (Proc.devRef .tc main_v144) = _
  have h0 := at14_main_arg3 m ρ c hR
  generalize W14 m ρ c = V at h0 ⊢
  after_results_simp
  rw [h0]
  rfl

/-! ### Boundary 16 -/

theorem at16_main_arg3 : W16 m ρ c (Proc.devRef .tc main_arg3) = (m ((c : Thread nD τ).loc main_arg3)) :=
  (W16_of_ne m ρ c main_arg3 (by decide)).trans (at15_main_arg3 m ρ c hR)

theorem at16_main_arg4 : W16 m ρ c (Proc.devRef .tc main_arg4) = (m ((c : Thread nD τ).loc main_arg4)) :=
  (W16_of_ne m ρ c main_arg4 (by decide)).trans (at15_main_arg4 m ρ c hR)

theorem at16_main_arg5 : W16 m ρ c (Proc.devRef .tc main_arg5) = (m ((c : Thread nD τ).loc main_arg5)) :=
  (W16_of_ne m ρ c main_arg5 (by decide)).trans (at15_main_arg5 m ρ c hR)

theorem at16_main_arg6 : W16 m ρ c (Proc.devRef .tc main_arg6) = (m ((c : Thread nD τ).loc main_arg6)) :=
  (W16_of_ne m ρ c main_arg6 (by decide)).trans (at15_main_arg6 m ρ c hR)

theorem at16_main_v3 : W16 m ρ c (Proc.devRef .tc main_v3) = Cert.Model.src (F := Ideal) (m ((c : Thread nD τ).loc main_arg1)) :=
  (W16_of_ne m ρ c main_v3 (by decide)).trans (at15_main_v3 m ρ c hR)

theorem at16_main_v6 : W16 m ρ c (Proc.devRef .tc main_v6) = Cert.Model.dst (F := Ideal) (m ((c : Thread nD τ).loc main_arg1)) :=
  (W16_of_ne m ρ c main_v6 (by decide)).trans (at15_main_v6 m ρ c hR)

theorem at16_main_v31 : W16 m ρ c (Proc.devRef .tc main_v31) = Cert.Model.enorm (F := Ideal) (m ((c : Thread nD τ).loc main_arg1)) (m ((c : Thread nD τ).loc main_arg2)) :=
  (W16_of_ne m ρ c main_v31 (by decide)).trans (at15_main_v31 m ρ c hR)

theorem at16_main_v148_0 : W16 m ρ c (Proc.devRef .tc main_v148_0) = Cert.Model.xOut2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W16_arr m ρ c 4).trans ?_
  rw [hR.r6x (V15 m ρ) c]
  show Cert.RefOps.brnX (W15 m ρ c (Proc.devRef .tc main_v142)) (W15 m ρ c (Proc.devRef .tc main_v147)) (W15 m ρ c (Proc.devRef .tc main_v110_0)) = _
  rw [at15_main_v142 m ρ c hR, at15_main_v147 m ρ c hR, at15_main_v110_0 m ρ c hR]
  rfl

theorem at16_main_v148_1 : W16 m ρ c (Proc.devRef .tc main_v148_1) = Cert.Model.hOut2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W16_arr m ρ c 5).trans ?_
  rw [hR.r6h (V15 m ρ) c]
  show Cert.RefOps.brnH (W15 m ρ c (Proc.devRef .tc main_v142)) (W15 m ρ c (Proc.devRef .tc main_v147)) (W15 m ρ c (Proc.devRef .tc main_v110_0)) (W15 m ρ c (Proc.devRef .tc main_v144)) = _
  rw [at15_main_v142 m ρ c hR, at15_main_v147 m ρ c hR, at15_main_v110_0 m ρ c hR, at15_main_v144 m ρ c hR]
  rfl

/-! ### Boundary 17 -/

theorem at17_main_arg4 : W17 m ρ c (Proc.devRef .tc main_arg4) = (m ((c : Thread nD τ).loc main_arg4)) :=
  (StableHlo.after_of_forall_not_mem (b := Proc.devRef .tc main_arg4) _ _ (by not_written hostOps7)).trans (at16_main_arg4 m ρ c hR)

theorem at17_main_arg5 : W17 m ρ c (Proc.devRef .tc main_arg5) = (m ((c : Thread nD τ).loc main_arg5)) :=
  (StableHlo.after_of_forall_not_mem (b := Proc.devRef .tc main_arg5) _ _ (by not_written hostOps7)).trans (at16_main_arg5 m ρ c hR)

theorem at17_main_arg6 : W17 m ρ c (Proc.devRef .tc main_arg6) = (m ((c : Thread nD τ).loc main_arg6)) :=
  (StableHlo.after_of_forall_not_mem (b := Proc.devRef .tc main_arg6) _ _ (by not_written hostOps7)).trans (at16_main_arg6 m ρ c hR)

theorem at17_main_v3 : W17 m ρ c (Proc.devRef .tc main_v3) = Cert.Model.src (F := Ideal) (m ((c : Thread nD τ).loc main_arg1)) :=
  (StableHlo.after_of_forall_not_mem (b := Proc.devRef .tc main_v3) _ _ (by not_written hostOps7)).trans (at16_main_v3 m ρ c hR)

theorem at17_main_v6 : W17 m ρ c (Proc.devRef .tc main_v6) = Cert.Model.dst (F := Ideal) (m ((c : Thread nD τ).loc main_arg1)) :=
  (StableHlo.after_of_forall_not_mem (b := Proc.devRef .tc main_v6) _ _ (by not_written hostOps7)).trans (at16_main_v6 m ρ c hR)

theorem at17_main_v31 : W17 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps7)).trans (at16_main_v31 m ρ c hR)

theorem at17_main_v148_0 : W17 m ρ c (Proc.devRef .tc main_v148_0) = Cert.Model.xOut2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v148_0) _ _ (by not_written hostOps7)).trans (at16_main_v148_0 m ρ c hR)

theorem at17_main_v161 : W17 m ρ c (Proc.devRef .tc main_v161) = Cert.Model.aggA3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps7 (W16 m ρ c) (Proc.devRef .tc main_v161) = _
  have h0 := at16_main_v148_1 m ρ c hR
  have h1 := at16_main_v3 m ρ c hR
  have h2 := at16_main_v6 m ρ c hR
  have h3 := at16_main_v31 m ρ c hR
  generalize W16 m ρ c = V at h0 h1 h2 h3 ⊢
  after_results_simp
  rw [h0, h1, h2, h3]
  rfl

theorem at17_main_v164 : W17 m ρ c (Proc.devRef .tc main_v164) = Cert.Model.biasRow6 (F := Ideal) (m ((c : Thread nD τ).loc main_arg4)) := by
  show StableHlo.after hostOps7 (W16 m ρ c) (Proc.devRef .tc main_v164) = _
  have h0 := at16_main_arg4 m ρ c hR
  generalize W16 m ρ c = V at h0 ⊢
  after_results_simp
  rw [h0]
  exact RowOfVector.shapeCast_eq_broadcastInDim 128 _ _ _

theorem at17_main_v166 : W17 m ρ c (Proc.devRef .tc main_v166) = Cert.Model.weight7 (F := Ideal) (m ((c : Thread nD τ).loc main_arg3)) := by
  show StableHlo.after hostOps7 (W16 m ρ c) (Proc.devRef .tc main_v166) = _
  have h0 := at16_main_arg3 m ρ c hR
  generalize W16 m ρ c = V at h0 ⊢
  after_results_simp
  rw [h0]
  rfl

/-! ### Boundary 18 -/

theorem at18_main_arg4 : W18 m ρ c (Proc.devRef .tc main_arg4) = (m ((c : Thread nD τ).loc main_arg4)) :=
  (W18_of_ne m ρ c main_arg4 (by decide)).trans (at17_main_arg4 m ρ c hR)

theorem at18_main_arg5 : W18 m ρ c (Proc.devRef .tc main_arg5) = (m ((c : Thread nD τ).loc main_arg5)) :=
  (W18_of_ne m ρ c main_arg5 (by decide)).trans (at17_main_arg5 m ρ c hR)

theorem at18_main_arg6 : W18 m ρ c (Proc.devRef .tc main_arg6) = (m ((c : Thread nD τ).loc main_arg6)) :=
  (W18_of_ne m ρ c main_arg6 (by decide)).trans (at17_main_arg6 m ρ c hR)

theorem at18_main_v3 : W18 m ρ c (Proc.devRef .tc main_v3) = Cert.Model.src (F := Ideal) (m ((c : Thread nD τ).loc main_arg1)) :=
  (W18_of_ne m ρ c main_v3 (by decide)).trans (at17_main_v3 m ρ c hR)

theorem at18_main_v6 : W18 m ρ c (Proc.devRef .tc main_v6) = Cert.Model.dst (F := Ideal) (m ((c : Thread nD τ).loc main_arg1)) :=
  (W18_of_ne m ρ c main_v6 (by decide)).trans (at17_main_v6 m ρ c hR)

theorem at18_main_v31 : W18 m ρ c (Proc.devRef .tc main_v31) = Cert.Model.enorm (F := Ideal) (m ((c : Thread nD τ).loc main_arg1)) (m ((c : Thread nD τ).loc main_arg2)) :=
  (W18_of_ne m ρ c main_v31 (by decide)).trans (at17_main_v31 m ρ c hR)

theorem at18_main_v148_0 : W18 m ρ c (Proc.devRef .tc main_v148_0) = Cert.Model.xOut2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W18_of_ne m ρ c main_v148_0 (by decide)).trans (at17_main_v148_0 m ρ c hR)

theorem at18_main_v167 : W18 m ρ c (Proc.devRef .tc main_v167) = Cert.Model.hMid3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W18_arr m ρ c 3).trans ?_
  rw [hR.r7 (V17 m ρ) c]
  show Cert.RefOps.brm (W17 m ρ c (Proc.devRef .tc main_v161)) (W17 m ρ c (Proc.devRef .tc main_v164)) (W17 m ρ c (Proc.devRef .tc main_v166)) = _
  rw [at17_main_v161 m ρ c hR, at17_main_v164 m ρ c hR, at17_main_v166 m ρ c hR]
  rfl

/-! ### Boundary 19 -/

theorem at19_main_arg5 : W19 m ρ c (Proc.devRef .tc main_arg5) = (m ((c : Thread nD τ).loc main_arg5)) :=
  (StableHlo.after_of_forall_not_mem (b := Proc.devRef .tc main_arg5) _ _ (by not_written hostOps8)).trans (at18_main_arg5 m ρ c hR)

theorem at19_main_arg6 : W19 m ρ c (Proc.devRef .tc main_arg6) = (m ((c : Thread nD τ).loc main_arg6)) :=
  (StableHlo.after_of_forall_not_mem (b := Proc.devRef .tc main_arg6) _ _ (by not_written hostOps8)).trans (at18_main_arg6 m ρ c hR)

theorem at19_main_v3 : W19 m ρ c (Proc.devRef .tc main_v3) = Cert.Model.src (F := Ideal) (m ((c : Thread nD τ).loc main_arg1)) :=
  (StableHlo.after_of_forall_not_mem (b := Proc.devRef .tc main_v3) _ _ (by not_written hostOps8)).trans (at18_main_v3 m ρ c hR)

theorem at19_main_v6 : W19 m ρ c (Proc.devRef .tc main_v6) = Cert.Model.dst (F := Ideal) (m ((c : Thread nD τ).loc main_arg1)) :=
  (StableHlo.after_of_forall_not_mem (b := Proc.devRef .tc main_v6) _ _ (by not_written hostOps8)).trans (at18_main_v6 m ρ c hR)

theorem at19_main_v31 : W19 m ρ c (Proc.devRef .tc main_v31) = Cert.Model.enorm (F := Ideal) (m ((c : Thread nD τ).loc main_arg1)) (m ((c : Thread nD τ).loc main_arg2)) :=
  (StableHlo.after_of_forall_not_mem (b := Proc.devRef .tc main_v31) _ _ (by not_written hostOps8)).trans (at18_main_v31 m ρ c hR)

theorem at19_main_v148_0 : W19 m ρ c (Proc.devRef .tc main_v148_0) = Cert.Model.xOut2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (StableHlo.after_of_forall_not_mem (b := Proc.devRef .tc main_v148_0) _ _ (by not_written hostOps8)).trans (at18_main_v148_0 m ρ c hR)

theorem at19_main_v180 : W19 m ρ c (Proc.devRef .tc main_v180) = Cert.Model.aggB3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps8 (W18 m ρ c) (Proc.devRef .tc main_v180) = _
  have h0 := at18_main_v167 m ρ c hR
  have h1 := at18_main_v3 m ρ c hR
  have h2 := at18_main_v6 m ρ c hR
  have h3 := at18_main_v31 m ρ c hR
  generalize W18 m ρ c = V at h0 h1 h2 h3 ⊢
  after_results_simp
  rw [h0, h1, h2, h3]
  rfl

theorem at19_main_v183 : W19 m ρ c (Proc.devRef .tc main_v183) = Cert.Model.biasRow7 (F := Ideal) (m ((c : Thread nD τ).loc main_arg4)) := by
  show StableHlo.after hostOps8 (W18 m ρ c) (Proc.devRef .tc main_v183) = _
  have h0 := at18_main_arg4 m ρ c hR
  generalize W18 m ρ c = V at h0 ⊢
  after_results_simp
  rw [h0]
  exact RowOfVector.shapeCast_eq_broadcastInDim 128 _ _ _

/-! ### Boundary 20 -/

theorem at20_main_arg6 : W20 m ρ c (Proc.devRef .tc main_arg6) = (m ((c : Thread nD τ).loc main_arg6)) :=
  (W20_of_ne m ρ c main_arg6 (by decide)).trans (at19_main_arg6 m ρ c hR)

theorem at20_main_v3 : W20 m ρ c (Proc.devRef .tc main_v3) = Cert.Model.src (F := Ideal) (m ((c : Thread nD τ).loc main_arg1)) :=
  (W20_of_ne m ρ c main_v3 (by decide)).trans (at19_main_v3 m ρ c hR)

theorem at20_main_v6 : W20 m ρ c (Proc.devRef .tc main_v6) = Cert.Model.dst (F := Ideal) (m ((c : Thread nD τ).loc main_arg1)) :=
  (W20_of_ne m ρ c main_v6 (by decide)).trans (at19_main_v6 m ρ c hR)

theorem at20_main_v31 : W20 m ρ c (Proc.devRef .tc main_v31) = Cert.Model.enorm (F := Ideal) (m ((c : Thread nD τ).loc main_arg1)) (m ((c : Thread nD τ).loc main_arg2)) :=
  (W20_of_ne m ρ c main_v31 (by decide)).trans (at19_main_v31 m ρ c hR)

theorem at20_main_v184_0 : W20 m ρ c (Proc.devRef .tc main_v184_0) = Cert.Model.xOut3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W20_arr m ρ c 4).trans ?_
  rw [hR.r8x (V19 m ρ) c]
  show Cert.RefOps.brnX (W19 m ρ c (Proc.devRef .tc main_v180)) (W19 m ρ c (Proc.devRef .tc main_v183)) (W19 m ρ c (Proc.devRef .tc main_v148_0)) = _
  rw [at19_main_v180 m ρ c hR, at19_main_v183 m ρ c hR, at19_main_v148_0 m ρ c hR]
  rfl

theorem at20_main_v184_1 : W20 m ρ c (Proc.devRef .tc main_v184_1) = Cert.Model.hFinal (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W20_arr m ρ c 5).trans ?_
  rw [hR.r8h (V19 m ρ) c]
  show Cert.RefOps.brnH40 (W19 m ρ c (Proc.devRef .tc main_v180)) (W19 m ρ c (Proc.devRef .tc main_v183)) (W19 m ρ c (Proc.devRef .tc main_v148_0)) (W19 m ρ c (Proc.devRef .tc main_arg5)) = _
  rw [at19_main_v180 m ρ c hR, at19_main_v183 m ρ c hR, at19_main_v148_0 m ρ c hR, at19_main_arg5 m ρ c hR]
  rfl

/-! ### Boundary 21 -/

theorem at21_main_v197 : W21 m ρ c (Proc.devRef .tc main_v197) = Cert.Model.aggFinal (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps9 (W20 m ρ c) (Proc.devRef .tc main_v197) = _
  have h0 := at20_main_v184_1 m ρ c hR
  have h1 := at20_main_v3 m ρ c hR
  have h2 := at20_main_v6 m ρ c hR
  have h3 := at20_main_v31 m ρ c hR
  generalize W20 m ρ c = V at h0 h1 h2 h3 ⊢
  after_results_simp
  rw [h0, h1, h2, h3]
  rfl

theorem at21_main_v198 : W21 m ρ c (Proc.devRef .tc main_v198) = Cert.Model.finalBiasRow (F := Ideal) (m ((c : Thread nD τ).loc main_arg6)) := by
  show StableHlo.after hostOps9 (W20 m ρ c) (Proc.devRef .tc main_v198) = _
  have h0 := at20_main_arg6 m ρ c hR
  generalize W20 m ρ c = V at h0 ⊢
  after_results_simp
  rw [h0]
  exact RowOfVector.shapeCast_eq_broadcastInDim 40 _ _ _

/-! ### Boundary 22 -/

theorem at22_main_v199 : W22 m ρ c (Proc.devRef .tc main_v199) = Cert.Model.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W22_arr m ρ c 2).trans ?_
  rw [hR.r9 (V21 m ρ) c]
  show Cert.RefOps.lsm (W21 m ρ c (Proc.devRef .tc main_v197)) (W21 m ρ c (Proc.devRef .tc main_v198)) = _
  rw [at21_main_v197 m ρ c hR, at21_main_v198 m ρ c hR]
  rfl

/-- The result: after the last region the result buffer holds the network's function of the launch contents of the
    seven arguments. -/
theorem result : W22 m ρ c (Proc.devRef .tc main_v199) = Cert.Model.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  at22_main_v199 m ρ c hR

end Cert.KernelIdeal.Fold

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.RegionLin0.lean ====
/-
  The plain product region: its output array after the region is the reference's product of the region's two input
  arrays.

  The region's grid has ten points; point `t` fetches rows `10000·t … 10000·t + 9999` of the left operand and the whole of
  the square weight, multiplies them and writes the product back to the same rows of the output.  A row of a product
  `x · w` needs only the same row of `x` and the whole of `w`:  `(x · w) (r, q) = ∑ k, x (r, k) * w (k, q)`.  So block `t`
  of the output is the restriction of the whole-array product to the rows of block `t`, the ten blocks cover the
  array, and the array ends at the whole-array product.
-/
import proofs.«147806_j25666724560908_2_alg».proof.Proof.Gen.KernelIdeal.Frame
import proofs.«147806_j25666724560908_2_alg».proof.Proof.RefOps
import proofs.«147806_j25666724560908_2_alg».proof.Proof.LibPlainDot
import Idealize.ShloMosaic.Lib.Pipeline.Value
import Idealize.ShloMosaic.Lib.ValueIdx
import Idealize.ShloMosaic.Lib.ValueLayout

noncomputable section

namespace Cert.RegionLin

open Cert.KernelIdeal Cert.KernelIdeal.Gen Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

/-! ## The arithmetic, at an index -/

/-- The body's product at `(p, q)` of its block: row `p` of the left block against column `q` of the weight. -/
theorem pay_lin_apply (x0 : Vec Ideal S10000x128 .f32) (x1 : Vec Ideal S128x128 .f32) (p : Fin 10000) (q : Fin 128) :
    Gen.k0_pay1 (F := Ideal) x0 x1 (ix2 p q) = ∑ k : Fin 128, x0 (ix2 p k) * x1 (ix2 k q) := by
  unfold Gen.k0_pay1
  rw [shapeCast_self]
  exact PlainDot.matmul_zero_apply _ rfl none x0 x1 p q

/-- The reference's product at `(r, q)` of the whole array: row `r` of the left operand against column `q` of the weight. -/
theorem lin_apply (x : (⟨Cert.ReferenceIdeal.S100000x128, .f32⟩ : BufTy).Contents (Elt Ideal))
    (w : (⟨Cert.ReferenceIdeal.S128x128, .f32⟩ : BufTy).Contents (Elt Ideal)) (r : Fin 100000) (q : Fin 128) :
    Cert.RefOps.lin x w (ix2 r q) = ∑ k : Fin 128, x (ix2 r k) * w (ix2 k q) := by
  unfold Cert.RefOps.lin
  exact PlainDot.dotGeneral_apply _ rfl none .single x w r q

/-- A row block of the product is the product of the row block: if the left block `x0` holds rows `n, n + 1, …` of `A`
    and the right block is the whole of `W`, the body's product at `j` is the whole-array product at the row `j` stands for. -/
theorem lin_block (A : (⟨Cert.ReferenceIdeal.S100000x128, .f32⟩ : BufTy).Contents (Elt Ideal))
    (W : (⟨Cert.ReferenceIdeal.S128x128, .f32⟩ : BufTy).Contents (Elt Ideal))
    (x0 : Vec Ideal S10000x128 .f32) (x1 : Vec Ideal S128x128 .f32) (n : ℕ)
    (h0 : ∀ (y : S10000x128.Idx) (k : S100000x128.Idx), (k 0).val = n + (y 0).val → (k 1).val = (y 1).val → x0 y = A k)
    (h1 : ∀ y : S128x128.Idx, x1 y = W y)
    (j : S10000x128.Idx) (i : S100000x128.Idx) (hi0 : (i 0).val = n + (j 0).val) (hi1 : (i 1).val = (j 1).val) :
    Gen.k0_pay1 (F := Ideal) x0 x1 j = Cert.RefOps.lin A W i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_lin_apply, lin_apply]
  exact Finset.sum_congr rfl fun k _ => by rw [h0 (ix2 p k) (ix2 r k) hi0 rfl, h1]

/-! ## Region 0: from blocks to the array -/

section Region0

variable (V : (c : Dev nD) → (b : Ref sig .tc) → Buf (Elt Ideal) ((c : Thread nD τ).loc b))

/-- The printed index maps over the grid: the row windows sit at block `(t, 0)`, the weight's window at block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is rows `10000·t …` of its array. -/
theorem iblk0_0_apply (c : Dev nD) (t : Fin cfg0.N) (y : S10000x128.Idx) (k : S100000x128.Idx)
    (hk0 : (k 0).val = t.val * 10000 + (y 0).val) (hk1 : (k 1).val = (y 1).val) :
    (iblk0 V c 0 t : Vec Ideal S10000x128 .f32) y = (V c (Pipeline.arrRef spec0 0) : S100000x128.Idx → Elt Ideal .f32) k := by
  obtain ⟨e0, e1, -, -, -, -⟩ := idx_facts0 t
  unfold iblk0
  rw [View.read_apply]
  show (V c (Pipeline.arrRef spec0 0) : S100000x128.Idx → Elt Ideal .f32) (((cfg0.win 0).blk t).view.emb y) = _
  refine congrArg _ (funext fun a => Fin.ext ?_)
  match a with
  | ⟨0, _⟩ => show win0_0.index t 0 * 10000 + 1 * (y 0).val = (k 0).val; rw [e0, hk0]; omega
  | ⟨1, _⟩ => show win0_0.index t 1 * 128 + 1 * (y 1).val = (k 1).val; rw [e1, hk1]; omega

/-- The weight's block at every point is the whole weight. -/
theorem iblk0_1_apply (c : Dev nD) (t : Fin cfg0.N) (y : S128x128.Idx) :
    (iblk0 V c 1 t : Vec Ideal S128x128 .f32) y = (V c (Pipeline.arrRef spec0 1) : S128x128.Idx → Elt Ideal .f32) y := by
  obtain ⟨-, -, e2, e3, -, -⟩ := idx_facts0 t
  unfold iblk0
  rw [View.read_apply]
  show (V c (Pipeline.arrRef spec0 1) : S128x128.Idx → Elt Ideal .f32) (((cfg0.win 1).blk t).view.emb y) = _
  refine congrArg _ (funext fun a => Fin.ext ?_)
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- What point `t` writes back is block `t` of the whole-array product. -/
theorem flushed0_eq (c : Dev nD) (t : Fin cfg0.N) :
    (dat0 (F := Ideal) V c).flushed 2 t = ((cfg0.win 2).blk t).view.read (Elt Ideal)
      (Cert.RefOps.lin (V c (Pipeline.arrRef spec0 0)) (V c (Pipeline.arrRef spec0 1))) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts0 t
  funext j
  rw [View.read_apply]
  refine lin_block (V c (Pipeline.arrRef spec0 0)) (V c (Pipeline.arrRef spec0 1)) (iblk0 V c 0 t) (iblk0 V c 1 t) (t.val * 10000)
    (fun y k h0 h1 => iblk0_0_apply V c t y k h0 h1) (fun y => iblk0_1_apply V c t y) j (((cfg0.win 2).blk t).view.emb j) ?_ ?_
  · show win0_2.index t 0 * 10000 + 1 * (j 0).val = t.val * 10000 + (j 0).val; rw [e4]; omega
  · show win0_2.index t 1 * 128 + 1 * (j 1).val = (j 1).val; rw [e5]; omega

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v34).slice (win0_2.rect t)).set ↔ _
  rw [View.set_slice_whole, Rect.mem_set_unit]
  exact Iff.rfl

/-- Every row of the output is in some point's block: row `r` in that of point `r / 10000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  refine ⟨⟨(i 0).val / 10000, by rw [hN]; omega⟩, flush0_2 _, ?_⟩
  rw [mem_blk0]
  obtain ⟨-, -, -, -, e4, e5⟩ := idx_facts0 ⟨(i 0).val / 10000, by rw [hN]; omega⟩
  intro a
  match a with
  | ⟨0, _⟩ =>
    show win0_2.index _ (0 : Fin 2) * 10000 ≤ (i 0).val ∧ (i 0).val < win0_2.index _ (0 : Fin 2) * 10000 + 10000
    rw [e4]; show (i 0).val / 10000 * 10000 ≤ (i 0).val ∧ (i 0).val < (i 0).val / 10000 * 10000 + 10000; omega
  | ⟨1, _⟩ =>
    show win0_2.index _ (1 : Fin 2) * 128 ≤ (i 1).val ∧ (i 1).val < win0_2.index _ (1 : Fin 2) * 128 + 128
    rw [e5]; omega

/-- REGION 0: the output array after the region is the reference's product of the region's two input arrays. -/
theorem region0_out (c : Dev nD) :
    (Gen.dat0 (F := Ideal) V c).arrAt 2 cfg0.N
      = Cert.RefOps.lin (V c (Pipeline.arrRef spec0 0)) (V c (Pipeline.arrRef spec0 1)) :=
  (dat0 (F := Ideal) V c).arrAt_eq_of_cover 2 _ (fun t _ => flushed0_eq V c t) cover0

end Region0

end Cert.RegionLin

end
-- ==== Proof.RegionLinBrm.lean ====
/-
  The bias–relu–product regions: each one's output array after the region is the reference's `relu (a + b) · w` of the
  region's three input arrays.

  Such a region's grid has ten points; point `t` fetches rows `10000·t … 10000·t + 9999` of the aggregated features `a`,
  the whole bias row `b` and the whole square weight `w`, forms `max (a + b, 0)` on the block, multiplies it by `w` and
  writes the product back to the same rows of the output.  The value at `(r, q)`,
  `∑ k, max (a (r, k) + b (0, k), 0) * w (k, q)`, needs only row `r` of `a` and the whole of `b` and `w`; so block `t` of
  the output is the restriction of the whole-array function to the rows of block `t`, the ten blocks cover the array,
  and the array ends at the whole-array function.  The four regions of this kind run the same body on different arrays.
-/
import proofs.«147806_j25666724560908_2_alg».proof.Proof.Gen.KernelIdeal.Frame
import proofs.«147806_j25666724560908_2_alg».proof.Proof.RefOps
import proofs.«147806_j25666724560908_2_alg».proof.Proof.LibPlainDot
import Idealize.ShloMosaic.Lib.Pipeline.Value
import Idealize.ShloMosaic.Lib.ValueIdx
import Idealize.ShloMosaic.Lib.ValueLayout

noncomputable section

namespace Cert.RegionLin

open Cert.KernelIdeal Cert.KernelIdeal.Gen Idealize.ShloMosaic Idealize.ShloMosaic.TcCoe Idealize.SL.Sem
open Idealize.ShloMosaic.Pipeline (Dat)
open Idealize.ShloMosaic.ValueIdx

theorem hzB : (![0, 0] : Fin 2 → Nat) = fun _ => 0 := funext fun a => by fin_cases a <;> rfl

/-! ## The arithmetic, at an index -/

/-- The body at `(p, q)` of its block: row `p` of `max (x0 + bias row, 0)` against column `q` of the weight. -/
theorem pay_brm_apply (x0 : Vec Ideal S10000x128 .f32) (x1 : Vec Ideal S1x128 .f32) (x2 : Vec Ideal S128x128 .f32)
    (p : Fin 10000) (q : Fin 128) :
    Gen.k1_pay1 (F := Ideal) x0 x1 x2 (ix2 p q)
      = ∑ k : Fin 128, max (x0 (ix2 p k) + x1 (ix2 (0 : Fin 1) k)) (Ideal.ofBits .f32 0x00000000#32) * x2 (ix2 k q) := by
  unfold Gen.k1_pay1
  refine (PlainDot.matmul_zero_apply _ rfl none _ _ p q).trans ?_
  refine Finset.sum_congr rfl fun k _ => ?_
  rw [shapeCast_self, shapeCast_self, shapeCast_self, maximumf_apply, addf_apply, broadcastTo_1b_ab_apply]
  rfl

/-- The reference's `relu (a + b) · w` at `(r, q)` of the whole array. -/
theorem brm_apply (a : (⟨Cert.ReferenceIdeal.S100000x128, .f32⟩ : BufTy).Contents (Elt Ideal))
    (b : (⟨Cert.ReferenceIdeal.S1x128, .f32⟩ : BufTy).Contents (Elt Ideal))
    (w : (⟨Cert.ReferenceIdeal.S128x128, .f32⟩ : BufTy).Contents (Elt Ideal)) (r : Fin 100000) (q : Fin 128) :
    Cert.RefOps.brm a b w (ix2 r q)
      = ∑ k : Fin 128, max (a (ix2 r k) + b (ix2 (0 : Fin 1) k)) (Ideal.ofBits .f32 0x00000000#32) * w (ix2 k q) := by
  unfold Cert.RefOps.brm Cert.RefOps.lin
  refine (PlainDot.dotGeneral_apply _ rfl none .single _ w r q).trans ?_
  refine Finset.sum_congr rfl fun k _ => ?_
  unfold Cert.RefOps.relu Cert.RefOps.addRow
  rw [maximumf_apply, addf_apply,
    broadcastInDim_apply ![0, 1] _ b (ix2 r k) (ix2 (0 : Fin 1) k) (fun ax => by
      match ax with
      | ⟨0, _⟩ => rfl
      | ⟨1, _⟩ => rfl),
    broadcastInDim_apply ![] _ (constant (F := Ideal) Cert.ReferenceIdeal.S_ .f32 0x00000000#32) (ix2 r k) ix0 (fun ax => ax.elim0)]
  rfl

/-- A row block of `relu (a + b) · w`: if the first block `x0` holds rows `n, n + 1, …` of `A` and the other two blocks
    are the whole bias row and the whole weight, the body's value at `j` is the whole-array value at the row `j` stands for. -/
theorem brm_block (A : (⟨Cert.ReferenceIdeal.S100000x128, .f32⟩ : BufTy).Contents (Elt Ideal))
    (B : (⟨Cert.ReferenceIdeal.S1x128, .f32⟩ : BufTy).Contents (Elt Ideal))
    (W : (⟨Cert.ReferenceIdeal.S128x128, .f32⟩ : BufTy).Contents (Elt Ideal))
    (x0 : Vec Ideal S10000x128 .f32) (x1 : Vec Ideal S1x128 .f32) (x2 : Vec Ideal S128x128 .f32) (n : ℕ)
    (h0 : ∀ (y : S10000x128.Idx) (k : S100000x128.Idx), (k 0).val = n + (y 0).val → (k 1).val = (y 1).val → x0 y = A k)
    (h1 : ∀ y : S1x128.Idx, x1 y = B y)
    (h2 : ∀ y : S128x128.Idx, x2 y = W y)
    (j : S10000x128.Idx) (i : S100000x128.Idx) (hi0 : (i 0).val = n + (j 0).val) (hi1 : (i 1).val = (j 1).val) :
    Gen.k1_pay1 (F := Ideal) x0 x1 x2 j = Cert.RefOps.brm A B W i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  rw [pay_brm_apply, brm_apply]
  exact Finset.sum_congr rfl fun k _ => by rw [h0 (ix2 p k) (ix2 r k) hi0 rfl, h1, h2]

/-- The four bias–relu–product bodies are one and the same function of their blocks. -/
theorem k3_pay1_eq (x0 : Vec Ideal S10000x128 .f32) (x1 : Vec Ideal S1x128 .f32) (x2 : Vec Ideal S128x128 .f32) :
    Gen.k3_pay1 (F := Ideal) x0 x1 x2 = Gen.k1_pay1 (F := Ideal) x0 x1 x2 := rfl
theorem k5_pay1_eq (x0 : Vec Ideal S10000x128 .f32) (x1 : Vec Ideal S1x128 .f32) (x2 : Vec Ideal S128x128 .f32) :
    Gen.k5_pay1 (F := Ideal) x0 x1 x2 = Gen.k1_pay1 (F := Ideal) x0 x1 x2 := rfl
theorem k7_pay1_eq (x0 : Vec Ideal S10000x128 .f32) (x1 : Vec Ideal S1x128 .f32) (x2 : Vec Ideal S128x128 .f32) :
    Gen.k7_pay1 (F := Ideal) x0 x1 x2 = Gen.k1_pay1 (F := Ideal) x0 x1 x2 := rfl

/-- The same for region 3's body. -/
theorem brm_block3 (A : (⟨Cert.ReferenceIdeal.S100000x128, .f32⟩ : BufTy).Contents (Elt Ideal))
    (B : (⟨Cert.ReferenceIdeal.S1x128, .f32⟩ : BufTy).Contents (Elt Ideal))
    (W : (⟨Cert.ReferenceIdeal.S128x128, .f32⟩ : BufTy).Contents (Elt Ideal))
    (x0 : Vec Ideal S10000x128 .f32) (x1 : Vec Ideal S1x128 .f32) (x2 : Vec Ideal S128x128 .f32) (n : ℕ)
    (h0 : ∀ (y : S10000x128.Idx) (k : S100000x128.Idx), (k 0).val = n + (y 0).val → (k 1).val = (y 1).val → x0 y = A k)
    (h1 : ∀ y : S1x128.Idx, x1 y = B y)
    (h2 : ∀ y : S128x128.Idx, x2 y = W y)
    (j : S10000x128.Idx) (i : S100000x128.Idx) (hi0 : (i 0).val = n + (j 0).val) (hi1 : (i 1).val = (j 1).val) :
    Gen.k3_pay1 (F := Ideal) x0 x1 x2 j = Cert.RefOps.brm A B W i :=
  (congrFun (k3_pay1_eq x0 x1 x2) j).trans (brm_block A B W x0 x1 x2 n h0 h1 h2 j i hi0 hi1)

/-- The same for region 5's body. -/
theorem brm_block5 (A : (⟨Cert.ReferenceIdeal.S100000x128, .f32⟩ : BufTy).Contents (Elt Ideal))
    (B : (⟨Cert.ReferenceIdeal.S1x128, .f32⟩ : BufTy).Contents (Elt Ideal))
    (W : (⟨Cert.ReferenceIdeal.S128x128, .f32⟩ : BufTy).Contents (Elt Ideal))
    (x0 : Vec Ideal S10000x128 .f32) (x1 : Vec Ideal S1x128 .f32) (x2 : Vec Ideal S128x128 .f32) (n : ℕ)
    (h0 : ∀ (y : S10000x128.Idx) (k : S100000x128.Idx), (k 0).val = n + (y 0).val → (k 1).val = (y 1).val → x0 y = A k)
    (h1 : ∀ y : S1x128.Idx, x1 y = B y)
    (h2 : ∀ y : S128x128.Idx, x2 y = W y)
    (j : S10000x128.Idx) (i : S100000x128.Idx) (hi0 : (i 0).val = n + (j 0).val) (hi1 : (i 1).val = (j 1).val) :
    Gen.k5_pay1 (F := Ideal) x0 x1 x2 j = Cert.RefOps.brm A B W i :=
  (congrFun (k5_pay1_eq x0 x1 x2) j).trans (brm_block A B W x0 x1 x2 n h0 h1 h2 j i hi0 hi1)

/-- The same for region 7's body. -/
theorem brm_block7 (A : (⟨Cert.ReferenceIdeal.S100000x128, .f32⟩ : BufTy).Contents (Elt Ideal))
    (B : (⟨Cert.ReferenceIdeal.S1x128, .f32⟩ : BufTy).Contents (Elt Ideal))
    (W : (⟨Cert.ReferenceIdeal.S128x128, .f32⟩ : BufTy).Contents (Elt Ideal))
    (x0 : Vec Ideal S10000x128 .f32) (x1 : Vec Ideal S1x128 .f32) (x2 : Vec Ideal S128x128 .f32) (n : ℕ)
    (h0 : ∀ (y : S10000x128.Idx) (k : S100000x128.Idx), (k 0).val = n + (y 0).val → (k 1).val = (y 1).val → x0 y = A k)
    (h1 : ∀ y : S1x128.Idx, x1 y = B y)
    (h2 : ∀ y : S128x128.Idx, x2 y = W y)
    (j : S10000x128.Idx) (i : S100000x128.Idx) (hi0 : (i 0).val = n + (j 0).val) (hi1 : (i 1).val = (j 1).val) :
    Gen.k7_pay1 (F := Ideal) x0 x1 x2 j = Cert.RefOps.brm A B W i :=
  (congrFun (k7_pay1_eq x0 x1 x2) j).trans (brm_block A B W x0 x1 x2 n h0 h1 h2 j i hi0 hi1)

/-! ## Region 1: from blocks to the array -/

section Region1

variable (V : (c : Dev nD) → (b : Ref sig .tc) → Buf (Elt Ideal) ((c : Thread nD τ).loc b))

/-- The printed index maps over the grid: the row windows sit at block `(t, 0)`, the bias row's and the weight's windows
    at block `(0, 0)`. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The aggregated rows' block at point `t` is rows `10000·t …` of their array. -/
theorem iblk1_0_apply (c : Dev nD) (t : Fin cfg1.N) (y : S10000x128.Idx) (k : S100000x128.Idx)
    (hk0 : (k 0).val = t.val * 10000 + (y 0).val) (hk1 : (k 1).val = (y 1).val) :
    (iblk1 V c 0 t : Vec Ideal S10000x128 .f32) y = (V c (Pipeline.arrRef spec1 0) : S100000x128.Idx → Elt Ideal .f32) k := by
  obtain ⟨e0, e1, -, -, -, -, -, -⟩ := idx_facts1 t
  unfold iblk1
  rw [View.read_apply]
  show (V c (Pipeline.arrRef spec1 0) : S100000x128.Idx → Elt Ideal .f32) (((cfg1.win 0).blk t).view.emb y) = _
  refine congrArg _ (funext fun a => Fin.ext ?_)
  match a with
  | ⟨0, _⟩ => show win1_0.index t 0 * 10000 + 1 * (y 0).val = (k 0).val; rw [e0, hk0]; omega
  | ⟨1, _⟩ => show win1_0.index t 1 * 128 + 1 * (y 1).val = (k 1).val; rw [e1, hk1]; omega

/-- The bias row's block at every point is the whole row. -/
theorem iblk1_1_apply (c : Dev nD) (t : Fin cfg1.N) (y : S1x128.Idx) :
    (iblk1 V c 1 t : Vec Ideal S1x128 .f32) y = (V c (Pipeline.arrRef spec1 1) : S1x128.Idx → Elt Ideal .f32) y := by
  obtain ⟨-, -, e2, e3, -, -, -, -⟩ := idx_facts1 t
  unfold iblk1
  rw [View.read_apply]
  show (V c (Pipeline.arrRef spec1 1) : S1x128.Idx → Elt Ideal .f32) (((cfg1.win 1).blk t).view.emb y) = _
  refine congrArg _ (funext fun a => Fin.ext ?_)
  match a with
  | ⟨0, _⟩ => show win1_1.index t 0 * 1 + 1 * (y 0).val = (y 0).val; rw [e2]; omega
  | ⟨1, _⟩ => show win1_1.index t 1 * 128 + 1 * (y 1).val = (y 1).val; rw [e3]; omega

/-- The weight's block at every point is the whole weight. -/
theorem iblk1_2_apply (c : Dev nD) (t : Fin cfg1.N) (y : S128x128.Idx) :
    (iblk1 V c 2 t : Vec Ideal S128x128 .f32) y = (V c (Pipeline.arrRef spec1 2) : S128x128.Idx → Elt Ideal .f32) y := by
  obtain ⟨-, -, -, -, e4, e5, -, -⟩ := idx_facts1 t
  unfold iblk1
  rw [View.read_apply]
  show (V c (Pipeline.arrRef spec1 2) : S128x128.Idx → Elt Ideal .f32) (((cfg1.win 2).blk t).view.emb y) = _
  refine congrArg _ (funext fun a => Fin.ext ?_)
  match a with
  | ⟨0, _⟩ => show win1_2.index t 0 * 128 + 1 * (y 0).val = (y 0).val; rw [e4]; omega
  | ⟨1, _⟩ => show win1_2.index t 1 * 128 + 1 * (y 1).val = (y 1).val; rw [e5]; omega

/-- What point `t` writes back is block `t` of the whole-array `relu (a + b) · w`. -/
theorem flushed1_eq (c : Dev nD) (t : Fin cfg1.N) :
    (dat1 (F := Ideal) V c).flushed 3 t = ((cfg1.win 3).blk t).view.read (Elt Ideal)
      (Cert.RefOps.brm (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hzB]
  simp only [View.ld_unit_zero (S := S10000x128) hzB, View.ld_unit_zero (S := S1x128) hzB, View.ld_unit_zero (S := S128x128) hzB]
  obtain ⟨-, -, -, -, -, -, e6, e7⟩ := idx_facts1 t
  funext j
  rw [View.read_apply]
  refine brm_block (V c (Pipeline.arrRef spec1 0)) (V c (Pipeline.arrRef spec1 1)) (V c (Pipeline.arrRef spec1 2))
    (iblk1 V c 0 t) (iblk1 V c 1 t) (iblk1 V c 2 t) (t.val * 10000)
    (fun y k h0 h1 => iblk1_0_apply V c t y k h0 h1) (fun y => iblk1_1_apply V c t y) (fun y => iblk1_2_apply V c t y)
    j (((cfg1.win 3).blk t).view.emb j) ?_ ?_
  · show win1_3.index t 0 * 10000 + 1 * (j 0).val = t.val * 10000 + (j 0).val; rw [e6]; omega
  · show win1_3.index t 1 * 128 + 1 * (j 1).val = (j 1).val; rw [e7]; omega

/-- An index of the output array is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v53).slice (win1_3.rect t)).set ↔ _
  rw [View.set_slice_whole, Rect.mem_set_unit]
  exact Iff.rfl

/-- Every row of the output is in some point's block: row `r` in that of point `r / 10000`. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 10 := N_1
  refine ⟨⟨(i 0).val / 10000, by rw [hN]; omega⟩, flush1_3 _, ?_⟩
  rw [mem_blk1]
  obtain ⟨-, -, -, -, -, -, e6, e7⟩ := idx_facts1 ⟨(i 0).val / 10000, by rw [hN]; omega⟩
  intro a
  match a with
  | ⟨0, _⟩ =>
    show win1_3.index _ (0 : Fin 2) * 10000 ≤ (i 0).val ∧ (i 0).val < win1_3.index _ (0 : Fin 2) * 10000 + 10000
    rw [e6]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e7]; omega

/-- REGION 1: the output array after the region is the reference's `relu (a + b) · w` of the region's three input arrays. -/
theorem region1_out (c : Dev nD) :
    (Gen.dat1 (F := Ideal) V c).arrAt 3 cfg1.N
      = Cert.RefOps.brm (V c (Pipeline.arrRef spec1 0)) (V c (Pipeline.arrRef spec1 1)) (V c (Pipeline.arrRef spec1 2)) :=
  (dat1 (F := Ideal) V c).arrAt_eq_of_cover 3 _ (fun t _ => flushed1_eq V c t) (cover1)

end Region1

/-! ## Region 3: from blocks to the array -/

section Region3

variable (V : (c : Dev nD) → (b : Ref sig .tc) → Buf (Elt Ideal) ((c : Thread nD τ).loc b))

/-- The printed index maps over the grid: the row windows sit at block `(t, 0)`, the bias row's and the weight's windows
    at block `(0, 0)`. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The aggregated rows' block at point `t` is rows `10000·t …` of their array. -/
theorem iblk3_0_apply (c : Dev nD) (t : Fin cfg3.N) (y : S10000x128.Idx) (k : S100000x128.Idx)
    (hk0 : (k 0).val = t.val * 10000 + (y 0).val) (hk1 : (k 1).val = (y 1).val) :
    (iblk3 V c 0 t : Vec Ideal S10000x128 .f32) y = (V c (Pipeline.arrRef spec3 0) : S100000x128.Idx → Elt Ideal .f32) k := by
  obtain ⟨e0, e1, -, -, -, -, -, -⟩ := idx_facts3 t
  unfold iblk3
  rw [View.read_apply]
  show (V c (Pipeline.arrRef spec3 0) : S100000x128.Idx → Elt Ideal .f32) (((cfg3.win 0).blk t).view.emb y) = _
  refine congrArg _ (funext fun a => Fin.ext ?_)
  match a with
  | ⟨0, _⟩ => show win3_0.index t 0 * 10000 + 1 * (y 0).val = (k 0).val; rw [e0, hk0]; omega
  | ⟨1, _⟩ => show win3_0.index t 1 * 128 + 1 * (y 1).val = (k 1).val; rw [e1, hk1]; omega

/-- The bias row's block at every point is the whole row. -/
theorem iblk3_1_apply (c : Dev nD) (t : Fin cfg3.N) (y : S1x128.Idx) :
    (iblk3 V c 1 t : Vec Ideal S1x128 .f32) y = (V c (Pipeline.arrRef spec3 1) : S1x128.Idx → Elt Ideal .f32) y := by
  obtain ⟨-, -, e2, e3, -, -, -, -⟩ := idx_facts3 t
  unfold iblk3
  rw [View.read_apply]
  show (V c (Pipeline.arrRef spec3 1) : S1x128.Idx → Elt Ideal .f32) (((cfg3.win 1).blk t).view.emb y) = _
  refine congrArg _ (funext fun a => Fin.ext ?_)
  match a with
  | ⟨0, _⟩ => show win3_1.index t 0 * 1 + 1 * (y 0).val = (y 0).val; rw [e2]; omega
  | ⟨1, _⟩ => show win3_1.index t 1 * 128 + 1 * (y 1).val = (y 1).val; rw [e3]; omega

/-- The weight's block at every point is the whole weight. -/
theorem iblk3_2_apply (c : Dev nD) (t : Fin cfg3.N) (y : S128x128.Idx) :
    (iblk3 V c 2 t : Vec Ideal S128x128 .f32) y = (V c (Pipeline.arrRef spec3 2) : S128x128.Idx → Elt Ideal .f32) y := by
  obtain ⟨-, -, -, -, e4, e5, -, -⟩ := idx_facts3 t
  unfold iblk3
  rw [View.read_apply]
  show (V c (Pipeline.arrRef spec3 2) : S128x128.Idx → Elt Ideal .f32) (((cfg3.win 2).blk t).view.emb y) = _
  refine congrArg _ (funext fun a => Fin.ext ?_)
  match a with
  | ⟨0, _⟩ => show win3_2.index t 0 * 128 + 1 * (y 0).val = (y 0).val; rw [e4]; omega
  | ⟨1, _⟩ => show win3_2.index t 1 * 128 + 1 * (y 1).val = (y 1).val; rw [e5]; omega

/-- What point `t` writes back is block `t` of the whole-array `relu (a + b) · w`. -/
theorem flushed3_eq (c : Dev nD) (t : Fin cfg3.N) :
    (dat3 (F := Ideal) V c).flushed 3 t = ((cfg3.win 3).blk t).view.read (Elt Ideal)
      (Cert.RefOps.brm (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hzB]
  simp only [View.ld_unit_zero (S := S10000x128) hzB, View.ld_unit_zero (S := S1x128) hzB, View.ld_unit_zero (S := S128x128) hzB]
  obtain ⟨-, -, -, -, -, -, e6, e7⟩ := idx_facts3 t
  funext j
  rw [View.read_apply]
  refine brm_block3 (V c (Pipeline.arrRef spec3 0)) (V c (Pipeline.arrRef spec3 1)) (V c (Pipeline.arrRef spec3 2))
    (iblk3 V c 0 t) (iblk3 V c 1 t) (iblk3 V c 2 t) (t.val * 10000)
    (fun y k h0 h1 => iblk3_0_apply V c t y k h0 h1) (fun y => iblk3_1_apply V c t y) (fun y => iblk3_2_apply V c t y)
    j (((cfg3.win 3).blk t).view.emb j) ?_ ?_
  · show win3_3.index t 0 * 10000 + 1 * (j 0).val = t.val * 10000 + (j 0).val; rw [e6]; omega
  · show win3_3.index t 1 * 128 + 1 * (j 1).val = (j 1).val; rw [e7]; omega

/-- An index of the output array is in point `t`'s block iff each coordinate is in the block's range on its axis. -/
theorem mem_blk3 (t : Fin cfg3.N) (i : S100000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v91).slice (win3_3.rect t)).set ↔ _
  rw [View.set_slice_whole, Rect.mem_set_unit]
  exact Iff.rfl

/-- Every row of the output is in some point's block: row `r` in that of point `r / 10000`. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 10 := N_3
  refine ⟨⟨(i 0).val / 10000, by rw [hN]; omega⟩, flush3_3 _, ?_⟩
  rw [mem_blk3]
  obtain ⟨-, -, -, -, -, -, e6, e7⟩ := idx_facts3 ⟨(i 0).val / 10000, by rw [hN]; omega⟩
  intro a
  match a with
  | ⟨0, _⟩ =>
    show win3_3.index _ (0 : Fin 2) * 10000 ≤ (i 0).val ∧ (i 0).val < win3_3.index _ (0 : Fin 2) * 10000 + 10000
    rw [e6]; show (i 0).val / 10000 * 10000 ≤ (i 0).val ∧ (i 0).val < (i 0).val / 10000 * 10000 + 10000; omega
  | ⟨1, _⟩ =>
    show win3_3.index _ (1 : Fin 2) * 128 ≤ (i 1).val ∧ (i 1).val < win3_3.index _ (1 : Fin 2) * 128 + 128
    rw [e7]; omega

/-- REGION 3: the output array after the region is the reference's `relu (a + b) · w` of the region's three input arrays. -/
theorem region3_out (c : Dev nD) :
    (Gen.dat3 (F := Ideal) V c).arrAt 3 cfg3.N
      = Cert.RefOps.brm (V c (Pipeline.arrRef spec3 0)) (V c (Pipeline.arrRef spec3 1)) (V c (Pipeline.arrRef spec3 2)) :=
  (dat3 (F := Ideal) V c).arrAt_eq_of_cover 3 _ (fun t _ => flushed3_eq V c t) (cover3)

end Region3

/-! ## Region 5: from blocks to the array -/

section Region5

variable (V : (c : Dev nD) → (b : Ref sig .tc) → Buf (Elt Ideal) ((c : Thread nD τ).loc b))

/-- The printed index maps over the grid: the row windows sit at block `(t, 0)`, the bias row's and the weight's windows
    at block `(0, 0)`. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The aggregated rows' block at point `t` is rows `10000·t …` of their array. -/
theorem iblk5_0_apply (c : Dev nD) (t : Fin cfg5.N) (y : S10000x128.Idx) (k : S100000x128.Idx)
    (hk0 : (k 0).val = t.val * 10000 + (y 0).val) (hk1 : (k 1).val = (y 1).val) :
    (iblk5 V c 0 t : Vec Ideal S10000x128 .f32) y = (V c (Pipeline.arrRef spec5 0) : S100000x128.Idx → Elt Ideal .f32) k := by
  obtain ⟨e0, e1, -, -, -, -, -, -⟩ := idx_facts5 t
  unfold iblk5
  rw [View.read_apply]
  show (V c (Pipeline.arrRef spec5 0) : S100000x128.Idx → Elt Ideal .f32) (((cfg5.win 0).blk t).view.emb y) = _
  refine congrArg _ (funext fun a => Fin.ext ?_)
  match a with
  | ⟨0, _⟩ => show win5_0.index t 0 * 10000 + 1 * (y 0).val = (k 0).val; rw [e0, hk0]; omega
  | ⟨1, _⟩ => show win5_0.index t 1 * 128 + 1 * (y 1).val = (k 1).val; rw [e1, hk1]; omega

/-- The bias row's block at every point is the whole row. -/
theorem iblk5_1_apply (c : Dev nD) (t : Fin cfg5.N) (y : S1x128.Idx) :
    (iblk5 V c 1 t : Vec Ideal S1x128 .f32) y = (V c (Pipeline.arrRef spec5 1) : S1x128.Idx → Elt Ideal .f32) y := by
  obtain ⟨-, -, e2, e3, -, -, -, -⟩ := idx_facts5 t
  unfold iblk5
  rw [View.read_apply]
  show (V c (Pipeline.arrRef spec5 1) : S1x128.Idx → Elt Ideal .f32) (((cfg5.win 1).blk t).view.emb y) = _
  refine congrArg _ (funext fun a => Fin.ext ?_)
  match a with
  | ⟨0, _⟩ => show win5_1.index t 0 * 1 + 1 * (y 0).val = (y 0).val; rw [e2]; omega
  | ⟨1, _⟩ => show win5_1.index t 1 * 128 + 1 * (y 1).val = (y 1).val; rw [e3]; omega

/-- The weight's block at every point is the whole weight. -/
theorem iblk5_2_apply (c : Dev nD) (t : Fin cfg5.N) (y : S128x128.Idx) :
    (iblk5 V c 2 t : Vec Ideal S128x128 .f32) y = (V c (Pipeline.arrRef spec5 2) : S128x128.Idx → Elt Ideal .f32) y := by
  obtain ⟨-, -, -, -, e4, e5, -, -⟩ := idx_facts5 t
  unfold iblk5
  rw [View.read_apply]
  show (V c (Pipeline.arrRef spec5 2) : S128x128.Idx → Elt Ideal .f32) (((cfg5.win 2).blk t).view.emb y) = _
  refine congrArg _ (funext fun a => Fin.ext ?_)
  match a with
  | ⟨0, _⟩ => show win5_2.index t 0 * 128 + 1 * (y 0).val = (y 0).val; rw [e4]; omega
  | ⟨1, _⟩ => show win5_2.index t 1 * 128 + 1 * (y 1).val = (y 1).val; rw [e5]; omega

/-- What point `t` writes back is block `t` of the whole-array `relu (a + b) · w`. -/
theorem flushed5_eq (c : Dev nD) (t : Fin cfg5.N) :
    (dat5 (F := Ideal) V c).flushed 3 t = ((cfg5.win 3).blk t).view.read (Elt Ideal)
      (Cert.RefOps.brm (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hzB]
  simp only [View.ld_unit_zero (S := S10000x128) hzB, View.ld_unit_zero (S := S1x128) hzB, View.ld_unit_zero (S := S128x128) hzB]
  obtain ⟨-, -, -, -, -, -, e6, e7⟩ := idx_facts5 t
  funext j
  rw [View.read_apply]
  refine brm_block5 (V c (Pipeline.arrRef spec5 0)) (V c (Pipeline.arrRef spec5 1)) (V c (Pipeline.arrRef spec5 2))
    (iblk5 V c 0 t) (iblk5 V c 1 t) (iblk5 V c 2 t) (t.val * 10000)
    (fun y k h0 h1 => iblk5_0_apply V c t y k h0 h1) (fun y => iblk5_1_apply V c t y) (fun y => iblk5_2_apply V c t y)
    j (((cfg5.win 3).blk t).view.emb j) ?_ ?_
  · show win5_3.index t 0 * 10000 + 1 * (j 0).val = t.val * 10000 + (j 0).val; rw [e6]; omega
  · show win5_3.index t 1 * 128 + 1 * (j 1).val = (j 1).val; rw [e7]; omega

/-- An index of the output array is in point `t`'s block iff each coordinate is in the block's range on its axis. -/
theorem mem_blk5 (t : Fin cfg5.N) (i : S100000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v129).slice (win5_3.rect t)).set ↔ _
  rw [View.set_slice_whole, Rect.mem_set_unit]
  exact Iff.rfl

/-- Every row of the output is in some point's block: row `r` in that of point `r / 10000`. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 10 := N_5
  refine ⟨⟨(i 0).val / 10000, by rw [hN]; omega⟩, flush5_3 _, ?_⟩
  rw [mem_blk5]
  obtain ⟨-, -, -, -, -, -, e6, e7⟩ := idx_facts5 ⟨(i 0).val / 10000, by rw [hN]; omega⟩
  intro a
  match a with
  | ⟨0, _⟩ =>
    show win5_3.index _ (0 : Fin 2) * 10000 ≤ (i 0).val ∧ (i 0).val < win5_3.index _ (0 : Fin 2) * 10000 + 10000
    rw [e6]; show (i 0).val / 10000 * 10000 ≤ (i 0).val ∧ (i 0).val < (i 0).val / 10000 * 10000 + 10000; omega
  | ⟨1, _⟩ =>
    show win5_3.index _ (1 : Fin 2) * 128 ≤ (i 1).val ∧ (i 1).val < win5_3.index _ (1 : Fin 2) * 128 + 128
    rw [e7]; omega

/-- REGION 5: the output array after the region is the reference's `relu (a + b) · w` of the region's three input arrays. -/
theorem region5_out (c : Dev nD) :
    (Gen.dat5 (F := Ideal) V c).arrAt 3 cfg5.N
      = Cert.RefOps.brm (V c (Pipeline.arrRef spec5 0)) (V c (Pipeline.arrRef spec5 1)) (V c (Pipeline.arrRef spec5 2)) :=
  (dat5 (F := Ideal) V c).arrAt_eq_of_cover 3 _ (fun t _ => flushed5_eq V c t) (cover5)

end Region5

/-! ## Region 7: from blocks to the array -/

section Region7

variable (V : (c : Dev nD) → (b : Ref sig .tc) → Buf (Elt Ideal) ((c : Thread nD τ).loc b))

/-- The printed index maps over the grid: the row windows sit at block `(t, 0)`, the bias row's and the weight's windows
    at block `(0, 0)`. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The aggregated rows' block at point `t` is rows `10000·t …` of their array. -/
theorem iblk7_0_apply (c : Dev nD) (t : Fin cfg7.N) (y : S10000x128.Idx) (k : S100000x128.Idx)
    (hk0 : (k 0).val = t.val * 10000 + (y 0).val) (hk1 : (k 1).val = (y 1).val) :
    (iblk7 V c 0 t : Vec Ideal S10000x128 .f32) y = (V c (Pipeline.arrRef spec7 0) : S100000x128.Idx → Elt Ideal .f32) k := by
  obtain ⟨e0, e1, -, -, -, -, -, -⟩ := idx_facts7 t
  unfold iblk7
  rw [View.read_apply]
  show (V c (Pipeline.arrRef spec7 0) : S100000x128.Idx → Elt Ideal .f32) (((cfg7.win 0).blk t).view.emb y) = _
  refine congrArg _ (funext fun a => Fin.ext ?_)
  match a with
  | ⟨0, _⟩ => show win7_0.index t 0 * 10000 + 1 * (y 0).val = (k 0).val; rw [e0, hk0]; omega
  | ⟨1, _⟩ => show win7_0.index t 1 * 128 + 1 * (y 1).val = (k 1).val; rw [e1, hk1]; omega

/-- The bias row's block at every point is the whole row. -/
theorem iblk7_1_apply (c : Dev nD) (t : Fin cfg7.N) (y : S1x128.Idx) :
    (iblk7 V c 1 t : Vec Ideal S1x128 .f32) y = (V c (Pipeline.arrRef spec7 1) : S1x128.Idx → Elt Ideal .f32) y := by
  obtain ⟨-, -, e2, e3, -, -, -, -⟩ := idx_facts7 t
  unfold iblk7
  rw [View.read_apply]
  show (V c (Pipeline.arrRef spec7 1) : S1x128.Idx → Elt Ideal .f32) (((cfg7.win 1).blk t).view.emb y) = _
  refine congrArg _ (funext fun a => Fin.ext ?_)
  match a with
  | ⟨0, _⟩ => show win7_1.index t 0 * 1 + 1 * (y 0).val = (y 0).val; rw [e2]; omega
  | ⟨1, _⟩ => show win7_1.index t 1 * 128 + 1 * (y 1).val = (y 1).val; rw [e3]; omega

/-- The weight's block at every point is the whole weight. -/
theorem iblk7_2_apply (c : Dev nD) (t : Fin cfg7.N) (y : S128x128.Idx) :
    (iblk7 V c 2 t : Vec Ideal S128x128 .f32) y = (V c (Pipeline.arrRef spec7 2) : S128x128.Idx → Elt Ideal .f32) y := by
  obtain ⟨-, -, -, -, e4, e5, -, -⟩ := idx_facts7 t
  unfold iblk7
  rw [View.read_apply]
  show (V c (Pipeline.arrRef spec7 2) : S128x128.Idx → Elt Ideal .f32) (((cfg7.win 2).blk t).view.emb y) = _
  refine congrArg _ (funext fun a => Fin.ext ?_)
  match a with
  | ⟨0, _⟩ => show win7_2.index t 0 * 128 + 1 * (y 0).val = (y 0).val; rw [e4]; omega
  | ⟨1, _⟩ => show win7_2.index t 1 * 128 + 1 * (y 1).val = (y 1).val; rw [e5]; omega

/-- What point `t` writes back is block `t` of the whole-array `relu (a + b) · w`. -/
theorem flushed7_eq (c : Dev nD) (t : Fin cfg7.N) :
    (dat7 (F := Ideal) V c).flushed 3 t = ((cfg7.win 3).blk t).view.read (Elt Ideal)
      (Cert.RefOps.brm (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hzB]
  simp only [View.ld_unit_zero (S := S10000x128) hzB, View.ld_unit_zero (S := S1x128) hzB, View.ld_unit_zero (S := S128x128) hzB]
  obtain ⟨-, -, -, -, -, -, e6, e7⟩ := idx_facts7 t
  funext j
  rw [View.read_apply]
  refine brm_block7 (V c (Pipeline.arrRef spec7 0)) (V c (Pipeline.arrRef spec7 1)) (V c (Pipeline.arrRef spec7 2))
    (iblk7 V c 0 t) (iblk7 V c 1 t) (iblk7 V c 2 t) (t.val * 10000)
    (fun y k h0 h1 => iblk7_0_apply V c t y k h0 h1) (fun y => iblk7_1_apply V c t y) (fun y => iblk7_2_apply V c t y)
    j (((cfg7.win 3).blk t).view.emb j) ?_ ?_
  · show win7_3.index t 0 * 10000 + 1 * (j 0).val = t.val * 10000 + (j 0).val; rw [e6]; omega
  · show win7_3.index t 1 * 128 + 1 * (j 1).val = (j 1).val; rw [e7]; omega

/-- An index of the output array is in point `t`'s block iff each coordinate is in the block's range on its axis. -/
theorem mem_blk7 (t : Fin cfg7.N) (i : S100000x128.Idx) :
    i ∈ ((cfg7.win 3).blk t).view.set ↔ ∀ a : Fin 2, win7_3.index t a * S10000x128.size a ≤ (i a).val ∧ (i a).val < win7_3.index t a * S10000x128.size a + S10000x128.size a := by
  show i ∈ ((View.whole main_v167).slice (win7_3.rect t)).set ↔ _
  rw [View.set_slice_whole, Rect.mem_set_unit]
  exact Iff.rfl

/-- Every row of the output is in some point's block: row `r` in that of point `r / 10000`. -/
theorem cover7 (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 10 := N_7
  refine ⟨⟨(i 0).val / 10000, by rw [hN]; omega⟩, flush7_3 _, ?_⟩
  rw [mem_blk7]
  obtain ⟨-, -, -, -, -, -, e6, e7⟩ := idx_facts7 ⟨(i 0).val / 10000, by rw [hN]; omega⟩
  intro a
  match a with
  | ⟨0, _⟩ =>
    show win7_3.index _ (0 : Fin 2) * 10000 ≤ (i 0).val ∧ (i 0).val < win7_3.index _ (0 : Fin 2) * 10000 + 10000
    rw [e6]; show (i 0).val / 10000 * 10000 ≤ (i 0).val ∧ (i 0).val < (i 0).val / 10000 * 10000 + 10000; omega
  | ⟨1, _⟩ =>
    show win7_3.index _ (1 : Fin 2) * 128 ≤ (i 1).val ∧ (i 1).val < win7_3.index _ (1 : Fin 2) * 128 + 128
    rw [e7]; omega

/-- REGION 7: the output array after the region is the reference's `relu (a + b) · w` of the region's three input arrays. -/
theorem region7_out (c : Dev nD) :
    (Gen.dat7 (F := Ideal) V c).arrAt 3 cfg7.N
      = Cert.RefOps.brm (V c (Pipeline.arrRef spec7 0)) (V c (Pipeline.arrRef spec7 1)) (V c (Pipeline.arrRef spec7 2)) :=
  (dat7 (F := Ideal) V c).arrAt_eq_of_cover 3 _ (fun t _ => flushed7_eq V c t) (cover7)

end Region7

end Cert.RegionLin

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.LibRowReduce.lean ====
/-
  Row reductions of a matrix, read at an index.

  A reduction of an `[m, n]` array over its second axis leaves one value per row.  Read at row `p`, the source
  indices that reduce to it are `(p, k)` for `k : Fin n`, so

    * a kernel's row maximum is the fold of `max` from the accumulator's value over `k ↦ x (p, k)`,
    * a kernel's row sum is `∑ k, x (p, k)`,
    * the host's `reduce` with a maximum body is the same fold from the initial value, and the host's float sum is
      the initial value plus the same sum.

  The kernel keeps such a result as a column: an `[m]` vector cast to `[m, 1]` reads the vector at the row.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Idealize.ShloMosaic.RowReduce

open Idealize.ShloMosaic Idealize.ShloMosaic.ValueIdx

variable {α : Type}

/-- The source index over row `p` with coordinate `k` on the reduced second axis is `(p, k)`. -/
theorem lift_row {m n : ℕ} (h : (⟨2, ![m, n]⟩ : Shape).Reduces [1] ⟨1, ![m]⟩) (p : Fin m) (k : Fin n) :
    h.lift (ix1 p) k = ix2 p k := by
  funext c
  apply Fin.ext
  refine (h.lift_val (ix1 p) k c).trans ?_
  match c with
  | ⟨0, _⟩ => rfl
  | ⟨1, _⟩ => rfl

/-- An `[m]` vector cast to an `[m, 1]` column reads, at `(p, u)`, the vector at `p`. -/
theorem shapeCast_a_a1_apply {m : ℕ} (x : (⟨1, ![m]⟩ : Shape).Idx → α) (h : (⟨1, ![m]⟩ : Shape).ShapeCasts ⟨2, ![m, 1]⟩)
    (p : Fin m) (u : Fin 1) : shapeCast ⟨2, ![m, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A kernel's row maximum at row `p`: the fold of `max` from the accumulator's value over the row's entries. -/
theorem multiReduction_maximumf_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.maximumf.neutral φ hφ)
    (p : Fin m) :
    multiReduction .maximumf [1] ⟨1, ![m]⟩ x acc h hφ hacc (ix1 p)
      = (Finset.univ : Finset (Fin n)).fold max (Ideal.ofBits φ acc) (fun k => x (ix2 p k)) := by
  refine (Ideal.multiReduction_maximumf_single x acc h hφ hacc (ix1 p)).trans ?_
  exact congrArg (fun f => (Finset.univ : Finset (Fin n)).fold max (Ideal.ofBits φ acc) f)
    (funext fun k => congrArg x (lift_row h p k))

/-- A kernel's row sum at row `p`. -/
theorem multiReduction_add_row {m n : ℕ} {φ : FTy} (x : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ)
    (p : Fin m) :
    multiReduction .add [1] ⟨1, ![m]⟩ x acc h hφ hacc (ix1 p) = ∑ k : Fin n, x (ix2 p k) := by
  refine (Ideal.multiReduction_add_single x acc h hφ hacc (ix1 p)).trans ?_
  exact Finset.sum_congr rfl fun k _ => congrArg x (lift_row h p k)

/-- The host's `reduce` with a maximum body over the second axis, at row `p`: the fold of `max` from the initial
    value over the row's entries. -/
theorem hostReduce_maximumf_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduce (FloatOps.maximumf (F := Ideal) (φ := φ)) x init h' hu (ix1 p)
      = (Finset.univ : Finset (Fin n)).fold max (init (Shape.Idx.first hu)) (fun k => x (ix2 p k)) := by
  refine (Host.reduce_eq_fold_single (FloatOps.maximumf (F := Ideal) (φ := φ)) x init h' h hu (ix1 p)).trans ?_
  exact congrArg (fun f => (Finset.univ : Finset (Fin n)).fold max (init (Shape.Idx.first hu)) f)
    (funext fun k => congrArg x (lift_row h p k))

/-- The host's float sum over the second axis, at row `p`: the initial value plus the sum of the row's entries. -/
theorem hostReduceAdd_row {m n : ℕ} {φ : FTy} {u : Shape} (x : FVec Ideal ⟨2, ![m, n]⟩ φ) (init : u.Idx → Ideal φ)
    (h' : (⟨2, ![m, n]⟩ : Shape).ReducesTo [1] ⟨1, ![m]⟩) (h : (⟨2, ![m, n]⟩ : Shape).Reduces [1] ⟨1, ![m]⟩)
    (hu : 0 < u.numel) (p : Fin m) :
    Host.reduceAdd x init h' hu (ix1 p) = init (Shape.Idx.first hu) + ∑ k : Fin n, x (ix2 p k) := by
  rw [hostReduceAdd_apply]
  refine (Ideal.hostReduceAdd_single h' h x (init (Shape.Idx.first hu)) (ix1 p)).trans ?_
  exact congrArg _ (Finset.sum_congr rfl fun k _ => congrArg x (lift_row h p k))

end Idealize.ShloMosaic.RowReduce

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.RegionBlockMath.lean ====
/-
  The end of a residual block, entry by entry.

  With `y = max (a + b, 0)` (the bias `b` a row added to every row of `a`), the block's output features are

      x (p, q) = (y (p, q) / max (√(∑ k, y (p, k)²), ε) + id (p, q)) · ½ ,

  and the next layer's input is their product with a weight, `∑ k, x (p, k) · w (k, q)`.  Entry `(p, q)` of `x` reads
  row `p` of `a` and of `id` and the whole bias row; entry `(p, q)` of the product reads in addition column `q` of the
  weight.  So these are functions of one row, whatever the number of rows of the arrays they are read from: a
  10000-row block of a 100000-row array gives the same values as the array itself at the block's rows.

  The kernel multiplies by the float word of ½ where the host divides by the float word of 2.  On the extended reals
  the quotient by a real that is not zero is the product with its reciprocal, at the infinities too, so the two agree
  on every entry.
-/
import proofs.«147806_j25666724560908_2_alg».proof.Proof.Gen.KernelIdeal.Skeleton
import proofs.«147806_j25666724560908_2_alg».proof.Proof.LibPlainDot
import proofs.«147806_j25666724560908_2_alg».proof.Proof.LibColumns
import proofs.«147806_j25666724560908_2_alg».proof.Proof.LibRowReduce
import proofs.«147806_j25666724560908_2_alg».proof.Proof.LibRegionBlockSpread
import Idealize.ShloMosaic.Lib.ValueLayout
import Idealize.ShloMosaic.Lib.IdealHost
import Idealize.ShloMosaic.Lib.Pipeline.Value
import Idealize.ShloMosaic.PureOps.Ideal.Laws

noncomputable section

namespace Cert.RegionBlock

open Cert.KernelIdeal Cert.KernelIdeal.Gen Idealize.ShloMosaic Idealize.ShloMosaic.ValueIdx

/-! ## The block's end as a function of one row -/

/-- `max (a + b, 0)` at `(p, q)`: the bias row added, then the rectifier. -/
def act {M : ℕ} (a : (⟨2, ![M, 128]⟩ : Shape).Idx → EReal) (b : (⟨2, ![1, 128]⟩ : Shape).Idx → EReal) (p : Fin M) (q : Fin 128) :
    EReal :=
  max (a (ix2 p q) + b (ix2 (0 : Fin 1) q)) (Ideal.ofBits FTy.f32 0x00000000#32)

/-- The divisor of row `p`: its Euclidean norm, bounded below by `ε`. -/
def rowScale {M : ℕ} (a : (⟨2, ![M, 128]⟩ : Shape).Idx → EReal) (b : (⟨2, ![1, 128]⟩ : Shape).Idx → EReal) (p : Fin M) : EReal :=
  max (Ideal.sqrt (∑ k : Fin 128, act a b p k * act a b p k)) (Ideal.ofBits FTy.f32 0x2B8CBCCC#32)

/-- The block's output features at `(p, q)`: the normalised row averaged with the identity branch. -/
def feat {M : ℕ} (a : (⟨2, ![M, 128]⟩ : Shape).Idx → EReal) (b : (⟨2, ![1, 128]⟩ : Shape).Idx → EReal)
    (id : (⟨2, ![M, 128]⟩ : Shape).Idx → EReal) (p : Fin M) (q : Fin 128) : EReal :=
  (Ideal.div (act a b p q) (rowScale a b p) + id (ix2 p q)) * Ideal.ofBits FTy.f32 0x3F000000#32

/-- The output features times a weight with `N` columns, at `(p, q)`. -/
def featDot {M N : ℕ} (a : (⟨2, ![M, 128]⟩ : Shape).Idx → EReal) (b : (⟨2, ![1, 128]⟩ : Shape).Idx → EReal)
    (id : (⟨2, ![M, 128]⟩ : Shape).Idx → EReal) (w : (⟨2, ![128, N]⟩ : Shape).Idx → EReal) (p : Fin M) (q : Fin N) : EReal :=
  ∑ k : Fin 128, feat a b id p k * w (ix2 k q)

/-! ## They read one row only -/

section Rows
variable {M M' : ℕ} {a : (⟨2, ![M, 128]⟩ : Shape).Idx → EReal} {a' : (⟨2, ![M', 128]⟩ : Shape).Idx → EReal}
  {b b' : (⟨2, ![1, 128]⟩ : Shape).Idx → EReal} {p : Fin M} {p' : Fin M'}

theorem act_congr (ha : ∀ k, a (ix2 p k) = a' (ix2 p' k)) (hb : ∀ k, b (ix2 (0 : Fin 1) k) = b' (ix2 (0 : Fin 1) k)) (q : Fin 128) :
    act a b p q = act a' b' p' q := by
  unfold act
  rw [ha q, hb q]

theorem rowScale_congr (ha : ∀ k, a (ix2 p k) = a' (ix2 p' k)) (hb : ∀ k, b (ix2 (0 : Fin 1) k) = b' (ix2 (0 : Fin 1) k)) :
    rowScale a b p = rowScale a' b' p' := by
  unfold rowScale
  rw [Finset.sum_congr rfl fun k _ => by rw [act_congr ha hb k]]

theorem feat_congr {id : (⟨2, ![M, 128]⟩ : Shape).Idx → EReal} {id' : (⟨2, ![M', 128]⟩ : Shape).Idx → EReal}
    (ha : ∀ k, a (ix2 p k) = a' (ix2 p' k)) (hb : ∀ k, b (ix2 (0 : Fin 1) k) = b' (ix2 (0 : Fin 1) k))
    (q : Fin 128) (hid : id (ix2 p q) = id' (ix2 p' q)) : feat a b id p q = feat a' b' id' p' q := by
  unfold feat
  rw [act_congr ha hb q, rowScale_congr ha hb, hid]

theorem featDot_congr {N : ℕ} {id : (⟨2, ![M, 128]⟩ : Shape).Idx → EReal} {id' : (⟨2, ![M', 128]⟩ : Shape).Idx → EReal}
    {w w' : (⟨2, ![128, N]⟩ : Shape).Idx → EReal}
    (ha : ∀ k, a (ix2 p k) = a' (ix2 p' k)) (hb : ∀ k, b (ix2 (0 : Fin 1) k) = b' (ix2 (0 : Fin 1) k))
    (hid : ∀ k, id (ix2 p k) = id' (ix2 p' k)) (q : Fin N) (hw : ∀ k, w (ix2 k q) = w' (ix2 k q)) :
    featDot a b id w p q = featDot a' b' id' w' p' q := by
  unfold featDot
  exact Finset.sum_congr rfl fun k _ => by rw [feat_congr ha hb k (hid k), hw k]

end Rows

/-! ## The two float words of the averaging -/

/-- The float word `0x40000000` is the real `2`. -/
theorem ofBits_two : Ideal.ofBits FTy.f32 0x40000000#32 = ((2 : ℝ) : EReal) := by
  simp [Ideal.ofBits, Ideal.ieee, -EReal.coe_mul]; norm_num

/-- The float word `0x3F000000` is the real `1/2`. -/
theorem ofBits_half : Ideal.ofBits FTy.f32 0x3F000000#32 = ((1 / 2 : ℝ) : EReal) := by
  simp [Ideal.ofBits, Ideal.ieee, -EReal.coe_mul]; norm_num

/-- The host's quotient by the word of `2` is the kernel's product with the word of `1/2`, on every extended real. -/
theorem div_two_eq_mul_half (x : EReal) :
    Ideal.div x (Ideal.ofBits FTy.f32 0x40000000#32) = x * Ideal.ofBits FTy.f32 0x3F000000#32 := by
  rw [ofBits_two, ofBits_half, Ideal.div_coe (by norm_num : (2 : ℝ) ≠ 0)]

/-! ## The kernel's payloads at an index -/

/-- The lane sum of a block's 128 lanes, read at row `p`, with the accumulator's side condition as the payload states it
    (the zero word is the neutral accumulator of a sum). -/
theorem laneSum_apply (src : FVec Ideal S10000x128 .f32) (h : S10000x128.Reduces [1] S10000) (hφ : FKind.Formats FTy.f32)
    (hacc : (0x00000000#32 : BitVec 32) = 0x00000000#32) (p : Fin 10000) :
    multiReduction .add [1] S10000 src 0x00000000#32 h hφ hacc (ix1 p) = ∑ k : Fin 128, src (ix2 p k) :=
  RowReduce.multiReduction_add_row src 0x00000000#32 h hφ hacc p

/-- The body's output features at `(p, q)` of its block. -/
theorem pay_feat_apply (x0 : Vec Ideal S10000x128 .f32) (x1 : Vec Ideal S1x128 .f32) (x2 : Vec Ideal S10000x128 .f32)
    (p : Fin 10000) (q : Fin 128) : Gen.k2_pay1 (F := Ideal) x0 x1 x2 (ix2 p q) = feat x0 x1 x2 p q := by
  unfold Gen.k2_pay1
  simp only [shapeCast_self, mulf_apply, addf_apply, divf_apply, maximumf_apply, broadcast_apply, KeepDims.sqrt_apply]
  rw [broadcastTo_1b_ab_apply, broadcastTo_a1_ab_apply]
  simp only [maximumf_apply, KeepDims.sqrt_apply, broadcast_apply]
  rw [RowReduce.shapeCast_a_a1_apply, laneSum_apply]
  simp only [mulf_apply, maximumf_apply, addf_apply, broadcast_apply, broadcastTo_1b_ab_apply]
  rfl

/-- The body's product at `(p, q)` of its block. -/
theorem pay_featDot_apply (x0 : Vec Ideal S10000x128 .f32) (x1 : Vec Ideal S1x128 .f32) (x2 : Vec Ideal S10000x128 .f32)
    (x3 : Vec Ideal S128x128 .f32) (p : Fin 10000) (q : Fin 128) :
    Gen.k2_pay2 (F := Ideal) x0 x1 x2 x3 (ix2 p q) = featDot x0 x1 x2 x3 p q := by
  unfold Gen.k2_pay2
  rw [shapeCast_self]
  refine (PlainDot.matmul_zero_apply _ rfl none (Gen.k2_pay1 (F := Ideal) x0 x1 x2) x3 p q).trans ?_
  exact Finset.sum_congr rfl fun k _ => by rw [pay_feat_apply]

/-! ## The later blocks' payloads: the same arithmetic

The later blocks' bodies cast the identity rows to their own shape before adding them, which changes nothing. -/

theorem pay4_feat_eq (x0 : Vec Ideal S10000x128 .f32) (x1 : Vec Ideal S1x128 .f32) (x2 : Vec Ideal S10000x128 .f32) :
    Gen.k4_pay1 (F := Ideal) x0 x1 x2 = Gen.k2_pay1 (F := Ideal) x0 x1 x2 := by
  unfold Gen.k4_pay1 Gen.k2_pay1
  simp only [shapeCast_self]

theorem pay6_feat_eq (x0 : Vec Ideal S10000x128 .f32) (x1 : Vec Ideal S1x128 .f32) (x2 : Vec Ideal S10000x128 .f32) :
    Gen.k6_pay1 (F := Ideal) x0 x1 x2 = Gen.k2_pay1 (F := Ideal) x0 x1 x2 := by
  unfold Gen.k6_pay1 Gen.k2_pay1
  simp only [shapeCast_self]

theorem pay8_feat_eq (x0 : Vec Ideal S10000x128 .f32) (x1 : Vec Ideal S1x128 .f32) (x2 : Vec Ideal S10000x128 .f32) :
    Gen.k8_pay1 (F := Ideal) x0 x1 x2 = Gen.k2_pay1 (F := Ideal) x0 x1 x2 := by
  unfold Gen.k8_pay1 Gen.k2_pay1
  simp only [shapeCast_self]

theorem pay4_featDot_apply (x0 : Vec Ideal S10000x128 .f32) (x1 : Vec Ideal S1x128 .f32) (x2 : Vec Ideal S10000x128 .f32)
    (x3 : Vec Ideal S128x128 .f32) (p : Fin 10000) (q : Fin 128) :
    Gen.k4_pay2 (F := Ideal) x0 x1 x2 x3 (ix2 p q) = featDot x0 x1 x2 x3 p q := by
  unfold Gen.k4_pay2
  rw [shapeCast_self]
  refine (PlainDot.matmul_zero_apply _ rfl none (Gen.k4_pay1 (F := Ideal) x0 x1 x2) x3 p q).trans ?_
  exact Finset.sum_congr rfl fun k _ => by rw [pay4_feat_eq, pay_feat_apply]

theorem pay6_featDot_apply (x0 : Vec Ideal S10000x128 .f32) (x1 : Vec Ideal S1x128 .f32) (x2 : Vec Ideal S10000x128 .f32)
    (x3 : Vec Ideal S128x128 .f32) (p : Fin 10000) (q : Fin 128) :
    Gen.k6_pay2 (F := Ideal) x0 x1 x2 x3 (ix2 p q) = featDot x0 x1 x2 x3 p q := by
  unfold Gen.k6_pay2
  rw [shapeCast_self]
  refine (PlainDot.matmul_zero_apply _ rfl none (Gen.k6_pay1 (F := Ideal) x0 x1 x2) x3 p q).trans ?_
  exact Finset.sum_congr rfl fun k _ => by rw [pay6_feat_eq, pay_feat_apply]

/-- The last block's product is with the weight of 40 columns. -/
theorem pay8_featDot_apply (x0 : Vec Ideal S10000x128 .f32) (x1 : Vec Ideal S1x128 .f32) (x2 : Vec Ideal S10000x128 .f32)
    (x3 : Vec Ideal S128x40 .f32) (p : Fin 10000) (q : Fin 40) :
    Gen.k8_pay2 (F := Ideal) x0 x1 x2 x3 (ix2 p q) = featDot x0 x1 x2 x3 p q := by
  unfold Gen.k8_pay2
  refine (PlainDot.matmul_zero_apply _ rfl none (Gen.k8_pay1 (F := Ideal) x0 x1 x2) x3 p q).trans ?_
  exact Finset.sum_congr rfl fun k _ => by rw [pay8_feat_eq, pay_feat_apply]

end Cert.RegionBlock

end
-- ==== Proof.RegionBlockRef.lean ====
/-
  The reference's end of a residual block, entry by entry.

  The reference computes the block's end on whole 100000-row arrays with host operations: the bias row spread over the
  rows, the rectifier against a spread zero, the squares summed along each row from a zero initial value, the sums
  kept as a column, its square root bounded below by a spread `ε`, the column spread back over the 128 columns, the
  quotient, the identity branch added, and the quotient by a spread `2`.  Read at `(r, q)` this is the one-row function
  of `RegionBlockMath`: the initial zero of the sum adds nothing, and the quotient by `2` is the product with `1/2`.
-/
import proofs.«147806_j25666724560908_2_alg».proof.Proof.RefOps
import proofs.«147806_j25666724560908_2_alg».proof.Proof.RegionBlockMath

noncomputable section

namespace Cert.RegionBlock

open Idealize.ShloMosaic Idealize.ShloMosaic.ValueIdx

/-- The rectified, biased rows at `(r, q)`. -/
theorem relu_addRow_apply (a : (⟨Cert.ReferenceIdeal.S100000x128, .f32⟩ : BufTy).Contents (Elt Ideal))
    (b : (⟨Cert.ReferenceIdeal.S1x128, .f32⟩ : BufTy).Contents (Elt Ideal)) (r : Fin 100000) (q : Fin 128) :
    Cert.RefOps.relu (Cert.RefOps.addRow a b) (ix2 r q) = act a b r q := by
  unfold Cert.RefOps.relu Cert.RefOps.addRow
  simp only [maximumf_apply, addf_apply]
  rw [KeepDims.broadcastInDim_1b_ab_apply, broadcastInDim_scalar_apply]
  rfl

/-- The norm column at row `r`: the square root of the row's sum of squares. -/
theorem rowNorm_apply (y : (⟨Cert.ReferenceIdeal.S100000x128, .f32⟩ : BufTy).Contents (Elt Ideal)) (r : Fin 100000) (z : Fin 1) :
    Cert.RefOps.rowNorm y (ix2 r z) = Ideal.sqrt (∑ k : Fin 128, y (ix2 r k) * y (ix2 r k)) := by
  have hred : (⟨2, ![100000, 128]⟩ : Shape).Reduces [1] ⟨1, ![100000]⟩ := by decide
  unfold Cert.RefOps.rowNorm
  rw [KeepDims.hostSqrt_apply, KeepDims.broadcastInDim_a_a1_apply, RowReduce.hostReduceAdd_row _ _ _ hred]
  simp only [constant_apply, mulf_apply, Ideal.ofBits_zero_f32, zero_add]

/-- The reference's output features at `(r, q)`. -/
theorem brnX_apply (a : (⟨Cert.ReferenceIdeal.S100000x128, .f32⟩ : BufTy).Contents (Elt Ideal))
    (b : (⟨Cert.ReferenceIdeal.S1x128, .f32⟩ : BufTy).Contents (Elt Ideal))
    (id : (⟨Cert.ReferenceIdeal.S100000x128, .f32⟩ : BufTy).Contents (Elt Ideal)) (r : Fin 100000) (q : Fin 128) :
    Cert.RefOps.brnX a b id (ix2 r q) = feat a b id r q := by
  unfold Cert.RefOps.brnX Cert.RefOps.blockEnd
  simp only [hostDivf_apply, addf_apply]
  rw [broadcastInDim_scalar_apply, KeepDims.broadcastInDim_a1_ab_apply]
  simp only [maximumf_apply]
  rw [broadcastInDim_scalar_apply]
  simp only [constant_apply]
  rw [rowNorm_apply, div_two_eq_mul_half, relu_addRow_apply]
  unfold feat rowScale
  simp only [relu_addRow_apply]

/-- The reference's product with a square weight at `(r, q)`. -/
theorem brnH_apply (a : (⟨Cert.ReferenceIdeal.S100000x128, .f32⟩ : BufTy).Contents (Elt Ideal))
    (b : (⟨Cert.ReferenceIdeal.S1x128, .f32⟩ : BufTy).Contents (Elt Ideal))
    (id : (⟨Cert.ReferenceIdeal.S100000x128, .f32⟩ : BufTy).Contents (Elt Ideal))
    (w : (⟨Cert.ReferenceIdeal.S128x128, .f32⟩ : BufTy).Contents (Elt Ideal)) (r : Fin 100000) (q : Fin 128) :
    Cert.RefOps.brnH a b id w (ix2 r q) = featDot a b id w r q := by
  unfold Cert.RefOps.brnH Cert.RefOps.lin
  refine (PlainDot.dotGeneral_apply _ rfl none .single (Cert.RefOps.brnX a b id) w r q).trans ?_
  exact Finset.sum_congr rfl fun k _ => by rw [brnX_apply]

/-- The reference's product with the 40-column weight at `(r, q)`. -/
theorem brnH40_apply (a : (⟨Cert.ReferenceIdeal.S100000x128, .f32⟩ : BufTy).Contents (Elt Ideal))
    (b : (⟨Cert.ReferenceIdeal.S1x128, .f32⟩ : BufTy).Contents (Elt Ideal))
    (id : (⟨Cert.ReferenceIdeal.S100000x128, .f32⟩ : BufTy).Contents (Elt Ideal))
    (w : (⟨Cert.ReferenceIdeal.S128x40, .f32⟩ : BufTy).Contents (Elt Ideal)) (r : Fin 100000) (q : Fin 40) :
    Cert.RefOps.brnH40 a b id w (ix2 r q) = featDot a b id w r q := by
  unfold Cert.RefOps.brnH40 Cert.RefOps.lin40
  refine (PlainDot.dotGeneral_apply _ rfl none .single (Cert.RefOps.brnX a b id) w r q).trans ?_
  exact Finset.sum_congr rfl fun k _ => by rw [brnX_apply]

end Cert.RegionBlock

end
-- ==== Proof.RegionBlock2.lean ====
/-
  The end-of-block region 2: its two output arrays after the region are the reference's whole-array functions of the
  region's input arrays.

  The region's grid has ten points.  Point `t` fetches rows `10000·t … 10000·t + 9999` of the aggregated rows and of the
  identity rows, the whole bias row and the whole weight, and writes back the same rows of the two outputs.  Both
  outputs are row-wise: entry `(r, q)` of the output features reads row `r` of the two row inputs and the bias row, and
  entry `(r, q)` of the product reads column `q` of the weight besides.  So block `t` of each output is the restriction
  of the whole-array function to the rows of block `t`; row `r` lies in the block of point `r / 10000`, so the ten
  blocks cover the array, and the array ends at the whole-array function.
-/
import proofs.«147806_j25666724560908_2_alg».proof.Proof.Gen.KernelIdeal.Frame
import proofs.«147806_j25666724560908_2_alg».proof.Proof.RegionBlockRef
import Idealize.ShloMosaic.Lib.Pipeline.Value
import Idealize.ShloMosaic.Lib.ValueIdx

noncomputable section

namespace Cert.RegionBlock.R2

open Cert.KernelIdeal Cert.KernelIdeal.Gen Idealize.ShloMosaic Idealize.ShloMosaic.TcCoe Idealize.SL.Sem
open Idealize.ShloMosaic.Pipeline (Dat)
open Idealize.ShloMosaic.ValueIdx
open Cert.RegionBlock

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: the row windows sit at block `t` of the rows, the bias row and the weight at
    their one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Row `p` of block `t` is row `10000·t + p` of the array. -/
def row (t : Fin cfg2.N) (p : Fin 10000) : Fin 100000 :=
  ⟨t.val * 10000 + p.val, by have := t.isLt; have hN : cfg2.N = 10 := N_2; have := p.isLt; omega⟩

/-! ## The input blocks, read where the output's rows are -/

theorem blk0_apply (c : Dev nD) (t : Fin cfg2.N) (p : Fin 10000) (k : Fin 128) :
    iblk2 V c 0 t (ix2 p k) = (V c (Pipeline.arrRef spec2 0) : S100000x128.Idx → EReal) (ix2 (row t p) k) := by
  obtain ⟨e0, e1, -⟩ := idx_facts t
  show (V c (Pipeline.arrRef spec2 0) : S100000x128.Idx → EReal) (((cfg2.win 0).blk t).view.emb (ix2 p k)) = _
  refine congrArg _ (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

theorem blk1_apply (c : Dev nD) (t : Fin cfg2.N) (k : Fin 128) :
    iblk2 V c 1 t (ix2 (0 : Fin 1) k) = (V c (Pipeline.arrRef spec2 1) : S1x128.Idx → EReal) (ix2 (0 : Fin 1) k) := by
  obtain ⟨-, -, e0, e1, -⟩ := idx_facts t
  show (V c (Pipeline.arrRef spec2 1) : S1x128.Idx → EReal) (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * k.val = k.val; omega

theorem blk2_apply (c : Dev nD) (t : Fin cfg2.N) (p : Fin 10000) (k : Fin 128) :
    iblk2 V c 2 t (ix2 p k) = (V c (Pipeline.arrRef spec2 2) : S100000x128.Idx → EReal) (ix2 (row t p) k) := by
  obtain ⟨-, -, -, -, e0, e1, -⟩ := idx_facts t
  show (V c (Pipeline.arrRef spec2 2) : S100000x128.Idx → EReal) (((cfg2.win 2).blk t).view.emb (ix2 p k)) = _
  refine congrArg _ (funext fun a => Fin.ext ?_)
  match a with
  | ⟨0, _⟩ => show win2_2.index t (0 : Fin 2) * 10000 + 1 * p.val = t.val * 10000 + p.val; omega
  | ⟨1, _⟩ => show win2_2.index t (1 : Fin 2) * 128 + 1 * k.val = k.val; omega

theorem blk3_apply (c : Dev nD) (t : Fin cfg2.N) (k : Fin 128) (q : Fin 128) :
    iblk2 V c 3 t (ix2 k q) = (V c (Pipeline.arrRef spec2 3) : S128x128.Idx → EReal) (ix2 k q) := by
  obtain ⟨-, -, -, -, -, -, e0, e1, -⟩ := idx_facts t
  show (V c (Pipeline.arrRef spec2 3) : S128x128.Idx → EReal) (((cfg2.win 3).blk t).view.emb (ix2 k q)) = _
  refine congrArg _ (funext fun a => Fin.ext ?_)
  match a with
  | ⟨0, _⟩ => show win2_3.index t (0 : Fin 2) * 128 + 1 * k.val = k.val; omega
  | ⟨1, _⟩ => show win2_3.index t (1 : Fin 2) * 128 + 1 * q.val = q.val; omega

/-! ## What each point writes back -/

/-- Point `t` writes back block `t` of the reference's output features of the region's input arrays. -/
theorem flushed_x (c : Dev nD) (t : Fin cfg2.N) :
    (dat2 (F := Ideal) V c).flushed 4 t = ((cfg2.win 4).blk t).view.read (Elt Ideal)
      (Cert.RefOps.brnX (V c (Pipeline.arrRef spec2 0)) (V c (Pipeline.arrRef spec2 1)) (V c (Pipeline.arrRef spec2 2))) := by
  show (cfg2.win 4).cut (grid2.coords t) ((dat2 V c).after 4 t) = _
  rw [after2_4]
  unfold out2_4
  rw [View.canon_unit_zero hz]
  simp only [View.ld_unit_zero (S := S10000x128) hz, View.ld_unit_zero (S := S1x128) hz]
  obtain ⟨-, -, -, -, -, -, -, -, e0, e1, -⟩ := idx_facts t
  funext j
  obtain ⟨p, q, rfl⟩ : ∃ (p : Fin 10000) (q : Fin 128), j = ix2 p q := ⟨j 0, j 1, eq_ix2 j⟩
  have hemb : ((cfg2.win 4).blk t).view.emb (ix2 p q) = (ix2 (row t p) q : S100000x128.Idx) := by
    funext a; apply Fin.ext
    match a with
    | ⟨0, _⟩ => show win2_4.index t (0 : Fin 2) * 10000 + 1 * p.val = t.val * 10000 + p.val; omega
    | ⟨1, _⟩ => show win2_4.index t (1 : Fin 2) * 128 + 1 * q.val = q.val; omega
  show Gen.k2_pay1 (F := Ideal) (iblk2 V c 0 t) (iblk2 V c 1 t) (iblk2 V c 2 t) (ix2 p q)
    = Cert.RefOps.brnX (V c (Pipeline.arrRef spec2 0)) (V c (Pipeline.arrRef spec2 1)) (V c (Pipeline.arrRef spec2 2))
        (((cfg2.win 4).blk t).view.emb (ix2 p q))
  rw [hemb]
  refine (pay_feat_apply _ _ _ p q).trans (Eq.trans ?_ (brnX_apply _ _ _ (row t p) q).symm)
  exact feat_congr (fun k => blk0_apply V c t p k) (fun k => blk1_apply V c t k) q (blk2_apply V c t p q)

/-- Point `t` writes back block `t` of the reference's product of the region's input arrays. -/
theorem flushed_h (c : Dev nD) (t : Fin cfg2.N) :
    (dat2 (F := Ideal) V c).flushed 5 t = ((cfg2.win 5).blk t).view.read (Elt Ideal)
      (Cert.RefOps.brnH (V c (Pipeline.arrRef spec2 0)) (V c (Pipeline.arrRef spec2 1)) (V c (Pipeline.arrRef spec2 2))
        (V c (Pipeline.arrRef spec2 3))) := by
  show (cfg2.win 5).cut (grid2.coords t) ((dat2 V c).after 5 t) = _
  rw [after2_5]
  unfold out2_5
  rw [View.canon_unit_zero hz]
  simp only [View.ld_unit_zero (S := S10000x128) hz, View.ld_unit_zero (S := S1x128) hz, View.ld_unit_zero (S := S128x128) hz]
  obtain ⟨-, -, -, -, -, -, -, -, -, -, e0, e1⟩ := idx_facts t
  funext j
  obtain ⟨p, q, rfl⟩ : ∃ (p : Fin 10000) (q : Fin 128), j = ix2 p q := ⟨j 0, j 1, eq_ix2 j⟩
  have hemb : ((cfg2.win 5).blk t).view.emb (ix2 p q) = (ix2 (row t p) q : S100000x128.Idx) := by
    funext a; apply Fin.ext
    match a with
    | ⟨0, _⟩ => show win2_5.index t (0 : Fin 2) * 10000 + 1 * p.val = t.val * 10000 + p.val; omega
    | ⟨1, _⟩ => show win2_5.index t (1 : Fin 2) * 128 + 1 * q.val = q.val; omega
  show Gen.k2_pay2 (F := Ideal) (iblk2 V c 0 t) (iblk2 V c 1 t) (iblk2 V c 2 t) (iblk2 V c 3 t) (ix2 p q)
    = Cert.RefOps.brnH (V c (Pipeline.arrRef spec2 0)) (V c (Pipeline.arrRef spec2 1)) (V c (Pipeline.arrRef spec2 2))
        (V c (Pipeline.arrRef spec2 3)) (((cfg2.win 5).blk t).view.emb (ix2 p q))
  rw [hemb]
  refine (pay_featDot_apply _ _ _ _ p q).trans (Eq.trans ?_ (brnH_apply _ _ _ _ (row t p) q).symm)
  exact featDot_congr (fun k => blk0_apply V c t p k) (fun k => blk1_apply V c t k) (fun k => blk2_apply V c t p k) q
    (fun k => blk3_apply V c t k q)

/-! ## The blocks cover the arrays -/

/-- An index of the feature array is in point `t`'s block iff each coordinate is in the block's range on its axis. -/
theorem mem_blk_x (t : Fin cfg2.N) (i : S100000x128.Idx) :
    i ∈ ((cfg2.win 4).blk t).view.set ↔ ∀ a : Fin 2, win2_4.index t a * S10000x128.size a ≤ (i a).val
      ∧ (i a).val < win2_4.index t a * S10000x128.size a + S10000x128.size a := by
  show i ∈ ((View.whole main_v72_0).slice (win2_4.rect t)).set ↔ _
  rw [View.set_slice_whole, Rect.mem_set_unit]
  exact Iff.rfl

/-- The same for the product array. -/
theorem mem_blk_h (t : Fin cfg2.N) (i : S100000x128.Idx) :
    i ∈ ((cfg2.win 5).blk t).view.set ↔ ∀ a : Fin 2, win2_5.index t a * S10000x128.size a ≤ (i a).val
      ∧ (i a).val < win2_5.index t a * S10000x128.size a + S10000x128.size a := by
  show i ∈ ((View.whole main_v72_1).slice (win2_5.rect t)).set ↔ _
  rw [View.set_slice_whole, Rect.mem_set_unit]
  exact Iff.rfl

/-- Row `r` of the feature array lies in the block of point `r / 10000`. -/
theorem cover_x (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 10 := N_2
  let t : Fin cfg2.N := ⟨(i 0).val / 10000, by omega⟩
  obtain ⟨-, -, -, -, -, -, -, -, e0, e1, -⟩ := idx_facts t
  have ht : t.val = (i 0).val / 10000 := rfl
  refine ⟨t, flush2_4 t, ?_⟩
  rw [mem_blk_x]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 128 ≤ (i 1).val ∧ (i 1).val < win2_4.index t (1 : Fin 2) * 128 + 128; omega

/-- Row `r` of the product array lies in the block of point `r / 10000`. -/
theorem cover_h (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 10 := N_2
  let t : Fin cfg2.N := ⟨(i 0).val / 10000, by omega⟩
  obtain ⟨-, -, -, -, -, -, -, -, -, -, e0, e1⟩ := idx_facts t
  have ht : t.val = (i 0).val / 10000 := rfl
  refine ⟨t, flush2_5 t, ?_⟩
  rw [mem_blk_h]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

end Cert.RegionBlock.R2

/-! ## The arrays after the region -/

namespace Cert.RegionBlock

open Cert.KernelIdeal Cert.KernelIdeal.Gen Idealize.ShloMosaic Idealize.ShloMosaic.TcCoe Idealize.SL.Sem

/-- The feature array after region 2 is the reference's output features of the region's input arrays. -/
theorem region2_x (V : (c : Dev nD) → (b : Ref sig .tc) → Buf (Elt Ideal) ((c : Thread nD τ).loc b)) (c : Dev nD) :
    (dat2 (F := Ideal) V c).arrAt 4 cfg2.N
      = Cert.RefOps.brnX (V c (Pipeline.arrRef spec2 0)) (V c (Pipeline.arrRef spec2 1)) (V c (Pipeline.arrRef spec2 2)) :=
  (dat2 (F := Ideal) V c).arrAt_eq_of_cover 4 _ (fun t _ => R2.flushed_x V c t) R2.cover_x

/-- The product array after region 2 is the reference's product of the region's input arrays. -/
theorem region2_h (V : (c : Dev nD) → (b : Ref sig .tc) → Buf (Elt Ideal) ((c : Thread nD τ).loc b)) (c : Dev nD) :
    (dat2 (F := Ideal) V c).arrAt 5 cfg2.N
      = Cert.RefOps.brnH (V c (Pipeline.arrRef spec2 0)) (V c (Pipeline.arrRef spec2 1)) (V c (Pipeline.arrRef spec2 2))
          (V c (Pipeline.arrRef spec2 3)) :=
  (dat2 (F := Ideal) V c).arrAt_eq_of_cover 5 _ (fun t _ => R2.flushed_h V c t) R2.cover_h

end Cert.RegionBlock

end
-- ==== Proof.RegionBlock4.lean ====
/-
  The end-of-block region 4: its two output arrays after the region are the reference's whole-array functions of the
  region's input arrays.

  The region's grid has ten points.  Point `t` fetches rows `10000·t … 10000·t + 9999` of the aggregated rows and of the
  identity rows, the whole bias row and the whole weight, and writes back the same rows of the two outputs.  Both
  outputs are row-wise: entry `(r, q)` of the output features reads row `r` of the two row inputs and the bias row, and
  entry `(r, q)` of the product reads column `q` of the weight besides.  So block `t` of each output is the restriction
  of the whole-array function to the rows of block `t`; row `r` lies in the block of point `r / 10000`, so the ten
  blocks cover the array, and the array ends at the whole-array function.
-/
import proofs.«147806_j25666724560908_2_alg».proof.Proof.Gen.KernelIdeal.Frame
import proofs.«147806_j25666724560908_2_alg».proof.Proof.RegionBlockRef
import Idealize.ShloMosaic.Lib.Pipeline.Value
import Idealize.ShloMosaic.Lib.ValueIdx

noncomputable section

namespace Cert.RegionBlock.R4

open Cert.KernelIdeal Cert.KernelIdeal.Gen Idealize.ShloMosaic Idealize.ShloMosaic.TcCoe Idealize.SL.Sem
open Idealize.ShloMosaic.Pipeline (Dat)
open Idealize.ShloMosaic.ValueIdx
open Cert.RegionBlock

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: the row windows sit at block `t` of the rows, the bias row and the weight at
    their one block. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Row `p` of block `t` is row `10000·t + p` of the array. -/
def row (t : Fin cfg4.N) (p : Fin 10000) : Fin 100000 :=
  ⟨t.val * 10000 + p.val, by have := t.isLt; have hN : cfg4.N = 10 := N_4; have := p.isLt; omega⟩

/-! ## The input blocks, read where the output's rows are -/

theorem blk0_apply (c : Dev nD) (t : Fin cfg4.N) (p : Fin 10000) (k : Fin 128) :
    iblk4 V c 0 t (ix2 p k) = (V c (Pipeline.arrRef spec4 0) : S100000x128.Idx → EReal) (ix2 (row t p) k) := by
  obtain ⟨e0, e1, -⟩ := idx_facts t
  show (V c (Pipeline.arrRef spec4 0) : S100000x128.Idx → EReal) (((cfg4.win 0).blk t).view.emb (ix2 p k)) = _
  refine congrArg _ (funext fun a => Fin.ext ?_)
  match a with
  | ⟨0, _⟩ => show win4_0.index t (0 : Fin 2) * 10000 + 1 * p.val = t.val * 10000 + p.val; omega
  | ⟨1, _⟩ => show win4_0.index t (1 : Fin 2) * 128 + 1 * k.val = k.val; omega

theorem blk1_apply (c : Dev nD) (t : Fin cfg4.N) (k : Fin 128) :
    iblk4 V c 1 t (ix2 (0 : Fin 1) k) = (V c (Pipeline.arrRef spec4 1) : S1x128.Idx → EReal) (ix2 (0 : Fin 1) k) := by
  obtain ⟨-, -, e0, e1, -⟩ := idx_facts t
  show (V c (Pipeline.arrRef spec4 1) : S1x128.Idx → EReal) (((cfg4.win 1).blk t).view.emb (ix2 (0 : Fin 1) k)) = _
  refine congrArg _ (funext fun a => Fin.ext ?_)
  match a with
  | ⟨0, _⟩ => show win4_1.index t (0 : Fin 2) * 1 + 1 * 0 = 0; omega
  | ⟨1, _⟩ => show win4_1.index t (1 : Fin 2) * 128 + 1 * k.val = k.val; omega

theorem blk2_apply (c : Dev nD) (t : Fin cfg4.N) (p : Fin 10000) (k : Fin 128) :
    iblk4 V c 2 t (ix2 p k) = (V c (Pipeline.arrRef spec4 2) : S100000x128.Idx → EReal) (ix2 (row t p) k) := by
  obtain ⟨-, -, -, -, e0, e1, -⟩ := idx_facts t
  show (V c (Pipeline.arrRef spec4 2) : S100000x128.Idx → EReal) (((cfg4.win 2).blk t).view.emb (ix2 p k)) = _
  refine congrArg _ (funext fun a => Fin.ext ?_)
  match a with
  | ⟨0, _⟩ => show win4_2.index t (0 : Fin 2) * 10000 + 1 * p.val = t.val * 10000 + p.val; omega
  | ⟨1, _⟩ => show win4_2.index t (1 : Fin 2) * 128 + 1 * k.val = k.val; omega

theorem blk3_apply (c : Dev nD) (t : Fin cfg4.N) (k : Fin 128) (q : Fin 128) :
    iblk4 V c 3 t (ix2 k q) = (V c (Pipeline.arrRef spec4 3) : S128x128.Idx → EReal) (ix2 k q) := by
  obtain ⟨-, -, -, -, -, -, e0, e1, -⟩ := idx_facts t
  show (V c (Pipeline.arrRef spec4 3) : S128x128.Idx → EReal) (((cfg4.win 3).blk t).view.emb (ix2 k q)) = _
  refine congrArg _ (funext fun a => Fin.ext ?_)
  match a with
  | ⟨0, _⟩ => show win4_3.index t (0 : Fin 2) * 128 + 1 * k.val = k.val; omega
  | ⟨1, _⟩ => show win4_3.index t (1 : Fin 2) * 128 + 1 * q.val = q.val; omega

/-! ## What each point writes back -/

/-- Point `t` writes back block `t` of the reference's output features of the region's input arrays. -/
theorem flushed_x (c : Dev nD) (t : Fin cfg4.N) :
    (dat4 (F := Ideal) V c).flushed 4 t = ((cfg4.win 4).blk t).view.read (Elt Ideal)
      (Cert.RefOps.brnX (V c (Pipeline.arrRef spec4 0)) (V c (Pipeline.arrRef spec4 1)) (V c (Pipeline.arrRef spec4 2))) := by
  show (cfg4.win 4).cut (grid4.coords t) ((dat4 V c).after 4 t) = _
  rw [after4_4]
  unfold out4_4
  rw [View.canon_unit_zero hz]
  simp only [View.ld_unit_zero (S := S10000x128) hz, View.ld_unit_zero (S := S1x128) hz]
  obtain ⟨-, -, -, -, -, -, -, -, e0, e1, -⟩ := idx_facts t
  funext j
  obtain ⟨p, q, rfl⟩ : ∃ (p : Fin 10000) (q : Fin 128), j = ix2 p q := ⟨j 0, j 1, eq_ix2 j⟩
  have hemb : ((cfg4.win 4).blk t).view.emb (ix2 p q) = (ix2 (row t p) q : S100000x128.Idx) := by
    funext a; apply Fin.ext
    match a with
    | ⟨0, _⟩ => show win4_4.index t (0 : Fin 2) * 10000 + 1 * p.val = t.val * 10000 + p.val; omega
    | ⟨1, _⟩ => show win4_4.index t (1 : Fin 2) * 128 + 1 * q.val = q.val; omega
  show Gen.k4_pay1 (F := Ideal) (iblk4 V c 0 t) (iblk4 V c 1 t) (iblk4 V c 2 t) (ix2 p q)
    = Cert.RefOps.brnX (V c (Pipeline.arrRef spec4 0)) (V c (Pipeline.arrRef spec4 1)) (V c (Pipeline.arrRef spec4 2))
        (((cfg4.win 4).blk t).view.emb (ix2 p q))
  rw [hemb]
  rw [pay4_feat_eq]
  refine (pay_feat_apply _ _ _ p q).trans (Eq.trans ?_ (brnX_apply _ _ _ (row t p) q).symm)
  exact feat_congr (fun k => blk0_apply V c t p k) (fun k => blk1_apply V c t k) q (blk2_apply V c t p q)

/-- Point `t` writes back block `t` of the reference's product of the region's input arrays. -/
theorem flushed_h (c : Dev nD) (t : Fin cfg4.N) :
    (dat4 (F := Ideal) V c).flushed 5 t = ((cfg4.win 5).blk t).view.read (Elt Ideal)
      (Cert.RefOps.brnH (V c (Pipeline.arrRef spec4 0)) (V c (Pipeline.arrRef spec4 1)) (V c (Pipeline.arrRef spec4 2))
        (V c (Pipeline.arrRef spec4 3))) := by
  show (cfg4.win 5).cut (grid4.coords t) ((dat4 V c).after 5 t) = _
  rw [after4_5]
  unfold out4_5
  rw [View.canon_unit_zero hz]
  simp only [View.ld_unit_zero (S := S10000x128) hz, View.ld_unit_zero (S := S1x128) hz, View.ld_unit_zero (S := S128x128) hz]
  obtain ⟨-, -, -, -, -, -, -, -, -, -, e0, e1⟩ := idx_facts t
  funext j
  obtain ⟨p, q, rfl⟩ : ∃ (p : Fin 10000) (q : Fin 128), j = ix2 p q := ⟨j 0, j 1, eq_ix2 j⟩
  have hemb : ((cfg4.win 5).blk t).view.emb (ix2 p q) = (ix2 (row t p) q : S100000x128.Idx) := by
    funext a; apply Fin.ext
    match a with
    | ⟨0, _⟩ => show win4_5.index t (0 : Fin 2) * 10000 + 1 * p.val = t.val * 10000 + p.val; omega
    | ⟨1, _⟩ => show win4_5.index t (1 : Fin 2) * 128 + 1 * q.val = q.val; omega
  show Gen.k4_pay2 (F := Ideal) (iblk4 V c 0 t) (iblk4 V c 1 t) (iblk4 V c 2 t) (iblk4 V c 3 t) (ix2 p q)
    = Cert.RefOps.brnH (V c (Pipeline.arrRef spec4 0)) (V c (Pipeline.arrRef spec4 1)) (V c (Pipeline.arrRef spec4 2))
        (V c (Pipeline.arrRef spec4 3)) (((cfg4.win 5).blk t).view.emb (ix2 p q))
  rw [hemb]
  refine (pay4_featDot_apply _ _ _ _ p q).trans (Eq.trans ?_ (brnH_apply _ _ _ _ (row t p) q).symm)
  exact featDot_congr (fun k => blk0_apply V c t p k) (fun k => blk1_apply V c t k) (fun k => blk2_apply V c t p k) q
    (fun k => blk3_apply V c t k q)

/-! ## The blocks cover the arrays -/

/-- An index of the feature array is in point `t`'s block iff each coordinate is in the block's range on its axis. -/
theorem mem_blk_x (t : Fin cfg4.N) (i : S100000x128.Idx) :
    i ∈ ((cfg4.win 4).blk t).view.set ↔ ∀ a : Fin 2, win4_4.index t a * S10000x128.size a ≤ (i a).val
      ∧ (i a).val < win4_4.index t a * S10000x128.size a + S10000x128.size a := by
  show i ∈ ((View.whole main_v110_0).slice (win4_4.rect t)).set ↔ _
  rw [View.set_slice_whole, Rect.mem_set_unit]
  exact Iff.rfl

/-- The same for the product array. -/
theorem mem_blk_h (t : Fin cfg4.N) (i : S100000x128.Idx) :
    i ∈ ((cfg4.win 5).blk t).view.set ↔ ∀ a : Fin 2, win4_5.index t a * S10000x128.size a ≤ (i a).val
      ∧ (i a).val < win4_5.index t a * S10000x128.size a + S10000x128.size a := by
  show i ∈ ((View.whole main_v110_1).slice (win4_5.rect t)).set ↔ _
  rw [View.set_slice_whole, Rect.mem_set_unit]
  exact Iff.rfl

/-- Row `r` of the feature array lies in the block of point `r / 10000`. -/
theorem cover_x (i : S100000x128.Idx) :
    ∃ t : Fin cfg4.N, (cfg4.win 4).flush t = true ∧ i ∈ ((cfg4.win 4).blk t).view.set := by
  have hi0 : (i 0).val < 100000 := (i 0).isLt
  have hi1 : (i 1).val < 128 := (i 1).isLt
  have hN : cfg4.N = 10 := N_4
  let t : Fin cfg4.N := ⟨(i 0).val / 10000, by omega⟩
  obtain ⟨-, -, -, -, -, -, -, -, e0, e1, -⟩ := idx_facts t
  have ht : t.val = (i 0).val / 10000 := rfl
  refine ⟨t, flush4_4 t, ?_⟩
  rw [mem_blk_x]
  intro a
  match a with
  | ⟨0, _⟩ => show win4_4.index t (0 : Fin 2) * 10000 ≤ (i 0).val ∧ (i 0).val < win4_4.index t (0 : Fin 2) * 10000 + 10000; omega
  | ⟨1, _⟩ => show win4_4.index t (1 : Fin 2) * 128 ≤ (i 1).val ∧ (i 1).val < win4_4.index t (1 : Fin 2) * 128 + 128; omega

/-- Row `r` of the product array lies in the block of point `r / 10000`. -/
theorem cover_h (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 10 := N_4
  let t : Fin cfg4.N := ⟨(i 0).val / 10000, by omega⟩
  obtain ⟨-, -, -, -, -, -, -, -, -, -, e0, e1⟩ := idx_facts t
  have ht : t.val = (i 0).val / 10000 := rfl
  refine ⟨t, flush4_5 t, ?_⟩
  rw [mem_blk_h]
  intro a
  match a with
  | ⟨0, _⟩ => show win4_5.index t (0 : Fin 2) * 10000 ≤ (i 0).val ∧ (i 0).val < win4_5.index t (0 : Fin 2) * 10000 + 10000; omega
  | ⟨1, _⟩ => show win4_5.index t (1 : Fin 2) * 128 ≤ (i 1).val ∧ (i 1).val < win4_5.index t (1 : Fin 2) * 128 + 128; omega

end Cert.RegionBlock.R4

/-! ## The arrays after the region -/

namespace Cert.RegionBlock

open Cert.KernelIdeal Cert.KernelIdeal.Gen Idealize.ShloMosaic Idealize.ShloMosaic.TcCoe Idealize.SL.Sem

/-- The feature array after region 4 is the reference's output features of the region's input arrays. -/
theorem region4_x (V : (c : Dev nD) → (b : Ref sig .tc) → Buf (Elt Ideal) ((c : Thread nD τ).loc b)) (c : Dev nD) :
    (dat4 (F := Ideal) V c).arrAt 4 cfg4.N
      = Cert.RefOps.brnX (V c (Pipeline.arrRef spec4 0)) (V c (Pipeline.arrRef spec4 1)) (V c (Pipeline.arrRef spec4 2)) :=
  (dat4 (F := Ideal) V c).arrAt_eq_of_cover 4 _ (fun t _ => R4.flushed_x V c t) R4.cover_x

/-- The product array after region 4 is the reference's product of the region's input arrays. -/
theorem region4_h (V : (c : Dev nD) → (b : Ref sig .tc) → Buf (Elt Ideal) ((c : Thread nD τ).loc b)) (c : Dev nD) :
    (dat4 (F := Ideal) V c).arrAt 5 cfg4.N
      = Cert.RefOps.brnH (V c (Pipeline.arrRef spec4 0)) (V c (Pipeline.arrRef spec4 1)) (V c (Pipeline.arrRef spec4 2))
          (V c (Pipeline.arrRef spec4 3)) :=
  (dat4 (F := Ideal) V c).arrAt_eq_of_cover 5 _ (fun t _ => R4.flushed_h V c t) R4.cover_h

end Cert.RegionBlock

end
-- ==== Proof.RegionBlock6.lean ====
/-
  The end-of-block region 6: its two output arrays after the region are the reference's whole-array functions of the
  region's input arrays.

  The region's grid has ten points.  Point `t` fetches rows `10000·t … 10000·t + 9999` of the aggregated rows and of the
  identity rows, the whole bias row and the whole weight, and writes back the same rows of the two outputs.  Both
  outputs are row-wise: entry `(r, q)` of the output features reads row `r` of the two row inputs and the bias row, and
  entry `(r, q)` of the product reads column `q` of the weight besides.  So block `t` of each output is the restriction
  of the whole-array function to the rows of block `t`; row `r` lies in the block of point `r / 10000`, so the ten
  blocks cover the array, and the array ends at the whole-array function.
-/
import proofs.«147806_j25666724560908_2_alg».proof.Proof.Gen.KernelIdeal.Frame
import proofs.«147806_j25666724560908_2_alg».proof.Proof.RegionBlockRef
import Idealize.ShloMosaic.Lib.Pipeline.Value
import Idealize.ShloMosaic.Lib.ValueIdx

noncomputable section

namespace Cert.RegionBlock.R6

open Cert.KernelIdeal Cert.KernelIdeal.Gen Idealize.ShloMosaic Idealize.ShloMosaic.TcCoe Idealize.SL.Sem
open Idealize.ShloMosaic.Pipeline (Dat)
open Idealize.ShloMosaic.ValueIdx
open Cert.RegionBlock

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: the row windows sit at block `t` of the rows, the bias row and the weight at
    their one block. -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0
    ∧ win6_5.index t (0 : Fin 2) = t.val ∧ win6_5.index t (1 : Fin 2) = 0 :=
  (by decide +kernel : ∀ t : Fin grid6.N, _)

/-- Row `p` of block `t` is row `10000·t + p` of the array. -/
def row (t : Fin cfg6.N) (p : Fin 10000) : Fin 100000 :=
  ⟨t.val * 10000 + p.val, by have := t.isLt; have hN : cfg6.N = 10 := N_6; have := p.isLt; omega⟩

/-! ## The input blocks, read where the output's rows are -/

theorem blk0_apply (c : Dev nD) (t : Fin cfg6.N) (p : Fin 10000) (k : Fin 128) :
    iblk6 V c 0 t (ix2 p k) = (V c (Pipeline.arrRef spec6 0) : S100000x128.Idx → EReal) (ix2 (row t p) k) := by
  obtain ⟨e0, e1, -⟩ := idx_facts t
  show (V c (Pipeline.arrRef spec6 0) : S100000x128.Idx → EReal) (((cfg6.win 0).blk t).view.emb (ix2 p k)) = _
  refine congrArg _ (funext fun a => Fin.ext ?_)
  match a with
  | ⟨0, _⟩ => show win6_0.index t (0 : Fin 2) * 10000 + 1 * p.val = t.val * 10000 + p.val; omega
  | ⟨1, _⟩ => show win6_0.index t (1 : Fin 2) * 128 + 1 * k.val = k.val; omega

theorem blk1_apply (c : Dev nD) (t : Fin cfg6.N) (k : Fin 128) :
    iblk6 V c 1 t (ix2 (0 : Fin 1) k) = (V c (Pipeline.arrRef spec6 1) : S1x128.Idx → EReal) (ix2 (0 : Fin 1) k) := by
  obtain ⟨-, -, e0, e1, -⟩ := idx_facts t
  show (V c (Pipeline.arrRef spec6 1) : S1x128.Idx → EReal) (((cfg6.win 1).blk t).view.emb (ix2 (0 : Fin 1) k)) = _
  refine congrArg _ (funext fun a => Fin.ext ?_)
  match a with
  | ⟨0, _⟩ => show win6_1.index t (0 : Fin 2) * 1 + 1 * 0 = 0; omega
  | ⟨1, _⟩ => show win6_1.index t (1 : Fin 2) * 128 + 1 * k.val = k.val; omega

theorem blk2_apply (c : Dev nD) (t : Fin cfg6.N) (p : Fin 10000) (k : Fin 128) :
    iblk6 V c 2 t (ix2 p k) = (V c (Pipeline.arrRef spec6 2) : S100000x128.Idx → EReal) (ix2 (row t p) k) := by
  obtain ⟨-, -, -, -, e0, e1, -⟩ := idx_facts t
  show (V c (Pipeline.arrRef spec6 2) : S100000x128.Idx → EReal) (((cfg6.win 2).blk t).view.emb (ix2 p k)) = _
  refine congrArg _ (funext fun a => Fin.ext ?_)
  match a with
  | ⟨0, _⟩ => show win6_2.index t (0 : Fin 2) * 10000 + 1 * p.val = t.val * 10000 + p.val; omega
  | ⟨1, _⟩ => show win6_2.index t (1 : Fin 2) * 128 + 1 * k.val = k.val; omega

theorem blk3_apply (c : Dev nD) (t : Fin cfg6.N) (k : Fin 128) (q : Fin 128) :
    iblk6 V c 3 t (ix2 k q) = (V c (Pipeline.arrRef spec6 3) : S128x128.Idx → EReal) (ix2 k q) := by
  obtain ⟨-, -, -, -, -, -, e0, e1, -⟩ := idx_facts t
  show (V c (Pipeline.arrRef spec6 3) : S128x128.Idx → EReal) (((cfg6.win 3).blk t).view.emb (ix2 k q)) = _
  refine congrArg _ (funext fun a => Fin.ext ?_)
  match a with
  | ⟨0, _⟩ => show win6_3.index t (0 : Fin 2) * 128 + 1 * k.val = k.val; omega
  | ⟨1, _⟩ => show win6_3.index t (1 : Fin 2) * 128 + 1 * q.val = q.val; omega

/-! ## What each point writes back -/

/-- Point `t` writes back block `t` of the reference's output features of the region's input arrays. -/
theorem flushed_x (c : Dev nD) (t : Fin cfg6.N) :
    (dat6 (F := Ideal) V c).flushed 4 t = ((cfg6.win 4).blk t).view.read (Elt Ideal)
      (Cert.RefOps.brnX (V c (Pipeline.arrRef spec6 0)) (V c (Pipeline.arrRef spec6 1)) (V c (Pipeline.arrRef spec6 2))) := by
  show (cfg6.win 4).cut (grid6.coords t) ((dat6 V c).after 4 t) = _
  rw [after6_4]
  unfold out6_4
  rw [View.canon_unit_zero hz]
  simp only [View.ld_unit_zero (S := S10000x128) hz, View.ld_unit_zero (S := S1x128) hz]
  obtain ⟨-, -, -, -, -, -, -, -, e0, e1, -⟩ := idx_facts t
  funext j
  obtain ⟨p, q, rfl⟩ : ∃ (p : Fin 10000) (q : Fin 128), j = ix2 p q := ⟨j 0, j 1, eq_ix2 j⟩
  have hemb : ((cfg6.win 4).blk t).view.emb (ix2 p q) = (ix2 (row t p) q : S100000x128.Idx) := by
    funext a; apply Fin.ext
    match a with
    | ⟨0, _⟩ => show win6_4.index t (0 : Fin 2) * 10000 + 1 * p.val = t.val * 10000 + p.val; omega
    | ⟨1, _⟩ => show win6_4.index t (1 : Fin 2) * 128 + 1 * q.val = q.val; omega
  show Gen.k6_pay1 (F := Ideal) (iblk6 V c 0 t) (iblk6 V c 1 t) (iblk6 V c 2 t) (ix2 p q)
    = Cert.RefOps.brnX (V c (Pipeline.arrRef spec6 0)) (V c (Pipeline.arrRef spec6 1)) (V c (Pipeline.arrRef spec6 2))
        (((cfg6.win 4).blk t).view.emb (ix2 p q))
  rw [hemb]
  rw [pay6_feat_eq]
  refine (pay_feat_apply _ _ _ p q).trans (Eq.trans ?_ (brnX_apply _ _ _ (row t p) q).symm)
  exact feat_congr (fun k => blk0_apply V c t p k) (fun k => blk1_apply V c t k) q (blk2_apply V c t p q)

/-- Point `t` writes back block `t` of the reference's product of the region's input arrays. -/
theorem flushed_h (c : Dev nD) (t : Fin cfg6.N) :
    (dat6 (F := Ideal) V c).flushed 5 t = ((cfg6.win 5).blk t).view.read (Elt Ideal)
      (Cert.RefOps.brnH (V c (Pipeline.arrRef spec6 0)) (V c (Pipeline.arrRef spec6 1)) (V c (Pipeline.arrRef spec6 2))
        (V c (Pipeline.arrRef spec6 3))) := by
  show (cfg6.win 5).cut (grid6.coords t) ((dat6 V c).after 5 t) = _
  rw [after6_5]
  unfold out6_5
  rw [View.canon_unit_zero hz]
  simp only [View.ld_unit_zero (S := S10000x128) hz, View.ld_unit_zero (S := S1x128) hz, View.ld_unit_zero (S := S128x128) hz]
  obtain ⟨-, -, -, -, -, -, -, -, -, -, e0, e1⟩ := idx_facts t
  funext j
  obtain ⟨p, q, rfl⟩ : ∃ (p : Fin 10000) (q : Fin 128), j = ix2 p q := ⟨j 0, j 1, eq_ix2 j⟩
  have hemb : ((cfg6.win 5).blk t).view.emb (ix2 p q) = (ix2 (row t p) q : S100000x128.Idx) := by
    funext a; apply Fin.ext
    match a with
    | ⟨0, _⟩ => show win6_5.index t (0 : Fin 2) * 10000 + 1 * p.val = t.val * 10000 + p.val; omega
    | ⟨1, _⟩ => show win6_5.index t (1 : Fin 2) * 128 + 1 * q.val = q.val; omega
  show Gen.k6_pay2 (F := Ideal) (iblk6 V c 0 t) (iblk6 V c 1 t) (iblk6 V c 2 t) (iblk6 V c 3 t) (ix2 p q)
    = Cert.RefOps.brnH (V c (Pipeline.arrRef spec6 0)) (V c (Pipeline.arrRef spec6 1)) (V c (Pipeline.arrRef spec6 2))
        (V c (Pipeline.arrRef spec6 3)) (((cfg6.win 5).blk t).view.emb (ix2 p q))
  rw [hemb]
  refine (pay6_featDot_apply _ _ _ _ p q).trans (Eq.trans ?_ (brnH_apply _ _ _ _ (row t p) q).symm)
  exact featDot_congr (fun k => blk0_apply V c t p k) (fun k => blk1_apply V c t k) (fun k => blk2_apply V c t p k) q
    (fun k => blk3_apply V c t k q)

/-! ## The blocks cover the arrays -/

/-- An index of the feature array is in point `t`'s block iff each coordinate is in the block's range on its axis. -/
theorem mem_blk_x (t : Fin cfg6.N) (i : S100000x128.Idx) :
    i ∈ ((cfg6.win 4).blk t).view.set ↔ ∀ a : Fin 2, win6_4.index t a * S10000x128.size a ≤ (i a).val
      ∧ (i a).val < win6_4.index t a * S10000x128.size a + S10000x128.size a := by
  show i ∈ ((View.whole main_v148_0).slice (win6_4.rect t)).set ↔ _
  rw [View.set_slice_whole, Rect.mem_set_unit]
  exact Iff.rfl

/-- The same for the product array. -/
theorem mem_blk_h (t : Fin cfg6.N) (i : S100000x128.Idx) :
    i ∈ ((cfg6.win 5).blk t).view.set ↔ ∀ a : Fin 2, win6_5.index t a * S10000x128.size a ≤ (i a).val
      ∧ (i a).val < win6_5.index t a * S10000x128.size a + S10000x128.size a := by
  show i ∈ ((View.whole main_v148_1).slice (win6_5.rect t)).set ↔ _
  rw [View.set_slice_whole, Rect.mem_set_unit]
  exact Iff.rfl

/-- Row `r` of the feature array lies in the block of point `r / 10000`. -/
theorem cover_x (i : S100000x128.Idx) :
    ∃ t : Fin cfg6.N, (cfg6.win 4).flush t = true ∧ i ∈ ((cfg6.win 4).blk t).view.set := by
  have hi0 : (i 0).val < 100000 := (i 0).isLt
  have hi1 : (i 1).val < 128 := (i 1).isLt
  have hN : cfg6.N = 10 := N_6
  let t : Fin cfg6.N := ⟨(i 0).val / 10000, by omega⟩
  obtain ⟨-, -, -, -, -, -, -, -, e0, e1, -⟩ := idx_facts t
  have ht : t.val = (i 0).val / 10000 := rfl
  refine ⟨t, flush6_4 t, ?_⟩
  rw [mem_blk_x]
  intro a
  match a with
  | ⟨0, _⟩ => show win6_4.index t (0 : Fin 2) * 10000 ≤ (i 0).val ∧ (i 0).val < win6_4.index t (0 : Fin 2) * 10000 + 10000; omega
  | ⟨1, _⟩ => show win6_4.index t (1 : Fin 2) * 128 ≤ (i 1).val ∧ (i 1).val < win6_4.index t (1 : Fin 2) * 128 + 128; omega

/-- Row `r` of the product array lies in the block of point `r / 10000`. -/
theorem cover_h (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  have hN : cfg6.N = 10 := N_6
  let t : Fin cfg6.N := ⟨(i 0).val / 10000, by omega⟩
  obtain ⟨-, -, -, -, -, -, -, -, -, -, e0, e1⟩ := idx_facts t
  have ht : t.val = (i 0).val / 10000 := rfl
  refine ⟨t, flush6_5 t, ?_⟩
  rw [mem_blk_h]
  intro a
  match a with
  | ⟨0, _⟩ => show win6_5.index t (0 : Fin 2) * 10000 ≤ (i 0).val ∧ (i 0).val < win6_5.index t (0 : Fin 2) * 10000 + 10000; omega
  | ⟨1, _⟩ => show win6_5.index t (1 : Fin 2) * 128 ≤ (i 1).val ∧ (i 1).val < win6_5.index t (1 : Fin 2) * 128 + 128; omega

end Cert.RegionBlock.R6

/-! ## The arrays after the region -/

namespace Cert.RegionBlock

open Cert.KernelIdeal Cert.KernelIdeal.Gen Idealize.ShloMosaic Idealize.ShloMosaic.TcCoe Idealize.SL.Sem

/-- The feature array after region 6 is the reference's output features of the region's input arrays. -/
theorem region6_x (V : (c : Dev nD) → (b : Ref sig .tc) → Buf (Elt Ideal) ((c : Thread nD τ).loc b)) (c : Dev nD) :
    (dat6 (F := Ideal) V c).arrAt 4 cfg6.N
      = Cert.RefOps.brnX (V c (Pipeline.arrRef spec6 0)) (V c (Pipeline.arrRef spec6 1)) (V c (Pipeline.arrRef spec6 2)) :=
  (dat6 (F := Ideal) V c).arrAt_eq_of_cover 4 _ (fun t _ => R6.flushed_x V c t) R6.cover_x

/-- The product array after region 6 is the reference's product of the region's input arrays. -/
theorem region6_h (V : (c : Dev nD) → (b : Ref sig .tc) → Buf (Elt Ideal) ((c : Thread nD τ).loc b)) (c : Dev nD) :
    (dat6 (F := Ideal) V c).arrAt 5 cfg6.N
      = Cert.RefOps.brnH (V c (Pipeline.arrRef spec6 0)) (V c (Pipeline.arrRef spec6 1)) (V c (Pipeline.arrRef spec6 2))
          (V c (Pipeline.arrRef spec6 3)) :=
  (dat6 (F := Ideal) V c).arrAt_eq_of_cover 5 _ (fun t _ => R6.flushed_h V c t) R6.cover_h

end Cert.RegionBlock

end
-- ==== Proof.RegionBlock8.lean ====
/-
  The end-of-block region 8: its two output arrays after the region are the reference's whole-array functions of the
  region's input arrays.

  The region's grid has ten points.  Point `t` fetches rows `10000·t … 10000·t + 9999` of the aggregated rows and of the
  identity rows, the whole bias row and the whole weight, and writes back the same rows of the two outputs.  Both
  outputs are row-wise: entry `(r, q)` of the output features reads row `r` of the two row inputs and the bias row, and
  entry `(r, q)` of the product reads column `q` of the weight besides.  So block `t` of each output is the restriction
  of the whole-array function to the rows of block `t`; row `r` lies in the block of point `r / 10000`, so the ten
  blocks cover the array, and the array ends at the whole-array function.
-/
import proofs.«147806_j25666724560908_2_alg».proof.Proof.Gen.KernelIdeal.Frame
import proofs.«147806_j25666724560908_2_alg».proof.Proof.RegionBlockRef
import Idealize.ShloMosaic.Lib.Pipeline.Value
import Idealize.ShloMosaic.Lib.ValueIdx

noncomputable section

namespace Cert.RegionBlock.R8

open Cert.KernelIdeal Cert.KernelIdeal.Gen Idealize.ShloMosaic Idealize.ShloMosaic.TcCoe Idealize.SL.Sem
open Idealize.ShloMosaic.Pipeline (Dat)
open Idealize.ShloMosaic.ValueIdx
open Cert.RegionBlock

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: the row windows sit at block `t` of the rows, the bias row and the weight at
    their one block. -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

/-- Row `p` of block `t` is row `10000·t + p` of the array. -/
def row (t : Fin cfg8.N) (p : Fin 10000) : Fin 100000 :=
  ⟨t.val * 10000 + p.val, by have := t.isLt; have hN : cfg8.N = 10 := N_8; have := p.isLt; omega⟩

/-! ## The input blocks, read where the output's rows are -/

theorem blk0_apply (c : Dev nD) (t : Fin cfg8.N) (p : Fin 10000) (k : Fin 128) :
    iblk8 V c 0 t (ix2 p k) = (V c (Pipeline.arrRef spec8 0) : S100000x128.Idx → EReal) (ix2 (row t p) k) := by
  obtain ⟨e0, e1, -⟩ := idx_facts t
  show (V c (Pipeline.arrRef spec8 0) : S100000x128.Idx → EReal) (((cfg8.win 0).blk t).view.emb (ix2 p k)) = _
  refine congrArg _ (funext fun a => Fin.ext ?_)
  match a with
  | ⟨0, _⟩ => show win8_0.index t (0 : Fin 2) * 10000 + 1 * p.val = t.val * 10000 + p.val; omega
  | ⟨1, _⟩ => show win8_0.index t (1 : Fin 2) * 128 + 1 * k.val = k.val; omega

theorem blk1_apply (c : Dev nD) (t : Fin cfg8.N) (k : Fin 128) :
    iblk8 V c 1 t (ix2 (0 : Fin 1) k) = (V c (Pipeline.arrRef spec8 1) : S1x128.Idx → EReal) (ix2 (0 : Fin 1) k) := by
  obtain ⟨-, -, e0, e1, -⟩ := idx_facts t
  show (V c (Pipeline.arrRef spec8 1) : S1x128.Idx → EReal) (((cfg8.win 1).blk t).view.emb (ix2 (0 : Fin 1) k)) = _
  refine congrArg _ (funext fun a => Fin.ext ?_)
  match a with
  | ⟨0, _⟩ => show win8_1.index t (0 : Fin 2) * 1 + 1 * 0 = 0; omega
  | ⟨1, _⟩ => show win8_1.index t (1 : Fin 2) * 128 + 1 * k.val = k.val; omega

theorem blk2_apply (c : Dev nD) (t : Fin cfg8.N) (p : Fin 10000) (k : Fin 128) :
    iblk8 V c 2 t (ix2 p k) = (V c (Pipeline.arrRef spec8 2) : S100000x128.Idx → EReal) (ix2 (row t p) k) := by
  obtain ⟨-, -, -, -, e0, e1, -⟩ := idx_facts t
  show (V c (Pipeline.arrRef spec8 2) : S100000x128.Idx → EReal) (((cfg8.win 2).blk t).view.emb (ix2 p k)) = _
  refine congrArg _ (funext fun a => Fin.ext ?_)
  match a with
  | ⟨0, _⟩ => show win8_2.index t (0 : Fin 2) * 10000 + 1 * p.val = t.val * 10000 + p.val; omega
  | ⟨1, _⟩ => show win8_2.index t (1 : Fin 2) * 128 + 1 * k.val = k.val; omega

theorem blk3_apply (c : Dev nD) (t : Fin cfg8.N) (k : Fin 128) (q : Fin 40) :
    iblk8 V c 3 t (ix2 k q) = (V c (Pipeline.arrRef spec8 3) : S128x40.Idx → EReal) (ix2 k q) := by
  obtain ⟨-, -, -, -, -, -, e0, e1, -⟩ := idx_facts t
  show (V c (Pipeline.arrRef spec8 3) : S128x40.Idx → EReal) (((cfg8.win 3).blk t).view.emb (ix2 k q)) = _
  refine congrArg _ (funext fun a => Fin.ext ?_)
  match a with
  | ⟨0, _⟩ => show win8_3.index t (0 : Fin 2) * 128 + 1 * k.val = k.val; omega
  | ⟨1, _⟩ => show win8_3.index t (1 : Fin 2) * 40 + 1 * q.val = q.val; omega

/-! ## What each point writes back -/

/-- Point `t` writes back block `t` of the reference's output features of the region's input arrays. -/
theorem flushed_x (c : Dev nD) (t : Fin cfg8.N) :
    (dat8 (F := Ideal) V c).flushed 4 t = ((cfg8.win 4).blk t).view.read (Elt Ideal)
      (Cert.RefOps.brnX (V c (Pipeline.arrRef spec8 0)) (V c (Pipeline.arrRef spec8 1)) (V c (Pipeline.arrRef spec8 2))) := by
  show (cfg8.win 4).cut (grid8.coords t) ((dat8 V c).after 4 t) = _
  rw [after8_4]
  unfold out8_4
  rw [View.canon_unit_zero hz]
  simp only [View.ld_unit_zero (S := S10000x128) hz, View.ld_unit_zero (S := S1x128) hz]
  obtain ⟨-, -, -, -, -, -, -, -, e0, e1, -⟩ := idx_facts t
  funext j
  obtain ⟨p, q, rfl⟩ : ∃ (p : Fin 10000) (q : Fin 128), j = ix2 p q := ⟨j 0, j 1, eq_ix2 j⟩
  have hemb : ((cfg8.win 4).blk t).view.emb (ix2 p q) = (ix2 (row t p) q : S100000x128.Idx) := by
    funext a; apply Fin.ext
    match a with
    | ⟨0, _⟩ => show win8_4.index t (0 : Fin 2) * 10000 + 1 * p.val = t.val * 10000 + p.val; omega
    | ⟨1, _⟩ => show win8_4.index t (1 : Fin 2) * 128 + 1 * q.val = q.val; omega
  show Gen.k8_pay1 (F := Ideal) (iblk8 V c 0 t) (iblk8 V c 1 t) (iblk8 V c 2 t) (ix2 p q)
    = Cert.RefOps.brnX (V c (Pipeline.arrRef spec8 0)) (V c (Pipeline.arrRef spec8 1)) (V c (Pipeline.arrRef spec8 2))
        (((cfg8.win 4).blk t).view.emb (ix2 p q))
  rw [hemb]
  rw [pay8_feat_eq]
  refine (pay_feat_apply _ _ _ p q).trans (Eq.trans ?_ (brnX_apply _ _ _ (row t p) q).symm)
  exact feat_congr (fun k => blk0_apply V c t p k) (fun k => blk1_apply V c t k) q (blk2_apply V c t p q)

/-- Point `t` writes back block `t` of the reference's product of the region's input arrays. -/
theorem flushed_h (c : Dev nD) (t : Fin cfg8.N) :
    (dat8 (F := Ideal) V c).flushed 5 t = ((cfg8.win 5).blk t).view.read (Elt Ideal)
      (Cert.RefOps.brnH40 (V c (Pipeline.arrRef spec8 0)) (V c (Pipeline.arrRef spec8 1)) (V c (Pipeline.arrRef spec8 2))
        (V c (Pipeline.arrRef spec8 3))) := by
  show (cfg8.win 5).cut (grid8.coords t) ((dat8 V c).after 5 t) = _
  rw [after8_5]
  unfold out8_5
  rw [View.canon_unit_zero hz]
  simp only [View.ld_unit_zero (S := S10000x128) hz, View.ld_unit_zero (S := S1x128) hz, View.ld_unit_zero (S := S128x40) hz]
  obtain ⟨-, -, -, -, -, -, -, -, -, -, e0, e1⟩ := idx_facts t
  funext j
  obtain ⟨p, q, rfl⟩ : ∃ (p : Fin 10000) (q : Fin 40), j = ix2 p q := ⟨j 0, j 1, eq_ix2 j⟩
  have hemb : ((cfg8.win 5).blk t).view.emb (ix2 p q) = (ix2 (row t p) q : S100000x40.Idx) := by
    funext a; apply Fin.ext
    match a with
    | ⟨0, _⟩ => show win8_5.index t (0 : Fin 2) * 10000 + 1 * p.val = t.val * 10000 + p.val; omega
    | ⟨1, _⟩ => show win8_5.index t (1 : Fin 2) * 40 + 1 * q.val = q.val; omega
  show Gen.k8_pay2 (F := Ideal) (iblk8 V c 0 t) (iblk8 V c 1 t) (iblk8 V c 2 t) (iblk8 V c 3 t) (ix2 p q)
    = Cert.RefOps.brnH40 (V c (Pipeline.arrRef spec8 0)) (V c (Pipeline.arrRef spec8 1)) (V c (Pipeline.arrRef spec8 2))
        (V c (Pipeline.arrRef spec8 3)) (((cfg8.win 5).blk t).view.emb (ix2 p q))
  rw [hemb]
  refine (pay8_featDot_apply _ _ _ _ p q).trans (Eq.trans ?_ (brnH40_apply _ _ _ _ (row t p) q).symm)
  exact featDot_congr (fun k => blk0_apply V c t p k) (fun k => blk1_apply V c t k) (fun k => blk2_apply V c t p k) q
    (fun k => blk3_apply V c t k q)

/-! ## The blocks cover the arrays -/

/-- An index of the feature array is in point `t`'s block iff each coordinate is in the block's range on its axis. -/
theorem mem_blk_x (t : Fin cfg8.N) (i : S100000x128.Idx) :
    i ∈ ((cfg8.win 4).blk t).view.set ↔ ∀ a : Fin 2, win8_4.index t a * S10000x128.size a ≤ (i a).val
      ∧ (i a).val < win8_4.index t a * S10000x128.size a + S10000x128.size a := by
  show i ∈ ((View.whole main_v184_0).slice (win8_4.rect t)).set ↔ _
  rw [View.set_slice_whole, Rect.mem_set_unit]
  exact Iff.rfl

/-- The same for the product array. -/
theorem mem_blk_h (t : Fin cfg8.N) (i : S100000x40.Idx) :
    i ∈ ((cfg8.win 5).blk t).view.set ↔ ∀ a : Fin 2, win8_5.index t a * S10000x40.size a ≤ (i a).val
      ∧ (i a).val < win8_5.index t a * S10000x40.size a + S10000x40.size a := by
  show i ∈ ((View.whole main_v184_1).slice (win8_5.rect t)).set ↔ _
  rw [View.set_slice_whole, Rect.mem_set_unit]
  exact Iff.rfl

/-- Row `r` of the feature array lies in the block of point `r / 10000`. -/
theorem cover_x (i : S100000x128.Idx) :
    ∃ t : Fin cfg8.N, (cfg8.win 4).flush t = true ∧ i ∈ ((cfg8.win 4).blk t).view.set := by
  have hi0 : (i 0).val < 100000 := (i 0).isLt
  have hi1 : (i 1).val < 128 := (i 1).isLt
  have hN : cfg8.N = 10 := N_8
  let t : Fin cfg8.N := ⟨(i 0).val / 10000, by omega⟩
  obtain ⟨-, -, -, -, -, -, -, -, e0, e1, -⟩ := idx_facts t
  have ht : t.val = (i 0).val / 10000 := rfl
  refine ⟨t, flush8_4 t, ?_⟩
  rw [mem_blk_x]
  intro a
  match a with
  | ⟨0, _⟩ => show win8_4.index t (0 : Fin 2) * 10000 ≤ (i 0).val ∧ (i 0).val < win8_4.index t (0 : Fin 2) * 10000 + 10000; omega
  | ⟨1, _⟩ => show win8_4.index t (1 : Fin 2) * 128 ≤ (i 1).val ∧ (i 1).val < win8_4.index t (1 : Fin 2) * 128 + 128; omega

/-- Row `r` of the product array lies in the block of point `r / 10000`. -/
theorem cover_h (i : S100000x40.Idx) :
    ∃ t : Fin cfg8.N, (cfg8.win 5).flush t = true ∧ i ∈ ((cfg8.win 5).blk t).view.set := by
  have hi0 : (i 0).val < 100000 := (i 0).isLt
  have hi1 : (i 1).val < 40 := (i 1).isLt
  have hN : cfg8.N = 10 := N_8
  let t : Fin cfg8.N := ⟨(i 0).val / 10000, by omega⟩
  obtain ⟨-, -, -, -, -, -, -, -, -, -, e0, e1⟩ := idx_facts t
  have ht : t.val = (i 0).val / 10000 := rfl
  refine ⟨t, flush8_5 t, ?_⟩
  rw [mem_blk_h]
  intro a
  match a with
  | ⟨0, _⟩ => show win8_5.index t (0 : Fin 2) * 10000 ≤ (i 0).val ∧ (i 0).val < win8_5.index t (0 : Fin 2) * 10000 + 10000; omega
  | ⟨1, _⟩ => show win8_5.index t (1 : Fin 2) * 40 ≤ (i 1).val ∧ (i 1).val < win8_5.index t (1 : Fin 2) * 40 + 40; omega

end Cert.RegionBlock.R8

/-! ## The arrays after the region -/

namespace Cert.RegionBlock

open Cert.KernelIdeal Cert.KernelIdeal.Gen Idealize.ShloMosaic Idealize.ShloMosaic.TcCoe Idealize.SL.Sem

/-- The feature array after region 8 is the reference's output features of the region's input arrays. -/
theorem region8_x (V : (c : Dev nD) → (b : Ref sig .tc) → Buf (Elt Ideal) ((c : Thread nD τ).loc b)) (c : Dev nD) :
    (dat8 (F := Ideal) V c).arrAt 4 cfg8.N
      = Cert.RefOps.brnX (V c (Pipeline.arrRef spec8 0)) (V c (Pipeline.arrRef spec8 1)) (V c (Pipeline.arrRef spec8 2)) :=
  (dat8 (F := Ideal) V c).arrAt_eq_of_cover 4 _ (fun t _ => R8.flushed_x V c t) R8.cover_x

/-- The product array after region 8 is the reference's product of the region's input arrays. -/
theorem region8_h (V : (c : Dev nD) → (b : Ref sig .tc) → Buf (Elt Ideal) ((c : Thread nD τ).loc b)) (c : Dev nD) :
    (dat8 (F := Ideal) V c).arrAt 5 cfg8.N
      = Cert.RefOps.brnH40 (V c (Pipeline.arrRef spec8 0)) (V c (Pipeline.arrRef spec8 1)) (V c (Pipeline.arrRef spec8 2))
          (V c (Pipeline.arrRef spec8 3)) :=
  (dat8 (F := Ideal) V c).arrAt_eq_of_cover 5 _ (fun t _ => R8.flushed_h V c t) R8.cover_h

end Cert.RegionBlock

end
-- ==== Proof.RegionSoftmaxRow.lean ====
/-
  A bias row added to a block of class scores, then the row-wise log-softmax, read at an index.

  For a row `z` of scores write `rowMax z` for the maximum of its entries taken from `-∞`, and

      lsmRow z q = (z q − rowMax z) − log ∑ k, exp (z k − rowMax z).

  The body's one store holds, at `(p, q)`, `lsmRow` of row `p` of the biased block at `q`: the row maximum is a
  lane reduction kept as a column and spread back over the lanes, and so is the logarithm of the row sum.
-/
import proofs.«147806_j25666724560908_2_alg».proof.Proof.Gen.KernelIdeal.Skeleton
import proofs.«147806_j25666724560908_2_alg».proof.Proof.LibRowReduce

noncomputable section

namespace Cert.RegionSoftmax

open Cert.KernelIdeal Idealize.ShloMosaic Idealize.ShloMosaic.ValueIdx Idealize.ShloMosaic.RowReduce

/-- `-∞`, as the float word a row maximum starts from. -/
abbrev negInf : EReal := Ideal.ofBits .f32 0xFF800000#32

/-- The maximum of a row of scores, taken from `-∞`. -/
def rowMax {n : ℕ} (z : Fin n → EReal) : EReal := (Finset.univ : Finset (Fin n)).fold max negInf z

/-- The log-softmax of a row of scores, at class `q`. -/
def lsmRow {n : ℕ} (z : Fin n → EReal) (q : Fin n) : EReal :=
  (z q - rowMax z) - Ideal.log (∑ k : Fin n, Ideal.exp (z k - rowMax z))

/-- An `[m, 1]` column broadcast over `n` lanes reads, at `(p, c)`, the column at row `p`. -/
theorem colBroadcast_apply {α : Type} {m n : ℕ} (v : (⟨2, ![m, 1]⟩ : Shape).Idx → α)
    (h : (⟨2, ![m, 1]⟩ : Shape).Broadcasts ⟨2, ![m, n]⟩) (p : Fin m) (c : Fin n) :
    broadcastTo ⟨2, ![m, n]⟩ v h (ix2 p c) = v (ix2 p (0 : Fin 1)) := by
  refine broadcastTo_apply v h (ix2 p c) (ix2 p (0 : Fin 1)) fun ax => ?_
  match ax with
  | ⟨0, _⟩ =>
    show p.val = if m = 1 then 0 else p.val
    split
    · have := p.isLt; omega
    · rfl
  | ⟨1, _⟩ => rfl

theorem exp_apply {s : Shape} {φ : FTy} (v : FVec Ideal s φ) (i : s.Idx) : exp v i = Ideal.exp (v i) := rfl

theorem log_apply {s : Shape} {φ : FTy} (v : FVec Ideal s φ) (i : s.Idx) : log v i = Ideal.log (v i) := rfl

/-- The row-wise log-softmax of an `[m, n]` block as a kernel body computes it — the row maximum and the row sum of
    exponentials each a lane reduction cast to a column and broadcast over the lanes — is `lsmRow` of the row. -/
theorem lsmBlock_apply {m n : ℕ} (z : FVec Ideal ⟨2, ![m, n]⟩ .f32)
    (h : (⟨2, ![m, n]⟩ : Shape).Reduces [1] ⟨1, ![m]⟩) (hc : (⟨1, ![m]⟩ : Shape).ShapeCasts ⟨2, ![m, 1]⟩)
    (hb : (⟨2, ![m, 1]⟩ : Shape).Broadcasts ⟨2, ![m, n]⟩) (hφ : FKind.Formats .f32)
    (hmax : (0xFF800000#32 : BitVec 32) = FKind.maximumf.neutral .f32 hφ)
    (hadd : (0x00000000#32 : BitVec 32) = FKind.add.neutral .f32 hφ) (p : Fin m) (q : Fin n) :
    subf
      (subf z (broadcastTo ⟨2, ![m, n]⟩ (shapeCast ⟨2, ![m, 1]⟩
        (multiReduction .maximumf [1] ⟨1, ![m]⟩ z 0xFF800000#32 h hφ hmax) hc) hb))
      (broadcastTo ⟨2, ![m, n]⟩ (log (shapeCast ⟨2, ![m, 1]⟩ (multiReduction .add [1] ⟨1, ![m]⟩
        (exp (subf z (broadcastTo ⟨2, ![m, n]⟩ (shapeCast ⟨2, ![m, 1]⟩
          (multiReduction .maximumf [1] ⟨1, ![m]⟩ z 0xFF800000#32 h hφ hmax) hc) hb)))
        0x00000000#32 h hφ hadd) hc)) hb) (ix2 p q)
    = lsmRow (fun k => z (ix2 p k)) q := by
  -- the block shifted by its row maxima, entry by entry
  have hs : ∀ k : Fin n,
      subf z (broadcastTo ⟨2, ![m, n]⟩ (shapeCast ⟨2, ![m, 1]⟩
        (multiReduction .maximumf [1] ⟨1, ![m]⟩ z 0xFF800000#32 h hφ hmax) hc) hb) (ix2 p k)
      = z (ix2 p k) - rowMax (fun k => z (ix2 p k)) := by
    intro k
    rw [subf_apply, colBroadcast_apply, shapeCast_a_a1_apply, multiReduction_maximumf_row]
    rfl
  rw [subf_apply, hs q, colBroadcast_apply, log_apply, shapeCast_a_a1_apply, multiReduction_add_row]
  simp only [exp_apply, hs]
  rfl

/-- THE BODY'S STORE at `(p, q)`: `lsmRow` of row `p` of the scores plus the bias row, at `q`. -/
theorem pay_apply (x0 : Vec Ideal S10000x40 .f32) (x1 : Vec Ideal S1x40 .f32) (p : Fin 10000) (q : Fin 40) :
    Gen.k9_pay1 (F := Ideal) x0 x1 (ix2 p q) = lsmRow (fun k => x0 (ix2 p k) + x1 (ix2 (0 : Fin 1) k)) q := by
  unfold Gen.k9_pay1
  refine (lsmBlock_apply _ _ _ _ _ _ _ p q).trans ?_
  refine congrArg (fun f => lsmRow f q) (funext fun k => ?_)
  rw [addf_apply, shapeCast_self, shapeCast_self, broadcastTo_1b_ab_apply]

end Cert.RegionSoftmax

end
-- ==== Proof.RegionSoftmax.lean ====
/-
  The last region: the class scores after the bias row and the row-wise log-softmax, as one array.

  The region walks ten row blocks of 10000 rows.  At point `t` the score window holds rows `10000·t … 10000·t + 9999`
  of the aggregated scores and the bias window holds the whole bias row; the body's store at `(p, q)` is the
  log-softmax of row `p` of the biased block at class `q`, so what point `t` writes back is block `t` of the
  whole-array function `lsmArr a b (r, q) = lsmRow (k ↦ a (r, k) + b (0, k)) q`.  Row `r` lies in the block of point
  `r / 10000`, so the ten blocks cover the array and the array ends holding `lsmArr` of the region's two inputs.
-/
import proofs.«147806_j25666724560908_2_alg».proof.Proof.Gen.KernelIdeal.Frame
import proofs.«147806_j25666724560908_2_alg».proof.Proof.RegionSoftmaxRow
import Idealize.ShloMosaic.Lib.Pipeline.Value

noncomputable section

namespace Cert.RegionSoftmax

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The class scores as one function of the aggregated scores `a` and the bias row `b`: at `(r, q)` the
    log-softmax of row `r` of `a + b` at class `q`. -/
def lsmArr (a : S100000x40.Idx → EReal) (b : S1x40.Idx → EReal) : S100000x40.Idx → EReal := fun i =>
  lsmRow (fun k => a (ix2 (i 0 : Fin 100000) k) + b (ix2 (0 : Fin 1) k)) (i 1 : Fin 40)

theorem lsmArr_apply (a : S100000x40.Idx → EReal) (b : S1x40.Idx → EReal) (r : Fin 100000) (q : Fin 40) :
    lsmArr a b (ix2 r q) = lsmRow (fun k => a (ix2 r k) + b (ix2 (0 : Fin 1) k)) q := rfl

theorem hz : (![0, 0] : Fin 2 → Nat) = fun _ => 0 := funext fun a => by fin_cases a <;> rfl

/-- The windows' index maps over the grid: the score window and the output window sit at row block `t`, the bias
    window at its one block. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- The score window's block at point `t`, at `(p, k)`: the scores at row `10000·t + p`. -/
theorem scores_apply (c : Dev nD) (t : Fin cfg9.N) (p : Fin 10000) (k : Fin 40) (r : Fin 100000)
    (hr : r.val = t.val * 10000 + p.val) :
    (iblk9 V c 0 t : Vec Ideal S10000x40 .f32) (ix2 p k)
      = (V c (Pipeline.arrRef spec9 0) : S100000x40.Idx → EReal) (ix2 r k) := by
  obtain ⟨e0, e1, -, -, -, -⟩ := idx_facts t
  unfold iblk9
  rw [View.read_apply]
  show V c main_v197 (((cfg9.win 0).blk t).view.emb (ix2 p k)) = V c main_v197 (ix2 r k)
  refine congrArg (V c main_v197) (funext fun a => Fin.ext ?_)
  match a with
  | ⟨0, _⟩ => show win9_0.index t (0 : Fin 2) * 10000 + 1 * p.val = r.val; omega
  | ⟨1, _⟩ => show win9_0.index t (1 : Fin 2) * 40 + 1 * k.val = k.val; omega

/-- The bias window's block at any point is the bias row. -/
theorem bias_apply (c : Dev nD) (t : Fin cfg9.N) (k : Fin 40) :
    (iblk9 V c 1 t : Vec Ideal S1x40 .f32) (ix2 (0 : Fin 1) k)
      = (V c (Pipeline.arrRef spec9 1) : S1x40.Idx → EReal) (ix2 (0 : Fin 1) k) := by
  obtain ⟨-, -, e2, e3, -, -⟩ := idx_facts t
  unfold iblk9
  rw [View.read_apply]
  show V c main_v198 (((cfg9.win 1).blk t).view.emb (ix2 (0 : Fin 1) k)) = V c main_v198 (ix2 (0 : Fin 1) k)
  refine congrArg (V c main_v198) (funext fun a => Fin.ext ?_)
  match a with
  | ⟨0, _⟩ => show win9_1.index t (0 : Fin 2) * 1 + 1 * 0 = 0; omega
  | ⟨1, _⟩ => show win9_1.index t (1 : Fin 2) * 40 + 1 * k.val = k.val; omega

/-- Where the output window's block at point `t` sits in the array: `(p, q)` of the block is `(10000·t + p, q)`. -/
theorem out_emb (t : Fin cfg9.N) (p : Fin 10000) (q : Fin 40) (r : Fin 100000) (hr : r.val = t.val * 10000 + p.val) :
    ((cfg9.win 2).blk t).view.emb (ix2 p q) = (ix2 r q : S100000x40.Idx) := by
  obtain ⟨-, -, -, -, e4, e5⟩ := idx_facts t
  funext a
  apply Fin.ext
  match a with
  | ⟨0, _⟩ => show win9_2.index t (0 : Fin 2) * 10000 + 1 * p.val = r.val; omega
  | ⟨1, _⟩ => show win9_2.index t (1 : Fin 2) * 40 + 1 * q.val = q.val; omega

/-- WHAT POINT `t` WRITES BACK is block `t` of `lsmArr` of the region's two inputs. -/
theorem flushed_eq (c : Dev nD) (t : Fin cfg9.N) :
    (dat9 V c).flushed 2 t = ((cfg9.win 2).blk t).view.read (Elt Ideal)
      (lsmArr (V c (Pipeline.arrRef spec9 0)) (V c (Pipeline.arrRef spec9 1))) := by
  show (cfg9.win 2).cut (grid9.coords t) ((dat9 V c).after 2 t) = _
  rw [after9_2]
  unfold out9_2
  rw [View.canon_unit_zero hz]
  simp only [View.ld_unit_zero (S := S10000x40) hz, View.ld_unit_zero (S := S1x40) hz]
  funext j
  obtain ⟨p, q, rfl⟩ : ∃ (p : Fin 10000) (q : Fin 40), j = ix2 p q := ⟨j 0, j 1, eq_ix2 j⟩
  have hN : cfg9.N = 10 := N_9
  have hr : t.val * 10000 + p.val < 100000 := by have := t.isLt; have := p.isLt; omega
  rw [View.read_apply, out_emb t p q ⟨t.val * 10000 + p.val, hr⟩ rfl]
  show Gen.k9_pay1 (F := Ideal) (iblk9 V c 0 t) (iblk9 V c 1 t) (ix2 p q)
    = lsmArr (V c (Pipeline.arrRef spec9 0)) (V c (Pipeline.arrRef spec9 1)) (ix2 ⟨t.val * 10000 + p.val, hr⟩ q)
  rw [lsmArr_apply]
  refine (pay_apply (iblk9 V c 0 t) (iblk9 V c 1 t) p q).trans ?_
  refine congrArg (fun f => lsmRow f q) (funext fun k => ?_)
  rw [scores_apply V c t p k ⟨t.val * 10000 + p.val, hr⟩ rfl, bias_apply V c t k]

/-- An index of the array is in point `t`'s block iff each coordinate is in the block's range on its axis. -/
theorem mem_blk (t : Fin cfg9.N) (i : S100000x40.Idx) :
    i ∈ ((cfg9.win 2).blk t).view.set ↔ ∀ a : Fin 2, win9_2.index t a * S10000x40.size a ≤ (i a).val
      ∧ (i a).val < win9_2.index t a * S10000x40.size a + S10000x40.size a := by
  show i ∈ ((View.whole main_v199).slice (win9_2.rect t)).set ↔ _
  rw [View.set_slice_whole, Rect.mem_set_unit]
  exact Iff.rfl

/-- Row `r` is covered by the point `r / 10000`. -/
theorem cover (i : S100000x40.Idx) :
    ∃ t : Fin cfg9.N, (cfg9.win 2).flush t = true ∧ i ∈ ((cfg9.win 2).blk t).view.set := by
  have hN : cfg9.N = 10 := N_9
  have hi0 : (i 0).val < 100000 := (i 0).isLt
  have hi1 : (i 1).val < 40 := (i 1).isLt
  refine ⟨⟨(i 0).val / 10000, by omega⟩, flush9_2 _, ?_⟩
  obtain ⟨-, -, -, -, e4, e5⟩ := idx_facts ⟨(i 0).val / 10000, by omega⟩
  rw [mem_blk]
  intro a
  match a with
  | ⟨0, _⟩ =>
    show win9_2.index _ (0 : Fin 2) * 10000 ≤ (i 0).val ∧ (i 0).val < win9_2.index _ (0 : Fin 2) * 10000 + 10000
    rw [e4]; show (i 0).val / 10000 * 10000 ≤ (i 0).val ∧ (i 0).val < (i 0).val / 10000 * 10000 + 10000; omega
  | ⟨1, _⟩ =>
    show win9_2.index _ (1 : Fin 2) * 40 ≤ (i 1).val ∧ (i 1).val < win9_2.index _ (1 : Fin 2) * 40 + 40
    rw [e5]; omega

/-- THE OUTPUT ARRAY after the region: `lsmArr` of the aggregated scores and the bias row as the region finds them. -/
theorem region9_arr (c : Dev nD) :
    (dat9 (F := Ideal) V c).arrAt 2 cfg9.N
      = lsmArr (V c (Pipeline.arrRef spec9 0)) (V c (Pipeline.arrRef spec9 1)) :=
  (dat9 V c).arrAt_eq_of_cover 2 _ (fun t _ => flushed_eq V c t) cover

end Cert.RegionSoftmax

end
-- ==== Proof.RegionSoftmaxRef.lean ====
/-
  The reference's class scores, read at an index.

  `lsm a b` adds the bias row to every row, subtracts each row's maximum, and subtracts the logarithm of each row's sum
  of exponentials.  The row maximum is taken from `-∞` and then once more against `-∞`, which changes nothing; the
  row sum starts from the zero word, which adds nothing.  Both are kept as a column and spread over the 40 classes.
  So at `(r, q)` the result is `lsmRow` of row `r` of `a + b` at class `q`.
-/
import proofs.«147806_j25666724560908_2_alg».proof.Proof.RefOps
import proofs.«147806_j25666724560908_2_alg».proof.Proof.RegionSoftmaxRow

noncomputable section

namespace Cert.RegionSoftmax

open Idealize.ShloMosaic Idealize.ShloMosaic.ValueIdx Idealize.ShloMosaic.RowReduce

/-- The host's `[m, 1]` column spread over `n` columns reads, at `(p, q)`, the column at row `p`. -/
theorem hostSpread_apply {α : Type} {m n : ℕ} (v : (⟨2, ![m, 1]⟩ : Shape).Idx → α)
    (h2 : (⟨2, ![m, 1]⟩ : Shape).BroadcastsInDim ⟨2, ![m, n]⟩ ![0, 1]) (p : Fin m) (q : Fin n) :
    broadcastInDim ⟨2, ![m, n]⟩ ![0, 1] h2 v (ix2 p q) = v (ix2 p (0 : Fin 1)) :=
  broadcastInDim_apply ![0, 1] h2 v (ix2 p q) (ix2 p (0 : Fin 1)) (fun a => by
    match a with
    | ⟨0, _⟩ =>
      show p.val = if m = 1 then 0 else p.val
      split
      · have := p.isLt; omega
      · rfl
    | ⟨1, _⟩ => rfl)

/-- The host's `[m]` vector kept as an `[m, 1]` column reads, at `(p, u)`, the vector at `p`. -/
theorem hostToColumn_apply {α : Type} {m : ℕ} (v : (⟨1, ![m]⟩ : Shape).Idx → α)
    (h1 : (⟨1, ![m]⟩ : Shape).BroadcastsInDim ⟨2, ![m, 1]⟩ ![0]) (p : Fin m) (u : Fin 1) :
    broadcastInDim ⟨2, ![m, 1]⟩ ![0] h1 v (ix2 p u) = v (ix1 p) :=
  broadcastInDim_apply ![0] h1 v (ix2 p u) (ix1 p) (fun a => by
    match a with
    | ⟨0, _⟩ =>
      show p.val = if m = 1 then 0 else p.val
      split
      · have := p.isLt; omega
      · rfl)

theorem hostExp_apply {s : Shape} {φ : FTy} (v : FVec Ideal s φ) (i : s.Idx) : Host.exp v i = Ideal.exp (v i) := rfl

theorem hostLog_apply {s : Shape} {φ : FTy} (v : FVec Ideal s φ) (i : s.Idx) : Host.log v i = Ideal.log (v i) := rfl

/-- The host's bias row: a `[1, n]` row broadcast over `m` rows reads the row at the column. -/
theorem hostRow_apply {α : Type} {m n : ℕ} (b : (⟨2, ![1, n]⟩ : Shape).Idx → α)
    (h : (⟨2, ![1, n]⟩ : Shape).BroadcastsInDim ⟨2, ![m, n]⟩ ![0, 1]) (p : Fin m) (q : Fin n) :
    broadcastInDim ⟨2, ![m, n]⟩ ![0, 1] h b (ix2 p q) = b (ix2 (0 : Fin 1) q) :=
  broadcastInDim_apply ![0, 1] h b (ix2 p q) (ix2 (0 : Fin 1) q) (fun a => by
    match a with
    | ⟨0, _⟩ => rfl
    | ⟨1, _⟩ =>
      show q.val = if n = 1 then 0 else q.val
      split
      · have := q.isLt; omega
      · rfl)

/-- `-∞` is the least extended real. -/
theorem negInf_eq_bot : negInf = ⊥ := by simp [negInf, Ideal.ofBits, Ideal.ieee]

/-- A maximum against `-∞` changes nothing. -/
theorem max_negInf (x : EReal) : max negInf x = x := by rw [negInf_eq_bot]; exact max_eq_right bot_le

/-- The reference's shifted scores at `(r, q)`: the score minus its row's maximum. -/
theorem shifted_apply (z : (⟨Cert.ReferenceIdeal.S100000x40, .f32⟩ : BufTy).Contents (Elt Ideal)) (r : Fin 100000) (q : Fin 40) :
    Cert.RefOps.shifted (F := Ideal) z (ix2 r q) = z (ix2 r q) - rowMax (fun k => z (ix2 r k)) := by
  unfold Cert.RefOps.shifted
  rw [subf_apply, hostSpread_apply, hostToColumn_apply, maximumf_apply, broadcastInDim_scalar_apply, constant_apply,
    hostReduce_maximumf_row z _ _ (by decide) _ r, constant_apply]
  exact congrArg (fun x => z (ix2 r q) - x) (max_negInf _)

/-- The reference's log-softmax at `(r, q)`. -/
theorem logSoftmax_apply (z : (⟨Cert.ReferenceIdeal.S100000x40, .f32⟩ : BufTy).Contents (Elt Ideal)) (r : Fin 100000) (q : Fin 40) :
    Cert.RefOps.logSoftmax (F := Ideal) z (ix2 r q) = lsmRow (fun k => z (ix2 r k)) q := by
  unfold Cert.RefOps.logSoftmax
  rw [subf_apply, shifted_apply, hostSpread_apply, hostLog_apply, hostToColumn_apply,
    hostReduceAdd_row _ _ _ (by decide) _ r, constant_apply, Ideal.ofBits_zero_f32, zero_add]
  refine congrArg (fun s => (z (ix2 r q) - rowMax (fun k => z (ix2 r k))) - Ideal.log s)
    (Finset.sum_congr rfl fun k _ => ?_)
  rw [hostExp_apply, shifted_apply]

/-- THE REFERENCE'S CLASS SCORES at `(r, q)`: `lsmRow` of row `r` of the scores plus the bias row, at `q`. -/
theorem lsm_apply (a : (⟨Cert.ReferenceIdeal.S100000x40, .f32⟩ : BufTy).Contents (Elt Ideal))
    (b : (⟨Cert.ReferenceIdeal.S1x40, .f32⟩ : BufTy).Contents (Elt Ideal)) (r : Fin 100000) (q : Fin 40) :
    Cert.RefOps.lsm (F := Ideal) a b (ix2 r q) = lsmRow (fun k => a (ix2 r k) + b (ix2 (0 : Fin 1) k)) q := by
  unfold Cert.RefOps.lsm
  rw [logSoftmax_apply]
  refine congrArg (fun f => lsmRow f q) (funext fun k => ?_)
  rw [addf_apply, hostRow_apply]

end Cert.RegionSoftmax

end
-- ==== Proof.RegionSoftmaxOut.lean ====
/-
  The last region's output array is the reference's class-score function of the region's two inputs.

  The region leaves, at `(r, q)`, the log-softmax of row `r` of the aggregated scores plus the bias row, at class `q`;
  the reference's `lsm` read at `(r, q)` is the same expression.  The two arrays agree index by index.
-/
import proofs.«147806_j25666724560908_2_alg».proof.Proof.RegionSoftmax
import proofs.«147806_j25666724560908_2_alg».proof.Proof.RegionSoftmaxRef

noncomputable section

namespace Cert.RegionSoftmax

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The row-wise function the region computes is the reference's `lsm`. -/
theorem lsmArr_eq_lsm (a : S100000x40.Idx → EReal) (b : S1x40.Idx → EReal) :
    lsmArr a b = Cert.RefOps.lsm (F := Ideal) a b := by
  funext i
  obtain ⟨r, q, rfl⟩ : ∃ (r : Fin 100000) (q : Fin 40), i = ix2 r q := ⟨i 0, i 1, eq_ix2 i⟩
  rw [lsmArr_apply]
  exact (lsm_apply a b r q).symm

/-- THE LAST REGION: its output array ends holding the reference's class scores of its two input arrays, whatever
    the buffers hold when the region is entered. -/
theorem region9_out (c : Dev nD) :
    (dat9 (F := Ideal) V c).arrAt 2 cfg9.N
      = Cert.RefOps.lsm (F := Ideal) (V c (Pipeline.arrRef spec9 0)) (V c (Pipeline.arrRef spec9 1)) :=
  (region9_arr V c).trans (lsmArr_eq_lsm _ _)

end Cert.RegionSoftmax

end
-- ==== Proof.RegionAll.lean ====
/-
  The ten regions' closed forms, collected.

  Each region of the kernel leaves, in each of its output arrays, the reference's whole-array function of the region's
  input arrays, whatever the buffers held when the region was entered: the plain product for region 0, `relu (a + b) · w`
  for regions 1, 3, 5, 7, the end of a residual block and its product with the next weight for regions 2, 4, 6, 8, and
  the row-wise log-softmax of the biased scores for region 9.  The fourteen statements are gathered here into one record.
-/
import proofs.«147806_j25666724560908_2_alg».proof.Proof.RegionForms
import proofs.«147806_j25666724560908_2_alg».proof.Proof.RegionLin0
import proofs.«147806_j25666724560908_2_alg».proof.Proof.RegionLinBrm
import proofs.«147806_j25666724560908_2_alg».proof.Proof.RegionBlock2
import proofs.«147806_j25666724560908_2_alg».proof.Proof.RegionBlock4
import proofs.«147806_j25666724560908_2_alg».proof.Proof.RegionBlock6
import proofs.«147806_j25666724560908_2_alg».proof.Proof.RegionBlock8
import proofs.«147806_j25666724560908_2_alg».proof.Proof.RegionSoftmaxOut

noncomputable section

namespace Cert.KernelIdeal

/-- Every region's output arrays, after the region, are the reference's functions of the region's input arrays. -/
theorem regionForms : RegionForms where
  r0 := Cert.RegionLin.region0_out
  r1 := Cert.RegionLin.region1_out
  r3 := Cert.RegionLin.region3_out
  r5 := Cert.RegionLin.region5_out
  r7 := Cert.RegionLin.region7_out
  r2x := Cert.RegionBlock.region2_x
  r2h := Cert.RegionBlock.region2_h
  r4x := Cert.RegionBlock.region4_x
  r4h := Cert.RegionBlock.region4_h
  r6x := Cert.RegionBlock.region6_x
  r6h := Cert.RegionBlock.region6_h
  r8x := Cert.RegionBlock.region8_x
  r8h := Cert.RegionBlock.region8_h
  r9 := Cert.RegionSoftmax.region9_out

end Cert.KernelIdeal

end
-- ==== Proof.KernelValue.lean ====
/-
  The idealized kernel computes the network.

  Every weakly fair execution of the idealized kernel's @main terminates, nothing faulting, with the result buffer
  holding the residual graph-convolution network's function (`Cert.Model.out`) of the launch contents of the seven
  arguments, and the arguments unchanged: the run leaves the last boundary's contents in the result buffer, and those
  contents, followed boundary by boundary through the ten regions' closed forms and the host stretches between them,
  are that function.
-/
import proofs.«147806_j25666724560908_2_alg».proof.Proof.KernelRun
import proofs.«147806_j25666724560908_2_alg».proof.Proof.FoldC
import proofs.«147806_j25666724560908_2_alg».proof.Proof.RegionAll

noncomputable section

namespace Cert.KernelIdeal.RunValue

open Cert.KernelIdeal Cert.KernelIdeal.Gen
open Idealize.ShloMosaic Idealize.ShloMosaic.TcCoe Idealize.SL.Sem

/-- The idealized kernel's run with its result named. -/
theorem run_model (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v199)
        = Cert.Model.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun r h c => ⟨(h c).1.trans (Cert.KernelIdeal.Fold.result m ρ c Cert.KernelIdeal.regionForms), (h c).2⟩)
    (run_result (F := Ideal) m ρ)

end Cert.KernelIdeal.RunValue

end
-- ==== Proof.RefRunOps.lean ====
/-
  The reference program's @main as a line of host operations, cut into consecutive pieces.

  Each piece ends where one named quantity of the network is complete: the edge vectors; the first product; inside every
  aggregation the weighted degree, where it is positive, its inverse square root, the normalising factor of the nodes,
  that of the edges, and the aggregated rows; per block the bias–relu–product, the rectified rows, their norms, the
  block's output and its product with the next weight; at the end the class scores with their bias, the scores shifted
  by their row maxima, and the row-wise log-softmax.  The program is the concatenation of the pieces, so its run ends
  with every buffer at the pieces' results folded, piece after piece, over the launch contents.
-/
import proofs.«147806_j25666724560908_2_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- Slice 0 of the stacked biases, as a vector. -/
def biasVec0 (x4 : (⟨S8x128, .f32⟩ : BufTy).Contents (Elt F)) : (⟨S128, .f32⟩ : BufTy).Contents (Elt F) :=
  shapeCast _ (extractStridedSlice S1x128 ![0, 0] x4 slices_S8x128_S1x128_0_0) shapeCasts_S1x128_S128

/-- Slice 1 of the stacked biases, as a vector. -/
def biasVec1 (x4 : (⟨S8x128, .f32⟩ : BufTy).Contents (Elt F)) : (⟨S128, .f32⟩ : BufTy).Contents (Elt F) :=
  shapeCast _ (extractStridedSlice S1x128 ![1, 0] x4 slices_S8x128_S1x128_1_0) shapeCasts_S1x128_S128

/-- Slice 2 of the stacked biases, as a vector. -/
def biasVec2 (x4 : (⟨S8x128, .f32⟩ : BufTy).Contents (Elt F)) : (⟨S128, .f32⟩ : BufTy).Contents (Elt F) :=
  shapeCast _ (extractStridedSlice S1x128 ![2, 0] x4 slices_S8x128_S1x128_2_0) shapeCasts_S1x128_S128

/-- Slice 3 of the stacked biases, as a vector. -/
def biasVec3 (x4 : (⟨S8x128, .f32⟩ : BufTy).Contents (Elt F)) : (⟨S128, .f32⟩ : BufTy).Contents (Elt F) :=
  shapeCast _ (extractStridedSlice S1x128 ![3, 0] x4 slices_S8x128_S1x128_3_0) shapeCasts_S1x128_S128

/-- Slice 4 of the stacked biases, as a vector. -/
def biasVec4 (x4 : (⟨S8x128, .f32⟩ : BufTy).Contents (Elt F)) : (⟨S128, .f32⟩ : BufTy).Contents (Elt F) :=
  shapeCast _ (extractStridedSlice S1x128 ![4, 0] x4 slices_S8x128_S1x128_4_0) shapeCasts_S1x128_S128

/-- Slice 5 of the stacked biases, as a vector. -/
def biasVec5 (x4 : (⟨S8x128, .f32⟩ : BufTy).Contents (Elt F)) : (⟨S128, .f32⟩ : BufTy).Contents (Elt F) :=
  shapeCast _ (extractStridedSlice S1x128 ![5, 0] x4 slices_S8x128_S1x128_5_0) shapeCasts_S1x128_S128

/-- Slice 6 of the stacked biases, as a vector. -/
def biasVec6 (x4 : (⟨S8x128, .f32⟩ : BufTy).Contents (Elt F)) : (⟨S128, .f32⟩ : BufTy).Contents (Elt F) :=
  shapeCast _ (extractStridedSlice S1x128 ![6, 0] x4 slices_S8x128_S1x128_6_0) shapeCasts_S1x128_S128

/-- Slice 7 of the stacked biases, as a vector. -/
def biasVec7 (x4 : (⟨S8x128, .f32⟩ : BufTy).Contents (Elt F)) : (⟨S128, .f32⟩ : BufTy).Contents (Elt F) :=
  shapeCast _ (extractStridedSlice S1x128 ![7, 0] x4 slices_S8x128_S1x128_7_0) shapeCasts_S1x128_S128

/-- The one buffer an operation writes is among a list's buffers when its reference is in the list. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-! ## The pieces -/

/-- Operations 0 … 9 of @main: up to `main_v8`. -/
abbrev c0 : List (HloOp τ sig (Elt F)) :=
  [
    nullary main_v0 (iotaInDim S100000 32 0),
    unary main_arg1 main_v1 ((extractStridedSlice S1x640000 ![0, 0] · slices_S2x640000_S1x640000_0_0) : (⟨S2x640000, .i32⟩ : BufTy).Contents (Elt F) → (⟨S1x640000, .i32⟩ : BufTy).Contents (Elt F)),
    reshape main_v1 main_v2 rfl shapeCasts_S1x640000_S640000,
    binary main_v2 main_v0 main_v3 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    unary main_arg1 main_v4 ((extractStridedSlice S1x640000 ![1, 0] · slices_S2x640000_S1x640000_1_0) : (⟨S2x640000, .i32⟩ : BufTy).Contents (Elt F) → (⟨S1x640000, .i32⟩ : BufTy).Contents (Elt F)),
    reshape main_v4 main_v5 rfl shapeCasts_S1x640000_S640000,
    binary main_v5 main_v0 main_v6 ((fun a b => concatenate S740000 0 [⟨S640000, a⟩, ⟨S100000, b⟩] concatenates_S640000_S100000_S740000_d0) : (⟨S640000, .i32⟩ : BufTy).Contents (Elt F) → (⟨S100000, .i32⟩ : BufTy).Contents (Elt F) → (⟨S740000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S740000 0 [⟨S640000, a⟩, ⟨S100000, b⟩] concatenates_S640000_S100000_S740000_d0) : (⟨S640000, .f32⟩ : BufTy).Contents (Elt F) → (⟨S100000, .f32⟩ : BufTy).Contents (Elt F) → (⟨S740000, .f32⟩ : BufTy).Contents (Elt F)) ]

/-- Operations 10 … 14 of @main: up to `main_v13`. -/
abbrev c1 : List (HloOp τ sig (Elt F)) :=
  [
    unary main_arg3 main_v9 ((extractStridedSlice S1x128x128 ![0, 0, 0] · slices_S8x128x128_S1x128x128_0_0_0) : (⟨S8x128x128, .f32⟩ : BufTy).Contents (Elt F) → (⟨S1x128x128, .f32⟩ : BufTy).Contents (Elt F)),
    reshape main_v9 main_v10 rfl shapeCasts_S1x128x128_S128x128,
    unary main_arg4 main_v11 ((extractStridedSlice S1x128 ![0, 0] · slices_S8x128_S1x128_0_0) : (⟨S8x128, .f32⟩ : BufTy).Contents (Elt F) → (⟨S1x128, .f32⟩ : BufTy).Contents (Elt F)),
    reshape main_v11 main_v12 rfl shapeCasts_S1x128_S128,
    binary main_arg0 main_v10 main_v13 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 15 … 18 of @main: up to `main_v16`. -/
abbrev c2 : List (HloOp τ sig (Elt F)) :=
  [
    nullary main_cst_0 (constant S_ .f32 0x00000000#32),
    unary main_cst_0 main_v14 (broadcastInDim S100000 ![] bcast_S_S100000 : (⟨S_, .f32⟩ : BufTy).Contents (Elt F) → (⟨S100000, .f32⟩ : BufTy).Contents (Elt F)),
    unary main_v6 main_v15 (broadcastInDim S740000x1 ![0] bcast_S740000_S740000x1_0 : (⟨S740000, .i32⟩ : BufTy).Contents (Elt F) → (⟨S740000x1, .i32⟩ : BufTy).Contents (Elt F)),
    ternary main_v14 main_v15 main_v8 main_v16 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 19 … 21 of @main: up to `main_v18`. -/
abbrev c3 : List (HloOp τ sig (Elt F)) :=
  [
    nullary main_cst_1 (constant S_ .f32 0x00000000#32),
    unary main_cst_1 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)) ]

/-- Operations 22 … 22 of @main: up to `main_v19`. -/
abbrev c4 : List (HloOp τ sig (Elt F)) :=
  [
    unary main_v16 main_v19 (Host.rsqrt : (⟨S100000, .f32⟩ : BufTy).Contents (Elt F) → (⟨S100000, .f32⟩ : BufTy).Contents (Elt F)) ]

/-- Operations 23 … 26 of @main: up to `main_v20`. -/
abbrev c5 : List (HloOp τ sig (Elt F)) :=
  [
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v19) (TRef.of (T := ⟨S100000, .f32⟩) main_call0_v1) (TRef.of (T := ⟨S100000, .f32⟩) main_v20) select ]

/-- Operations 27 … 46 of @main: up to `main_v36`. -/
abbrev c6 : List (HloOp τ sig (Elt F)) :=
  [
    nullary main_c (constantI S_ 32 0#32),
    unary main_c main_v21 (broadcastInDim S740000 ![] bcast_S_S740000 : (⟨S_, .i32⟩ : BufTy).Contents (Elt F) → (⟨S740000, .i32⟩ : BufTy).Contents (Elt F)),
    binary main_v3 main_v21 main_v22 (cmpi .slt : (⟨S740000, .i32⟩ : BufTy).Contents (Elt F) → (⟨S740000, .i32⟩ : BufTy).Contents (Elt F) → (⟨S740000, .i1⟩ : BufTy).Contents (Elt F)),
    nullary main_c_3 (constantI S_ 32 100000#32),
    unary main_c_3 main_v23 (broadcastInDim S740000 ![] bcast_S_S740000 : (⟨S_, .i32⟩ : BufTy).Contents (Elt F) → (⟨S740000, .i32⟩ : BufTy).Contents (Elt F)),
    binary main_v3 main_v23 main_v24 (addi : (⟨S740000, .i32⟩ : BufTy).Contents (Elt F) → (⟨S740000, .i32⟩ : BufTy).Contents (Elt F) → (⟨S740000, .i32⟩ : BufTy).Contents (Elt F)),
    ternary main_v22 main_v24 main_v3 main_v25 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v25 main_v26 (broadcastInDim S740000x1 ![0] bcast_S740000_S740000x1_0 : (⟨S740000, .i32⟩ : BufTy).Contents (Elt F) → (⟨S740000x1, .i32⟩ : BufTy).Contents (Elt F)),
    binary main_v20 main_v26 main_v27 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v27 main_v8 main_v28 (mulf : (⟨S740000, .f32⟩ : BufTy).Contents (Elt F) → (⟨S740000, .f32⟩ : BufTy).Contents (Elt F) → (⟨S740000, .f32⟩ : BufTy).Contents (Elt F)),
    nullary main_c_4 (constantI S_ 32 0#32),
    unary main_c_4 main_v29 (broadcastInDim S740000 ![] bcast_S_S740000 : (⟨S_, .i32⟩ : BufTy).Contents (Elt F) → (⟨S740000, .i32⟩ : BufTy).Contents (Elt F)),
    binary main_v6 main_v29 main_v30 (cmpi .slt : (⟨S740000, .i32⟩ : BufTy).Contents (Elt F) → (⟨S740000, .i32⟩ : BufTy).Contents (Elt F) → (⟨S740000, .i1⟩ : BufTy).Contents (Elt F)),
    nullary main_c_5 (constantI S_ 32 100000#32),
    unary main_c_5 main_v31 (broadcastInDim S740000 ![] bcast_S_S740000 : (⟨S_, .i32⟩ : BufTy).Contents (Elt F) → (⟨S740000, .i32⟩ : BufTy).Contents (Elt F)),
    binary main_v6 main_v31 main_v32 (addi : (⟨S740000, .i32⟩ : BufTy).Contents (Elt F) → (⟨S740000, .i32⟩ : BufTy).Contents (Elt F) → (⟨S740000, .i32⟩ : BufTy).Contents (Elt F)),
    ternary main_v30 main_v32 main_v6 main_v33 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v33 main_v34 (broadcastInDim S740000x1 ![0] bcast_S740000_S740000x1_0 : (⟨S740000, .i32⟩ : BufTy).Contents (Elt F) → (⟨S740000x1, .i32⟩ : BufTy).Contents (Elt F)),
    binary main_v20 main_v34 main_v35 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v28 main_v35 main_v36 (mulf : (⟨S740000, .f32⟩ : BufTy).Contents (Elt F) → (⟨S740000, .f32⟩ : BufTy).Contents (Elt F) → (⟨S740000, .f32⟩ : BufTy).Contents (Elt F)) ]

/-- Operations 47 … 62 of @main: up to `main_v49`. -/
abbrev c7 : List (HloOp τ sig (Elt F)) :=
  [
    nullary main_c_6 (constantI S_ 32 0#32),
    unary main_c_6 main_v37 (broadcastInDim S740000 ![] bcast_S_S740000 : (⟨S_, .i32⟩ : BufTy).Contents (Elt F) → (⟨S740000, .i32⟩ : BufTy).Contents (Elt F)),
    binary main_v3 main_v37 main_v38 (cmpi .slt : (⟨S740000, .i32⟩ : BufTy).Contents (Elt F) → (⟨S740000, .i32⟩ : BufTy).Contents (Elt F) → (⟨S740000, .i1⟩ : BufTy).Contents (Elt F)),
    nullary main_c_7 (constantI S_ 32 100000#32),
    unary main_c_7 main_v39 (broadcastInDim S740000 ![] bcast_S_S740000 : (⟨S_, .i32⟩ : BufTy).Contents (Elt F) → (⟨S740000, .i32⟩ : BufTy).Contents (Elt F)),
    binary main_v3 main_v39 main_v40 (addi : (⟨S740000, .i32⟩ : BufTy).Contents (Elt F) → (⟨S740000, .i32⟩ : BufTy).Contents (Elt F) → (⟨S740000, .i32⟩ : BufTy).Contents (Elt F)),
    ternary main_v38 main_v40 main_v3 main_v41 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v41 main_v42 (broadcastInDim S740000x1 ![0] bcast_S740000_S740000x1_0 : (⟨S740000, .i32⟩ : BufTy).Contents (Elt F) → (⟨S740000x1, .i32⟩ : BufTy).Contents (Elt F)),
    binary main_v13 main_v42 main_v43 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v36 main_v44 (broadcastInDim S740000x1 ![0] bcast_S740000_S740000x1_0 : (⟨S740000, .f32⟩ : BufTy).Contents (Elt F) → (⟨S740000x1, .f32⟩ : BufTy).Contents (Elt F)),
    unary main_v44 main_v45 (broadcastInDim S740000x128 ![0, 1] bcast_S740000x1_S740000x128_0_1 : (⟨S740000x1, .f32⟩ : BufTy).Contents (Elt F) → (⟨S740000x128, .f32⟩ : BufTy).Contents (Elt F)),
    binary main_v43 main_v45 main_v46 (mulf : (⟨S740000x128, .f32⟩ : BufTy).Contents (Elt F) → (⟨S740000x128, .f32⟩ : BufTy).Contents (Elt F) → (⟨S740000x128, .f32⟩ : BufTy).Contents (Elt F)),
    nullary main_cst_8 (constant S_ .f32 0x00000000#32),
    unary main_cst_8 main_v47 (broadcastInDim S100000x128 ![] bcast_S_S100000x128 : (⟨S_, .f32⟩ : BufTy).Contents (Elt F) → (⟨S100000x128, .f32⟩ : BufTy).Contents (Elt F)),
    unary main_v6 main_v48 (broadcastInDim S740000x1 ![0] bcast_S740000_S740000x1_0 : (⟨S740000, .i32⟩ : BufTy).Contents (Elt F) → (⟨S740000x1, .i32⟩ : BufTy).Contents (Elt F)),
    ternary main_v47 main_v48 main_v46 main_v49 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 63 … 73 of @main: up to `main_v58`. -/
abbrev c8 : List (HloOp τ sig (Elt F)) :=
  [
    unary main_v12 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v52) (TRef.of (T := ⟨S100000x128, .f32⟩) main_call1_v0) (TRef.of (T := ⟨S100000x128, .f32⟩) main_v53) maximumf,
    unary main_arg3 main_v54 ((extractStridedSlice S1x128x128 ![1, 0, 0] · slices_S8x128x128_S1x128x128_1_0_0) : (⟨S8x128x128, .f32⟩ : BufTy).Contents (Elt F) → (⟨S1x128x128, .f32⟩ : BufTy).Contents (Elt F)),
    reshape main_v54 main_v55 rfl shapeCasts_S1x128x128_S128x128,
    unary main_arg4 main_v56 ((extractStridedSlice S1x128 ![1, 0] · slices_S8x128_S1x128_1_0) : (⟨S8x128, .f32⟩ : BufTy).Contents (Elt F) → (⟨S1x128, .f32⟩ : BufTy).Contents (Elt F)),
    reshape main_v56 main_v57 rfl shapeCasts_S1x128_S128,
    binary main_v53 main_v55 main_v58 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 74 … 77 of @main: up to `main_v61`. -/
abbrev c9 : List (HloOp τ sig (Elt F)) :=
  [
    nullary main_cst_9 (constant S_ .f32 0x00000000#32),
    unary main_cst_9 main_v59 (broadcastInDim S100000 ![] bcast_S_S100000 : (⟨S_, .f32⟩ : BufTy).Contents (Elt F) → (⟨S100000, .f32⟩ : BufTy).Contents (Elt F)),
    unary main_v6 main_v60 (broadcastInDim S740000x1 ![0] bcast_S740000_S740000x1_0 : (⟨S740000, .i32⟩ : BufTy).Contents (Elt F) → (⟨S740000x1, .i32⟩ : BufTy).Contents (Elt F)),
    ternary main_v59 main_v60 main_v8 main_v61 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 78 … 80 of @main: up to `main_v63`. -/
abbrev c10 : List (HloOp τ sig (Elt F)) :=
  [
    nullary main_cst_10 (constant S_ .f32 0x00000000#32),
    unary main_cst_10 main_v62 (broadcastInDim S100000 ![] bcast_S_S100000 : (⟨S_, .f32⟩ : BufTy).Contents (Elt F) → (⟨S100000, .f32⟩ : BufTy).Contents (Elt F)),
    binary main_v61 main_v62 main_v63 (cmpf .ogt : (⟨S100000, .f32⟩ : BufTy).Contents (Elt F) → (⟨S100000, .f32⟩ : BufTy).Contents (Elt F) → (⟨S100000, .i1⟩ : BufTy).Contents (Elt F)) ]

/-- Operations 81 … 81 of @main: up to `main_v64`. -/
abbrev c11 : List (HloOp τ sig (Elt F)) :=
  [
    unary main_v61 main_v64 (Host.rsqrt : (⟨S100000, .f32⟩ : BufTy).Contents (Elt F) → (⟨S100000, .f32⟩ : BufTy).Contents (Elt F)) ]

/-- Operations 82 … 85 of @main: up to `main_v65`. -/
abbrev c12 : List (HloOp τ sig (Elt F)) :=
  [
    nullary main_cst_11 (constant S_ .f32 0x00000000#32),
    TRef.unary (TRef.of (T := ⟨S_, .f32⟩) main_cst_11) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v63) (TRef.of (T := ⟨S100000, .f32⟩) main_v64) (TRef.of (T := ⟨S100000, .f32⟩) main_call2_v1) (TRef.of (T := ⟨S100000, .f32⟩) main_v65) select ]

/-- Operations 86 … 105 of @main: up to `main_v81`. -/
abbrev c13 : List (HloOp τ sig (Elt F)) :=
  [
    nullary main_c_12 (constantI S_ 32 0#32),
    unary main_c_12 main_v66 (broadcastInDim S740000 ![] bcast_S_S740000 : (⟨S_, .i32⟩ : BufTy).Contents (Elt F) → (⟨S740000, .i32⟩ : BufTy).Contents (Elt F)),
    binary main_v3 main_v66 main_v67 (cmpi .slt : (⟨S740000, .i32⟩ : BufTy).Contents (Elt F) → (⟨S740000, .i32⟩ : BufTy).Contents (Elt F) → (⟨S740000, .i1⟩ : BufTy).Contents (Elt F)),
    nullary main_c_13 (constantI S_ 32 100000#32),
    unary main_c_13 main_v68 (broadcastInDim S740000 ![] bcast_S_S740000 : (⟨S_, .i32⟩ : BufTy).Contents (Elt F) → (⟨S740000, .i32⟩ : BufTy).Contents (Elt F)),
    binary main_v3 main_v68 main_v69 (addi : (⟨S740000, .i32⟩ : BufTy).Contents (Elt F) → (⟨S740000, .i32⟩ : BufTy).Contents (Elt F) → (⟨S740000, .i32⟩ : BufTy).Contents (Elt F)),
    ternary main_v67 main_v69 main_v3 main_v70 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v70 main_v71 (broadcastInDim S740000x1 ![0] bcast_S740000_S740000x1_0 : (⟨S740000, .i32⟩ : BufTy).Contents (Elt F) → (⟨S740000x1, .i32⟩ : BufTy).Contents (Elt F)),
    binary main_v65 main_v71 main_v72 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v72 main_v8 main_v73 (mulf : (⟨S740000, .f32⟩ : BufTy).Contents (Elt F) → (⟨S740000, .f32⟩ : BufTy).Contents (Elt F) → (⟨S740000, .f32⟩ : BufTy).Contents (Elt F)),
    nullary main_c_14 (constantI S_ 32 0#32),
    unary main_c_14 main_v74 (broadcastInDim S740000 ![] bcast_S_S740000 : (⟨S_, .i32⟩ : BufTy).Contents (Elt F) → (⟨S740000, .i32⟩ : BufTy).Contents (Elt F)),
    binary main_v6 main_v74 main_v75 (cmpi .slt : (⟨S740000, .i32⟩ : BufTy).Contents (Elt F) → (⟨S740000, .i32⟩ : BufTy).Contents (Elt F) → (⟨S740000, .i1⟩ : BufTy).Contents (Elt F)),
    nullary main_c_15 (constantI S_ 32 100000#32),
    unary main_c_15 main_v76 (broadcastInDim S740000 ![] bcast_S_S740000 : (⟨S_, .i32⟩ : BufTy).Contents (Elt F) → (⟨S740000, .i32⟩ : BufTy).Contents (Elt F)),
    binary main_v6 main_v76 main_v77 (addi : (⟨S740000, .i32⟩ : BufTy).Contents (Elt F) → (⟨S740000, .i32⟩ : BufTy).Contents (Elt F) → (⟨S740000, .i32⟩ : BufTy).Contents (Elt F)),
    ternary main_v75 main_v77 main_v6 main_v78 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v78 main_v79 (broadcastInDim S740000x1 ![0] bcast_S740000_S740000x1_0 : (⟨S740000, .i32⟩ : BufTy).Contents (Elt F) → (⟨S740000x1, .i32⟩ : BufTy).Contents (Elt F)),
    binary main_v65 main_v79 main_v80 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v73 main_v80 main_v81 (mulf : (⟨S740000, .f32⟩ : BufTy).Contents (Elt F) → (⟨S740000, .f32⟩ : BufTy).Contents (Elt F) → (⟨S740000, .f32⟩ : BufTy).Contents (Elt F)) ]

/-- Operations 106 … 121 of @main: up to `main_v94`. -/
abbrev c14 : List (HloOp τ sig (Elt F)) :=
  [
    nullary main_c_16 (constantI S_ 32 0#32),
    unary main_c_16 main_v82 (broadcastInDim S740000 ![] bcast_S_S740000 : (⟨S_, .i32⟩ : BufTy).Contents (Elt F) → (⟨S740000, .i32⟩ : BufTy).Contents (Elt F)),
    binary main_v3 main_v82 main_v83 (cmpi .slt : (⟨S740000, .i32⟩ : BufTy).Contents (Elt F) → (⟨S740000, .i32⟩ : BufTy).Contents (Elt F) → (⟨S740000, .i1⟩ : BufTy).Contents (Elt F)),
    nullary main_c_17 (constantI S_ 32 100000#32),
    unary main_c_17 main_v84 (broadcastInDim S740000 ![] bcast_S_S740000 : (⟨S_, .i32⟩ : BufTy).Contents (Elt F) → (⟨S740000, .i32⟩ : BufTy).Contents (Elt F)),
    binary main_v3 main_v84 main_v85 (addi : (⟨S740000, .i32⟩ : BufTy).Contents (Elt F) → (⟨S740000, .i32⟩ : BufTy).Contents (Elt F) → (⟨S740000, .i32⟩ : BufTy).Contents (Elt F)),
    ternary main_v83 main_v85 main_v3 main_v86 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v86 main_v87 (broadcastInDim S740000x1 ![0] bcast_S740000_S740000x1_0 : (⟨S740000, .i32⟩ : BufTy).Contents (Elt F) → (⟨S740000x1, .i32⟩ : BufTy).Contents (Elt F)),
    binary main_v58 main_v87 main_v88 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v81 main_v89 (broadcastInDim S740000x1 ![0] bcast_S740000_S740000x1_0 : (⟨S740000, .f32⟩ : BufTy).Contents (Elt F) → (⟨S740000x1, .f32⟩ : BufTy).Contents (Elt F)),
    unary main_v89 main_v90 (broadcastInDim S740000x128 ![0, 1] bcast_S740000x1_S740000x128_0_1 : (⟨S740000x1, .f32⟩ : BufTy).Contents (Elt F) → (⟨S740000x128, .f32⟩ : BufTy).Contents (Elt F)),
    binary main_v88 main_v90 main_v91 (mulf : (⟨S740000x128, .f32⟩ : BufTy).Contents (Elt F) → (⟨S740000x128, .f32⟩ : BufTy).Contents (Elt F) → (⟨S740000x128, .f32⟩ : BufTy).Contents (Elt F)),
    nullary main_cst_18 (constant S_ .f32 0x00000000#32),
    unary main_cst_18 main_v92 (broadcastInDim S100000x128 ![] bcast_S_S100000x128 : (⟨S_, .f32⟩ : BufTy).Contents (Elt F) → (⟨S100000x128, .f32⟩ : BufTy).Contents (Elt F)),
    unary main_v6 main_v93 (broadcastInDim S740000x1 ![0] bcast_S740000_S740000x1_0 : (⟨S740000, .i32⟩ : BufTy).Contents (Elt F) → (⟨S740000x1, .i32⟩ : BufTy).Contents (Elt F)),
    ternary main_v92 main_v93 main_v91 main_v94 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 122 … 127 of @main: up to `main_v98`. -/
abbrev c15 : List (HloOp τ sig (Elt F)) :=
  [
    unary main_v57 main_v95 (broadcastInDim S1x128 ![1] bcast_S128_S1x128_1 : (⟨S128, .f32⟩ : BufTy).Contents (Elt F) → (⟨S1x128, .f32⟩ : BufTy).Contents (Elt F)),
    unary main_v95 main_v96 (broadcastInDim S100000x128 ![0, 1] bcast_S1x128_S100000x128_0_1 : (⟨S1x128, .f32⟩ : BufTy).Contents (Elt F) → (⟨S100000x128, .f32⟩ : BufTy).Contents (Elt F)),
    binary main_v94 main_v96 main_v97 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v97) (TRef.of (T := ⟨S100000x128, .f32⟩) main_call3_v0) (TRef.of (T := ⟨S100000x128, .f32⟩) main_v98) maximumf ]

/-- Operations 128 … 132 of @main: up to `main_v99`. -/
abbrev c16 : List (HloOp τ sig (Elt F)) :=
  [
    TRef.binary (TRef.of (T := ⟨S100000x128, .f32⟩) main_v98) (TRef.of (T := ⟨S100000x128, .f32⟩) main_v98) (TRef.of (T := ⟨S100000x128, .f32⟩) main_call4_v0) mulf,
    TRef.nullary (TRef.of (T := ⟨S_, .f32⟩) main_call4_cst) (constant S_ .f32 0x00000000#32),
    TRef.binary (TRef.of (T := ⟨S100000x128, .f32⟩) main_call4_v0) (TRef.of (T := ⟨S_, .f32⟩) main_call4_cst) (TRef.of (T := ⟨S100000, .f32⟩) main_call4_v1) (fun x v => Host.reduceAdd x v reducesTo_S100000x128_S100000_d1 h_S_),
    TRef.unary (TRef.of (T := ⟨S100000, .f32⟩) main_call4_v1) (TRef.of (T := ⟨S100000x1, .f32⟩) main_call4_v2) (broadcastInDim S100000x1 ![0] bcast_S100000_S100000x1_0),
    TRef.unary (TRef.of (T := ⟨S100000x1, .f32⟩) main_call4_v2) (TRef.of (T := ⟨S100000x1, .f32⟩) main_v99) Host.sqrt ]

/-- Operations 133 … 141 of @main: up to `main_v106`. -/
abbrev c17 : List (HloOp τ sig (Elt F)) :=
  [
    nullary main_cst_19 (constant S_ .f32 0x2B8CBCCC#32),
    unary main_cst_19 main_v100 (broadcastInDim S100000x1 ![] bcast_S_S100000x1 : (⟨S_, .f32⟩ : BufTy).Contents (Elt F) → (⟨S100000x1, .f32⟩ : BufTy).Contents (Elt F)),
    binary main_v99 main_v100 main_v101 (maximumf : (⟨S100000x1, .f32⟩ : BufTy).Contents (Elt F) → (⟨S100000x1, .f32⟩ : BufTy).Contents (Elt F) → (⟨S100000x1, .f32⟩ : BufTy).Contents (Elt F)),
    unary main_v101 main_v102 (broadcastInDim S100000x128 ![0, 1] bcast_S100000x1_S100000x128_0_1 : (⟨S100000x1, .f32⟩ : BufTy).Contents (Elt F) → (⟨S100000x128, .f32⟩ : BufTy).Contents (Elt F)),
    binary main_v98 main_v102 main_v103 (Host.divf : (⟨S100000x128, .f32⟩ : BufTy).Contents (Elt F) → (⟨S100000x128, .f32⟩ : BufTy).Contents (Elt F) → (⟨S100000x128, .f32⟩ : BufTy).Contents (Elt F)),
    binary main_v103 main_arg0 main_v104 (addf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x40000000#32),
    unary main_cst_20 main_v105 (broadcastInDim S100000x128 ![] bcast_S_S100000x128 : (⟨S_, .f32⟩ : BufTy).Contents (Elt F) → (⟨S100000x128, .f32⟩ : BufTy).Contents (Elt F)),
    binary main_v104 main_v105 main_v106 (Host.divf : (⟨S100000x128, .f32⟩ : BufTy).Contents (Elt F) → (⟨S100000x128, .f32⟩ : BufTy).Contents (Elt F) → (⟨S100000x128, .f32⟩ : BufTy).Contents (Elt F)) ]

/-- Operations 142 … 146 of @main: up to `main_v111`. -/
abbrev c18 : List (HloOp τ sig (Elt F)) :=
  [
    unary main_arg3 main_v107 ((extractStridedSlice S1x128x128 ![2, 0, 0] · slices_S8x128x128_S1x128x128_2_0_0) : (⟨S8x128x128, .f32⟩ : BufTy).Contents (Elt F) → (⟨S1x128x128, .f32⟩ : BufTy).Contents (Elt F)),
    reshape main_v107 main_v108 rfl shapeCasts_S1x128x128_S128x128,
    unary main_arg4 main_v109 ((extractStridedSlice S1x128 ![2, 0] · slices_S8x128_S1x128_2_0) : (⟨S8x128, .f32⟩ : BufTy).Contents (Elt F) → (⟨S1x128, .f32⟩ : BufTy).Contents (Elt F)),
    reshape main_v109 main_v110 rfl shapeCasts_S1x128_S128,
    binary main_v106 main_v108 main_v111 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 147 … 150 of @main: up to `main_v114`. -/
abbrev c19 : List (HloOp τ sig (Elt F)) :=
  [
    nullary main_cst_21 (constant S_ .f32 0x00000000#32),
    unary main_cst_21 main_v112 (broadcastInDim S100000 ![] bcast_S_S100000 : (⟨S_, .f32⟩ : BufTy).Contents (Elt F) → (⟨S100000, .f32⟩ : BufTy).Contents (Elt F)),
    unary main_v6 main_v113 (broadcastInDim S740000x1 ![0] bcast_S740000_S740000x1_0 : (⟨S740000, .i32⟩ : BufTy).Contents (Elt F) → (⟨S740000x1, .i32⟩ : BufTy).Contents (Elt F)),
    ternary main_v112 main_v113 main_v8 main_v114 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 151 … 153 of @main: up to `main_v116`. -/
abbrev c20 : List (HloOp τ sig (Elt F)) :=
  [
    nullary main_cst_22 (constant S_ .f32 0x00000000#32),
    unary main_cst_22 main_v115 (broadcastInDim S100000 ![] bcast_S_S100000 : (⟨S_, .f32⟩ : BufTy).Contents (Elt F) → (⟨S100000, .f32⟩ : BufTy).Contents (Elt F)),
    binary main_v114 main_v115 main_v116 (cmpf .ogt : (⟨S100000, .f32⟩ : BufTy).Contents (Elt F) → (⟨S100000, .f32⟩ : BufTy).Contents (Elt F) → (⟨S100000, .i1⟩ : BufTy).Contents (Elt F)) ]

/-- Operations 154 … 154 of @main: up to `main_v117`. -/
abbrev c21 : List (HloOp τ sig (Elt F)) :=
  [
    unary main_v114 main_v117 (Host.rsqrt : (⟨S100000, .f32⟩ : BufTy).Contents (Elt F) → (⟨S100000, .f32⟩ : BufTy).Contents (Elt F)) ]

/-- Operations 155 … 158 of @main: up to `main_v118`. -/
abbrev c22 : List (HloOp τ sig (Elt F)) :=
  [
    nullary main_cst_23 (constant S_ .f32 0x00000000#32),
    TRef.unary (TRef.of (T := ⟨S_, .f32⟩) main_cst_23) (TRef.of (T := ⟨S_, .f32⟩) main_call5_v0) id,
    TRef.unary (TRef.of (T := ⟨S_, .f32⟩) main_call5_v0) (TRef.of (T := ⟨S100000, .f32⟩) main_call5_v1) (broadcastInDim S100000 ![] bcast_S_S100000),
    TRef.ternary (TRef.of (T := ⟨S100000, .i1⟩) main_v116) (TRef.of (T := ⟨S100000, .f32⟩) main_v117) (TRef.of (T := ⟨S100000, .f32⟩) main_call5_v1) (TRef.of (T := ⟨S100000, .f32⟩) main_v118) select ]

/-- Operations 159 … 178 of @main: up to `main_v134`. -/
abbrev c23 : List (HloOp τ sig (Elt F)) :=
  [
    nullary main_c_24 (constantI S_ 32 0#32),
    unary main_c_24 main_v119 (broadcastInDim S740000 ![] bcast_S_S740000 : (⟨S_, .i32⟩ : BufTy).Contents (Elt F) → (⟨S740000, .i32⟩ : BufTy).Contents (Elt F)),
    binary main_v3 main_v119 main_v120 (cmpi .slt : (⟨S740000, .i32⟩ : BufTy).Contents (Elt F) → (⟨S740000, .i32⟩ : BufTy).Contents (Elt F) → (⟨S740000, .i1⟩ : BufTy).Contents (Elt F)),
    nullary main_c_25 (constantI S_ 32 100000#32),
    unary main_c_25 main_v121 (broadcastInDim S740000 ![] bcast_S_S740000 : (⟨S_, .i32⟩ : BufTy).Contents (Elt F) → (⟨S740000, .i32⟩ : BufTy).Contents (Elt F)),
    binary main_v3 main_v121 main_v122 (addi : (⟨S740000, .i32⟩ : BufTy).Contents (Elt F) → (⟨S740000, .i32⟩ : BufTy).Contents (Elt F) → (⟨S740000, .i32⟩ : BufTy).Contents (Elt F)),
    ternary main_v120 main_v122 main_v3 main_v123 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v123 main_v124 (broadcastInDim S740000x1 ![0] bcast_S740000_S740000x1_0 : (⟨S740000, .i32⟩ : BufTy).Contents (Elt F) → (⟨S740000x1, .i32⟩ : BufTy).Contents (Elt F)),
    binary main_v118 main_v124 main_v125 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v125 main_v8 main_v126 (mulf : (⟨S740000, .f32⟩ : BufTy).Contents (Elt F) → (⟨S740000, .f32⟩ : BufTy).Contents (Elt F) → (⟨S740000, .f32⟩ : BufTy).Contents (Elt F)),
    nullary main_c_26 (constantI S_ 32 0#32),
    unary main_c_26 main_v127 (broadcastInDim S740000 ![] bcast_S_S740000 : (⟨S_, .i32⟩ : BufTy).Contents (Elt F) → (⟨S740000, .i32⟩ : BufTy).Contents (Elt F)),
    binary main_v6 main_v127 main_v128 (cmpi .slt : (⟨S740000, .i32⟩ : BufTy).Contents (Elt F) → (⟨S740000, .i32⟩ : BufTy).Contents (Elt F) → (⟨S740000, .i1⟩ : BufTy).Contents (Elt F)),
    nullary main_c_27 (constantI S_ 32 100000#32),
    unary main_c_27 main_v129 (broadcastInDim S740000 ![] bcast_S_S740000 : (⟨S_, .i32⟩ : BufTy).Contents (Elt F) → (⟨S740000, .i32⟩ : BufTy).Contents (Elt F)),
    binary main_v6 main_v129 main_v130 (addi : (⟨S740000, .i32⟩ : BufTy).Contents (Elt F) → (⟨S740000, .i32⟩ : BufTy).Contents (Elt F) → (⟨S740000, .i32⟩ : BufTy).Contents (Elt F)),
    ternary main_v128 main_v130 main_v6 main_v131 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v131 main_v132 (broadcastInDim S740000x1 ![0] bcast_S740000_S740000x1_0 : (⟨S740000, .i32⟩ : BufTy).Contents (Elt F) → (⟨S740000x1, .i32⟩ : BufTy).Contents (Elt F)),
    binary main_v118 main_v132 main_v133 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v126 main_v133 main_v134 (mulf : (⟨S740000, .f32⟩ : BufTy).Contents (Elt F) → (⟨S740000, .f32⟩ : BufTy).Contents (Elt F) → (⟨S740000, .f32⟩ : BufTy).Contents (Elt F)) ]

/-- Operations 179 … 194 of @main: up to `main_v147`. -/
abbrev c24 : List (HloOp τ sig (Elt F)) :=
  [
    nullary main_c_28 (constantI S_ 32 0#32),
    unary main_c_28 main_v135 (broadcastInDim S740000 ![] bcast_S_S740000 : (⟨S_, .i32⟩ : BufTy).Contents (Elt F) → (⟨S740000, .i32⟩ : BufTy).Contents (Elt F)),
    binary main_v3 main_v135 main_v136 (cmpi .slt : (⟨S740000, .i32⟩ : BufTy).Contents (Elt F) → (⟨S740000, .i32⟩ : BufTy).Contents (Elt F) → (⟨S740000, .i1⟩ : BufTy).Contents (Elt F)),
    nullary main_c_29 (constantI S_ 32 100000#32),
    unary main_c_29 main_v137 (broadcastInDim S740000 ![] bcast_S_S740000 : (⟨S_, .i32⟩ : BufTy).Contents (Elt F) → (⟨S740000, .i32⟩ : BufTy).Contents (Elt F)),
    binary main_v3 main_v137 main_v138 (addi : (⟨S740000, .i32⟩ : BufTy).Contents (Elt F) → (⟨S740000, .i32⟩ : BufTy).Contents (Elt F) → (⟨S740000, .i32⟩ : BufTy).Contents (Elt F)),
    ternary main_v136 main_v138 main_v3 main_v139 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v139 main_v140 (broadcastInDim S740000x1 ![0] bcast_S740000_S740000x1_0 : (⟨S740000, .i32⟩ : BufTy).Contents (Elt F) → (⟨S740000x1, .i32⟩ : BufTy).Contents (Elt F)),
    binary main_v111 main_v140 main_v141 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v134 main_v142 (broadcastInDim S740000x1 ![0] bcast_S740000_S740000x1_0 : (⟨S740000, .f32⟩ : BufTy).Contents (Elt F) → (⟨S740000x1, .f32⟩ : BufTy).Contents (Elt F)),
    unary main_v142 main_v143 (broadcastInDim S740000x128 ![0, 1] bcast_S740000x1_S740000x128_0_1 : (⟨S740000x1, .f32⟩ : BufTy).Contents (Elt F) → (⟨S740000x128, .f32⟩ : BufTy).Contents (Elt F)),
    binary main_v141 main_v143 main_v144 (mulf : (⟨S740000x128, .f32⟩ : BufTy).Contents (Elt F) → (⟨S740000x128, .f32⟩ : BufTy).Contents (Elt F) → (⟨S740000x128, .f32⟩ : BufTy).Contents (Elt F)),
    nullary main_cst_30 (constant S_ .f32 0x00000000#32),
    unary main_cst_30 main_v145 (broadcastInDim S100000x128 ![] bcast_S_S100000x128 : (⟨S_, .f32⟩ : BufTy).Contents (Elt F) → (⟨S100000x128, .f32⟩ : BufTy).Contents (Elt F)),
    unary main_v6 main_v146 (broadcastInDim S740000x1 ![0] bcast_S740000_S740000x1_0 : (⟨S740000, .i32⟩ : BufTy).Contents (Elt F) → (⟨S740000x1, .i32⟩ : BufTy).Contents (Elt F)),
    ternary main_v145 main_v146 main_v144 main_v147 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 195 … 205 of @main: up to `main_v156`. -/
abbrev c25 : List (HloOp τ sig (Elt F)) :=
  [
    unary main_v110 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v147 main_v149 main_v150 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x128, .f32⟩) main_call6_v0) (broadcastInDim S100000x128 ![] bcast_S_S100000x128),
    TRef.binary (TRef.of (T := ⟨S100000x128, .f32⟩) main_v150) (TRef.of (T := ⟨S100000x128, .f32⟩) main_call6_v0) (TRef.of (T := ⟨S100000x128, .f32⟩) main_v151) maximumf,
    unary main_arg3 main_v152 ((extractStridedSlice S1x128x128 ![3, 0, 0] · slices_S8x128x128_S1x128x128_3_0_0) : (⟨S8x128x128, .f32⟩ : BufTy).Contents (Elt F) → (⟨S1x128x128, .f32⟩ : BufTy).Contents (Elt F)),
    reshape main_v152 main_v153 rfl shapeCasts_S1x128x128_S128x128,
    unary main_arg4 main_v154 ((extractStridedSlice S1x128 ![3, 0] · slices_S8x128_S1x128_3_0) : (⟨S8x128, .f32⟩ : BufTy).Contents (Elt F) → (⟨S1x128, .f32⟩ : BufTy).Contents (Elt F)),
    reshape main_v154 main_v155 rfl shapeCasts_S1x128_S128,
    binary main_v151 main_v153 main_v156 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 206 … 209 of @main: up to `main_v159`. -/
abbrev c26 : List (HloOp τ sig (Elt F)) :=
  [
    nullary main_cst_31 (constant S_ .f32 0x00000000#32),
    unary main_cst_31 main_v157 (broadcastInDim S100000 ![] bcast_S_S100000 : (⟨S_, .f32⟩ : BufTy).Contents (Elt F) → (⟨S100000, .f32⟩ : BufTy).Contents (Elt F)),
    unary main_v6 main_v158 (broadcastInDim S740000x1 ![0] bcast_S740000_S740000x1_0 : (⟨S740000, .i32⟩ : BufTy).Contents (Elt F) → (⟨S740000x1, .i32⟩ : BufTy).Contents (Elt F)),
    ternary main_v157 main_v158 main_v8 main_v159 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 210 … 212 of @main: up to `main_v161`. -/
abbrev c27 : List (HloOp τ sig (Elt F)) :=
  [
    nullary main_cst_32 (constant S_ .f32 0x00000000#32),
    unary main_cst_32 main_v160 (broadcastInDim S100000 ![] bcast_S_S100000 : (⟨S_, .f32⟩ : BufTy).Contents (Elt F) → (⟨S100000, .f32⟩ : BufTy).Contents (Elt F)),
    binary main_v159 main_v160 main_v161 (cmpf .ogt : (⟨S100000, .f32⟩ : BufTy).Contents (Elt F) → (⟨S100000, .f32⟩ : BufTy).Contents (Elt F) → (⟨S100000, .i1⟩ : BufTy).Contents (Elt F)) ]

/-- Operations 213 … 213 of @main: up to `main_v162`. -/
abbrev c28 : List (HloOp τ sig (Elt F)) :=
  [
    unary main_v159 main_v162 (Host.rsqrt : (⟨S100000, .f32⟩ : BufTy).Contents (Elt F) → (⟨S100000, .f32⟩ : BufTy).Contents (Elt F)) ]

/-- Operations 214 … 217 of @main: up to `main_v163`. -/
abbrev c29 : List (HloOp τ sig (Elt F)) :=
  [
    nullary main_cst_33 (constant S_ .f32 0x00000000#32),
    TRef.unary (TRef.of (T := ⟨S_, .f32⟩) main_cst_33) (TRef.of (T := ⟨S_, .f32⟩) main_call7_v0) id,
    TRef.unary (TRef.of (T := ⟨S_, .f32⟩) main_call7_v0) (TRef.of (T := ⟨S100000, .f32⟩) main_call7_v1) (broadcastInDim S100000 ![] bcast_S_S100000),
    TRef.ternary (TRef.of (T := ⟨S100000, .i1⟩) main_v161) (TRef.of (T := ⟨S100000, .f32⟩) main_v162) (TRef.of (T := ⟨S100000, .f32⟩) main_call7_v1) (TRef.of (T := ⟨S100000, .f32⟩) main_v163) select ]

/-- Operations 218 … 237 of @main: up to `main_v179`. -/
abbrev c30 : List (HloOp τ sig (Elt F)) :=
  [
    nullary main_c_34 (constantI S_ 32 0#32),
    unary main_c_34 main_v164 (broadcastInDim S740000 ![] bcast_S_S740000 : (⟨S_, .i32⟩ : BufTy).Contents (Elt F) → (⟨S740000, .i32⟩ : BufTy).Contents (Elt F)),
    binary main_v3 main_v164 main_v165 (cmpi .slt : (⟨S740000, .i32⟩ : BufTy).Contents (Elt F) → (⟨S740000, .i32⟩ : BufTy).Contents (Elt F) → (⟨S740000, .i1⟩ : BufTy).Contents (Elt F)),
    nullary main_c_35 (constantI S_ 32 100000#32),
    unary main_c_35 main_v166 (broadcastInDim S740000 ![] bcast_S_S740000 : (⟨S_, .i32⟩ : BufTy).Contents (Elt F) → (⟨S740000, .i32⟩ : BufTy).Contents (Elt F)),
    binary main_v3 main_v166 main_v167 (addi : (⟨S740000, .i32⟩ : BufTy).Contents (Elt F) → (⟨S740000, .i32⟩ : BufTy).Contents (Elt F) → (⟨S740000, .i32⟩ : BufTy).Contents (Elt F)),
    ternary main_v165 main_v167 main_v3 main_v168 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v168 main_v169 (broadcastInDim S740000x1 ![0] bcast_S740000_S740000x1_0 : (⟨S740000, .i32⟩ : BufTy).Contents (Elt F) → (⟨S740000x1, .i32⟩ : BufTy).Contents (Elt F)),
    binary main_v163 main_v169 main_v170 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v170 main_v8 main_v171 (mulf : (⟨S740000, .f32⟩ : BufTy).Contents (Elt F) → (⟨S740000, .f32⟩ : BufTy).Contents (Elt F) → (⟨S740000, .f32⟩ : BufTy).Contents (Elt F)),
    nullary main_c_36 (constantI S_ 32 0#32),
    unary main_c_36 main_v172 (broadcastInDim S740000 ![] bcast_S_S740000 : (⟨S_, .i32⟩ : BufTy).Contents (Elt F) → (⟨S740000, .i32⟩ : BufTy).Contents (Elt F)),
    binary main_v6 main_v172 main_v173 (cmpi .slt : (⟨S740000, .i32⟩ : BufTy).Contents (Elt F) → (⟨S740000, .i32⟩ : BufTy).Contents (Elt F) → (⟨S740000, .i1⟩ : BufTy).Contents (Elt F)),
    nullary main_c_37 (constantI S_ 32 100000#32),
    unary main_c_37 main_v174 (broadcastInDim S740000 ![] bcast_S_S740000 : (⟨S_, .i32⟩ : BufTy).Contents (Elt F) → (⟨S740000, .i32⟩ : BufTy).Contents (Elt F)),
    binary main_v6 main_v174 main_v175 (addi : (⟨S740000, .i32⟩ : BufTy).Contents (Elt F) → (⟨S740000, .i32⟩ : BufTy).Contents (Elt F) → (⟨S740000, .i32⟩ : BufTy).Contents (Elt F)),
    ternary main_v173 main_v175 main_v6 main_v176 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v176 main_v177 (broadcastInDim S740000x1 ![0] bcast_S740000_S740000x1_0 : (⟨S740000, .i32⟩ : BufTy).Contents (Elt F) → (⟨S740000x1, .i32⟩ : BufTy).Contents (Elt F)),
    binary main_v163 main_v177 main_v178 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v171 main_v178 main_v179 (mulf : (⟨S740000, .f32⟩ : BufTy).Contents (Elt F) → (⟨S740000, .f32⟩ : BufTy).Contents (Elt F) → (⟨S740000, .f32⟩ : BufTy).Contents (Elt F)) ]

/-- Operations 238 … 253 of @main: up to `main_v192`. -/
abbrev c31 : List (HloOp τ sig (Elt F)) :=
  [
    nullary main_c_38 (constantI S_ 32 0#32),
    unary main_c_38 main_v180 (broadcastInDim S740000 ![] bcast_S_S740000 : (⟨S_, .i32⟩ : BufTy).Contents (Elt F) → (⟨S740000, .i32⟩ : BufTy).Contents (Elt F)),
    binary main_v3 main_v180 main_v181 (cmpi .slt : (⟨S740000, .i32⟩ : BufTy).Contents (Elt F) → (⟨S740000, .i32⟩ : BufTy).Contents (Elt F) → (⟨S740000, .i1⟩ : BufTy).Contents (Elt F)),
    nullary main_c_39 (constantI S_ 32 100000#32),
    unary main_c_39 main_v182 (broadcastInDim S740000 ![] bcast_S_S740000 : (⟨S_, .i32⟩ : BufTy).Contents (Elt F) → (⟨S740000, .i32⟩ : BufTy).Contents (Elt F)),
    binary main_v3 main_v182 main_v183 (addi : (⟨S740000, .i32⟩ : BufTy).Contents (Elt F) → (⟨S740000, .i32⟩ : BufTy).Contents (Elt F) → (⟨S740000, .i32⟩ : BufTy).Contents (Elt F)),
    ternary main_v181 main_v183 main_v3 main_v184 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v184 main_v185 (broadcastInDim S740000x1 ![0] bcast_S740000_S740000x1_0 : (⟨S740000, .i32⟩ : BufTy).Contents (Elt F) → (⟨S740000x1, .i32⟩ : BufTy).Contents (Elt F)),
    binary main_v156 main_v185 main_v186 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v179 main_v187 (broadcastInDim S740000x1 ![0] bcast_S740000_S740000x1_0 : (⟨S740000, .f32⟩ : BufTy).Contents (Elt F) → (⟨S740000x1, .f32⟩ : BufTy).Contents (Elt F)),
    unary main_v187 main_v188 (broadcastInDim S740000x128 ![0, 1] bcast_S740000x1_S740000x128_0_1 : (⟨S740000x1, .f32⟩ : BufTy).Contents (Elt F) → (⟨S740000x128, .f32⟩ : BufTy).Contents (Elt F)),
    binary main_v186 main_v188 main_v189 (mulf : (⟨S740000x128, .f32⟩ : BufTy).Contents (Elt F) → (⟨S740000x128, .f32⟩ : BufTy).Contents (Elt F) → (⟨S740000x128, .f32⟩ : BufTy).Contents (Elt F)),
    nullary main_cst_40 (constant S_ .f32 0x00000000#32),
    unary main_cst_40 main_v190 (broadcastInDim S100000x128 ![] bcast_S_S100000x128 : (⟨S_, .f32⟩ : BufTy).Contents (Elt F) → (⟨S100000x128, .f32⟩ : BufTy).Contents (Elt F)),
    unary main_v6 main_v191 (broadcastInDim S740000x1 ![0] bcast_S740000_S740000x1_0 : (⟨S740000, .i32⟩ : BufTy).Contents (Elt F) → (⟨S740000x1, .i32⟩ : BufTy).Contents (Elt F)),
    ternary main_v190 main_v191 main_v189 main_v192 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 254 … 259 of @main: up to `main_v196`. -/
abbrev c32 : List (HloOp τ sig (Elt F)) :=
  [
    unary main_v155 main_v193 (broadcastInDim S1x128 ![1] bcast_S128_S1x128_1 : (⟨S128, .f32⟩ : BufTy).Contents (Elt F) → (⟨S1x128, .f32⟩ : BufTy).Contents (Elt F)),
    unary main_v193 main_v194 (broadcastInDim S100000x128 ![0, 1] bcast_S1x128_S100000x128_0_1 : (⟨S1x128, .f32⟩ : BufTy).Contents (Elt F) → (⟨S100000x128, .f32⟩ : BufTy).Contents (Elt F)),
    binary main_v192 main_v194 main_v195 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S100000x128, .f32⟩) main_call8_v0) (broadcastInDim S100000x128 ![] bcast_S_S100000x128),
    TRef.binary (TRef.of (T := ⟨S100000x128, .f32⟩) main_v195) (TRef.of (T := ⟨S100000x128, .f32⟩) main_call8_v0) (TRef.of (T := ⟨S100000x128, .f32⟩) main_v196) maximumf ]

/-- Operations 260 … 264 of @main: up to `main_v197`. -/
abbrev c33 : List (HloOp τ sig (Elt F)) :=
  [
    TRef.binary (TRef.of (T := ⟨S100000x128, .f32⟩) main_v196) (TRef.of (T := ⟨S100000x128, .f32⟩) main_v196) (TRef.of (T := ⟨S100000x128, .f32⟩) main_call9_v0) mulf,
    TRef.nullary (TRef.of (T := ⟨S_, .f32⟩) main_call9_cst) (constant S_ .f32 0x00000000#32),
    TRef.binary (TRef.of (T := ⟨S100000x128, .f32⟩) main_call9_v0) (TRef.of (T := ⟨S_, .f32⟩) main_call9_cst) (TRef.of (T := ⟨S100000, .f32⟩) main_call9_v1) (fun x v => Host.reduceAdd x v reducesTo_S100000x128_S100000_d1 h_S_),
    TRef.unary (TRef.of (T := ⟨S100000, .f32⟩) main_call9_v1) (TRef.of (T := ⟨S100000x1, .f32⟩) main_call9_v2) (broadcastInDim S100000x1 ![0] bcast_S100000_S100000x1_0),
    TRef.unary (TRef.of (T := ⟨S100000x1, .f32⟩) main_call9_v2) (TRef.of (T := ⟨S100000x1, .f32⟩) main_v197) Host.sqrt ]

/-- Operations 265 … 273 of @main: up to `main_v204`. -/
abbrev c34 : List (HloOp τ sig (Elt F)) :=
  [
    nullary main_cst_41 (constant S_ .f32 0x2B8CBCCC#32),
    unary main_cst_41 main_v198 (broadcastInDim S100000x1 ![] bcast_S_S100000x1 : (⟨S_, .f32⟩ : BufTy).Contents (Elt F) → (⟨S100000x1, .f32⟩ : BufTy).Contents (Elt F)),
    binary main_v197 main_v198 main_v199 (maximumf : (⟨S100000x1, .f32⟩ : BufTy).Contents (Elt F) → (⟨S100000x1, .f32⟩ : BufTy).Contents (Elt F) → (⟨S100000x1, .f32⟩ : BufTy).Contents (Elt F)),
    unary main_v199 main_v200 (broadcastInDim S100000x128 ![0, 1] bcast_S100000x1_S100000x128_0_1 : (⟨S100000x1, .f32⟩ : BufTy).Contents (Elt F) → (⟨S100000x128, .f32⟩ : BufTy).Contents (Elt F)),
    binary main_v196 main_v200 main_v201 (Host.divf : (⟨S100000x128, .f32⟩ : BufTy).Contents (Elt F) → (⟨S100000x128, .f32⟩ : BufTy).Contents (Elt F) → (⟨S100000x128, .f32⟩ : BufTy).Contents (Elt F)),
    binary main_v201 main_v106 main_v202 (addf : (⟨S100000x128, .f32⟩ : BufTy).Contents (Elt F) → (⟨S100000x128, .f32⟩ : BufTy).Contents (Elt F) → (⟨S100000x128, .f32⟩ : BufTy).Contents (Elt F)),
    nullary main_cst_42 (constant S_ .f32 0x40000000#32),
    unary main_cst_42 main_v203 (broadcastInDim S100000x128 ![] bcast_S_S100000x128 : (⟨S_, .f32⟩ : BufTy).Contents (Elt F) → (⟨S100000x128, .f32⟩ : BufTy).Contents (Elt F)),
    binary main_v202 main_v203 main_v204 (Host.divf : (⟨S100000x128, .f32⟩ : BufTy).Contents (Elt F) → (⟨S100000x128, .f32⟩ : BufTy).Contents (Elt F) → (⟨S100000x128, .f32⟩ : BufTy).Contents (Elt F)) ]

/-- Operations 274 … 278 of @main: up to `main_v209`. -/
abbrev c35 : List (HloOp τ sig (Elt F)) :=
  [
    unary main_arg3 main_v205 ((extractStridedSlice S1x128x128 ![4, 0, 0] · slices_S8x128x128_S1x128x128_4_0_0) : (⟨S8x128x128, .f32⟩ : BufTy).Contents (Elt F) → (⟨S1x128x128, .f32⟩ : BufTy).Contents (Elt F)),
    reshape main_v205 main_v206 rfl shapeCasts_S1x128x128_S128x128,
    unary main_arg4 main_v207 ((extractStridedSlice S1x128 ![4, 0] · slices_S8x128_S1x128_4_0) : (⟨S8x128, .f32⟩ : BufTy).Contents (Elt F) → (⟨S1x128, .f32⟩ : BufTy).Contents (Elt F)),
    reshape main_v207 main_v208 rfl shapeCasts_S1x128_S128,
    binary main_v204 main_v206 main_v209 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 279 … 282 of @main: up to `main_v212`. -/
abbrev c36 : List (HloOp τ sig (Elt F)) :=
  [
    nullary main_cst_43 (constant S_ .f32 0x00000000#32),
    unary main_cst_43 main_v210 (broadcastInDim S100000 ![] bcast_S_S100000 : (⟨S_, .f32⟩ : BufTy).Contents (Elt F) → (⟨S100000, .f32⟩ : BufTy).Contents (Elt F)),
    unary main_v6 main_v211 (broadcastInDim S740000x1 ![0] bcast_S740000_S740000x1_0 : (⟨S740000, .i32⟩ : BufTy).Contents (Elt F) → (⟨S740000x1, .i32⟩ : BufTy).Contents (Elt F)),
    ternary main_v210 main_v211 main_v8 main_v212 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 283 … 285 of @main: up to `main_v214`. -/
abbrev c37 : List (HloOp τ sig (Elt F)) :=
  [
    nullary main_cst_44 (constant S_ .f32 0x00000000#32),
    unary main_cst_44 main_v213 (broadcastInDim S100000 ![] bcast_S_S100000 : (⟨S_, .f32⟩ : BufTy).Contents (Elt F) → (⟨S100000, .f32⟩ : BufTy).Contents (Elt F)),
    binary main_v212 main_v213 main_v214 (cmpf .ogt : (⟨S100000, .f32⟩ : BufTy).Contents (Elt F) → (⟨S100000, .f32⟩ : BufTy).Contents (Elt F) → (⟨S100000, .i1⟩ : BufTy).Contents (Elt F)) ]

/-- Operations 286 … 286 of @main: up to `main_v215`. -/
abbrev c38 : List (HloOp τ sig (Elt F)) :=
  [
    unary main_v212 main_v215 (Host.rsqrt : (⟨S100000, .f32⟩ : BufTy).Contents (Elt F) → (⟨S100000, .f32⟩ : BufTy).Contents (Elt F)) ]

/-- Operations 287 … 290 of @main: up to `main_v216`. -/
abbrev c39 : List (HloOp τ sig (Elt F)) :=
  [
    nullary main_cst_45 (constant S_ .f32 0x00000000#32),
    TRef.unary (TRef.of (T := ⟨S_, .f32⟩) main_cst_45) (TRef.of (T := ⟨S_, .f32⟩) main_call10_v0) id,
    TRef.unary (TRef.of (T := ⟨S_, .f32⟩) main_call10_v0) (TRef.of (T := ⟨S100000, .f32⟩) main_call10_v1) (broadcastInDim S100000 ![] bcast_S_S100000),
    TRef.ternary (TRef.of (T := ⟨S100000, .i1⟩) main_v214) (TRef.of (T := ⟨S100000, .f32⟩) main_v215) (TRef.of (T := ⟨S100000, .f32⟩) main_call10_v1) (TRef.of (T := ⟨S100000, .f32⟩) main_v216) select ]

/-- Operations 291 … 310 of @main: up to `main_v232`. -/
abbrev c40 : List (HloOp τ sig (Elt F)) :=
  [
    nullary main_c_46 (constantI S_ 32 0#32),
    unary main_c_46 main_v217 (broadcastInDim S740000 ![] bcast_S_S740000 : (⟨S_, .i32⟩ : BufTy).Contents (Elt F) → (⟨S740000, .i32⟩ : BufTy).Contents (Elt F)),
    binary main_v3 main_v217 main_v218 (cmpi .slt : (⟨S740000, .i32⟩ : BufTy).Contents (Elt F) → (⟨S740000, .i32⟩ : BufTy).Contents (Elt F) → (⟨S740000, .i1⟩ : BufTy).Contents (Elt F)),
    nullary main_c_47 (constantI S_ 32 100000#32),
    unary main_c_47 main_v219 (broadcastInDim S740000 ![] bcast_S_S740000 : (⟨S_, .i32⟩ : BufTy).Contents (Elt F) → (⟨S740000, .i32⟩ : BufTy).Contents (Elt F)),
    binary main_v3 main_v219 main_v220 (addi : (⟨S740000, .i32⟩ : BufTy).Contents (Elt F) → (⟨S740000, .i32⟩ : BufTy).Contents (Elt F) → (⟨S740000, .i32⟩ : BufTy).Contents (Elt F)),
    ternary main_v218 main_v220 main_v3 main_v221 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v221 main_v222 (broadcastInDim S740000x1 ![0] bcast_S740000_S740000x1_0 : (⟨S740000, .i32⟩ : BufTy).Contents (Elt F) → (⟨S740000x1, .i32⟩ : BufTy).Contents (Elt F)),
    binary main_v216 main_v222 main_v223 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v223 main_v8 main_v224 (mulf : (⟨S740000, .f32⟩ : BufTy).Contents (Elt F) → (⟨S740000, .f32⟩ : BufTy).Contents (Elt F) → (⟨S740000, .f32⟩ : BufTy).Contents (Elt F)),
    nullary main_c_48 (constantI S_ 32 0#32),
    unary main_c_48 main_v225 (broadcastInDim S740000 ![] bcast_S_S740000 : (⟨S_, .i32⟩ : BufTy).Contents (Elt F) → (⟨S740000, .i32⟩ : BufTy).Contents (Elt F)),
    binary main_v6 main_v225 main_v226 (cmpi .slt : (⟨S740000, .i32⟩ : BufTy).Contents (Elt F) → (⟨S740000, .i32⟩ : BufTy).Contents (Elt F) → (⟨S740000, .i1⟩ : BufTy).Contents (Elt F)),
    nullary main_c_49 (constantI S_ 32 100000#32),
    unary main_c_49 main_v227 (broadcastInDim S740000 ![] bcast_S_S740000 : (⟨S_, .i32⟩ : BufTy).Contents (Elt F) → (⟨S740000, .i32⟩ : BufTy).Contents (Elt F)),
    binary main_v6 main_v227 main_v228 (addi : (⟨S740000, .i32⟩ : BufTy).Contents (Elt F) → (⟨S740000, .i32⟩ : BufTy).Contents (Elt F) → (⟨S740000, .i32⟩ : BufTy).Contents (Elt F)),
    ternary main_v226 main_v228 main_v6 main_v229 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v229 main_v230 (broadcastInDim S740000x1 ![0] bcast_S740000_S740000x1_0 : (⟨S740000, .i32⟩ : BufTy).Contents (Elt F) → (⟨S740000x1, .i32⟩ : BufTy).Contents (Elt F)),
    binary main_v216 main_v230 main_v231 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v224 main_v231 main_v232 (mulf : (⟨S740000, .f32⟩ : BufTy).Contents (Elt F) → (⟨S740000, .f32⟩ : BufTy).Contents (Elt F) → (⟨S740000, .f32⟩ : BufTy).Contents (Elt F)) ]

/-- Operations 311 … 326 of @main: up to `main_v245`. -/
abbrev c41 : List (HloOp τ sig (Elt F)) :=
  [
    nullary main_c_50 (constantI S_ 32 0#32),
    unary main_c_50 main_v233 (broadcastInDim S740000 ![] bcast_S_S740000 : (⟨S_, .i32⟩ : BufTy).Contents (Elt F) → (⟨S740000, .i32⟩ : BufTy).Contents (Elt F)),
    binary main_v3 main_v233 main_v234 (cmpi .slt : (⟨S740000, .i32⟩ : BufTy).Contents (Elt F) → (⟨S740000, .i32⟩ : BufTy).Contents (Elt F) → (⟨S740000, .i1⟩ : BufTy).Contents (Elt F)),
    nullary main_c_51 (constantI S_ 32 100000#32),
    unary main_c_51 main_v235 (broadcastInDim S740000 ![] bcast_S_S740000 : (⟨S_, .i32⟩ : BufTy).Contents (Elt F) → (⟨S740000, .i32⟩ : BufTy).Contents (Elt F)),
    binary main_v3 main_v235 main_v236 (addi : (⟨S740000, .i32⟩ : BufTy).Contents (Elt F) → (⟨S740000, .i32⟩ : BufTy).Contents (Elt F) → (⟨S740000, .i32⟩ : BufTy).Contents (Elt F)),
    ternary main_v234 main_v236 main_v3 main_v237 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v237 main_v238 (broadcastInDim S740000x1 ![0] bcast_S740000_S740000x1_0 : (⟨S740000, .i32⟩ : BufTy).Contents (Elt F) → (⟨S740000x1, .i32⟩ : BufTy).Contents (Elt F)),
    binary main_v209 main_v238 main_v239 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v232 main_v240 (broadcastInDim S740000x1 ![0] bcast_S740000_S740000x1_0 : (⟨S740000, .f32⟩ : BufTy).Contents (Elt F) → (⟨S740000x1, .f32⟩ : BufTy).Contents (Elt F)),
    unary main_v240 main_v241 (broadcastInDim S740000x128 ![0, 1] bcast_S740000x1_S740000x128_0_1 : (⟨S740000x1, .f32⟩ : BufTy).Contents (Elt F) → (⟨S740000x128, .f32⟩ : BufTy).Contents (Elt F)),
    binary main_v239 main_v241 main_v242 (mulf : (⟨S740000x128, .f32⟩ : BufTy).Contents (Elt F) → (⟨S740000x128, .f32⟩ : BufTy).Contents (Elt F) → (⟨S740000x128, .f32⟩ : BufTy).Contents (Elt F)),
    nullary main_cst_52 (constant S_ .f32 0x00000000#32),
    unary main_cst_52 main_v243 (broadcastInDim S100000x128 ![] bcast_S_S100000x128 : (⟨S_, .f32⟩ : BufTy).Contents (Elt F) → (⟨S100000x128, .f32⟩ : BufTy).Contents (Elt F)),
    unary main_v6 main_v244 (broadcastInDim S740000x1 ![0] bcast_S740000_S740000x1_0 : (⟨S740000, .i32⟩ : BufTy).Contents (Elt F) → (⟨S740000x1, .i32⟩ : BufTy).Contents (Elt F)),
    ternary main_v243 main_v244 main_v242 main_v245 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 327 … 337 of @main: up to `main_v254`. -/
abbrev c42 : List (HloOp τ sig (Elt F)) :=
  [
    unary main_v208 main_v246 (broadcastInDim S1x128 ![1] bcast_S128_S1x128_1 : (⟨S128, .f32⟩ : BufTy).Contents (Elt F) → (⟨S1x128, .f32⟩ : BufTy).Contents (Elt F)),
    unary main_v246 main_v247 (broadcastInDim S100000x128 ![0, 1] bcast_S1x128_S100000x128_0_1 : (⟨S1x128, .f32⟩ : BufTy).Contents (Elt F) → (⟨S100000x128, .f32⟩ : BufTy).Contents (Elt F)),
    binary main_v245 main_v247 main_v248 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x128, .f32⟩) main_call11_v0) (broadcastInDim S100000x128 ![] bcast_S_S100000x128),
    TRef.binary (TRef.of (T := ⟨S100000x128, .f32⟩) main_v248) (TRef.of (T := ⟨S100000x128, .f32⟩) main_call11_v0) (TRef.of (T := ⟨S100000x128, .f32⟩) main_v249) maximumf,
    unary main_arg3 main_v250 ((extractStridedSlice S1x128x128 ![5, 0, 0] · slices_S8x128x128_S1x128x128_5_0_0) : (⟨S8x128x128, .f32⟩ : BufTy).Contents (Elt F) → (⟨S1x128x128, .f32⟩ : BufTy).Contents (Elt F)),
    reshape main_v250 main_v251 rfl shapeCasts_S1x128x128_S128x128,
    unary main_arg4 main_v252 ((extractStridedSlice S1x128 ![5, 0] · slices_S8x128_S1x128_5_0) : (⟨S8x128, .f32⟩ : BufTy).Contents (Elt F) → (⟨S1x128, .f32⟩ : BufTy).Contents (Elt F)),
    reshape main_v252 main_v253 rfl shapeCasts_S1x128_S128,
    binary main_v249 main_v251 main_v254 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 338 … 341 of @main: up to `main_v257`. -/
abbrev c43 : List (HloOp τ sig (Elt F)) :=
  [
    nullary main_cst_53 (constant S_ .f32 0x00000000#32),
    unary main_cst_53 main_v255 (broadcastInDim S100000 ![] bcast_S_S100000 : (⟨S_, .f32⟩ : BufTy).Contents (Elt F) → (⟨S100000, .f32⟩ : BufTy).Contents (Elt F)),
    unary main_v6 main_v256 (broadcastInDim S740000x1 ![0] bcast_S740000_S740000x1_0 : (⟨S740000, .i32⟩ : BufTy).Contents (Elt F) → (⟨S740000x1, .i32⟩ : BufTy).Contents (Elt F)),
    ternary main_v255 main_v256 main_v8 main_v257 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 342 … 344 of @main: up to `main_v259`. -/
abbrev c44 : List (HloOp τ sig (Elt F)) :=
  [
    nullary main_cst_54 (constant S_ .f32 0x00000000#32),
    unary main_cst_54 main_v258 (broadcastInDim S100000 ![] bcast_S_S100000 : (⟨S_, .f32⟩ : BufTy).Contents (Elt F) → (⟨S100000, .f32⟩ : BufTy).Contents (Elt F)),
    binary main_v257 main_v258 main_v259 (cmpf .ogt : (⟨S100000, .f32⟩ : BufTy).Contents (Elt F) → (⟨S100000, .f32⟩ : BufTy).Contents (Elt F) → (⟨S100000, .i1⟩ : BufTy).Contents (Elt F)) ]

/-- Operations 345 … 345 of @main: up to `main_v260`. -/
abbrev c45 : List (HloOp τ sig (Elt F)) :=
  [
    unary main_v257 main_v260 (Host.rsqrt : (⟨S100000, .f32⟩ : BufTy).Contents (Elt F) → (⟨S100000, .f32⟩ : BufTy).Contents (Elt F)) ]

/-- Operations 346 … 349 of @main: up to `main_v261`. -/
abbrev c46 : List (HloOp τ sig (Elt F)) :=
  [
    nullary main_cst_55 (constant S_ .f32 0x00000000#32),
    TRef.unary (TRef.of (T := ⟨S_, .f32⟩) main_cst_55) (TRef.of (T := ⟨S_, .f32⟩) main_call12_v0) id,
    TRef.unary (TRef.of (T := ⟨S_, .f32⟩) main_call12_v0) (TRef.of (T := ⟨S100000, .f32⟩) main_call12_v1) (broadcastInDim S100000 ![] bcast_S_S100000),
    TRef.ternary (TRef.of (T := ⟨S100000, .i1⟩) main_v259) (TRef.of (T := ⟨S100000, .f32⟩) main_v260) (TRef.of (T := ⟨S100000, .f32⟩) main_call12_v1) (TRef.of (T := ⟨S100000, .f32⟩) main_v261) select ]

/-- Operations 350 … 369 of @main: up to `main_v277`. -/
abbrev c47 : List (HloOp τ sig (Elt F)) :=
  [
    nullary main_c_56 (constantI S_ 32 0#32),
    unary main_c_56 main_v262 (broadcastInDim S740000 ![] bcast_S_S740000 : (⟨S_, .i32⟩ : BufTy).Contents (Elt F) → (⟨S740000, .i32⟩ : BufTy).Contents (Elt F)),
    binary main_v3 main_v262 main_v263 (cmpi .slt : (⟨S740000, .i32⟩ : BufTy).Contents (Elt F) → (⟨S740000, .i32⟩ : BufTy).Contents (Elt F) → (⟨S740000, .i1⟩ : BufTy).Contents (Elt F)),
    nullary main_c_57 (constantI S_ 32 100000#32),
    unary main_c_57 main_v264 (broadcastInDim S740000 ![] bcast_S_S740000 : (⟨S_, .i32⟩ : BufTy).Contents (Elt F) → (⟨S740000, .i32⟩ : BufTy).Contents (Elt F)),
    binary main_v3 main_v264 main_v265 (addi : (⟨S740000, .i32⟩ : BufTy).Contents (Elt F) → (⟨S740000, .i32⟩ : BufTy).Contents (Elt F) → (⟨S740000, .i32⟩ : BufTy).Contents (Elt F)),
    ternary main_v263 main_v265 main_v3 main_v266 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v266 main_v267 (broadcastInDim S740000x1 ![0] bcast_S740000_S740000x1_0 : (⟨S740000, .i32⟩ : BufTy).Contents (Elt F) → (⟨S740000x1, .i32⟩ : BufTy).Contents (Elt F)),
    binary main_v261 main_v267 main_v268 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v268 main_v8 main_v269 (mulf : (⟨S740000, .f32⟩ : BufTy).Contents (Elt F) → (⟨S740000, .f32⟩ : BufTy).Contents (Elt F) → (⟨S740000, .f32⟩ : BufTy).Contents (Elt F)),
    nullary main_c_58 (constantI S_ 32 0#32),
    unary main_c_58 main_v270 (broadcastInDim S740000 ![] bcast_S_S740000 : (⟨S_, .i32⟩ : BufTy).Contents (Elt F) → (⟨S740000, .i32⟩ : BufTy).Contents (Elt F)),
    binary main_v6 main_v270 main_v271 (cmpi .slt : (⟨S740000, .i32⟩ : BufTy).Contents (Elt F) → (⟨S740000, .i32⟩ : BufTy).Contents (Elt F) → (⟨S740000, .i1⟩ : BufTy).Contents (Elt F)),
    nullary main_c_59 (constantI S_ 32 100000#32),
    unary main_c_59 main_v272 (broadcastInDim S740000 ![] bcast_S_S740000 : (⟨S_, .i32⟩ : BufTy).Contents (Elt F) → (⟨S740000, .i32⟩ : BufTy).Contents (Elt F)),
    binary main_v6 main_v272 main_v273 (addi : (⟨S740000, .i32⟩ : BufTy).Contents (Elt F) → (⟨S740000, .i32⟩ : BufTy).Contents (Elt F) → (⟨S740000, .i32⟩ : BufTy).Contents (Elt F)),
    ternary main_v271 main_v273 main_v6 main_v274 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v274 main_v275 (broadcastInDim S740000x1 ![0] bcast_S740000_S740000x1_0 : (⟨S740000, .i32⟩ : BufTy).Contents (Elt F) → (⟨S740000x1, .i32⟩ : BufTy).Contents (Elt F)),
    binary main_v261 main_v275 main_v276 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v269 main_v276 main_v277 (mulf : (⟨S740000, .f32⟩ : BufTy).Contents (Elt F) → (⟨S740000, .f32⟩ : BufTy).Contents (Elt F) → (⟨S740000, .f32⟩ : BufTy).Contents (Elt F)) ]

/-- Operations 370 … 385 of @main: up to `main_v290`. -/
abbrev c48 : List (HloOp τ sig (Elt F)) :=
  [
    nullary main_c_60 (constantI S_ 32 0#32),
    unary main_c_60 main_v278 (broadcastInDim S740000 ![] bcast_S_S740000 : (⟨S_, .i32⟩ : BufTy).Contents (Elt F) → (⟨S740000, .i32⟩ : BufTy).Contents (Elt F)),
    binary main_v3 main_v278 main_v279 (cmpi .slt : (⟨S740000, .i32⟩ : BufTy).Contents (Elt F) → (⟨S740000, .i32⟩ : BufTy).Contents (Elt F) → (⟨S740000, .i1⟩ : BufTy).Contents (Elt F)),
    nullary main_c_61 (constantI S_ 32 100000#32),
    unary main_c_61 main_v280 (broadcastInDim S740000 ![] bcast_S_S740000 : (⟨S_, .i32⟩ : BufTy).Contents (Elt F) → (⟨S740000, .i32⟩ : BufTy).Contents (Elt F)),
    binary main_v3 main_v280 main_v281 (addi : (⟨S740000, .i32⟩ : BufTy).Contents (Elt F) → (⟨S740000, .i32⟩ : BufTy).Contents (Elt F) → (⟨S740000, .i32⟩ : BufTy).Contents (Elt F)),
    ternary main_v279 main_v281 main_v3 main_v282 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v282 main_v283 (broadcastInDim S740000x1 ![0] bcast_S740000_S740000x1_0 : (⟨S740000, .i32⟩ : BufTy).Contents (Elt F) → (⟨S740000x1, .i32⟩ : BufTy).Contents (Elt F)),
    binary main_v254 main_v283 main_v284 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v277 main_v285 (broadcastInDim S740000x1 ![0] bcast_S740000_S740000x1_0 : (⟨S740000, .f32⟩ : BufTy).Contents (Elt F) → (⟨S740000x1, .f32⟩ : BufTy).Contents (Elt F)),
    unary main_v285 main_v286 (broadcastInDim S740000x128 ![0, 1] bcast_S740000x1_S740000x128_0_1 : (⟨S740000x1, .f32⟩ : BufTy).Contents (Elt F) → (⟨S740000x128, .f32⟩ : BufTy).Contents (Elt F)),
    binary main_v284 main_v286 main_v287 (mulf : (⟨S740000x128, .f32⟩ : BufTy).Contents (Elt F) → (⟨S740000x128, .f32⟩ : BufTy).Contents (Elt F) → (⟨S740000x128, .f32⟩ : BufTy).Contents (Elt F)),
    nullary main_cst_62 (constant S_ .f32 0x00000000#32),
    unary main_cst_62 main_v288 (broadcastInDim S100000x128 ![] bcast_S_S100000x128 : (⟨S_, .f32⟩ : BufTy).Contents (Elt F) → (⟨S100000x128, .f32⟩ : BufTy).Contents (Elt F)),
    unary main_v6 main_v289 (broadcastInDim S740000x1 ![0] bcast_S740000_S740000x1_0 : (⟨S740000, .i32⟩ : BufTy).Contents (Elt F) → (⟨S740000x1, .i32⟩ : BufTy).Contents (Elt F)),
    ternary main_v288 main_v289 main_v287 main_v290 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 386 … 391 of @main: up to `main_v294`. -/
abbrev c49 : List (HloOp τ sig (Elt F)) :=
  [
    unary main_v253 main_v291 (broadcastInDim S1x128 ![1] bcast_S128_S1x128_1 : (⟨S128, .f32⟩ : BufTy).Contents (Elt F) → (⟨S1x128, .f32⟩ : BufTy).Contents (Elt F)),
    unary main_v291 main_v292 (broadcastInDim S100000x128 ![0, 1] bcast_S1x128_S100000x128_0_1 : (⟨S1x128, .f32⟩ : BufTy).Contents (Elt F) → (⟨S100000x128, .f32⟩ : BufTy).Contents (Elt F)),
    binary main_v290 main_v292 main_v293 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call13_cst) (constant S_ .f32 0x00000000#32),
    TRef.unary (TRef.of (T := ⟨S_, .f32⟩) main_call13_cst) (TRef.of (T := ⟨S100000x128, .f32⟩) main_call13_v0) (broadcastInDim S100000x128 ![] bcast_S_S100000x128),
    TRef.binary (TRef.of (T := ⟨S100000x128, .f32⟩) main_v293) (TRef.of (T := ⟨S100000x128, .f32⟩) main_call13_v0) (TRef.of (T := ⟨S100000x128, .f32⟩) main_v294) maximumf ]

/-- Operations 392 … 396 of @main: up to `main_v295`. -/
abbrev c50 : List (HloOp τ sig (Elt F)) :=
  [
    TRef.binary (TRef.of (T := ⟨S100000x128, .f32⟩) main_v294) (TRef.of (T := ⟨S100000x128, .f32⟩) main_v294) (TRef.of (T := ⟨S100000x128, .f32⟩) main_call14_v0) mulf,
    TRef.nullary (TRef.of (T := ⟨S_, .f32⟩) main_call14_cst) (constant S_ .f32 0x00000000#32),
    TRef.binary (TRef.of (T := ⟨S100000x128, .f32⟩) main_call14_v0) (TRef.of (T := ⟨S_, .f32⟩) main_call14_cst) (TRef.of (T := ⟨S100000, .f32⟩) main_call14_v1) (fun x v => Host.reduceAdd x v reducesTo_S100000x128_S100000_d1 h_S_),
    TRef.unary (TRef.of (T := ⟨S100000, .f32⟩) main_call14_v1) (TRef.of (T := ⟨S100000x1, .f32⟩) main_call14_v2) (broadcastInDim S100000x1 ![0] bcast_S100000_S100000x1_0),
    TRef.unary (TRef.of (T := ⟨S100000x1, .f32⟩) main_call14_v2) (TRef.of (T := ⟨S100000x1, .f32⟩) main_v295) Host.sqrt ]

/-- Operations 397 … 405 of @main: up to `main_v302`. -/
abbrev c51 : List (HloOp τ sig (Elt F)) :=
  [
    nullary main_cst_63 (constant S_ .f32 0x2B8CBCCC#32),
    unary main_cst_63 main_v296 (broadcastInDim S100000x1 ![] bcast_S_S100000x1 : (⟨S_, .f32⟩ : BufTy).Contents (Elt F) → (⟨S100000x1, .f32⟩ : BufTy).Contents (Elt F)),
    binary main_v295 main_v296 main_v297 (maximumf : (⟨S100000x1, .f32⟩ : BufTy).Contents (Elt F) → (⟨S100000x1, .f32⟩ : BufTy).Contents (Elt F) → (⟨S100000x1, .f32⟩ : BufTy).Contents (Elt F)),
    unary main_v297 main_v298 (broadcastInDim S100000x128 ![0, 1] bcast_S100000x1_S100000x128_0_1 : (⟨S100000x1, .f32⟩ : BufTy).Contents (Elt F) → (⟨S100000x128, .f32⟩ : BufTy).Contents (Elt F)),
    binary main_v294 main_v298 main_v299 (Host.divf : (⟨S100000x128, .f32⟩ : BufTy).Contents (Elt F) → (⟨S100000x128, .f32⟩ : BufTy).Contents (Elt F) → (⟨S100000x128, .f32⟩ : BufTy).Contents (Elt F)),
    binary main_v299 main_v204 main_v300 (addf : (⟨S100000x128, .f32⟩ : BufTy).Contents (Elt F) → (⟨S100000x128, .f32⟩ : BufTy).Contents (Elt F) → (⟨S100000x128, .f32⟩ : BufTy).Contents (Elt F)),
    nullary main_cst_64 (constant S_ .f32 0x40000000#32),
    unary main_cst_64 main_v301 (broadcastInDim S100000x128 ![] bcast_S_S100000x128 : (⟨S_, .f32⟩ : BufTy).Contents (Elt F) → (⟨S100000x128, .f32⟩ : BufTy).Contents (Elt F)),
    binary main_v300 main_v301 main_v302 (Host.divf : (⟨S100000x128, .f32⟩ : BufTy).Contents (Elt F) → (⟨S100000x128, .f32⟩ : BufTy).Contents (Elt F) → (⟨S100000x128, .f32⟩ : BufTy).Contents (Elt F)) ]

/-- Operations 406 … 410 of @main: up to `main_v307`. -/
abbrev c52 : List (HloOp τ sig (Elt F)) :=
  [
    unary main_arg3 main_v303 ((extractStridedSlice S1x128x128 ![6, 0, 0] · slices_S8x128x128_S1x128x128_6_0_0) : (⟨S8x128x128, .f32⟩ : BufTy).Contents (Elt F) → (⟨S1x128x128, .f32⟩ : BufTy).Contents (Elt F)),
    reshape main_v303 main_v304 rfl shapeCasts_S1x128x128_S128x128,
    unary main_arg4 main_v305 ((extractStridedSlice S1x128 ![6, 0] · slices_S8x128_S1x128_6_0) : (⟨S8x128, .f32⟩ : BufTy).Contents (Elt F) → (⟨S1x128, .f32⟩ : BufTy).Contents (Elt F)),
    reshape main_v305 main_v306 rfl shapeCasts_S1x128_S128,
    binary main_v302 main_v304 main_v307 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 411 … 414 of @main: up to `main_v310`. -/
abbrev c53 : List (HloOp τ sig (Elt F)) :=
  [
    nullary main_cst_65 (constant S_ .f32 0x00000000#32),
    unary main_cst_65 main_v308 (broadcastInDim S100000 ![] bcast_S_S100000 : (⟨S_, .f32⟩ : BufTy).Contents (Elt F) → (⟨S100000, .f32⟩ : BufTy).Contents (Elt F)),
    unary main_v6 main_v309 (broadcastInDim S740000x1 ![0] bcast_S740000_S740000x1_0 : (⟨S740000, .i32⟩ : BufTy).Contents (Elt F) → (⟨S740000x1, .i32⟩ : BufTy).Contents (Elt F)),
    ternary main_v308 main_v309 main_v8 main_v310 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 415 … 417 of @main: up to `main_v312`. -/
abbrev c54 : List (HloOp τ sig (Elt F)) :=
  [
    nullary main_cst_66 (constant S_ .f32 0x00000000#32),
    unary main_cst_66 main_v311 (broadcastInDim S100000 ![] bcast_S_S100000 : (⟨S_, .f32⟩ : BufTy).Contents (Elt F) → (⟨S100000, .f32⟩ : BufTy).Contents (Elt F)),
    binary main_v310 main_v311 main_v312 (cmpf .ogt : (⟨S100000, .f32⟩ : BufTy).Contents (Elt F) → (⟨S100000, .f32⟩ : BufTy).Contents (Elt F) → (⟨S100000, .i1⟩ : BufTy).Contents (Elt F)) ]

/-- Operations 418 … 418 of @main: up to `main_v313`. -/
abbrev c55 : List (HloOp τ sig (Elt F)) :=
  [
    unary main_v310 main_v313 (Host.rsqrt : (⟨S100000, .f32⟩ : BufTy).Contents (Elt F) → (⟨S100000, .f32⟩ : BufTy).Contents (Elt F)) ]

/-- Operations 419 … 422 of @main: up to `main_v314`. -/
abbrev c56 : List (HloOp τ sig (Elt F)) :=
  [
    nullary main_cst_67 (constant S_ .f32 0x00000000#32),
    TRef.unary (TRef.of (T := ⟨S_, .f32⟩) main_cst_67) (TRef.of (T := ⟨S_, .f32⟩) main_call15_v0) id,
    TRef.unary (TRef.of (T := ⟨S_, .f32⟩) main_call15_v0) (TRef.of (T := ⟨S100000, .f32⟩) main_call15_v1) (broadcastInDim S100000 ![] bcast_S_S100000),
    TRef.ternary (TRef.of (T := ⟨S100000, .i1⟩) main_v312) (TRef.of (T := ⟨S100000, .f32⟩) main_v313) (TRef.of (T := ⟨S100000, .f32⟩) main_call15_v1) (TRef.of (T := ⟨S100000, .f32⟩) main_v314) select ]

/-- Operations 423 … 442 of @main: up to `main_v330`. -/
abbrev c57 : List (HloOp τ sig (Elt F)) :=
  [
    nullary main_c_68 (constantI S_ 32 0#32),
    unary main_c_68 main_v315 (broadcastInDim S740000 ![] bcast_S_S740000 : (⟨S_, .i32⟩ : BufTy).Contents (Elt F) → (⟨S740000, .i32⟩ : BufTy).Contents (Elt F)),
    binary main_v3 main_v315 main_v316 (cmpi .slt : (⟨S740000, .i32⟩ : BufTy).Contents (Elt F) → (⟨S740000, .i32⟩ : BufTy).Contents (Elt F) → (⟨S740000, .i1⟩ : BufTy).Contents (Elt F)),
    nullary main_c_69 (constantI S_ 32 100000#32),
    unary main_c_69 main_v317 (broadcastInDim S740000 ![] bcast_S_S740000 : (⟨S_, .i32⟩ : BufTy).Contents (Elt F) → (⟨S740000, .i32⟩ : BufTy).Contents (Elt F)),
    binary main_v3 main_v317 main_v318 (addi : (⟨S740000, .i32⟩ : BufTy).Contents (Elt F) → (⟨S740000, .i32⟩ : BufTy).Contents (Elt F) → (⟨S740000, .i32⟩ : BufTy).Contents (Elt F)),
    ternary main_v316 main_v318 main_v3 main_v319 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v319 main_v320 (broadcastInDim S740000x1 ![0] bcast_S740000_S740000x1_0 : (⟨S740000, .i32⟩ : BufTy).Contents (Elt F) → (⟨S740000x1, .i32⟩ : BufTy).Contents (Elt F)),
    binary main_v314 main_v320 main_v321 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v321 main_v8 main_v322 (mulf : (⟨S740000, .f32⟩ : BufTy).Contents (Elt F) → (⟨S740000, .f32⟩ : BufTy).Contents (Elt F) → (⟨S740000, .f32⟩ : BufTy).Contents (Elt F)),
    nullary main_c_70 (constantI S_ 32 0#32),
    unary main_c_70 main_v323 (broadcastInDim S740000 ![] bcast_S_S740000 : (⟨S_, .i32⟩ : BufTy).Contents (Elt F) → (⟨S740000, .i32⟩ : BufTy).Contents (Elt F)),
    binary main_v6 main_v323 main_v324 (cmpi .slt : (⟨S740000, .i32⟩ : BufTy).Contents (Elt F) → (⟨S740000, .i32⟩ : BufTy).Contents (Elt F) → (⟨S740000, .i1⟩ : BufTy).Contents (Elt F)),
    nullary main_c_71 (constantI S_ 32 100000#32),
    unary main_c_71 main_v325 (broadcastInDim S740000 ![] bcast_S_S740000 : (⟨S_, .i32⟩ : BufTy).Contents (Elt F) → (⟨S740000, .i32⟩ : BufTy).Contents (Elt F)),
    binary main_v6 main_v325 main_v326 (addi : (⟨S740000, .i32⟩ : BufTy).Contents (Elt F) → (⟨S740000, .i32⟩ : BufTy).Contents (Elt F) → (⟨S740000, .i32⟩ : BufTy).Contents (Elt F)),
    ternary main_v324 main_v326 main_v6 main_v327 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v327 main_v328 (broadcastInDim S740000x1 ![0] bcast_S740000_S740000x1_0 : (⟨S740000, .i32⟩ : BufTy).Contents (Elt F) → (⟨S740000x1, .i32⟩ : BufTy).Contents (Elt F)),
    binary main_v314 main_v328 main_v329 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v322 main_v329 main_v330 (mulf : (⟨S740000, .f32⟩ : BufTy).Contents (Elt F) → (⟨S740000, .f32⟩ : BufTy).Contents (Elt F) → (⟨S740000, .f32⟩ : BufTy).Contents (Elt F)) ]

/-- Operations 443 … 458 of @main: up to `main_v343`. -/
abbrev c58 : List (HloOp τ sig (Elt F)) :=
  [
    nullary main_c_72 (constantI S_ 32 0#32),
    unary main_c_72 main_v331 (broadcastInDim S740000 ![] bcast_S_S740000 : (⟨S_, .i32⟩ : BufTy).Contents (Elt F) → (⟨S740000, .i32⟩ : BufTy).Contents (Elt F)),
    binary main_v3 main_v331 main_v332 (cmpi .slt : (⟨S740000, .i32⟩ : BufTy).Contents (Elt F) → (⟨S740000, .i32⟩ : BufTy).Contents (Elt F) → (⟨S740000, .i1⟩ : BufTy).Contents (Elt F)),
    nullary main_c_73 (constantI S_ 32 100000#32),
    unary main_c_73 main_v333 (broadcastInDim S740000 ![] bcast_S_S740000 : (⟨S_, .i32⟩ : BufTy).Contents (Elt F) → (⟨S740000, .i32⟩ : BufTy).Contents (Elt F)),
    binary main_v3 main_v333 main_v334 (addi : (⟨S740000, .i32⟩ : BufTy).Contents (Elt F) → (⟨S740000, .i32⟩ : BufTy).Contents (Elt F) → (⟨S740000, .i32⟩ : BufTy).Contents (Elt F)),
    ternary main_v332 main_v334 main_v3 main_v335 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v335 main_v336 (broadcastInDim S740000x1 ![0] bcast_S740000_S740000x1_0 : (⟨S740000, .i32⟩ : BufTy).Contents (Elt F) → (⟨S740000x1, .i32⟩ : BufTy).Contents (Elt F)),
    binary main_v307 main_v336 main_v337 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v330 main_v338 (broadcastInDim S740000x1 ![0] bcast_S740000_S740000x1_0 : (⟨S740000, .f32⟩ : BufTy).Contents (Elt F) → (⟨S740000x1, .f32⟩ : BufTy).Contents (Elt F)),
    unary main_v338 main_v339 (broadcastInDim S740000x128 ![0, 1] bcast_S740000x1_S740000x128_0_1 : (⟨S740000x1, .f32⟩ : BufTy).Contents (Elt F) → (⟨S740000x128, .f32⟩ : BufTy).Contents (Elt F)),
    binary main_v337 main_v339 main_v340 (mulf : (⟨S740000x128, .f32⟩ : BufTy).Contents (Elt F) → (⟨S740000x128, .f32⟩ : BufTy).Contents (Elt F) → (⟨S740000x128, .f32⟩ : BufTy).Contents (Elt F)),
    nullary main_cst_74 (constant S_ .f32 0x00000000#32),
    unary main_cst_74 main_v341 (broadcastInDim S100000x128 ![] bcast_S_S100000x128 : (⟨S_, .f32⟩ : BufTy).Contents (Elt F) → (⟨S100000x128, .f32⟩ : BufTy).Contents (Elt F)),
    unary main_v6 main_v342 (broadcastInDim S740000x1 ![0] bcast_S740000_S740000x1_0 : (⟨S740000, .i32⟩ : BufTy).Contents (Elt F) → (⟨S740000x1, .i32⟩ : BufTy).Contents (Elt F)),
    ternary main_v341 main_v342 main_v340 main_v343 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 459 … 469 of @main: up to `main_v352`. -/
abbrev c59 : List (HloOp τ sig (Elt F)) :=
  [
    unary main_v306 main_v344 (broadcastInDim S1x128 ![1] bcast_S128_S1x128_1 : (⟨S128, .f32⟩ : BufTy).Contents (Elt F) → (⟨S1x128, .f32⟩ : BufTy).Contents (Elt F)),
    unary main_v344 main_v345 (broadcastInDim S100000x128 ![0, 1] bcast_S1x128_S100000x128_0_1 : (⟨S1x128, .f32⟩ : BufTy).Contents (Elt F) → (⟨S100000x128, .f32⟩ : BufTy).Contents (Elt F)),
    binary main_v343 main_v345 main_v346 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call16_cst) (constant S_ .f32 0x00000000#32),
    TRef.unary (TRef.of (T := ⟨S_, .f32⟩) main_call16_cst) (TRef.of (T := ⟨S100000x128, .f32⟩) main_call16_v0) (broadcastInDim S100000x128 ![] bcast_S_S100000x128),
    TRef.binary (TRef.of (T := ⟨S100000x128, .f32⟩) main_v346) (TRef.of (T := ⟨S100000x128, .f32⟩) main_call16_v0) (TRef.of (T := ⟨S100000x128, .f32⟩) main_v347) maximumf,
    unary main_arg3 main_v348 ((extractStridedSlice S1x128x128 ![7, 0, 0] · slices_S8x128x128_S1x128x128_7_0_0) : (⟨S8x128x128, .f32⟩ : BufTy).Contents (Elt F) → (⟨S1x128x128, .f32⟩ : BufTy).Contents (Elt F)),
    reshape main_v348 main_v349 rfl shapeCasts_S1x128x128_S128x128,
    unary main_arg4 main_v350 ((extractStridedSlice S1x128 ![7, 0] · slices_S8x128_S1x128_7_0) : (⟨S8x128, .f32⟩ : BufTy).Contents (Elt F) → (⟨S1x128, .f32⟩ : BufTy).Contents (Elt F)),
    reshape main_v350 main_v351 rfl shapeCasts_S1x128_S128,
    binary main_v347 main_v349 main_v352 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- Operations 470 … 473 of @main: up to `main_v355`. -/
abbrev c60 : List (HloOp τ sig (Elt F)) :=
  [
    nullary main_cst_75 (constant S_ .f32 0x00000000#32),
    unary main_cst_75 main_v353 (broadcastInDim S100000 ![] bcast_S_S100000 : (⟨S_, .f32⟩ : BufTy).Contents (Elt F) → (⟨S100000, .f32⟩ : BufTy).Contents (Elt F)),
    unary main_v6 main_v354 (broadcastInDim S740000x1 ![0] bcast_S740000_S740000x1_0 : (⟨S740000, .i32⟩ : BufTy).Contents (Elt F) → (⟨S740000x1, .i32⟩ : BufTy).Contents (Elt F)),
    ternary main_v353 main_v354 main_v8 main_v355 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 474 … 476 of @main: up to `main_v357`. -/
abbrev c61 : List (HloOp τ sig (Elt F)) :=
  [
    nullary main_cst_76 (constant S_ .f32 0x00000000#32),
    unary main_cst_76 main_v356 (broadcastInDim S100000 ![] bcast_S_S100000 : (⟨S_, .f32⟩ : BufTy).Contents (Elt F) → (⟨S100000, .f32⟩ : BufTy).Contents (Elt F)),
    binary main_v355 main_v356 main_v357 (cmpf .ogt : (⟨S100000, .f32⟩ : BufTy).Contents (Elt F) → (⟨S100000, .f32⟩ : BufTy).Contents (Elt F) → (⟨S100000, .i1⟩ : BufTy).Contents (Elt F)) ]

/-- Operations 477 … 477 of @main: up to `main_v358`. -/
abbrev c62 : List (HloOp τ sig (Elt F)) :=
  [
    unary main_v355 main_v358 (Host.rsqrt : (⟨S100000, .f32⟩ : BufTy).Contents (Elt F) → (⟨S100000, .f32⟩ : BufTy).Contents (Elt F)) ]

/-- Operations 478 … 481 of @main: up to `main_v359`. -/
abbrev c63 : List (HloOp τ sig (Elt F)) :=
  [
    nullary main_cst_77 (constant S_ .f32 0x00000000#32),
    TRef.unary (TRef.of (T := ⟨S_, .f32⟩) main_cst_77) (TRef.of (T := ⟨S_, .f32⟩) main_call17_v0) id,
    TRef.unary (TRef.of (T := ⟨S_, .f32⟩) main_call17_v0) (TRef.of (T := ⟨S100000, .f32⟩) main_call17_v1) (broadcastInDim S100000 ![] bcast_S_S100000),
    TRef.ternary (TRef.of (T := ⟨S100000, .i1⟩) main_v357) (TRef.of (T := ⟨S100000, .f32⟩) main_v358) (TRef.of (T := ⟨S100000, .f32⟩) main_call17_v1) (TRef.of (T := ⟨S100000, .f32⟩) main_v359) select ]

/-- Operations 482 … 501 of @main: up to `main_v375`. -/
abbrev c64 : List (HloOp τ sig (Elt F)) :=
  [
    nullary main_c_78 (constantI S_ 32 0#32),
    unary main_c_78 main_v360 (broadcastInDim S740000 ![] bcast_S_S740000 : (⟨S_, .i32⟩ : BufTy).Contents (Elt F) → (⟨S740000, .i32⟩ : BufTy).Contents (Elt F)),
    binary main_v3 main_v360 main_v361 (cmpi .slt : (⟨S740000, .i32⟩ : BufTy).Contents (Elt F) → (⟨S740000, .i32⟩ : BufTy).Contents (Elt F) → (⟨S740000, .i1⟩ : BufTy).Contents (Elt F)),
    nullary main_c_79 (constantI S_ 32 100000#32),
    unary main_c_79 main_v362 (broadcastInDim S740000 ![] bcast_S_S740000 : (⟨S_, .i32⟩ : BufTy).Contents (Elt F) → (⟨S740000, .i32⟩ : BufTy).Contents (Elt F)),
    binary main_v3 main_v362 main_v363 (addi : (⟨S740000, .i32⟩ : BufTy).Contents (Elt F) → (⟨S740000, .i32⟩ : BufTy).Contents (Elt F) → (⟨S740000, .i32⟩ : BufTy).Contents (Elt F)),
    ternary main_v361 main_v363 main_v3 main_v364 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v364 main_v365 (broadcastInDim S740000x1 ![0] bcast_S740000_S740000x1_0 : (⟨S740000, .i32⟩ : BufTy).Contents (Elt F) → (⟨S740000x1, .i32⟩ : BufTy).Contents (Elt F)),
    binary main_v359 main_v365 main_v366 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v366 main_v8 main_v367 (mulf : (⟨S740000, .f32⟩ : BufTy).Contents (Elt F) → (⟨S740000, .f32⟩ : BufTy).Contents (Elt F) → (⟨S740000, .f32⟩ : BufTy).Contents (Elt F)),
    nullary main_c_80 (constantI S_ 32 0#32),
    unary main_c_80 main_v368 (broadcastInDim S740000 ![] bcast_S_S740000 : (⟨S_, .i32⟩ : BufTy).Contents (Elt F) → (⟨S740000, .i32⟩ : BufTy).Contents (Elt F)),
    binary main_v6 main_v368 main_v369 (cmpi .slt : (⟨S740000, .i32⟩ : BufTy).Contents (Elt F) → (⟨S740000, .i32⟩ : BufTy).Contents (Elt F) → (⟨S740000, .i1⟩ : BufTy).Contents (Elt F)),
    nullary main_c_81 (constantI S_ 32 100000#32),
    unary main_c_81 main_v370 (broadcastInDim S740000 ![] bcast_S_S740000 : (⟨S_, .i32⟩ : BufTy).Contents (Elt F) → (⟨S740000, .i32⟩ : BufTy).Contents (Elt F)),
    binary main_v6 main_v370 main_v371 (addi : (⟨S740000, .i32⟩ : BufTy).Contents (Elt F) → (⟨S740000, .i32⟩ : BufTy).Contents (Elt F) → (⟨S740000, .i32⟩ : BufTy).Contents (Elt F)),
    ternary main_v369 main_v371 main_v6 main_v372 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v372 main_v373 (broadcastInDim S740000x1 ![0] bcast_S740000_S740000x1_0 : (⟨S740000, .i32⟩ : BufTy).Contents (Elt F) → (⟨S740000x1, .i32⟩ : BufTy).Contents (Elt F)),
    binary main_v359 main_v373 main_v374 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v367 main_v374 main_v375 (mulf : (⟨S740000, .f32⟩ : BufTy).Contents (Elt F) → (⟨S740000, .f32⟩ : BufTy).Contents (Elt F) → (⟨S740000, .f32⟩ : BufTy).Contents (Elt F)) ]

/-- Operations 502 … 517 of @main: up to `main_v388`. -/
abbrev c65 : List (HloOp τ sig (Elt F)) :=
  [
    nullary main_c_82 (constantI S_ 32 0#32),
    unary main_c_82 main_v376 (broadcastInDim S740000 ![] bcast_S_S740000 : (⟨S_, .i32⟩ : BufTy).Contents (Elt F) → (⟨S740000, .i32⟩ : BufTy).Contents (Elt F)),
    binary main_v3 main_v376 main_v377 (cmpi .slt : (⟨S740000, .i32⟩ : BufTy).Contents (Elt F) → (⟨S740000, .i32⟩ : BufTy).Contents (Elt F) → (⟨S740000, .i1⟩ : BufTy).Contents (Elt F)),
    nullary main_c_83 (constantI S_ 32 100000#32),
    unary main_c_83 main_v378 (broadcastInDim S740000 ![] bcast_S_S740000 : (⟨S_, .i32⟩ : BufTy).Contents (Elt F) → (⟨S740000, .i32⟩ : BufTy).Contents (Elt F)),
    binary main_v3 main_v378 main_v379 (addi : (⟨S740000, .i32⟩ : BufTy).Contents (Elt F) → (⟨S740000, .i32⟩ : BufTy).Contents (Elt F) → (⟨S740000, .i32⟩ : BufTy).Contents (Elt F)),
    ternary main_v377 main_v379 main_v3 main_v380 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v380 main_v381 (broadcastInDim S740000x1 ![0] bcast_S740000_S740000x1_0 : (⟨S740000, .i32⟩ : BufTy).Contents (Elt F) → (⟨S740000x1, .i32⟩ : BufTy).Contents (Elt F)),
    binary main_v352 main_v381 main_v382 ((fun x i => Host.gather gather_S100000x128_S740000x1_S740000x128_1_0_n_n_0_1_1128 x i) : (⟨S100000x128, .f32⟩ : BufTy).Contents (Elt F) → (⟨S740000x1, .i32⟩ : BufTy).Contents (Elt F) → (⟨S740000x128, .f32⟩ : BufTy).Contents (Elt F)),
    unary main_v375 main_v383 (broadcastInDim S740000x1 ![0] bcast_S740000_S740000x1_0 : (⟨S740000, .f32⟩ : BufTy).Contents (Elt F) → (⟨S740000x1, .f32⟩ : BufTy).Contents (Elt F)),
    unary main_v383 main_v384 (broadcastInDim S740000x128 ![0, 1] bcast_S740000x1_S740000x128_0_1 : (⟨S740000x1, .f32⟩ : BufTy).Contents (Elt F) → (⟨S740000x128, .f32⟩ : BufTy).Contents (Elt F)),
    binary main_v382 main_v384 main_v385 (mulf : (⟨S740000x128, .f32⟩ : BufTy).Contents (Elt F) → (⟨S740000x128, .f32⟩ : BufTy).Contents (Elt F) → (⟨S740000x128, .f32⟩ : BufTy).Contents (Elt F)),
    nullary main_cst_84 (constant S_ .f32 0x00000000#32),
    unary main_cst_84 main_v386 (broadcastInDim S100000x128 ![] bcast_S_S100000x128 : (⟨S_, .f32⟩ : BufTy).Contents (Elt F) → (⟨S100000x128, .f32⟩ : BufTy).Contents (Elt F)),
    unary main_v6 main_v387 (broadcastInDim S740000x1 ![0] bcast_S740000_S740000x1_0 : (⟨S740000, .i32⟩ : BufTy).Contents (Elt F) → (⟨S740000x1, .i32⟩ : BufTy).Contents (Elt F)),
    ternary main_v386 main_v387 main_v385 main_v388 ((fun x i u => Host.scatterAdd scatter_S100000x128_S740000x1_S740000x128_1_0_0_1 x i u) : (⟨S100000x128, .f32⟩ : BufTy).Contents (Elt F) → (⟨S740000x1, .i32⟩ : BufTy).Contents (Elt F) → (⟨S740000x128, .f32⟩ : BufTy).Contents (Elt F) → (⟨S100000x128, .f32⟩ : BufTy).Contents (Elt F)) ]

/-- Operations 518 … 523 of @main: up to `main_v392`. -/
abbrev c66 : List (HloOp τ sig (Elt F)) :=
  [
    unary main_v351 main_v389 (broadcastInDim S1x128 ![1] bcast_S128_S1x128_1 : (⟨S128, .f32⟩ : BufTy).Contents (Elt F) → (⟨S1x128, .f32⟩ : BufTy).Contents (Elt F)),
    unary main_v389 main_v390 (broadcastInDim S100000x128 ![0, 1] bcast_S1x128_S100000x128_0_1 : (⟨S1x128, .f32⟩ : BufTy).Contents (Elt F) → (⟨S100000x128, .f32⟩ : BufTy).Contents (Elt F)),
    binary main_v388 main_v390 main_v391 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call18_cst) (constant S_ .f32 0x00000000#32),
    TRef.unary (TRef.of (T := ⟨S_, .f32⟩) main_call18_cst) (TRef.of (T := ⟨S100000x128, .f32⟩) main_call18_v0) (broadcastInDim S100000x128 ![] bcast_S_S100000x128),
    TRef.binary (TRef.of (T := ⟨S100000x128, .f32⟩) main_v391) (TRef.of (T := ⟨S100000x128, .f32⟩) main_call18_v0) (TRef.of (T := ⟨S100000x128, .f32⟩) main_v392) maximumf ]

/-- Operations 524 … 528 of @main: up to `main_v393`. -/
abbrev c67 : List (HloOp τ sig (Elt F)) :=
  [
    TRef.binary (TRef.of (T := ⟨S100000x128, .f32⟩) main_v392) (TRef.of (T := ⟨S100000x128, .f32⟩) main_v392) (TRef.of (T := ⟨S100000x128, .f32⟩) main_call19_v0) mulf,
    TRef.nullary (TRef.of (T := ⟨S_, .f32⟩) main_call19_cst) (constant S_ .f32 0x00000000#32),
    TRef.binary (TRef.of (T := ⟨S100000x128, .f32⟩) main_call19_v0) (TRef.of (T := ⟨S_, .f32⟩) main_call19_cst) (TRef.of (T := ⟨S100000, .f32⟩) main_call19_v1) (fun x v => Host.reduceAdd x v reducesTo_S100000x128_S100000_d1 h_S_),
    TRef.unary (TRef.of (T := ⟨S100000, .f32⟩) main_call19_v1) (TRef.of (T := ⟨S100000x1, .f32⟩) main_call19_v2) (broadcastInDim S100000x1 ![0] bcast_S100000_S100000x1_0),
    TRef.unary (TRef.of (T := ⟨S100000x1, .f32⟩) main_call19_v2) (TRef.of (T := ⟨S100000x1, .f32⟩) main_v393) Host.sqrt ]

/-- Operations 529 … 537 of @main: up to `main_v400`. -/
abbrev c68 : List (HloOp τ sig (Elt F)) :=
  [
    nullary main_cst_85 (constant S_ .f32 0x2B8CBCCC#32),
    unary main_cst_85 main_v394 (broadcastInDim S100000x1 ![] bcast_S_S100000x1 : (⟨S_, .f32⟩ : BufTy).Contents (Elt F) → (⟨S100000x1, .f32⟩ : BufTy).Contents (Elt F)),
    binary main_v393 main_v394 main_v395 (maximumf : (⟨S100000x1, .f32⟩ : BufTy).Contents (Elt F) → (⟨S100000x1, .f32⟩ : BufTy).Contents (Elt F) → (⟨S100000x1, .f32⟩ : BufTy).Contents (Elt F)),
    unary main_v395 main_v396 (broadcastInDim S100000x128 ![0, 1] bcast_S100000x1_S100000x128_0_1 : (⟨S100000x1, .f32⟩ : BufTy).Contents (Elt F) → (⟨S100000x128, .f32⟩ : BufTy).Contents (Elt F)),
    binary main_v392 main_v396 main_v397 (Host.divf : (⟨S100000x128, .f32⟩ : BufTy).Contents (Elt F) → (⟨S100000x128, .f32⟩ : BufTy).Contents (Elt F) → (⟨S100000x128, .f32⟩ : BufTy).Contents (Elt F)),
    binary main_v397 main_v302 main_v398 (addf : (⟨S100000x128, .f32⟩ : BufTy).Contents (Elt F) → (⟨S100000x128, .f32⟩ : BufTy).Contents (Elt F) → (⟨S100000x128, .f32⟩ : BufTy).Contents (Elt F)),
    nullary main_cst_86 (constant S_ .f32 0x40000000#32),
    unary main_cst_86 main_v399 (broadcastInDim S100000x128 ![] bcast_S_S100000x128 : (⟨S_, .f32⟩ : BufTy).Contents (Elt F) → (⟨S100000x128, .f32⟩ : BufTy).Contents (Elt F)),
    binary main_v398 main_v399 main_v400 (Host.divf : (⟨S100000x128, .f32⟩ : BufTy).Contents (Elt F) → (⟨S100000x128, .f32⟩ : BufTy).Contents (Elt F) → (⟨S100000x128, .f32⟩ : BufTy).Contents (Elt F)) ]

/-- Operations 538 … 538 of @main: up to `main_v401`. -/
abbrev c69 : List (HloOp τ sig (Elt F)) :=
  [
    binary main_v400 main_arg5 main_v401 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)) ]

/-- Operations 539 … 542 of @main: up to `main_v404`. -/
abbrev c70 : List (HloOp τ sig (Elt F)) :=
  [
    nullary main_cst_87 (constant S_ .f32 0x00000000#32),
    unary main_cst_87 main_v402 (broadcastInDim S100000 ![] bcast_S_S100000 : (⟨S_, .f32⟩ : BufTy).Contents (Elt F) → (⟨S100000, .f32⟩ : BufTy).Contents (Elt F)),
    unary main_v6 main_v403 (broadcastInDim S740000x1 ![0] bcast_S740000_S740000x1_0 : (⟨S740000, .i32⟩ : BufTy).Contents (Elt F) → (⟨S740000x1, .i32⟩ : BufTy).Contents (Elt F)),
    ternary main_v402 main_v403 main_v8 main_v404 ((fun x i u => Host.scatterAdd scatter_S100000_S740000x1_S740000_n_0_0_1 x i u) : (⟨S100000, .f32⟩ : BufTy).Contents (Elt F) → (⟨S740000x1, .i32⟩ : BufTy).Contents (Elt F) → (⟨S740000, .f32⟩ : BufTy).Contents (Elt F) → (⟨S100000, .f32⟩ : BufTy).Contents (Elt F)) ]

/-- Operations 543 … 545 of @main: up to `main_v406`. -/
abbrev c71 : List (HloOp τ sig (Elt F)) :=
  [
    nullary main_cst_88 (constant S_ .f32 0x00000000#32),
    unary main_cst_88 main_v405 (broadcastInDim S100000 ![] bcast_S_S100000 : (⟨S_, .f32⟩ : BufTy).Contents (Elt F) → (⟨S100000, .f32⟩ : BufTy).Contents (Elt F)),
    binary main_v404 main_v405 main_v406 (cmpf .ogt : (⟨S100000, .f32⟩ : BufTy).Contents (Elt F) → (⟨S100000, .f32⟩ : BufTy).Contents (Elt F) → (⟨S100000, .i1⟩ : BufTy).Contents (Elt F)) ]

/-- Operations 546 … 546 of @main: up to `main_v407`. -/
abbrev c72 : List (HloOp τ sig (Elt F)) :=
  [
    unary main_v404 main_v407 (Host.rsqrt : (⟨S100000, .f32⟩ : BufTy).Contents (Elt F) → (⟨S100000, .f32⟩ : BufTy).Contents (Elt F)) ]

/-- Operations 547 … 550 of @main: up to `main_v408`. -/
abbrev c73 : List (HloOp τ sig (Elt F)) :=
  [
    nullary main_cst_89 (constant S_ .f32 0x00000000#32),
    TRef.unary (TRef.of (T := ⟨S_, .f32⟩) main_cst_89) (TRef.of (T := ⟨S_, .f32⟩) main_call20_v0) id,
    TRef.unary (TRef.of (T := ⟨S_, .f32⟩) main_call20_v0) (TRef.of (T := ⟨S100000, .f32⟩) main_call20_v1) (broadcastInDim S100000 ![] bcast_S_S100000),
    TRef.ternary (TRef.of (T := ⟨S100000, .i1⟩) main_v406) (TRef.of (T := ⟨S100000, .f32⟩) main_v407) (TRef.of (T := ⟨S100000, .f32⟩) main_call20_v1) (TRef.of (T := ⟨S100000, .f32⟩) main_v408) select ]

/-- Operations 551 … 570 of @main: up to `main_v424`. -/
abbrev c74 : List (HloOp τ sig (Elt F)) :=
  [
    nullary main_c_90 (constantI S_ 32 0#32),
    unary main_c_90 main_v409 (broadcastInDim S740000 ![] bcast_S_S740000 : (⟨S_, .i32⟩ : BufTy).Contents (Elt F) → (⟨S740000, .i32⟩ : BufTy).Contents (Elt F)),
    binary main_v3 main_v409 main_v410 (cmpi .slt : (⟨S740000, .i32⟩ : BufTy).Contents (Elt F) → (⟨S740000, .i32⟩ : BufTy).Contents (Elt F) → (⟨S740000, .i1⟩ : BufTy).Contents (Elt F)),
    nullary main_c_91 (constantI S_ 32 100000#32),
    unary main_c_91 main_v411 (broadcastInDim S740000 ![] bcast_S_S740000 : (⟨S_, .i32⟩ : BufTy).Contents (Elt F) → (⟨S740000, .i32⟩ : BufTy).Contents (Elt F)),
    binary main_v3 main_v411 main_v412 (addi : (⟨S740000, .i32⟩ : BufTy).Contents (Elt F) → (⟨S740000, .i32⟩ : BufTy).Contents (Elt F) → (⟨S740000, .i32⟩ : BufTy).Contents (Elt F)),
    ternary main_v410 main_v412 main_v3 main_v413 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v413 main_v414 (broadcastInDim S740000x1 ![0] bcast_S740000_S740000x1_0 : (⟨S740000, .i32⟩ : BufTy).Contents (Elt F) → (⟨S740000x1, .i32⟩ : BufTy).Contents (Elt F)),
    binary main_v408 main_v414 main_v415 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v415 main_v8 main_v416 (mulf : (⟨S740000, .f32⟩ : BufTy).Contents (Elt F) → (⟨S740000, .f32⟩ : BufTy).Contents (Elt F) → (⟨S740000, .f32⟩ : BufTy).Contents (Elt F)),
    nullary main_c_92 (constantI S_ 32 0#32),
    unary main_c_92 main_v417 (broadcastInDim S740000 ![] bcast_S_S740000 : (⟨S_, .i32⟩ : BufTy).Contents (Elt F) → (⟨S740000, .i32⟩ : BufTy).Contents (Elt F)),
    binary main_v6 main_v417 main_v418 (cmpi .slt : (⟨S740000, .i32⟩ : BufTy).Contents (Elt F) → (⟨S740000, .i32⟩ : BufTy).Contents (Elt F) → (⟨S740000, .i1⟩ : BufTy).Contents (Elt F)),
    nullary main_c_93 (constantI S_ 32 100000#32),
    unary main_c_93 main_v419 (broadcastInDim S740000 ![] bcast_S_S740000 : (⟨S_, .i32⟩ : BufTy).Contents (Elt F) → (⟨S740000, .i32⟩ : BufTy).Contents (Elt F)),
    binary main_v6 main_v419 main_v420 (addi : (⟨S740000, .i32⟩ : BufTy).Contents (Elt F) → (⟨S740000, .i32⟩ : BufTy).Contents (Elt F) → (⟨S740000, .i32⟩ : BufTy).Contents (Elt F)),
    ternary main_v418 main_v420 main_v6 main_v421 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v421 main_v422 (broadcastInDim S740000x1 ![0] bcast_S740000_S740000x1_0 : (⟨S740000, .i32⟩ : BufTy).Contents (Elt F) → (⟨S740000x1, .i32⟩ : BufTy).Contents (Elt F)),
    binary main_v408 main_v422 main_v423 ((fun x i => Host.gather gather_S100000_S740000x1_S740000_n_0_n_n_0_1_1 x i) : (⟨S100000, .f32⟩ : BufTy).Contents (Elt F) → (⟨S740000x1, .i32⟩ : BufTy).Contents (Elt F) → (⟨S740000, .f32⟩ : BufTy).Contents (Elt F)),
    binary main_v416 main_v423 main_v424 (mulf : (⟨S740000, .f32⟩ : BufTy).Contents (Elt F) → (⟨S740000, .f32⟩ : BufTy).Contents (Elt F) → (⟨S740000, .f32⟩ : BufTy).Contents (Elt F)) ]

/-- Operations 571 … 586 of @main: up to `main_v437`. -/
abbrev c75 : List (HloOp τ sig (Elt F)) :=
  [
    nullary main_c_94 (constantI S_ 32 0#32),
    unary main_c_94 main_v425 (broadcastInDim S740000 ![] bcast_S_S740000 : (⟨S_, .i32⟩ : BufTy).Contents (Elt F) → (⟨S740000, .i32⟩ : BufTy).Contents (Elt F)),
    binary main_v3 main_v425 main_v426 (cmpi .slt : (⟨S740000, .i32⟩ : BufTy).Contents (Elt F) → (⟨S740000, .i32⟩ : BufTy).Contents (Elt F) → (⟨S740000, .i1⟩ : BufTy).Contents (Elt F)),
    nullary main_c_95 (constantI S_ 32 100000#32),
    unary main_c_95 main_v427 (broadcastInDim S740000 ![] bcast_S_S740000 : (⟨S_, .i32⟩ : BufTy).Contents (Elt F) → (⟨S740000, .i32⟩ : BufTy).Contents (Elt F)),
    binary main_v3 main_v427 main_v428 (addi : (⟨S740000, .i32⟩ : BufTy).Contents (Elt F) → (⟨S740000, .i32⟩ : BufTy).Contents (Elt F) → (⟨S740000, .i32⟩ : BufTy).Contents (Elt F)),
    ternary main_v426 main_v428 main_v3 main_v429 (select : (⟨S740000, .i1⟩ : BufTy).Contents (Elt F) → (⟨S740000, .i32⟩ : BufTy).Contents (Elt F) → (⟨S740000, .i32⟩ : BufTy).Contents (Elt F) → (⟨S740000, .i32⟩ : BufTy).Contents (Elt F)),
    unary main_v429 main_v430 (broadcastInDim S740000x1 ![0] bcast_S740000_S740000x1_0 : (⟨S740000, .i32⟩ : BufTy).Contents (Elt F) → (⟨S740000x1, .i32⟩ : BufTy).Contents (Elt F)),
    binary main_v401 main_v430 main_v431 ((fun x i => Host.gather gather_S100000x40_S740000x1_S740000x40_1_0_n_n_0_1_140 x i) : (⟨S100000x40, .f32⟩ : BufTy).Contents (Elt F) → (⟨S740000x1, .i32⟩ : BufTy).Contents (Elt F) → (⟨S740000x40, .f32⟩ : BufTy).Contents (Elt F)),
    unary main_v424 main_v432 (broadcastInDim S740000x1 ![0] bcast_S740000_S740000x1_0 : (⟨S740000, .f32⟩ : BufTy).Contents (Elt F) → (⟨S740000x1, .f32⟩ : BufTy).Contents (Elt F)),
    unary main_v432 main_v433 (broadcastInDim S740000x40 ![0, 1] bcast_S740000x1_S740000x40_0_1 : (⟨S740000x1, .f32⟩ : BufTy).Contents (Elt F) → (⟨S740000x40, .f32⟩ : BufTy).Contents (Elt F)),
    binary main_v431 main_v433 main_v434 (mulf : (⟨S740000x40, .f32⟩ : BufTy).Contents (Elt F) → (⟨S740000x40, .f32⟩ : BufTy).Contents (Elt F) → (⟨S740000x40, .f32⟩ : BufTy).Contents (Elt F)),
    nullary main_cst_96 (constant S_ .f32 0x00000000#32),
    unary main_cst_96 main_v435 (broadcastInDim S100000x40 ![] bcast_S_S100000x40 : (⟨S_, .f32⟩ : BufTy).Contents (Elt F) → (⟨S100000x40, .f32⟩ : BufTy).Contents (Elt F)),
    unary main_v6 main_v436 (broadcastInDim S740000x1 ![0] bcast_S740000_S740000x1_0 : (⟨S740000, .i32⟩ : BufTy).Contents (Elt F) → (⟨S740000x1, .i32⟩ : BufTy).Contents (Elt F)),
    ternary main_v435 main_v436 main_v434 main_v437 ((fun x i u => Host.scatterAdd scatter_S100000x40_S740000x1_S740000x40_1_0_0_1 x i u) : (⟨S100000x40, .f32⟩ : BufTy).Contents (Elt F) → (⟨S740000x1, .i32⟩ : BufTy).Contents (Elt F) → (⟨S740000x40, .f32⟩ : BufTy).Contents (Elt F) → (⟨S100000x40, .f32⟩ : BufTy).Contents (Elt F)) ]

/-- Operations 587 … 589 of @main: up to `main_v440`. -/
abbrev c76 : List (HloOp τ sig (Elt F)) :=
  [
    unary main_arg6 main_v438 (broadcastInDim S1x40 ![1] bcast_S40_S1x40_1 : (⟨S40, .f32⟩ : BufTy).Contents (Elt F) → (⟨S1x40, .f32⟩ : BufTy).Contents (Elt F)),
    unary main_v438 main_v439 (broadcastInDim S100000x40 ![0, 1] bcast_S1x40_S100000x40_0_1 : (⟨S1x40, .f32⟩ : BufTy).Contents (Elt F) → (⟨S100000x40, .f32⟩ : BufTy).Contents (Elt F)),
    binary main_v437 main_v439 main_v440 (addf : (⟨S100000x40, .f32⟩ : BufTy).Contents (Elt F) → (⟨S100000x40, .f32⟩ : BufTy).Contents (Elt F) → (⟨S100000x40, .f32⟩ : BufTy).Contents (Elt F)) ]

/-- Operations 590 … 597 of @main: up to `main_call21_v5`. -/
abbrev c77 : List (HloOp τ sig (Elt F)) :=
  [
    TRef.nullary (TRef.of (T := ⟨S_, .f32⟩) main_call21_cst) (constant S_ .f32 0xFF800000#32),
    TRef.binary (TRef.of (T := ⟨S100000x40, .f32⟩) main_v440) (TRef.of (T := ⟨S_, .f32⟩) main_call21_cst) (TRef.of (T := ⟨S100000, .f32⟩) main_call21_v0) (fun x v => Host.reduce FloatOps.maximumf x v reducesTo_S100000x40_S100000_d1 h_S_),
    TRef.nullary (TRef.of (T := ⟨S_, .f32⟩) main_call21_cst_0) (constant S_ .f32 0xFF800000#32),
    TRef.unary (TRef.of (T := ⟨S_, .f32⟩) main_call21_cst_0) (TRef.of (T := ⟨S100000, .f32⟩) main_call21_v1) (broadcastInDim S100000 ![] bcast_S_S100000),
    TRef.binary (TRef.of (T := ⟨S100000, .f32⟩) main_call21_v1) (TRef.of (T := ⟨S100000, .f32⟩) main_call21_v0) (TRef.of (T := ⟨S100000, .f32⟩) main_call21_v2) maximumf,
    TRef.unary (TRef.of (T := ⟨S100000, .f32⟩) main_call21_v2) (TRef.of (T := ⟨S100000x1, .f32⟩) main_call21_v3) (broadcastInDim S100000x1 ![0] bcast_S100000_S100000x1_0),
    TRef.unary (TRef.of (T := ⟨S100000x1, .f32⟩) main_call21_v3) (TRef.of (T := ⟨S100000x40, .f32⟩) main_call21_v4) (broadcastInDim S100000x40 ![0, 1] bcast_S100000x1_S100000x40_0_1),
    TRef.binary (TRef.of (T := ⟨S100000x40, .f32⟩) main_v440) (TRef.of (T := ⟨S100000x40, .f32⟩) main_call21_v4) (TRef.of (T := ⟨S100000x40, .f32⟩) main_call21_v5) subf ]

/-- Operations 598 … 604 of @main: up to `main_v441`. -/
abbrev c78 : List (HloOp τ sig (Elt F)) :=
  [
    TRef.unary (TRef.of (T := ⟨S100000x40, .f32⟩) main_call21_v5) (TRef.of (T := ⟨S100000x40, .f32⟩) main_call21_v6) Host.exp,
    TRef.nullary (TRef.of (T := ⟨S_, .f32⟩) main_call21_cst_1) (constant S_ .f32 0x00000000#32),
    TRef.binary (TRef.of (T := ⟨S100000x40, .f32⟩) main_call21_v6) (TRef.of (T := ⟨S_, .f32⟩) main_call21_cst_1) (TRef.of (T := ⟨S100000, .f32⟩) main_call21_v7) (fun x v => Host.reduceAdd x v reducesTo_S100000x40_S100000_d1 h_S_),
    TRef.unary (TRef.of (T := ⟨S100000, .f32⟩) main_call21_v7) (TRef.of (T := ⟨S100000x1, .f32⟩) main_call21_v8) (broadcastInDim S100000x1 ![0] bcast_S100000_S100000x1_0),
    TRef.unary (TRef.of (T := ⟨S100000x1, .f32⟩) main_call21_v8) (TRef.of (T := ⟨S100000x1, .f32⟩) main_call21_v9) Host.log,
    TRef.unary (TRef.of (T := ⟨S100000x1, .f32⟩) main_call21_v9) (TRef.of (T := ⟨S100000x40, .f32⟩) main_call21_v10) (broadcastInDim S100000x40 ![0, 1] bcast_S100000x1_S100000x40_0_1),
    TRef.binary (TRef.of (T := ⟨S100000x40, .f32⟩) main_call21_v5) (TRef.of (T := ⟨S100000x40, .f32⟩) main_call21_v10) (TRef.of (T := ⟨S100000x40, .f32⟩) main_v441) subf ]

/-- @main's operations, in order: the pieces one after the other. -/
def ops : List (HloOp τ sig (Elt F)) := c0 ++ (c1 ++ (c2 ++ (c3 ++ (c4 ++ (c5 ++ (c6 ++ (c7 ++ (c8 ++ (c9 ++ (c10 ++ (c11 ++ (c12 ++ (c13 ++ (c14 ++ (c15 ++ (c16 ++ (c17 ++ (c18 ++ (c19 ++ (c20 ++ (c21 ++ (c22 ++ (c23 ++ (c24 ++ (c25 ++ (c26 ++ (c27 ++ (c28 ++ (c29 ++ (c30 ++ (c31 ++ (c32 ++ (c33 ++ (c34 ++ (c35 ++ (c36 ++ (c37 ++ (c38 ++ (c39 ++ (c40 ++ (c41 ++ (c42 ++ (c43 ++ (c44 ++ (c45 ++ (c46 ++ (c47 ++ (c48 ++ (c49 ++ (c50 ++ (c51 ++ (c52 ++ (c53 ++ (c54 ++ (c55 ++ (c56 ++ (c57 ++ (c58 ++ (c59 ++ (c60 ++ (c61 ++ (c62 ++ (c63 ++ (c64 ++ (c65 ++ (c66 ++ (c67 ++ (c68 ++ (c69 ++ (c70 ++ (c71 ++ (c72 ++ (c73 ++ (c74 ++ (c75 ++ (c76 ++ (c77 ++ (c78))))))))))))))))))))))))))))))))))))))))))))))))))))))))))))))))))))))))))))))

set_option maxRecDepth 16384 in
set_option maxHeartbeats 40000000 in
/-- @main is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## The operations touch TensorCore buffers only, and each determines its results -/

theorem sub0 : (c0 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., binary_bufs_sub ..⟩

theorem sub1 : (c1 : List (HloOp τ sig (Elt F))).Forall fun op => op.bufs ⊆ tcRefs τ sig :=
  ⟨unary_bufs_sub .., reshape_bufs_sub .., unary_bufs_sub .., reshape_bufs_sub .., binary_bufs_sub ..⟩

theorem sub2 : (c2 : List (HloOp τ sig (Elt F))).Forall fun op => op.bufs ⊆ tcRefs τ sig :=
  ⟨nullary_bufs_sub .., unary_bufs_sub .., unary_bufs_sub .., ternary_bufs_sub ..⟩

theorem sub3 : (c3 : List (HloOp τ sig (Elt F))).Forall fun op => op.bufs ⊆ tcRefs τ sig :=
  ⟨nullary_bufs_sub .., unary_bufs_sub .., binary_bufs_sub ..⟩

theorem sub4 : (c4 : List (HloOp τ sig (Elt F))).Forall fun op => op.bufs ⊆ tcRefs τ sig :=
  unary_bufs_sub ..

theorem sub5 : (c5 : List (HloOp τ sig (Elt F))).Forall fun op => op.bufs ⊆ tcRefs τ sig :=
  ⟨nullary_bufs_sub .., unary_bufs_sub .., unary_bufs_sub .., ternary_bufs_sub ..⟩

theorem sub6 : (c6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub7 : (c7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub8 : (c8 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩

theorem sub9 : (c9 : List (HloOp τ sig (Elt F))).Forall fun op => op.bufs ⊆ tcRefs τ sig :=
  ⟨nullary_bufs_sub .., unary_bufs_sub .., unary_bufs_sub .., ternary_bufs_sub ..⟩

theorem sub10 : (c10 : List (HloOp τ sig (Elt F))).Forall fun op => op.bufs ⊆ tcRefs τ sig :=
  ⟨nullary_bufs_sub .., unary_bufs_sub .., binary_bufs_sub ..⟩

theorem sub11 : (c11 : List (HloOp τ sig (Elt F))).Forall fun op => op.bufs ⊆ tcRefs τ sig :=
  unary_bufs_sub ..

theorem sub12 : (c12 : List (HloOp τ sig (Elt F))).Forall fun op => op.bufs ⊆ tcRefs τ sig :=
  ⟨nullary_bufs_sub .., unary_bufs_sub .., unary_bufs_sub .., ternary_bufs_sub ..⟩

theorem sub13 : (c13 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub14 : (c14 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub15 : (c15 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem sub16 : (c16 : List (HloOp τ sig (Elt F))).Forall fun op => op.bufs ⊆ tcRefs τ sig :=
  ⟨binary_bufs_sub .., nullary_bufs_sub .., binary_bufs_sub .., unary_bufs_sub .., unary_bufs_sub ..⟩

theorem sub17 : (c17 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., unary_bufs_sub .., binary_bufs_sub ..⟩

theorem sub18 : (c18 : List (HloOp τ sig (Elt F))).Forall fun op => op.bufs ⊆ tcRefs τ sig :=
  ⟨unary_bufs_sub .., reshape_bufs_sub .., unary_bufs_sub .., reshape_bufs_sub .., binary_bufs_sub ..⟩

theorem sub19 : (c19 : List (HloOp τ sig (Elt F))).Forall fun op => op.bufs ⊆ tcRefs τ sig :=
  ⟨nullary_bufs_sub .., unary_bufs_sub .., unary_bufs_sub .., ternary_bufs_sub ..⟩

theorem sub20 : (c20 : List (HloOp τ sig (Elt F))).Forall fun op => op.bufs ⊆ tcRefs τ sig :=
  ⟨nullary_bufs_sub .., unary_bufs_sub .., binary_bufs_sub ..⟩

theorem sub21 : (c21 : List (HloOp τ sig (Elt F))).Forall fun op => op.bufs ⊆ tcRefs τ sig :=
  unary_bufs_sub ..

theorem sub22 : (c22 : List (HloOp τ sig (Elt F))).Forall fun op => op.bufs ⊆ tcRefs τ sig :=
  ⟨nullary_bufs_sub .., unary_bufs_sub .., unary_bufs_sub .., ternary_bufs_sub ..⟩

theorem sub23 : (c23 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub24 : (c24 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub25 : (c25 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩

theorem sub26 : (c26 : List (HloOp τ sig (Elt F))).Forall fun op => op.bufs ⊆ tcRefs τ sig :=
  ⟨nullary_bufs_sub .., unary_bufs_sub .., unary_bufs_sub .., ternary_bufs_sub ..⟩

theorem sub27 : (c27 : List (HloOp τ sig (Elt F))).Forall fun op => op.bufs ⊆ tcRefs τ sig :=
  ⟨nullary_bufs_sub .., unary_bufs_sub .., binary_bufs_sub ..⟩

theorem sub28 : (c28 : List (HloOp τ sig (Elt F))).Forall fun op => op.bufs ⊆ tcRefs τ sig :=
  unary_bufs_sub ..

theorem sub29 : (c29 : List (HloOp τ sig (Elt F))).Forall fun op => op.bufs ⊆ tcRefs τ sig :=
  ⟨nullary_bufs_sub .., unary_bufs_sub .., unary_bufs_sub .., ternary_bufs_sub ..⟩

theorem sub30 : (c30 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub31 : (c31 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub32 : (c32 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem sub33 : (c33 : List (HloOp τ sig (Elt F))).Forall fun op => op.bufs ⊆ tcRefs τ sig :=
  ⟨binary_bufs_sub .., nullary_bufs_sub .., binary_bufs_sub .., unary_bufs_sub .., unary_bufs_sub ..⟩

theorem sub34 : (c34 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., unary_bufs_sub .., binary_bufs_sub ..⟩

theorem sub35 : (c35 : List (HloOp τ sig (Elt F))).Forall fun op => op.bufs ⊆ tcRefs τ sig :=
  ⟨unary_bufs_sub .., reshape_bufs_sub .., unary_bufs_sub .., reshape_bufs_sub .., binary_bufs_sub ..⟩

theorem sub36 : (c36 : List (HloOp τ sig (Elt F))).Forall fun op => op.bufs ⊆ tcRefs τ sig :=
  ⟨nullary_bufs_sub .., unary_bufs_sub .., unary_bufs_sub .., ternary_bufs_sub ..⟩

theorem sub37 : (c37 : List (HloOp τ sig (Elt F))).Forall fun op => op.bufs ⊆ tcRefs τ sig :=
  ⟨nullary_bufs_sub .., unary_bufs_sub .., binary_bufs_sub ..⟩

theorem sub38 : (c38 : List (HloOp τ sig (Elt F))).Forall fun op => op.bufs ⊆ tcRefs τ sig :=
  unary_bufs_sub ..

theorem sub39 : (c39 : List (HloOp τ sig (Elt F))).Forall fun op => op.bufs ⊆ tcRefs τ sig :=
  ⟨nullary_bufs_sub .., unary_bufs_sub .., unary_bufs_sub .., ternary_bufs_sub ..⟩

theorem sub40 : (c40 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub41 : (c41 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub42 : (c42 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩

theorem sub43 : (c43 : List (HloOp τ sig (Elt F))).Forall fun op => op.bufs ⊆ tcRefs τ sig :=
  ⟨nullary_bufs_sub .., unary_bufs_sub .., unary_bufs_sub .., ternary_bufs_sub ..⟩

theorem sub44 : (c44 : List (HloOp τ sig (Elt F))).Forall fun op => op.bufs ⊆ tcRefs τ sig :=
  ⟨nullary_bufs_sub .., unary_bufs_sub .., binary_bufs_sub ..⟩

theorem sub45 : (c45 : List (HloOp τ sig (Elt F))).Forall fun op => op.bufs ⊆ tcRefs τ sig :=
  unary_bufs_sub ..

theorem sub46 : (c46 : List (HloOp τ sig (Elt F))).Forall fun op => op.bufs ⊆ tcRefs τ sig :=
  ⟨nullary_bufs_sub .., unary_bufs_sub .., unary_bufs_sub .., ternary_bufs_sub ..⟩

theorem sub47 : (c47 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub48 : (c48 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub49 : (c49 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem sub50 : (c50 : List (HloOp τ sig (Elt F))).Forall fun op => op.bufs ⊆ tcRefs τ sig :=
  ⟨binary_bufs_sub .., nullary_bufs_sub .., binary_bufs_sub .., unary_bufs_sub .., unary_bufs_sub ..⟩

theorem sub51 : (c51 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., unary_bufs_sub .., binary_bufs_sub ..⟩

theorem sub52 : (c52 : List (HloOp τ sig (Elt F))).Forall fun op => op.bufs ⊆ tcRefs τ sig :=
  ⟨unary_bufs_sub .., reshape_bufs_sub .., unary_bufs_sub .., reshape_bufs_sub .., binary_bufs_sub ..⟩

theorem sub53 : (c53 : List (HloOp τ sig (Elt F))).Forall fun op => op.bufs ⊆ tcRefs τ sig :=
  ⟨nullary_bufs_sub .., unary_bufs_sub .., unary_bufs_sub .., ternary_bufs_sub ..⟩

theorem sub54 : (c54 : List (HloOp τ sig (Elt F))).Forall fun op => op.bufs ⊆ tcRefs τ sig :=
  ⟨nullary_bufs_sub .., unary_bufs_sub .., binary_bufs_sub ..⟩

theorem sub55 : (c55 : List (HloOp τ sig (Elt F))).Forall fun op => op.bufs ⊆ tcRefs τ sig :=
  unary_bufs_sub ..

theorem sub56 : (c56 : List (HloOp τ sig (Elt F))).Forall fun op => op.bufs ⊆ tcRefs τ sig :=
  ⟨nullary_bufs_sub .., unary_bufs_sub .., unary_bufs_sub .., ternary_bufs_sub ..⟩

theorem sub57 : (c57 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub58 : (c58 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub59 : (c59 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., reshape_bufs_sub .., unary_bufs_sub .., reshape_bufs_sub .., binary_bufs_sub ..⟩

theorem sub60 : (c60 : List (HloOp τ sig (Elt F))).Forall fun op => op.bufs ⊆ tcRefs τ sig :=
  ⟨nullary_bufs_sub .., unary_bufs_sub .., unary_bufs_sub .., ternary_bufs_sub ..⟩

theorem sub61 : (c61 : List (HloOp τ sig (Elt F))).Forall fun op => op.bufs ⊆ tcRefs τ sig :=
  ⟨nullary_bufs_sub .., unary_bufs_sub .., binary_bufs_sub ..⟩

theorem sub62 : (c62 : List (HloOp τ sig (Elt F))).Forall fun op => op.bufs ⊆ tcRefs τ sig :=
  unary_bufs_sub ..

theorem sub63 : (c63 : List (HloOp τ sig (Elt F))).Forall fun op => op.bufs ⊆ tcRefs τ sig :=
  ⟨nullary_bufs_sub .., unary_bufs_sub .., unary_bufs_sub .., ternary_bufs_sub ..⟩

theorem sub64 : (c64 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub65 : (c65 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub66 : (c66 : List (HloOp τ sig (Elt F))).Forall fun op => op.bufs ⊆ tcRefs τ sig :=
  ⟨unary_bufs_sub .., unary_bufs_sub .., binary_bufs_sub .., nullary_bufs_sub .., unary_bufs_sub .., binary_bufs_sub ..⟩

theorem sub67 : (c67 : List (HloOp τ sig (Elt F))).Forall fun op => op.bufs ⊆ tcRefs τ sig :=
  ⟨binary_bufs_sub .., nullary_bufs_sub .., binary_bufs_sub .., unary_bufs_sub .., unary_bufs_sub ..⟩

theorem sub68 : (c68 : List (HloOp τ sig (Elt F))).Forall fun op => op.bufs ⊆ tcRefs τ sig :=
  ⟨nullary_bufs_sub .., unary_bufs_sub .., binary_bufs_sub .., unary_bufs_sub .., binary_bufs_sub .., binary_bufs_sub .., nullary_bufs_sub .., unary_bufs_sub .., binary_bufs_sub ..⟩

theorem sub69 : (c69 : List (HloOp τ sig (Elt F))).Forall fun op => op.bufs ⊆ tcRefs τ sig :=
  binary_bufs_sub ..

theorem sub70 : (c70 : List (HloOp τ sig (Elt F))).Forall fun op => op.bufs ⊆ tcRefs τ sig :=
  ⟨nullary_bufs_sub .., unary_bufs_sub .., unary_bufs_sub .., ternary_bufs_sub ..⟩

theorem sub71 : (c71 : List (HloOp τ sig (Elt F))).Forall fun op => op.bufs ⊆ tcRefs τ sig :=
  ⟨nullary_bufs_sub .., unary_bufs_sub .., binary_bufs_sub ..⟩

theorem sub72 : (c72 : List (HloOp τ sig (Elt F))).Forall fun op => op.bufs ⊆ tcRefs τ sig :=
  unary_bufs_sub ..

theorem sub73 : (c73 : List (HloOp τ sig (Elt F))).Forall fun op => op.bufs ⊆ tcRefs τ sig :=
  ⟨nullary_bufs_sub .., unary_bufs_sub .., unary_bufs_sub .., ternary_bufs_sub ..⟩

theorem sub74 : (c74 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩

theorem sub75 : (c75 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub ..⟩

theorem sub76 : (c76 : List (HloOp τ sig (Elt F))).Forall fun op => op.bufs ⊆ tcRefs τ sig :=
  ⟨unary_bufs_sub .., unary_bufs_sub .., binary_bufs_sub ..⟩

theorem sub77 : (c77 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub ..⟩

theorem sub78 : (c78 : List (HloOp τ sig (Elt F))).Forall fun op => op.bufs ⊆ tcRefs τ sig :=
  ⟨unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_append.mpr ⟨sub0, List.forall_append.mpr ⟨sub1, List.forall_append.mpr ⟨sub2, List.forall_append.mpr ⟨sub3, List.forall_append.mpr ⟨sub4, List.forall_append.mpr ⟨sub5, List.forall_append.mpr ⟨sub6, List.forall_append.mpr ⟨sub7, List.forall_append.mpr ⟨sub8, List.forall_append.mpr ⟨sub9, List.forall_append.mpr ⟨sub10, List.forall_append.mpr ⟨sub11, List.forall_append.mpr ⟨sub12, List.forall_append.mpr ⟨sub13, List.forall_append.mpr ⟨sub14, List.forall_append.mpr ⟨sub15, List.forall_append.mpr ⟨sub16, List.forall_append.mpr ⟨sub17, List.forall_append.mpr ⟨sub18, List.forall_append.mpr ⟨sub19, List.forall_append.mpr ⟨sub20, List.forall_append.mpr ⟨sub21, List.forall_append.mpr ⟨sub22, List.forall_append.mpr ⟨sub23, List.forall_append.mpr ⟨sub24, List.forall_append.mpr ⟨sub25, List.forall_append.mpr ⟨sub26, List.forall_append.mpr ⟨sub27, List.forall_append.mpr ⟨sub28, List.forall_append.mpr ⟨sub29, List.forall_append.mpr ⟨sub30, List.forall_append.mpr ⟨sub31, List.forall_append.mpr ⟨sub32, List.forall_append.mpr ⟨sub33, List.forall_append.mpr ⟨sub34, List.forall_append.mpr ⟨sub35, List.forall_append.mpr ⟨sub36, List.forall_append.mpr ⟨sub37, List.forall_append.mpr ⟨sub38, List.forall_append.mpr ⟨sub39, List.forall_append.mpr ⟨sub40, List.forall_append.mpr ⟨sub41, List.forall_append.mpr ⟨sub42, List.forall_append.mpr ⟨sub43, List.forall_append.mpr ⟨sub44, List.forall_append.mpr ⟨sub45, List.forall_append.mpr ⟨sub46, List.forall_append.mpr ⟨sub47, List.forall_append.mpr ⟨sub48, List.forall_append.mpr ⟨sub49, List.forall_append.mpr ⟨sub50, List.forall_append.mpr ⟨sub51, List.forall_append.mpr ⟨sub52, List.forall_append.mpr ⟨sub53, List.forall_append.mpr ⟨sub54, List.forall_append.mpr ⟨sub55, List.forall_append.mpr ⟨sub56, List.forall_append.mpr ⟨sub57, List.forall_append.mpr ⟨sub58, List.forall_append.mpr ⟨sub59, List.forall_append.mpr ⟨sub60, List.forall_append.mpr ⟨sub61, List.forall_append.mpr ⟨sub62, List.forall_append.mpr ⟨sub63, List.forall_append.mpr ⟨sub64, List.forall_append.mpr ⟨sub65, List.forall_append.mpr ⟨sub66, List.forall_append.mpr ⟨sub67, List.forall_append.mpr ⟨sub68, List.forall_append.mpr ⟨sub69, List.forall_append.mpr ⟨sub70, List.forall_append.mpr ⟨sub71, List.forall_append.mpr ⟨sub72, List.forall_append.mpr ⟨sub73, List.forall_append.mpr ⟨sub74, List.forall_append.mpr ⟨sub75, List.forall_append.mpr ⟨sub76, List.forall_append.mpr ⟨sub77, sub78⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩⟩

theorem fresh0 : ∀ op ∈ (c0 : List (HloOp τ sig (Elt F))), op.fresh = ∅ := by
  intro _ h; (repeat (cases h with | head => rfl | tail _ h => ?_)); exact nomatch h

theorem fresh1 : ∀ op ∈ (c1 : List (HloOp τ sig (Elt F))), op.fresh = ∅ := by
  intro _ h; (repeat (cases h with | head => rfl | tail _ h => ?_)); exact nomatch h

theorem fresh2 : ∀ op ∈ (c2 : List (HloOp τ sig (Elt F))), op.fresh = ∅ := by
  intro _ h; (repeat (cases h with | head => rfl | tail _ h => ?_)); exact nomatch h

theorem fresh3 : ∀ op ∈ (c3 : List (HloOp τ sig (Elt F))), op.fresh = ∅ := by
  intro _ h; (repeat (cases h with | head => rfl | tail _ h => ?_)); exact nomatch h

theorem fresh4 : ∀ op ∈ (c4 : List (HloOp τ sig (Elt F))), op.fresh = ∅ := by
  intro _ h; (repeat (cases h with | head => rfl | tail _ h => ?_)); exact nomatch h

theorem fresh5 : ∀ op ∈ (c5 : List (HloOp τ sig (Elt F))), op.fresh = ∅ := by
  intro _ h; (repeat (cases h with | head => rfl | tail _ h => ?_)); exact nomatch h

theorem fresh6 : ∀ op ∈ (c6 : List (HloOp τ sig (Elt F))), op.fresh = ∅ := by
  intro _ h; (repeat (cases h with | head => rfl | tail _ h => ?_)); exact nomatch h

theorem fresh7 : ∀ op ∈ (c7 : List (HloOp τ sig (Elt F))), op.fresh = ∅ := by
  intro _ h; (repeat (cases h with | head => rfl | tail _ h => ?_)); exact nomatch h

theorem fresh8 : ∀ op ∈ (c8 : List (HloOp τ sig (Elt F))), op.fresh = ∅ := by
  intro _ h; (repeat (cases h with | head => rfl | tail _ h => ?_)); exact nomatch h

theorem fresh9 : ∀ op ∈ (c9 : List (HloOp τ sig (Elt F))), op.fresh = ∅ := by
  intro _ h; (repeat (cases h with | head => rfl | tail _ h => ?_)); exact nomatch h

theorem fresh10 : ∀ op ∈ (c10 : List (HloOp τ sig (Elt F))), op.fresh = ∅ := by
  intro _ h; (repeat (cases h with | head => rfl | tail _ h => ?_)); exact nomatch h

theorem fresh11 : ∀ op ∈ (c11 : List (HloOp τ sig (Elt F))), op.fresh = ∅ := by
  intro _ h; (repeat (cases h with | head => rfl | tail _ h => ?_)); exact nomatch h

theorem fresh12 : ∀ op ∈ (c12 : List (HloOp τ sig (Elt F))), op.fresh = ∅ := by
  intro _ h; (repeat (cases h with | head => rfl | tail _ h => ?_)); exact nomatch h

theorem fresh13 : ∀ op ∈ (c13 : List (HloOp τ sig (Elt F))), op.fresh = ∅ := by
  intro _ h; (repeat (cases h with | head => rfl | tail _ h => ?_)); exact nomatch h

theorem fresh14 : ∀ op ∈ (c14 : List (HloOp τ sig (Elt F))), op.fresh = ∅ := by
  intro _ h; (repeat (cases h with | head => rfl | tail _ h => ?_)); exact nomatch h

theorem fresh15 : ∀ op ∈ (c15 : List (HloOp τ sig (Elt F))), op.fresh = ∅ := by
  intro _ h; (repeat (cases h with | head => rfl | tail _ h => ?_)); exact nomatch h

theorem fresh16 : ∀ op ∈ (c16 : List (HloOp τ sig (Elt F))), op.fresh = ∅ := by
  intro _ h; (repeat (cases h with | head => rfl | tail _ h => ?_)); exact nomatch h

theorem fresh17 : ∀ op ∈ (c17 : List (HloOp τ sig (Elt F))), op.fresh = ∅ := by
  intro _ h; (repeat (cases h with | head => rfl | tail _ h => ?_)); exact nomatch h

theorem fresh18 : ∀ op ∈ (c18 : List (HloOp τ sig (Elt F))), op.fresh = ∅ := by
  intro _ h; (repeat (cases h with | head => rfl | tail _ h => ?_)); exact nomatch h

theorem fresh19 : ∀ op ∈ (c19 : List (HloOp τ sig (Elt F))), op.fresh = ∅ := by
  intro _ h; (repeat (cases h with | head => rfl | tail _ h => ?_)); exact nomatch h

theorem fresh20 : ∀ op ∈ (c20 : List (HloOp τ sig (Elt F))), op.fresh = ∅ := by
  intro _ h; (repeat (cases h with | head => rfl | tail _ h => ?_)); exact nomatch h

theorem fresh21 : ∀ op ∈ (c21 : List (HloOp τ sig (Elt F))), op.fresh = ∅ := by
  intro _ h; (repeat (cases h with | head => rfl | tail _ h => ?_)); exact nomatch h

theorem fresh22 : ∀ op ∈ (c22 : List (HloOp τ sig (Elt F))), op.fresh = ∅ := by
  intro _ h; (repeat (cases h with | head => rfl | tail _ h => ?_)); exact nomatch h

theorem fresh23 : ∀ op ∈ (c23 : List (HloOp τ sig (Elt F))), op.fresh = ∅ := by
  intro _ h; (repeat (cases h with | head => rfl | tail _ h => ?_)); exact nomatch h

theorem fresh24 : ∀ op ∈ (c24 : List (HloOp τ sig (Elt F))), op.fresh = ∅ := by
  intro _ h; (repeat (cases h with | head => rfl | tail _ h => ?_)); exact nomatch h

theorem fresh25 : ∀ op ∈ (c25 : List (HloOp τ sig (Elt F))), op.fresh = ∅ := by
  intro _ h; (repeat (cases h with | head => rfl | tail _ h => ?_)); exact nomatch h

theorem fresh26 : ∀ op ∈ (c26 : List (HloOp τ sig (Elt F))), op.fresh = ∅ := by
  intro _ h; (repeat (cases h with | head => rfl | tail _ h => ?_)); exact nomatch h

theorem fresh27 : ∀ op ∈ (c27 : List (HloOp τ sig (Elt F))), op.fresh = ∅ := by
  intro _ h; (repeat (cases h with | head => rfl | tail _ h => ?_)); exact nomatch h

theorem fresh28 : ∀ op ∈ (c28 : List (HloOp τ sig (Elt F))), op.fresh = ∅ := by
  intro _ h; (repeat (cases h with | head => rfl | tail _ h => ?_)); exact nomatch h

theorem fresh29 : ∀ op ∈ (c29 : List (HloOp τ sig (Elt F))), op.fresh = ∅ := by
  intro _ h; (repeat (cases h with | head => rfl | tail _ h => ?_)); exact nomatch h

theorem fresh30 : ∀ op ∈ (c30 : List (HloOp τ sig (Elt F))), op.fresh = ∅ := by
  intro _ h; (repeat (cases h with | head => rfl | tail _ h => ?_)); exact nomatch h

theorem fresh31 : ∀ op ∈ (c31 : List (HloOp τ sig (Elt F))), op.fresh = ∅ := by
  intro _ h; (repeat (cases h with | head => rfl | tail _ h => ?_)); exact nomatch h

theorem fresh32 : ∀ op ∈ (c32 : List (HloOp τ sig (Elt F))), op.fresh = ∅ := by
  intro _ h; (repeat (cases h with | head => rfl | tail _ h => ?_)); exact nomatch h

theorem fresh33 : ∀ op ∈ (c33 : List (HloOp τ sig (Elt F))), op.fresh = ∅ := by
  intro _ h; (repeat (cases h with | head => rfl | tail _ h => ?_)); exact nomatch h

theorem fresh34 : ∀ op ∈ (c34 : List (HloOp τ sig (Elt F))), op.fresh = ∅ := by
  intro _ h; (repeat (cases h with | head => rfl | tail _ h => ?_)); exact nomatch h

theorem fresh35 : ∀ op ∈ (c35 : List (HloOp τ sig (Elt F))), op.fresh = ∅ := by
  intro _ h; (repeat (cases h with | head => rfl | tail _ h => ?_)); exact nomatch h

theorem fresh36 : ∀ op ∈ (c36 : List (HloOp τ sig (Elt F))), op.fresh = ∅ := by
  intro _ h; (repeat (cases h with | head => rfl | tail _ h => ?_)); exact nomatch h

theorem fresh37 : ∀ op ∈ (c37 : List (HloOp τ sig (Elt F))), op.fresh = ∅ := by
  intro _ h; (repeat (cases h with | head => rfl | tail _ h => ?_)); exact nomatch h

theorem fresh38 : ∀ op ∈ (c38 : List (HloOp τ sig (Elt F))), op.fresh = ∅ := by
  intro _ h; (repeat (cases h with | head => rfl | tail _ h => ?_)); exact nomatch h

theorem fresh39 : ∀ op ∈ (c39 : List (HloOp τ sig (Elt F))), op.fresh = ∅ := by
  intro _ h; (repeat (cases h with | head => rfl | tail _ h => ?_)); exact nomatch h

theorem fresh40 : ∀ op ∈ (c40 : List (HloOp τ sig (Elt F))), op.fresh = ∅ := by
  intro _ h; (repeat (cases h with | head => rfl | tail _ h => ?_)); exact nomatch h

theorem fresh41 : ∀ op ∈ (c41 : List (HloOp τ sig (Elt F))), op.fresh = ∅ := by
  intro _ h; (repeat (cases h with | head => rfl | tail _ h => ?_)); exact nomatch h

theorem fresh42 : ∀ op ∈ (c42 : List (HloOp τ sig (Elt F))), op.fresh = ∅ := by
  intro _ h; (repeat (cases h with | head => rfl | tail _ h => ?_)); exact nomatch h

theorem fresh43 : ∀ op ∈ (c43 : List (HloOp τ sig (Elt F))), op.fresh = ∅ := by
  intro _ h; (repeat (cases h with | head => rfl | tail _ h => ?_)); exact nomatch h

theorem fresh44 : ∀ op ∈ (c44 : List (HloOp τ sig (Elt F))), op.fresh = ∅ := by
  intro _ h; (repeat (cases h with | head => rfl | tail _ h => ?_)); exact nomatch h

theorem fresh45 : ∀ op ∈ (c45 : List (HloOp τ sig (Elt F))), op.fresh = ∅ := by
  intro _ h; (repeat (cases h with | head => rfl | tail _ h => ?_)); exact nomatch h

theorem fresh46 : ∀ op ∈ (c46 : List (HloOp τ sig (Elt F))), op.fresh = ∅ := by
  intro _ h; (repeat (cases h with | head => rfl | tail _ h => ?_)); exact nomatch h

theorem fresh47 : ∀ op ∈ (c47 : List (HloOp τ sig (Elt F))), op.fresh = ∅ := by
  intro _ h; (repeat (cases h with | head => rfl | tail _ h => ?_)); exact nomatch h

theorem fresh48 : ∀ op ∈ (c48 : List (HloOp τ sig (Elt F))), op.fresh = ∅ := by
  intro _ h; (repeat (cases h with | head => rfl | tail _ h => ?_)); exact nomatch h

theorem fresh49 : ∀ op ∈ (c49 : List (HloOp τ sig (Elt F))), op.fresh = ∅ := by
  intro _ h; (repeat (cases h with | head => rfl | tail _ h => ?_)); exact nomatch h

theorem fresh50 : ∀ op ∈ (c50 : List (HloOp τ sig (Elt F))), op.fresh = ∅ := by
  intro _ h; (repeat (cases h with | head => rfl | tail _ h => ?_)); exact nomatch h

theorem fresh51 : ∀ op ∈ (c51 : List (HloOp τ sig (Elt F))), op.fresh = ∅ := by
  intro _ h; (repeat (cases h with | head => rfl | tail _ h => ?_)); exact nomatch h

theorem fresh52 : ∀ op ∈ (c52 : List (HloOp τ sig (Elt F))), op.fresh = ∅ := by
  intro _ h; (repeat (cases h with | head => rfl | tail _ h => ?_)); exact nomatch h

theorem fresh53 : ∀ op ∈ (c53 : List (HloOp τ sig (Elt F))), op.fresh = ∅ := by
  intro _ h; (repeat (cases h with | head => rfl | tail _ h => ?_)); exact nomatch h

theorem fresh54 : ∀ op ∈ (c54 : List (HloOp τ sig (Elt F))), op.fresh = ∅ := by
  intro _ h; (repeat (cases h with | head => rfl | tail _ h => ?_)); exact nomatch h

theorem fresh55 : ∀ op ∈ (c55 : List (HloOp τ sig (Elt F))), op.fresh = ∅ := by
  intro _ h; (repeat (cases h with | head => rfl | tail _ h => ?_)); exact nomatch h

theorem fresh56 : ∀ op ∈ (c56 : List (HloOp τ sig (Elt F))), op.fresh = ∅ := by
  intro _ h; (repeat (cases h with | head => rfl | tail _ h => ?_)); exact nomatch h

theorem fresh57 : ∀ op ∈ (c57 : List (HloOp τ sig (Elt F))), op.fresh = ∅ := by
  intro _ h; (repeat (cases h with | head => rfl | tail _ h => ?_)); exact nomatch h

theorem fresh58 : ∀ op ∈ (c58 : List (HloOp τ sig (Elt F))), op.fresh = ∅ := by
  intro _ h; (repeat (cases h with | head => rfl | tail _ h => ?_)); exact nomatch h

theorem fresh59 : ∀ op ∈ (c59 : List (HloOp τ sig (Elt F))), op.fresh = ∅ := by
  intro _ h; (repeat (cases h with | head => rfl | tail _ h => ?_)); exact nomatch h

theorem fresh60 : ∀ op ∈ (c60 : List (HloOp τ sig (Elt F))), op.fresh = ∅ := by
  intro _ h; (repeat (cases h with | head => rfl | tail _ h => ?_)); exact nomatch h

theorem fresh61 : ∀ op ∈ (c61 : List (HloOp τ sig (Elt F))), op.fresh = ∅ := by
  intro _ h; (repeat (cases h with | head => rfl | tail _ h => ?_)); exact nomatch h

theorem fresh62 : ∀ op ∈ (c62 : List (HloOp τ sig (Elt F))), op.fresh = ∅ := by
  intro _ h; (repeat (cases h with | head => rfl | tail _ h => ?_)); exact nomatch h

theorem fresh63 : ∀ op ∈ (c63 : List (HloOp τ sig (Elt F))), op.fresh = ∅ := by
  intro _ h; (repeat (cases h with | head => rfl | tail _ h => ?_)); exact nomatch h

theorem fresh64 : ∀ op ∈ (c64 : List (HloOp τ sig (Elt F))), op.fresh = ∅ := by
  intro _ h; (repeat (cases h with | head => rfl | tail _ h => ?_)); exact nomatch h

theorem fresh65 : ∀ op ∈ (c65 : List (HloOp τ sig (Elt F))), op.fresh = ∅ := by
  intro _ h; (repeat (cases h with | head => rfl | tail _ h => ?_)); exact nomatch h

theorem fresh66 : ∀ op ∈ (c66 : List (HloOp τ sig (Elt F))), op.fresh = ∅ := by
  intro _ h; (repeat (cases h with | head => rfl | tail _ h => ?_)); exact nomatch h

theorem fresh67 : ∀ op ∈ (c67 : List (HloOp τ sig (Elt F))), op.fresh = ∅ := by
  intro _ h; (repeat (cases h with | head => rfl | tail _ h => ?_)); exact nomatch h

theorem fresh68 : ∀ op ∈ (c68 : List (HloOp τ sig (Elt F))), op.fresh = ∅ := by
  intro _ h; (repeat (cases h with | head => rfl | tail _ h => ?_)); exact nomatch h

theorem fresh69 : ∀ op ∈ (c69 : List (HloOp τ sig (Elt F))), op.fresh = ∅ := by
  intro _ h; (repeat (cases h with | head => rfl | tail _ h => ?_)); exact nomatch h

theorem fresh70 : ∀ op ∈ (c70 : List (HloOp τ sig (Elt F))), op.fresh = ∅ := by
  intro _ h; (repeat (cases h with | head => rfl | tail _ h => ?_)); exact nomatch h

theorem fresh71 : ∀ op ∈ (c71 : List (HloOp τ sig (Elt F))), op.fresh = ∅ := by
  intro _ h; (repeat (cases h with | head => rfl | tail _ h => ?_)); exact nomatch h

theorem fresh72 : ∀ op ∈ (c72 : List (HloOp τ sig (Elt F))), op.fresh = ∅ := by
  intro _ h; (repeat (cases h with | head => rfl | tail _ h => ?_)); exact nomatch h

theorem fresh73 : ∀ op ∈ (c73 : List (HloOp τ sig (Elt F))), op.fresh = ∅ := by
  intro _ h; (repeat (cases h with | head => rfl | tail _ h => ?_)); exact nomatch h

theorem fresh74 : ∀ op ∈ (c74 : List (HloOp τ sig (Elt F))), op.fresh = ∅ := by
  intro _ h; (repeat (cases h with | head => rfl | tail _ h => ?_)); exact nomatch h

theorem fresh75 : ∀ op ∈ (c75 : List (HloOp τ sig (Elt F))), op.fresh = ∅ := by
  intro _ h; (repeat (cases h with | head => rfl | tail _ h => ?_)); exact nomatch h

theorem fresh76 : ∀ op ∈ (c76 : List (HloOp τ sig (Elt F))), op.fresh = ∅ := by
  intro _ h; (repeat (cases h with | head => rfl | tail _ h => ?_)); exact nomatch h

theorem fresh77 : ∀ op ∈ (c77 : List (HloOp τ sig (Elt F))), op.fresh = ∅ := by
  intro _ h; (repeat (cases h with | head => rfl | tail _ h => ?_)); exact nomatch h

theorem fresh78 : ∀ op ∈ (c78 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  unfold ops at h
  rcases List.mem_append.mp h with h | h
  · exact fresh0 op h
  rcases List.mem_append.mp h with h | h
  · exact fresh1 op h
  rcases List.mem_append.mp h with h | h
  · exact fresh2 op h
  rcases List.mem_append.mp h with h | h
  · exact fresh3 op h
  rcases List.mem_append.mp h with h | h
  · exact fresh4 op h
  rcases List.mem_append.mp h with h | h
  · exact fresh5 op h
  rcases List.mem_append.mp h with h | h
  · exact fresh6 op h
  rcases List.mem_append.mp h with h | h
  · exact fresh7 op h
  rcases List.mem_append.mp h with h | h
  · exact fresh8 op h
  rcases List.mem_append.mp h with h | h
  · exact fresh9 op h
  rcases List.mem_append.mp h with h | h
  · exact fresh10 op h
  rcases List.mem_append.mp h with h | h
  · exact fresh11 op h
  rcases List.mem_append.mp h with h | h
  · exact fresh12 op h
  rcases List.mem_append.mp h with h | h
  · exact fresh13 op h
  rcases List.mem_append.mp h with h | h
  · exact fresh14 op h
  rcases List.mem_append.mp h with h | h
  · exact fresh15 op h
  rcases List.mem_append.mp h with h | h
  · exact fresh16 op h
  rcases List.mem_append.mp h with h | h
  · exact fresh17 op h
  rcases List.mem_append.mp h with h | h
  · exact fresh18 op h
  rcases List.mem_append.mp h with h | h
  · exact fresh19 op h
  rcases List.mem_append.mp h with h | h
  · exact fresh20 op h
  rcases List.mem_append.mp h with h | h
  · exact fresh21 op h
  rcases List.mem_append.mp h with h | h
  · exact fresh22 op h
  rcases List.mem_append.mp h with h | h
  · exact fresh23 op h
  rcases List.mem_append.mp h with h | h
  · exact fresh24 op h
  rcases List.mem_append.mp h with h | h
  · exact fresh25 op h
  rcases List.mem_append.mp h with h | h
  · exact fresh26 op h
  rcases List.mem_append.mp h with h | h
  · exact fresh27 op h
  rcases List.mem_append.mp h with h | h
  · exact fresh28 op h
  rcases List.mem_append.mp h with h | h
  · exact fresh29 op h
  rcases List.mem_append.mp h with h | h
  · exact fresh30 op h
  rcases List.mem_append.mp h with h | h
  · exact fresh31 op h
  rcases List.mem_append.mp h with h | h
  · exact fresh32 op h
  rcases List.mem_append.mp h with h | h
  · exact fresh33 op h
  rcases List.mem_append.mp h with h | h
  · exact fresh34 op h
  rcases List.mem_append.mp h with h | h
  · exact fresh35 op h
  rcases List.mem_append.mp h with h | h
  · exact fresh36 op h
  rcases List.mem_append.mp h with h | h
  · exact fresh37 op h
  rcases List.mem_append.mp h with h | h
  · exact fresh38 op h
  rcases List.mem_append.mp h with h | h
  · exact fresh39 op h
  rcases List.mem_append.mp h with h | h
  · exact fresh40 op h
  rcases List.mem_append.mp h with h | h
  · exact fresh41 op h
  rcases List.mem_append.mp h with h | h
  · exact fresh42 op h
  rcases List.mem_append.mp h with h | h
  · exact fresh43 op h
  rcases List.mem_append.mp h with h | h
  · exact fresh44 op h
  rcases List.mem_append.mp h with h | h
  · exact fresh45 op h
  rcases List.mem_append.mp h with h | h
  · exact fresh46 op h
  rcases List.mem_append.mp h with h | h
  · exact fresh47 op h
  rcases List.mem_append.mp h with h | h
  · exact fresh48 op h
  rcases List.mem_append.mp h with h | h
  · exact fresh49 op h
  rcases List.mem_append.mp h with h | h
  · exact fresh50 op h
  rcases List.mem_append.mp h with h | h
  · exact fresh51 op h
  rcases List.mem_append.mp h with h | h
  · exact fresh52 op h
  rcases List.mem_append.mp h with h | h
  · exact fresh53 op h
  rcases List.mem_append.mp h with h | h
  · exact fresh54 op h
  rcases List.mem_append.mp h with h | h
  · exact fresh55 op h
  rcases List.mem_append.mp h with h | h
  · exact fresh56 op h
  rcases List.mem_append.mp h with h | h
  · exact fresh57 op h
  rcases List.mem_append.mp h with h | h
  · exact fresh58 op h
  rcases List.mem_append.mp h with h | h
  · exact fresh59 op h
  rcases List.mem_append.mp h with h | h
  · exact fresh60 op h
  rcases List.mem_append.mp h with h | h
  · exact fresh61 op h
  rcases List.mem_append.mp h with h | h
  · exact fresh62 op h
  rcases List.mem_append.mp h with h | h
  · exact fresh63 op h
  rcases List.mem_append.mp h with h | h
  · exact fresh64 op h
  rcases List.mem_append.mp h with h | h
  · exact fresh65 op h
  rcases List.mem_append.mp h with h | h
  · exact fresh66 op h
  rcases List.mem_append.mp h with h | h
  · exact fresh67 op h
  rcases List.mem_append.mp h with h | h
  · exact fresh68 op h
  rcases List.mem_append.mp h with h | h
  · exact fresh69 op h
  rcases List.mem_append.mp h with h | h
  · exact fresh70 op h
  rcases List.mem_append.mp h with h | h
  · exact fresh71 op h
  rcases List.mem_append.mp h with h | h
  · exact fresh72 op h
  rcases List.mem_append.mp h with h | h
  · exact fresh73 op h
  rcases List.mem_append.mp h with h | h
  · exact fresh74 op h
  rcases List.mem_append.mp h with h | h
  · exact fresh75 op h
  rcases List.mem_append.mp h with h | h
  · exact fresh76 op h
  rcases List.mem_append.mp h with h | h
  · exact fresh77 op h
  exact fresh78 op h

/-! ## The run -/

/-- A line run after another is the two run as one. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The whole line's fold is the pieces' folds, one after the other. -/
theorem after_ops (V : Valuation τ sig (Elt F)) : after ops V = after c78 (after c77 (after c76 (after c75 (after c74 (after c73 (after c72 (after c71 (after c70 (after c69 (after c68 (after c67 (after c66 (after c65 (after c64 (after c63 (after c62 (after c61 (after c60 (after c59 (after c58 (after c57 (after c56 (after c55 (after c54 (after c53 (after c52 (after c51 (after c50 (after c49 (after c48 (after c47 (after c46 (after c45 (after c44 (after c43 (after c42 (after c41 (after c40 (after c39 (after c38 (after c37 (after c36 (after c35 (after c34 (after c33 (after c32 (after c31 (after c30 (after c29 (after c28 (after c27 (after c26 (after c25 (after c24 (after c23 (after c22 (after c21 (after c20 (after c19 (after c18 (after c17 (after c16 (after c15 (after c14 (after c13 (after c12 (after c11 (after c10 (after c9 (after c8 (after c7 (after c6 (after c5 (after c4 (after c3 (after c2 (after c1 (after c0 (V))))))))))))))))))))))))))))))))))))))))))))))))))))))))))))))))))))))))))))))) := by
  unfold ops
  simp only [after_app]

/-- On every device, from any memory with zero counters: every weakly fair execution of @main terminates with each
    TensorCore buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.RefRun

end
-- ==== Proof.RefRunPiece00.lean ====
/-
  Operations 0 … 9 of the reference program's line of host operations, in one piece: what each piece
  leaves in the buffers that later pieces read.

  A piece's written buffers (`main_v3`, `main_v6`, `main_v8`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model
import proofs.«147806_j25666724560908_2_alg».proof.Proof.LibJoinedPair

noncomputable section

namespace Cert.RefRun

open Cert.ReferenceIdeal Cert.ReferenceIdeal.Gen Idealize.ShloMosaic Idealize.ShloMosaic.TcCoe Idealize.SL.Sem Idealize.ShloMosaic.StableHlo

/-! ### Piece 0: operations 0 … 9, up to `main_v8` -/

/-- The buffers piece 0 writes. -/
abbrev W0 : List (Ref sig .tc) := [main_v0, main_v1, main_v2, main_v3, main_v4, main_v5, main_v6, main_cst, main_v7, main_v8]

/-- Every operation of piece 0 writes a buffer of that list. -/
theorem writes0 : (c0 (F := Ideal)).Forall fun op => op.writes ⊆ (W0.map (Proc.devRef (τ := τ) .tc)).toFinset :=
  ⟨sub_of_mem (y := main_v0) (by decide), sub_of_mem (y := main_v1) (by decide), sub_of_mem (y := main_v2) (by decide), sub_of_mem (y := main_v3) (by decide), sub_of_mem (y := main_v4) (by decide), sub_of_mem (y := main_v5) (by decide), sub_of_mem (y := main_v6) (by decide), sub_of_mem (y := main_cst) (by decide), sub_of_mem (y := main_v7) (by decide), sub_of_mem (y := main_v8) (by decide)⟩

/-- A buffer outside that list keeps its contents through piece 0. -/
theorem carry0 (V : Valuation τ sig (Elt Ideal)) (r : Ref sig .tc) (hr : r ∉ W0) :
    StableHlo.after (c0 (F := Ideal)) V (Proc.devRef .tc r) = V (Proc.devRef .tc r) :=
  after_of_writes_sub _ V writes0 hr

set_option maxRecDepth 400000 in
/-- After piece 0, `main_v3` holds its named function of the arguments, given what the piece's inputs hold. -/
theorem w0_main_v3 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg1 : V (Proc.devRef .tc main_arg1) = x1) :
    StableHlo.after (c0 (F := Ideal)) V (Proc.devRef .tc main_v3) = Cert.Model.src (F := Ideal) x1 := by
  read_fold
  rw [h_main_arg1]
  rfl

set_option maxRecDepth 400000 in
/-- After piece 0, `main_v6` holds its named function of the arguments, given what the piece's inputs hold. -/
theorem w0_main_v6 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg1 : V (Proc.devRef .tc main_arg1) = x1) :
    StableHlo.after (c0 (F := Ideal)) V (Proc.devRef .tc main_v6) = Cert.Model.dst (F := Ideal) x1 := by
  read_fold
  rw [h_main_arg1]
  rfl

set_option maxRecDepth 400000 in
/-- After piece 0, `main_v8` holds its named function of the arguments, given what the piece's inputs hold. -/
theorem w0_main_v8 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg2 : V (Proc.devRef .tc main_arg2) = x2) :
    StableHlo.after (c0 (F := Ideal)) V (Proc.devRef .tc main_v8) = Cert.Model.wts (F := Ideal) x2 := by
  read_fold
  rw [h_main_arg2]
  rfl

end Cert.RefRun

end
-- ==== Proof.RefRunPiece01.lean ====
/-
  Operations 10 … 14 of the reference program's line of host operations, in one piece: what each piece
  leaves in the buffers that later pieces read.

  A piece's written buffers (`main_v12`, `main_v13`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### Piece 1: operations 10 … 14, up to `main_v13` -/

/-- The buffers piece 1 writes. -/
abbrev W1 : List (Ref sig .tc) := [main_v9, main_v10, main_v11, main_v12, main_v13]

/-- Every operation of piece 1 writes a buffer of that list. -/
theorem writes1 : (c1 (F := Ideal)).Forall fun op => op.writes ⊆ (W1.map (Proc.devRef (τ := τ) .tc)).toFinset :=
  ⟨sub_of_mem (y := main_v9) (by decide), sub_of_mem (y := main_v10) (by decide), sub_of_mem (y := main_v11) (by decide), sub_of_mem (y := main_v12) (by decide), sub_of_mem (y := main_v13) (by decide)⟩

/-- A buffer outside that list keeps its contents through piece 1. -/
theorem carry1 (V : Valuation τ sig (Elt Ideal)) (r : Ref sig .tc) (hr : r ∉ W1) :
    StableHlo.after (c1 (F := Ideal)) V (Proc.devRef .tc r) = V (Proc.devRef .tc r) :=
  after_of_writes_sub _ V writes1 hr

set_option maxRecDepth 400000 in
/-- After piece 1, `main_v12` holds its named function of the arguments, given what the piece's inputs hold. -/
theorem w1_main_v12 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c1 (F := Ideal)) V (Proc.devRef .tc main_v12) = biasVec0 (F := Ideal) x4 := by
  after_results_simp
  rw [h_main_arg4]
  rfl

set_option maxRecDepth 400000 in
/-- After piece 1, `main_v13` holds its named function of the arguments, given what the piece's inputs hold. -/
theorem w1_main_v13 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg0 : V (Proc.devRef .tc main_arg0) = x0)
    (h_main_arg3 : V (Proc.devRef .tc main_arg3) = x3) :
    StableHlo.after (c1 (F := Ideal)) V (Proc.devRef .tc main_v13) = Cert.Model.h0 (F := Ideal) x0 x3 := by
  after_results_simp
  rw [h_main_arg0, h_main_arg3]
  rfl

end Cert.RefRun

end
-- ==== Proof.RefRunPiece02.lean ====
/-
  Operations 15 … 62 of the reference program's line of host operations, in 6 pieces: what each piece
  leaves in the buffers that later pieces read.

  A piece's written buffers (`main_v16`, `main_v18`, `main_v19`, `main_v20`, `main_v36`, `main_v49`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_2 (v : (⟨S_, .f32⟩ : BufTy).Contents (Elt Ideal)) :
    (TRef.of (sig := sig) (T := ⟨S_, .f32⟩) main_cst_2).toBuf (Val := Elt Ideal) v = v := cast_eq _ v
theorem ofBuf_main_cst_2 (v : (⟨S_, .f32⟩ : BufTy).Contents (Elt Ideal)) :
    (TRef.of (sig := sig) (T := ⟨S_, .f32⟩) main_cst_2).ofBuf (Val := Elt Ideal) v = v := cast_eq _ v
theorem toBuf_main_call0_v0 (v : (⟨S_, .f32⟩ : BufTy).Contents (Elt Ideal)) :
    (TRef.of (sig := sig) (T := ⟨S_, .f32⟩) main_call0_v0).toBuf (Val := Elt Ideal) v = v := cast_eq _ v
theorem ofBuf_main_call0_v0 (v : (⟨S_, .f32⟩ : BufTy).Contents (Elt Ideal)) :
    (TRef.of (sig := sig) (T := ⟨S_, .f32⟩) main_call0_v0).ofBuf (Val := Elt Ideal) v = v := cast_eq _ v
theorem toBuf_main_call0_v1 (v : (⟨S100000, .f32⟩ : BufTy).Contents (Elt Ideal)) :
    (TRef.of (sig := sig) (T := ⟨S100000, .f32⟩) main_call0_v1).toBuf (Val := Elt Ideal) v = v := cast_eq _ v
theorem ofBuf_main_call0_v1 (v : (⟨S100000, .f32⟩ : BufTy).Contents (Elt Ideal)) :
    (TRef.of (sig := sig) (T := ⟨S100000, .f32⟩) main_call0_v1).ofBuf (Val := Elt Ideal) v = v := cast_eq _ v
theorem toBuf_main_v18 (v : (⟨S100000, .i1⟩ : BufTy).Contents (Elt Ideal)) :
    (TRef.of (sig := sig) (T := ⟨S100000, .i1⟩) main_v18).toBuf (Val := Elt Ideal) v = v := cast_eq _ v
theorem ofBuf_main_v18 (v : (⟨S100000, .i1⟩ : BufTy).Contents (Elt Ideal)) :
    (TRef.of (sig := sig) (T := ⟨S100000, .i1⟩) main_v18).ofBuf (Val := Elt Ideal) v = v := cast_eq _ v
theorem toBuf_main_v19 (v : (⟨S100000, .f32⟩ : BufTy).Contents (Elt Ideal)) :
    (TRef.of (sig := sig) (T := ⟨S100000, .f32⟩) main_v19).toBuf (Val := Elt Ideal) v = v := cast_eq _ v
theorem ofBuf_main_v19 (v : (⟨S100000, .f32⟩ : BufTy).Contents (Elt Ideal)) :
    (TRef.of (sig := sig) (T := ⟨S100000, .f32⟩) main_v19).ofBuf (Val := Elt Ideal) v = v := cast_eq _ v
theorem toBuf_main_v20 (v : (⟨S100000, .f32⟩ : BufTy).Contents (Elt Ideal)) :
    (TRef.of (sig := sig) (T := ⟨S100000, .f32⟩) main_v20).toBuf (Val := Elt Ideal) v = v := cast_eq _ v
theorem ofBuf_main_v20 (v : (⟨S100000, .f32⟩ : BufTy).Contents (Elt Ideal)) :
    (TRef.of (sig := sig) (T := ⟨S100000, .f32⟩) main_v20).ofBuf (Val := Elt Ideal) v = v := cast_eq _ v

/-! ### Piece 2: operations 15 … 18, up to `main_v16` -/

/-- The buffers piece 2 writes. -/
abbrev W2 : List (Ref sig .tc) := [main_cst_0, main_v14, main_v15, main_v16]

/-- Every operation of piece 2 writes a buffer of that list. -/
theorem writes2 : (c2 (F := Ideal)).Forall fun op => op.writes ⊆ (W2.map (Proc.devRef (τ := τ) .tc)).toFinset :=
  ⟨sub_of_mem (y := main_cst_0) (by decide), sub_of_mem (y := main_v14) (by decide), sub_of_mem (y := main_v15) (by decide), sub_of_mem (y := main_v16) (by decide)⟩

/-- A buffer outside that list keeps its contents through piece 2. -/
theorem carry2 (V : Valuation τ sig (Elt Ideal)) (r : Ref sig .tc) (hr : r ∉ W2) :
    StableHlo.after (c2 (F := Ideal)) V (Proc.devRef .tc r) = V (Proc.devRef .tc r) :=
  after_of_writes_sub _ V writes2 hr

set_option maxRecDepth 400000 in
/-- After piece 2, `main_v16` holds its named function of the arguments, given what the piece's inputs hold. -/
theorem w2_main_v16 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c2 (F := Ideal)) V (Proc.devRef .tc main_v16) = Cert.Model.deg (F := Ideal) x1 x2 := by
  after_results_simp
  rw [h_main_v6, h_main_v8]
  rfl

/-! ### Piece 3: operations 19 … 21, up to `main_v18` -/

/-- The buffers piece 3 writes. -/
abbrev W3 : List (Ref sig .tc) := [main_cst_1, main_v17, main_v18]

/-- Every operation of piece 3 writes a buffer of that list. -/
theorem writes3 : (c3 (F := Ideal)).Forall fun op => op.writes ⊆ (W3.map (Proc.devRef (τ := τ) .tc)).toFinset :=
  ⟨sub_of_mem (y := main_cst_1) (by decide), sub_of_mem (y := main_v17) (by decide), sub_of_mem (y := main_v18) (by decide)⟩

/-- A buffer outside that list keeps its contents through piece 3. -/
theorem carry3 (V : Valuation τ sig (Elt Ideal)) (r : Ref sig .tc) (hr : r ∉ W3) :
    StableHlo.after (c3 (F := Ideal)) V (Proc.devRef .tc r) = V (Proc.devRef .tc r) :=
  after_of_writes_sub _ V writes3 hr

set_option maxRecDepth 400000 in
/-- After piece 3, `main_v18` holds its named function of the arguments, given what the piece's inputs hold. -/
theorem w3_main_v18 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v16 : V (Proc.devRef .tc main_v16) = Cert.Model.deg (F := Ideal) x1 x2) :
    StableHlo.after (c3 (F := Ideal)) V (Proc.devRef .tc main_v18) = Cert.Model.degPos (F := Ideal) x1 x2 := by
  after_results_simp
  rw [h_main_v16]
  rfl

/-! ### Piece 4: operations 22 … 22, up to `main_v19` -/

/-- The buffers piece 4 writes. -/
abbrev W4 : List (Ref sig .tc) := [main_v19]

/-- Every operation of piece 4 writes a buffer of that list. -/
theorem writes4 : (c4 (F := Ideal)).Forall fun op => op.writes ⊆ (W4.map (Proc.devRef (τ := τ) .tc)).toFinset :=
  sub_of_mem (y := main_v19) (by decide)

/-- A buffer outside that list keeps its contents through piece 4. -/
theorem carry4 (V : Valuation τ sig (Elt Ideal)) (r : Ref sig .tc) (hr : r ∉ W4) :
    StableHlo.after (c4 (F := Ideal)) V (Proc.devRef .tc r) = V (Proc.devRef .tc r) :=
  after_of_writes_sub _ V writes4 hr

set_option maxRecDepth 400000 in
/-- After piece 4, `main_v19` holds its named function of the arguments, given what the piece's inputs hold. -/
theorem w4_main_v19 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v16 : V (Proc.devRef .tc main_v16) = Cert.Model.deg (F := Ideal) x1 x2) :
    StableHlo.after (c4 (F := Ideal)) V (Proc.devRef .tc main_v19) = Cert.Model.degRsqrt (F := Ideal) x1 x2 := by
  after_results_simp
  rw [h_main_v16]
  rfl

/-! ### Piece 5: operations 23 … 26, up to `main_v20` -/

/-- The buffers piece 5 writes. -/
abbrev W5 : List (Ref sig .tc) := [main_cst_2, main_call0_v0, main_call0_v1, main_v20]

/-- Every operation of piece 5 writes a buffer of that list. -/
theorem writes5 : (c5 (F := Ideal)).Forall fun op => op.writes ⊆ (W5.map (Proc.devRef (τ := τ) .tc)).toFinset :=
  ⟨sub_of_mem (y := main_cst_2) (by decide), sub_of_mem (y := main_call0_v0) (by decide), sub_of_mem (y := main_call0_v1) (by decide), sub_of_mem (y := main_v20) (by decide)⟩

/-- A buffer outside that list keeps its contents through piece 5. -/
theorem carry5 (V : Valuation τ sig (Elt Ideal)) (r : Ref sig .tc) (hr : r ∉ W5) :
    StableHlo.after (c5 (F := Ideal)) V (Proc.devRef .tc r) = V (Proc.devRef .tc r) :=
  after_of_writes_sub _ V writes5 hr

set_option maxRecDepth 400000 in
/-- After piece 5, `main_v20` holds its named function of the arguments, given what the piece's inputs hold. -/
theorem w5_main_v20 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v18 : V (Proc.devRef .tc main_v18) = Cert.Model.degPos (F := Ideal) x1 x2)
    (h_main_v19 : V (Proc.devRef .tc main_v19) = Cert.Model.degRsqrt (F := Ideal) x1 x2) :
    StableHlo.after (c5 (F := Ideal)) V (Proc.devRef .tc main_v20) = Cert.Model.dinv (F := Ideal) x1 x2 := by
  after_results_simp
  simp only [toBuf_main_v18, ofBuf_main_v18, toBuf_main_v19, ofBuf_main_v19, toBuf_main_call0_v1, ofBuf_main_call0_v1, toBuf_main_v20, ofBuf_main_v20, toBuf_main_call0_v0, ofBuf_main_call0_v0, toBuf_main_cst_2, ofBuf_main_cst_2]
  rw [h_main_v18, h_main_v19]
  rfl

/-! ### Piece 6: operations 27 … 46, up to `main_v36` -/

/-- The buffers piece 6 writes. -/
abbrev W6 : List (Ref sig .tc) := [main_c, main_v21, main_v22, main_c_3, main_v23, main_v24, main_v25, main_v26, main_v27, main_v28, main_c_4, main_v29, main_v30, main_c_5, main_v31, main_v32, main_v33, main_v34, main_v35, main_v36]

/-- Every operation of piece 6 writes a buffer of that list. -/
theorem writes6 : (c6 (F := Ideal)).Forall fun op => op.writes ⊆ (W6.map (Proc.devRef (τ := τ) .tc)).toFinset :=
  ⟨sub_of_mem (y := main_c) (by decide), sub_of_mem (y := main_v21) (by decide), sub_of_mem (y := main_v22) (by decide), sub_of_mem (y := main_c_3) (by decide), sub_of_mem (y := main_v23) (by decide), sub_of_mem (y := main_v24) (by decide), sub_of_mem (y := main_v25) (by decide), sub_of_mem (y := main_v26) (by decide), sub_of_mem (y := main_v27) (by decide), sub_of_mem (y := main_v28) (by decide), sub_of_mem (y := main_c_4) (by decide), sub_of_mem (y := main_v29) (by decide), sub_of_mem (y := main_v30) (by decide), sub_of_mem (y := main_c_5) (by decide), sub_of_mem (y := main_v31) (by decide), sub_of_mem (y := main_v32) (by decide), sub_of_mem (y := main_v33) (by decide), sub_of_mem (y := main_v34) (by decide), sub_of_mem (y := main_v35) (by decide), sub_of_mem (y := main_v36) (by decide)⟩

/-- A buffer outside that list keeps its contents through piece 6. -/
theorem carry6 (V : Valuation τ sig (Elt Ideal)) (r : Ref sig .tc) (hr : r ∉ W6) :
    StableHlo.after (c6 (F := Ideal)) V (Proc.devRef .tc r) = V (Proc.devRef .tc r) :=
  after_of_writes_sub _ V writes6 hr

set_option maxRecDepth 400000 in
/-- After piece 6, `main_v36` holds its named function of the arguments, given what the piece's inputs hold. -/
theorem w6_main_v36 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v20 : V (Proc.devRef .tc main_v20) = Cert.Model.dinv (F := Ideal) x1 x2)
    (h_main_v3 : V (Proc.devRef .tc main_v3) = Cert.Model.src (F := Ideal) x1)
    (h_main_v6 : V (Proc.devRef .tc main_v6) = Cert.Model.dst (F := Ideal) x1)
    (h_main_v8 : V (Proc.devRef .tc main_v8) = Cert.Model.wts (F := Ideal) x2) :
    StableHlo.after (c6 (F := Ideal)) V (Proc.devRef .tc main_v36) = Cert.Model.enorm (F := Ideal) x1 x2 := by
  after_results_simp
  rw [h_main_v20, h_main_v3, h_main_v6, h_main_v8]
  rfl

/-! ### Piece 7: operations 47 … 62, up to `main_v49` -/

/-- The buffers piece 7 writes. -/
abbrev W7 : List (Ref sig .tc) := [main_c_6, main_v37, main_v38, main_c_7, main_v39, main_v40, main_v41, main_v42, main_v43, main_v44, main_v45, main_v46, main_cst_8, main_v47, main_v48, main_v49]

/-- Every operation of piece 7 writes a buffer of that list. -/
theorem writes7 : (c7 (F := Ideal)).Forall fun op => op.writes ⊆ (W7.map (Proc.devRef (τ := τ) .tc)).toFinset :=
  ⟨sub_of_mem (y := main_c_6) (by decide), sub_of_mem (y := main_v37) (by decide), sub_of_mem (y := main_v38) (by decide), sub_of_mem (y := main_c_7) (by decide), sub_of_mem (y := main_v39) (by decide), sub_of_mem (y := main_v40) (by decide), sub_of_mem (y := main_v41) (by decide), sub_of_mem (y := main_v42) (by decide), sub_of_mem (y := main_v43) (by decide), sub_of_mem (y := main_v44) (by decide), sub_of_mem (y := main_v45) (by decide), sub_of_mem (y := main_v46) (by decide), sub_of_mem (y := main_cst_8) (by decide), sub_of_mem (y := main_v47) (by decide), sub_of_mem (y := main_v48) (by decide), sub_of_mem (y := main_v49) (by decide)⟩

/-- A buffer outside that list keeps its contents through piece 7. -/
theorem carry7 (V : Valuation τ sig (Elt Ideal)) (r : Ref sig .tc) (hr : r ∉ W7) :
    StableHlo.after (c7 (F := Ideal)) V (Proc.devRef .tc r) = V (Proc.devRef .tc r) :=
  after_of_writes_sub _ V writes7 hr

set_option maxRecDepth 400000 in
/-- After piece 7, `main_v49` holds its named function of the arguments, given what the piece's inputs hold. -/
theorem w7_main_v49 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v13 : V (Proc.devRef .tc main_v13) = Cert.Model.h0 (F := Ideal) x0 x3)
    (h_main_v3 : V (Proc.devRef .tc main_v3) = Cert.Model.src (F := Ideal) x1)
    (h_main_v36 : V (Proc.devRef .tc main_v36) = Cert.Model.enorm (F := Ideal) x1 x2)
    (h_main_v6 : V (Proc.devRef .tc main_v6) = Cert.Model.dst (F := Ideal) x1) :
    StableHlo.after (c7 (F := Ideal)) V (Proc.devRef .tc main_v49) = Cert.Model.aggA0 (F := Ideal) x0 x1 x2 x3 x4 := by
  after_results_simp
  rw [h_main_v13, h_main_v3, h_main_v36, h_main_v6]
  rfl

end Cert.RefRun

end
-- ==== Proof.RefRunPiece03.lean ====
/-
  Operations 63 … 73 of the reference program's line of host operations, in one piece: what each piece
  leaves in the buffers that later pieces read.

  A piece's written buffers (`main_v57`, `main_v58`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call1_cst (v : (⟨S_, .f32⟩ : BufTy).Contents (Elt Ideal)) :
    (TRef.of (sig := sig) (T := ⟨S_, .f32⟩) main_call1_cst).toBuf (Val := Elt Ideal) v = v := cast_eq _ v
theorem ofBuf_main_call1_cst (v : (⟨S_, .f32⟩ : BufTy).Contents (Elt Ideal)) :
    (TRef.of (sig := sig) (T := ⟨S_, .f32⟩) main_call1_cst).ofBuf (Val := Elt Ideal) v = v := cast_eq _ v
theorem toBuf_main_call1_v0 (v : (⟨S100000x128, .f32⟩ : BufTy).Contents (Elt Ideal)) :
    (TRef.of (sig := sig) (T := ⟨S100000x128, .f32⟩) main_call1_v0).toBuf (Val := Elt Ideal) v = v := cast_eq _ v
theorem ofBuf_main_call1_v0 (v : (⟨S100000x128, .f32⟩ : BufTy).Contents (Elt Ideal)) :
    (TRef.of (sig := sig) (T := ⟨S100000x128, .f32⟩) main_call1_v0).ofBuf (Val := Elt Ideal) v = v := cast_eq _ v
theorem toBuf_main_v52 (v : (⟨S100000x128, .f32⟩ : BufTy).Contents (Elt Ideal)) :
    (TRef.of (sig := sig) (T := ⟨S100000x128, .f32⟩) main_v52).toBuf (Val := Elt Ideal) v = v := cast_eq _ v
theorem ofBuf_main_v52 (v : (⟨S100000x128, .f32⟩ : BufTy).Contents (Elt Ideal)) :
    (TRef.of (sig := sig) (T := ⟨S100000x128, .f32⟩) main_v52).ofBuf (Val := Elt Ideal) v = v := cast_eq _ v
theorem toBuf_main_v53 (v : (⟨S100000x128, .f32⟩ : BufTy).Contents (Elt Ideal)) :
    (TRef.of (sig := sig) (T := ⟨S100000x128, .f32⟩) main_v53).toBuf (Val := Elt Ideal) v = v := cast_eq _ v
theorem ofBuf_main_v53 (v : (⟨S100000x128, .f32⟩ : BufTy).Contents (Elt Ideal)) :
    (TRef.of (sig := sig) (T := ⟨S100000x128, .f32⟩) main_v53).ofBuf (Val := Elt Ideal) v = v := cast_eq _ v

/-! ### Piece 8: operations 63 … 73, up to `main_v58` -/

/-- The buffers piece 8 writes. -/
abbrev W8 : List (Ref sig .tc) := [main_v50, main_v51, main_v52, main_call1_cst, main_call1_v0, main_v53, main_v54, main_v55, main_v56, main_v57, main_v58]

/-- Every operation of piece 8 writes a buffer of that list. -/
theorem writes8 : (c8 (F := Ideal)).Forall fun op => op.writes ⊆ (W8.map (Proc.devRef (τ := τ) .tc)).toFinset :=
  ⟨sub_of_mem (y := main_v50) (by decide), sub_of_mem (y := main_v51) (by decide), sub_of_mem (y := main_v52) (by decide), sub_of_mem (y := main_call1_cst) (by decide), sub_of_mem (y := main_call1_v0) (by decide), sub_of_mem (y := main_v53) (by decide), sub_of_mem (y := main_v54) (by decide), sub_of_mem (y := main_v55) (by decide), sub_of_mem (y := main_v56) (by decide), sub_of_mem (y := main_v57) (by decide), sub_of_mem (y := main_v58) (by decide)⟩

/-- A buffer outside that list keeps its contents through piece 8. -/
theorem carry8 (V : Valuation τ sig (Elt Ideal)) (r : Ref sig .tc) (hr : r ∉ W8) :
    StableHlo.after (c8 (F := Ideal)) V (Proc.devRef .tc r) = V (Proc.devRef .tc r) :=
  after_of_writes_sub _ V writes8 hr

set_option maxRecDepth 400000 in
/-- After piece 8, `main_v57` holds its named function of the arguments, given what the piece's inputs hold. -/
theorem w8_main_v57 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c8 (F := Ideal)) V (Proc.devRef .tc main_v57) = biasVec1 (F := Ideal) x4 := by
  after_results_simp
  rw [h_main_arg4]
  rfl

set_option maxRecDepth 400000 in
/-- After piece 8, `main_v58` holds its named function of the arguments, given what the piece's inputs hold. -/
theorem w8_main_v58 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v12 : V (Proc.devRef .tc main_v12) = biasVec0 (F := Ideal) x4)
    (h_main_v49 : V (Proc.devRef .tc main_v49) = Cert.Model.aggA0 (F := Ideal) x0 x1 x2 x3 x4) :
    StableHlo.after (c8 (F := Ideal)) V (Proc.devRef .tc main_v58) = Cert.Model.hMid0 (F := Ideal) x0 x1 x2 x3 x4 := by
  after_results_simp
  simp only [toBuf_main_v52, ofBuf_main_v52, toBuf_main_call1_v0, ofBuf_main_call1_v0, toBuf_main_v53, ofBuf_main_v53, toBuf_main_call1_cst, ofBuf_main_call1_cst]
  rw [h_main_arg3, h_main_v12, h_main_v49]
  rfl

end Cert.RefRun

end
-- ==== Proof.RefRunPiece04.lean ====
/-
  Operations 74 … 121 of the reference program's line of host operations, in 6 pieces: what each piece
  leaves in the buffers that later pieces read.

  A piece's written buffers (`main_v61`, `main_v63`, `main_v64`, `main_v65`, `main_v81`, `main_v94`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_11 (v : (⟨S_, .f32⟩ : BufTy).Contents (Elt Ideal)) :
    (TRef.of (sig := sig) (T := ⟨S_, .f32⟩) main_cst_11).toBuf (Val := Elt Ideal) v = v := cast_eq _ v
theorem ofBuf_main_cst_11 (v : (⟨S_, .f32⟩ : BufTy).Contents (Elt Ideal)) :
    (TRef.of (sig := sig) (T := ⟨S_, .f32⟩) main_cst_11).ofBuf (Val := Elt Ideal) v = v := cast_eq _ v
theorem toBuf_main_call2_v0 (v : (⟨S_, .f32⟩ : BufTy).Contents (Elt Ideal)) :
    (TRef.of (sig := sig) (T := ⟨S_, .f32⟩) main_call2_v0).toBuf (Val := Elt Ideal) v = v := cast_eq _ v
theorem ofBuf_main_call2_v0 (v : (⟨S_, .f32⟩ : BufTy).Contents (Elt Ideal)) :
    (TRef.of (sig := sig) (T := ⟨S_, .f32⟩) main_call2_v0).ofBuf (Val := Elt Ideal) v = v := cast_eq _ v
theorem toBuf_main_call2_v1 (v : (⟨S100000, .f32⟩ : BufTy).Contents (Elt Ideal)) :
    (TRef.of (sig := sig) (T := ⟨S100000, .f32⟩) main_call2_v1).toBuf (Val := Elt Ideal) v = v := cast_eq _ v
theorem ofBuf_main_call2_v1 (v : (⟨S100000, .f32⟩ : BufTy).Contents (Elt Ideal)) :
    (TRef.of (sig := sig) (T := ⟨S100000, .f32⟩) main_call2_v1).ofBuf (Val := Elt Ideal) v = v := cast_eq _ v
theorem toBuf_main_v63 (v : (⟨S100000, .i1⟩ : BufTy).Contents (Elt Ideal)) :
    (TRef.of (sig := sig) (T := ⟨S100000, .i1⟩) main_v63).toBuf (Val := Elt Ideal) v = v := cast_eq _ v
theorem ofBuf_main_v63 (v : (⟨S100000, .i1⟩ : BufTy).Contents (Elt Ideal)) :
    (TRef.of (sig := sig) (T := ⟨S100000, .i1⟩) main_v63).ofBuf (Val := Elt Ideal) v = v := cast_eq _ v
theorem toBuf_main_v64 (v : (⟨S100000, .f32⟩ : BufTy).Contents (Elt Ideal)) :
    (TRef.of (sig := sig) (T := ⟨S100000, .f32⟩) main_v64).toBuf (Val := Elt Ideal) v = v := cast_eq _ v
theorem ofBuf_main_v64 (v : (⟨S100000, .f32⟩ : BufTy).Contents (Elt Ideal)) :
    (TRef.of (sig := sig) (T := ⟨S100000, .f32⟩) main_v64).ofBuf (Val := Elt Ideal) v = v := cast_eq _ v
theorem toBuf_main_v65 (v : (⟨S100000, .f32⟩ : BufTy).Contents (Elt Ideal)) :
    (TRef.of (sig := sig) (T := ⟨S100000, .f32⟩) main_v65).toBuf (Val := Elt Ideal) v = v := cast_eq _ v
theorem ofBuf_main_v65 (v : (⟨S100000, .f32⟩ : BufTy).Contents (Elt Ideal)) :
    (TRef.of (sig := sig) (T := ⟨S100000, .f32⟩) main_v65).ofBuf (Val := Elt Ideal) v = v := cast_eq _ v

/-! ### Piece 9: operations 74 … 77, up to `main_v61` -/

/-- The buffers piece 9 writes. -/
abbrev W9 : List (Ref sig .tc) := [main_cst_9, main_v59, main_v60, main_v61]

/-- Every operation of piece 9 writes a buffer of that list. -/
theorem writes9 : (c9 (F := Ideal)).Forall fun op => op.writes ⊆ (W9.map (Proc.devRef (τ := τ) .tc)).toFinset :=
  ⟨sub_of_mem (y := main_cst_9) (by decide), sub_of_mem (y := main_v59) (by decide), sub_of_mem (y := main_v60) (by decide), sub_of_mem (y := main_v61) (by decide)⟩

/-- A buffer outside that list keeps its contents through piece 9. -/
theorem carry9 (V : Valuation τ sig (Elt Ideal)) (r : Ref sig .tc) (hr : r ∉ W9) :
    StableHlo.after (c9 (F := Ideal)) V (Proc.devRef .tc r) = V (Proc.devRef .tc r) :=
  after_of_writes_sub _ V writes9 hr

set_option maxRecDepth 400000 in
/-- After piece 9, `main_v61` holds its named function of the arguments, given what the piece's inputs hold. -/
theorem w9_main_v61 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c9 (F := Ideal)) V (Proc.devRef .tc main_v61) = Cert.Model.deg (F := Ideal) x1 x2 := by
  after_results_simp
  rw [h_main_v6, h_main_v8]
  rfl

/-! ### Piece 10: operations 78 … 80, up to `main_v63` -/

/-- The buffers piece 10 writes. -/
abbrev W10 : List (Ref sig .tc) := [main_cst_10, main_v62, main_v63]

/-- Every operation of piece 10 writes a buffer of that list. -/
theorem writes10 : (c10 (F := Ideal)).Forall fun op => op.writes ⊆ (W10.map (Proc.devRef (τ := τ) .tc)).toFinset :=
  ⟨sub_of_mem (y := main_cst_10) (by decide), sub_of_mem (y := main_v62) (by decide), sub_of_mem (y := main_v63) (by decide)⟩

/-- A buffer outside that list keeps its contents through piece 10. -/
theorem carry10 (V : Valuation τ sig (Elt Ideal)) (r : Ref sig .tc) (hr : r ∉ W10) :
    StableHlo.after (c10 (F := Ideal)) V (Proc.devRef .tc r) = V (Proc.devRef .tc r) :=
  after_of_writes_sub _ V writes10 hr

set_option maxRecDepth 400000 in
/-- After piece 10, `main_v63` holds its named function of the arguments, given what the piece's inputs hold. -/
theorem w10_main_v63 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v61 : V (Proc.devRef .tc main_v61) = Cert.Model.deg (F := Ideal) x1 x2) :
    StableHlo.after (c10 (F := Ideal)) V (Proc.devRef .tc main_v63) = Cert.Model.degPos (F := Ideal) x1 x2 := by
  after_results_simp
  rw [h_main_v61]
  rfl

/-! ### Piece 11: operations 81 … 81, up to `main_v64` -/

/-- The buffers piece 11 writes. -/
abbrev W11 : List (Ref sig .tc) := [main_v64]

/-- Every operation of piece 11 writes a buffer of that list. -/
theorem writes11 : (c11 (F := Ideal)).Forall fun op => op.writes ⊆ (W11.map (Proc.devRef (τ := τ) .tc)).toFinset :=
  sub_of_mem (y := main_v64) (by decide)

/-- A buffer outside that list keeps its contents through piece 11. -/
theorem carry11 (V : Valuation τ sig (Elt Ideal)) (r : Ref sig .tc) (hr : r ∉ W11) :
    StableHlo.after (c11 (F := Ideal)) V (Proc.devRef .tc r) = V (Proc.devRef .tc r) :=
  after_of_writes_sub _ V writes11 hr

set_option maxRecDepth 400000 in
/-- After piece 11, `main_v64` holds its named function of the arguments, given what the piece's inputs hold. -/
theorem w11_main_v64 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v61 : V (Proc.devRef .tc main_v61) = Cert.Model.deg (F := Ideal) x1 x2) :
    StableHlo.after (c11 (F := Ideal)) V (Proc.devRef .tc main_v64) = Cert.Model.degRsqrt (F := Ideal) x1 x2 := by
  after_results_simp
  rw [h_main_v61]
  rfl

/-! ### Piece 12: operations 82 … 85, up to `main_v65` -/

/-- The buffers piece 12 writes. -/
abbrev W12 : List (Ref sig .tc) := [main_cst_11, main_call2_v0, main_call2_v1, main_v65]

/-- Every operation of piece 12 writes a buffer of that list. -/
theorem writes12 : (c12 (F := Ideal)).Forall fun op => op.writes ⊆ (W12.map (Proc.devRef (τ := τ) .tc)).toFinset :=
  ⟨sub_of_mem (y := main_cst_11) (by decide), sub_of_mem (y := main_call2_v0) (by decide), sub_of_mem (y := main_call2_v1) (by decide), sub_of_mem (y := main_v65) (by decide)⟩

/-- A buffer outside that list keeps its contents through piece 12. -/
theorem carry12 (V : Valuation τ sig (Elt Ideal)) (r : Ref sig .tc) (hr : r ∉ W12) :
    StableHlo.after (c12 (F := Ideal)) V (Proc.devRef .tc r) = V (Proc.devRef .tc r) :=
  after_of_writes_sub _ V writes12 hr

set_option maxRecDepth 400000 in
/-- After piece 12, `main_v65` holds its named function of the arguments, given what the piece's inputs hold. -/
theorem w12_main_v65 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v63 : V (Proc.devRef .tc main_v63) = Cert.Model.degPos (F := Ideal) x1 x2)
    (h_main_v64 : V (Proc.devRef .tc main_v64) = Cert.Model.degRsqrt (F := Ideal) x1 x2) :
    StableHlo.after (c12 (F := Ideal)) V (Proc.devRef .tc main_v65) = Cert.Model.dinv (F := Ideal) x1 x2 := by
  after_results_simp
  simp only [toBuf_main_v63, ofBuf_main_v63, toBuf_main_v64, ofBuf_main_v64, toBuf_main_call2_v1, ofBuf_main_call2_v1, toBuf_main_v65, ofBuf_main_v65, toBuf_main_call2_v0, ofBuf_main_call2_v0, toBuf_main_cst_11, ofBuf_main_cst_11]
  rw [h_main_v63, h_main_v64]
  rfl

/-! ### Piece 13: operations 86 … 105, up to `main_v81` -/

/-- The buffers piece 13 writes. -/
abbrev W13 : List (Ref sig .tc) := [main_c_12, main_v66, main_v67, main_c_13, main_v68, main_v69, main_v70, main_v71, main_v72, main_v73, main_c_14, main_v74, main_v75, main_c_15, main_v76, main_v77, main_v78, main_v79, main_v80, main_v81]

/-- Every operation of piece 13 writes a buffer of that list. -/
theorem writes13 : (c13 (F := Ideal)).Forall fun op => op.writes ⊆ (W13.map (Proc.devRef (τ := τ) .tc)).toFinset :=
  ⟨sub_of_mem (y := main_c_12) (by decide), sub_of_mem (y := main_v66) (by decide), sub_of_mem (y := main_v67) (by decide), sub_of_mem (y := main_c_13) (by decide), sub_of_mem (y := main_v68) (by decide), sub_of_mem (y := main_v69) (by decide), sub_of_mem (y := main_v70) (by decide), sub_of_mem (y := main_v71) (by decide), sub_of_mem (y := main_v72) (by decide), sub_of_mem (y := main_v73) (by decide), sub_of_mem (y := main_c_14) (by decide), sub_of_mem (y := main_v74) (by decide), sub_of_mem (y := main_v75) (by decide), sub_of_mem (y := main_c_15) (by decide), sub_of_mem (y := main_v76) (by decide), sub_of_mem (y := main_v77) (by decide), sub_of_mem (y := main_v78) (by decide), sub_of_mem (y := main_v79) (by decide), sub_of_mem (y := main_v80) (by decide), sub_of_mem (y := main_v81) (by decide)⟩

/-- A buffer outside that list keeps its contents through piece 13. -/
theorem carry13 (V : Valuation τ sig (Elt Ideal)) (r : Ref sig .tc) (hr : r ∉ W13) :
    StableHlo.after (c13 (F := Ideal)) V (Proc.devRef .tc r) = V (Proc.devRef .tc r) :=
  after_of_writes_sub _ V writes13 hr

set_option maxRecDepth 400000 in
/-- After piece 13, `main_v81` holds its named function of the arguments, given what the piece's inputs hold. -/
theorem w13_main_v81 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v6 : V (Proc.devRef .tc main_v6) = Cert.Model.dst (F := Ideal) x1)
    (h_main_v65 : V (Proc.devRef .tc main_v65) = Cert.Model.dinv (F := Ideal) x1 x2)
    (h_main_v8 : V (Proc.devRef .tc main_v8) = Cert.Model.wts (F := Ideal) x2) :
    StableHlo.after (c13 (F := Ideal)) V (Proc.devRef .tc main_v81) = Cert.Model.enorm (F := Ideal) x1 x2 := by
  after_results_simp
  rw [h_main_v3, h_main_v6, h_main_v65, h_main_v8]
  rfl

/-! ### Piece 14: operations 106 … 121, up to `main_v94` -/

/-- The buffers piece 14 writes. -/
abbrev W14 : List (Ref sig .tc) := [main_c_16, main_v82, main_v83, main_c_17, main_v84, main_v85, main_v86, main_v87, main_v88, main_v89, main_v90, main_v91, main_cst_18, main_v92, main_v93, main_v94]

/-- Every operation of piece 14 writes a buffer of that list. -/
theorem writes14 : (c14 (F := Ideal)).Forall fun op => op.writes ⊆ (W14.map (Proc.devRef (τ := τ) .tc)).toFinset :=
  ⟨sub_of_mem (y := main_c_16) (by decide), sub_of_mem (y := main_v82) (by decide), sub_of_mem (y := main_v83) (by decide), sub_of_mem (y := main_c_17) (by decide), sub_of_mem (y := main_v84) (by decide), sub_of_mem (y := main_v85) (by decide), sub_of_mem (y := main_v86) (by decide), sub_of_mem (y := main_v87) (by decide), sub_of_mem (y := main_v88) (by decide), sub_of_mem (y := main_v89) (by decide), sub_of_mem (y := main_v90) (by decide), sub_of_mem (y := main_v91) (by decide), sub_of_mem (y := main_cst_18) (by decide), sub_of_mem (y := main_v92) (by decide), sub_of_mem (y := main_v93) (by decide), sub_of_mem (y := main_v94) (by decide)⟩

/-- A buffer outside that list keeps its contents through piece 14. -/
theorem carry14 (V : Valuation τ sig (Elt Ideal)) (r : Ref sig .tc) (hr : r ∉ W14) :
    StableHlo.after (c14 (F := Ideal)) V (Proc.devRef .tc r) = V (Proc.devRef .tc r) :=
  after_of_writes_sub _ V writes14 hr

set_option maxRecDepth 400000 in
/-- After piece 14, `main_v94` holds its named function of the arguments, given what the piece's inputs hold. -/
theorem w14_main_v94 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v58 : V (Proc.devRef .tc main_v58) = Cert.Model.hMid0 (F := Ideal) x0 x1 x2 x3 x4)
    (h_main_v6 : V (Proc.devRef .tc main_v6) = Cert.Model.dst (F := Ideal) x1)
    (h_main_v81 : V (Proc.devRef .tc main_v81) = Cert.Model.enorm (F := Ideal) x1 x2) :
    StableHlo.after (c14 (F := Ideal)) V (Proc.devRef .tc main_v94) = Cert.Model.aggB0 (F := Ideal) x0 x1 x2 x3 x4 := by
  after_results_simp
  rw [h_main_v3, h_main_v58, h_main_v6, h_main_v81]
  rfl

end Cert.RefRun

end
-- ==== Proof.RefRunPiece05.lean ====
/-
  Operations 122 … 141 of the reference program's line of host operations, in 3 pieces: what each piece
  leaves in the buffers that later pieces read.

  A piece's written buffers (`main_v98`, `main_v99`, `main_v106`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call3_cst (v : (⟨S_, .f32⟩ : BufTy).Contents (Elt Ideal)) :
    (TRef.of (sig := sig) (T := ⟨S_, .f32⟩) main_call3_cst).toBuf (Val := Elt Ideal) v = v := cast_eq _ v
theorem ofBuf_main_call3_cst (v : (⟨S_, .f32⟩ : BufTy).Contents (Elt Ideal)) :
    (TRef.of (sig := sig) (T := ⟨S_, .f32⟩) main_call3_cst).ofBuf (Val := Elt Ideal) v = v := cast_eq _ v
theorem toBuf_main_call3_v0 (v : (⟨S100000x128, .f32⟩ : BufTy).Contents (Elt Ideal)) :
    (TRef.of (sig := sig) (T := ⟨S100000x128, .f32⟩) main_call3_v0).toBuf (Val := Elt Ideal) v = v := cast_eq _ v
theorem ofBuf_main_call3_v0 (v : (⟨S100000x128, .f32⟩ : BufTy).Contents (Elt Ideal)) :
    (TRef.of (sig := sig) (T := ⟨S100000x128, .f32⟩) main_call3_v0).ofBuf (Val := Elt Ideal) v = v := cast_eq _ v
theorem toBuf_main_v97 (v : (⟨S100000x128, .f32⟩ : BufTy).Contents (Elt Ideal)) :
    (TRef.of (sig := sig) (T := ⟨S100000x128, .f32⟩) main_v97).toBuf (Val := Elt Ideal) v = v := cast_eq _ v
theorem ofBuf_main_v97 (v : (⟨S100000x128, .f32⟩ : BufTy).Contents (Elt Ideal)) :
    (TRef.of (sig := sig) (T := ⟨S100000x128, .f32⟩) main_v97).ofBuf (Val := Elt Ideal) v = v := cast_eq _ v
theorem toBuf_main_v98 (v : (⟨S100000x128, .f32⟩ : BufTy).Contents (Elt Ideal)) :
    (TRef.of (sig := sig) (T := ⟨S100000x128, .f32⟩) main_v98).toBuf (Val := Elt Ideal) v = v := cast_eq _ v
theorem ofBuf_main_v98 (v : (⟨S100000x128, .f32⟩ : BufTy).Contents (Elt Ideal)) :
    (TRef.of (sig := sig) (T := ⟨S100000x128, .f32⟩) main_v98).ofBuf (Val := Elt Ideal) v = v := cast_eq _ v
theorem toBuf_main_call4_v0 (v : (⟨S100000x128, .f32⟩ : BufTy).Contents (Elt Ideal)) :
    (TRef.of (sig := sig) (T := ⟨S100000x128, .f32⟩) main_call4_v0).toBuf (Val := Elt Ideal) v = v := cast_eq _ v
theorem ofBuf_main_call4_v0 (v : (⟨S100000x128, .f32⟩ : BufTy).Contents (Elt Ideal)) :
    (TRef.of (sig := sig) (T := ⟨S100000x128, .f32⟩) main_call4_v0).ofBuf (Val := Elt Ideal) v = v := cast_eq _ v
theorem toBuf_main_call4_cst (v : (⟨S_, .f32⟩ : BufTy).Contents (Elt Ideal)) :
    (TRef.of (sig := sig) (T := ⟨S_, .f32⟩) main_call4_cst).toBuf (Val := Elt Ideal) v = v := cast_eq _ v
theorem ofBuf_main_call4_cst (v : (⟨S_, .f32⟩ : BufTy).Contents (Elt Ideal)) :
    (TRef.of (sig := sig) (T := ⟨S_, .f32⟩) main_call4_cst).ofBuf (Val := Elt Ideal) v = v := cast_eq _ v
theorem toBuf_main_call4_v1 (v : (⟨S100000, .f32⟩ : BufTy).Contents (Elt Ideal)) :
    (TRef.of (sig := sig) (T := ⟨S100000, .f32⟩) main_call4_v1).toBuf (Val := Elt Ideal) v = v := cast_eq _ v
theorem ofBuf_main_call4_v1 (v : (⟨S100000, .f32⟩ : BufTy).Contents (Elt Ideal)) :
    (TRef.of (sig := sig) (T := ⟨S100000, .f32⟩) main_call4_v1).ofBuf (Val := Elt Ideal) v = v := cast_eq _ v
theorem toBuf_main_call4_v2 (v : (⟨S100000x1, .f32⟩ : BufTy).Contents (Elt Ideal)) :
    (TRef.of (sig := sig) (T := ⟨S100000x1, .f32⟩) main_call4_v2).toBuf (Val := Elt Ideal) v = v := cast_eq _ v
theorem ofBuf_main_call4_v2 (v : (⟨S100000x1, .f32⟩ : BufTy).Contents (Elt Ideal)) :
    (TRef.of (sig := sig) (T := ⟨S100000x1, .f32⟩) main_call4_v2).ofBuf (Val := Elt Ideal) v = v := cast_eq _ v
theorem toBuf_main_v99 (v : (⟨S100000x1, .f32⟩ : BufTy).Contents (Elt Ideal)) :
    (TRef.of (sig := sig) (T := ⟨S100000x1, .f32⟩) main_v99).toBuf (Val := Elt Ideal) v = v := cast_eq _ v
theorem ofBuf_main_v99 (v : (⟨S100000x1, .f32⟩ : BufTy).Contents (Elt Ideal)) :
    (TRef.of (sig := sig) (T := ⟨S100000x1, .f32⟩) main_v99).ofBuf (Val := Elt Ideal) v = v := cast_eq _ v

/-! ### Piece 15: operations 122 … 127, up to `main_v98` -/

/-- The buffers piece 15 writes. -/
abbrev W15 : List (Ref sig .tc) := [main_v95, main_v96, main_v97, main_call3_cst, main_call3_v0, main_v98]

/-- Every operation of piece 15 writes a buffer of that list. -/
theorem writes15 : (c15 (F := Ideal)).Forall fun op => op.writes ⊆ (W15.map (Proc.devRef (τ := τ) .tc)).toFinset :=
  ⟨sub_of_mem (y := main_v95) (by decide), sub_of_mem (y := main_v96) (by decide), sub_of_mem (y := main_v97) (by decide), sub_of_mem (y := main_call3_cst) (by decide), sub_of_mem (y := main_call3_v0) (by decide), sub_of_mem (y := main_v98) (by decide)⟩

/-- A buffer outside that list keeps its contents through piece 15. -/
theorem carry15 (V : Valuation τ sig (Elt Ideal)) (r : Ref sig .tc) (hr : r ∉ W15) :
    StableHlo.after (c15 (F := Ideal)) V (Proc.devRef .tc r) = V (Proc.devRef .tc r) :=
  after_of_writes_sub _ V writes15 hr

set_option maxRecDepth 400000 in
/-- After piece 15, `main_v98` holds its named function of the arguments, given what the piece's inputs hold. -/
theorem w15_main_v98 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v57 : V (Proc.devRef .tc main_v57) = biasVec1 (F := Ideal) x4)
    (h_main_v94 : V (Proc.devRef .tc main_v94) = Cert.Model.aggB0 (F := Ideal) x0 x1 x2 x3 x4) :
    StableHlo.after (c15 (F := Ideal)) V (Proc.devRef .tc main_v98) = Cert.RefOps.relu (F := Ideal) (Cert.RefOps.addRow (F := Ideal) (Cert.Model.aggB0 (F := Ideal) x0 x1 x2 x3 x4) (Cert.Model.biasRow1 (F := Ideal) x4)) := by
  after_results_simp
  simp only [toBuf_main_v97, ofBuf_main_v97, toBuf_main_call3_v0, ofBuf_main_call3_v0, toBuf_main_v98, ofBuf_main_v98, toBuf_main_call3_cst, ofBuf_main_call3_cst]
  rw [h_main_v57, h_main_v94]
  rfl

/-! ### Piece 16: operations 128 … 132, up to `main_v99` -/

/-- The buffers piece 16 writes. -/
abbrev W16 : List (Ref sig .tc) := [main_call4_v0, main_call4_cst, main_call4_v1, main_call4_v2, main_v99]

/-- Every operation of piece 16 writes a buffer of that list. -/
theorem writes16 : (c16 (F := Ideal)).Forall fun op => op.writes ⊆ (W16.map (Proc.devRef (τ := τ) .tc)).toFinset :=
  ⟨sub_of_mem (y := main_call4_v0) (by decide), sub_of_mem (y := main_call4_cst) (by decide), sub_of_mem (y := main_call4_v1) (by decide), sub_of_mem (y := main_call4_v2) (by decide), sub_of_mem (y := main_v99) (by decide)⟩

/-- A buffer outside that list keeps its contents through piece 16. -/
theorem carry16 (V : Valuation τ sig (Elt Ideal)) (r : Ref sig .tc) (hr : r ∉ W16) :
    StableHlo.after (c16 (F := Ideal)) V (Proc.devRef .tc r) = V (Proc.devRef .tc r) :=
  after_of_writes_sub _ V writes16 hr

set_option maxRecDepth 400000 in
/-- After piece 16, `main_v99` holds its named function of the arguments, given what the piece's inputs hold. -/
theorem w16_main_v99 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v98 : V (Proc.devRef .tc main_v98) = Cert.RefOps.relu (F := Ideal) (Cert.RefOps.addRow (F := Ideal) (Cert.Model.aggB0 (F := Ideal) x0 x1 x2 x3 x4) (Cert.Model.biasRow1 (F := Ideal) x4))) :
    StableHlo.after (c16 (F := Ideal)) V (Proc.devRef .tc main_v99) = Cert.RefOps.rowNorm (F := Ideal) (Cert.RefOps.relu (F := Ideal) (Cert.RefOps.addRow (F := Ideal) (Cert.Model.aggB0 (F := Ideal) x0 x1 x2 x3 x4) (Cert.Model.biasRow1 (F := Ideal) x4))) := by
  after_results_simp
  simp only [toBuf_main_call4_v2, ofBuf_main_call4_v2, toBuf_main_v99, ofBuf_main_v99, toBuf_main_call4_v1, ofBuf_main_call4_v1, toBuf_main_call4_v0, ofBuf_main_call4_v0, toBuf_main_call4_cst, ofBuf_main_call4_cst, toBuf_main_v98, ofBuf_main_v98]
  rw [h_main_v98]
  rfl

/-! ### Piece 17: operations 133 … 141, up to `main_v106` -/

/-- The buffers piece 17 writes. -/
abbrev W17 : List (Ref sig .tc) := [main_cst_19, main_v100, main_v101, main_v102, main_v103, main_v104, main_cst_20, main_v105, main_v106]

/-- Every operation of piece 17 writes a buffer of that list. -/
theorem writes17 : (c17 (F := Ideal)).Forall fun op => op.writes ⊆ (W17.map (Proc.devRef (τ := τ) .tc)).toFinset :=
  ⟨sub_of_mem (y := main_cst_19) (by decide), sub_of_mem (y := main_v100) (by decide), sub_of_mem (y := main_v101) (by decide), sub_of_mem (y := main_v102) (by decide), sub_of_mem (y := main_v103) (by decide), sub_of_mem (y := main_v104) (by decide), sub_of_mem (y := main_cst_20) (by decide), sub_of_mem (y := main_v105) (by decide), sub_of_mem (y := main_v106) (by decide)⟩

/-- A buffer outside that list keeps its contents through piece 17. -/
theorem carry17 (V : Valuation τ sig (Elt Ideal)) (r : Ref sig .tc) (hr : r ∉ W17) :
    StableHlo.after (c17 (F := Ideal)) V (Proc.devRef .tc r) = V (Proc.devRef .tc r) :=
  after_of_writes_sub _ V writes17 hr

set_option maxRecDepth 400000 in
/-- After piece 17, `main_v106` holds its named function of the arguments, given what the piece's inputs hold. -/
theorem w17_main_v106 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg0 : V (Proc.devRef .tc main_arg0) = x0)
    (h_main_v98 : V (Proc.devRef .tc main_v98) = Cert.RefOps.relu (F := Ideal) (Cert.RefOps.addRow (F := Ideal) (Cert.Model.aggB0 (F := Ideal) x0 x1 x2 x3 x4) (Cert.Model.biasRow1 (F := Ideal) x4)))
    (h_main_v99 : V (Proc.devRef .tc main_v99) = Cert.RefOps.rowNorm (F := Ideal) (Cert.RefOps.relu (F := Ideal) (Cert.RefOps.addRow (F := Ideal) (Cert.Model.aggB0 (F := Ideal) x0 x1 x2 x3 x4) (Cert.Model.biasRow1 (F := Ideal) x4)))) :
    StableHlo.after (c17 (F := Ideal)) V (Proc.devRef .tc main_v106) = Cert.Model.xOut0 (F := Ideal) x0 x1 x2 x3 x4 := by
  after_results_simp
  rw [h_main_arg0, h_main_v98, h_main_v99]
  rfl

end Cert.RefRun

end
-- ==== Proof.RefRunPiece06.lean ====
/-
  Operations 142 … 146 of the reference program's line of host operations, in one piece: what each piece
  leaves in the buffers that later pieces read.

  A piece's written buffers (`main_v110`, `main_v111`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### Piece 18: operations 142 … 146, up to `main_v111` -/

/-- The buffers piece 18 writes. -/
abbrev W18 : List (Ref sig .tc) := [main_v107, main_v108, main_v109, main_v110, main_v111]

/-- Every operation of piece 18 writes a buffer of that list. -/
theorem writes18 : (c18 (F := Ideal)).Forall fun op => op.writes ⊆ (W18.map (Proc.devRef (τ := τ) .tc)).toFinset :=
  ⟨sub_of_mem (y := main_v107) (by decide), sub_of_mem (y := main_v108) (by decide), sub_of_mem (y := main_v109) (by decide), sub_of_mem (y := main_v110) (by decide), sub_of_mem (y := main_v111) (by decide)⟩

/-- A buffer outside that list keeps its contents through piece 18. -/
theorem carry18 (V : Valuation τ sig (Elt Ideal)) (r : Ref sig .tc) (hr : r ∉ W18) :
    StableHlo.after (c18 (F := Ideal)) V (Proc.devRef .tc r) = V (Proc.devRef .tc r) :=
  after_of_writes_sub _ V writes18 hr

set_option maxRecDepth 400000 in
/-- After piece 18, `main_v110` holds its named function of the arguments, given what the piece's inputs hold. -/
theorem w18_main_v110 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c18 (F := Ideal)) V (Proc.devRef .tc main_v110) = biasVec2 (F := Ideal) x4 := by
  after_results_simp
  rw [h_main_arg4]
  rfl

set_option maxRecDepth 400000 in
/-- After piece 18, `main_v111` holds its named function of the arguments, given what the piece's inputs hold. -/
theorem w18_main_v111 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v106 : V (Proc.devRef .tc main_v106) = Cert.Model.xOut0 (F := Ideal) x0 x1 x2 x3 x4) :
    StableHlo.after (c18 (F := Ideal)) V (Proc.devRef .tc main_v111) = Cert.Model.hOut0 (F := Ideal) x0 x1 x2 x3 x4 := by
  after_results_simp
  rw [h_main_arg3, h_main_v106]
  rfl

end Cert.RefRun

end
-- ==== Proof.RefRunPiece07.lean ====
/-
  Operations 147 … 194 of the reference program's line of host operations, in 6 pieces: what each piece
  leaves in the buffers that later pieces read.

  A piece's written buffers (`main_v114`, `main_v116`, `main_v117`, `main_v118`, `main_v134`, `main_v147`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_23 (v : (⟨S_, .f32⟩ : BufTy).Contents (Elt Ideal)) :
    (TRef.of (sig := sig) (T := ⟨S_, .f32⟩) main_cst_23).toBuf (Val := Elt Ideal) v = v := cast_eq _ v
theorem ofBuf_main_cst_23 (v : (⟨S_, .f32⟩ : BufTy).Contents (Elt Ideal)) :
    (TRef.of (sig := sig) (T := ⟨S_, .f32⟩) main_cst_23).ofBuf (Val := Elt Ideal) v = v := cast_eq _ v
theorem toBuf_main_call5_v0 (v : (⟨S_, .f32⟩ : BufTy).Contents (Elt Ideal)) :
    (TRef.of (sig := sig) (T := ⟨S_, .f32⟩) main_call5_v0).toBuf (Val := Elt Ideal) v = v := cast_eq _ v
theorem ofBuf_main_call5_v0 (v : (⟨S_, .f32⟩ : BufTy).Contents (Elt Ideal)) :
    (TRef.of (sig := sig) (T := ⟨S_, .f32⟩) main_call5_v0).ofBuf (Val := Elt Ideal) v = v := cast_eq _ v
theorem toBuf_main_call5_v1 (v : (⟨S100000, .f32⟩ : BufTy).Contents (Elt Ideal)) :
    (TRef.of (sig := sig) (T := ⟨S100000, .f32⟩) main_call5_v1).toBuf (Val := Elt Ideal) v = v := cast_eq _ v
theorem ofBuf_main_call5_v1 (v : (⟨S100000, .f32⟩ : BufTy).Contents (Elt Ideal)) :
    (TRef.of (sig := sig) (T := ⟨S100000, .f32⟩) main_call5_v1).ofBuf (Val := Elt Ideal) v = v := cast_eq _ v
theorem toBuf_main_v116 (v : (⟨S100000, .i1⟩ : BufTy).Contents (Elt Ideal)) :
    (TRef.of (sig := sig) (T := ⟨S100000, .i1⟩) main_v116).toBuf (Val := Elt Ideal) v = v := cast_eq _ v
theorem ofBuf_main_v116 (v : (⟨S100000, .i1⟩ : BufTy).Contents (Elt Ideal)) :
    (TRef.of (sig := sig) (T := ⟨S100000, .i1⟩) main_v116).ofBuf (Val := Elt Ideal) v = v := cast_eq _ v
theorem toBuf_main_v117 (v : (⟨S100000, .f32⟩ : BufTy).Contents (Elt Ideal)) :
    (TRef.of (sig := sig) (T := ⟨S100000, .f32⟩) main_v117).toBuf (Val := Elt Ideal) v = v := cast_eq _ v
theorem ofBuf_main_v117 (v : (⟨S100000, .f32⟩ : BufTy).Contents (Elt Ideal)) :
    (TRef.of (sig := sig) (T := ⟨S100000, .f32⟩) main_v117).ofBuf (Val := Elt Ideal) v = v := cast_eq _ v
theorem toBuf_main_v118 (v : (⟨S100000, .f32⟩ : BufTy).Contents (Elt Ideal)) :
    (TRef.of (sig := sig) (T := ⟨S100000, .f32⟩) main_v118).toBuf (Val := Elt Ideal) v = v := cast_eq _ v
theorem ofBuf_main_v118 (v : (⟨S100000, .f32⟩ : BufTy).Contents (Elt Ideal)) :
    (TRef.of (sig := sig) (T := ⟨S100000, .f32⟩) main_v118).ofBuf (Val := Elt Ideal) v = v := cast_eq _ v

/-! ### Piece 19: operations 147 … 150, up to `main_v114` -/

/-- The buffers piece 19 writes. -/
abbrev W19 : List (Ref sig .tc) := [main_cst_21, main_v112, main_v113, main_v114]

/-- Every operation of piece 19 writes a buffer of that list. -/
theorem writes19 : (c19 (F := Ideal)).Forall fun op => op.writes ⊆ (W19.map (Proc.devRef (τ := τ) .tc)).toFinset :=
  ⟨sub_of_mem (y := main_cst_21) (by decide), sub_of_mem (y := main_v112) (by decide), sub_of_mem (y := main_v113) (by decide), sub_of_mem (y := main_v114) (by decide)⟩

/-- A buffer outside that list keeps its contents through piece 19. -/
theorem carry19 (V : Valuation τ sig (Elt Ideal)) (r : Ref sig .tc) (hr : r ∉ W19) :
    StableHlo.after (c19 (F := Ideal)) V (Proc.devRef .tc r) = V (Proc.devRef .tc r) :=
  after_of_writes_sub _ V writes19 hr

set_option maxRecDepth 400000 in
/-- After piece 19, `main_v114` holds its named function of the arguments, given what the piece's inputs hold. -/
theorem w19_main_v114 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c19 (F := Ideal)) V (Proc.devRef .tc main_v114) = Cert.Model.deg (F := Ideal) x1 x2 := by
  after_results_simp
  rw [h_main_v6, h_main_v8]
  rfl

/-! ### Piece 20: operations 151 … 153, up to `main_v116` -/

/-- The buffers piece 20 writes. -/
abbrev W20 : List (Ref sig .tc) := [main_cst_22, main_v115, main_v116]

/-- Every operation of piece 20 writes a buffer of that list. -/
theorem writes20 : (c20 (F := Ideal)).Forall fun op => op.writes ⊆ (W20.map (Proc.devRef (τ := τ) .tc)).toFinset :=
  ⟨sub_of_mem (y := main_cst_22) (by decide), sub_of_mem (y := main_v115) (by decide), sub_of_mem (y := main_v116) (by decide)⟩

/-- A buffer outside that list keeps its contents through piece 20. -/
theorem carry20 (V : Valuation τ sig (Elt Ideal)) (r : Ref sig .tc) (hr : r ∉ W20) :
    StableHlo.after (c20 (F := Ideal)) V (Proc.devRef .tc r) = V (Proc.devRef .tc r) :=
  after_of_writes_sub _ V writes20 hr

set_option maxRecDepth 400000 in
/-- After piece 20, `main_v116` holds its named function of the arguments, given what the piece's inputs hold. -/
theorem w20_main_v116 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v114 : V (Proc.devRef .tc main_v114) = Cert.Model.deg (F := Ideal) x1 x2) :
    StableHlo.after (c20 (F := Ideal)) V (Proc.devRef .tc main_v116) = Cert.Model.degPos (F := Ideal) x1 x2 := by
  after_results_simp
  rw [h_main_v114]
  rfl

/-! ### Piece 21: operations 154 … 154, up to `main_v117` -/

/-- The buffers piece 21 writes. -/
abbrev W21 : List (Ref sig .tc) := [main_v117]

/-- Every operation of piece 21 writes a buffer of that list. -/
theorem writes21 : (c21 (F := Ideal)).Forall fun op => op.writes ⊆ (W21.map (Proc.devRef (τ := τ) .tc)).toFinset :=
  sub_of_mem (y := main_v117) (by decide)

/-- A buffer outside that list keeps its contents through piece 21. -/
theorem carry21 (V : Valuation τ sig (Elt Ideal)) (r : Ref sig .tc) (hr : r ∉ W21) :
    StableHlo.after (c21 (F := Ideal)) V (Proc.devRef .tc r) = V (Proc.devRef .tc r) :=
  after_of_writes_sub _ V writes21 hr

set_option maxRecDepth 400000 in
/-- After piece 21, `main_v117` holds its named function of the arguments, given what the piece's inputs hold. -/
theorem w21_main_v117 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v114 : V (Proc.devRef .tc main_v114) = Cert.Model.deg (F := Ideal) x1 x2) :
    StableHlo.after (c21 (F := Ideal)) V (Proc.devRef .tc main_v117) = Cert.Model.degRsqrt (F := Ideal) x1 x2 := by
  after_results_simp
  rw [h_main_v114]
  rfl

/-! ### Piece 22: operations 155 … 158, up to `main_v118` -/

/-- The buffers piece 22 writes. -/
abbrev W22 : List (Ref sig .tc) := [main_cst_23, main_call5_v0, main_call5_v1, main_v118]

/-- Every operation of piece 22 writes a buffer of that list. -/
theorem writes22 : (c22 (F := Ideal)).Forall fun op => op.writes ⊆ (W22.map (Proc.devRef (τ := τ) .tc)).toFinset :=
  ⟨sub_of_mem (y := main_cst_23) (by decide), sub_of_mem (y := main_call5_v0) (by decide), sub_of_mem (y := main_call5_v1) (by decide), sub_of_mem (y := main_v118) (by decide)⟩

/-- A buffer outside that list keeps its contents through piece 22. -/
theorem carry22 (V : Valuation τ sig (Elt Ideal)) (r : Ref sig .tc) (hr : r ∉ W22) :
    StableHlo.after (c22 (F := Ideal)) V (Proc.devRef .tc r) = V (Proc.devRef .tc r) :=
  after_of_writes_sub _ V writes22 hr

set_option maxRecDepth 400000 in
/-- After piece 22, `main_v118` holds its named function of the arguments, given what the piece's inputs hold. -/
theorem w22_main_v118 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v116 : V (Proc.devRef .tc main_v116) = Cert.Model.degPos (F := Ideal) x1 x2)
    (h_main_v117 : V (Proc.devRef .tc main_v117) = Cert.Model.degRsqrt (F := Ideal) x1 x2) :
    StableHlo.after (c22 (F := Ideal)) V (Proc.devRef .tc main_v118) = Cert.Model.dinv (F := Ideal) x1 x2 := by
  after_results_simp
  simp only [toBuf_main_v116, ofBuf_main_v116, toBuf_main_v117, ofBuf_main_v117, toBuf_main_call5_v1, ofBuf_main_call5_v1, toBuf_main_v118, ofBuf_main_v118, toBuf_main_call5_v0, ofBuf_main_call5_v0, toBuf_main_cst_23, ofBuf_main_cst_23]
  rw [h_main_v116, h_main_v117]
  rfl

/-! ### Piece 23: operations 159 … 178, up to `main_v134` -/

/-- The buffers piece 23 writes. -/
abbrev W23 : List (Ref sig .tc) := [main_c_24, main_v119, main_v120, main_c_25, main_v121, main_v122, main_v123, main_v124, main_v125, main_v126, main_c_26, main_v127, main_v128, main_c_27, main_v129, main_v130, main_v131, main_v132, main_v133, main_v134]

/-- Every operation of piece 23 writes a buffer of that list. -/
theorem writes23 : (c23 (F := Ideal)).Forall fun op => op.writes ⊆ (W23.map (Proc.devRef (τ := τ) .tc)).toFinset :=
  ⟨sub_of_mem (y := main_c_24) (by decide), sub_of_mem (y := main_v119) (by decide), sub_of_mem (y := main_v120) (by decide), sub_of_mem (y := main_c_25) (by decide), sub_of_mem (y := main_v121) (by decide), sub_of_mem (y := main_v122) (by decide), sub_of_mem (y := main_v123) (by decide), sub_of_mem (y := main_v124) (by decide), sub_of_mem (y := main_v125) (by decide), sub_of_mem (y := main_v126) (by decide), sub_of_mem (y := main_c_26) (by decide), sub_of_mem (y := main_v127) (by decide), sub_of_mem (y := main_v128) (by decide), sub_of_mem (y := main_c_27) (by decide), sub_of_mem (y := main_v129) (by decide), sub_of_mem (y := main_v130) (by decide), sub_of_mem (y := main_v131) (by decide), sub_of_mem (y := main_v132) (by decide), sub_of_mem (y := main_v133) (by decide), sub_of_mem (y := main_v134) (by decide)⟩

/-- A buffer outside that list keeps its contents through piece 23. -/
theorem carry23 (V : Valuation τ sig (Elt Ideal)) (r : Ref sig .tc) (hr : r ∉ W23) :
    StableHlo.after (c23 (F := Ideal)) V (Proc.devRef .tc r) = V (Proc.devRef .tc r) :=
  after_of_writes_sub _ V writes23 hr

set_option maxRecDepth 400000 in
/-- After piece 23, `main_v134` holds its named function of the arguments, given what the piece's inputs hold. -/
theorem w23_main_v134 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v118 : V (Proc.devRef .tc main_v118) = Cert.Model.dinv (F := Ideal) x1 x2)
    (h_main_v3 : V (Proc.devRef .tc main_v3) = Cert.Model.src (F := Ideal) x1)
    (h_main_v6 : V (Proc.devRef .tc main_v6) = Cert.Model.dst (F := Ideal) x1)
    (h_main_v8 : V (Proc.devRef .tc main_v8) = Cert.Model.wts (F := Ideal) x2) :
    StableHlo.after (c23 (F := Ideal)) V (Proc.devRef .tc main_v134) = Cert.Model.enorm (F := Ideal) x1 x2 := by
  after_results_simp
  rw [h_main_v118, h_main_v3, h_main_v6, h_main_v8]
  rfl

/-! ### Piece 24: operations 179 … 194, up to `main_v147` -/

/-- The buffers piece 24 writes. -/
abbrev W24 : List (Ref sig .tc) := [main_c_28, main_v135, main_v136, main_c_29, main_v137, main_v138, main_v139, main_v140, main_v141, main_v142, main_v143, main_v144, main_cst_30, main_v145, main_v146, main_v147]

/-- Every operation of piece 24 writes a buffer of that list. -/
theorem writes24 : (c24 (F := Ideal)).Forall fun op => op.writes ⊆ (W24.map (Proc.devRef (τ := τ) .tc)).toFinset :=
  ⟨sub_of_mem (y := main_c_28) (by decide), sub_of_mem (y := main_v135) (by decide), sub_of_mem (y := main_v136) (by decide), sub_of_mem (y := main_c_29) (by decide), sub_of_mem (y := main_v137) (by decide), sub_of_mem (y := main_v138) (by decide), sub_of_mem (y := main_v139) (by decide), sub_of_mem (y := main_v140) (by decide), sub_of_mem (y := main_v141) (by decide), sub_of_mem (y := main_v142) (by decide), sub_of_mem (y := main_v143) (by decide), sub_of_mem (y := main_v144) (by decide), sub_of_mem (y := main_cst_30) (by decide), sub_of_mem (y := main_v145) (by decide), sub_of_mem (y := main_v146) (by decide), sub_of_mem (y := main_v147) (by decide)⟩

/-- A buffer outside that list keeps its contents through piece 24. -/
theorem carry24 (V : Valuation τ sig (Elt Ideal)) (r : Ref sig .tc) (hr : r ∉ W24) :
    StableHlo.after (c24 (F := Ideal)) V (Proc.devRef .tc r) = V (Proc.devRef .tc r) :=
  after_of_writes_sub _ V writes24 hr

set_option maxRecDepth 400000 in
/-- After piece 24, `main_v147` holds its named function of the arguments, given what the piece's inputs hold. -/
theorem w24_main_v147 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v111 : V (Proc.devRef .tc main_v111) = Cert.Model.hOut0 (F := Ideal) x0 x1 x2 x3 x4)
    (h_main_v134 : V (Proc.devRef .tc main_v134) = Cert.Model.enorm (F := Ideal) x1 x2)
    (h_main_v3 : V (Proc.devRef .tc main_v3) = Cert.Model.src (F := Ideal) x1)
    (h_main_v6 : V (Proc.devRef .tc main_v6) = Cert.Model.dst (F := Ideal) x1) :
    StableHlo.after (c24 (F := Ideal)) V (Proc.devRef .tc main_v147) = Cert.Model.aggA1 (F := Ideal) x0 x1 x2 x3 x4 := by
  after_results_simp
  rw [h_main_v111, h_main_v134, h_main_v3, h_main_v6]
  rfl

end Cert.RefRun

end
-- ==== Proof.RefRunPiece08.lean ====
/-
  Operations 195 … 205 of the reference program's line of host operations, in one piece: what each piece
  leaves in the buffers that later pieces read.

  A piece's written buffers (`main_v155`, `main_v156`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call6_cst (v : (⟨S_, .f32⟩ : BufTy).Contents (Elt Ideal)) :
    (TRef.of (sig := sig) (T := ⟨S_, .f32⟩) main_call6_cst).toBuf (Val := Elt Ideal) v = v := cast_eq _ v
theorem ofBuf_main_call6_cst (v : (⟨S_, .f32⟩ : BufTy).Contents (Elt Ideal)) :
    (TRef.of (sig := sig) (T := ⟨S_, .f32⟩) main_call6_cst).ofBuf (Val := Elt Ideal) v = v := cast_eq _ v
theorem toBuf_main_call6_v0 (v : (⟨S100000x128, .f32⟩ : BufTy).Contents (Elt Ideal)) :
    (TRef.of (sig := sig) (T := ⟨S100000x128, .f32⟩) main_call6_v0).toBuf (Val := Elt Ideal) v = v := cast_eq _ v
theorem ofBuf_main_call6_v0 (v : (⟨S100000x128, .f32⟩ : BufTy).Contents (Elt Ideal)) :
    (TRef.of (sig := sig) (T := ⟨S100000x128, .f32⟩) main_call6_v0).ofBuf (Val := Elt Ideal) v = v := cast_eq _ v
theorem toBuf_main_v150 (v : (⟨S100000x128, .f32⟩ : BufTy).Contents (Elt Ideal)) :
    (TRef.of (sig := sig) (T := ⟨S100000x128, .f32⟩) main_v150).toBuf (Val := Elt Ideal) v = v := cast_eq _ v
theorem ofBuf_main_v150 (v : (⟨S100000x128, .f32⟩ : BufTy).Contents (Elt Ideal)) :
    (TRef.of (sig := sig) (T := ⟨S100000x128, .f32⟩) main_v150).ofBuf (Val := Elt Ideal) v = v := cast_eq _ v
theorem toBuf_main_v151 (v : (⟨S100000x128, .f32⟩ : BufTy).Contents (Elt Ideal)) :
    (TRef.of (sig := sig) (T := ⟨S100000x128, .f32⟩) main_v151).toBuf (Val := Elt Ideal) v = v := cast_eq _ v
theorem ofBuf_main_v151 (v : (⟨S100000x128, .f32⟩ : BufTy).Contents (Elt Ideal)) :
    (TRef.of (sig := sig) (T := ⟨S100000x128, .f32⟩) main_v151).ofBuf (Val := Elt Ideal) v = v := cast_eq _ v

/-! ### Piece 25: operations 195 … 205, up to `main_v156` -/

/-- The buffers piece 25 writes. -/
abbrev W25 : List (Ref sig .tc) := [main_v148, main_v149, main_v150, main_call6_cst, main_call6_v0, main_v151, main_v152, main_v153, main_v154, main_v155, main_v156]

/-- Every operation of piece 25 writes a buffer of that list. -/
theorem writes25 : (c25 (F := Ideal)).Forall fun op => op.writes ⊆ (W25.map (Proc.devRef (τ := τ) .tc)).toFinset :=
  ⟨sub_of_mem (y := main_v148) (by decide), sub_of_mem (y := main_v149) (by decide), sub_of_mem (y := main_v150) (by decide), sub_of_mem (y := main_call6_cst) (by decide), sub_of_mem (y := main_call6_v0) (by decide), sub_of_mem (y := main_v151) (by decide), sub_of_mem (y := main_v152) (by decide), sub_of_mem (y := main_v153) (by decide), sub_of_mem (y := main_v154) (by decide), sub_of_mem (y := main_v155) (by decide), sub_of_mem (y := main_v156) (by decide)⟩

/-- A buffer outside that list keeps its contents through piece 25. -/
theorem carry25 (V : Valuation τ sig (Elt Ideal)) (r : Ref sig .tc) (hr : r ∉ W25) :
    StableHlo.after (c25 (F := Ideal)) V (Proc.devRef .tc r) = V (Proc.devRef .tc r) :=
  after_of_writes_sub _ V writes25 hr

set_option maxRecDepth 400000 in
/-- After piece 25, `main_v155` holds its named function of the arguments, given what the piece's inputs hold. -/
theorem w25_main_v155 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c25 (F := Ideal)) V (Proc.devRef .tc main_v155) = biasVec3 (F := Ideal) x4 := by
  after_results_simp
  rw [h_main_arg4]
  rfl

set_option maxRecDepth 400000 in
/-- After piece 25, `main_v156` holds its named function of the arguments, given what the piece's inputs hold. -/
theorem w25_main_v156 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v110 : V (Proc.devRef .tc main_v110) = biasVec2 (F := Ideal) x4)
    (h_main_v147 : V (Proc.devRef .tc main_v147) = Cert.Model.aggA1 (F := Ideal) x0 x1 x2 x3 x4) :
    StableHlo.after (c25 (F := Ideal)) V (Proc.devRef .tc main_v156) = Cert.Model.hMid1 (F := Ideal) x0 x1 x2 x3 x4 := by
  after_results_simp
  simp only [toBuf_main_v150, ofBuf_main_v150, toBuf_main_call6_v0, ofBuf_main_call6_v0, toBuf_main_v151, ofBuf_main_v151, toBuf_main_call6_cst, ofBuf_main_call6_cst]
  rw [h_main_arg3, h_main_v110, h_main_v147]
  rfl

end Cert.RefRun

end
-- ==== Proof.RefRunPiece09.lean ====
/-
  Operations 206 … 253 of the reference program's line of host operations, in 6 pieces: what each piece
  leaves in the buffers that later pieces read.

  A piece's written buffers (`main_v159`, `main_v161`, `main_v162`, `main_v163`, `main_v179`, `main_v192`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_33 (v : (⟨S_, .f32⟩ : BufTy).Contents (Elt Ideal)) :
    (TRef.of (sig := sig) (T := ⟨S_, .f32⟩) main_cst_33).toBuf (Val := Elt Ideal) v = v := cast_eq _ v
theorem ofBuf_main_cst_33 (v : (⟨S_, .f32⟩ : BufTy).Contents (Elt Ideal)) :
    (TRef.of (sig := sig) (T := ⟨S_, .f32⟩) main_cst_33).ofBuf (Val := Elt Ideal) v = v := cast_eq _ v
theorem toBuf_main_call7_v0 (v : (⟨S_, .f32⟩ : BufTy).Contents (Elt Ideal)) :
    (TRef.of (sig := sig) (T := ⟨S_, .f32⟩) main_call7_v0).toBuf (Val := Elt Ideal) v = v := cast_eq _ v
theorem ofBuf_main_call7_v0 (v : (⟨S_, .f32⟩ : BufTy).Contents (Elt Ideal)) :
    (TRef.of (sig := sig) (T := ⟨S_, .f32⟩) main_call7_v0).ofBuf (Val := Elt Ideal) v = v := cast_eq _ v
theorem toBuf_main_call7_v1 (v : (⟨S100000, .f32⟩ : BufTy).Contents (Elt Ideal)) :
    (TRef.of (sig := sig) (T := ⟨S100000, .f32⟩) main_call7_v1).toBuf (Val := Elt Ideal) v = v := cast_eq _ v
theorem ofBuf_main_call7_v1 (v : (⟨S100000, .f32⟩ : BufTy).Contents (Elt Ideal)) :
    (TRef.of (sig := sig) (T := ⟨S100000, .f32⟩) main_call7_v1).ofBuf (Val := Elt Ideal) v = v := cast_eq _ v
theorem toBuf_main_v161 (v : (⟨S100000, .i1⟩ : BufTy).Contents (Elt Ideal)) :
    (TRef.of (sig := sig) (T := ⟨S100000, .i1⟩) main_v161).toBuf (Val := Elt Ideal) v = v := cast_eq _ v
theorem ofBuf_main_v161 (v : (⟨S100000, .i1⟩ : BufTy).Contents (Elt Ideal)) :
    (TRef.of (sig := sig) (T := ⟨S100000, .i1⟩) main_v161).ofBuf (Val := Elt Ideal) v = v := cast_eq _ v
theorem toBuf_main_v162 (v : (⟨S100000, .f32⟩ : BufTy).Contents (Elt Ideal)) :
    (TRef.of (sig := sig) (T := ⟨S100000, .f32⟩) main_v162).toBuf (Val := Elt Ideal) v = v := cast_eq _ v
theorem ofBuf_main_v162 (v : (⟨S100000, .f32⟩ : BufTy).Contents (Elt Ideal)) :
    (TRef.of (sig := sig) (T := ⟨S100000, .f32⟩) main_v162).ofBuf (Val := Elt Ideal) v = v := cast_eq _ v
theorem toBuf_main_v163 (v : (⟨S100000, .f32⟩ : BufTy).Contents (Elt Ideal)) :
    (TRef.of (sig := sig) (T := ⟨S100000, .f32⟩) main_v163).toBuf (Val := Elt Ideal) v = v := cast_eq _ v
theorem ofBuf_main_v163 (v : (⟨S100000, .f32⟩ : BufTy).Contents (Elt Ideal)) :
    (TRef.of (sig := sig) (T := ⟨S100000, .f32⟩) main_v163).ofBuf (Val := Elt Ideal) v = v := cast_eq _ v

/-! ### Piece 26: operations 206 … 209, up to `main_v159` -/

/-- The buffers piece 26 writes. -/
abbrev W26 : List (Ref sig .tc) := [main_cst_31, main_v157, main_v158, main_v159]

/-- Every operation of piece 26 writes a buffer of that list. -/
theorem writes26 : (c26 (F := Ideal)).Forall fun op => op.writes ⊆ (W26.map (Proc.devRef (τ := τ) .tc)).toFinset :=
  ⟨sub_of_mem (y := main_cst_31) (by decide), sub_of_mem (y := main_v157) (by decide), sub_of_mem (y := main_v158) (by decide), sub_of_mem (y := main_v159) (by decide)⟩

/-- A buffer outside that list keeps its contents through piece 26. -/
theorem carry26 (V : Valuation τ sig (Elt Ideal)) (r : Ref sig .tc) (hr : r ∉ W26) :
    StableHlo.after (c26 (F := Ideal)) V (Proc.devRef .tc r) = V (Proc.devRef .tc r) :=
  after_of_writes_sub _ V writes26 hr

set_option maxRecDepth 400000 in
/-- After piece 26, `main_v159` holds its named function of the arguments, given what the piece's inputs hold. -/
theorem w26_main_v159 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c26 (F := Ideal)) V (Proc.devRef .tc main_v159) = Cert.Model.deg (F := Ideal) x1 x2 := by
  after_results_simp
  rw [h_main_v6, h_main_v8]
  rfl

/-! ### Piece 27: operations 210 … 212, up to `main_v161` -/

/-- The buffers piece 27 writes. -/
abbrev W27 : List (Ref sig .tc) := [main_cst_32, main_v160, main_v161]

/-- Every operation of piece 27 writes a buffer of that list. -/
theorem writes27 : (c27 (F := Ideal)).Forall fun op => op.writes ⊆ (W27.map (Proc.devRef (τ := τ) .tc)).toFinset :=
  ⟨sub_of_mem (y := main_cst_32) (by decide), sub_of_mem (y := main_v160) (by decide), sub_of_mem (y := main_v161) (by decide)⟩

/-- A buffer outside that list keeps its contents through piece 27. -/
theorem carry27 (V : Valuation τ sig (Elt Ideal)) (r : Ref sig .tc) (hr : r ∉ W27) :
    StableHlo.after (c27 (F := Ideal)) V (Proc.devRef .tc r) = V (Proc.devRef .tc r) :=
  after_of_writes_sub _ V writes27 hr

set_option maxRecDepth 400000 in
/-- After piece 27, `main_v161` holds its named function of the arguments, given what the piece's inputs hold. -/
theorem w27_main_v161 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v159 : V (Proc.devRef .tc main_v159) = Cert.Model.deg (F := Ideal) x1 x2) :
    StableHlo.after (c27 (F := Ideal)) V (Proc.devRef .tc main_v161) = Cert.Model.degPos (F := Ideal) x1 x2 := by
  after_results_simp
  rw [h_main_v159]
  rfl

/-! ### Piece 28: operations 213 … 213, up to `main_v162` -/

/-- The buffers piece 28 writes. -/
abbrev W28 : List (Ref sig .tc) := [main_v162]

/-- Every operation of piece 28 writes a buffer of that list. -/
theorem writes28 : (c28 (F := Ideal)).Forall fun op => op.writes ⊆ (W28.map (Proc.devRef (τ := τ) .tc)).toFinset :=
  sub_of_mem (y := main_v162) (by decide)

/-- A buffer outside that list keeps its contents through piece 28. -/
theorem carry28 (V : Valuation τ sig (Elt Ideal)) (r : Ref sig .tc) (hr : r ∉ W28) :
    StableHlo.after (c28 (F := Ideal)) V (Proc.devRef .tc r) = V (Proc.devRef .tc r) :=
  after_of_writes_sub _ V writes28 hr

set_option maxRecDepth 400000 in
/-- After piece 28, `main_v162` holds its named function of the arguments, given what the piece's inputs hold. -/
theorem w28_main_v162 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v159 : V (Proc.devRef .tc main_v159) = Cert.Model.deg (F := Ideal) x1 x2) :
    StableHlo.after (c28 (F := Ideal)) V (Proc.devRef .tc main_v162) = Cert.Model.degRsqrt (F := Ideal) x1 x2 := by
  after_results_simp
  rw [h_main_v159]
  rfl

/-! ### Piece 29: operations 214 … 217, up to `main_v163` -/

/-- The buffers piece 29 writes. -/
abbrev W29 : List (Ref sig .tc) := [main_cst_33, main_call7_v0, main_call7_v1, main_v163]

/-- Every operation of piece 29 writes a buffer of that list. -/
theorem writes29 : (c29 (F := Ideal)).Forall fun op => op.writes ⊆ (W29.map (Proc.devRef (τ := τ) .tc)).toFinset :=
  ⟨sub_of_mem (y := main_cst_33) (by decide), sub_of_mem (y := main_call7_v0) (by decide), sub_of_mem (y := main_call7_v1) (by decide), sub_of_mem (y := main_v163) (by decide)⟩

/-- A buffer outside that list keeps its contents through piece 29. -/
theorem carry29 (V : Valuation τ sig (Elt Ideal)) (r : Ref sig .tc) (hr : r ∉ W29) :
    StableHlo.after (c29 (F := Ideal)) V (Proc.devRef .tc r) = V (Proc.devRef .tc r) :=
  after_of_writes_sub _ V writes29 hr

set_option maxRecDepth 400000 in
/-- After piece 29, `main_v163` holds its named function of the arguments, given what the piece's inputs hold. -/
theorem w29_main_v163 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v161 : V (Proc.devRef .tc main_v161) = Cert.Model.degPos (F := Ideal) x1 x2)
    (h_main_v162 : V (Proc.devRef .tc main_v162) = Cert.Model.degRsqrt (F := Ideal) x1 x2) :
    StableHlo.after (c29 (F := Ideal)) V (Proc.devRef .tc main_v163) = Cert.Model.dinv (F := Ideal) x1 x2 := by
  after_results_simp
  simp only [toBuf_main_v161, ofBuf_main_v161, toBuf_main_v162, ofBuf_main_v162, toBuf_main_call7_v1, ofBuf_main_call7_v1, toBuf_main_v163, ofBuf_main_v163, toBuf_main_call7_v0, ofBuf_main_call7_v0, toBuf_main_cst_33, ofBuf_main_cst_33]
  rw [h_main_v161, h_main_v162]
  rfl

/-! ### Piece 30: operations 218 … 237, up to `main_v179` -/

/-- The buffers piece 30 writes. -/
abbrev W30 : List (Ref sig .tc) := [main_c_34, main_v164, main_v165, main_c_35, main_v166, main_v167, main_v168, main_v169, main_v170, main_v171, main_c_36, main_v172, main_v173, main_c_37, main_v174, main_v175, main_v176, main_v177, main_v178, main_v179]

/-- Every operation of piece 30 writes a buffer of that list. -/
theorem writes30 : (c30 (F := Ideal)).Forall fun op => op.writes ⊆ (W30.map (Proc.devRef (τ := τ) .tc)).toFinset :=
  ⟨sub_of_mem (y := main_c_34) (by decide), sub_of_mem (y := main_v164) (by decide), sub_of_mem (y := main_v165) (by decide), sub_of_mem (y := main_c_35) (by decide), sub_of_mem (y := main_v166) (by decide), sub_of_mem (y := main_v167) (by decide), sub_of_mem (y := main_v168) (by decide), sub_of_mem (y := main_v169) (by decide), sub_of_mem (y := main_v170) (by decide), sub_of_mem (y := main_v171) (by decide), sub_of_mem (y := main_c_36) (by decide), sub_of_mem (y := main_v172) (by decide), sub_of_mem (y := main_v173) (by decide), sub_of_mem (y := main_c_37) (by decide), sub_of_mem (y := main_v174) (by decide), sub_of_mem (y := main_v175) (by decide), sub_of_mem (y := main_v176) (by decide), sub_of_mem (y := main_v177) (by decide), sub_of_mem (y := main_v178) (by decide), sub_of_mem (y := main_v179) (by decide)⟩

/-- A buffer outside that list keeps its contents through piece 30. -/
theorem carry30 (V : Valuation τ sig (Elt Ideal)) (r : Ref sig .tc) (hr : r ∉ W30) :
    StableHlo.after (c30 (F := Ideal)) V (Proc.devRef .tc r) = V (Proc.devRef .tc r) :=
  after_of_writes_sub _ V writes30 hr

set_option maxRecDepth 400000 in
/-- After piece 30, `main_v179` holds its named function of the arguments, given what the piece's inputs hold. -/
theorem w30_main_v179 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v163 : V (Proc.devRef .tc main_v163) = Cert.Model.dinv (F := Ideal) x1 x2)
    (h_main_v3 : V (Proc.devRef .tc main_v3) = Cert.Model.src (F := Ideal) x1)
    (h_main_v6 : V (Proc.devRef .tc main_v6) = Cert.Model.dst (F := Ideal) x1)
    (h_main_v8 : V (Proc.devRef .tc main_v8) = Cert.Model.wts (F := Ideal) x2) :
    StableHlo.after (c30 (F := Ideal)) V (Proc.devRef .tc main_v179) = Cert.Model.enorm (F := Ideal) x1 x2 := by
  after_results_simp
  rw [h_main_v163, h_main_v3, h_main_v6, h_main_v8]
  rfl

/-! ### Piece 31: operations 238 … 253, up to `main_v192` -/

/-- The buffers piece 31 writes. -/
abbrev W31 : List (Ref sig .tc) := [main_c_38, main_v180, main_v181, main_c_39, main_v182, main_v183, main_v184, main_v185, main_v186, main_v187, main_v188, main_v189, main_cst_40, main_v190, main_v191, main_v192]

/-- Every operation of piece 31 writes a buffer of that list. -/
theorem writes31 : (c31 (F := Ideal)).Forall fun op => op.writes ⊆ (W31.map (Proc.devRef (τ := τ) .tc)).toFinset :=
  ⟨sub_of_mem (y := main_c_38) (by decide), sub_of_mem (y := main_v180) (by decide), sub_of_mem (y := main_v181) (by decide), sub_of_mem (y := main_c_39) (by decide), sub_of_mem (y := main_v182) (by decide), sub_of_mem (y := main_v183) (by decide), sub_of_mem (y := main_v184) (by decide), sub_of_mem (y := main_v185) (by decide), sub_of_mem (y := main_v186) (by decide), sub_of_mem (y := main_v187) (by decide), sub_of_mem (y := main_v188) (by decide), sub_of_mem (y := main_v189) (by decide), sub_of_mem (y := main_cst_40) (by decide), sub_of_mem (y := main_v190) (by decide), sub_of_mem (y := main_v191) (by decide), sub_of_mem (y := main_v192) (by decide)⟩

/-- A buffer outside that list keeps its contents through piece 31. -/
theorem carry31 (V : Valuation τ sig (Elt Ideal)) (r : Ref sig .tc) (hr : r ∉ W31) :
    StableHlo.after (c31 (F := Ideal)) V (Proc.devRef .tc r) = V (Proc.devRef .tc r) :=
  after_of_writes_sub _ V writes31 hr

set_option maxRecDepth 400000 in
/-- After piece 31, `main_v192` holds its named function of the arguments, given what the piece's inputs hold. -/
theorem w31_main_v192 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v156 : V (Proc.devRef .tc main_v156) = Cert.Model.hMid1 (F := Ideal) x0 x1 x2 x3 x4)
    (h_main_v179 : V (Proc.devRef .tc main_v179) = Cert.Model.enorm (F := Ideal) x1 x2)
    (h_main_v3 : V (Proc.devRef .tc main_v3) = Cert.Model.src (F := Ideal) x1)
    (h_main_v6 : V (Proc.devRef .tc main_v6) = Cert.Model.dst (F := Ideal) x1) :
    StableHlo.after (c31 (F := Ideal)) V (Proc.devRef .tc main_v192) = Cert.Model.aggB1 (F := Ideal) x0 x1 x2 x3 x4 := by
  after_results_simp
  rw [h_main_v156, h_main_v179, h_main_v3, h_main_v6]
  rfl

end Cert.RefRun

end
-- ==== Proof.RefRunPiece10.lean ====
/-
  Operations 254 … 273 of the reference program's line of host operations, in 3 pieces: what each piece
  leaves in the buffers that later pieces read.

  A piece's written buffers (`main_v196`, `main_v197`, `main_v204`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call8_cst (v : (⟨S_, .f32⟩ : BufTy).Contents (Elt Ideal)) :
    (TRef.of (sig := sig) (T := ⟨S_, .f32⟩) main_call8_cst).toBuf (Val := Elt Ideal) v = v := cast_eq _ v
theorem ofBuf_main_call8_cst (v : (⟨S_, .f32⟩ : BufTy).Contents (Elt Ideal)) :
    (TRef.of (sig := sig) (T := ⟨S_, .f32⟩) main_call8_cst).ofBuf (Val := Elt Ideal) v = v := cast_eq _ v
theorem toBuf_main_call8_v0 (v : (⟨S100000x128, .f32⟩ : BufTy).Contents (Elt Ideal)) :
    (TRef.of (sig := sig) (T := ⟨S100000x128, .f32⟩) main_call8_v0).toBuf (Val := Elt Ideal) v = v := cast_eq _ v
theorem ofBuf_main_call8_v0 (v : (⟨S100000x128, .f32⟩ : BufTy).Contents (Elt Ideal)) :
    (TRef.of (sig := sig) (T := ⟨S100000x128, .f32⟩) main_call8_v0).ofBuf (Val := Elt Ideal) v = v := cast_eq _ v
theorem toBuf_main_v195 (v : (⟨S100000x128, .f32⟩ : BufTy).Contents (Elt Ideal)) :
    (TRef.of (sig := sig) (T := ⟨S100000x128, .f32⟩) main_v195).toBuf (Val := Elt Ideal) v = v := cast_eq _ v
theorem ofBuf_main_v195 (v : (⟨S100000x128, .f32⟩ : BufTy).Contents (Elt Ideal)) :
    (TRef.of (sig := sig) (T := ⟨S100000x128, .f32⟩) main_v195).ofBuf (Val := Elt Ideal) v = v := cast_eq _ v
theorem toBuf_main_v196 (v : (⟨S100000x128, .f32⟩ : BufTy).Contents (Elt Ideal)) :
    (TRef.of (sig := sig) (T := ⟨S100000x128, .f32⟩) main_v196).toBuf (Val := Elt Ideal) v = v := cast_eq _ v
theorem ofBuf_main_v196 (v : (⟨S100000x128, .f32⟩ : BufTy).Contents (Elt Ideal)) :
    (TRef.of (sig := sig) (T := ⟨S100000x128, .f32⟩) main_v196).ofBuf (Val := Elt Ideal) v = v := cast_eq _ v
theorem toBuf_main_call9_v0 (v : (⟨S100000x128, .f32⟩ : BufTy).Contents (Elt Ideal)) :
    (TRef.of (sig := sig) (T := ⟨S100000x128, .f32⟩) main_call9_v0).toBuf (Val := Elt Ideal) v = v := cast_eq _ v
theorem ofBuf_main_call9_v0 (v : (⟨S100000x128, .f32⟩ : BufTy).Contents (Elt Ideal)) :
    (TRef.of (sig := sig) (T := ⟨S100000x128, .f32⟩) main_call9_v0).ofBuf (Val := Elt Ideal) v = v := cast_eq _ v
theorem toBuf_main_call9_cst (v : (⟨S_, .f32⟩ : BufTy).Contents (Elt Ideal)) :
    (TRef.of (sig := sig) (T := ⟨S_, .f32⟩) main_call9_cst).toBuf (Val := Elt Ideal) v = v := cast_eq _ v
theorem ofBuf_main_call9_cst (v : (⟨S_, .f32⟩ : BufTy).Contents (Elt Ideal)) :
    (TRef.of (sig := sig) (T := ⟨S_, .f32⟩) main_call9_cst).ofBuf (Val := Elt Ideal) v = v := cast_eq _ v
theorem toBuf_main_call9_v1 (v : (⟨S100000, .f32⟩ : BufTy).Contents (Elt Ideal)) :
    (TRef.of (sig := sig) (T := ⟨S100000, .f32⟩) main_call9_v1).toBuf (Val := Elt Ideal) v = v := cast_eq _ v
theorem ofBuf_main_call9_v1 (v : (⟨S100000, .f32⟩ : BufTy).Contents (Elt Ideal)) :
    (TRef.of (sig := sig) (T := ⟨S100000, .f32⟩) main_call9_v1).ofBuf (Val := Elt Ideal) v = v := cast_eq _ v
theorem toBuf_main_call9_v2 (v : (⟨S100000x1, .f32⟩ : BufTy).Contents (Elt Ideal)) :
    (TRef.of (sig := sig) (T := ⟨S100000x1, .f32⟩) main_call9_v2).toBuf (Val := Elt Ideal) v = v := cast_eq _ v
theorem ofBuf_main_call9_v2 (v : (⟨S100000x1, .f32⟩ : BufTy).Contents (Elt Ideal)) :
    (TRef.of (sig := sig) (T := ⟨S100000x1, .f32⟩) main_call9_v2).ofBuf (Val := Elt Ideal) v = v := cast_eq _ v
theorem toBuf_main_v197 (v : (⟨S100000x1, .f32⟩ : BufTy).Contents (Elt Ideal)) :
    (TRef.of (sig := sig) (T := ⟨S100000x1, .f32⟩) main_v197).toBuf (Val := Elt Ideal) v = v := cast_eq _ v
theorem ofBuf_main_v197 (v : (⟨S100000x1, .f32⟩ : BufTy).Contents (Elt Ideal)) :
    (TRef.of (sig := sig) (T := ⟨S100000x1, .f32⟩) main_v197).ofBuf (Val := Elt Ideal) v = v := cast_eq _ v

/-! ### Piece 32: operations 254 … 259, up to `main_v196` -/

/-- The buffers piece 32 writes. -/
abbrev W32 : List (Ref sig .tc) := [main_v193, main_v194, main_v195, main_call8_cst, main_call8_v0, main_v196]

/-- Every operation of piece 32 writes a buffer of that list. -/
theorem writes32 : (c32 (F := Ideal)).Forall fun op => op.writes ⊆ (W32.map (Proc.devRef (τ := τ) .tc)).toFinset :=
  ⟨sub_of_mem (y := main_v193) (by decide), sub_of_mem (y := main_v194) (by decide), sub_of_mem (y := main_v195) (by decide), sub_of_mem (y := main_call8_cst) (by decide), sub_of_mem (y := main_call8_v0) (by decide), sub_of_mem (y := main_v196) (by decide)⟩

/-- A buffer outside that list keeps its contents through piece 32. -/
theorem carry32 (V : Valuation τ sig (Elt Ideal)) (r : Ref sig .tc) (hr : r ∉ W32) :
    StableHlo.after (c32 (F := Ideal)) V (Proc.devRef .tc r) = V (Proc.devRef .tc r) :=
  after_of_writes_sub _ V writes32 hr

set_option maxRecDepth 400000 in
/-- After piece 32, `main_v196` holds its named function of the arguments, given what the piece's inputs hold. -/
theorem w32_main_v196 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v155 : V (Proc.devRef .tc main_v155) = biasVec3 (F := Ideal) x4)
    (h_main_v192 : V (Proc.devRef .tc main_v192) = Cert.Model.aggB1 (F := Ideal) x0 x1 x2 x3 x4) :
    StableHlo.after (c32 (F := Ideal)) V (Proc.devRef .tc main_v196) = Cert.RefOps.relu (F := Ideal) (Cert.RefOps.addRow (F := Ideal) (Cert.Model.aggB1 (F := Ideal) x0 x1 x2 x3 x4) (Cert.Model.biasRow3 (F := Ideal) x4)) := by
  after_results_simp
  simp only [toBuf_main_v195, ofBuf_main_v195, toBuf_main_call8_v0, ofBuf_main_call8_v0, toBuf_main_v196, ofBuf_main_v196, toBuf_main_call8_cst, ofBuf_main_call8_cst]
  rw [h_main_v155, h_main_v192]
  rfl

/-! ### Piece 33: operations 260 … 264, up to `main_v197` -/

/-- The buffers piece 33 writes. -/
abbrev W33 : List (Ref sig .tc) := [main_call9_v0, main_call9_cst, main_call9_v1, main_call9_v2, main_v197]

/-- Every operation of piece 33 writes a buffer of that list. -/
theorem writes33 : (c33 (F := Ideal)).Forall fun op => op.writes ⊆ (W33.map (Proc.devRef (τ := τ) .tc)).toFinset :=
  ⟨sub_of_mem (y := main_call9_v0) (by decide), sub_of_mem (y := main_call9_cst) (by decide), sub_of_mem (y := main_call9_v1) (by decide), sub_of_mem (y := main_call9_v2) (by decide), sub_of_mem (y := main_v197) (by decide)⟩

/-- A buffer outside that list keeps its contents through piece 33. -/
theorem carry33 (V : Valuation τ sig (Elt Ideal)) (r : Ref sig .tc) (hr : r ∉ W33) :
    StableHlo.after (c33 (F := Ideal)) V (Proc.devRef .tc r) = V (Proc.devRef .tc r) :=
  after_of_writes_sub _ V writes33 hr

set_option maxRecDepth 400000 in
/-- After piece 33, `main_v197` holds its named function of the arguments, given what the piece's inputs hold. -/
theorem w33_main_v197 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v196 : V (Proc.devRef .tc main_v196) = Cert.RefOps.relu (F := Ideal) (Cert.RefOps.addRow (F := Ideal) (Cert.Model.aggB1 (F := Ideal) x0 x1 x2 x3 x4) (Cert.Model.biasRow3 (F := Ideal) x4))) :
    StableHlo.after (c33 (F := Ideal)) V (Proc.devRef .tc main_v197) = Cert.RefOps.rowNorm (F := Ideal) (Cert.RefOps.relu (F := Ideal) (Cert.RefOps.addRow (F := Ideal) (Cert.Model.aggB1 (F := Ideal) x0 x1 x2 x3 x4) (Cert.Model.biasRow3 (F := Ideal) x4))) := by
  after_results_simp
  simp only [toBuf_main_call9_v2, ofBuf_main_call9_v2, toBuf_main_v197, ofBuf_main_v197, toBuf_main_call9_v1, ofBuf_main_call9_v1, toBuf_main_call9_v0, ofBuf_main_call9_v0, toBuf_main_call9_cst, ofBuf_main_call9_cst, toBuf_main_v196, ofBuf_main_v196]
  rw [h_main_v196]
  rfl

/-! ### Piece 34: operations 265 … 273, up to `main_v204` -/

/-- The buffers piece 34 writes. -/
abbrev W34 : List (Ref sig .tc) := [main_cst_41, main_v198, main_v199, main_v200, main_v201, main_v202, main_cst_42, main_v203, main_v204]

/-- Every operation of piece 34 writes a buffer of that list. -/
theorem writes34 : (c34 (F := Ideal)).Forall fun op => op.writes ⊆ (W34.map (Proc.devRef (τ := τ) .tc)).toFinset :=
  ⟨sub_of_mem (y := main_cst_41) (by decide), sub_of_mem (y := main_v198) (by decide), sub_of_mem (y := main_v199) (by decide), sub_of_mem (y := main_v200) (by decide), sub_of_mem (y := main_v201) (by decide), sub_of_mem (y := main_v202) (by decide), sub_of_mem (y := main_cst_42) (by decide), sub_of_mem (y := main_v203) (by decide), sub_of_mem (y := main_v204) (by decide)⟩

/-- A buffer outside that list keeps its contents through piece 34. -/
theorem carry34 (V : Valuation τ sig (Elt Ideal)) (r : Ref sig .tc) (hr : r ∉ W34) :
    StableHlo.after (c34 (F := Ideal)) V (Proc.devRef .tc r) = V (Proc.devRef .tc r) :=
  after_of_writes_sub _ V writes34 hr

set_option maxRecDepth 400000 in
/-- After piece 34, `main_v204` holds its named function of the arguments, given what the piece's inputs hold. -/
theorem w34_main_v204 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v106 : V (Proc.devRef .tc main_v106) = Cert.Model.xOut0 (F := Ideal) x0 x1 x2 x3 x4)
    (h_main_v196 : V (Proc.devRef .tc main_v196) = Cert.RefOps.relu (F := Ideal) (Cert.RefOps.addRow (F := Ideal) (Cert.Model.aggB1 (F := Ideal) x0 x1 x2 x3 x4) (Cert.Model.biasRow3 (F := Ideal) x4)))
    (h_main_v197 : V (Proc.devRef .tc main_v197) = Cert.RefOps.rowNorm (F := Ideal) (Cert.RefOps.relu (F := Ideal) (Cert.RefOps.addRow (F := Ideal) (Cert.Model.aggB1 (F := Ideal) x0 x1 x2 x3 x4) (Cert.Model.biasRow3 (F := Ideal) x4)))) :
    StableHlo.after (c34 (F := Ideal)) V (Proc.devRef .tc main_v204) = Cert.Model.xOut1 (F := Ideal) x0 x1 x2 x3 x4 := by
  after_results_simp
  rw [h_main_v106, h_main_v196, h_main_v197]
  rfl

end Cert.RefRun

end
-- ==== Proof.RefRunPiece11.lean ====
/-
  Operations 274 … 278 of the reference program's line of host operations, in one piece: what each piece
  leaves in the buffers that later pieces read.

  A piece's written buffers (`main_v208`, `main_v209`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### Piece 35: operations 274 … 278, up to `main_v209` -/

/-- The buffers piece 35 writes. -/
abbrev W35 : List (Ref sig .tc) := [main_v205, main_v206, main_v207, main_v208, main_v209]

/-- Every operation of piece 35 writes a buffer of that list. -/
theorem writes35 : (c35 (F := Ideal)).Forall fun op => op.writes ⊆ (W35.map (Proc.devRef (τ := τ) .tc)).toFinset :=
  ⟨sub_of_mem (y := main_v205) (by decide), sub_of_mem (y := main_v206) (by decide), sub_of_mem (y := main_v207) (by decide), sub_of_mem (y := main_v208) (by decide), sub_of_mem (y := main_v209) (by decide)⟩

/-- A buffer outside that list keeps its contents through piece 35. -/
theorem carry35 (V : Valuation τ sig (Elt Ideal)) (r : Ref sig .tc) (hr : r ∉ W35) :
    StableHlo.after (c35 (F := Ideal)) V (Proc.devRef .tc r) = V (Proc.devRef .tc r) :=
  after_of_writes_sub _ V writes35 hr

set_option maxRecDepth 400000 in
/-- After piece 35, `main_v208` holds its named function of the arguments, given what the piece's inputs hold. -/
theorem w35_main_v208 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c35 (F := Ideal)) V (Proc.devRef .tc main_v208) = biasVec4 (F := Ideal) x4 := by
  after_results_simp
  rw [h_main_arg4]
  rfl

set_option maxRecDepth 400000 in
/-- After piece 35, `main_v209` holds its named function of the arguments, given what the piece's inputs hold. -/
theorem w35_main_v209 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v204 : V (Proc.devRef .tc main_v204) = Cert.Model.xOut1 (F := Ideal) x0 x1 x2 x3 x4) :
    StableHlo.after (c35 (F := Ideal)) V (Proc.devRef .tc main_v209) = Cert.Model.hOut1 (F := Ideal) x0 x1 x2 x3 x4 := by
  after_results_simp
  rw [h_main_arg3, h_main_v204]
  rfl

end Cert.RefRun

end
-- ==== Proof.RefRunPiece12.lean ====
/-
  Operations 279 … 326 of the reference program's line of host operations, in 6 pieces: what each piece
  leaves in the buffers that later pieces read.

  A piece's written buffers (`main_v212`, `main_v214`, `main_v215`, `main_v216`, `main_v232`, `main_v245`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_45 (v : (⟨S_, .f32⟩ : BufTy).Contents (Elt Ideal)) :
    (TRef.of (sig := sig) (T := ⟨S_, .f32⟩) main_cst_45).toBuf (Val := Elt Ideal) v = v := cast_eq _ v
theorem ofBuf_main_cst_45 (v : (⟨S_, .f32⟩ : BufTy).Contents (Elt Ideal)) :
    (TRef.of (sig := sig) (T := ⟨S_, .f32⟩) main_cst_45).ofBuf (Val := Elt Ideal) v = v := cast_eq _ v
theorem toBuf_main_call10_v0 (v : (⟨S_, .f32⟩ : BufTy).Contents (Elt Ideal)) :
    (TRef.of (sig := sig) (T := ⟨S_, .f32⟩) main_call10_v0).toBuf (Val := Elt Ideal) v = v := cast_eq _ v
theorem ofBuf_main_call10_v0 (v : (⟨S_, .f32⟩ : BufTy).Contents (Elt Ideal)) :
    (TRef.of (sig := sig) (T := ⟨S_, .f32⟩) main_call10_v0).ofBuf (Val := Elt Ideal) v = v := cast_eq _ v
theorem toBuf_main_call10_v1 (v : (⟨S100000, .f32⟩ : BufTy).Contents (Elt Ideal)) :
    (TRef.of (sig := sig) (T := ⟨S100000, .f32⟩) main_call10_v1).toBuf (Val := Elt Ideal) v = v := cast_eq _ v
theorem ofBuf_main_call10_v1 (v : (⟨S100000, .f32⟩ : BufTy).Contents (Elt Ideal)) :
    (TRef.of (sig := sig) (T := ⟨S100000, .f32⟩) main_call10_v1).ofBuf (Val := Elt Ideal) v = v := cast_eq _ v
theorem toBuf_main_v214 (v : (⟨S100000, .i1⟩ : BufTy).Contents (Elt Ideal)) :
    (TRef.of (sig := sig) (T := ⟨S100000, .i1⟩) main_v214).toBuf (Val := Elt Ideal) v = v := cast_eq _ v
theorem ofBuf_main_v214 (v : (⟨S100000, .i1⟩ : BufTy).Contents (Elt Ideal)) :
    (TRef.of (sig := sig) (T := ⟨S100000, .i1⟩) main_v214).ofBuf (Val := Elt Ideal) v = v := cast_eq _ v
theorem toBuf_main_v215 (v : (⟨S100000, .f32⟩ : BufTy).Contents (Elt Ideal)) :
    (TRef.of (sig := sig) (T := ⟨S100000, .f32⟩) main_v215).toBuf (Val := Elt Ideal) v = v := cast_eq _ v
theorem ofBuf_main_v215 (v : (⟨S100000, .f32⟩ : BufTy).Contents (Elt Ideal)) :
    (TRef.of (sig := sig) (T := ⟨S100000, .f32⟩) main_v215).ofBuf (Val := Elt Ideal) v = v := cast_eq _ v
theorem toBuf_main_v216 (v : (⟨S100000, .f32⟩ : BufTy).Contents (Elt Ideal)) :
    (TRef.of (sig := sig) (T := ⟨S100000, .f32⟩) main_v216).toBuf (Val := Elt Ideal) v = v := cast_eq _ v
theorem ofBuf_main_v216 (v : (⟨S100000, .f32⟩ : BufTy).Contents (Elt Ideal)) :
    (TRef.of (sig := sig) (T := ⟨S100000, .f32⟩) main_v216).ofBuf (Val := Elt Ideal) v = v := cast_eq _ v

/-! ### Piece 36: operations 279 … 282, up to `main_v212` -/

/-- The buffers piece 36 writes. -/
abbrev W36 : List (Ref sig .tc) := [main_cst_43, main_v210, main_v211, main_v212]

/-- Every operation of piece 36 writes a buffer of that list. -/
theorem writes36 : (c36 (F := Ideal)).Forall fun op => op.writes ⊆ (W36.map (Proc.devRef (τ := τ) .tc)).toFinset :=
  ⟨sub_of_mem (y := main_cst_43) (by decide), sub_of_mem (y := main_v210) (by decide), sub_of_mem (y := main_v211) (by decide), sub_of_mem (y := main_v212) (by decide)⟩

/-- A buffer outside that list keeps its contents through piece 36. -/
theorem carry36 (V : Valuation τ sig (Elt Ideal)) (r : Ref sig .tc) (hr : r ∉ W36) :
    StableHlo.after (c36 (F := Ideal)) V (Proc.devRef .tc r) = V (Proc.devRef .tc r) :=
  after_of_writes_sub _ V writes36 hr

set_option maxRecDepth 400000 in
/-- After piece 36, `main_v212` holds its named function of the arguments, given what the piece's inputs hold. -/
theorem w36_main_v212 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c36 (F := Ideal)) V (Proc.devRef .tc main_v212) = Cert.Model.deg (F := Ideal) x1 x2 := by
  after_results_simp
  rw [h_main_v6, h_main_v8]
  rfl

/-! ### Piece 37: operations 283 … 285, up to `main_v214` -/

/-- The buffers piece 37 writes. -/
abbrev W37 : List (Ref sig .tc) := [main_cst_44, main_v213, main_v214]

/-- Every operation of piece 37 writes a buffer of that list. -/
theorem writes37 : (c37 (F := Ideal)).Forall fun op => op.writes ⊆ (W37.map (Proc.devRef (τ := τ) .tc)).toFinset :=
  ⟨sub_of_mem (y := main_cst_44) (by decide), sub_of_mem (y := main_v213) (by decide), sub_of_mem (y := main_v214) (by decide)⟩

/-- A buffer outside that list keeps its contents through piece 37. -/
theorem carry37 (V : Valuation τ sig (Elt Ideal)) (r : Ref sig .tc) (hr : r ∉ W37) :
    StableHlo.after (c37 (F := Ideal)) V (Proc.devRef .tc r) = V (Proc.devRef .tc r) :=
  after_of_writes_sub _ V writes37 hr

set_option maxRecDepth 400000 in
/-- After piece 37, `main_v214` holds its named function of the arguments, given what the piece's inputs hold. -/
theorem w37_main_v214 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v212 : V (Proc.devRef .tc main_v212) = Cert.Model.deg (F := Ideal) x1 x2) :
    StableHlo.after (c37 (F := Ideal)) V (Proc.devRef .tc main_v214) = Cert.Model.degPos (F := Ideal) x1 x2 := by
  after_results_simp
  rw [h_main_v212]
  rfl

/-! ### Piece 38: operations 286 … 286, up to `main_v215` -/

/-- The buffers piece 38 writes. -/
abbrev W38 : List (Ref sig .tc) := [main_v215]

/-- Every operation of piece 38 writes a buffer of that list. -/
theorem writes38 : (c38 (F := Ideal)).Forall fun op => op.writes ⊆ (W38.map (Proc.devRef (τ := τ) .tc)).toFinset :=
  sub_of_mem (y := main_v215) (by decide)

/-- A buffer outside that list keeps its contents through piece 38. -/
theorem carry38 (V : Valuation τ sig (Elt Ideal)) (r : Ref sig .tc) (hr : r ∉ W38) :
    StableHlo.after (c38 (F := Ideal)) V (Proc.devRef .tc r) = V (Proc.devRef .tc r) :=
  after_of_writes_sub _ V writes38 hr

set_option maxRecDepth 400000 in
/-- After piece 38, `main_v215` holds its named function of the arguments, given what the piece's inputs hold. -/
theorem w38_main_v215 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v212 : V (Proc.devRef .tc main_v212) = Cert.Model.deg (F := Ideal) x1 x2) :
    StableHlo.after (c38 (F := Ideal)) V (Proc.devRef .tc main_v215) = Cert.Model.degRsqrt (F := Ideal) x1 x2 := by
  after_results_simp
  rw [h_main_v212]
  rfl

/-! ### Piece 39: operations 287 … 290, up to `main_v216` -/

/-- The buffers piece 39 writes. -/
abbrev W39 : List (Ref sig .tc) := [main_cst_45, main_call10_v0, main_call10_v1, main_v216]

/-- Every operation of piece 39 writes a buffer of that list. -/
theorem writes39 : (c39 (F := Ideal)).Forall fun op => op.writes ⊆ (W39.map (Proc.devRef (τ := τ) .tc)).toFinset :=
  ⟨sub_of_mem (y := main_cst_45) (by decide), sub_of_mem (y := main_call10_v0) (by decide), sub_of_mem (y := main_call10_v1) (by decide), sub_of_mem (y := main_v216) (by decide)⟩

/-- A buffer outside that list keeps its contents through piece 39. -/
theorem carry39 (V : Valuation τ sig (Elt Ideal)) (r : Ref sig .tc) (hr : r ∉ W39) :
    StableHlo.after (c39 (F := Ideal)) V (Proc.devRef .tc r) = V (Proc.devRef .tc r) :=
  after_of_writes_sub _ V writes39 hr

set_option maxRecDepth 400000 in
/-- After piece 39, `main_v216` holds its named function of the arguments, given what the piece's inputs hold. -/
theorem w39_main_v216 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v214 : V (Proc.devRef .tc main_v214) = Cert.Model.degPos (F := Ideal) x1 x2)
    (h_main_v215 : V (Proc.devRef .tc main_v215) = Cert.Model.degRsqrt (F := Ideal) x1 x2) :
    StableHlo.after (c39 (F := Ideal)) V (Proc.devRef .tc main_v216) = Cert.Model.dinv (F := Ideal) x1 x2 := by
  after_results_simp
  simp only [toBuf_main_v214, ofBuf_main_v214, toBuf_main_v215, ofBuf_main_v215, toBuf_main_call10_v1, ofBuf_main_call10_v1, toBuf_main_v216, ofBuf_main_v216, toBuf_main_call10_v0, ofBuf_main_call10_v0, toBuf_main_cst_45, ofBuf_main_cst_45]
  rw [h_main_v214, h_main_v215]
  rfl

/-! ### Piece 40: operations 291 … 310, up to `main_v232` -/

/-- The buffers piece 40 writes. -/
abbrev W40 : List (Ref sig .tc) := [main_c_46, main_v217, main_v218, main_c_47, main_v219, main_v220, main_v221, main_v222, main_v223, main_v224, main_c_48, main_v225, main_v226, main_c_49, main_v227, main_v228, main_v229, main_v230, main_v231, main_v232]

/-- Every operation of piece 40 writes a buffer of that list. -/
theorem writes40 : (c40 (F := Ideal)).Forall fun op => op.writes ⊆ (W40.map (Proc.devRef (τ := τ) .tc)).toFinset :=
  ⟨sub_of_mem (y := main_c_46) (by decide), sub_of_mem (y := main_v217) (by decide), sub_of_mem (y := main_v218) (by decide), sub_of_mem (y := main_c_47) (by decide), sub_of_mem (y := main_v219) (by decide), sub_of_mem (y := main_v220) (by decide), sub_of_mem (y := main_v221) (by decide), sub_of_mem (y := main_v222) (by decide), sub_of_mem (y := main_v223) (by decide), sub_of_mem (y := main_v224) (by decide), sub_of_mem (y := main_c_48) (by decide), sub_of_mem (y := main_v225) (by decide), sub_of_mem (y := main_v226) (by decide), sub_of_mem (y := main_c_49) (by decide), sub_of_mem (y := main_v227) (by decide), sub_of_mem (y := main_v228) (by decide), sub_of_mem (y := main_v229) (by decide), sub_of_mem (y := main_v230) (by decide), sub_of_mem (y := main_v231) (by decide), sub_of_mem (y := main_v232) (by decide)⟩

/-- A buffer outside that list keeps its contents through piece 40. -/
theorem carry40 (V : Valuation τ sig (Elt Ideal)) (r : Ref sig .tc) (hr : r ∉ W40) :
    StableHlo.after (c40 (F := Ideal)) V (Proc.devRef .tc r) = V (Proc.devRef .tc r) :=
  after_of_writes_sub _ V writes40 hr

set_option maxRecDepth 400000 in
/-- After piece 40, `main_v232` holds its named function of the arguments, given what the piece's inputs hold. -/
theorem w40_main_v232 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v216 : V (Proc.devRef .tc main_v216) = Cert.Model.dinv (F := Ideal) x1 x2)
    (h_main_v3 : V (Proc.devRef .tc main_v3) = Cert.Model.src (F := Ideal) x1)
    (h_main_v6 : V (Proc.devRef .tc main_v6) = Cert.Model.dst (F := Ideal) x1)
    (h_main_v8 : V (Proc.devRef .tc main_v8) = Cert.Model.wts (F := Ideal) x2) :
    StableHlo.after (c40 (F := Ideal)) V (Proc.devRef .tc main_v232) = Cert.Model.enorm (F := Ideal) x1 x2 := by
  after_results_simp
  rw [h_main_v216, h_main_v3, h_main_v6, h_main_v8]
  rfl

/-! ### Piece 41: operations 311 … 326, up to `main_v245` -/

/-- The buffers piece 41 writes. -/
abbrev W41 : List (Ref sig .tc) := [main_c_50, main_v233, main_v234, main_c_51, main_v235, main_v236, main_v237, main_v238, main_v239, main_v240, main_v241, main_v242, main_cst_52, main_v243, main_v244, main_v245]

/-- Every operation of piece 41 writes a buffer of that list. -/
theorem writes41 : (c41 (F := Ideal)).Forall fun op => op.writes ⊆ (W41.map (Proc.devRef (τ := τ) .tc)).toFinset :=
  ⟨sub_of_mem (y := main_c_50) (by decide), sub_of_mem (y := main_v233) (by decide), sub_of_mem (y := main_v234) (by decide), sub_of_mem (y := main_c_51) (by decide), sub_of_mem (y := main_v235) (by decide), sub_of_mem (y := main_v236) (by decide), sub_of_mem (y := main_v237) (by decide), sub_of_mem (y := main_v238) (by decide), sub_of_mem (y := main_v239) (by decide), sub_of_mem (y := main_v240) (by decide), sub_of_mem (y := main_v241) (by decide), sub_of_mem (y := main_v242) (by decide), sub_of_mem (y := main_cst_52) (by decide), sub_of_mem (y := main_v243) (by decide), sub_of_mem (y := main_v244) (by decide), sub_of_mem (y := main_v245) (by decide)⟩

/-- A buffer outside that list keeps its contents through piece 41. -/
theorem carry41 (V : Valuation τ sig (Elt Ideal)) (r : Ref sig .tc) (hr : r ∉ W41) :
    StableHlo.after (c41 (F := Ideal)) V (Proc.devRef .tc r) = V (Proc.devRef .tc r) :=
  after_of_writes_sub _ V writes41 hr

set_option maxRecDepth 400000 in
/-- After piece 41, `main_v245` holds its named function of the arguments, given what the piece's inputs hold. -/
theorem w41_main_v245 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v209 : V (Proc.devRef .tc main_v209) = Cert.Model.hOut1 (F := Ideal) x0 x1 x2 x3 x4)
    (h_main_v232 : V (Proc.devRef .tc main_v232) = Cert.Model.enorm (F := Ideal) x1 x2)
    (h_main_v3 : V (Proc.devRef .tc main_v3) = Cert.Model.src (F := Ideal) x1)
    (h_main_v6 : V (Proc.devRef .tc main_v6) = Cert.Model.dst (F := Ideal) x1) :
    StableHlo.after (c41 (F := Ideal)) V (Proc.devRef .tc main_v245) = Cert.Model.aggA2 (F := Ideal) x0 x1 x2 x3 x4 := by
  after_results_simp
  rw [h_main_v209, h_main_v232, h_main_v3, h_main_v6]
  rfl

end Cert.RefRun

end
-- ==== Proof.RefRunPiece13.lean ====
/-
  Operations 327 … 337 of the reference program's line of host operations, in one piece: what each piece
  leaves in the buffers that later pieces read.

  A piece's written buffers (`main_v253`, `main_v254`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call11_cst (v : (⟨S_, .f32⟩ : BufTy).Contents (Elt Ideal)) :
    (TRef.of (sig := sig) (T := ⟨S_, .f32⟩) main_call11_cst).toBuf (Val := Elt Ideal) v = v := cast_eq _ v
theorem ofBuf_main_call11_cst (v : (⟨S_, .f32⟩ : BufTy).Contents (Elt Ideal)) :
    (TRef.of (sig := sig) (T := ⟨S_, .f32⟩) main_call11_cst).ofBuf (Val := Elt Ideal) v = v := cast_eq _ v
theorem toBuf_main_call11_v0 (v : (⟨S100000x128, .f32⟩ : BufTy).Contents (Elt Ideal)) :
    (TRef.of (sig := sig) (T := ⟨S100000x128, .f32⟩) main_call11_v0).toBuf (Val := Elt Ideal) v = v := cast_eq _ v
theorem ofBuf_main_call11_v0 (v : (⟨S100000x128, .f32⟩ : BufTy).Contents (Elt Ideal)) :
    (TRef.of (sig := sig) (T := ⟨S100000x128, .f32⟩) main_call11_v0).ofBuf (Val := Elt Ideal) v = v := cast_eq _ v
theorem toBuf_main_v248 (v : (⟨S100000x128, .f32⟩ : BufTy).Contents (Elt Ideal)) :
    (TRef.of (sig := sig) (T := ⟨S100000x128, .f32⟩) main_v248).toBuf (Val := Elt Ideal) v = v := cast_eq _ v
theorem ofBuf_main_v248 (v : (⟨S100000x128, .f32⟩ : BufTy).Contents (Elt Ideal)) :
    (TRef.of (sig := sig) (T := ⟨S100000x128, .f32⟩) main_v248).ofBuf (Val := Elt Ideal) v = v := cast_eq _ v
theorem toBuf_main_v249 (v : (⟨S100000x128, .f32⟩ : BufTy).Contents (Elt Ideal)) :
    (TRef.of (sig := sig) (T := ⟨S100000x128, .f32⟩) main_v249).toBuf (Val := Elt Ideal) v = v := cast_eq _ v
theorem ofBuf_main_v249 (v : (⟨S100000x128, .f32⟩ : BufTy).Contents (Elt Ideal)) :
    (TRef.of (sig := sig) (T := ⟨S100000x128, .f32⟩) main_v249).ofBuf (Val := Elt Ideal) v = v := cast_eq _ v

/-! ### Piece 42: operations 327 … 337, up to `main_v254` -/

/-- The buffers piece 42 writes. -/
abbrev W42 : List (Ref sig .tc) := [main_v246, main_v247, main_v248, main_call11_cst, main_call11_v0, main_v249, main_v250, main_v251, main_v252, main_v253, main_v254]

/-- Every operation of piece 42 writes a buffer of that list. -/
theorem writes42 : (c42 (F := Ideal)).Forall fun op => op.writes ⊆ (W42.map (Proc.devRef (τ := τ) .tc)).toFinset :=
  ⟨sub_of_mem (y := main_v246) (by decide), sub_of_mem (y := main_v247) (by decide), sub_of_mem (y := main_v248) (by decide), sub_of_mem (y := main_call11_cst) (by decide), sub_of_mem (y := main_call11_v0) (by decide), sub_of_mem (y := main_v249) (by decide), sub_of_mem (y := main_v250) (by decide), sub_of_mem (y := main_v251) (by decide), sub_of_mem (y := main_v252) (by decide), sub_of_mem (y := main_v253) (by decide), sub_of_mem (y := main_v254) (by decide)⟩

/-- A buffer outside that list keeps its contents through piece 42. -/
theorem carry42 (V : Valuation τ sig (Elt Ideal)) (r : Ref sig .tc) (hr : r ∉ W42) :
    StableHlo.after (c42 (F := Ideal)) V (Proc.devRef .tc r) = V (Proc.devRef .tc r) :=
  after_of_writes_sub _ V writes42 hr

set_option maxRecDepth 400000 in
/-- After piece 42, `main_v253` holds its named function of the arguments, given what the piece's inputs hold. -/
theorem w42_main_v253 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c42 (F := Ideal)) V (Proc.devRef .tc main_v253) = biasVec5 (F := Ideal) x4 := by
  after_results_simp
  rw [h_main_arg4]
  rfl

set_option maxRecDepth 400000 in
/-- After piece 42, `main_v254` holds its named function of the arguments, given what the piece's inputs hold. -/
theorem w42_main_v254 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v208 : V (Proc.devRef .tc main_v208) = biasVec4 (F := Ideal) x4)
    (h_main_v245 : V (Proc.devRef .tc main_v245) = Cert.Model.aggA2 (F := Ideal) x0 x1 x2 x3 x4) :
    StableHlo.after (c42 (F := Ideal)) V (Proc.devRef .tc main_v254) = Cert.Model.hMid2 (F := Ideal) x0 x1 x2 x3 x4 := by
  after_results_simp
  simp only [toBuf_main_v248, ofBuf_main_v248, toBuf_main_call11_v0, ofBuf_main_call11_v0, toBuf_main_v249, ofBuf_main_v249, toBuf_main_call11_cst, ofBuf_main_call11_cst]
  rw [h_main_arg3, h_main_v208, h_main_v245]
  rfl

end Cert.RefRun

end
-- ==== Proof.RefRunPiece14.lean ====
/-
  Operations 338 … 385 of the reference program's line of host operations, in 6 pieces: what each piece
  leaves in the buffers that later pieces read.

  A piece's written buffers (`main_v257`, `main_v259`, `main_v260`, `main_v261`, `main_v277`, `main_v290`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_55 (v : (⟨S_, .f32⟩ : BufTy).Contents (Elt Ideal)) :
    (TRef.of (sig := sig) (T := ⟨S_, .f32⟩) main_cst_55).toBuf (Val := Elt Ideal) v = v := cast_eq _ v
theorem ofBuf_main_cst_55 (v : (⟨S_, .f32⟩ : BufTy).Contents (Elt Ideal)) :
    (TRef.of (sig := sig) (T := ⟨S_, .f32⟩) main_cst_55).ofBuf (Val := Elt Ideal) v = v := cast_eq _ v
theorem toBuf_main_call12_v0 (v : (⟨S_, .f32⟩ : BufTy).Contents (Elt Ideal)) :
    (TRef.of (sig := sig) (T := ⟨S_, .f32⟩) main_call12_v0).toBuf (Val := Elt Ideal) v = v := cast_eq _ v
theorem ofBuf_main_call12_v0 (v : (⟨S_, .f32⟩ : BufTy).Contents (Elt Ideal)) :
    (TRef.of (sig := sig) (T := ⟨S_, .f32⟩) main_call12_v0).ofBuf (Val := Elt Ideal) v = v := cast_eq _ v
theorem toBuf_main_call12_v1 (v : (⟨S100000, .f32⟩ : BufTy).Contents (Elt Ideal)) :
    (TRef.of (sig := sig) (T := ⟨S100000, .f32⟩) main_call12_v1).toBuf (Val := Elt Ideal) v = v := cast_eq _ v
theorem ofBuf_main_call12_v1 (v : (⟨S100000, .f32⟩ : BufTy).Contents (Elt Ideal)) :
    (TRef.of (sig := sig) (T := ⟨S100000, .f32⟩) main_call12_v1).ofBuf (Val := Elt Ideal) v = v := cast_eq _ v
theorem toBuf_main_v259 (v : (⟨S100000, .i1⟩ : BufTy).Contents (Elt Ideal)) :
    (TRef.of (sig := sig) (T := ⟨S100000, .i1⟩) main_v259).toBuf (Val := Elt Ideal) v = v := cast_eq _ v
theorem ofBuf_main_v259 (v : (⟨S100000, .i1⟩ : BufTy).Contents (Elt Ideal)) :
    (TRef.of (sig := sig) (T := ⟨S100000, .i1⟩) main_v259).ofBuf (Val := Elt Ideal) v = v := cast_eq _ v
theorem toBuf_main_v260 (v : (⟨S100000, .f32⟩ : BufTy).Contents (Elt Ideal)) :
    (TRef.of (sig := sig) (T := ⟨S100000, .f32⟩) main_v260).toBuf (Val := Elt Ideal) v = v := cast_eq _ v
theorem ofBuf_main_v260 (v : (⟨S100000, .f32⟩ : BufTy).Contents (Elt Ideal)) :
    (TRef.of (sig := sig) (T := ⟨S100000, .f32⟩) main_v260).ofBuf (Val := Elt Ideal) v = v := cast_eq _ v
theorem toBuf_main_v261 (v : (⟨S100000, .f32⟩ : BufTy).Contents (Elt Ideal)) :
    (TRef.of (sig := sig) (T := ⟨S100000, .f32⟩) main_v261).toBuf (Val := Elt Ideal) v = v := cast_eq _ v
theorem ofBuf_main_v261 (v : (⟨S100000, .f32⟩ : BufTy).Contents (Elt Ideal)) :
    (TRef.of (sig := sig) (T := ⟨S100000, .f32⟩) main_v261).ofBuf (Val := Elt Ideal) v = v := cast_eq _ v

/-! ### Piece 43: operations 338 … 341, up to `main_v257` -/

/-- The buffers piece 43 writes. -/
abbrev W43 : List (Ref sig .tc) := [main_cst_53, main_v255, main_v256, main_v257]

/-- Every operation of piece 43 writes a buffer of that list. -/
theorem writes43 : (c43 (F := Ideal)).Forall fun op => op.writes ⊆ (W43.map (Proc.devRef (τ := τ) .tc)).toFinset :=
  ⟨sub_of_mem (y := main_cst_53) (by decide), sub_of_mem (y := main_v255) (by decide), sub_of_mem (y := main_v256) (by decide), sub_of_mem (y := main_v257) (by decide)⟩

/-- A buffer outside that list keeps its contents through piece 43. -/
theorem carry43 (V : Valuation τ sig (Elt Ideal)) (r : Ref sig .tc) (hr : r ∉ W43) :
    StableHlo.after (c43 (F := Ideal)) V (Proc.devRef .tc r) = V (Proc.devRef .tc r) :=
  after_of_writes_sub _ V writes43 hr

set_option maxRecDepth 400000 in
/-- After piece 43, `main_v257` holds its named function of the arguments, given what the piece's inputs hold. -/
theorem w43_main_v257 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c43 (F := Ideal)) V (Proc.devRef .tc main_v257) = Cert.Model.deg (F := Ideal) x1 x2 := by
  after_results_simp
  rw [h_main_v6, h_main_v8]
  rfl

/-! ### Piece 44: operations 342 … 344, up to `main_v259` -/

/-- The buffers piece 44 writes. -/
abbrev W44 : List (Ref sig .tc) := [main_cst_54, main_v258, main_v259]

/-- Every operation of piece 44 writes a buffer of that list. -/
theorem writes44 : (c44 (F := Ideal)).Forall fun op => op.writes ⊆ (W44.map (Proc.devRef (τ := τ) .tc)).toFinset :=
  ⟨sub_of_mem (y := main_cst_54) (by decide), sub_of_mem (y := main_v258) (by decide), sub_of_mem (y := main_v259) (by decide)⟩

/-- A buffer outside that list keeps its contents through piece 44. -/
theorem carry44 (V : Valuation τ sig (Elt Ideal)) (r : Ref sig .tc) (hr : r ∉ W44) :
    StableHlo.after (c44 (F := Ideal)) V (Proc.devRef .tc r) = V (Proc.devRef .tc r) :=
  after_of_writes_sub _ V writes44 hr

set_option maxRecDepth 400000 in
/-- After piece 44, `main_v259` holds its named function of the arguments, given what the piece's inputs hold. -/
theorem w44_main_v259 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v257 : V (Proc.devRef .tc main_v257) = Cert.Model.deg (F := Ideal) x1 x2) :
    StableHlo.after (c44 (F := Ideal)) V (Proc.devRef .tc main_v259) = Cert.Model.degPos (F := Ideal) x1 x2 := by
  after_results_simp
  rw [h_main_v257]
  rfl

/-! ### Piece 45: operations 345 … 345, up to `main_v260` -/

/-- The buffers piece 45 writes. -/
abbrev W45 : List (Ref sig .tc) := [main_v260]

/-- Every operation of piece 45 writes a buffer of that list. -/
theorem writes45 : (c45 (F := Ideal)).Forall fun op => op.writes ⊆ (W45.map (Proc.devRef (τ := τ) .tc)).toFinset :=
  sub_of_mem (y := main_v260) (by decide)

/-- A buffer outside that list keeps its contents through piece 45. -/
theorem carry45 (V : Valuation τ sig (Elt Ideal)) (r : Ref sig .tc) (hr : r ∉ W45) :
    StableHlo.after (c45 (F := Ideal)) V (Proc.devRef .tc r) = V (Proc.devRef .tc r) :=
  after_of_writes_sub _ V writes45 hr

set_option maxRecDepth 400000 in
/-- After piece 45, `main_v260` holds its named function of the arguments, given what the piece's inputs hold. -/
theorem w45_main_v260 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v257 : V (Proc.devRef .tc main_v257) = Cert.Model.deg (F := Ideal) x1 x2) :
    StableHlo.after (c45 (F := Ideal)) V (Proc.devRef .tc main_v260) = Cert.Model.degRsqrt (F := Ideal) x1 x2 := by
  after_results_simp
  rw [h_main_v257]
  rfl

/-! ### Piece 46: operations 346 … 349, up to `main_v261` -/

/-- The buffers piece 46 writes. -/
abbrev W46 : List (Ref sig .tc) := [main_cst_55, main_call12_v0, main_call12_v1, main_v261]

/-- Every operation of piece 46 writes a buffer of that list. -/
theorem writes46 : (c46 (F := Ideal)).Forall fun op => op.writes ⊆ (W46.map (Proc.devRef (τ := τ) .tc)).toFinset :=
  ⟨sub_of_mem (y := main_cst_55) (by decide), sub_of_mem (y := main_call12_v0) (by decide), sub_of_mem (y := main_call12_v1) (by decide), sub_of_mem (y := main_v261) (by decide)⟩

/-- A buffer outside that list keeps its contents through piece 46. -/
theorem carry46 (V : Valuation τ sig (Elt Ideal)) (r : Ref sig .tc) (hr : r ∉ W46) :
    StableHlo.after (c46 (F := Ideal)) V (Proc.devRef .tc r) = V (Proc.devRef .tc r) :=
  after_of_writes_sub _ V writes46 hr

set_option maxRecDepth 400000 in
/-- After piece 46, `main_v261` holds its named function of the arguments, given what the piece's inputs hold. -/
theorem w46_main_v261 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v259 : V (Proc.devRef .tc main_v259) = Cert.Model.degPos (F := Ideal) x1 x2)
    (h_main_v260 : V (Proc.devRef .tc main_v260) = Cert.Model.degRsqrt (F := Ideal) x1 x2) :
    StableHlo.after (c46 (F := Ideal)) V (Proc.devRef .tc main_v261) = Cert.Model.dinv (F := Ideal) x1 x2 := by
  after_results_simp
  simp only [toBuf_main_v259, ofBuf_main_v259, toBuf_main_v260, ofBuf_main_v260, toBuf_main_call12_v1, ofBuf_main_call12_v1, toBuf_main_v261, ofBuf_main_v261, toBuf_main_call12_v0, ofBuf_main_call12_v0, toBuf_main_cst_55, ofBuf_main_cst_55]
  rw [h_main_v259, h_main_v260]
  rfl

/-! ### Piece 47: operations 350 … 369, up to `main_v277` -/

/-- The buffers piece 47 writes. -/
abbrev W47 : List (Ref sig .tc) := [main_c_56, main_v262, main_v263, main_c_57, main_v264, main_v265, main_v266, main_v267, main_v268, main_v269, main_c_58, main_v270, main_v271, main_c_59, main_v272, main_v273, main_v274, main_v275, main_v276, main_v277]

/-- Every operation of piece 47 writes a buffer of that list. -/
theorem writes47 : (c47 (F := Ideal)).Forall fun op => op.writes ⊆ (W47.map (Proc.devRef (τ := τ) .tc)).toFinset :=
  ⟨sub_of_mem (y := main_c_56) (by decide), sub_of_mem (y := main_v262) (by decide), sub_of_mem (y := main_v263) (by decide), sub_of_mem (y := main_c_57) (by decide), sub_of_mem (y := main_v264) (by decide), sub_of_mem (y := main_v265) (by decide), sub_of_mem (y := main_v266) (by decide), sub_of_mem (y := main_v267) (by decide), sub_of_mem (y := main_v268) (by decide), sub_of_mem (y := main_v269) (by decide), sub_of_mem (y := main_c_58) (by decide), sub_of_mem (y := main_v270) (by decide), sub_of_mem (y := main_v271) (by decide), sub_of_mem (y := main_c_59) (by decide), sub_of_mem (y := main_v272) (by decide), sub_of_mem (y := main_v273) (by decide), sub_of_mem (y := main_v274) (by decide), sub_of_mem (y := main_v275) (by decide), sub_of_mem (y := main_v276) (by decide), sub_of_mem (y := main_v277) (by decide)⟩

/-- A buffer outside that list keeps its contents through piece 47. -/
theorem carry47 (V : Valuation τ sig (Elt Ideal)) (r : Ref sig .tc) (hr : r ∉ W47) :
    StableHlo.after (c47 (F := Ideal)) V (Proc.devRef .tc r) = V (Proc.devRef .tc r) :=
  after_of_writes_sub _ V writes47 hr

set_option maxRecDepth 400000 in
/-- After piece 47, `main_v277` holds its named function of the arguments, given what the piece's inputs hold. -/
theorem w47_main_v277 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v261 : V (Proc.devRef .tc main_v261) = Cert.Model.dinv (F := Ideal) x1 x2)
    (h_main_v3 : V (Proc.devRef .tc main_v3) = Cert.Model.src (F := Ideal) x1)
    (h_main_v6 : V (Proc.devRef .tc main_v6) = Cert.Model.dst (F := Ideal) x1)
    (h_main_v8 : V (Proc.devRef .tc main_v8) = Cert.Model.wts (F := Ideal) x2) :
    StableHlo.after (c47 (F := Ideal)) V (Proc.devRef .tc main_v277) = Cert.Model.enorm (F := Ideal) x1 x2 := by
  after_results_simp
  rw [h_main_v261, h_main_v3, h_main_v6, h_main_v8]
  rfl

/-! ### Piece 48: operations 370 … 385, up to `main_v290` -/

/-- The buffers piece 48 writes. -/
abbrev W48 : List (Ref sig .tc) := [main_c_60, main_v278, main_v279, main_c_61, main_v280, main_v281, main_v282, main_v283, main_v284, main_v285, main_v286, main_v287, main_cst_62, main_v288, main_v289, main_v290]

/-- Every operation of piece 48 writes a buffer of that list. -/
theorem writes48 : (c48 (F := Ideal)).Forall fun op => op.writes ⊆ (W48.map (Proc.devRef (τ := τ) .tc)).toFinset :=
  ⟨sub_of_mem (y := main_c_60) (by decide), sub_of_mem (y := main_v278) (by decide), sub_of_mem (y := main_v279) (by decide), sub_of_mem (y := main_c_61) (by decide), sub_of_mem (y := main_v280) (by decide), sub_of_mem (y := main_v281) (by decide), sub_of_mem (y := main_v282) (by decide), sub_of_mem (y := main_v283) (by decide), sub_of_mem (y := main_v284) (by decide), sub_of_mem (y := main_v285) (by decide), sub_of_mem (y := main_v286) (by decide), sub_of_mem (y := main_v287) (by decide), sub_of_mem (y := main_cst_62) (by decide), sub_of_mem (y := main_v288) (by decide), sub_of_mem (y := main_v289) (by decide), sub_of_mem (y := main_v290) (by decide)⟩

/-- A buffer outside that list keeps its contents through piece 48. -/
theorem carry48 (V : Valuation τ sig (Elt Ideal)) (r : Ref sig .tc) (hr : r ∉ W48) :
    StableHlo.after (c48 (F := Ideal)) V (Proc.devRef .tc r) = V (Proc.devRef .tc r) :=
  after_of_writes_sub _ V writes48 hr

set_option maxRecDepth 400000 in
/-- After piece 48, `main_v290` holds its named function of the arguments, given what the piece's inputs hold. -/
theorem w48_main_v290 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v254 : V (Proc.devRef .tc main_v254) = Cert.Model.hMid2 (F := Ideal) x0 x1 x2 x3 x4)
    (h_main_v277 : V (Proc.devRef .tc main_v277) = Cert.Model.enorm (F := Ideal) x1 x2)
    (h_main_v3 : V (Proc.devRef .tc main_v3) = Cert.Model.src (F := Ideal) x1)
    (h_main_v6 : V (Proc.devRef .tc main_v6) = Cert.Model.dst (F := Ideal) x1) :
    StableHlo.after (c48 (F := Ideal)) V (Proc.devRef .tc main_v290) = Cert.Model.aggB2 (F := Ideal) x0 x1 x2 x3 x4 := by
  after_results_simp
  rw [h_main_v254, h_main_v277, h_main_v3, h_main_v6]
  rfl

end Cert.RefRun

end
-- ==== Proof.RefRunPiece15.lean ====
/-
  Operations 386 … 405 of the reference program's line of host operations, in 3 pieces: what each piece
  leaves in the buffers that later pieces read.

  A piece's written buffers (`main_v294`, `main_v295`, `main_v302`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call13_cst (v : (⟨S_, .f32⟩ : BufTy).Contents (Elt Ideal)) :
    (TRef.of (sig := sig) (T := ⟨S_, .f32⟩) main_call13_cst).toBuf (Val := Elt Ideal) v = v := cast_eq _ v
theorem ofBuf_main_call13_cst (v : (⟨S_, .f32⟩ : BufTy).Contents (Elt Ideal)) :
    (TRef.of (sig := sig) (T := ⟨S_, .f32⟩) main_call13_cst).ofBuf (Val := Elt Ideal) v = v := cast_eq _ v
theorem toBuf_main_call13_v0 (v : (⟨S100000x128, .f32⟩ : BufTy).Contents (Elt Ideal)) :
    (TRef.of (sig := sig) (T := ⟨S100000x128, .f32⟩) main_call13_v0).toBuf (Val := Elt Ideal) v = v := cast_eq _ v
theorem ofBuf_main_call13_v0 (v : (⟨S100000x128, .f32⟩ : BufTy).Contents (Elt Ideal)) :
    (TRef.of (sig := sig) (T := ⟨S100000x128, .f32⟩) main_call13_v0).ofBuf (Val := Elt Ideal) v = v := cast_eq _ v
theorem toBuf_main_v293 (v : (⟨S100000x128, .f32⟩ : BufTy).Contents (Elt Ideal)) :
    (TRef.of (sig := sig) (T := ⟨S100000x128, .f32⟩) main_v293).toBuf (Val := Elt Ideal) v = v := cast_eq _ v
theorem ofBuf_main_v293 (v : (⟨S100000x128, .f32⟩ : BufTy).Contents (Elt Ideal)) :
    (TRef.of (sig := sig) (T := ⟨S100000x128, .f32⟩) main_v293).ofBuf (Val := Elt Ideal) v = v := cast_eq _ v
theorem toBuf_main_v294 (v : (⟨S100000x128, .f32⟩ : BufTy).Contents (Elt Ideal)) :
    (TRef.of (sig := sig) (T := ⟨S100000x128, .f32⟩) main_v294).toBuf (Val := Elt Ideal) v = v := cast_eq _ v
theorem ofBuf_main_v294 (v : (⟨S100000x128, .f32⟩ : BufTy).Contents (Elt Ideal)) :
    (TRef.of (sig := sig) (T := ⟨S100000x128, .f32⟩) main_v294).ofBuf (Val := Elt Ideal) v = v := cast_eq _ v
theorem toBuf_main_call14_v0 (v : (⟨S100000x128, .f32⟩ : BufTy).Contents (Elt Ideal)) :
    (TRef.of (sig := sig) (T := ⟨S100000x128, .f32⟩) main_call14_v0).toBuf (Val := Elt Ideal) v = v := cast_eq _ v
theorem ofBuf_main_call14_v0 (v : (⟨S100000x128, .f32⟩ : BufTy).Contents (Elt Ideal)) :
    (TRef.of (sig := sig) (T := ⟨S100000x128, .f32⟩) main_call14_v0).ofBuf (Val := Elt Ideal) v = v := cast_eq _ v
theorem toBuf_main_call14_cst (v : (⟨S_, .f32⟩ : BufTy).Contents (Elt Ideal)) :
    (TRef.of (sig := sig) (T := ⟨S_, .f32⟩) main_call14_cst).toBuf (Val := Elt Ideal) v = v := cast_eq _ v
theorem ofBuf_main_call14_cst (v : (⟨S_, .f32⟩ : BufTy).Contents (Elt Ideal)) :
    (TRef.of (sig := sig) (T := ⟨S_, .f32⟩) main_call14_cst).ofBuf (Val := Elt Ideal) v = v := cast_eq _ v
theorem toBuf_main_call14_v1 (v : (⟨S100000, .f32⟩ : BufTy).Contents (Elt Ideal)) :
    (TRef.of (sig := sig) (T := ⟨S100000, .f32⟩) main_call14_v1).toBuf (Val := Elt Ideal) v = v := cast_eq _ v
theorem ofBuf_main_call14_v1 (v : (⟨S100000, .f32⟩ : BufTy).Contents (Elt Ideal)) :
    (TRef.of (sig := sig) (T := ⟨S100000, .f32⟩) main_call14_v1).ofBuf (Val := Elt Ideal) v = v := cast_eq _ v
theorem toBuf_main_call14_v2 (v : (⟨S100000x1, .f32⟩ : BufTy).Contents (Elt Ideal)) :
    (TRef.of (sig := sig) (T := ⟨S100000x1, .f32⟩) main_call14_v2).toBuf (Val := Elt Ideal) v = v := cast_eq _ v
theorem ofBuf_main_call14_v2 (v : (⟨S100000x1, .f32⟩ : BufTy).Contents (Elt Ideal)) :
    (TRef.of (sig := sig) (T := ⟨S100000x1, .f32⟩) main_call14_v2).ofBuf (Val := Elt Ideal) v = v := cast_eq _ v
theorem toBuf_main_v295 (v : (⟨S100000x1, .f32⟩ : BufTy).Contents (Elt Ideal)) :
    (TRef.of (sig := sig) (T := ⟨S100000x1, .f32⟩) main_v295).toBuf (Val := Elt Ideal) v = v := cast_eq _ v
theorem ofBuf_main_v295 (v : (⟨S100000x1, .f32⟩ : BufTy).Contents (Elt Ideal)) :
    (TRef.of (sig := sig) (T := ⟨S100000x1, .f32⟩) main_v295).ofBuf (Val := Elt Ideal) v = v := cast_eq _ v

/-! ### Piece 49: operations 386 … 391, up to `main_v294` -/

/-- The buffers piece 49 writes. -/
abbrev W49 : List (Ref sig .tc) := [main_v291, main_v292, main_v293, main_call13_cst, main_call13_v0, main_v294]

/-- Every operation of piece 49 writes a buffer of that list. -/
theorem writes49 : (c49 (F := Ideal)).Forall fun op => op.writes ⊆ (W49.map (Proc.devRef (τ := τ) .tc)).toFinset :=
  ⟨sub_of_mem (y := main_v291) (by decide), sub_of_mem (y := main_v292) (by decide), sub_of_mem (y := main_v293) (by decide), sub_of_mem (y := main_call13_cst) (by decide), sub_of_mem (y := main_call13_v0) (by decide), sub_of_mem (y := main_v294) (by decide)⟩

/-- A buffer outside that list keeps its contents through piece 49. -/
theorem carry49 (V : Valuation τ sig (Elt Ideal)) (r : Ref sig .tc) (hr : r ∉ W49) :
    StableHlo.after (c49 (F := Ideal)) V (Proc.devRef .tc r) = V (Proc.devRef .tc r) :=
  after_of_writes_sub _ V writes49 hr

set_option maxRecDepth 400000 in
/-- After piece 49, `main_v294` holds its named function of the arguments, given what the piece's inputs hold. -/
theorem w49_main_v294 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v253 : V (Proc.devRef .tc main_v253) = biasVec5 (F := Ideal) x4)
    (h_main_v290 : V (Proc.devRef .tc main_v290) = Cert.Model.aggB2 (F := Ideal) x0 x1 x2 x3 x4) :
    StableHlo.after (c49 (F := Ideal)) V (Proc.devRef .tc main_v294) = Cert.RefOps.relu (F := Ideal) (Cert.RefOps.addRow (F := Ideal) (Cert.Model.aggB2 (F := Ideal) x0 x1 x2 x3 x4) (Cert.Model.biasRow5 (F := Ideal) x4)) := by
  after_results_simp
  simp only [toBuf_main_v293, ofBuf_main_v293, toBuf_main_call13_v0, ofBuf_main_call13_v0, toBuf_main_v294, ofBuf_main_v294, toBuf_main_call13_cst, ofBuf_main_call13_cst]
  rw [h_main_v253, h_main_v290]
  rfl

/-! ### Piece 50: operations 392 … 396, up to `main_v295` -/

/-- The buffers piece 50 writes. -/
abbrev W50 : List (Ref sig .tc) := [main_call14_v0, main_call14_cst, main_call14_v1, main_call14_v2, main_v295]

/-- Every operation of piece 50 writes a buffer of that list. -/
theorem writes50 : (c50 (F := Ideal)).Forall fun op => op.writes ⊆ (W50.map (Proc.devRef (τ := τ) .tc)).toFinset :=
  ⟨sub_of_mem (y := main_call14_v0) (by decide), sub_of_mem (y := main_call14_cst) (by decide), sub_of_mem (y := main_call14_v1) (by decide), sub_of_mem (y := main_call14_v2) (by decide), sub_of_mem (y := main_v295) (by decide)⟩

/-- A buffer outside that list keeps its contents through piece 50. -/
theorem carry50 (V : Valuation τ sig (Elt Ideal)) (r : Ref sig .tc) (hr : r ∉ W50) :
    StableHlo.after (c50 (F := Ideal)) V (Proc.devRef .tc r) = V (Proc.devRef .tc r) :=
  after_of_writes_sub _ V writes50 hr

set_option maxRecDepth 400000 in
/-- After piece 50, `main_v295` holds its named function of the arguments, given what the piece's inputs hold. -/
theorem w50_main_v295 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v294 : V (Proc.devRef .tc main_v294) = Cert.RefOps.relu (F := Ideal) (Cert.RefOps.addRow (F := Ideal) (Cert.Model.aggB2 (F := Ideal) x0 x1 x2 x3 x4) (Cert.Model.biasRow5 (F := Ideal) x4))) :
    StableHlo.after (c50 (F := Ideal)) V (Proc.devRef .tc main_v295) = Cert.RefOps.rowNorm (F := Ideal) (Cert.RefOps.relu (F := Ideal) (Cert.RefOps.addRow (F := Ideal) (Cert.Model.aggB2 (F := Ideal) x0 x1 x2 x3 x4) (Cert.Model.biasRow5 (F := Ideal) x4))) := by
  after_results_simp
  simp only [toBuf_main_call14_v2, ofBuf_main_call14_v2, toBuf_main_v295, ofBuf_main_v295, toBuf_main_call14_v1, ofBuf_main_call14_v1, toBuf_main_call14_v0, ofBuf_main_call14_v0, toBuf_main_call14_cst, ofBuf_main_call14_cst, toBuf_main_v294, ofBuf_main_v294]
  rw [h_main_v294]
  rfl

/-! ### Piece 51: operations 397 … 405, up to `main_v302` -/

/-- The buffers piece 51 writes. -/
abbrev W51 : List (Ref sig .tc) := [main_cst_63, main_v296, main_v297, main_v298, main_v299, main_v300, main_cst_64, main_v301, main_v302]

/-- Every operation of piece 51 writes a buffer of that list. -/
theorem writes51 : (c51 (F := Ideal)).Forall fun op => op.writes ⊆ (W51.map (Proc.devRef (τ := τ) .tc)).toFinset :=
  ⟨sub_of_mem (y := main_cst_63) (by decide), sub_of_mem (y := main_v296) (by decide), sub_of_mem (y := main_v297) (by decide), sub_of_mem (y := main_v298) (by decide), sub_of_mem (y := main_v299) (by decide), sub_of_mem (y := main_v300) (by decide), sub_of_mem (y := main_cst_64) (by decide), sub_of_mem (y := main_v301) (by decide), sub_of_mem (y := main_v302) (by decide)⟩

/-- A buffer outside that list keeps its contents through piece 51. -/
theorem carry51 (V : Valuation τ sig (Elt Ideal)) (r : Ref sig .tc) (hr : r ∉ W51) :
    StableHlo.after (c51 (F := Ideal)) V (Proc.devRef .tc r) = V (Proc.devRef .tc r) :=
  after_of_writes_sub _ V writes51 hr

set_option maxRecDepth 400000 in
/-- After piece 51, `main_v302` holds its named function of the arguments, given what the piece's inputs hold. -/
theorem w51_main_v302 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v204 : V (Proc.devRef .tc main_v204) = Cert.Model.xOut1 (F := Ideal) x0 x1 x2 x3 x4)
    (h_main_v294 : V (Proc.devRef .tc main_v294) = Cert.RefOps.relu (F := Ideal) (Cert.RefOps.addRow (F := Ideal) (Cert.Model.aggB2 (F := Ideal) x0 x1 x2 x3 x4) (Cert.Model.biasRow5 (F := Ideal) x4)))
    (h_main_v295 : V (Proc.devRef .tc main_v295) = Cert.RefOps.rowNorm (F := Ideal) (Cert.RefOps.relu (F := Ideal) (Cert.RefOps.addRow (F := Ideal) (Cert.Model.aggB2 (F := Ideal) x0 x1 x2 x3 x4) (Cert.Model.biasRow5 (F := Ideal) x4)))) :
    StableHlo.after (c51 (F := Ideal)) V (Proc.devRef .tc main_v302) = Cert.Model.xOut2 (F := Ideal) x0 x1 x2 x3 x4 := by
  after_results_simp
  rw [h_main_v204, h_main_v294, h_main_v295]
  rfl

end Cert.RefRun

end
-- ==== Proof.RefRunPiece16.lean ====
/-
  Operations 406 … 410 of the reference program's line of host operations, in one piece: what each piece
  leaves in the buffers that later pieces read.

  A piece's written buffers (`main_v306`, `main_v307`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### Piece 52: operations 406 … 410, up to `main_v307` -/

/-- The buffers piece 52 writes. -/
abbrev W52 : List (Ref sig .tc) := [main_v303, main_v304, main_v305, main_v306, main_v307]

/-- Every operation of piece 52 writes a buffer of that list. -/
theorem writes52 : (c52 (F := Ideal)).Forall fun op => op.writes ⊆ (W52.map (Proc.devRef (τ := τ) .tc)).toFinset :=
  ⟨sub_of_mem (y := main_v303) (by decide), sub_of_mem (y := main_v304) (by decide), sub_of_mem (y := main_v305) (by decide), sub_of_mem (y := main_v306) (by decide), sub_of_mem (y := main_v307) (by decide)⟩

/-- A buffer outside that list keeps its contents through piece 52. -/
theorem carry52 (V : Valuation τ sig (Elt Ideal)) (r : Ref sig .tc) (hr : r ∉ W52) :
    StableHlo.after (c52 (F := Ideal)) V (Proc.devRef .tc r) = V (Proc.devRef .tc r) :=
  after_of_writes_sub _ V writes52 hr

set_option maxRecDepth 400000 in
/-- After piece 52, `main_v306` holds its named function of the arguments, given what the piece's inputs hold. -/
theorem w52_main_v306 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c52 (F := Ideal)) V (Proc.devRef .tc main_v306) = biasVec6 (F := Ideal) x4 := by
  after_results_simp
  rw [h_main_arg4]
  rfl

set_option maxRecDepth 400000 in
/-- After piece 52, `main_v307` holds its named function of the arguments, given what the piece's inputs hold. -/
theorem w52_main_v307 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v302 : V (Proc.devRef .tc main_v302) = Cert.Model.xOut2 (F := Ideal) x0 x1 x2 x3 x4) :
    StableHlo.after (c52 (F := Ideal)) V (Proc.devRef .tc main_v307) = Cert.Model.hOut2 (F := Ideal) x0 x1 x2 x3 x4 := by
  after_results_simp
  rw [h_main_arg3, h_main_v302]
  rfl

end Cert.RefRun

end
-- ==== Proof.RefRunPiece17.lean ====
/-
  Operations 411 … 458 of the reference program's line of host operations, in 6 pieces: what each piece
  leaves in the buffers that later pieces read.

  A piece's written buffers (`main_v310`, `main_v312`, `main_v313`, `main_v314`, `main_v330`, `main_v343`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_67 (v : (⟨S_, .f32⟩ : BufTy).Contents (Elt Ideal)) :
    (TRef.of (sig := sig) (T := ⟨S_, .f32⟩) main_cst_67).toBuf (Val := Elt Ideal) v = v := cast_eq _ v
theorem ofBuf_main_cst_67 (v : (⟨S_, .f32⟩ : BufTy).Contents (Elt Ideal)) :
    (TRef.of (sig := sig) (T := ⟨S_, .f32⟩) main_cst_67).ofBuf (Val := Elt Ideal) v = v := cast_eq _ v
theorem toBuf_main_call15_v0 (v : (⟨S_, .f32⟩ : BufTy).Contents (Elt Ideal)) :
    (TRef.of (sig := sig) (T := ⟨S_, .f32⟩) main_call15_v0).toBuf (Val := Elt Ideal) v = v := cast_eq _ v
theorem ofBuf_main_call15_v0 (v : (⟨S_, .f32⟩ : BufTy).Contents (Elt Ideal)) :
    (TRef.of (sig := sig) (T := ⟨S_, .f32⟩) main_call15_v0).ofBuf (Val := Elt Ideal) v = v := cast_eq _ v
theorem toBuf_main_call15_v1 (v : (⟨S100000, .f32⟩ : BufTy).Contents (Elt Ideal)) :
    (TRef.of (sig := sig) (T := ⟨S100000, .f32⟩) main_call15_v1).toBuf (Val := Elt Ideal) v = v := cast_eq _ v
theorem ofBuf_main_call15_v1 (v : (⟨S100000, .f32⟩ : BufTy).Contents (Elt Ideal)) :
    (TRef.of (sig := sig) (T := ⟨S100000, .f32⟩) main_call15_v1).ofBuf (Val := Elt Ideal) v = v := cast_eq _ v
theorem toBuf_main_v312 (v : (⟨S100000, .i1⟩ : BufTy).Contents (Elt Ideal)) :
    (TRef.of (sig := sig) (T := ⟨S100000, .i1⟩) main_v312).toBuf (Val := Elt Ideal) v = v := cast_eq _ v
theorem ofBuf_main_v312 (v : (⟨S100000, .i1⟩ : BufTy).Contents (Elt Ideal)) :
    (TRef.of (sig := sig) (T := ⟨S100000, .i1⟩) main_v312).ofBuf (Val := Elt Ideal) v = v := cast_eq _ v
theorem toBuf_main_v313 (v : (⟨S100000, .f32⟩ : BufTy).Contents (Elt Ideal)) :
    (TRef.of (sig := sig) (T := ⟨S100000, .f32⟩) main_v313).toBuf (Val := Elt Ideal) v = v := cast_eq _ v
theorem ofBuf_main_v313 (v : (⟨S100000, .f32⟩ : BufTy).Contents (Elt Ideal)) :
    (TRef.of (sig := sig) (T := ⟨S100000, .f32⟩) main_v313).ofBuf (Val := Elt Ideal) v = v := cast_eq _ v
theorem toBuf_main_v314 (v : (⟨S100000, .f32⟩ : BufTy).Contents (Elt Ideal)) :
    (TRef.of (sig := sig) (T := ⟨S100000, .f32⟩) main_v314).toBuf (Val := Elt Ideal) v = v := cast_eq _ v
theorem ofBuf_main_v314 (v : (⟨S100000, .f32⟩ : BufTy).Contents (Elt Ideal)) :
    (TRef.of (sig := sig) (T := ⟨S100000, .f32⟩) main_v314).ofBuf (Val := Elt Ideal) v = v := cast_eq _ v

/-! ### Piece 53: operations 411 … 414, up to `main_v310` -/

/-- The buffers piece 53 writes. -/
abbrev W53 : List (Ref sig .tc) := [main_cst_65, main_v308, main_v309, main_v310]

/-- Every operation of piece 53 writes a buffer of that list. -/
theorem writes53 : (c53 (F := Ideal)).Forall fun op => op.writes ⊆ (W53.map (Proc.devRef (τ := τ) .tc)).toFinset :=
  ⟨sub_of_mem (y := main_cst_65) (by decide), sub_of_mem (y := main_v308) (by decide), sub_of_mem (y := main_v309) (by decide), sub_of_mem (y := main_v310) (by decide)⟩

/-- A buffer outside that list keeps its contents through piece 53. -/
theorem carry53 (V : Valuation τ sig (Elt Ideal)) (r : Ref sig .tc) (hr : r ∉ W53) :
    StableHlo.after (c53 (F := Ideal)) V (Proc.devRef .tc r) = V (Proc.devRef .tc r) :=
  after_of_writes_sub _ V writes53 hr

set_option maxRecDepth 400000 in
/-- After piece 53, `main_v310` holds its named function of the arguments, given what the piece's inputs hold. -/
theorem w53_main_v310 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c53 (F := Ideal)) V (Proc.devRef .tc main_v310) = Cert.Model.deg (F := Ideal) x1 x2 := by
  after_results_simp
  rw [h_main_v6, h_main_v8]
  rfl

/-! ### Piece 54: operations 415 … 417, up to `main_v312` -/

/-- The buffers piece 54 writes. -/
abbrev W54 : List (Ref sig .tc) := [main_cst_66, main_v311, main_v312]

/-- Every operation of piece 54 writes a buffer of that list. -/
theorem writes54 : (c54 (F := Ideal)).Forall fun op => op.writes ⊆ (W54.map (Proc.devRef (τ := τ) .tc)).toFinset :=
  ⟨sub_of_mem (y := main_cst_66) (by decide), sub_of_mem (y := main_v311) (by decide), sub_of_mem (y := main_v312) (by decide)⟩

/-- A buffer outside that list keeps its contents through piece 54. -/
theorem carry54 (V : Valuation τ sig (Elt Ideal)) (r : Ref sig .tc) (hr : r ∉ W54) :
    StableHlo.after (c54 (F := Ideal)) V (Proc.devRef .tc r) = V (Proc.devRef .tc r) :=
  after_of_writes_sub _ V writes54 hr

set_option maxRecDepth 400000 in
/-- After piece 54, `main_v312` holds its named function of the arguments, given what the piece's inputs hold. -/
theorem w54_main_v312 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v310 : V (Proc.devRef .tc main_v310) = Cert.Model.deg (F := Ideal) x1 x2) :
    StableHlo.after (c54 (F := Ideal)) V (Proc.devRef .tc main_v312) = Cert.Model.degPos (F := Ideal) x1 x2 := by
  after_results_simp
  rw [h_main_v310]
  rfl

/-! ### Piece 55: operations 418 … 418, up to `main_v313` -/

/-- The buffers piece 55 writes. -/
abbrev W55 : List (Ref sig .tc) := [main_v313]

/-- Every operation of piece 55 writes a buffer of that list. -/
theorem writes55 : (c55 (F := Ideal)).Forall fun op => op.writes ⊆ (W55.map (Proc.devRef (τ := τ) .tc)).toFinset :=
  sub_of_mem (y := main_v313) (by decide)

/-- A buffer outside that list keeps its contents through piece 55. -/
theorem carry55 (V : Valuation τ sig (Elt Ideal)) (r : Ref sig .tc) (hr : r ∉ W55) :
    StableHlo.after (c55 (F := Ideal)) V (Proc.devRef .tc r) = V (Proc.devRef .tc r) :=
  after_of_writes_sub _ V writes55 hr

set_option maxRecDepth 400000 in
/-- After piece 55, `main_v313` holds its named function of the arguments, given what the piece's inputs hold. -/
theorem w55_main_v313 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v310 : V (Proc.devRef .tc main_v310) = Cert.Model.deg (F := Ideal) x1 x2) :
    StableHlo.after (c55 (F := Ideal)) V (Proc.devRef .tc main_v313) = Cert.Model.degRsqrt (F := Ideal) x1 x2 := by
  after_results_simp
  rw [h_main_v310]
  rfl

/-! ### Piece 56: operations 419 … 422, up to `main_v314` -/

/-- The buffers piece 56 writes. -/
abbrev W56 : List (Ref sig .tc) := [main_cst_67, main_call15_v0, main_call15_v1, main_v314]

/-- Every operation of piece 56 writes a buffer of that list. -/
theorem writes56 : (c56 (F := Ideal)).Forall fun op => op.writes ⊆ (W56.map (Proc.devRef (τ := τ) .tc)).toFinset :=
  ⟨sub_of_mem (y := main_cst_67) (by decide), sub_of_mem (y := main_call15_v0) (by decide), sub_of_mem (y := main_call15_v1) (by decide), sub_of_mem (y := main_v314) (by decide)⟩

/-- A buffer outside that list keeps its contents through piece 56. -/
theorem carry56 (V : Valuation τ sig (Elt Ideal)) (r : Ref sig .tc) (hr : r ∉ W56) :
    StableHlo.after (c56 (F := Ideal)) V (Proc.devRef .tc r) = V (Proc.devRef .tc r) :=
  after_of_writes_sub _ V writes56 hr

set_option maxRecDepth 400000 in
/-- After piece 56, `main_v314` holds its named function of the arguments, given what the piece's inputs hold. -/
theorem w56_main_v314 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v312 : V (Proc.devRef .tc main_v312) = Cert.Model.degPos (F := Ideal) x1 x2)
    (h_main_v313 : V (Proc.devRef .tc main_v313) = Cert.Model.degRsqrt (F := Ideal) x1 x2) :
    StableHlo.after (c56 (F := Ideal)) V (Proc.devRef .tc main_v314) = Cert.Model.dinv (F := Ideal) x1 x2 := by
  after_results_simp
  simp only [toBuf_main_v312, ofBuf_main_v312, toBuf_main_v313, ofBuf_main_v313, toBuf_main_call15_v1, ofBuf_main_call15_v1, toBuf_main_v314, ofBuf_main_v314, toBuf_main_call15_v0, ofBuf_main_call15_v0, toBuf_main_cst_67, ofBuf_main_cst_67]
  rw [h_main_v312, h_main_v313]
  rfl

/-! ### Piece 57: operations 423 … 442, up to `main_v330` -/

/-- The buffers piece 57 writes. -/
abbrev W57 : List (Ref sig .tc) := [main_c_68, main_v315, main_v316, main_c_69, main_v317, main_v318, main_v319, main_v320, main_v321, main_v322, main_c_70, main_v323, main_v324, main_c_71, main_v325, main_v326, main_v327, main_v328, main_v329, main_v330]

/-- Every operation of piece 57 writes a buffer of that list. -/
theorem writes57 : (c57 (F := Ideal)).Forall fun op => op.writes ⊆ (W57.map (Proc.devRef (τ := τ) .tc)).toFinset :=
  ⟨sub_of_mem (y := main_c_68) (by decide), sub_of_mem (y := main_v315) (by decide), sub_of_mem (y := main_v316) (by decide), sub_of_mem (y := main_c_69) (by decide), sub_of_mem (y := main_v317) (by decide), sub_of_mem (y := main_v318) (by decide), sub_of_mem (y := main_v319) (by decide), sub_of_mem (y := main_v320) (by decide), sub_of_mem (y := main_v321) (by decide), sub_of_mem (y := main_v322) (by decide), sub_of_mem (y := main_c_70) (by decide), sub_of_mem (y := main_v323) (by decide), sub_of_mem (y := main_v324) (by decide), sub_of_mem (y := main_c_71) (by decide), sub_of_mem (y := main_v325) (by decide), sub_of_mem (y := main_v326) (by decide), sub_of_mem (y := main_v327) (by decide), sub_of_mem (y := main_v328) (by decide), sub_of_mem (y := main_v329) (by decide), sub_of_mem (y := main_v330) (by decide)⟩

/-- A buffer outside that list keeps its contents through piece 57. -/
theorem carry57 (V : Valuation τ sig (Elt Ideal)) (r : Ref sig .tc) (hr : r ∉ W57) :
    StableHlo.after (c57 (F := Ideal)) V (Proc.devRef .tc r) = V (Proc.devRef .tc r) :=
  after_of_writes_sub _ V writes57 hr

set_option maxRecDepth 400000 in
/-- After piece 57, `main_v330` holds its named function of the arguments, given what the piece's inputs hold. -/
theorem w57_main_v330 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v314 : V (Proc.devRef .tc main_v314) = Cert.Model.dinv (F := Ideal) x1 x2)
    (h_main_v6 : V (Proc.devRef .tc main_v6) = Cert.Model.dst (F := Ideal) x1)
    (h_main_v8 : V (Proc.devRef .tc main_v8) = Cert.Model.wts (F := Ideal) x2) :
    StableHlo.after (c57 (F := Ideal)) V (Proc.devRef .tc main_v330) = Cert.Model.enorm (F := Ideal) x1 x2 := by
  after_results_simp
  rw [h_main_v3, h_main_v314, h_main_v6, h_main_v8]
  rfl

/-! ### Piece 58: operations 443 … 458, up to `main_v343` -/

/-- The buffers piece 58 writes. -/
abbrev W58 : List (Ref sig .tc) := [main_c_72, main_v331, main_v332, main_c_73, main_v333, main_v334, main_v335, main_v336, main_v337, main_v338, main_v339, main_v340, main_cst_74, main_v341, main_v342, main_v343]

/-- Every operation of piece 58 writes a buffer of that list. -/
theorem writes58 : (c58 (F := Ideal)).Forall fun op => op.writes ⊆ (W58.map (Proc.devRef (τ := τ) .tc)).toFinset :=
  ⟨sub_of_mem (y := main_c_72) (by decide), sub_of_mem (y := main_v331) (by decide), sub_of_mem (y := main_v332) (by decide), sub_of_mem (y := main_c_73) (by decide), sub_of_mem (y := main_v333) (by decide), sub_of_mem (y := main_v334) (by decide), sub_of_mem (y := main_v335) (by decide), sub_of_mem (y := main_v336) (by decide), sub_of_mem (y := main_v337) (by decide), sub_of_mem (y := main_v338) (by decide), sub_of_mem (y := main_v339) (by decide), sub_of_mem (y := main_v340) (by decide), sub_of_mem (y := main_cst_74) (by decide), sub_of_mem (y := main_v341) (by decide), sub_of_mem (y := main_v342) (by decide), sub_of_mem (y := main_v343) (by decide)⟩

/-- A buffer outside that list keeps its contents through piece 58. -/
theorem carry58 (V : Valuation τ sig (Elt Ideal)) (r : Ref sig .tc) (hr : r ∉ W58) :
    StableHlo.after (c58 (F := Ideal)) V (Proc.devRef .tc r) = V (Proc.devRef .tc r) :=
  after_of_writes_sub _ V writes58 hr

set_option maxRecDepth 400000 in
/-- After piece 58, `main_v343` holds its named function of the arguments, given what the piece's inputs hold. -/
theorem w58_main_v343 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v307 : V (Proc.devRef .tc main_v307) = Cert.Model.hOut2 (F := Ideal) x0 x1 x2 x3 x4)
    (h_main_v330 : V (Proc.devRef .tc main_v330) = Cert.Model.enorm (F := Ideal) x1 x2)
    (h_main_v6 : V (Proc.devRef .tc main_v6) = Cert.Model.dst (F := Ideal) x1) :
    StableHlo.after (c58 (F := Ideal)) V (Proc.devRef .tc main_v343) = Cert.Model.aggA3 (F := Ideal) x0 x1 x2 x3 x4 := by
  after_results_simp
  rw [h_main_v3, h_main_v307, h_main_v330, h_main_v6]
  rfl

end Cert.RefRun

end
-- ==== Proof.RefRunPiece18.lean ====
/-
  Operations 459 … 469 of the reference program's line of host operations, in one piece: what each piece
  leaves in the buffers that later pieces read.

  A piece's written buffers (`main_v351`, `main_v352`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call16_cst (v : (⟨S_, .f32⟩ : BufTy).Contents (Elt Ideal)) :
    (TRef.of (sig := sig) (T := ⟨S_, .f32⟩) main_call16_cst).toBuf (Val := Elt Ideal) v = v := cast_eq _ v
theorem ofBuf_main_call16_cst (v : (⟨S_, .f32⟩ : BufTy).Contents (Elt Ideal)) :
    (TRef.of (sig := sig) (T := ⟨S_, .f32⟩) main_call16_cst).ofBuf (Val := Elt Ideal) v = v := cast_eq _ v
theorem toBuf_main_call16_v0 (v : (⟨S100000x128, .f32⟩ : BufTy).Contents (Elt Ideal)) :
    (TRef.of (sig := sig) (T := ⟨S100000x128, .f32⟩) main_call16_v0).toBuf (Val := Elt Ideal) v = v := cast_eq _ v
theorem ofBuf_main_call16_v0 (v : (⟨S100000x128, .f32⟩ : BufTy).Contents (Elt Ideal)) :
    (TRef.of (sig := sig) (T := ⟨S100000x128, .f32⟩) main_call16_v0).ofBuf (Val := Elt Ideal) v = v := cast_eq _ v
theorem toBuf_main_v346 (v : (⟨S100000x128, .f32⟩ : BufTy).Contents (Elt Ideal)) :
    (TRef.of (sig := sig) (T := ⟨S100000x128, .f32⟩) main_v346).toBuf (Val := Elt Ideal) v = v := cast_eq _ v
theorem ofBuf_main_v346 (v : (⟨S100000x128, .f32⟩ : BufTy).Contents (Elt Ideal)) :
    (TRef.of (sig := sig) (T := ⟨S100000x128, .f32⟩) main_v346).ofBuf (Val := Elt Ideal) v = v := cast_eq _ v
theorem toBuf_main_v347 (v : (⟨S100000x128, .f32⟩ : BufTy).Contents (Elt Ideal)) :
    (TRef.of (sig := sig) (T := ⟨S100000x128, .f32⟩) main_v347).toBuf (Val := Elt Ideal) v = v := cast_eq _ v
theorem ofBuf_main_v347 (v : (⟨S100000x128, .f32⟩ : BufTy).Contents (Elt Ideal)) :
    (TRef.of (sig := sig) (T := ⟨S100000x128, .f32⟩) main_v347).ofBuf (Val := Elt Ideal) v = v := cast_eq _ v

/-! ### Piece 59: operations 459 … 469, up to `main_v352` -/

/-- The buffers piece 59 writes. -/
abbrev W59 : List (Ref sig .tc) := [main_v344, main_v345, main_v346, main_call16_cst, main_call16_v0, main_v347, main_v348, main_v349, main_v350, main_v351, main_v352]

/-- Every operation of piece 59 writes a buffer of that list. -/
theorem writes59 : (c59 (F := Ideal)).Forall fun op => op.writes ⊆ (W59.map (Proc.devRef (τ := τ) .tc)).toFinset :=
  ⟨sub_of_mem (y := main_v344) (by decide), sub_of_mem (y := main_v345) (by decide), sub_of_mem (y := main_v346) (by decide), sub_of_mem (y := main_call16_cst) (by decide), sub_of_mem (y := main_call16_v0) (by decide), sub_of_mem (y := main_v347) (by decide), sub_of_mem (y := main_v348) (by decide), sub_of_mem (y := main_v349) (by decide), sub_of_mem (y := main_v350) (by decide), sub_of_mem (y := main_v351) (by decide), sub_of_mem (y := main_v352) (by decide)⟩

/-- A buffer outside that list keeps its contents through piece 59. -/
theorem carry59 (V : Valuation τ sig (Elt Ideal)) (r : Ref sig .tc) (hr : r ∉ W59) :
    StableHlo.after (c59 (F := Ideal)) V (Proc.devRef .tc r) = V (Proc.devRef .tc r) :=
  after_of_writes_sub _ V writes59 hr

set_option maxRecDepth 400000 in
/-- After piece 59, `main_v351` holds its named function of the arguments, given what the piece's inputs hold. -/
theorem w59_main_v351 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg4 : V (Proc.devRef .tc main_arg4) = x4) :
    StableHlo.after (c59 (F := Ideal)) V (Proc.devRef .tc main_v351) = biasVec7 (F := Ideal) x4 := by
  after_results_simp
  rw [h_main_arg4]
  rfl

set_option maxRecDepth 400000 in
/-- After piece 59, `main_v352` holds its named function of the arguments, given what the piece's inputs hold. -/
theorem w59_main_v352 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg3 : V (Proc.devRef .tc main_arg3) = x3)
    (h_main_v306 : V (Proc.devRef .tc main_v306) = biasVec6 (F := Ideal) x4)
    (h_main_v343 : V (Proc.devRef .tc main_v343) = Cert.Model.aggA3 (F := Ideal) x0 x1 x2 x3 x4) :
    StableHlo.after (c59 (F := Ideal)) V (Proc.devRef .tc main_v352) = Cert.Model.hMid3 (F := Ideal) x0 x1 x2 x3 x4 := by
  after_results_simp
  simp only [toBuf_main_v346, ofBuf_main_v346, toBuf_main_call16_v0, ofBuf_main_call16_v0, toBuf_main_v347, ofBuf_main_v347, toBuf_main_call16_cst, ofBuf_main_call16_cst]
  rw [h_main_arg3, h_main_v306, h_main_v343]
  rfl

end Cert.RefRun

end
-- ==== Proof.RefRunPiece19.lean ====
/-
  Operations 470 … 517 of the reference program's line of host operations, in 6 pieces: what each piece
  leaves in the buffers that later pieces read.

  A piece's written buffers (`main_v355`, `main_v357`, `main_v358`, `main_v359`, `main_v375`, `main_v388`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_77 (v : (⟨S_, .f32⟩ : BufTy).Contents (Elt Ideal)) :
    (TRef.of (sig := sig) (T := ⟨S_, .f32⟩) main_cst_77).toBuf (Val := Elt Ideal) v = v := cast_eq _ v
theorem ofBuf_main_cst_77 (v : (⟨S_, .f32⟩ : BufTy).Contents (Elt Ideal)) :
    (TRef.of (sig := sig) (T := ⟨S_, .f32⟩) main_cst_77).ofBuf (Val := Elt Ideal) v = v := cast_eq _ v
theorem toBuf_main_call17_v0 (v : (⟨S_, .f32⟩ : BufTy).Contents (Elt Ideal)) :
    (TRef.of (sig := sig) (T := ⟨S_, .f32⟩) main_call17_v0).toBuf (Val := Elt Ideal) v = v := cast_eq _ v
theorem ofBuf_main_call17_v0 (v : (⟨S_, .f32⟩ : BufTy).Contents (Elt Ideal)) :
    (TRef.of (sig := sig) (T := ⟨S_, .f32⟩) main_call17_v0).ofBuf (Val := Elt Ideal) v = v := cast_eq _ v
theorem toBuf_main_call17_v1 (v : (⟨S100000, .f32⟩ : BufTy).Contents (Elt Ideal)) :
    (TRef.of (sig := sig) (T := ⟨S100000, .f32⟩) main_call17_v1).toBuf (Val := Elt Ideal) v = v := cast_eq _ v
theorem ofBuf_main_call17_v1 (v : (⟨S100000, .f32⟩ : BufTy).Contents (Elt Ideal)) :
    (TRef.of (sig := sig) (T := ⟨S100000, .f32⟩) main_call17_v1).ofBuf (Val := Elt Ideal) v = v := cast_eq _ v
theorem toBuf_main_v357 (v : (⟨S100000, .i1⟩ : BufTy).Contents (Elt Ideal)) :
    (TRef.of (sig := sig) (T := ⟨S100000, .i1⟩) main_v357).toBuf (Val := Elt Ideal) v = v := cast_eq _ v
theorem ofBuf_main_v357 (v : (⟨S100000, .i1⟩ : BufTy).Contents (Elt Ideal)) :
    (TRef.of (sig := sig) (T := ⟨S100000, .i1⟩) main_v357).ofBuf (Val := Elt Ideal) v = v := cast_eq _ v
theorem toBuf_main_v358 (v : (⟨S100000, .f32⟩ : BufTy).Contents (Elt Ideal)) :
    (TRef.of (sig := sig) (T := ⟨S100000, .f32⟩) main_v358).toBuf (Val := Elt Ideal) v = v := cast_eq _ v
theorem ofBuf_main_v358 (v : (⟨S100000, .f32⟩ : BufTy).Contents (Elt Ideal)) :
    (TRef.of (sig := sig) (T := ⟨S100000, .f32⟩) main_v358).ofBuf (Val := Elt Ideal) v = v := cast_eq _ v
theorem toBuf_main_v359 (v : (⟨S100000, .f32⟩ : BufTy).Contents (Elt Ideal)) :
    (TRef.of (sig := sig) (T := ⟨S100000, .f32⟩) main_v359).toBuf (Val := Elt Ideal) v = v := cast_eq _ v
theorem ofBuf_main_v359 (v : (⟨S100000, .f32⟩ : BufTy).Contents (Elt Ideal)) :
    (TRef.of (sig := sig) (T := ⟨S100000, .f32⟩) main_v359).ofBuf (Val := Elt Ideal) v = v := cast_eq _ v

/-! ### Piece 60: operations 470 … 473, up to `main_v355` -/

/-- The buffers piece 60 writes. -/
abbrev W60 : List (Ref sig .tc) := [main_cst_75, main_v353, main_v354, main_v355]

/-- Every operation of piece 60 writes a buffer of that list. -/
theorem writes60 : (c60 (F := Ideal)).Forall fun op => op.writes ⊆ (W60.map (Proc.devRef (τ := τ) .tc)).toFinset :=
  ⟨sub_of_mem (y := main_cst_75) (by decide), sub_of_mem (y := main_v353) (by decide), sub_of_mem (y := main_v354) (by decide), sub_of_mem (y := main_v355) (by decide)⟩

/-- A buffer outside that list keeps its contents through piece 60. -/
theorem carry60 (V : Valuation τ sig (Elt Ideal)) (r : Ref sig .tc) (hr : r ∉ W60) :
    StableHlo.after (c60 (F := Ideal)) V (Proc.devRef .tc r) = V (Proc.devRef .tc r) :=
  after_of_writes_sub _ V writes60 hr

set_option maxRecDepth 400000 in
/-- After piece 60, `main_v355` holds its named function of the arguments, given what the piece's inputs hold. -/
theorem w60_main_v355 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c60 (F := Ideal)) V (Proc.devRef .tc main_v355) = Cert.Model.deg (F := Ideal) x1 x2 := by
  after_results_simp
  rw [h_main_v6, h_main_v8]
  rfl

/-! ### Piece 61: operations 474 … 476, up to `main_v357` -/

/-- The buffers piece 61 writes. -/
abbrev W61 : List (Ref sig .tc) := [main_cst_76, main_v356, main_v357]

/-- Every operation of piece 61 writes a buffer of that list. -/
theorem writes61 : (c61 (F := Ideal)).Forall fun op => op.writes ⊆ (W61.map (Proc.devRef (τ := τ) .tc)).toFinset :=
  ⟨sub_of_mem (y := main_cst_76) (by decide), sub_of_mem (y := main_v356) (by decide), sub_of_mem (y := main_v357) (by decide)⟩

/-- A buffer outside that list keeps its contents through piece 61. -/
theorem carry61 (V : Valuation τ sig (Elt Ideal)) (r : Ref sig .tc) (hr : r ∉ W61) :
    StableHlo.after (c61 (F := Ideal)) V (Proc.devRef .tc r) = V (Proc.devRef .tc r) :=
  after_of_writes_sub _ V writes61 hr

set_option maxRecDepth 400000 in
/-- After piece 61, `main_v357` holds its named function of the arguments, given what the piece's inputs hold. -/
theorem w61_main_v357 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v355 : V (Proc.devRef .tc main_v355) = Cert.Model.deg (F := Ideal) x1 x2) :
    StableHlo.after (c61 (F := Ideal)) V (Proc.devRef .tc main_v357) = Cert.Model.degPos (F := Ideal) x1 x2 := by
  after_results_simp
  rw [h_main_v355]
  rfl

/-! ### Piece 62: operations 477 … 477, up to `main_v358` -/

/-- The buffers piece 62 writes. -/
abbrev W62 : List (Ref sig .tc) := [main_v358]

/-- Every operation of piece 62 writes a buffer of that list. -/
theorem writes62 : (c62 (F := Ideal)).Forall fun op => op.writes ⊆ (W62.map (Proc.devRef (τ := τ) .tc)).toFinset :=
  sub_of_mem (y := main_v358) (by decide)

/-- A buffer outside that list keeps its contents through piece 62. -/
theorem carry62 (V : Valuation τ sig (Elt Ideal)) (r : Ref sig .tc) (hr : r ∉ W62) :
    StableHlo.after (c62 (F := Ideal)) V (Proc.devRef .tc r) = V (Proc.devRef .tc r) :=
  after_of_writes_sub _ V writes62 hr

set_option maxRecDepth 400000 in
/-- After piece 62, `main_v358` holds its named function of the arguments, given what the piece's inputs hold. -/
theorem w62_main_v358 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v355 : V (Proc.devRef .tc main_v355) = Cert.Model.deg (F := Ideal) x1 x2) :
    StableHlo.after (c62 (F := Ideal)) V (Proc.devRef .tc main_v358) = Cert.Model.degRsqrt (F := Ideal) x1 x2 := by
  after_results_simp
  rw [h_main_v355]
  rfl

/-! ### Piece 63: operations 478 … 481, up to `main_v359` -/

/-- The buffers piece 63 writes. -/
abbrev W63 : List (Ref sig .tc) := [main_cst_77, main_call17_v0, main_call17_v1, main_v359]

/-- Every operation of piece 63 writes a buffer of that list. -/
theorem writes63 : (c63 (F := Ideal)).Forall fun op => op.writes ⊆ (W63.map (Proc.devRef (τ := τ) .tc)).toFinset :=
  ⟨sub_of_mem (y := main_cst_77) (by decide), sub_of_mem (y := main_call17_v0) (by decide), sub_of_mem (y := main_call17_v1) (by decide), sub_of_mem (y := main_v359) (by decide)⟩

/-- A buffer outside that list keeps its contents through piece 63. -/
theorem carry63 (V : Valuation τ sig (Elt Ideal)) (r : Ref sig .tc) (hr : r ∉ W63) :
    StableHlo.after (c63 (F := Ideal)) V (Proc.devRef .tc r) = V (Proc.devRef .tc r) :=
  after_of_writes_sub _ V writes63 hr

set_option maxRecDepth 400000 in
/-- After piece 63, `main_v359` holds its named function of the arguments, given what the piece's inputs hold. -/
theorem w63_main_v359 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v357 : V (Proc.devRef .tc main_v357) = Cert.Model.degPos (F := Ideal) x1 x2)
    (h_main_v358 : V (Proc.devRef .tc main_v358) = Cert.Model.degRsqrt (F := Ideal) x1 x2) :
    StableHlo.after (c63 (F := Ideal)) V (Proc.devRef .tc main_v359) = Cert.Model.dinv (F := Ideal) x1 x2 := by
  after_results_simp
  simp only [toBuf_main_v357, ofBuf_main_v357, toBuf_main_v358, ofBuf_main_v358, toBuf_main_call17_v1, ofBuf_main_call17_v1, toBuf_main_v359, ofBuf_main_v359, toBuf_main_call17_v0, ofBuf_main_call17_v0, toBuf_main_cst_77, ofBuf_main_cst_77]
  rw [h_main_v357, h_main_v358]
  rfl

/-! ### Piece 64: operations 482 … 501, up to `main_v375` -/

/-- The buffers piece 64 writes. -/
abbrev W64 : List (Ref sig .tc) := [main_c_78, main_v360, main_v361, main_c_79, main_v362, main_v363, main_v364, main_v365, main_v366, main_v367, main_c_80, main_v368, main_v369, main_c_81, main_v370, main_v371, main_v372, main_v373, main_v374, main_v375]

/-- Every operation of piece 64 writes a buffer of that list. -/
theorem writes64 : (c64 (F := Ideal)).Forall fun op => op.writes ⊆ (W64.map (Proc.devRef (τ := τ) .tc)).toFinset :=
  ⟨sub_of_mem (y := main_c_78) (by decide), sub_of_mem (y := main_v360) (by decide), sub_of_mem (y := main_v361) (by decide), sub_of_mem (y := main_c_79) (by decide), sub_of_mem (y := main_v362) (by decide), sub_of_mem (y := main_v363) (by decide), sub_of_mem (y := main_v364) (by decide), sub_of_mem (y := main_v365) (by decide), sub_of_mem (y := main_v366) (by decide), sub_of_mem (y := main_v367) (by decide), sub_of_mem (y := main_c_80) (by decide), sub_of_mem (y := main_v368) (by decide), sub_of_mem (y := main_v369) (by decide), sub_of_mem (y := main_c_81) (by decide), sub_of_mem (y := main_v370) (by decide), sub_of_mem (y := main_v371) (by decide), sub_of_mem (y := main_v372) (by decide), sub_of_mem (y := main_v373) (by decide), sub_of_mem (y := main_v374) (by decide), sub_of_mem (y := main_v375) (by decide)⟩

/-- A buffer outside that list keeps its contents through piece 64. -/
theorem carry64 (V : Valuation τ sig (Elt Ideal)) (r : Ref sig .tc) (hr : r ∉ W64) :
    StableHlo.after (c64 (F := Ideal)) V (Proc.devRef .tc r) = V (Proc.devRef .tc r) :=
  after_of_writes_sub _ V writes64 hr

set_option maxRecDepth 400000 in
/-- After piece 64, `main_v375` holds its named function of the arguments, given what the piece's inputs hold. -/
theorem w64_main_v375 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v359 : V (Proc.devRef .tc main_v359) = Cert.Model.dinv (F := Ideal) x1 x2)
    (h_main_v6 : V (Proc.devRef .tc main_v6) = Cert.Model.dst (F := Ideal) x1)
    (h_main_v8 : V (Proc.devRef .tc main_v8) = Cert.Model.wts (F := Ideal) x2) :
    StableHlo.after (c64 (F := Ideal)) V (Proc.devRef .tc main_v375) = Cert.Model.enorm (F := Ideal) x1 x2 := by
  after_results_simp
  rw [h_main_v3, h_main_v359, h_main_v6, h_main_v8]
  rfl

/-! ### Piece 65: operations 502 … 517, up to `main_v388` -/

/-- The buffers piece 65 writes. -/
abbrev W65 : List (Ref sig .tc) := [main_c_82, main_v376, main_v377, main_c_83, main_v378, main_v379, main_v380, main_v381, main_v382, main_v383, main_v384, main_v385, main_cst_84, main_v386, main_v387, main_v388]

/-- Every operation of piece 65 writes a buffer of that list. -/
theorem writes65 : (c65 (F := Ideal)).Forall fun op => op.writes ⊆ (W65.map (Proc.devRef (τ := τ) .tc)).toFinset :=
  ⟨sub_of_mem (y := main_c_82) (by decide), sub_of_mem (y := main_v376) (by decide), sub_of_mem (y := main_v377) (by decide), sub_of_mem (y := main_c_83) (by decide), sub_of_mem (y := main_v378) (by decide), sub_of_mem (y := main_v379) (by decide), sub_of_mem (y := main_v380) (by decide), sub_of_mem (y := main_v381) (by decide), sub_of_mem (y := main_v382) (by decide), sub_of_mem (y := main_v383) (by decide), sub_of_mem (y := main_v384) (by decide), sub_of_mem (y := main_v385) (by decide), sub_of_mem (y := main_cst_84) (by decide), sub_of_mem (y := main_v386) (by decide), sub_of_mem (y := main_v387) (by decide), sub_of_mem (y := main_v388) (by decide)⟩

/-- A buffer outside that list keeps its contents through piece 65. -/
theorem carry65 (V : Valuation τ sig (Elt Ideal)) (r : Ref sig .tc) (hr : r ∉ W65) :
    StableHlo.after (c65 (F := Ideal)) V (Proc.devRef .tc r) = V (Proc.devRef .tc r) :=
  after_of_writes_sub _ V writes65 hr

set_option maxRecDepth 400000 in
/-- After piece 65, `main_v388` holds its named function of the arguments, given what the piece's inputs hold. -/
theorem w65_main_v388 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v352 : V (Proc.devRef .tc main_v352) = Cert.Model.hMid3 (F := Ideal) x0 x1 x2 x3 x4)
    (h_main_v375 : V (Proc.devRef .tc main_v375) = Cert.Model.enorm (F := Ideal) x1 x2)
    (h_main_v6 : V (Proc.devRef .tc main_v6) = Cert.Model.dst (F := Ideal) x1) :
    StableHlo.after (c65 (F := Ideal)) V (Proc.devRef .tc main_v388) = Cert.Model.aggB3 (F := Ideal) x0 x1 x2 x3 x4 := by
  after_results_simp
  rw [h_main_v3, h_main_v352, h_main_v375, h_main_v6]
  rfl

end Cert.RefRun

end
-- ==== Proof.RefRunPiece20.lean ====
/-
  Operations 518 … 537 of the reference program's line of host operations, in 3 pieces: what each piece
  leaves in the buffers that later pieces read.

  A piece's written buffers (`main_v392`, `main_v393`, `main_v400`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_call18_cst (v : (⟨S_, .f32⟩ : BufTy).Contents (Elt Ideal)) :
    (TRef.of (sig := sig) (T := ⟨S_, .f32⟩) main_call18_cst).toBuf (Val := Elt Ideal) v = v := cast_eq _ v
theorem ofBuf_main_call18_cst (v : (⟨S_, .f32⟩ : BufTy).Contents (Elt Ideal)) :
    (TRef.of (sig := sig) (T := ⟨S_, .f32⟩) main_call18_cst).ofBuf (Val := Elt Ideal) v = v := cast_eq _ v
theorem toBuf_main_call18_v0 (v : (⟨S100000x128, .f32⟩ : BufTy).Contents (Elt Ideal)) :
    (TRef.of (sig := sig) (T := ⟨S100000x128, .f32⟩) main_call18_v0).toBuf (Val := Elt Ideal) v = v := cast_eq _ v
theorem ofBuf_main_call18_v0 (v : (⟨S100000x128, .f32⟩ : BufTy).Contents (Elt Ideal)) :
    (TRef.of (sig := sig) (T := ⟨S100000x128, .f32⟩) main_call18_v0).ofBuf (Val := Elt Ideal) v = v := cast_eq _ v
theorem toBuf_main_v391 (v : (⟨S100000x128, .f32⟩ : BufTy).Contents (Elt Ideal)) :
    (TRef.of (sig := sig) (T := ⟨S100000x128, .f32⟩) main_v391).toBuf (Val := Elt Ideal) v = v := cast_eq _ v
theorem ofBuf_main_v391 (v : (⟨S100000x128, .f32⟩ : BufTy).Contents (Elt Ideal)) :
    (TRef.of (sig := sig) (T := ⟨S100000x128, .f32⟩) main_v391).ofBuf (Val := Elt Ideal) v = v := cast_eq _ v
theorem toBuf_main_v392 (v : (⟨S100000x128, .f32⟩ : BufTy).Contents (Elt Ideal)) :
    (TRef.of (sig := sig) (T := ⟨S100000x128, .f32⟩) main_v392).toBuf (Val := Elt Ideal) v = v := cast_eq _ v
theorem ofBuf_main_v392 (v : (⟨S100000x128, .f32⟩ : BufTy).Contents (Elt Ideal)) :
    (TRef.of (sig := sig) (T := ⟨S100000x128, .f32⟩) main_v392).ofBuf (Val := Elt Ideal) v = v := cast_eq _ v
theorem toBuf_main_call19_v0 (v : (⟨S100000x128, .f32⟩ : BufTy).Contents (Elt Ideal)) :
    (TRef.of (sig := sig) (T := ⟨S100000x128, .f32⟩) main_call19_v0).toBuf (Val := Elt Ideal) v = v := cast_eq _ v
theorem ofBuf_main_call19_v0 (v : (⟨S100000x128, .f32⟩ : BufTy).Contents (Elt Ideal)) :
    (TRef.of (sig := sig) (T := ⟨S100000x128, .f32⟩) main_call19_v0).ofBuf (Val := Elt Ideal) v = v := cast_eq _ v
theorem toBuf_main_call19_cst (v : (⟨S_, .f32⟩ : BufTy).Contents (Elt Ideal)) :
    (TRef.of (sig := sig) (T := ⟨S_, .f32⟩) main_call19_cst).toBuf (Val := Elt Ideal) v = v := cast_eq _ v
theorem ofBuf_main_call19_cst (v : (⟨S_, .f32⟩ : BufTy).Contents (Elt Ideal)) :
    (TRef.of (sig := sig) (T := ⟨S_, .f32⟩) main_call19_cst).ofBuf (Val := Elt Ideal) v = v := cast_eq _ v
theorem toBuf_main_call19_v1 (v : (⟨S100000, .f32⟩ : BufTy).Contents (Elt Ideal)) :
    (TRef.of (sig := sig) (T := ⟨S100000, .f32⟩) main_call19_v1).toBuf (Val := Elt Ideal) v = v := cast_eq _ v
theorem ofBuf_main_call19_v1 (v : (⟨S100000, .f32⟩ : BufTy).Contents (Elt Ideal)) :
    (TRef.of (sig := sig) (T := ⟨S100000, .f32⟩) main_call19_v1).ofBuf (Val := Elt Ideal) v = v := cast_eq _ v
theorem toBuf_main_call19_v2 (v : (⟨S100000x1, .f32⟩ : BufTy).Contents (Elt Ideal)) :
    (TRef.of (sig := sig) (T := ⟨S100000x1, .f32⟩) main_call19_v2).toBuf (Val := Elt Ideal) v = v := cast_eq _ v
theorem ofBuf_main_call19_v2 (v : (⟨S100000x1, .f32⟩ : BufTy).Contents (Elt Ideal)) :
    (TRef.of (sig := sig) (T := ⟨S100000x1, .f32⟩) main_call19_v2).ofBuf (Val := Elt Ideal) v = v := cast_eq _ v
theorem toBuf_main_v393 (v : (⟨S100000x1, .f32⟩ : BufTy).Contents (Elt Ideal)) :
    (TRef.of (sig := sig) (T := ⟨S100000x1, .f32⟩) main_v393).toBuf (Val := Elt Ideal) v = v := cast_eq _ v
theorem ofBuf_main_v393 (v : (⟨S100000x1, .f32⟩ : BufTy).Contents (Elt Ideal)) :
    (TRef.of (sig := sig) (T := ⟨S100000x1, .f32⟩) main_v393).ofBuf (Val := Elt Ideal) v = v := cast_eq _ v

/-! ### Piece 66: operations 518 … 523, up to `main_v392` -/

/-- The buffers piece 66 writes. -/
abbrev W66 : List (Ref sig .tc) := [main_v389, main_v390, main_v391, main_call18_cst, main_call18_v0, main_v392]

/-- Every operation of piece 66 writes a buffer of that list. -/
theorem writes66 : (c66 (F := Ideal)).Forall fun op => op.writes ⊆ (W66.map (Proc.devRef (τ := τ) .tc)).toFinset :=
  ⟨sub_of_mem (y := main_v389) (by decide), sub_of_mem (y := main_v390) (by decide), sub_of_mem (y := main_v391) (by decide), sub_of_mem (y := main_call18_cst) (by decide), sub_of_mem (y := main_call18_v0) (by decide), sub_of_mem (y := main_v392) (by decide)⟩

/-- A buffer outside that list keeps its contents through piece 66. -/
theorem carry66 (V : Valuation τ sig (Elt Ideal)) (r : Ref sig .tc) (hr : r ∉ W66) :
    StableHlo.after (c66 (F := Ideal)) V (Proc.devRef .tc r) = V (Proc.devRef .tc r) :=
  after_of_writes_sub _ V writes66 hr

set_option maxRecDepth 400000 in
/-- After piece 66, `main_v392` holds its named function of the arguments, given what the piece's inputs hold. -/
theorem w66_main_v392 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v351 : V (Proc.devRef .tc main_v351) = biasVec7 (F := Ideal) x4)
    (h_main_v388 : V (Proc.devRef .tc main_v388) = Cert.Model.aggB3 (F := Ideal) x0 x1 x2 x3 x4) :
    StableHlo.after (c66 (F := Ideal)) V (Proc.devRef .tc main_v392) = Cert.RefOps.relu (F := Ideal) (Cert.RefOps.addRow (F := Ideal) (Cert.Model.aggB3 (F := Ideal) x0 x1 x2 x3 x4) (Cert.Model.biasRow7 (F := Ideal) x4)) := by
  after_results_simp
  simp only [toBuf_main_v391, ofBuf_main_v391, toBuf_main_call18_v0, ofBuf_main_call18_v0, toBuf_main_v392, ofBuf_main_v392, toBuf_main_call18_cst, ofBuf_main_call18_cst]
  rw [h_main_v351, h_main_v388]
  rfl

/-! ### Piece 67: operations 524 … 528, up to `main_v393` -/

/-- The buffers piece 67 writes. -/
abbrev W67 : List (Ref sig .tc) := [main_call19_v0, main_call19_cst, main_call19_v1, main_call19_v2, main_v393]

/-- Every operation of piece 67 writes a buffer of that list. -/
theorem writes67 : (c67 (F := Ideal)).Forall fun op => op.writes ⊆ (W67.map (Proc.devRef (τ := τ) .tc)).toFinset :=
  ⟨sub_of_mem (y := main_call19_v0) (by decide), sub_of_mem (y := main_call19_cst) (by decide), sub_of_mem (y := main_call19_v1) (by decide), sub_of_mem (y := main_call19_v2) (by decide), sub_of_mem (y := main_v393) (by decide)⟩

/-- A buffer outside that list keeps its contents through piece 67. -/
theorem carry67 (V : Valuation τ sig (Elt Ideal)) (r : Ref sig .tc) (hr : r ∉ W67) :
    StableHlo.after (c67 (F := Ideal)) V (Proc.devRef .tc r) = V (Proc.devRef .tc r) :=
  after_of_writes_sub _ V writes67 hr

set_option maxRecDepth 400000 in
/-- After piece 67, `main_v393` holds its named function of the arguments, given what the piece's inputs hold. -/
theorem w67_main_v393 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v392 : V (Proc.devRef .tc main_v392) = Cert.RefOps.relu (F := Ideal) (Cert.RefOps.addRow (F := Ideal) (Cert.Model.aggB3 (F := Ideal) x0 x1 x2 x3 x4) (Cert.Model.biasRow7 (F := Ideal) x4))) :
    StableHlo.after (c67 (F := Ideal)) V (Proc.devRef .tc main_v393) = Cert.RefOps.rowNorm (F := Ideal) (Cert.RefOps.relu (F := Ideal) (Cert.RefOps.addRow (F := Ideal) (Cert.Model.aggB3 (F := Ideal) x0 x1 x2 x3 x4) (Cert.Model.biasRow7 (F := Ideal) x4))) := by
  after_results_simp
  simp only [toBuf_main_call19_v2, ofBuf_main_call19_v2, toBuf_main_v393, ofBuf_main_v393, toBuf_main_call19_v1, ofBuf_main_call19_v1, toBuf_main_call19_v0, ofBuf_main_call19_v0, toBuf_main_call19_cst, ofBuf_main_call19_cst, toBuf_main_v392, ofBuf_main_v392]
  rw [h_main_v392]
  rfl

/-! ### Piece 68: operations 529 … 537, up to `main_v400` -/

/-- The buffers piece 68 writes. -/
abbrev W68 : List (Ref sig .tc) := [main_cst_85, main_v394, main_v395, main_v396, main_v397, main_v398, main_cst_86, main_v399, main_v400]

/-- Every operation of piece 68 writes a buffer of that list. -/
theorem writes68 : (c68 (F := Ideal)).Forall fun op => op.writes ⊆ (W68.map (Proc.devRef (τ := τ) .tc)).toFinset :=
  ⟨sub_of_mem (y := main_cst_85) (by decide), sub_of_mem (y := main_v394) (by decide), sub_of_mem (y := main_v395) (by decide), sub_of_mem (y := main_v396) (by decide), sub_of_mem (y := main_v397) (by decide), sub_of_mem (y := main_v398) (by decide), sub_of_mem (y := main_cst_86) (by decide), sub_of_mem (y := main_v399) (by decide), sub_of_mem (y := main_v400) (by decide)⟩

/-- A buffer outside that list keeps its contents through piece 68. -/
theorem carry68 (V : Valuation τ sig (Elt Ideal)) (r : Ref sig .tc) (hr : r ∉ W68) :
    StableHlo.after (c68 (F := Ideal)) V (Proc.devRef .tc r) = V (Proc.devRef .tc r) :=
  after_of_writes_sub _ V writes68 hr

set_option maxRecDepth 400000 in
/-- After piece 68, `main_v400` holds its named function of the arguments, given what the piece's inputs hold. -/
theorem w68_main_v400 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v302 : V (Proc.devRef .tc main_v302) = Cert.Model.xOut2 (F := Ideal) x0 x1 x2 x3 x4)
    (h_main_v392 : V (Proc.devRef .tc main_v392) = Cert.RefOps.relu (F := Ideal) (Cert.RefOps.addRow (F := Ideal) (Cert.Model.aggB3 (F := Ideal) x0 x1 x2 x3 x4) (Cert.Model.biasRow7 (F := Ideal) x4)))
    (h_main_v393 : V (Proc.devRef .tc main_v393) = Cert.RefOps.rowNorm (F := Ideal) (Cert.RefOps.relu (F := Ideal) (Cert.RefOps.addRow (F := Ideal) (Cert.Model.aggB3 (F := Ideal) x0 x1 x2 x3 x4) (Cert.Model.biasRow7 (F := Ideal) x4)))) :
    StableHlo.after (c68 (F := Ideal)) V (Proc.devRef .tc main_v400) = Cert.Model.xOut3 (F := Ideal) x0 x1 x2 x3 x4 := by
  after_results_simp
  rw [h_main_v302, h_main_v392, h_main_v393]
  rfl

end Cert.RefRun

end
-- ==== Proof.RefRunPiece21.lean ====
/-
  Operations 538 … 538 of the reference program's line of host operations, in one piece: what each piece
  leaves in the buffers that later pieces read.

  A piece's written buffers (`main_v401`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### Piece 69: operations 538 … 538, up to `main_v401` -/

/-- The buffers piece 69 writes. -/
abbrev W69 : List (Ref sig .tc) := [main_v401]

/-- Every operation of piece 69 writes a buffer of that list. -/
theorem writes69 : (c69 (F := Ideal)).Forall fun op => op.writes ⊆ (W69.map (Proc.devRef (τ := τ) .tc)).toFinset :=
  sub_of_mem (y := main_v401) (by decide)

/-- A buffer outside that list keeps its contents through piece 69. -/
theorem carry69 (V : Valuation τ sig (Elt Ideal)) (r : Ref sig .tc) (hr : r ∉ W69) :
    StableHlo.after (c69 (F := Ideal)) V (Proc.devRef .tc r) = V (Proc.devRef .tc r) :=
  after_of_writes_sub _ V writes69 hr

set_option maxRecDepth 400000 in
/-- After piece 69, `main_v401` holds its named function of the arguments, given what the piece's inputs hold. -/
theorem w69_main_v401 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg5 : V (Proc.devRef .tc main_arg5) = x5)
    (h_main_v400 : V (Proc.devRef .tc main_v400) = Cert.Model.xOut3 (F := Ideal) x0 x1 x2 x3 x4) :
    StableHlo.after (c69 (F := Ideal)) V (Proc.devRef .tc main_v401) = Cert.Model.hFinal (F := Ideal) x0 x1 x2 x3 x4 x5 := by
  after_results_simp
  rw [h_main_arg5, h_main_v400]
  rfl

end Cert.RefRun

end
-- ==== Proof.RefRunPiece22.lean ====
/-
  Operations 539 … 586 of the reference program's line of host operations, in 6 pieces: what each piece
  leaves in the buffers that later pieces read.

  A piece's written buffers (`main_v404`, `main_v406`, `main_v407`, `main_v408`, `main_v424`, `main_v437`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-! ### The transports of contents at the typed references of these operations are the identity -/

theorem toBuf_main_cst_89 (v : (⟨S_, .f32⟩ : BufTy).Contents (Elt Ideal)) :
    (TRef.of (sig := sig) (T := ⟨S_, .f32⟩) main_cst_89).toBuf (Val := Elt Ideal) v = v := cast_eq _ v
theorem ofBuf_main_cst_89 (v : (⟨S_, .f32⟩ : BufTy).Contents (Elt Ideal)) :
    (TRef.of (sig := sig) (T := ⟨S_, .f32⟩) main_cst_89).ofBuf (Val := Elt Ideal) v = v := cast_eq _ v
theorem toBuf_main_call20_v0 (v : (⟨S_, .f32⟩ : BufTy).Contents (Elt Ideal)) :
    (TRef.of (sig := sig) (T := ⟨S_, .f32⟩) main_call20_v0).toBuf (Val := Elt Ideal) v = v := cast_eq _ v
theorem ofBuf_main_call20_v0 (v : (⟨S_, .f32⟩ : BufTy).Contents (Elt Ideal)) :
    (TRef.of (sig := sig) (T := ⟨S_, .f32⟩) main_call20_v0).ofBuf (Val := Elt Ideal) v = v := cast_eq _ v
theorem toBuf_main_call20_v1 (v : (⟨S100000, .f32⟩ : BufTy).Contents (Elt Ideal)) :
    (TRef.of (sig := sig) (T := ⟨S100000, .f32⟩) main_call20_v1).toBuf (Val := Elt Ideal) v = v := cast_eq _ v
theorem ofBuf_main_call20_v1 (v : (⟨S100000, .f32⟩ : BufTy).Contents (Elt Ideal)) :
    (TRef.of (sig := sig) (T := ⟨S100000, .f32⟩) main_call20_v1).ofBuf (Val := Elt Ideal) v = v := cast_eq _ v
theorem toBuf_main_v406 (v : (⟨S100000, .i1⟩ : BufTy).Contents (Elt Ideal)) :
    (TRef.of (sig := sig) (T := ⟨S100000, .i1⟩) main_v406).toBuf (Val := Elt Ideal) v = v := cast_eq _ v
theorem ofBuf_main_v406 (v : (⟨S100000, .i1⟩ : BufTy).Contents (Elt Ideal)) :
    (TRef.of (sig := sig) (T := ⟨S100000, .i1⟩) main_v406).ofBuf (Val := Elt Ideal) v = v := cast_eq _ v
theorem toBuf_main_v407 (v : (⟨S100000, .f32⟩ : BufTy).Contents (Elt Ideal)) :
    (TRef.of (sig := sig) (T := ⟨S100000, .f32⟩) main_v407).toBuf (Val := Elt Ideal) v = v := cast_eq _ v
theorem ofBuf_main_v407 (v : (⟨S100000, .f32⟩ : BufTy).Contents (Elt Ideal)) :
    (TRef.of (sig := sig) (T := ⟨S100000, .f32⟩) main_v407).ofBuf (Val := Elt Ideal) v = v := cast_eq _ v
theorem toBuf_main_v408 (v : (⟨S100000, .f32⟩ : BufTy).Contents (Elt Ideal)) :
    (TRef.of (sig := sig) (T := ⟨S100000, .f32⟩) main_v408).toBuf (Val := Elt Ideal) v = v := cast_eq _ v
theorem ofBuf_main_v408 (v : (⟨S100000, .f32⟩ : BufTy).Contents (Elt Ideal)) :
    (TRef.of (sig := sig) (T := ⟨S100000, .f32⟩) main_v408).ofBuf (Val := Elt Ideal) v = v := cast_eq _ v

/-! ### Piece 70: operations 539 … 542, up to `main_v404` -/

/-- The buffers piece 70 writes. -/
abbrev W70 : List (Ref sig .tc) := [main_cst_87, main_v402, main_v403, main_v404]

/-- Every operation of piece 70 writes a buffer of that list. -/
theorem writes70 : (c70 (F := Ideal)).Forall fun op => op.writes ⊆ (W70.map (Proc.devRef (τ := τ) .tc)).toFinset :=
  ⟨sub_of_mem (y := main_cst_87) (by decide), sub_of_mem (y := main_v402) (by decide), sub_of_mem (y := main_v403) (by decide), sub_of_mem (y := main_v404) (by decide)⟩

/-- A buffer outside that list keeps its contents through piece 70. -/
theorem carry70 (V : Valuation τ sig (Elt Ideal)) (r : Ref sig .tc) (hr : r ∉ W70) :
    StableHlo.after (c70 (F := Ideal)) V (Proc.devRef .tc r) = V (Proc.devRef .tc r) :=
  after_of_writes_sub _ V writes70 hr

set_option maxRecDepth 400000 in
/-- After piece 70, `main_v404` holds its named function of the arguments, given what the piece's inputs hold. -/
theorem w70_main_v404 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v6 : V (Proc.devRef .tc main_v6) = Cert.Model.dst (F := Ideal) x1)
    (h_main_v8 : V (Proc.devRef .tc main_v8) = Cert.Model.wts (F := Ideal) x2) :
    StableHlo.after (c70 (F := Ideal)) V (Proc.devRef .tc main_v404) = Cert.Model.deg (F := Ideal) x1 x2 := by
  after_results_simp
  rw [h_main_v6, h_main_v8]
  rfl

/-! ### Piece 71: operations 543 … 545, up to `main_v406` -/

/-- The buffers piece 71 writes. -/
abbrev W71 : List (Ref sig .tc) := [main_cst_88, main_v405, main_v406]

/-- Every operation of piece 71 writes a buffer of that list. -/
theorem writes71 : (c71 (F := Ideal)).Forall fun op => op.writes ⊆ (W71.map (Proc.devRef (τ := τ) .tc)).toFinset :=
  ⟨sub_of_mem (y := main_cst_88) (by decide), sub_of_mem (y := main_v405) (by decide), sub_of_mem (y := main_v406) (by decide)⟩

/-- A buffer outside that list keeps its contents through piece 71. -/
theorem carry71 (V : Valuation τ sig (Elt Ideal)) (r : Ref sig .tc) (hr : r ∉ W71) :
    StableHlo.after (c71 (F := Ideal)) V (Proc.devRef .tc r) = V (Proc.devRef .tc r) :=
  after_of_writes_sub _ V writes71 hr

set_option maxRecDepth 400000 in
/-- After piece 71, `main_v406` holds its named function of the arguments, given what the piece's inputs hold. -/
theorem w71_main_v406 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v404 : V (Proc.devRef .tc main_v404) = Cert.Model.deg (F := Ideal) x1 x2) :
    StableHlo.after (c71 (F := Ideal)) V (Proc.devRef .tc main_v406) = Cert.Model.degPos (F := Ideal) x1 x2 := by
  after_results_simp
  rw [h_main_v404]
  rfl

/-! ### Piece 72: operations 546 … 546, up to `main_v407` -/

/-- The buffers piece 72 writes. -/
abbrev W72 : List (Ref sig .tc) := [main_v407]

/-- Every operation of piece 72 writes a buffer of that list. -/
theorem writes72 : (c72 (F := Ideal)).Forall fun op => op.writes ⊆ (W72.map (Proc.devRef (τ := τ) .tc)).toFinset :=
  sub_of_mem (y := main_v407) (by decide)

/-- A buffer outside that list keeps its contents through piece 72. -/
theorem carry72 (V : Valuation τ sig (Elt Ideal)) (r : Ref sig .tc) (hr : r ∉ W72) :
    StableHlo.after (c72 (F := Ideal)) V (Proc.devRef .tc r) = V (Proc.devRef .tc r) :=
  after_of_writes_sub _ V writes72 hr

set_option maxRecDepth 400000 in
/-- After piece 72, `main_v407` holds its named function of the arguments, given what the piece's inputs hold. -/
theorem w72_main_v407 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v404 : V (Proc.devRef .tc main_v404) = Cert.Model.deg (F := Ideal) x1 x2) :
    StableHlo.after (c72 (F := Ideal)) V (Proc.devRef .tc main_v407) = Cert.Model.degRsqrt (F := Ideal) x1 x2 := by
  after_results_simp
  rw [h_main_v404]
  rfl

/-! ### Piece 73: operations 547 … 550, up to `main_v408` -/

/-- The buffers piece 73 writes. -/
abbrev W73 : List (Ref sig .tc) := [main_cst_89, main_call20_v0, main_call20_v1, main_v408]

/-- Every operation of piece 73 writes a buffer of that list. -/
theorem writes73 : (c73 (F := Ideal)).Forall fun op => op.writes ⊆ (W73.map (Proc.devRef (τ := τ) .tc)).toFinset :=
  ⟨sub_of_mem (y := main_cst_89) (by decide), sub_of_mem (y := main_call20_v0) (by decide), sub_of_mem (y := main_call20_v1) (by decide), sub_of_mem (y := main_v408) (by decide)⟩

/-- A buffer outside that list keeps its contents through piece 73. -/
theorem carry73 (V : Valuation τ sig (Elt Ideal)) (r : Ref sig .tc) (hr : r ∉ W73) :
    StableHlo.after (c73 (F := Ideal)) V (Proc.devRef .tc r) = V (Proc.devRef .tc r) :=
  after_of_writes_sub _ V writes73 hr

set_option maxRecDepth 400000 in
/-- After piece 73, `main_v408` holds its named function of the arguments, given what the piece's inputs hold. -/
theorem w73_main_v408 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v406 : V (Proc.devRef .tc main_v406) = Cert.Model.degPos (F := Ideal) x1 x2)
    (h_main_v407 : V (Proc.devRef .tc main_v407) = Cert.Model.degRsqrt (F := Ideal) x1 x2) :
    StableHlo.after (c73 (F := Ideal)) V (Proc.devRef .tc main_v408) = Cert.Model.dinv (F := Ideal) x1 x2 := by
  after_results_simp
  simp only [toBuf_main_v406, ofBuf_main_v406, toBuf_main_v407, ofBuf_main_v407, toBuf_main_call20_v1, ofBuf_main_call20_v1, toBuf_main_v408, ofBuf_main_v408, toBuf_main_call20_v0, ofBuf_main_call20_v0, toBuf_main_cst_89, ofBuf_main_cst_89]
  rw [h_main_v406, h_main_v407]
  rfl

/-! ### Piece 74: operations 551 … 570, up to `main_v424` -/

/-- The buffers piece 74 writes. -/
abbrev W74 : List (Ref sig .tc) := [main_c_90, main_v409, main_v410, main_c_91, main_v411, main_v412, main_v413, main_v414, main_v415, main_v416, main_c_92, main_v417, main_v418, main_c_93, main_v419, main_v420, main_v421, main_v422, main_v423, main_v424]

/-- Every operation of piece 74 writes a buffer of that list. -/
theorem writes74 : (c74 (F := Ideal)).Forall fun op => op.writes ⊆ (W74.map (Proc.devRef (τ := τ) .tc)).toFinset :=
  ⟨sub_of_mem (y := main_c_90) (by decide), sub_of_mem (y := main_v409) (by decide), sub_of_mem (y := main_v410) (by decide), sub_of_mem (y := main_c_91) (by decide), sub_of_mem (y := main_v411) (by decide), sub_of_mem (y := main_v412) (by decide), sub_of_mem (y := main_v413) (by decide), sub_of_mem (y := main_v414) (by decide), sub_of_mem (y := main_v415) (by decide), sub_of_mem (y := main_v416) (by decide), sub_of_mem (y := main_c_92) (by decide), sub_of_mem (y := main_v417) (by decide), sub_of_mem (y := main_v418) (by decide), sub_of_mem (y := main_c_93) (by decide), sub_of_mem (y := main_v419) (by decide), sub_of_mem (y := main_v420) (by decide), sub_of_mem (y := main_v421) (by decide), sub_of_mem (y := main_v422) (by decide), sub_of_mem (y := main_v423) (by decide), sub_of_mem (y := main_v424) (by decide)⟩

/-- A buffer outside that list keeps its contents through piece 74. -/
theorem carry74 (V : Valuation τ sig (Elt Ideal)) (r : Ref sig .tc) (hr : r ∉ W74) :
    StableHlo.after (c74 (F := Ideal)) V (Proc.devRef .tc r) = V (Proc.devRef .tc r) :=
  after_of_writes_sub _ V writes74 hr

set_option maxRecDepth 400000 in
/-- After piece 74, `main_v424` holds its named function of the arguments, given what the piece's inputs hold. -/
theorem w74_main_v424 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v408 : V (Proc.devRef .tc main_v408) = Cert.Model.dinv (F := Ideal) x1 x2)
    (h_main_v6 : V (Proc.devRef .tc main_v6) = Cert.Model.dst (F := Ideal) x1)
    (h_main_v8 : V (Proc.devRef .tc main_v8) = Cert.Model.wts (F := Ideal) x2) :
    StableHlo.after (c74 (F := Ideal)) V (Proc.devRef .tc main_v424) = Cert.Model.enorm (F := Ideal) x1 x2 := by
  after_results_simp
  rw [h_main_v3, h_main_v408, h_main_v6, h_main_v8]
  rfl

/-! ### Piece 75: operations 571 … 586, up to `main_v437` -/

/-- The buffers piece 75 writes. -/
abbrev W75 : List (Ref sig .tc) := [main_c_94, main_v425, main_v426, main_c_95, main_v427, main_v428, main_v429, main_v430, main_v431, main_v432, main_v433, main_v434, main_cst_96, main_v435, main_v436, main_v437]

/-- Every operation of piece 75 writes a buffer of that list. -/
theorem writes75 : (c75 (F := Ideal)).Forall fun op => op.writes ⊆ (W75.map (Proc.devRef (τ := τ) .tc)).toFinset :=
  ⟨sub_of_mem (y := main_c_94) (by decide), sub_of_mem (y := main_v425) (by decide), sub_of_mem (y := main_v426) (by decide), sub_of_mem (y := main_c_95) (by decide), sub_of_mem (y := main_v427) (by decide), sub_of_mem (y := main_v428) (by decide), sub_of_mem (y := main_v429) (by decide), sub_of_mem (y := main_v430) (by decide), sub_of_mem (y := main_v431) (by decide), sub_of_mem (y := main_v432) (by decide), sub_of_mem (y := main_v433) (by decide), sub_of_mem (y := main_v434) (by decide), sub_of_mem (y := main_cst_96) (by decide), sub_of_mem (y := main_v435) (by decide), sub_of_mem (y := main_v436) (by decide), sub_of_mem (y := main_v437) (by decide)⟩

/-- A buffer outside that list keeps its contents through piece 75. -/
theorem carry75 (V : Valuation τ sig (Elt Ideal)) (r : Ref sig .tc) (hr : r ∉ W75) :
    StableHlo.after (c75 (F := Ideal)) V (Proc.devRef .tc r) = V (Proc.devRef .tc r) :=
  after_of_writes_sub _ V writes75 hr

set_option maxRecDepth 400000 in
/-- After piece 75, `main_v437` holds its named function of the arguments, given what the piece's inputs hold. -/
theorem w75_main_v437 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v3 : V (Proc.devRef .tc main_v3) = Cert.Model.src (F := Ideal) x1)
    (h_main_v401 : V (Proc.devRef .tc main_v401) = Cert.Model.hFinal (F := Ideal) x0 x1 x2 x3 x4 x5)
    (h_main_v424 : V (Proc.devRef .tc main_v424) = Cert.Model.enorm (F := Ideal) x1 x2)
    (h_main_v6 : V (Proc.devRef .tc main_v6) = Cert.Model.dst (F := Ideal) x1) :
    StableHlo.after (c75 (F := Ideal)) V (Proc.devRef .tc main_v437) = Cert.Model.aggFinal (F := Ideal) x0 x1 x2 x3 x4 x5 := by
  after_results_simp
  rw [h_main_v3, h_main_v401, h_main_v424, h_main_v6]
  rfl

end Cert.RefRun

end
-- ==== Proof.RefRunPiece23.lean ====
/-
  Operations 587 … 604 of the reference program's line of host operations, in 3 pieces: what each piece
  leaves in the buffers that later pieces read.

  A piece's written buffers (`main_v440`, `main_call21_v5`, `main_v441`) hold the piece's operations composed over what its input buffers
  hold, which is by definition a named quantity of the network; every buffer outside the piece's write list keeps its
  contents through the piece.
-/
import proofs.«147806_j25666724560908_2_alg».proof.Proof.RefRunOps
import proofs.«147806_j25666724560908_2_alg».proof.Proof.Model

noncomputable section

namespace Cert.RefRun

open Cert.ReferenceIdeal Cert.ReferenceIdeal.Gen Idealize.ShloMosaic Idealize.ShloMosaic.TcCoe Idealize.SL.Sem Idealize.ShloMosaic.StableHlo

/-- The class scores with their bias row added to every row. -/
def zFinal (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal)) : (⟨S100000x40, .f32⟩ : BufTy).Contents (Elt Ideal) :=
  addf (F := Ideal) (φ := .f32) (Cert.Model.aggFinal (F := Ideal) x0 x1 x2 x3 x4 x5)
    (broadcastInDim S100000x40 ![0, 1] bcast_S1x40_S100000x40_0_1 (Cert.Model.finalBiasRow (F := Ideal) x6))

/-! ### The transports of contents at the typed references of these operations are the identity -/

theorem toBuf_main_call21_cst (v : (⟨S_, .f32⟩ : BufTy).Contents (Elt Ideal)) :
    (TRef.of (sig := sig) (T := ⟨S_, .f32⟩) main_call21_cst).toBuf (Val := Elt Ideal) v = v := cast_eq _ v
theorem ofBuf_main_call21_cst (v : (⟨S_, .f32⟩ : BufTy).Contents (Elt Ideal)) :
    (TRef.of (sig := sig) (T := ⟨S_, .f32⟩) main_call21_cst).ofBuf (Val := Elt Ideal) v = v := cast_eq _ v
theorem toBuf_main_v440 (v : (⟨S100000x40, .f32⟩ : BufTy).Contents (Elt Ideal)) :
    (TRef.of (sig := sig) (T := ⟨S100000x40, .f32⟩) main_v440).toBuf (Val := Elt Ideal) v = v := cast_eq _ v
theorem ofBuf_main_v440 (v : (⟨S100000x40, .f32⟩ : BufTy).Contents (Elt Ideal)) :
    (TRef.of (sig := sig) (T := ⟨S100000x40, .f32⟩) main_v440).ofBuf (Val := Elt Ideal) v = v := cast_eq _ v
theorem toBuf_main_call21_v0 (v : (⟨S100000, .f32⟩ : BufTy).Contents (Elt Ideal)) :
    (TRef.of (sig := sig) (T := ⟨S100000, .f32⟩) main_call21_v0).toBuf (Val := Elt Ideal) v = v := cast_eq _ v
theorem ofBuf_main_call21_v0 (v : (⟨S100000, .f32⟩ : BufTy).Contents (Elt Ideal)) :
    (TRef.of (sig := sig) (T := ⟨S100000, .f32⟩) main_call21_v0).ofBuf (Val := Elt Ideal) v = v := cast_eq _ v
theorem toBuf_main_call21_cst_0 (v : (⟨S_, .f32⟩ : BufTy).Contents (Elt Ideal)) :
    (TRef.of (sig := sig) (T := ⟨S_, .f32⟩) main_call21_cst_0).toBuf (Val := Elt Ideal) v = v := cast_eq _ v
theorem ofBuf_main_call21_cst_0 (v : (⟨S_, .f32⟩ : BufTy).Contents (Elt Ideal)) :
    (TRef.of (sig := sig) (T := ⟨S_, .f32⟩) main_call21_cst_0).ofBuf (Val := Elt Ideal) v = v := cast_eq _ v
theorem toBuf_main_call21_v1 (v : (⟨S100000, .f32⟩ : BufTy).Contents (Elt Ideal)) :
    (TRef.of (sig := sig) (T := ⟨S100000, .f32⟩) main_call21_v1).toBuf (Val := Elt Ideal) v = v := cast_eq _ v
theorem ofBuf_main_call21_v1 (v : (⟨S100000, .f32⟩ : BufTy).Contents (Elt Ideal)) :
    (TRef.of (sig := sig) (T := ⟨S100000, .f32⟩) main_call21_v1).ofBuf (Val := Elt Ideal) v = v := cast_eq _ v
theorem toBuf_main_call21_v2 (v : (⟨S100000, .f32⟩ : BufTy).Contents (Elt Ideal)) :
    (TRef.of (sig := sig) (T := ⟨S100000, .f32⟩) main_call21_v2).toBuf (Val := Elt Ideal) v = v := cast_eq _ v
theorem ofBuf_main_call21_v2 (v : (⟨S100000, .f32⟩ : BufTy).Contents (Elt Ideal)) :
    (TRef.of (sig := sig) (T := ⟨S100000, .f32⟩) main_call21_v2).ofBuf (Val := Elt Ideal) v = v := cast_eq _ v
theorem toBuf_main_call21_v3 (v : (⟨S100000x1, .f32⟩ : BufTy).Contents (Elt Ideal)) :
    (TRef.of (sig := sig) (T := ⟨S100000x1, .f32⟩) main_call21_v3).toBuf (Val := Elt Ideal) v = v := cast_eq _ v
theorem ofBuf_main_call21_v3 (v : (⟨S100000x1, .f32⟩ : BufTy).Contents (Elt Ideal)) :
    (TRef.of (sig := sig) (T := ⟨S100000x1, .f32⟩) main_call21_v3).ofBuf (Val := Elt Ideal) v = v := cast_eq _ v
theorem toBuf_main_call21_v4 (v : (⟨S100000x40, .f32⟩ : BufTy).Contents (Elt Ideal)) :
    (TRef.of (sig := sig) (T := ⟨S100000x40, .f32⟩) main_call21_v4).toBuf (Val := Elt Ideal) v = v := cast_eq _ v
theorem ofBuf_main_call21_v4 (v : (⟨S100000x40, .f32⟩ : BufTy).Contents (Elt Ideal)) :
    (TRef.of (sig := sig) (T := ⟨S100000x40, .f32⟩) main_call21_v4).ofBuf (Val := Elt Ideal) v = v := cast_eq _ v
theorem toBuf_main_call21_v5 (v : (⟨S100000x40, .f32⟩ : BufTy).Contents (Elt Ideal)) :
    (TRef.of (sig := sig) (T := ⟨S100000x40, .f32⟩) main_call21_v5).toBuf (Val := Elt Ideal) v = v := cast_eq _ v
theorem ofBuf_main_call21_v5 (v : (⟨S100000x40, .f32⟩ : BufTy).Contents (Elt Ideal)) :
    (TRef.of (sig := sig) (T := ⟨S100000x40, .f32⟩) main_call21_v5).ofBuf (Val := Elt Ideal) v = v := cast_eq _ v
theorem toBuf_main_call21_v6 (v : (⟨S100000x40, .f32⟩ : BufTy).Contents (Elt Ideal)) :
    (TRef.of (sig := sig) (T := ⟨S100000x40, .f32⟩) main_call21_v6).toBuf (Val := Elt Ideal) v = v := cast_eq _ v
theorem ofBuf_main_call21_v6 (v : (⟨S100000x40, .f32⟩ : BufTy).Contents (Elt Ideal)) :
    (TRef.of (sig := sig) (T := ⟨S100000x40, .f32⟩) main_call21_v6).ofBuf (Val := Elt Ideal) v = v := cast_eq _ v
theorem toBuf_main_call21_cst_1 (v : (⟨S_, .f32⟩ : BufTy).Contents (Elt Ideal)) :
    (TRef.of (sig := sig) (T := ⟨S_, .f32⟩) main_call21_cst_1).toBuf (Val := Elt Ideal) v = v := cast_eq _ v
theorem ofBuf_main_call21_cst_1 (v : (⟨S_, .f32⟩ : BufTy).Contents (Elt Ideal)) :
    (TRef.of (sig := sig) (T := ⟨S_, .f32⟩) main_call21_cst_1).ofBuf (Val := Elt Ideal) v = v := cast_eq _ v
theorem toBuf_main_call21_v7 (v : (⟨S100000, .f32⟩ : BufTy).Contents (Elt Ideal)) :
    (TRef.of (sig := sig) (T := ⟨S100000, .f32⟩) main_call21_v7).toBuf (Val := Elt Ideal) v = v := cast_eq _ v
theorem ofBuf_main_call21_v7 (v : (⟨S100000, .f32⟩ : BufTy).Contents (Elt Ideal)) :
    (TRef.of (sig := sig) (T := ⟨S100000, .f32⟩) main_call21_v7).ofBuf (Val := Elt Ideal) v = v := cast_eq _ v
theorem toBuf_main_call21_v8 (v : (⟨S100000x1, .f32⟩ : BufTy).Contents (Elt Ideal)) :
    (TRef.of (sig := sig) (T := ⟨S100000x1, .f32⟩) main_call21_v8).toBuf (Val := Elt Ideal) v = v := cast_eq _ v
theorem ofBuf_main_call21_v8 (v : (⟨S100000x1, .f32⟩ : BufTy).Contents (Elt Ideal)) :
    (TRef.of (sig := sig) (T := ⟨S100000x1, .f32⟩) main_call21_v8).ofBuf (Val := Elt Ideal) v = v := cast_eq _ v
theorem toBuf_main_call21_v9 (v : (⟨S100000x1, .f32⟩ : BufTy).Contents (Elt Ideal)) :
    (TRef.of (sig := sig) (T := ⟨S100000x1, .f32⟩) main_call21_v9).toBuf (Val := Elt Ideal) v = v := cast_eq _ v
theorem ofBuf_main_call21_v9 (v : (⟨S100000x1, .f32⟩ : BufTy).Contents (Elt Ideal)) :
    (TRef.of (sig := sig) (T := ⟨S100000x1, .f32⟩) main_call21_v9).ofBuf (Val := Elt Ideal) v = v := cast_eq _ v
theorem toBuf_main_call21_v10 (v : (⟨S100000x40, .f32⟩ : BufTy).Contents (Elt Ideal)) :
    (TRef.of (sig := sig) (T := ⟨S100000x40, .f32⟩) main_call21_v10).toBuf (Val := Elt Ideal) v = v := cast_eq _ v
theorem ofBuf_main_call21_v10 (v : (⟨S100000x40, .f32⟩ : BufTy).Contents (Elt Ideal)) :
    (TRef.of (sig := sig) (T := ⟨S100000x40, .f32⟩) main_call21_v10).ofBuf (Val := Elt Ideal) v = v := cast_eq _ v
theorem toBuf_main_v441 (v : (⟨S100000x40, .f32⟩ : BufTy).Contents (Elt Ideal)) :
    (TRef.of (sig := sig) (T := ⟨S100000x40, .f32⟩) main_v441).toBuf (Val := Elt Ideal) v = v := cast_eq _ v
theorem ofBuf_main_v441 (v : (⟨S100000x40, .f32⟩ : BufTy).Contents (Elt Ideal)) :
    (TRef.of (sig := sig) (T := ⟨S100000x40, .f32⟩) main_v441).ofBuf (Val := Elt Ideal) v = v := cast_eq _ v

/-! ### Piece 76: operations 587 … 589, up to `main_v440` -/

/-- The buffers piece 76 writes. -/
abbrev W76 : List (Ref sig .tc) := [main_v438, main_v439, main_v440]

/-- Every operation of piece 76 writes a buffer of that list. -/
theorem writes76 : (c76 (F := Ideal)).Forall fun op => op.writes ⊆ (W76.map (Proc.devRef (τ := τ) .tc)).toFinset :=
  ⟨sub_of_mem (y := main_v438) (by decide), sub_of_mem (y := main_v439) (by decide), sub_of_mem (y := main_v440) (by decide)⟩

/-- A buffer outside that list keeps its contents through piece 76. -/
theorem carry76 (V : Valuation τ sig (Elt Ideal)) (r : Ref sig .tc) (hr : r ∉ W76) :
    StableHlo.after (c76 (F := Ideal)) V (Proc.devRef .tc r) = V (Proc.devRef .tc r) :=
  after_of_writes_sub _ V writes76 hr

set_option maxRecDepth 400000 in
/-- After piece 76, `main_v440` holds its named function of the arguments, given what the piece's inputs hold. -/
theorem w76_main_v440 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_arg6 : V (Proc.devRef .tc main_arg6) = x6)
    (h_main_v437 : V (Proc.devRef .tc main_v437) = Cert.Model.aggFinal (F := Ideal) x0 x1 x2 x3 x4 x5) :
    StableHlo.after (c76 (F := Ideal)) V (Proc.devRef .tc main_v440) = zFinal x0 x1 x2 x3 x4 x5 x6 := by
  after_results_simp
  rw [h_main_arg6, h_main_v437]
  rfl

/-! ### Piece 77: operations 590 … 597, up to `main_call21_v5` -/

/-- The buffers piece 77 writes. -/
abbrev W77 : List (Ref sig .tc) := [main_call21_cst, main_call21_v0, main_call21_cst_0, main_call21_v1, main_call21_v2, main_call21_v3, main_call21_v4, main_call21_v5]

/-- Every operation of piece 77 writes a buffer of that list. -/
theorem writes77 : (c77 (F := Ideal)).Forall fun op => op.writes ⊆ (W77.map (Proc.devRef (τ := τ) .tc)).toFinset :=
  ⟨sub_of_mem (y := main_call21_cst) (by decide), sub_of_mem (y := main_call21_v0) (by decide), sub_of_mem (y := main_call21_cst_0) (by decide), sub_of_mem (y := main_call21_v1) (by decide), sub_of_mem (y := main_call21_v2) (by decide), sub_of_mem (y := main_call21_v3) (by decide), sub_of_mem (y := main_call21_v4) (by decide), sub_of_mem (y := main_call21_v5) (by decide)⟩

/-- A buffer outside that list keeps its contents through piece 77. -/
theorem carry77 (V : Valuation τ sig (Elt Ideal)) (r : Ref sig .tc) (hr : r ∉ W77) :
    StableHlo.after (c77 (F := Ideal)) V (Proc.devRef .tc r) = V (Proc.devRef .tc r) :=
  after_of_writes_sub _ V writes77 hr

set_option maxRecDepth 400000 in
/-- After piece 77, `main_call21_v5` holds its named function of the arguments, given what the piece's inputs hold. -/
theorem w77_main_call21_v5 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_v440 : V (Proc.devRef .tc main_v440) = zFinal x0 x1 x2 x3 x4 x5 x6) :
    StableHlo.after (c77 (F := Ideal)) V (Proc.devRef .tc main_call21_v5) = Cert.RefOps.shifted (F := Ideal) (zFinal x0 x1 x2 x3 x4 x5 x6) := by
  after_results_simp
  simp only [toBuf_main_v440, ofBuf_main_v440, toBuf_main_call21_v4, ofBuf_main_call21_v4, toBuf_main_call21_v5, ofBuf_main_call21_v5, toBuf_main_call21_v3, ofBuf_main_call21_v3, toBuf_main_call21_v2, ofBuf_main_call21_v2, toBuf_main_call21_v1, ofBuf_main_call21_v1, toBuf_main_call21_v0, ofBuf_main_call21_v0, toBuf_main_call21_cst_0, ofBuf_main_call21_cst_0, toBuf_main_call21_cst, ofBuf_main_call21_cst]
  rw [h_main_v440]
  rfl

/-! ### Piece 78: operations 598 … 604, up to `main_v441` -/

/-- The buffers piece 78 writes. -/
abbrev W78 : List (Ref sig .tc) := [main_call21_v6, main_call21_cst_1, main_call21_v7, main_call21_v8, main_call21_v9, main_call21_v10, main_v441]

/-- Every operation of piece 78 writes a buffer of that list. -/
theorem writes78 : (c78 (F := Ideal)).Forall fun op => op.writes ⊆ (W78.map (Proc.devRef (τ := τ) .tc)).toFinset :=
  ⟨sub_of_mem (y := main_call21_v6) (by decide), sub_of_mem (y := main_call21_cst_1) (by decide), sub_of_mem (y := main_call21_v7) (by decide), sub_of_mem (y := main_call21_v8) (by decide), sub_of_mem (y := main_call21_v9) (by decide), sub_of_mem (y := main_call21_v10) (by decide), sub_of_mem (y := main_v441) (by decide)⟩

/-- A buffer outside that list keeps its contents through piece 78. -/
theorem carry78 (V : Valuation τ sig (Elt Ideal)) (r : Ref sig .tc) (hr : r ∉ W78) :
    StableHlo.after (c78 (F := Ideal)) V (Proc.devRef .tc r) = V (Proc.devRef .tc r) :=
  after_of_writes_sub _ V writes78 hr

set_option maxRecDepth 400000 in
/-- After piece 78, `main_v441` holds its named function of the arguments, given what the piece's inputs hold. -/
theorem w78_main_v441 (V : Valuation τ sig (Elt Ideal)) (x0 : (⟨S100000x128, .f32⟩ : BufTy).Contents (Elt Ideal)) (x1 : (⟨S2x640000, .i32⟩ : BufTy).Contents (Elt Ideal)) (x2 : (⟨S640000, .f32⟩ : BufTy).Contents (Elt Ideal)) (x3 : (⟨S8x128x128, .f32⟩ : BufTy).Contents (Elt Ideal)) (x4 : (⟨S8x128, .f32⟩ : BufTy).Contents (Elt Ideal)) (x5 : (⟨S128x40, .f32⟩ : BufTy).Contents (Elt Ideal)) (x6 : (⟨S40, .f32⟩ : BufTy).Contents (Elt Ideal))
    (h_main_call21_v5 : V (Proc.devRef .tc main_call21_v5) = Cert.RefOps.shifted (F := Ideal) (zFinal x0 x1 x2 x3 x4 x5 x6)) :
    StableHlo.after (c78 (F := Ideal)) V (Proc.devRef .tc main_v441) = Cert.Model.out (F := Ideal) x0 x1 x2 x3 x4 x5 x6 := by
  after_results_simp
  simp only [toBuf_main_call21_v5, ofBuf_main_call21_v5, toBuf_main_call21_v10, ofBuf_main_call21_v10, toBuf_main_v441, ofBuf_main_v441, toBuf_main_call21_v9, ofBuf_main_call21_v9, toBuf_main_call21_v8, ofBuf_main_call21_v8, toBuf_main_call21_v7, ofBuf_main_call21_v7, toBuf_main_call21_v6, ofBuf_main_call21_v6, toBuf_main_call21_cst_1, ofBuf_main_call21_cst_1]
  rw [h_main_call21_v5]
  rfl

end Cert.RefRun

end
-- ==== Proof.RefRunModel.lean ====
/-
  The reference program's run, read: its result is the network's function of the seven arguments, which end unchanged.

  The program is a line of host operations cut into 79 pieces.  The contents of the buffers at the boundaries between
  pieces are named one after the other from the launch contents; at every boundary each buffer that a later piece still
  reads holds a named function of the arguments (a buffer a piece does not write keeps its contents; a buffer it
  writes is the piece's operations composed over what the piece's inputs hold).  At the last boundary the result
  buffer holds the network's output and the arguments hold their launch contents.
-/
import proofs.«147806_j25666724560908_2_alg».proof.Proof.RefRunOps
import proofs.«147806_j25666724560908_2_alg».proof.Proof.Model
import proofs.«147806_j25666724560908_2_alg».proof.Proof.RefRunPiece00
import proofs.«147806_j25666724560908_2_alg».proof.Proof.RefRunPiece01
import proofs.«147806_j25666724560908_2_alg».proof.Proof.RefRunPiece02
import proofs.«147806_j25666724560908_2_alg».proof.Proof.RefRunPiece03
import proofs.«147806_j25666724560908_2_alg».proof.Proof.RefRunPiece04
import proofs.«147806_j25666724560908_2_alg».proof.Proof.RefRunPiece05
import proofs.«147806_j25666724560908_2_alg».proof.Proof.RefRunPiece06
import proofs.«147806_j25666724560908_2_alg».proof.Proof.RefRunPiece07
import proofs.«147806_j25666724560908_2_alg».proof.Proof.RefRunPiece08
import proofs.«147806_j25666724560908_2_alg».proof.Proof.RefRunPiece09
import proofs.«147806_j25666724560908_2_alg».proof.Proof.RefRunPiece10
import proofs.«147806_j25666724560908_2_alg».proof.Proof.RefRunPiece11
import proofs.«147806_j25666724560908_2_alg».proof.Proof.RefRunPiece12
import proofs.«147806_j25666724560908_2_alg».proof.Proof.RefRunPiece13
import proofs.«147806_j25666724560908_2_alg».proof.Proof.RefRunPiece14
import proofs.«147806_j25666724560908_2_alg».proof.Proof.RefRunPiece15
import proofs.«147806_j25666724560908_2_alg».proof.Proof.RefRunPiece16
import proofs.«147806_j25666724560908_2_alg».proof.Proof.RefRunPiece17
import proofs.«147806_j25666724560908_2_alg».proof.Proof.RefRunPiece18
import proofs.«147806_j25666724560908_2_alg».proof.Proof.RefRunPiece19
import proofs.«147806_j25666724560908_2_alg».proof.Proof.RefRunPiece20
import proofs.«147806_j25666724560908_2_alg».proof.Proof.RefRunPiece21
import proofs.«147806_j25666724560908_2_alg».proof.Proof.RefRunPiece22
import proofs.«147806_j25666724560908_2_alg».proof.Proof.RefRunPiece23

noncomputable section

namespace Cert.RefRun

open Cert.ReferenceIdeal Cert.ReferenceIdeal.Gen Idealize.ShloMosaic Idealize.ShloMosaic.TcCoe Idealize.SL.Sem Idealize.ShloMosaic.StableHlo

section Boundaries

variable (m : (ℓ : Loc nD τ sig) → Buf (Elt Ideal) ℓ) (c : Dev nD)

/-! ## The arguments' launch contents -/

/-- Argument 0 at launch. -/
abbrev A0 : (⟨S100000x128, .f32⟩ : BufTy).Contents (Elt Ideal) := m ((c.tc : Thread nD τ).loc main_arg0)
/-- Argument 1 at launch. -/
abbrev A1 : (⟨S2x640000, .i32⟩ : BufTy).Contents (Elt Ideal) := m ((c.tc : Thread nD τ).loc main_arg1)
/-- Argument 2 at launch. -/
abbrev A2 : (⟨S640000, .f32⟩ : BufTy).Contents (Elt Ideal) := m ((c.tc : Thread nD τ).loc main_arg2)
/-- Argument 3 at launch. -/
abbrev A3 : (⟨S8x128x128, .f32⟩ : BufTy).Contents (Elt Ideal) := m ((c.tc : Thread nD τ).loc main_arg3)
/-- Argument 4 at launch. -/
abbrev A4 : (⟨S8x128, .f32⟩ : BufTy).Contents (Elt Ideal) := m ((c.tc : Thread nD τ).loc main_arg4)
/-- Argument 5 at launch. -/
abbrev A5 : (⟨S128x40, .f32⟩ : BufTy).Contents (Elt Ideal) := m ((c.tc : Thread nD τ).loc main_arg5)
/-- Argument 6 at launch. -/
abbrev A6 : (⟨S40, .f32⟩ : BufTy).Contents (Elt Ideal) := m ((c.tc : Thread nD τ).loc main_arg6)

/-! ## The buffers' contents at the boundaries between pieces -/

/-- At launch. -/
def R0 : Valuation τ sig (Elt Ideal) := launchContents m c
/-- After piece 0. -/
def R1 : Valuation τ sig (Elt Ideal) := StableHlo.after (c0 (F := Ideal)) (R0 m c)
/-- After piece 1. -/
def R2 : Valuation τ sig (Elt Ideal) := StableHlo.after (c1 (F := Ideal)) (R1 m c)
/-- After piece 2. -/
def R3 : Valuation τ sig (Elt Ideal) := StableHlo.after (c2 (F := Ideal)) (R2 m c)
/-- After piece 3. -/
def R4 : Valuation τ sig (Elt Ideal) := StableHlo.after (c3 (F := Ideal)) (R3 m c)
/-- After piece 4. -/
def R5 : Valuation τ sig (Elt Ideal) := StableHlo.after (c4 (F := Ideal)) (R4 m c)
/-- After piece 5. -/
def R6 : Valuation τ sig (Elt Ideal) := StableHlo.after (c5 (F := Ideal)) (R5 m c)
/-- After piece 6. -/
def R7 : Valuation τ sig (Elt Ideal) := StableHlo.after (c6 (F := Ideal)) (R6 m c)
/-- After piece 7. -/
def R8 : Valuation τ sig (Elt Ideal) := StableHlo.after (c7 (F := Ideal)) (R7 m c)
/-- After piece 8. -/
def R9 : Valuation τ sig (Elt Ideal) := StableHlo.after (c8 (F := Ideal)) (R8 m c)
/-- After piece 9. -/
def R10 : Valuation τ sig (Elt Ideal) := StableHlo.after (c9 (F := Ideal)) (R9 m c)
/-- After piece 10. -/
def R11 : Valuation τ sig (Elt Ideal) := StableHlo.after (c10 (F := Ideal)) (R10 m c)
/-- After piece 11. -/
def R12 : Valuation τ sig (Elt Ideal) := StableHlo.after (c11 (F := Ideal)) (R11 m c)
/-- After piece 12. -/
def R13 : Valuation τ sig (Elt Ideal) := StableHlo.after (c12 (F := Ideal)) (R12 m c)
/-- After piece 13. -/
def R14 : Valuation τ sig (Elt Ideal) := StableHlo.after (c13 (F := Ideal)) (R13 m c)
/-- After piece 14. -/
def R15 : Valuation τ sig (Elt Ideal) := StableHlo.after (c14 (F := Ideal)) (R14 m c)
/-- After piece 15. -/
def R16 : Valuation τ sig (Elt Ideal) := StableHlo.after (c15 (F := Ideal)) (R15 m c)
/-- After piece 16. -/
def R17 : Valuation τ sig (Elt Ideal) := StableHlo.after (c16 (F := Ideal)) (R16 m c)
/-- After piece 17. -/
def R18 : Valuation τ sig (Elt Ideal) := StableHlo.after (c17 (F := Ideal)) (R17 m c)
/-- After piece 18. -/
def R19 : Valuation τ sig (Elt Ideal) := StableHlo.after (c18 (F := Ideal)) (R18 m c)
/-- After piece 19. -/
def R20 : Valuation τ sig (Elt Ideal) := StableHlo.after (c19 (F := Ideal)) (R19 m c)
/-- After piece 20. -/
def R21 : Valuation τ sig (Elt Ideal) := StableHlo.after (c20 (F := Ideal)) (R20 m c)
/-- After piece 21. -/
def R22 : Valuation τ sig (Elt Ideal) := StableHlo.after (c21 (F := Ideal)) (R21 m c)
/-- After piece 22. -/
def R23 : Valuation τ sig (Elt Ideal) := StableHlo.after (c22 (F := Ideal)) (R22 m c)
/-- After piece 23. -/
def R24 : Valuation τ sig (Elt Ideal) := StableHlo.after (c23 (F := Ideal)) (R23 m c)
/-- After piece 24. -/
def R25 : Valuation τ sig (Elt Ideal) := StableHlo.after (c24 (F := Ideal)) (R24 m c)
/-- After piece 25. -/
def R26 : Valuation τ sig (Elt Ideal) := StableHlo.after (c25 (F := Ideal)) (R25 m c)
/-- After piece 26. -/
def R27 : Valuation τ sig (Elt Ideal) := StableHlo.after (c26 (F := Ideal)) (R26 m c)
/-- After piece 27. -/
def R28 : Valuation τ sig (Elt Ideal) := StableHlo.after (c27 (F := Ideal)) (R27 m c)
/-- After piece 28. -/
def R29 : Valuation τ sig (Elt Ideal) := StableHlo.after (c28 (F := Ideal)) (R28 m c)
/-- After piece 29. -/
def R30 : Valuation τ sig (Elt Ideal) := StableHlo.after (c29 (F := Ideal)) (R29 m c)
/-- After piece 30. -/
def R31 : Valuation τ sig (Elt Ideal) := StableHlo.after (c30 (F := Ideal)) (R30 m c)
/-- After piece 31. -/
def R32 : Valuation τ sig (Elt Ideal) := StableHlo.after (c31 (F := Ideal)) (R31 m c)
/-- After piece 32. -/
def R33 : Valuation τ sig (Elt Ideal) := StableHlo.after (c32 (F := Ideal)) (R32 m c)
/-- After piece 33. -/
def R34 : Valuation τ sig (Elt Ideal) := StableHlo.after (c33 (F := Ideal)) (R33 m c)
/-- After piece 34. -/
def R35 : Valuation τ sig (Elt Ideal) := StableHlo.after (c34 (F := Ideal)) (R34 m c)
/-- After piece 35. -/
def R36 : Valuation τ sig (Elt Ideal) := StableHlo.after (c35 (F := Ideal)) (R35 m c)
/-- After piece 36. -/
def R37 : Valuation τ sig (Elt Ideal) := StableHlo.after (c36 (F := Ideal)) (R36 m c)
/-- After piece 37. -/
def R38 : Valuation τ sig (Elt Ideal) := StableHlo.after (c37 (F := Ideal)) (R37 m c)
/-- After piece 38. -/
def R39 : Valuation τ sig (Elt Ideal) := StableHlo.after (c38 (F := Ideal)) (R38 m c)
/-- After piece 39. -/
def R40 : Valuation τ sig (Elt Ideal) := StableHlo.after (c39 (F := Ideal)) (R39 m c)
/-- After piece 40. -/
def R41 : Valuation τ sig (Elt Ideal) := StableHlo.after (c40 (F := Ideal)) (R40 m c)
/-- After piece 41. -/
def R42 : Valuation τ sig (Elt Ideal) := StableHlo.after (c41 (F := Ideal)) (R41 m c)
/-- After piece 42. -/
def R43 : Valuation τ sig (Elt Ideal) := StableHlo.after (c42 (F := Ideal)) (R42 m c)
/-- After piece 43. -/
def R44 : Valuation τ sig (Elt Ideal) := StableHlo.after (c43 (F := Ideal)) (R43 m c)
/-- After piece 44. -/
def R45 : Valuation τ sig (Elt Ideal) := StableHlo.after (c44 (F := Ideal)) (R44 m c)
/-- After piece 45. -/
def R46 : Valuation τ sig (Elt Ideal) := StableHlo.after (c45 (F := Ideal)) (R45 m c)
/-- After piece 46. -/
def R47 : Valuation τ sig (Elt Ideal) := StableHlo.after (c46 (F := Ideal)) (R46 m c)
/-- After piece 47. -/
def R48 : Valuation τ sig (Elt Ideal) := StableHlo.after (c47 (F := Ideal)) (R47 m c)
/-- After piece 48. -/
def R49 : Valuation τ sig (Elt Ideal) := StableHlo.after (c48 (F := Ideal)) (R48 m c)
/-- After piece 49. -/
def R50 : Valuation τ sig (Elt Ideal) := StableHlo.after (c49 (F := Ideal)) (R49 m c)
/-- After piece 50. -/
def R51 : Valuation τ sig (Elt Ideal) := StableHlo.after (c50 (F := Ideal)) (R50 m c)
/-- After piece 51. -/
def R52 : Valuation τ sig (Elt Ideal) := StableHlo.after (c51 (F := Ideal)) (R51 m c)
/-- After piece 52. -/
def R53 : Valuation τ sig (Elt Ideal) := StableHlo.after (c52 (F := Ideal)) (R52 m c)
/-- After piece 53. -/
def R54 : Valuation τ sig (Elt Ideal) := StableHlo.after (c53 (F := Ideal)) (R53 m c)
/-- After piece 54. -/
def R55 : Valuation τ sig (Elt Ideal) := StableHlo.after (c54 (F := Ideal)) (R54 m c)
/-- After piece 55. -/
def R56 : Valuation τ sig (Elt Ideal) := StableHlo.after (c55 (F := Ideal)) (R55 m c)
/-- After piece 56. -/
def R57 : Valuation τ sig (Elt Ideal) := StableHlo.after (c56 (F := Ideal)) (R56 m c)
/-- After piece 57. -/
def R58 : Valuation τ sig (Elt Ideal) := StableHlo.after (c57 (F := Ideal)) (R57 m c)
/-- After piece 58. -/
def R59 : Valuation τ sig (Elt Ideal) := StableHlo.after (c58 (F := Ideal)) (R58 m c)
/-- After piece 59. -/
def R60 : Valuation τ sig (Elt Ideal) := StableHlo.after (c59 (F := Ideal)) (R59 m c)
/-- After piece 60. -/
def R61 : Valuation τ sig (Elt Ideal) := StableHlo.after (c60 (F := Ideal)) (R60 m c)
/-- After piece 61. -/
def R62 : Valuation τ sig (Elt Ideal) := StableHlo.after (c61 (F := Ideal)) (R61 m c)
/-- After piece 62. -/
def R63 : Valuation τ sig (Elt Ideal) := StableHlo.after (c62 (F := Ideal)) (R62 m c)
/-- After piece 63. -/
def R64 : Valuation τ sig (Elt Ideal) := StableHlo.after (c63 (F := Ideal)) (R63 m c)
/-- After piece 64. -/
def R65 : Valuation τ sig (Elt Ideal) := StableHlo.after (c64 (F := Ideal)) (R64 m c)
/-- After piece 65. -/
def R66 : Valuation τ sig (Elt Ideal) := StableHlo.after (c65 (F := Ideal)) (R65 m c)
/-- After piece 66. -/
def R67 : Valuation τ sig (Elt Ideal) := StableHlo.after (c66 (F := Ideal)) (R66 m c)
/-- After piece 67. -/
def R68 : Valuation τ sig (Elt Ideal) := StableHlo.after (c67 (F := Ideal)) (R67 m c)
/-- After piece 68. -/
def R69 : Valuation τ sig (Elt Ideal) := StableHlo.after (c68 (F := Ideal)) (R68 m c)
/-- After piece 69. -/
def R70 : Valuation τ sig (Elt Ideal) := StableHlo.after (c69 (F := Ideal)) (R69 m c)
/-- After piece 70. -/
def R71 : Valuation τ sig (Elt Ideal) := StableHlo.after (c70 (F := Ideal)) (R70 m c)
/-- After piece 71. -/
def R72 : Valuation τ sig (Elt Ideal) := StableHlo.after (c71 (F := Ideal)) (R71 m c)
/-- After piece 72. -/
def R73 : Valuation τ sig (Elt Ideal) := StableHlo.after (c72 (F := Ideal)) (R72 m c)
/-- After piece 73. -/
def R74 : Valuation τ sig (Elt Ideal) := StableHlo.after (c73 (F := Ideal)) (R73 m c)
/-- After piece 74. -/
def R75 : Valuation τ sig (Elt Ideal) := StableHlo.after (c74 (F := Ideal)) (R74 m c)
/-- After piece 75. -/
def R76 : Valuation τ sig (Elt Ideal) := StableHlo.after (c75 (F := Ideal)) (R75 m c)
/-- After piece 76. -/
def R77 : Valuation τ sig (Elt Ideal) := StableHlo.after (c76 (F := Ideal)) (R76 m c)
/-- After piece 77. -/
def R78 : Valuation τ sig (Elt Ideal) := StableHlo.after (c77 (F := Ideal)) (R77 m c)
/-- After piece 78. -/
def R79 : Valuation τ sig (Elt Ideal) := StableHlo.after (c78 (F := Ideal)) (R78 m c)

/-! ### Boundary 0 -/

theorem at0_main_arg0 : R0 m c (Proc.devRef .tc main_arg0) = (A0 m c) := rfl
theorem at0_main_arg1 : R0 m c (Proc.devRef .tc main_arg1) = (A1 m c) := rfl
theorem at0_main_arg2 : R0 m c (Proc.devRef .tc main_arg2) = (A2 m c) := rfl
theorem at0_main_arg3 : R0 m c (Proc.devRef .tc main_arg3) = (A3 m c) := rfl
theorem at0_main_arg4 : R0 m c (Proc.devRef .tc main_arg4) = (A4 m c) := rfl
theorem at0_main_arg5 : R0 m c (Proc.devRef .tc main_arg5) = (A5 m c) := rfl
theorem at0_main_arg6 : R0 m c (Proc.devRef .tc main_arg6) = (A6 m c) := rfl

/-! ### Boundary 1 -/

theorem at1_main_arg0 : R1 m c (Proc.devRef .tc main_arg0) = (A0 m c) :=
  (carry0 (R0 m c) main_arg0 (by decide)).trans (at0_main_arg0 m c)

theorem at1_main_arg1 : R1 m c (Proc.devRef .tc main_arg1) = (A1 m c) :=
  (carry0 (R0 m c) main_arg1 (by decide)).trans (at0_main_arg1 m c)

theorem at1_main_arg2 : R1 m c (Proc.devRef .tc main_arg2) = (A2 m c) :=
  (carry0 (R0 m c) main_arg2 (by decide)).trans (at0_main_arg2 m c)

theorem at1_main_arg3 : R1 m c (Proc.devRef .tc main_arg3) = (A3 m c) :=
  (carry0 (R0 m c) main_arg3 (by decide)).trans (at0_main_arg3 m c)

theorem at1_main_arg4 : R1 m c (Proc.devRef .tc main_arg4) = (A4 m c) :=
  (carry0 (R0 m c) main_arg4 (by decide)).trans (at0_main_arg4 m c)

theorem at1_main_arg5 : R1 m c (Proc.devRef .tc main_arg5) = (A5 m c) :=
  (carry0 (R0 m c) main_arg5 (by decide)).trans (at0_main_arg5 m c)

theorem at1_main_arg6 : R1 m c (Proc.devRef .tc main_arg6) = (A6 m c) :=
  (carry0 (R0 m c) main_arg6 (by decide)).trans (at0_main_arg6 m c)

theorem at1_main_v3 : R1 m c (Proc.devRef .tc main_v3) = Cert.Model.src (F := Ideal) (A1 m c) :=
  w0_main_v3 (R0 m c) (A0 m c) (A1 m c) (A2 m c) (A3 m c) (A4 m c) (A5 m c) (A6 m c) (at0_main_arg1 m c)

theorem at1_main_v6 : R1 m c (Proc.devRef .tc main_v6) = Cert.Model.dst (F := Ideal) (A1 m c) :=
  w0_main_v6 (R0 m c) (A0 m c) (A1 m c) (A2 m c) (A3 m c) (A4 m c) (A5 m c) (A6 m c) (at0_main_arg1 m c)

theorem at1_main_v8 : R1 m c (Proc.devRef .tc main_v8) = Cert.Model.wts (F := Ideal) (A2 m c) :=
  w0_main_v8 (R0 m c) (A0 m c) (A1 m c) (A2 m c) (A3 m c) (A4 m c) (A5 m c) (A6 m c) (at0_main_arg2 m c)

/-! ### Boundary 2 -/

theorem at2_main_arg0 : R2 m c (Proc.devRef .tc main_arg0) = (A0 m c) :=
  (carry1 (R1 m c) main_arg0 (by decide)).trans (at1_main_arg0 m c)

theorem at2_main_arg1 : R2 m c (Proc.devRef .tc main_arg1) = (A1 m c) :=
  (carry1 (R1 m c) main_arg1 (by decide)).trans (at1_main_arg1 m c)

theorem at2_main_arg2 : R2 m c (Proc.devRef .tc main_arg2) = (A2 m c) :=
  (carry1 (R1 m c) main_arg2 (by decide)).trans (at1_main_arg2 m c)

theorem at2_main_arg3 : R2 m c (Proc.devRef .tc main_arg3) = (A3 m c) :=
  (carry1 (R1 m c) main_arg3 (by decide)).trans (at1_main_arg3 m c)

theorem at2_main_arg4 : R2 m c (Proc.devRef .tc main_arg4) = (A4 m c) :=
  (carry1 (R1 m c) main_arg4 (by decide)).trans (at1_main_arg4 m c)

theorem at2_main_arg5 : R2 m c (Proc.devRef .tc main_arg5) = (A5 m c) :=
  (carry1 (R1 m c) main_arg5 (by decide)).trans (at1_main_arg5 m c)

theorem at2_main_arg6 : R2 m c (Proc.devRef .tc main_arg6) = (A6 m c) :=
  (carry1 (R1 m c) main_arg6 (by decide)).trans (at1_main_arg6 m c)

theorem at2_main_v12 : R2 m c (Proc.devRef .tc main_v12) = biasVec0 (F := Ideal) (A4 m c) :=
  w1_main_v12 (R1 m c) (A0 m c) (A1 m c) (A2 m c) (A3 m c) (A4 m c) (A5 m c) (A6 m c) (at1_main_arg4 m c)

theorem at2_main_v13 : R2 m c (Proc.devRef .tc main_v13) = Cert.Model.h0 (F := Ideal) (A0 m c) (A3 m c) :=
  w1_main_v13 (R1 m c) (A0 m c) (A1 m c) (A2 m c) (A3 m c) (A4 m c) (A5 m c) (A6 m c) (at1_main_arg0 m c) (at1_main_arg3 m c)

theorem at2_main_v3 : R2 m c (Proc.devRef .tc main_v3) = Cert.Model.src (F := Ideal) (A1 m c) :=
  (carry1 (R1 m c) main_v3 (by decide)).trans (at1_main_v3 m c)

theorem at2_main_v6 : R2 m c (Proc.devRef .tc main_v6) = Cert.Model.dst (F := Ideal) (A1 m c) :=
  (carry1 (R1 m c) main_v6 (by decide)).trans (at1_main_v6 m c)

theorem at2_main_v8 : R2 m c (Proc.devRef .tc main_v8) = Cert.Model.wts (F := Ideal) (A2 m c) :=
  (carry1 (R1 m c) main_v8 (by decide)).trans (at1_main_v8 m c)

/-! ### Boundary 3 -/

theorem at3_main_arg0 : R3 m c (Proc.devRef .tc main_arg0) = (A0 m c) :=
  (carry2 (R2 m c) main_arg0 (by decide)).trans (at2_main_arg0 m c)

theorem at3_main_arg1 : R3 m c (Proc.devRef .tc main_arg1) = (A1 m c) :=
  (carry2 (R2 m c) main_arg1 (by decide)).trans (at2_main_arg1 m c)

theorem at3_main_arg2 : R3 m c (Proc.devRef .tc main_arg2) = (A2 m c) :=
  (carry2 (R2 m c) main_arg2 (by decide)).trans (at2_main_arg2 m c)

theorem at3_main_arg3 : R3 m c (Proc.devRef .tc main_arg3) = (A3 m c) :=
  (carry2 (R2 m c) main_arg3 (by decide)).trans (at2_main_arg3 m c)

theorem at3_main_arg4 : R3 m c (Proc.devRef .tc main_arg4) = (A4 m c) :=
  (carry2 (R2 m c) main_arg4 (by decide)).trans (at2_main_arg4 m c)

theorem at3_main_arg5 : R3 m c (Proc.devRef .tc main_arg5) = (A5 m c) :=
  (carry2 (R2 m c) main_arg5 (by decide)).trans (at2_main_arg5 m c)

theorem at3_main_arg6 : R3 m c (Proc.devRef .tc main_arg6) = (A6 m c) :=
  (carry2 (R2 m c) main_arg6 (by decide)).trans (at2_main_arg6 m c)

theorem at3_main_v12 : R3 m c (Proc.devRef .tc main_v12) = biasVec0 (F := Ideal) (A4 m c) :=
  (carry2 (R2 m c) main_v12 (by decide)).trans (at2_main_v12 m c)

theorem at3_main_v13 : R3 m c (Proc.devRef .tc main_v13) = Cert.Model.h0 (F := Ideal) (A0 m c) (A3 m c) :=
  (carry2 (R2 m c) main_v13 (by decide)).trans (at2_main_v13 m c)

theorem at3_main_v16 : R3 m c (Proc.devRef .tc main_v16) = Cert.Model.deg (F := Ideal) (A1 m c) (A2 m c) :=
  w2_main_v16 (R2 m c) (A0 m c) (A1 m c) (A2 m c) (A3 m c) (A4 m c) (A5 m c) (A6 m c) (at2_main_v6 m c) (at2_main_v8 m c)

theorem at3_main_v3 : R3 m c (Proc.devRef .tc main_v3) = Cert.Model.src (F := Ideal) (A1 m c) :=
  (carry2 (R2 m c) main_v3 (by decide)).trans (at2_main_v3 m c)

theorem at3_main_v6 : R3 m c (Proc.devRef .tc main_v6) = Cert.Model.dst (F := Ideal) (A1 m c) :=
  (carry2 (R2 m c) main_v6 (by decide)).trans (at2_main_v6 m c)

theorem at3_main_v8 : R3 m c (Proc.devRef .tc main_v8) = Cert.Model.wts (F := Ideal) (A2 m c) :=
  (carry2 (R2 m c) main_v8 (by decide)).trans (at2_main_v8 m c)

/-! ### Boundary 4 -/

theorem at4_main_arg0 : R4 m c (Proc.devRef .tc main_arg0) = (A0 m c) :=
  (carry3 (R3 m c) main_arg0 (by decide)).trans (at3_main_arg0 m c)

theorem at4_main_arg1 : R4 m c (Proc.devRef .tc main_arg1) = (A1 m c) :=
  (carry3 (R3 m c) main_arg1 (by decide)).trans (at3_main_arg1 m c)

theorem at4_main_arg2 : R4 m c (Proc.devRef .tc main_arg2) = (A2 m c) :=
  (carry3 (R3 m c) main_arg2 (by decide)).trans (at3_main_arg2 m c)

theorem at4_main_arg3 : R4 m c (Proc.devRef .tc main_arg3) = (A3 m c) :=
  (carry3 (R3 m c) main_arg3 (by decide)).trans (at3_main_arg3 m c)

theorem at4_main_arg4 : R4 m c (Proc.devRef .tc main_arg4) = (A4 m c) :=
  (carry3 (R3 m c) main_arg4 (by decide)).trans (at3_main_arg4 m c)

theorem at4_main_arg5 : R4 m c (Proc.devRef .tc main_arg5) = (A5 m c) :=
  (carry3 (R3 m c) main_arg5 (by decide)).trans (at3_main_arg5 m c)

theorem at4_main_arg6 : R4 m c (Proc.devRef .tc main_arg6) = (A6 m c) :=
  (carry3 (R3 m c) main_arg6 (by decide)).trans (at3_main_arg6 m c)

theorem at4_main_v12 : R4 m c (Proc.devRef .tc main_v12) = biasVec0 (F := Ideal) (A4 m c) :=
  (carry3 (R3 m c) main_v12 (by decide)).trans (at3_main_v12 m c)

theorem at4_main_v13 : R4 m c (Proc.devRef .tc main_v13) = Cert.Model.h0 (F := Ideal) (A0 m c) (A3 m c) :=
  (carry3 (R3 m c) main_v13 (by decide)).trans (at3_main_v13 m c)

theorem at4_main_v16 : R4 m c (Proc.devRef .tc main_v16) = Cert.Model.deg (F := Ideal) (A1 m c) (A2 m c) :=
  (carry3 (R3 m c) main_v16 (by decide)).trans (at3_main_v16 m c)

theorem at4_main_v18 : R4 m c (Proc.devRef .tc main_v18) = Cert.Model.degPos (F := Ideal) (A1 m c) (A2 m c) :=
  w3_main_v18 (R3 m c) (A0 m c) (A1 m c) (A2 m c) (A3 m c) (A4 m c) (A5 m c) (A6 m c) (at3_main_v16 m c)

theorem at4_main_v3 : R4 m c (Proc.devRef .tc main_v3) = Cert.Model.src (F := Ideal) (A1 m c) :=
  (carry3 (R3 m c) main_v3 (by decide)).trans (at3_main_v3 m c)

theorem at4_main_v6 : R4 m c (Proc.devRef .tc main_v6) = Cert.Model.dst (F := Ideal) (A1 m c) :=
  (carry3 (R3 m c) main_v6 (by decide)).trans (at3_main_v6 m c)

theorem at4_main_v8 : R4 m c (Proc.devRef .tc main_v8) = Cert.Model.wts (F := Ideal) (A2 m c) :=
  (carry3 (R3 m c) main_v8 (by decide)).trans (at3_main_v8 m c)

/-! ### Boundary 5 -/

theorem at5_main_arg0 : R5 m c (Proc.devRef .tc main_arg0) = (A0 m c) :=
  (carry4 (R4 m c) main_arg0 (by decide)).trans (at4_main_arg0 m c)

theorem at5_main_arg1 : R5 m c (Proc.devRef .tc main_arg1) = (A1 m c) :=
  (carry4 (R4 m c) main_arg1 (by decide)).trans (at4_main_arg1 m c)

theorem at5_main_arg2 : R5 m c (Proc.devRef .tc main_arg2) = (A2 m c) :=
  (carry4 (R4 m c) main_arg2 (by decide)).trans (at4_main_arg2 m c)

theorem at5_main_arg3 : R5 m c (Proc.devRef .tc main_arg3) = (A3 m c) :=
  (carry4 (R4 m c) main_arg3 (by decide)).trans (at4_main_arg3 m c)

theorem at5_main_arg4 : R5 m c (Proc.devRef .tc main_arg4) = (A4 m c) :=
  (carry4 (R4 m c) main_arg4 (by decide)).trans (at4_main_arg4 m c)

theorem at5_main_arg5 : R5 m c (Proc.devRef .tc main_arg5) = (A5 m c) :=
  (carry4 (R4 m c) main_arg5 (by decide)).trans (at4_main_arg5 m c)

theorem at5_main_arg6 : R5 m c (Proc.devRef .tc main_arg6) = (A6 m c) :=
  (carry4 (R4 m c) main_arg6 (by decide)).trans (at4_main_arg6 m c)

theorem at5_main_v12 : R5 m c (Proc.devRef .tc main_v12) = biasVec0 (F := Ideal) (A4 m c) :=
  (carry4 (R4 m c) main_v12 (by decide)).trans (at4_main_v12 m c)

theorem at5_main_v13 : R5 m c (Proc.devRef .tc main_v13) = Cert.Model.h0 (F := Ideal) (A0 m c) (A3 m c) :=
  (carry4 (R4 m c) main_v13 (by decide)).trans (at4_main_v13 m c)

theorem at5_main_v18 : R5 m c (Proc.devRef .tc main_v18) = Cert.Model.degPos (F := Ideal) (A1 m c) (A2 m c) :=
  (carry4 (R4 m c) main_v18 (by decide)).trans (at4_main_v18 m c)

theorem at5_main_v19 : R5 m c (Proc.devRef .tc main_v19) = Cert.Model.degRsqrt (F := Ideal) (A1 m c) (A2 m c) :=
  w4_main_v19 (R4 m c) (A0 m c) (A1 m c) (A2 m c) (A3 m c) (A4 m c) (A5 m c) (A6 m c) (at4_main_v16 m c)

theorem at5_main_v3 : R5 m c (Proc.devRef .tc main_v3) = Cert.Model.src (F := Ideal) (A1 m c) :=
  (carry4 (R4 m c) main_v3 (by decide)).trans (at4_main_v3 m c)

theorem at5_main_v6 : R5 m c (Proc.devRef .tc main_v6) = Cert.Model.dst (F := Ideal) (A1 m c) :=
  (carry4 (R4 m c) main_v6 (by decide)).trans (at4_main_v6 m c)

theorem at5_main_v8 : R5 m c (Proc.devRef .tc main_v8) = Cert.Model.wts (F := Ideal) (A2 m c) :=
  (carry4 (R4 m c) main_v8 (by decide)).trans (at4_main_v8 m c)

/-! ### Boundary 6 -/

theorem at6_main_arg0 : R6 m c (Proc.devRef .tc main_arg0) = (A0 m c) :=
  (carry5 (R5 m c) main_arg0 (by decide)).trans (at5_main_arg0 m c)

theorem at6_main_arg1 : R6 m c (Proc.devRef .tc main_arg1) = (A1 m c) :=
  (carry5 (R5 m c) main_arg1 (by decide)).trans (at5_main_arg1 m c)

theorem at6_main_arg2 : R6 m c (Proc.devRef .tc main_arg2) = (A2 m c) :=
  (carry5 (R5 m c) main_arg2 (by decide)).trans (at5_main_arg2 m c)

theorem at6_main_arg3 : R6 m c (Proc.devRef .tc main_arg3) = (A3 m c) :=
  (carry5 (R5 m c) main_arg3 (by decide)).trans (at5_main_arg3 m c)

theorem at6_main_arg4 : R6 m c (Proc.devRef .tc main_arg4) = (A4 m c) :=
  (carry5 (R5 m c) main_arg4 (by decide)).trans (at5_main_arg4 m c)

theorem at6_main_arg5 : R6 m c (Proc.devRef .tc main_arg5) = (A5 m c) :=
  (carry5 (R5 m c) main_arg5 (by decide)).trans (at5_main_arg5 m c)

theorem at6_main_arg6 : R6 m c (Proc.devRef .tc main_arg6) = (A6 m c) :=
  (carry5 (R5 m c) main_arg6 (by decide)).trans (at5_main_arg6 m c)

theorem at6_main_v12 : R6 m c (Proc.devRef .tc main_v12) = biasVec0 (F := Ideal) (A4 m c) :=
  (carry5 (R5 m c) main_v12 (by decide)).trans (at5_main_v12 m c)

theorem at6_main_v13 : R6 m c (Proc.devRef .tc main_v13) = Cert.Model.h0 (F := Ideal) (A0 m c) (A3 m c) :=
  (carry5 (R5 m c) main_v13 (by decide)).trans (at5_main_v13 m c)

theorem at6_main_v20 : R6 m c (Proc.devRef .tc main_v20) = Cert.Model.dinv (F := Ideal) (A1 m c) (A2 m c) :=
  w5_main_v20 (R5 m c) (A0 m c) (A1 m c) (A2 m c) (A3 m c) (A4 m c) (A5 m c) (A6 m c) (at5_main_v18 m c) (at5_main_v19 m c)

theorem at6_main_v3 : R6 m c (Proc.devRef .tc main_v3) = Cert.Model.src (F := Ideal) (A1 m c) :=
  (carry5 (R5 m c) main_v3 (by decide)).trans (at5_main_v3 m c)

theorem at6_main_v6 : R6 m c (Proc.devRef .tc main_v6) = Cert.Model.dst (F := Ideal) (A1 m c) :=
  (carry5 (R5 m c) main_v6 (by decide)).trans (at5_main_v6 m c)

theorem at6_main_v8 : R6 m c (Proc.devRef .tc main_v8) = Cert.Model.wts (F := Ideal) (A2 m c) :=
  (carry5 (R5 m c) main_v8 (by decide)).trans (at5_main_v8 m c)

/-! ### Boundary 7 -/

theorem at7_main_arg0 : R7 m c (Proc.devRef .tc main_arg0) = (A0 m c) :=
  (carry6 (R6 m c) main_arg0 (by decide)).trans (at6_main_arg0 m c)

theorem at7_main_arg1 : R7 m c (Proc.devRef .tc main_arg1) = (A1 m c) :=
  (carry6 (R6 m c) main_arg1 (by decide)).trans (at6_main_arg1 m c)

theorem at7_main_arg2 : R7 m c (Proc.devRef .tc main_arg2) = (A2 m c) :=
  (carry6 (R6 m c) main_arg2 (by decide)).trans (at6_main_arg2 m c)

theorem at7_main_arg3 : R7 m c (Proc.devRef .tc main_arg3) = (A3 m c) :=
  (carry6 (R6 m c) main_arg3 (by decide)).trans (at6_main_arg3 m c)

theorem at7_main_arg4 : R7 m c (Proc.devRef .tc main_arg4) = (A4 m c) :=
  (carry6 (R6 m c) main_arg4 (by decide)).trans (at6_main_arg4 m c)

theorem at7_main_arg5 : R7 m c (Proc.devRef .tc main_arg5) = (A5 m c) :=
  (carry6 (R6 m c) main_arg5 (by decide)).trans (at6_main_arg5 m c)

theorem at7_main_arg6 : R7 m c (Proc.devRef .tc main_arg6) = (A6 m c) :=
  (carry6 (R6 m c) main_arg6 (by decide)).trans (at6_main_arg6 m c)

theorem at7_main_v12 : R7 m c (Proc.devRef .tc main_v12) = biasVec0 (F := Ideal) (A4 m c) :=
  (carry6 (R6 m c) main_v12 (by decide)).trans (at6_main_v12 m c)

theorem at7_main_v13 : R7 m c (Proc.devRef .tc main_v13) = Cert.Model.h0 (F := Ideal) (A0 m c) (A3 m c) :=
  (carry6 (R6 m c) main_v13 (by decide)).trans (at6_main_v13 m c)

theorem at7_main_v3 : R7 m c (Proc.devRef .tc main_v3) = Cert.Model.src (F := Ideal) (A1 m c) :=
  (carry6 (R6 m c) main_v3 (by decide)).trans (at6_main_v3 m c)

theorem at7_main_v36 : R7 m c (Proc.devRef .tc main_v36) = Cert.Model.enorm (F := Ideal) (A1 m c) (A2 m c) :=
  w6_main_v36 (R6 m c) (A0 m c) (A1 m c) (A2 m c) (A3 m c) (A4 m c) (A5 m c) (A6 m c) (at6_main_v20 m c) (at6_main_v3 m c) (at6_main_v6 m c) (at6_main_v8 m c)

theorem at7_main_v6 : R7 m c (Proc.devRef .tc main_v6) = Cert.Model.dst (F := Ideal) (A1 m c) :=
  (carry6 (R6 m c) main_v6 (by decide)).trans (at6_main_v6 m c)

theorem at7_main_v8 : R7 m c (Proc.devRef .tc main_v8) = Cert.Model.wts (F := Ideal) (A2 m c) :=
  (carry6 (R6 m c) main_v8 (by decide)).trans (at6_main_v8 m c)

/-! ### Boundary 8 -/

theorem at8_main_arg0 : R8 m c (Proc.devRef .tc main_arg0) = (A0 m c) :=
  (carry7 (R7 m c) main_arg0 (by decide)).trans (at7_main_arg0 m c)

theorem at8_main_arg1 : R8 m c (Proc.devRef .tc main_arg1) = (A1 m c) :=
  (carry7 (R7 m c) main_arg1 (by decide)).trans (at7_main_arg1 m c)

theorem at8_main_arg2 : R8 m c (Proc.devRef .tc main_arg2) = (A2 m c) :=
  (carry7 (R7 m c) main_arg2 (by decide)).trans (at7_main_arg2 m c)

theorem at8_main_arg3 : R8 m c (Proc.devRef .tc main_arg3) = (A3 m c) :=
  (carry7 (R7 m c) main_arg3 (by decide)).trans (at7_main_arg3 m c)

theorem at8_main_arg4 : R8 m c (Proc.devRef .tc main_arg4) = (A4 m c) :=
  (carry7 (R7 m c) main_arg4 (by decide)).trans (at7_main_arg4 m c)

theorem at8_main_arg5 : R8 m c (Proc.devRef .tc main_arg5) = (A5 m c) :=
  (carry7 (R7 m c) main_arg5 (by decide)).trans (at7_main_arg5 m c)

theorem at8_main_arg6 : R8 m c (Proc.devRef .tc main_arg6) = (A6 m c) :=
  (carry7 (R7 m c) main_arg6 (by decide)).trans (at7_main_arg6 m c)

theorem at8_main_v12 : R8 m c (Proc.devRef .tc main_v12) = biasVec0 (F := Ideal) (A4 m c) :=
  (carry7 (R7 m c) main_v12 (by decide)).trans (at7_main_v12 m c)

theorem at8_main_v3 : R8 m c (Proc.devRef .tc main_v3) = Cert.Model.src (F := Ideal) (A1 m c) :=
  (carry7 (R7 m c) main_v3 (by decide)).trans (at7_main_v3 m c)

theorem at8_main_v49 : R8 m c (Proc.devRef .tc main_v49) = Cert.Model.aggA0 (F := Ideal) (A0 m c) (A1 m c) (A2 m c) (A3 m c) (A4 m c) :=
  w7_main_v49 (R7 m c) (A0 m c) (A1 m c) (A2 m c) (A3 m c) (A4 m c) (A5 m c) (A6 m c) (at7_main_v13 m c) (at7_main_v3 m c) (at7_main_v36 m c) (at7_main_v6 m c)

theorem at8_main_v6 : R8 m c (Proc.devRef .tc main_v6) = Cert.Model.dst (F := Ideal) (A1 m c) :=
  (carry7 (R7 m c) main_v6 (by decide)).trans (at7_main_v6 m c)

theorem at8_main_v8 : R8 m c (Proc.devRef .tc main_v8) = Cert.Model.wts (F := Ideal) (A2 m c) :=
  (carry7 (R7 m c) main_v8 (by decide)).trans (at7_main_v8 m c)

/-! ### Boundary 9 -/

theorem at9_main_arg0 : R9 m c (Proc.devRef .tc main_arg0) = (A0 m c) :=
  (carry8 (R8 m c) main_arg0 (by decide)).trans (at8_main_arg0 m c)

theorem at9_main_arg1 : R9 m c (Proc.devRef .tc main_arg1) = (A1 m c) :=
  (carry8 (R8 m c) main_arg1 (by decide)).trans (at8_main_arg1 m c)

theorem at9_main_arg2 : R9 m c (Proc.devRef .tc main_arg2) = (A2 m c) :=
  (carry8 (R8 m c) main_arg2 (by decide)).trans (at8_main_arg2 m c)

theorem at9_main_arg3 : R9 m c (Proc.devRef .tc main_arg3) = (A3 m c) :=
  (carry8 (R8 m c) main_arg3 (by decide)).trans (at8_main_arg3 m c)

theorem at9_main_arg4 : R9 m c (Proc.devRef .tc main_arg4) = (A4 m c) :=
  (carry8 (R8 m c) main_arg4 (by decide)).trans (at8_main_arg4 m c)

theorem at9_main_arg5 : R9 m c (Proc.devRef .tc main_arg5) = (A5 m c) :=
  (carry8 (R8 m c) main_arg5 (by decide)).trans (at8_main_arg5 m c)

theorem at9_main_arg6 : R9 m c (Proc.devRef .tc main_arg6) = (A6 m c) :=
  (carry8 (R8 m c) main_arg6 (by decide)).trans (at8_main_arg6 m c)

theorem at9_main_v3 : R9 m c (Proc.devRef .tc main_v3) = Cert.Model.src (F := Ideal) (A1 m c) :=
  (carry8 (R8 m c) main_v3 (by decide)).trans (at8_main_v3 m c)

theorem at9_main_v57 : R9 m c (Proc.devRef .tc main_v57) = biasVec1 (F := Ideal) (A4 m c) :=
  w8_main_v57 (R8 m c) (A0 m c) (A1 m c) (A2 m c) (A3 m c) (A4 m c) (A5 m c) (A6 m c) (at8_main_arg4 m c)

theorem at9_main_v58 : R9 m c (Proc.devRef .tc main_v58) = Cert.Model.hMid0 (F := Ideal) (A0 m c) (A1 m c) (A2 m c) (A3 m c) (A4 m c) :=
  w8_main_v58 (R8 m c) (A0 m c) (A1 m c) (A2 m c) (A3 m c) (A4 m c) (A5 m c) (A6 m c) (at8_main_arg3 m c) (at8_main_v12 m c) (at8_main_v49 m c)

theorem at9_main_v6 : R9 m c (Proc.devRef .tc main_v6) = Cert.Model.dst (F := Ideal) (A1 m c) :=
  (carry8 (R8 m c) main_v6 (by decide)).trans (at8_main_v6 m c)

theorem at9_main_v8 : R9 m c (Proc.devRef .tc main_v8) = Cert.Model.wts (F := Ideal) (A2 m c) :=
  (carry8 (R8 m c) main_v8 (by decide)).trans (at8_main_v8 m c)

/-! ### Boundary 10 -/

theorem at10_main_arg0 : R10 m c (Proc.devRef .tc main_arg0) = (A0 m c) :=
  (carry9 (R9 m c) main_arg0 (by decide)).trans (at9_main_arg0 m c)

theorem at10_main_arg1 : R10 m c (Proc.devRef .tc main_arg1) = (A1 m c) :=
  (carry9 (R9 m c) main_arg1 (by decide)).trans (at9_main_arg1 m c)

theorem at10_main_arg2 : R10 m c (Proc.devRef .tc main_arg2) = (A2 m c) :=
  (carry9 (R9 m c) main_arg2 (by decide)).trans (at9_main_arg2 m c)

theorem at10_main_arg3 : R10 m c (Proc.devRef .tc main_arg3) = (A3 m c) :=
  (carry9 (R9 m c) main_arg3 (by decide)).trans (at9_main_arg3 m c)

theorem at10_main_arg4 : R10 m c (Proc.devRef .tc main_arg4) = (A4 m c) :=
  (carry9 (R9 m c) main_arg4 (by decide)).trans (at9_main_arg4 m c)

theorem at10_main_arg5 : R10 m c (Proc.devRef .tc main_arg5) = (A5 m c) :=
  (carry9 (R9 m c) main_arg5 (by decide)).trans (at9_main_arg5 m c)

theorem at10_main_arg6 : R10 m c (Proc.devRef .tc main_arg6) = (A6 m c) :=
  (carry9 (R9 m c) main_arg6 (by decide)).trans (at9_main_arg6 m c)

theorem at10_main_v3 : R10 m c (Proc.devRef .tc main_v3) = Cert.Model.src (F := Ideal) (A1 m c) :=
  (carry9 (R9 m c) main_v3 (by decide)).trans (at9_main_v3 m c)

theorem at10_main_v57 : R10 m c (Proc.devRef .tc main_v57) = biasVec1 (F := Ideal) (A4 m c) :=
  (carry9 (R9 m c) main_v57 (by decide)).trans (at9_main_v57 m c)

theorem at10_main_v58 : R10 m c (Proc.devRef .tc main_v58) = Cert.Model.hMid0 (F := Ideal) (A0 m c) (A1 m c) (A2 m c) (A3 m c) (A4 m c) :=
  (carry9 (R9 m c) main_v58 (by decide)).trans (at9_main_v58 m c)

theorem at10_main_v6 : R10 m c (Proc.devRef .tc main_v6) = Cert.Model.dst (F := Ideal) (A1 m c) :=
  (carry9 (R9 m c) main_v6 (by decide)).trans (at9_main_v6 m c)

theorem at10_main_v61 : R10 m c (Proc.devRef .tc main_v61) = Cert.Model.deg (F := Ideal) (A1 m c) (A2 m c) :=
  w9_main_v61 (R9 m c) (A0 m c) (A1 m c) (A2 m c) (A3 m c) (A4 m c) (A5 m c) (A6 m c) (at9_main_v6 m c) (at9_main_v8 m c)

theorem at10_main_v8 : R10 m c (Proc.devRef .tc main_v8) = Cert.Model.wts (F := Ideal) (A2 m c) :=
  (carry9 (R9 m c) main_v8 (by decide)).trans (at9_main_v8 m c)

/-! ### Boundary 11 -/

theorem at11_main_arg0 : R11 m c (Proc.devRef .tc main_arg0) = (A0 m c) :=
  (carry10 (R10 m c) main_arg0 (by decide)).trans (at10_main_arg0 m c)

theorem at11_main_arg1 : R11 m c (Proc.devRef .tc main_arg1) = (A1 m c) :=
  (carry10 (R10 m c) main_arg1 (by decide)).trans (at10_main_arg1 m c)

theorem at11_main_arg2 : R11 m c (Proc.devRef .tc main_arg2) = (A2 m c) :=
  (carry10 (R10 m c) main_arg2 (by decide)).trans (at10_main_arg2 m c)

theorem at11_main_arg3 : R11 m c (Proc.devRef .tc main_arg3) = (A3 m c) :=
  (carry10 (R10 m c) main_arg3 (by decide)).trans (at10_main_arg3 m c)

theorem at11_main_arg4 : R11 m c (Proc.devRef .tc main_arg4) = (A4 m c) :=
  (carry10 (R10 m c) main_arg4 (by decide)).trans (at10_main_arg4 m c)

theorem at11_main_arg5 : R11 m c (Proc.devRef .tc main_arg5) = (A5 m c) :=
  (carry10 (R10 m c) main_arg5 (by decide)).trans (at10_main_arg5 m c)

theorem at11_main_arg6 : R11 m c (Proc.devRef .tc main_arg6) = (A6 m c) :=
  (carry10 (R10 m c) main_arg6 (by decide)).trans (at10_main_arg6 m c)

theorem at11_main_v3 : R11 m c (Proc.devRef .tc main_v3) = Cert.Model.src (F := Ideal) (A1 m c) :=
  (carry10 (R10 m c) main_v3 (by decide)).trans (at10_main_v3 m c)

theorem at11_main_v57 : R11 m c (Proc.devRef .tc main_v57) = biasVec1 (F := Ideal) (A4 m c) :=
  (carry10 (R10 m c) main_v57 (by decide)).trans (at10_main_v57 m c)

theorem at11_main_v58 : R11 m c (Proc.devRef .tc main_v58) = Cert.Model.hMid0 (F := Ideal) (A0 m c) (A1 m c) (A2 m c) (A3 m c) (A4 m c) :=
  (carry10 (R10 m c) main_v58 (by decide)).trans (at10_main_v58 m c)

theorem at11_main_v6 : R11 m c (Proc.devRef .tc main_v6) = Cert.Model.dst (F := Ideal) (A1 m c) :=
  (carry10 (R10 m c) main_v6 (by decide)).trans (at10_main_v6 m c)

theorem at11_main_v61 : R11 m c (Proc.devRef .tc main_v61) = Cert.Model.deg (F := Ideal) (A1 m c) (A2 m c) :=
  (carry10 (R10 m c) main_v61 (by decide)).trans (at10_main_v61 m c)

theorem at11_main_v63 : R11 m c (Proc.devRef .tc main_v63) = Cert.Model.degPos (F := Ideal) (A1 m c) (A2 m c) :=
  w10_main_v63 (R10 m c) (A0 m c) (A1 m c) (A2 m c) (A3 m c) (A4 m c) (A5 m c) (A6 m c) (at10_main_v61 m c)

theorem at11_main_v8 : R11 m c (Proc.devRef .tc main_v8) = Cert.Model.wts (F := Ideal) (A2 m c) :=
  (carry10 (R10 m c) main_v8 (by decide)).trans (at10_main_v8 m c)

/-! ### Boundary 12 -/

theorem at12_main_arg0 : R12 m c (Proc.devRef .tc main_arg0) = (A0 m c) :=
  (carry11 (R11 m c) main_arg0 (by decide)).trans (at11_main_arg0 m c)

theorem at12_main_arg1 : R12 m c (Proc.devRef .tc main_arg1) = (A1 m c) :=
  (carry11 (R11 m c) main_arg1 (by decide)).trans (at11_main_arg1 m c)

theorem at12_main_arg2 : R12 m c (Proc.devRef .tc main_arg2) = (A2 m c) :=
  (carry11 (R11 m c) main_arg2 (by decide)).trans (at11_main_arg2 m c)

theorem at12_main_arg3 : R12 m c (Proc.devRef .tc main_arg3) = (A3 m c) :=
  (carry11 (R11 m c) main_arg3 (by decide)).trans (at11_main_arg3 m c)

theorem at12_main_arg4 : R12 m c (Proc.devRef .tc main_arg4) = (A4 m c) :=
  (carry11 (R11 m c) main_arg4 (by decide)).trans (at11_main_arg4 m c)

theorem at12_main_arg5 : R12 m c (Proc.devRef .tc main_arg5) = (A5 m c) :=
  (carry11 (R11 m c) main_arg5 (by decide)).trans (at11_main_arg5 m c)

theorem at12_main_arg6 : R12 m c (Proc.devRef .tc main_arg6) = (A6 m c) :=
  (carry11 (R11 m c) main_arg6 (by decide)).trans (at11_main_arg6 m c)

theorem at12_main_v3 : R12 m c (Proc.devRef .tc main_v3) = Cert.Model.src (F := Ideal) (A1 m c) :=
  (carry11 (R11 m c) main_v3 (by decide)).trans (at11_main_v3 m c)

theorem at12_main_v57 : R12 m c (Proc.devRef .tc main_v57) = biasVec1 (F := Ideal) (A4 m c) :=
  (carry11 (R11 m c) main_v57 (by decide)).trans (at11_main_v57 m c)

theorem at12_main_v58 : R12 m c (Proc.devRef .tc main_v58) = Cert.Model.hMid0 (F := Ideal) (A0 m c) (A1 m c) (A2 m c) (A3 m c) (A4 m c) :=
  (carry11 (R11 m c) main_v58 (by decide)).trans (at11_main_v58 m c)

theorem at12_main_v6 : R12 m c (Proc.devRef .tc main_v6) = Cert.Model.dst (F := Ideal) (A1 m c) :=
  (carry11 (R11 m c) main_v6 (by decide)).trans (at11_main_v6 m c)

theorem at12_main_v63 : R12 m c (Proc.devRef .tc main_v63) = Cert.Model.degPos (F := Ideal) (A1 m c) (A2 m c) :=
  (carry11 (R11 m c) main_v63 (by decide)).trans (at11_main_v63 m c)

theorem at12_main_v64 : R12 m c (Proc.devRef .tc main_v64) = Cert.Model.degRsqrt (F := Ideal) (A1 m c) (A2 m c) :=
  w11_main_v64 (R11 m c) (A0 m c) (A1 m c) (A2 m c) (A3 m c) (A4 m c) (A5 m c) (A6 m c) (at11_main_v61 m c)

theorem at12_main_v8 : R12 m c (Proc.devRef .tc main_v8) = Cert.Model.wts (F := Ideal) (A2 m c) :=
  (carry11 (R11 m c) main_v8 (by decide)).trans (at11_main_v8 m c)

/-! ### Boundary 13 -/

theorem at13_main_arg0 : R13 m c (Proc.devRef .tc main_arg0) = (A0 m c) :=
  (carry12 (R12 m c) main_arg0 (by decide)).trans (at12_main_arg0 m c)

theorem at13_main_arg1 : R13 m c (Proc.devRef .tc main_arg1) = (A1 m c) :=
  (carry12 (R12 m c) main_arg1 (by decide)).trans (at12_main_arg1 m c)

theorem at13_main_arg2 : R13 m c (Proc.devRef .tc main_arg2) = (A2 m c) :=
  (carry12 (R12 m c) main_arg2 (by decide)).trans (at12_main_arg2 m c)

theorem at13_main_arg3 : R13 m c (Proc.devRef .tc main_arg3) = (A3 m c) :=
  (carry12 (R12 m c) main_arg3 (by decide)).trans (at12_main_arg3 m c)

theorem at13_main_arg4 : R13 m c (Proc.devRef .tc main_arg4) = (A4 m c) :=
  (carry12 (R12 m c) main_arg4 (by decide)).trans (at12_main_arg4 m c)

theorem at13_main_arg5 : R13 m c (Proc.devRef .tc main_arg5) = (A5 m c) :=
  (carry12 (R12 m c) main_arg5 (by decide)).trans (at12_main_arg5 m c)

theorem at13_main_arg6 : R13 m c (Proc.devRef .tc main_arg6) = (A6 m c) :=
  (carry12 (R12 m c) main_arg6 (by decide)).trans (at12_main_arg6 m c)

theorem at13_main_v3 : R13 m c (Proc.devRef .tc main_v3) = Cert.Model.src (F := Ideal) (A1 m c) :=
  (carry12 (R12 m c) main_v3 (by decide)).trans (at12_main_v3 m c)

theorem at13_main_v57 : R13 m c (Proc.devRef .tc main_v57) = biasVec1 (F := Ideal) (A4 m c) :=
  (carry12 (R12 m c) main_v57 (by decide)).trans (at12_main_v57 m c)

theorem at13_main_v58 : R13 m c (Proc.devRef .tc main_v58) = Cert.Model.hMid0 (F := Ideal) (A0 m c) (A1 m c) (A2 m c) (A3 m c) (A4 m c) :=
  (carry12 (R12 m c) main_v58 (by decide)).trans (at12_main_v58 m c)

theorem at13_main_v6 : R13 m c (Proc.devRef .tc main_v6) = Cert.Model.dst (F := Ideal) (A1 m c) :=
  (carry12 (R12 m c) main_v6 (by decide)).trans (at12_main_v6 m c)

theorem at13_main_v65 : R13 m c (Proc.devRef .tc main_v65) = Cert.Model.dinv (F := Ideal) (A1 m c) (A2 m c) :=
  w12_main_v65 (R12 m c) (A0 m c) (A1 m c) (A2 m c) (A3 m c) (A4 m c) (A5 m c) (A6 m c) (at12_main_v63 m c) (at12_main_v64 m c)

theorem at13_main_v8 : R13 m c (Proc.devRef .tc main_v8) = Cert.Model.wts (F := Ideal) (A2 m c) :=
  (carry12 (R12 m c) main_v8 (by decide)).trans (at12_main_v8 m c)

/-! ### Boundary 14 -/

theorem at14_main_arg0 : R14 m c (Proc.devRef .tc main_arg0) = (A0 m c) :=
  (carry13 (R13 m c) main_arg0 (by decide)).trans (at13_main_arg0 m c)

theorem at14_main_arg1 : R14 m c (Proc.devRef .tc main_arg1) = (A1 m c) :=
  (carry13 (R13 m c) main_arg1 (by decide)).trans (at13_main_arg1 m c)

theorem at14_main_arg2 : R14 m c (Proc.devRef .tc main_arg2) = (A2 m c) :=
  (carry13 (R13 m c) main_arg2 (by decide)).trans (at13_main_arg2 m c)

theorem at14_main_arg3 : R14 m c (Proc.devRef .tc main_arg3) = (A3 m c) :=
  (carry13 (R13 m c) main_arg3 (by decide)).trans (at13_main_arg3 m c)

theorem at14_main_arg4 : R14 m c (Proc.devRef .tc main_arg4) = (A4 m c) :=
  (carry13 (R13 m c) main_arg4 (by decide)).trans (at13_main_arg4 m c)

theorem at14_main_arg5 : R14 m c (Proc.devRef .tc main_arg5) = (A5 m c) :=
  (carry13 (R13 m c) main_arg5 (by decide)).trans (at13_main_arg5 m c)

theorem at14_main_arg6 : R14 m c (Proc.devRef .tc main_arg6) = (A6 m c) :=
  (carry13 (R13 m c) main_arg6 (by decide)).trans (at13_main_arg6 m c)

theorem at14_main_v3 : R14 m c (Proc.devRef .tc main_v3) = Cert.Model.src (F := Ideal) (A1 m c) :=
  (carry13 (R13 m c) main_v3 (by decide)).trans (at13_main_v3 m c)

theorem at14_main_v57 : R14 m c (Proc.devRef .tc main_v57) = biasVec1 (F := Ideal) (A4 m c) :=
  (carry13 (R13 m c) main_v57 (by decide)).trans (at13_main_v57 m c)

theorem at14_main_v58 : R14 m c (Proc.devRef .tc main_v58) = Cert.Model.hMid0 (F := Ideal) (A0 m c) (A1 m c) (A2 m c) (A3 m c) (A4 m c) :=
  (carry13 (R13 m c) main_v58 (by decide)).trans (at13_main_v58 m c)

theorem at14_main_v6 : R14 m c (Proc.devRef .tc main_v6) = Cert.Model.dst (F := Ideal) (A1 m c) :=
  (carry13 (R13 m c) main_v6 (by decide)).trans (at13_main_v6 m c)

theorem at14_main_v8 : R14 m c (Proc.devRef .tc main_v8) = Cert.Model.wts (F := Ideal) (A2 m c) :=
  (carry13 (R13 m c) main_v8 (by decide)).trans (at13_main_v8 m c)

theorem at14_main_v81 : R14 m c (Proc.devRef .tc main_v81) = Cert.Model.enorm (F := Ideal) (A1 m c) (A2 m c) :=
  w13_main_v81 (R13 m c) (A0 m c) (A1 m c) (A2 m c) (A3 m c) (A4 m c) (A5 m c) (A6 m c) (at13_main_v3 m c) (at13_main_v6 m c) (at13_main_v65 m c) (at13_main_v8 m c)

/-! ### Boundary 15 -/

theorem at15_main_arg0 : R15 m c (Proc.devRef .tc main_arg0) = (A0 m c) :=
  (carry14 (R14 m c) main_arg0 (by decide)).trans (at14_main_arg0 m c)

theorem at15_main_arg1 : R15 m c (Proc.devRef .tc main_arg1) = (A1 m c) :=
  (carry14 (R14 m c) main_arg1 (by decide)).trans (at14_main_arg1 m c)

theorem at15_main_arg2 : R15 m c (Proc.devRef .tc main_arg2) = (A2 m c) :=
  (carry14 (R14 m c) main_arg2 (by decide)).trans (at14_main_arg2 m c)

theorem at15_main_arg3 : R15 m c (Proc.devRef .tc main_arg3) = (A3 m c) :=
  (carry14 (R14 m c) main_arg3 (by decide)).trans (at14_main_arg3 m c)

theorem at15_main_arg4 : R15 m c (Proc.devRef .tc main_arg4) = (A4 m c) :=
  (carry14 (R14 m c) main_arg4 (by decide)).trans (at14_main_arg4 m c)

theorem at15_main_arg5 : R15 m c (Proc.devRef .tc main_arg5) = (A5 m c) :=
  (carry14 (R14 m c) main_arg5 (by decide)).trans (at14_main_arg5 m c)

theorem at15_main_arg6 : R15 m c (Proc.devRef .tc main_arg6) = (A6 m c) :=
  (carry14 (R14 m c) main_arg6 (by decide)).trans (at14_main_arg6 m c)

theorem at15_main_v3 : R15 m c (Proc.devRef .tc main_v3) = Cert.Model.src (F := Ideal) (A1 m c) :=
  (carry14 (R14 m c) main_v3 (by decide)).trans (at14_main_v3 m c)

theorem at15_main_v57 : R15 m c (Proc.devRef .tc main_v57) = biasVec1 (F := Ideal) (A4 m c) :=
  (carry14 (R14 m c) main_v57 (by decide)).trans (at14_main_v57 m c)

theorem at15_main_v6 : R15 m c (Proc.devRef .tc main_v6) = Cert.Model.dst (F := Ideal) (A1 m c) :=
  (carry14 (R14 m c) main_v6 (by decide)).trans (at14_main_v6 m c)

theorem at15_main_v8 : R15 m c (Proc.devRef .tc main_v8) = Cert.Model.wts (F := Ideal) (A2 m c) :=
  (carry14 (R14 m c) main_v8 (by decide)).trans (at14_main_v8 m c)

theorem at15_main_v94 : R15 m c (Proc.devRef .tc main_v94) = Cert.Model.aggB0 (F := Ideal) (A0 m c) (A1 m c) (A2 m c) (A3 m c) (A4 m c) :=
  w14_main_v94 (R14 m c) (A0 m c) (A1 m c) (A2 m c) (A3 m c) (A4 m c) (A5 m c) (A6 m c) (at14_main_v3 m c) (at14_main_v58 m c) (at14_main_v6 m c) (at14_main_v81 m c)

/-! ### Boundary 16 -/

theorem at16_main_arg0 : R16 m c (Proc.devRef .tc main_arg0) = (A0 m c) :=
  (carry15 (R15 m c) main_arg0 (by decide)).trans (at15_main_arg0 m c)

theorem at16_main_arg1 : R16 m c (Proc.devRef .tc main_arg1) = (A1 m c) :=
  (carry15 (R15 m c) main_arg1 (by decide)).trans (at15_main_arg1 m c)

theorem at16_main_arg2 : R16 m c (Proc.devRef .tc main_arg2) = (A2 m c) :=
  (carry15 (R15 m c) main_arg2 (by decide)).trans (at15_main_arg2 m c)

theorem at16_main_arg3 : R16 m c (Proc.devRef .tc main_arg3) = (A3 m c) :=
  (carry15 (R15 m c) main_arg3 (by decide)).trans (at15_main_arg3 m c)

theorem at16_main_arg4 : R16 m c (Proc.devRef .tc main_arg4) = (A4 m c) :=
  (carry15 (R15 m c) main_arg4 (by decide)).trans (at15_main_arg4 m c)

theorem at16_main_arg5 : R16 m c (Proc.devRef .tc main_arg5) = (A5 m c) :=
  (carry15 (R15 m c) main_arg5 (by decide)).trans (at15_main_arg5 m c)

theorem at16_main_arg6 : R16 m c (Proc.devRef .tc main_arg6) = (A6 m c) :=
  (carry15 (R15 m c) main_arg6 (by decide)).trans (at15_main_arg6 m c)

theorem at16_main_v3 : R16 m c (Proc.devRef .tc main_v3) = Cert.Model.src (F := Ideal) (A1 m c) :=
  (carry15 (R15 m c) main_v3 (by decide)).trans (at15_main_v3 m c)

theorem at16_main_v6 : R16 m c (Proc.devRef .tc main_v6) = Cert.Model.dst (F := Ideal) (A1 m c) :=
  (carry15 (R15 m c) main_v6 (by decide)).trans (at15_main_v6 m c)

theorem at16_main_v8 : R16 m c (Proc.devRef .tc main_v8) = Cert.Model.wts (F := Ideal) (A2 m c) :=
  (carry15 (R15 m c) main_v8 (by decide)).trans (at15_main_v8 m c)

theorem at16_main_v98 : R16 m c (Proc.devRef .tc main_v98) = Cert.RefOps.relu (F := Ideal) (Cert.RefOps.addRow (F := Ideal) (Cert.Model.aggB0 (F := Ideal) (A0 m c) (A1 m c) (A2 m c) (A3 m c) (A4 m c)) (Cert.Model.biasRow1 (F := Ideal) (A4 m c))) :=
  w15_main_v98 (R15 m c) (A0 m c) (A1 m c) (A2 m c) (A3 m c) (A4 m c) (A5 m c) (A6 m c) (at15_main_v57 m c) (at15_main_v94 m c)

/-! ### Boundary 17 -/

theorem at17_main_arg0 : R17 m c (Proc.devRef .tc main_arg0) = (A0 m c) :=
  (carry16 (R16 m c) main_arg0 (by decide)).trans (at16_main_arg0 m c)

theorem at17_main_arg1 : R17 m c (Proc.devRef .tc main_arg1) = (A1 m c) :=
  (carry16 (R16 m c) main_arg1 (by decide)).trans (at16_main_arg1 m c)

theorem at17_main_arg2 : R17 m c (Proc.devRef .tc main_arg2) = (A2 m c) :=
  (carry16 (R16 m c) main_arg2 (by decide)).trans (at16_main_arg2 m c)

theorem at17_main_arg3 : R17 m c (Proc.devRef .tc main_arg3) = (A3 m c) :=
  (carry16 (R16 m c) main_arg3 (by decide)).trans (at16_main_arg3 m c)

theorem at17_main_arg4 : R17 m c (Proc.devRef .tc main_arg4) = (A4 m c) :=
  (carry16 (R16 m c) main_arg4 (by decide)).trans (at16_main_arg4 m c)

theorem at17_main_arg5 : R17 m c (Proc.devRef .tc main_arg5) = (A5 m c) :=
  (carry16 (R16 m c) main_arg5 (by decide)).trans (at16_main_arg5 m c)

theorem at17_main_arg6 : R17 m c (Proc.devRef .tc main_arg6) = (A6 m c) :=
  (carry16 (R16 m c) main_arg6 (by decide)).trans (at16_main_arg6 m c)

theorem at17_main_v3 : R17 m c (Proc.devRef .tc main_v3) = Cert.Model.src (F := Ideal) (A1 m c) :=
  (carry16 (R16 m c) main_v3 (by decide)).trans (at16_main_v3 m c)

theorem at17_main_v6 : R17 m c (Proc.devRef .tc main_v6) = Cert.Model.dst (F := Ideal) (A1 m c) :=
  (carry16 (R16 m c) main_v6 (by decide)).trans (at16_main_v6 m c)

theorem at17_main_v8 : R17 m c (Proc.devRef .tc main_v8) = Cert.Model.wts (F := Ideal) (A2 m c) :=
  (carry16 (R16 m c) main_v8 (by decide)).trans (at16_main_v8 m c)

theorem at17_main_v98 : R17 m c (Proc.devRef .tc main_v98) = Cert.RefOps.relu (F := Ideal) (Cert.RefOps.addRow (F := Ideal) (Cert.Model.aggB0 (F := Ideal) (A0 m c) (A1 m c) (A2 m c) (A3 m c) (A4 m c)) (Cert.Model.biasRow1 (F := Ideal) (A4 m c))) :=
  (carry16 (R16 m c) main_v98 (by decide)).trans (at16_main_v98 m c)

theorem at17_main_v99 : R17 m c (Proc.devRef .tc main_v99) = Cert.RefOps.rowNorm (F := Ideal) (Cert.RefOps.relu (F := Ideal) (Cert.RefOps.addRow (F := Ideal) (Cert.Model.aggB0 (F := Ideal) (A0 m c) (A1 m c) (A2 m c) (A3 m c) (A4 m c)) (Cert.Model.biasRow1 (F := Ideal) (A4 m c)))) :=
  w16_main_v99 (R16 m c) (A0 m c) (A1 m c) (A2 m c) (A3 m c) (A4 m c) (A5 m c) (A6 m c) (at16_main_v98 m c)

/-! ### Boundary 18 -/

theorem at18_main_arg0 : R18 m c (Proc.devRef .tc main_arg0) = (A0 m c) :=
  (carry17 (R17 m c) main_arg0 (by decide)).trans (at17_main_arg0 m c)

theorem at18_main_arg1 : R18 m c (Proc.devRef .tc main_arg1) = (A1 m c) :=
  (carry17 (R17 m c) main_arg1 (by decide)).trans (at17_main_arg1 m c)

theorem at18_main_arg2 : R18 m c (Proc.devRef .tc main_arg2) = (A2 m c) :=
  (carry17 (R17 m c) main_arg2 (by decide)).trans (at17_main_arg2 m c)

theorem at18_main_arg3 : R18 m c (Proc.devRef .tc main_arg3) = (A3 m c) :=
  (carry17 (R17 m c) main_arg3 (by decide)).trans (at17_main_arg3 m c)

theorem at18_main_arg4 : R18 m c (Proc.devRef .tc main_arg4) = (A4 m c) :=
  (carry17 (R17 m c) main_arg4 (by decide)).trans (at17_main_arg4 m c)

theorem at18_main_arg5 : R18 m c (Proc.devRef .tc main_arg5) = (A5 m c) :=
  (carry17 (R17 m c) main_arg5 (by decide)).trans (at17_main_arg5 m c)

theorem at18_main_arg6 : R18 m c (Proc.devRef .tc main_arg6) = (A6 m c) :=
  (carry17 (R17 m c) main_arg6 (by decide)).trans (at17_main_arg6 m c)

theorem at18_main_v106 : R18 m c (Proc.devRef .tc main_v106) = Cert.Model.xOut0 (F := Ideal) (A0 m c) (A1 m c) (A2 m c) (A3 m c) (A4 m c) :=
  w17_main_v106 (R17 m c) (A0 m c) (A1 m c) (A2 m c) (A3 m c) (A4 m c) (A5 m c) (A6 m c) (at17_main_arg0 m c) (at17_main_v98 m c) (at17_main_v99 m c)

theorem at18_main_v3 : R18 m c (Proc.devRef .tc main_v3) = Cert.Model.src (F := Ideal) (A1 m c) :=
  (carry17 (R17 m c) main_v3 (by decide)).trans (at17_main_v3 m c)

theorem at18_main_v6 : R18 m c (Proc.devRef .tc main_v6) = Cert.Model.dst (F := Ideal) (A1 m c) :=
  (carry17 (R17 m c) main_v6 (by decide)).trans (at17_main_v6 m c)

theorem at18_main_v8 : R18 m c (Proc.devRef .tc main_v8) = Cert.Model.wts (F := Ideal) (A2 m c) :=
  (carry17 (R17 m c) main_v8 (by decide)).trans (at17_main_v8 m c)

/-! ### Boundary 19 -/

theorem at19_main_arg0 : R19 m c (Proc.devRef .tc main_arg0) = (A0 m c) :=
  (carry18 (R18 m c) main_arg0 (by decide)).trans (at18_main_arg0 m c)

theorem at19_main_arg1 : R19 m c (Proc.devRef .tc main_arg1) = (A1 m c) :=
  (carry18 (R18 m c) main_arg1 (by decide)).trans (at18_main_arg1 m c)

theorem at19_main_arg2 : R19 m c (Proc.devRef .tc main_arg2) = (A2 m c) :=
  (carry18 (R18 m c) main_arg2 (by decide)).trans (at18_main_arg2 m c)

theorem at19_main_arg3 : R19 m c (Proc.devRef .tc main_arg3) = (A3 m c) :=
  (carry18 (R18 m c) main_arg3 (by decide)).trans (at18_main_arg3 m c)

theorem at19_main_arg4 : R19 m c (Proc.devRef .tc main_arg4) = (A4 m c) :=
  (carry18 (R18 m c) main_arg4 (by decide)).trans (at18_main_arg4 m c)

theorem at19_main_arg5 : R19 m c (Proc.devRef .tc main_arg5) = (A5 m c) :=
  (carry18 (R18 m c) main_arg5 (by decide)).trans (at18_main_arg5 m c)

theorem at19_main_arg6 : R19 m c (Proc.devRef .tc main_arg6) = (A6 m c) :=
  (carry18 (R18 m c) main_arg6 (by decide)).trans (at18_main_arg6 m c)

theorem at19_main_v106 : R19 m c (Proc.devRef .tc main_v106) = Cert.Model.xOut0 (F := Ideal) (A0 m c) (A1 m c) (A2 m c) (A3 m c) (A4 m c) :=
  (carry18 (R18 m c) main_v106 (by decide)).trans (at18_main_v106 m c)

theorem at19_main_v110 : R19 m c (Proc.devRef .tc main_v110) = biasVec2 (F := Ideal) (A4 m c) :=
  w18_main_v110 (R18 m c) (A0 m c) (A1 m c) (A2 m c) (A3 m c) (A4 m c) (A5 m c) (A6 m c) (at18_main_arg4 m c)

theorem at19_main_v111 : R19 m c (Proc.devRef .tc main_v111) = Cert.Model.hOut0 (F := Ideal) (A0 m c) (A1 m c) (A2 m c) (A3 m c) (A4 m c) :=
  w18_main_v111 (R18 m c) (A0 m c) (A1 m c) (A2 m c) (A3 m c) (A4 m c) (A5 m c) (A6 m c) (at18_main_arg3 m c) (at18_main_v106 m c)

theorem at19_main_v3 : R19 m c (Proc.devRef .tc main_v3) = Cert.Model.src (F := Ideal) (A1 m c) :=
  (carry18 (R18 m c) main_v3 (by decide)).trans (at18_main_v3 m c)

theorem at19_main_v6 : R19 m c (Proc.devRef .tc main_v6) = Cert.Model.dst (F := Ideal) (A1 m c) :=
  (carry18 (R18 m c) main_v6 (by decide)).trans (at18_main_v6 m c)

theorem at19_main_v8 : R19 m c (Proc.devRef .tc main_v8) = Cert.Model.wts (F := Ideal) (A2 m c) :=
  (carry18 (R18 m c) main_v8 (by decide)).trans (at18_main_v8 m c)

/-! ### Boundary 20 -/

theorem at20_main_arg0 : R20 m c (Proc.devRef .tc main_arg0) = (A0 m c) :=
  (carry19 (R19 m c) main_arg0 (by decide)).trans (at19_main_arg0 m c)

theorem at20_main_arg1 : R20 m c (Proc.devRef .tc main_arg1) = (A1 m c) :=
  (carry19 (R19 m c) main_arg1 (by decide)).trans (at19_main_arg1 m c)

theorem at20_main_arg2 : R20 m c (Proc.devRef .tc main_arg2) = (A2 m c) :=
  (carry19 (R19 m c) main_arg2 (by decide)).trans (at19_main_arg2 m c)

theorem at20_main_arg3 : R20 m c (Proc.devRef .tc main_arg3) = (A3 m c) :=
  (carry19 (R19 m c) main_arg3 (by decide)).trans (at19_main_arg3 m c)

theorem at20_main_arg4 : R20 m c (Proc.devRef .tc main_arg4) = (A4 m c) :=
  (carry19 (R19 m c) main_arg4 (by decide)).trans (at19_main_arg4 m c)

theorem at20_main_arg5 : R20 m c (Proc.devRef .tc main_arg5) = (A5 m c) :=
  (carry19 (R19 m c) main_arg5 (by decide)).trans (at19_main_arg5 m c)

theorem at20_main_arg6 : R20 m c (Proc.devRef .tc main_arg6) = (A6 m c) :=
  (carry19 (R19 m c) main_arg6 (by decide)).trans (at19_main_arg6 m c)

theorem at20_main_v106 : R20 m c (Proc.devRef .tc main_v106) = Cert.Model.xOut0 (F := Ideal) (A0 m c) (A1 m c) (A2 m c) (A3 m c) (A4 m c) :=
  (carry19 (R19 m c) main_v106 (by decide)).trans (at19_main_v106 m c)

theorem at20_main_v110 : R20 m c (Proc.devRef .tc main_v110) = biasVec2 (F := Ideal) (A4 m c) :=
  (carry19 (R19 m c) main_v110 (by decide)).trans (at19_main_v110 m c)

theorem at20_main_v111 : R20 m c (Proc.devRef .tc main_v111) = Cert.Model.hOut0 (F := Ideal) (A0 m c) (A1 m c) (A2 m c) (A3 m c) (A4 m c) :=
  (carry19 (R19 m c) main_v111 (by decide)).trans (at19_main_v111 m c)

theorem at20_main_v114 : R20 m c (Proc.devRef .tc main_v114) = Cert.Model.deg (F := Ideal) (A1 m c) (A2 m c) :=
  w19_main_v114 (R19 m c) (A0 m c) (A1 m c) (A2 m c) (A3 m c) (A4 m c) (A5 m c) (A6 m c) (at19_main_v6 m c) (at19_main_v8 m c)

theorem at20_main_v3 : R20 m c (Proc.devRef .tc main_v3) = Cert.Model.src (F := Ideal) (A1 m c) :=
  (carry19 (R19 m c) main_v3 (by decide)).trans (at19_main_v3 m c)

theorem at20_main_v6 : R20 m c (Proc.devRef .tc main_v6) = Cert.Model.dst (F := Ideal) (A1 m c) :=
  (carry19 (R19 m c) main_v6 (by decide)).trans (at19_main_v6 m c)

theorem at20_main_v8 : R20 m c (Proc.devRef .tc main_v8) = Cert.Model.wts (F := Ideal) (A2 m c) :=
  (carry19 (R19 m c) main_v8 (by decide)).trans (at19_main_v8 m c)

/-! ### Boundary 21 -/

theorem at21_main_arg0 : R21 m c (Proc.devRef .tc main_arg0) = (A0 m c) :=
  (carry20 (R20 m c) main_arg0 (by decide)).trans (at20_main_arg0 m c)

theorem at21_main_arg1 : R21 m c (Proc.devRef .tc main_arg1) = (A1 m c) :=
  (carry20 (R20 m c) main_arg1 (by decide)).trans (at20_main_arg1 m c)

theorem at21_main_arg2 : R21 m c (Proc.devRef .tc main_arg2) = (A2 m c) :=
  (carry20 (R20 m c) main_arg2 (by decide)).trans (at20_main_arg2 m c)

theorem at21_main_arg3 : R21 m c (Proc.devRef .tc main_arg3) = (A3 m c) :=
  (carry20 (R20 m c) main_arg3 (by decide)).trans (at20_main_arg3 m c)

theorem at21_main_arg4 : R21 m c (Proc.devRef .tc main_arg4) = (A4 m c) :=
  (carry20 (R20 m c) main_arg4 (by decide)).trans (at20_main_arg4 m c)

theorem at21_main_arg5 : R21 m c (Proc.devRef .tc main_arg5) = (A5 m c) :=
  (carry20 (R20 m c) main_arg5 (by decide)).trans (at20_main_arg5 m c)

theorem at21_main_arg6 : R21 m c (Proc.devRef .tc main_arg6) = (A6 m c) :=
  (carry20 (R20 m c) main_arg6 (by decide)).trans (at20_main_arg6 m c)

theorem at21_main_v106 : R21 m c (Proc.devRef .tc main_v106) = Cert.Model.xOut0 (F := Ideal) (A0 m c) (A1 m c) (A2 m c) (A3 m c) (A4 m c) :=
  (carry20 (R20 m c) main_v106 (by decide)).trans (at20_main_v106 m c)

theorem at21_main_v110 : R21 m c (Proc.devRef .tc main_v110) = biasVec2 (F := Ideal) (A4 m c) :=
  (carry20 (R20 m c) main_v110 (by decide)).trans (at20_main_v110 m c)

theorem at21_main_v111 : R21 m c (Proc.devRef .tc main_v111) = Cert.Model.hOut0 (F := Ideal) (A0 m c) (A1 m c) (A2 m c) (A3 m c) (A4 m c) :=
  (carry20 (R20 m c) main_v111 (by decide)).trans (at20_main_v111 m c)

theorem at21_main_v114 : R21 m c (Proc.devRef .tc main_v114) = Cert.Model.deg (F := Ideal) (A1 m c) (A2 m c) :=
  (carry20 (R20 m c) main_v114 (by decide)).trans (at20_main_v114 m c)

theorem at21_main_v116 : R21 m c (Proc.devRef .tc main_v116) = Cert.Model.degPos (F := Ideal) (A1 m c) (A2 m c) :=
  w20_main_v116 (R20 m c) (A0 m c) (A1 m c) (A2 m c) (A3 m c) (A4 m c) (A5 m c) (A6 m c) (at20_main_v114 m c)

theorem at21_main_v3 : R21 m c (Proc.devRef .tc main_v3) = Cert.Model.src (F := Ideal) (A1 m c) :=
  (carry20 (R20 m c) main_v3 (by decide)).trans (at20_main_v3 m c)

theorem at21_main_v6 : R21 m c (Proc.devRef .tc main_v6) = Cert.Model.dst (F := Ideal) (A1 m c) :=
  (carry20 (R20 m c) main_v6 (by decide)).trans (at20_main_v6 m c)

theorem at21_main_v8 : R21 m c (Proc.devRef .tc main_v8) = Cert.Model.wts (F := Ideal) (A2 m c) :=
  (carry20 (R20 m c) main_v8 (by decide)).trans (at20_main_v8 m c)

/-! ### Boundary 22 -/

theorem at22_main_arg0 : R22 m c (Proc.devRef .tc main_arg0) = (A0 m c) :=
  (carry21 (R21 m c) main_arg0 (by decide)).trans (at21_main_arg0 m c)

theorem at22_main_arg1 : R22 m c (Proc.devRef .tc main_arg1) = (A1 m c) :=
  (carry21 (R21 m c) main_arg1 (by decide)).trans (at21_main_arg1 m c)

theorem at22_main_arg2 : R22 m c (Proc.devRef .tc main_arg2) = (A2 m c) :=
  (carry21 (R21 m c) main_arg2 (by decide)).trans (at21_main_arg2 m c)

theorem at22_main_arg3 : R22 m c (Proc.devRef .tc main_arg3) = (A3 m c) :=
  (carry21 (R21 m c) main_arg3 (by decide)).trans (at21_main_arg3 m c)

theorem at22_main_arg4 : R22 m c (Proc.devRef .tc main_arg4) = (A4 m c) :=
  (carry21 (R21 m c) main_arg4 (by decide)).trans (at21_main_arg4 m c)

theorem at22_main_arg5 : R22 m c (Proc.devRef .tc main_arg5) = (A5 m c) :=
  (carry21 (R21 m c) main_arg5 (by decide)).trans (at21_main_arg5 m c)

theorem at22_main_arg6 : R22 m c (Proc.devRef .tc main_arg6) = (A6 m c) :=
  (carry21 (R21 m c) main_arg6 (by decide)).trans (at21_main_arg6 m c)

theorem at22_main_v106 : R22 m c (Proc.devRef .tc main_v106) = Cert.Model.xOut0 (F := Ideal) (A0 m c) (A1 m c) (A2 m c) (A3 m c) (A4 m c) :=
  (carry21 (R21 m c) main_v106 (by decide)).trans (at21_main_v106 m c)

theorem at22_main_v110 : R22 m c (Proc.devRef .tc main_v110) = biasVec2 (F := Ideal) (A4 m c) :=
  (carry21 (R21 m c) main_v110 (by decide)).trans (at21_main_v110 m c)

theorem at22_main_v111 : R22 m c (Proc.devRef .tc main_v111) = Cert.Model.hOut0 (F := Ideal) (A0 m c) (A1 m c) (A2 m c) (A3 m c) (A4 m c) :=
  (carry21 (R21 m c) main_v111 (by decide)).trans (at21_main_v111 m c)

theorem at22_main_v116 : R22 m c (Proc.devRef .tc main_v116) = Cert.Model.degPos (F := Ideal) (A1 m c) (A2 m c) :=
  (carry21 (R21 m c) main_v116 (by decide)).trans (at21_main_v116 m c)

theorem at22_main_v117 : R22 m c (Proc.devRef .tc main_v117) = Cert.Model.degRsqrt (F := Ideal) (A1 m c) (A2 m c) :=
  w21_main_v117 (R21 m c) (A0 m c) (A1 m c) (A2 m c) (A3 m c) (A4 m c) (A5 m c) (A6 m c) (at21_main_v114 m c)

theorem at22_main_v3 : R22 m c (Proc.devRef .tc main_v3) = Cert.Model.src (F := Ideal) (A1 m c) :=
  (carry21 (R21 m c) main_v3 (by decide)).trans (at21_main_v3 m c)

theorem at22_main_v6 : R22 m c (Proc.devRef .tc main_v6) = Cert.Model.dst (F := Ideal) (A1 m c) :=
  (carry21 (R21 m c) main_v6 (by decide)).trans (at21_main_v6 m c)

theorem at22_main_v8 : R22 m c (Proc.devRef .tc main_v8) = Cert.Model.wts (F := Ideal) (A2 m c) :=
  (carry21 (R21 m c) main_v8 (by decide)).trans (at21_main_v8 m c)

/-! ### Boundary 23 -/

theorem at23_main_arg0 : R23 m c (Proc.devRef .tc main_arg0) = (A0 m c) :=
  (carry22 (R22 m c) main_arg0 (by decide)).trans (at22_main_arg0 m c)

theorem at23_main_arg1 : R23 m c (Proc.devRef .tc main_arg1) = (A1 m c) :=
  (carry22 (R22 m c) main_arg1 (by decide)).trans (at22_main_arg1 m c)

theorem at23_main_arg2 : R23 m c (Proc.devRef .tc main_arg2) = (A2 m c) :=
  (carry22 (R22 m c) main_arg2 (by decide)).trans (at22_main_arg2 m c)

theorem at23_main_arg3 : R23 m c (Proc.devRef .tc main_arg3) = (A3 m c) :=
  (carry22 (R22 m c) main_arg3 (by decide)).trans (at22_main_arg3 m c)

theorem at23_main_arg4 : R23 m c (Proc.devRef .tc main_arg4) = (A4 m c) :=
  (carry22 (R22 m c) main_arg4 (by decide)).trans (at22_main_arg4 m c)

theorem at23_main_arg5 : R23 m c (Proc.devRef .tc main_arg5) = (A5 m c) :=
  (carry22 (R22 m c) main_arg5 (by decide)).trans (at22_main_arg5 m c)

theorem at23_main_arg6 : R23 m c (Proc.devRef .tc main_arg6) = (A6 m c) :=
  (carry22 (R22 m c) main_arg6 (by decide)).trans (at22_main_arg6 m c)

theorem at23_main_v106 : R23 m c (Proc.devRef .tc main_v106) = Cert.Model.xOut0 (F := Ideal) (A0 m c) (A1 m c) (A2 m c) (A3 m c) (A4 m c) :=
  (carry22 (R22 m c) main_v106 (by decide)).trans (at22_main_v106 m c)

theorem at23_main_v110 : R23 m c (Proc.devRef .tc main_v110) = biasVec2 (F := Ideal) (A4 m c) :=
  (carry22 (R22 m c) main_v110 (by decide)).trans (at22_main_v110 m c)

theorem at23_main_v111 : R23 m c (Proc.devRef .tc main_v111) = Cert.Model.hOut0 (F := Ideal) (A0 m c) (A1 m c) (A2 m c) (A3 m c) (A4 m c) :=
  (carry22 (R22 m c) main_v111 (by decide)).trans (at22_main_v111 m c)

theorem at23_main_v118 : R23 m c (Proc.devRef .tc main_v118) = Cert.Model.dinv (F := Ideal) (A1 m c) (A2 m c) :=
  w22_main_v118 (R22 m c) (A0 m c) (A1 m c) (A2 m c) (A3 m c) (A4 m c) (A5 m c) (A6 m c) (at22_main_v116 m c) (at22_main_v117 m c)

theorem at23_main_v3 : R23 m c (Proc.devRef .tc main_v3) = Cert.Model.src (F := Ideal) (A1 m c) :=
  (carry22 (R22 m c) main_v3 (by decide)).trans (at22_main_v3 m c)

theorem at23_main_v6 : R23 m c (Proc.devRef .tc main_v6) = Cert.Model.dst (F := Ideal) (A1 m c) :=
  (carry22 (R22 m c) main_v6 (by decide)).trans (at22_main_v6 m c)

theorem at23_main_v8 : R23 m c (Proc.devRef .tc main_v8) = Cert.Model.wts (F := Ideal) (A2 m c) :=
  (carry22 (R22 m c) main_v8 (by decide)).trans (at22_main_v8 m c)

/-! ### Boundary 24 -/

theorem at24_main_arg0 : R24 m c (Proc.devRef .tc main_arg0) = (A0 m c) :=
  (carry23 (R23 m c) main_arg0 (by decide)).trans (at23_main_arg0 m c)

theorem at24_main_arg1 : R24 m c (Proc.devRef .tc main_arg1) = (A1 m c) :=
  (carry23 (R23 m c) main_arg1 (by decide)).trans (at23_main_arg1 m c)

theorem at24_main_arg2 : R24 m c (Proc.devRef .tc main_arg2) = (A2 m c) :=
  (carry23 (R23 m c) main_arg2 (by decide)).trans (at23_main_arg2 m c)

theorem at24_main_arg3 : R24 m c (Proc.devRef .tc main_arg3) = (A3 m c) :=
  (carry23 (R23 m c) main_arg3 (by decide)).trans (at23_main_arg3 m c)

theorem at24_main_arg4 : R24 m c (Proc.devRef .tc main_arg4) = (A4 m c) :=
  (carry23 (R23 m c) main_arg4 (by decide)).trans (at23_main_arg4 m c)

theorem at24_main_arg5 : R24 m c (Proc.devRef .tc main_arg5) = (A5 m c) :=
  (carry23 (R23 m c) main_arg5 (by decide)).trans (at23_main_arg5 m c)

theorem at24_main_arg6 : R24 m c (Proc.devRef .tc main_arg6) = (A6 m c) :=
  (carry23 (R23 m c) main_arg6 (by decide)).trans (at23_main_arg6 m c)

theorem at24_main_v106 : R24 m c (Proc.devRef .tc main_v106) = Cert.Model.xOut0 (F := Ideal) (A0 m c) (A1 m c) (A2 m c) (A3 m c) (A4 m c) :=
  (carry23 (R23 m c) main_v106 (by decide)).trans (at23_main_v106 m c)

theorem at24_main_v110 : R24 m c (Proc.devRef .tc main_v110) = biasVec2 (F := Ideal) (A4 m c) :=
  (carry23 (R23 m c) main_v110 (by decide)).trans (at23_main_v110 m c)

theorem at24_main_v111 : R24 m c (Proc.devRef .tc main_v111) = Cert.Model.hOut0 (F := Ideal) (A0 m c) (A1 m c) (A2 m c) (A3 m c) (A4 m c) :=
  (carry23 (R23 m c) main_v111 (by decide)).trans (at23_main_v111 m c)

theorem at24_main_v134 : R24 m c (Proc.devRef .tc main_v134) = Cert.Model.enorm (F := Ideal) (A1 m c) (A2 m c) :=
  w23_main_v134 (R23 m c) (A0 m c) (A1 m c) (A2 m c) (A3 m c) (A4 m c) (A5 m c) (A6 m c) (at23_main_v118 m c) (at23_main_v3 m c) (at23_main_v6 m c) (at23_main_v8 m c)

theorem at24_main_v3 : R24 m c (Proc.devRef .tc main_v3) = Cert.Model.src (F := Ideal) (A1 m c) :=
  (carry23 (R23 m c) main_v3 (by decide)).trans (at23_main_v3 m c)

theorem at24_main_v6 : R24 m c (Proc.devRef .tc main_v6) = Cert.Model.dst (F := Ideal) (A1 m c) :=
  (carry23 (R23 m c) main_v6 (by decide)).trans (at23_main_v6 m c)

theorem at24_main_v8 : R24 m c (Proc.devRef .tc main_v8) = Cert.Model.wts (F := Ideal) (A2 m c) :=
  (carry23 (R23 m c) main_v8 (by decide)).trans (at23_main_v8 m c)

/-! ### Boundary 25 -/

theorem at25_main_arg0 : R25 m c (Proc.devRef .tc main_arg0) = (A0 m c) :=
  (carry24 (R24 m c) main_arg0 (by decide)).trans (at24_main_arg0 m c)

theorem at25_main_arg1 : R25 m c (Proc.devRef .tc main_arg1) = (A1 m c) :=
  (carry24 (R24 m c) main_arg1 (by decide)).trans (at24_main_arg1 m c)

theorem at25_main_arg2 : R25 m c (Proc.devRef .tc main_arg2) = (A2 m c) :=
  (carry24 (R24 m c) main_arg2 (by decide)).trans (at24_main_arg2 m c)

theorem at25_main_arg3 : R25 m c (Proc.devRef .tc main_arg3) = (A3 m c) :=
  (carry24 (R24 m c) main_arg3 (by decide)).trans (at24_main_arg3 m c)

theorem at25_main_arg4 : R25 m c (Proc.devRef .tc main_arg4) = (A4 m c) :=
  (carry24 (R24 m c) main_arg4 (by decide)).trans (at24_main_arg4 m c)

theorem at25_main_arg5 : R25 m c (Proc.devRef .tc main_arg5) = (A5 m c) :=
  (carry24 (R24 m c) main_arg5 (by decide)).trans (at24_main_arg5 m c)

theorem at25_main_arg6 : R25 m c (Proc.devRef .tc main_arg6) = (A6 m c) :=
  (carry24 (R24 m c) main_arg6 (by decide)).trans (at24_main_arg6 m c)

theorem at25_main_v106 : R25 m c (Proc.devRef .tc main_v106) = Cert.Model.xOut0 (F := Ideal) (A0 m c) (A1 m c) (A2 m c) (A3 m c) (A4 m c) :=
  (carry24 (R24 m c) main_v106 (by decide)).trans (at24_main_v106 m c)

theorem at25_main_v110 : R25 m c (Proc.devRef .tc main_v110) = biasVec2 (F := Ideal) (A4 m c) :=
  (carry24 (R24 m c) main_v110 (by decide)).trans (at24_main_v110 m c)

theorem at25_main_v147 : R25 m c (Proc.devRef .tc main_v147) = Cert.Model.aggA1 (F := Ideal) (A0 m c) (A1 m c) (A2 m c) (A3 m c) (A4 m c) :=
  w24_main_v147 (R24 m c) (A0 m c) (A1 m c) (A2 m c) (A3 m c) (A4 m c) (A5 m c) (A6 m c) (at24_main_v111 m c) (at24_main_v134 m c) (at24_main_v3 m c) (at24_main_v6 m c)

theorem at25_main_v3 : R25 m c (Proc.devRef .tc main_v3) = Cert.Model.src (F := Ideal) (A1 m c) :=
  (carry24 (R24 m c) main_v3 (by decide)).trans (at24_main_v3 m c)

theorem at25_main_v6 : R25 m c (Proc.devRef .tc main_v6) = Cert.Model.dst (F := Ideal) (A1 m c) :=
  (carry24 (R24 m c) main_v6 (by decide)).trans (at24_main_v6 m c)

theorem at25_main_v8 : R25 m c (Proc.devRef .tc main_v8) = Cert.Model.wts (F := Ideal) (A2 m c) :=
  (carry24 (R24 m c) main_v8 (by decide)).trans (at24_main_v8 m c)

/-! ### Boundary 26 -/

theorem at26_main_arg0 : R26 m c (Proc.devRef .tc main_arg0) = (A0 m c) :=
  (carry25 (R25 m c) main_arg0 (by decide)).trans (at25_main_arg0 m c)

theorem at26_main_arg1 : R26 m c (Proc.devRef .tc main_arg1) = (A1 m c) :=
  (carry25 (R25 m c) main_arg1 (by decide)).trans (at25_main_arg1 m c)

theorem at26_main_arg2 : R26 m c (Proc.devRef .tc main_arg2) = (A2 m c) :=
  (carry25 (R25 m c) main_arg2 (by decide)).trans (at25_main_arg2 m c)

theorem at26_main_arg3 : R26 m c (Proc.devRef .tc main_arg3) = (A3 m c) :=
  (carry25 (R25 m c) main_arg3 (by decide)).trans (at25_main_arg3 m c)

theorem at26_main_arg4 : R26 m c (Proc.devRef .tc main_arg4) = (A4 m c) :=
  (carry25 (R25 m c) main_arg4 (by decide)).trans (at25_main_arg4 m c)

theorem at26_main_arg5 : R26 m c (Proc.devRef .tc main_arg5) = (A5 m c) :=
  (carry25 (R25 m c) main_arg5 (by decide)).trans (at25_main_arg5 m c)

theorem at26_main_arg6 : R26 m c (Proc.devRef .tc main_arg6) = (A6 m c) :=
  (carry25 (R25 m c) main_arg6 (by decide)).trans (at25_main_arg6 m c)

theorem at26_main_v106 : R26 m c (Proc.devRef .tc main_v106) = Cert.Model.xOut0 (F := Ideal) (A0 m c) (A1 m c) (A2 m c) (A3 m c) (A4 m c) :=
  (carry25 (R25 m c) main_v106 (by decide)).trans (at25_main_v106 m c)

theorem at26_main_v155 : R26 m c (Proc.devRef .tc main_v155) = biasVec3 (F := Ideal) (A4 m c) :=
  w25_main_v155 (R25 m c) (A0 m c) (A1 m c) (A2 m c) (A3 m c) (A4 m c) (A5 m c) (A6 m c) (at25_main_arg4 m c)

theorem at26_main_v156 : R26 m c (Proc.devRef .tc main_v156) = Cert.Model.hMid1 (F := Ideal) (A0 m c) (A1 m c) (A2 m c) (A3 m c) (A4 m c) :=
  w25_main_v156 (R25 m c) (A0 m c) (A1 m c) (A2 m c) (A3 m c) (A4 m c) (A5 m c) (A6 m c) (at25_main_arg3 m c) (at25_main_v110 m c) (at25_main_v147 m c)

theorem at26_main_v3 : R26 m c (Proc.devRef .tc main_v3) = Cert.Model.src (F := Ideal) (A1 m c) :=
  (carry25 (R25 m c) main_v3 (by decide)).trans (at25_main_v3 m c)

theorem at26_main_v6 : R26 m c (Proc.devRef .tc main_v6) = Cert.Model.dst (F := Ideal) (A1 m c) :=
  (carry25 (R25 m c) main_v6 (by decide)).trans (at25_main_v6 m c)

theorem at26_main_v8 : R26 m c (Proc.devRef .tc main_v8) = Cert.Model.wts (F := Ideal) (A2 m c) :=
  (carry25 (R25 m c) main_v8 (by decide)).trans (at25_main_v8 m c)

/-! ### Boundary 27 -/

theorem at27_main_arg0 : R27 m c (Proc.devRef .tc main_arg0) = (A0 m c) :=
  (carry26 (R26 m c) main_arg0 (by decide)).trans (at26_main_arg0 m c)

theorem at27_main_arg1 : R27 m c (Proc.devRef .tc main_arg1) = (A1 m c) :=
  (carry26 (R26 m c) main_arg1 (by decide)).trans (at26_main_arg1 m c)

theorem at27_main_arg2 : R27 m c (Proc.devRef .tc main_arg2) = (A2 m c) :=
  (carry26 (R26 m c) main_arg2 (by decide)).trans (at26_main_arg2 m c)

theorem at27_main_arg3 : R27 m c (Proc.devRef .tc main_arg3) = (A3 m c) :=
  (carry26 (R26 m c) main_arg3 (by decide)).trans (at26_main_arg3 m c)

theorem at27_main_arg4 : R27 m c (Proc.devRef .tc main_arg4) = (A4 m c) :=
  (carry26 (R26 m c) main_arg4 (by decide)).trans (at26_main_arg4 m c)

theorem at27_main_arg5 : R27 m c (Proc.devRef .tc main_arg5) = (A5 m c) :=
  (carry26 (R26 m c) main_arg5 (by decide)).trans (at26_main_arg5 m c)

theorem at27_main_arg6 : R27 m c (Proc.devRef .tc main_arg6) = (A6 m c) :=
  (carry26 (R26 m c) main_arg6 (by decide)).trans (at26_main_arg6 m c)

theorem at27_main_v106 : R27 m c (Proc.devRef .tc main_v106) = Cert.Model.xOut0 (F := Ideal) (A0 m c) (A1 m c) (A2 m c) (A3 m c) (A4 m c) :=
  (carry26 (R26 m c) main_v106 (by decide)).trans (at26_main_v106 m c)

theorem at27_main_v155 : R27 m c (Proc.devRef .tc main_v155) = biasVec3 (F := Ideal) (A4 m c) :=
  (carry26 (R26 m c) main_v155 (by decide)).trans (at26_main_v155 m c)

theorem at27_main_v156 : R27 m c (Proc.devRef .tc main_v156) = Cert.Model.hMid1 (F := Ideal) (A0 m c) (A1 m c) (A2 m c) (A3 m c) (A4 m c) :=
  (carry26 (R26 m c) main_v156 (by decide)).trans (at26_main_v156 m c)

theorem at27_main_v159 : R27 m c (Proc.devRef .tc main_v159) = Cert.Model.deg (F := Ideal) (A1 m c) (A2 m c) :=
  w26_main_v159 (R26 m c) (A0 m c) (A1 m c) (A2 m c) (A3 m c) (A4 m c) (A5 m c) (A6 m c) (at26_main_v6 m c) (at26_main_v8 m c)

theorem at27_main_v3 : R27 m c (Proc.devRef .tc main_v3) = Cert.Model.src (F := Ideal) (A1 m c) :=
  (carry26 (R26 m c) main_v3 (by decide)).trans (at26_main_v3 m c)

theorem at27_main_v6 : R27 m c (Proc.devRef .tc main_v6) = Cert.Model.dst (F := Ideal) (A1 m c) :=
  (carry26 (R26 m c) main_v6 (by decide)).trans (at26_main_v6 m c)

theorem at27_main_v8 : R27 m c (Proc.devRef .tc main_v8) = Cert.Model.wts (F := Ideal) (A2 m c) :=
  (carry26 (R26 m c) main_v8 (by decide)).trans (at26_main_v8 m c)

/-! ### Boundary 28 -/

theorem at28_main_arg0 : R28 m c (Proc.devRef .tc main_arg0) = (A0 m c) :=
  (carry27 (R27 m c) main_arg0 (by decide)).trans (at27_main_arg0 m c)

theorem at28_main_arg1 : R28 m c (Proc.devRef .tc main_arg1) = (A1 m c) :=
  (carry27 (R27 m c) main_arg1 (by decide)).trans (at27_main_arg1 m c)

theorem at28_main_arg2 : R28 m c (Proc.devRef .tc main_arg2) = (A2 m c) :=
  (carry27 (R27 m c) main_arg2 (by decide)).trans (at27_main_arg2 m c)

theorem at28_main_arg3 : R28 m c (Proc.devRef .tc main_arg3) = (A3 m c) :=
  (carry27 (R27 m c) main_arg3 (by decide)).trans (at27_main_arg3 m c)

theorem at28_main_arg4 : R28 m c (Proc.devRef .tc main_arg4) = (A4 m c) :=
  (carry27 (R27 m c) main_arg4 (by decide)).trans (at27_main_arg4 m c)

theorem at28_main_arg5 : R28 m c (Proc.devRef .tc main_arg5) = (A5 m c) :=
  (carry27 (R27 m c) main_arg5 (by decide)).trans (at27_main_arg5 m c)

theorem at28_main_arg6 : R28 m c (Proc.devRef .tc main_arg6) = (A6 m c) :=
  (carry27 (R27 m c) main_arg6 (by decide)).trans (at27_main_arg6 m c)

theorem at28_main_v106 : R28 m c (Proc.devRef .tc main_v106) = Cert.Model.xOut0 (F := Ideal) (A0 m c) (A1 m c) (A2 m c) (A3 m c) (A4 m c) :=
  (carry27 (R27 m c) main_v106 (by decide)).trans (at27_main_v106 m c)

theorem at28_main_v155 : R28 m c (Proc.devRef .tc main_v155) = biasVec3 (F := Ideal) (A4 m c) :=
  (carry27 (R27 m c) main_v155 (by decide)).trans (at27_main_v155 m c)

theorem at28_main_v156 : R28 m c (Proc.devRef .tc main_v156) = Cert.Model.hMid1 (F := Ideal) (A0 m c) (A1 m c) (A2 m c) (A3 m c) (A4 m c) :=
  (carry27 (R27 m c) main_v156 (by decide)).trans (at27_main_v156 m c)

theorem at28_main_v159 : R28 m c (Proc.devRef .tc main_v159) = Cert.Model.deg (F := Ideal) (A1 m c) (A2 m c) :=
  (carry27 (R27 m c) main_v159 (by decide)).trans (at27_main_v159 m c)

theorem at28_main_v161 : R28 m c (Proc.devRef .tc main_v161) = Cert.Model.degPos (F := Ideal) (A1 m c) (A2 m c) :=
  w27_main_v161 (R27 m c) (A0 m c) (A1 m c) (A2 m c) (A3 m c) (A4 m c) (A5 m c) (A6 m c) (at27_main_v159 m c)

theorem at28_main_v3 : R28 m c (Proc.devRef .tc main_v3) = Cert.Model.src (F := Ideal) (A1 m c) :=
  (carry27 (R27 m c) main_v3 (by decide)).trans (at27_main_v3 m c)

theorem at28_main_v6 : R28 m c (Proc.devRef .tc main_v6) = Cert.Model.dst (F := Ideal) (A1 m c) :=
  (carry27 (R27 m c) main_v6 (by decide)).trans (at27_main_v6 m c)

theorem at28_main_v8 : R28 m c (Proc.devRef .tc main_v8) = Cert.Model.wts (F := Ideal) (A2 m c) :=
  (carry27 (R27 m c) main_v8 (by decide)).trans (at27_main_v8 m c)

/-! ### Boundary 29 -/

theorem at29_main_arg0 : R29 m c (Proc.devRef .tc main_arg0) = (A0 m c) :=
  (carry28 (R28 m c) main_arg0 (by decide)).trans (at28_main_arg0 m c)

theorem at29_main_arg1 : R29 m c (Proc.devRef .tc main_arg1) = (A1 m c) :=
  (carry28 (R28 m c) main_arg1 (by decide)).trans (at28_main_arg1 m c)

theorem at29_main_arg2 : R29 m c (Proc.devRef .tc main_arg2) = (A2 m c) :=
  (carry28 (R28 m c) main_arg2 (by decide)).trans (at28_main_arg2 m c)

theorem at29_main_arg3 : R29 m c (Proc.devRef .tc main_arg3) = (A3 m c) :=
  (carry28 (R28 m c) main_arg3 (by decide)).trans (at28_main_arg3 m c)

theorem at29_main_arg4 : R29 m c (Proc.devRef .tc main_arg4) = (A4 m c) :=
  (carry28 (R28 m c) main_arg4 (by decide)).trans (at28_main_arg4 m c)

theorem at29_main_arg5 : R29 m c (Proc.devRef .tc main_arg5) = (A5 m c) :=
  (carry28 (R28 m c) main_arg5 (by decide)).trans (at28_main_arg5 m c)

theorem at29_main_arg6 : R29 m c (Proc.devRef .tc main_arg6) = (A6 m c) :=
  (carry28 (R28 m c) main_arg6 (by decide)).trans (at28_main_arg6 m c)

theorem at29_main_v106 : R29 m c (Proc.devRef .tc main_v106) = Cert.Model.xOut0 (F := Ideal) (A0 m c) (A1 m c) (A2 m c) (A3 m c) (A4 m c) :=
  (carry28 (R28 m c) main_v106 (by decide)).trans (at28_main_v106 m c)

theorem at29_main_v155 : R29 m c (Proc.devRef .tc main_v155) = biasVec3 (F := Ideal) (A4 m c) :=
  (carry28 (R28 m c) main_v155 (by decide)).trans (at28_main_v155 m c)

theorem at29_main_v156 : R29 m c (Proc.devRef .tc main_v156) = Cert.Model.hMid1 (F := Ideal) (A0 m c) (A1 m c) (A2 m c) (A3 m c) (A4 m c) :=
  (carry28 (R28 m c) main_v156 (by decide)).trans (at28_main_v156 m c)

theorem at29_main_v161 : R29 m c (Proc.devRef .tc main_v161) = Cert.Model.degPos (F := Ideal) (A1 m c) (A2 m c) :=
  (carry28 (R28 m c) main_v161 (by decide)).trans (at28_main_v161 m c)

theorem at29_main_v162 : R29 m c (Proc.devRef .tc main_v162) = Cert.Model.degRsqrt (F := Ideal) (A1 m c) (A2 m c) :=
  w28_main_v162 (R28 m c) (A0 m c) (A1 m c) (A2 m c) (A3 m c) (A4 m c) (A5 m c) (A6 m c) (at28_main_v159 m c)

theorem at29_main_v3 : R29 m c (Proc.devRef .tc main_v3) = Cert.Model.src (F := Ideal) (A1 m c) :=
  (carry28 (R28 m c) main_v3 (by decide)).trans (at28_main_v3 m c)

theorem at29_main_v6 : R29 m c (Proc.devRef .tc main_v6) = Cert.Model.dst (F := Ideal) (A1 m c) :=
  (carry28 (R28 m c) main_v6 (by decide)).trans (at28_main_v6 m c)

theorem at29_main_v8 : R29 m c (Proc.devRef .tc main_v8) = Cert.Model.wts (F := Ideal) (A2 m c) :=
  (carry28 (R28 m c) main_v8 (by decide)).trans (at28_main_v8 m c)

/-! ### Boundary 30 -/

theorem at30_main_arg0 : R30 m c (Proc.devRef .tc main_arg0) = (A0 m c) :=
  (carry29 (R29 m c) main_arg0 (by decide)).trans (at29_main_arg0 m c)

theorem at30_main_arg1 : R30 m c (Proc.devRef .tc main_arg1) = (A1 m c) :=
  (carry29 (R29 m c) main_arg1 (by decide)).trans (at29_main_arg1 m c)

theorem at30_main_arg2 : R30 m c (Proc.devRef .tc main_arg2) = (A2 m c) :=
  (carry29 (R29 m c) main_arg2 (by decide)).trans (at29_main_arg2 m c)

theorem at30_main_arg3 : R30 m c (Proc.devRef .tc main_arg3) = (A3 m c) :=
  (carry29 (R29 m c) main_arg3 (by decide)).trans (at29_main_arg3 m c)

theorem at30_main_arg4 : R30 m c (Proc.devRef .tc main_arg4) = (A4 m c) :=
  (carry29 (R29 m c) main_arg4 (by decide)).trans (at29_main_arg4 m c)

theorem at30_main_arg5 : R30 m c (Proc.devRef .tc main_arg5) = (A5 m c) :=
  (carry29 (R29 m c) main_arg5 (by decide)).trans (at29_main_arg5 m c)

theorem at30_main_arg6 : R30 m c (Proc.devRef .tc main_arg6) = (A6 m c) :=
  (carry29 (R29 m c) main_arg6 (by decide)).trans (at29_main_arg6 m c)

theorem at30_main_v106 : R30 m c (Proc.devRef .tc main_v106) = Cert.Model.xOut0 (F := Ideal) (A0 m c) (A1 m c) (A2 m c) (A3 m c) (A4 m c) :=
  (carry29 (R29 m c) main_v106 (by decide)).trans (at29_main_v106 m c)

theorem at30_main_v155 : R30 m c (Proc.devRef .tc main_v155) = biasVec3 (F := Ideal) (A4 m c) :=
  (carry29 (R29 m c) main_v155 (by decide)).trans (at29_main_v155 m c)

theorem at30_main_v156 : R30 m c (Proc.devRef .tc main_v156) = Cert.Model.hMid1 (F := Ideal) (A0 m c) (A1 m c) (A2 m c) (A3 m c) (A4 m c) :=
  (carry29 (R29 m c) main_v156 (by decide)).trans (at29_main_v156 m c)

theorem at30_main_v163 : R30 m c (Proc.devRef .tc main_v163) = Cert.Model.dinv (F := Ideal) (A1 m c) (A2 m c) :=
  w29_main_v163 (R29 m c) (A0 m c) (A1 m c) (A2 m c) (A3 m c) (A4 m c) (A5 m c) (A6 m c) (at29_main_v161 m c) (at29_main_v162 m c)

theorem at30_main_v3 : R30 m c (Proc.devRef .tc main_v3) = Cert.Model.src (F := Ideal) (A1 m c) :=
  (carry29 (R29 m c) main_v3 (by decide)).trans (at29_main_v3 m c)

theorem at30_main_v6 : R30 m c (Proc.devRef .tc main_v6) = Cert.Model.dst (F := Ideal) (A1 m c) :=
  (carry29 (R29 m c) main_v6 (by decide)).trans (at29_main_v6 m c)

theorem at30_main_v8 : R30 m c (Proc.devRef .tc main_v8) = Cert.Model.wts (F := Ideal) (A2 m c) :=
  (carry29 (R29 m c) main_v8 (by decide)).trans (at29_main_v8 m c)

/-! ### Boundary 31 -/

theorem at31_main_arg0 : R31 m c (Proc.devRef .tc main_arg0) = (A0 m c) :=
  (carry30 (R30 m c) main_arg0 (by decide)).trans (at30_main_arg0 m c)

theorem at31_main_arg1 : R31 m c (Proc.devRef .tc main_arg1) = (A1 m c) :=
  (carry30 (R30 m c) main_arg1 (by decide)).trans (at30_main_arg1 m c)

theorem at31_main_arg2 : R31 m c (Proc.devRef .tc main_arg2) = (A2 m c) :=
  (carry30 (R30 m c) main_arg2 (by decide)).trans (at30_main_arg2 m c)

theorem at31_main_arg3 : R31 m c (Proc.devRef .tc main_arg3) = (A3 m c) :=
  (carry30 (R30 m c) main_arg3 (by decide)).trans (at30_main_arg3 m c)

theorem at31_main_arg4 : R31 m c (Proc.devRef .tc main_arg4) = (A4 m c) :=
  (carry30 (R30 m c) main_arg4 (by decide)).trans (at30_main_arg4 m c)

theorem at31_main_arg5 : R31 m c (Proc.devRef .tc main_arg5) = (A5 m c) :=
  (carry30 (R30 m c) main_arg5 (by decide)).trans (at30_main_arg5 m c)

theorem at31_main_arg6 : R31 m c (Proc.devRef .tc main_arg6) = (A6 m c) :=
  (carry30 (R30 m c) main_arg6 (by decide)).trans (at30_main_arg6 m c)

theorem at31_main_v106 : R31 m c (Proc.devRef .tc main_v106) = Cert.Model.xOut0 (F := Ideal) (A0 m c) (A1 m c) (A2 m c) (A3 m c) (A4 m c) :=
  (carry30 (R30 m c) main_v106 (by decide)).trans (at30_main_v106 m c)

theorem at31_main_v155 : R31 m c (Proc.devRef .tc main_v155) = biasVec3 (F := Ideal) (A4 m c) :=
  (carry30 (R30 m c) main_v155 (by decide)).trans (at30_main_v155 m c)

theorem at31_main_v156 : R31 m c (Proc.devRef .tc main_v156) = Cert.Model.hMid1 (F := Ideal) (A0 m c) (A1 m c) (A2 m c) (A3 m c) (A4 m c) :=
  (carry30 (R30 m c) main_v156 (by decide)).trans (at30_main_v156 m c)

theorem at31_main_v179 : R31 m c (Proc.devRef .tc main_v179) = Cert.Model.enorm (F := Ideal) (A1 m c) (A2 m c) :=
  w30_main_v179 (R30 m c) (A0 m c) (A1 m c) (A2 m c) (A3 m c) (A4 m c) (A5 m c) (A6 m c) (at30_main_v163 m c) (at30_main_v3 m c) (at30_main_v6 m c) (at30_main_v8 m c)

theorem at31_main_v3 : R31 m c (Proc.devRef .tc main_v3) = Cert.Model.src (F := Ideal) (A1 m c) :=
  (carry30 (R30 m c) main_v3 (by decide)).trans (at30_main_v3 m c)

theorem at31_main_v6 : R31 m c (Proc.devRef .tc main_v6) = Cert.Model.dst (F := Ideal) (A1 m c) :=
  (carry30 (R30 m c) main_v6 (by decide)).trans (at30_main_v6 m c)

theorem at31_main_v8 : R31 m c (Proc.devRef .tc main_v8) = Cert.Model.wts (F := Ideal) (A2 m c) :=
  (carry30 (R30 m c) main_v8 (by decide)).trans (at30_main_v8 m c)

/-! ### Boundary 32 -/

theorem at32_main_arg0 : R32 m c (Proc.devRef .tc main_arg0) = (A0 m c) :=
  (carry31 (R31 m c) main_arg0 (by decide)).trans (at31_main_arg0 m c)

theorem at32_main_arg1 : R32 m c (Proc.devRef .tc main_arg1) = (A1 m c) :=
  (carry31 (R31 m c) main_arg1 (by decide)).trans (at31_main_arg1 m c)

theorem at32_main_arg2 : R32 m c (Proc.devRef .tc main_arg2) = (A2 m c) :=
  (carry31 (R31 m c) main_arg2 (by decide)).trans (at31_main_arg2 m c)

theorem at32_main_arg3 : R32 m c (Proc.devRef .tc main_arg3) = (A3 m c) :=
  (carry31 (R31 m c) main_arg3 (by decide)).trans (at31_main_arg3 m c)

theorem at32_main_arg4 : R32 m c (Proc.devRef .tc main_arg4) = (A4 m c) :=
  (carry31 (R31 m c) main_arg4 (by decide)).trans (at31_main_arg4 m c)

theorem at32_main_arg5 : R32 m c (Proc.devRef .tc main_arg5) = (A5 m c) :=
  (carry31 (R31 m c) main_arg5 (by decide)).trans (at31_main_arg5 m c)

theorem at32_main_arg6 : R32 m c (Proc.devRef .tc main_arg6) = (A6 m c) :=
  (carry31 (R31 m c) main_arg6 (by decide)).trans (at31_main_arg6 m c)

theorem at32_main_v106 : R32 m c (Proc.devRef .tc main_v106) = Cert.Model.xOut0 (F := Ideal) (A0 m c) (A1 m c) (A2 m c) (A3 m c) (A4 m c) :=
  (carry31 (R31 m c) main_v106 (by decide)).trans (at31_main_v106 m c)

theorem at32_main_v155 : R32 m c (Proc.devRef .tc main_v155) = biasVec3 (F := Ideal) (A4 m c) :=
  (carry31 (R31 m c) main_v155 (by decide)).trans (at31_main_v155 m c)

theorem at32_main_v192 : R32 m c (Proc.devRef .tc main_v192) = Cert.Model.aggB1 (F := Ideal) (A0 m c) (A1 m c) (A2 m c) (A3 m c) (A4 m c) :=
  w31_main_v192 (R31 m c) (A0 m c) (A1 m c) (A2 m c) (A3 m c) (A4 m c) (A5 m c) (A6 m c) (at31_main_v156 m c) (at31_main_v179 m c) (at31_main_v3 m c) (at31_main_v6 m c)

theorem at32_main_v3 : R32 m c (Proc.devRef .tc main_v3) = Cert.Model.src (F := Ideal) (A1 m c) :=
  (carry31 (R31 m c) main_v3 (by decide)).trans (at31_main_v3 m c)

theorem at32_main_v6 : R32 m c (Proc.devRef .tc main_v6) = Cert.Model.dst (F := Ideal) (A1 m c) :=
  (carry31 (R31 m c) main_v6 (by decide)).trans (at31_main_v6 m c)

theorem at32_main_v8 : R32 m c (Proc.devRef .tc main_v8) = Cert.Model.wts (F := Ideal) (A2 m c) :=
  (carry31 (R31 m c) main_v8 (by decide)).trans (at31_main_v8 m c)

/-! ### Boundary 33 -/

theorem at33_main_arg0 : R33 m c (Proc.devRef .tc main_arg0) = (A0 m c) :=
  (carry32 (R32 m c) main_arg0 (by decide)).trans (at32_main_arg0 m c)

theorem at33_main_arg1 : R33 m c (Proc.devRef .tc main_arg1) = (A1 m c) :=
  (carry32 (R32 m c) main_arg1 (by decide)).trans (at32_main_arg1 m c)

theorem at33_main_arg2 : R33 m c (Proc.devRef .tc main_arg2) = (A2 m c) :=
  (carry32 (R32 m c) main_arg2 (by decide)).trans (at32_main_arg2 m c)

theorem at33_main_arg3 : R33 m c (Proc.devRef .tc main_arg3) = (A3 m c) :=
  (carry32 (R32 m c) main_arg3 (by decide)).trans (at32_main_arg3 m c)

theorem at33_main_arg4 : R33 m c (Proc.devRef .tc main_arg4) = (A4 m c) :=
  (carry32 (R32 m c) main_arg4 (by decide)).trans (at32_main_arg4 m c)

theorem at33_main_arg5 : R33 m c (Proc.devRef .tc main_arg5) = (A5 m c) :=
  (carry32 (R32 m c) main_arg5 (by decide)).trans (at32_main_arg5 m c)

theorem at33_main_arg6 : R33 m c (Proc.devRef .tc main_arg6) = (A6 m c) :=
  (carry32 (R32 m c) main_arg6 (by decide)).trans (at32_main_arg6 m c)

theorem at33_main_v106 : R33 m c (Proc.devRef .tc main_v106) = Cert.Model.xOut0 (F := Ideal) (A0 m c) (A1 m c) (A2 m c) (A3 m c) (A4 m c) :=
  (carry32 (R32 m c) main_v106 (by decide)).trans (at32_main_v106 m c)

theorem at33_main_v196 : R33 m c (Proc.devRef .tc main_v196) = Cert.RefOps.relu (F := Ideal) (Cert.RefOps.addRow (F := Ideal) (Cert.Model.aggB1 (F := Ideal) (A0 m c) (A1 m c) (A2 m c) (A3 m c) (A4 m c)) (Cert.Model.biasRow3 (F := Ideal) (A4 m c))) :=
  w32_main_v196 (R32 m c) (A0 m c) (A1 m c) (A2 m c) (A3 m c) (A4 m c) (A5 m c) (A6 m c) (at32_main_v155 m c) (at32_main_v192 m c)

theorem at33_main_v3 : R33 m c (Proc.devRef .tc main_v3) = Cert.Model.src (F := Ideal) (A1 m c) :=
  (carry32 (R32 m c) main_v3 (by decide)).trans (at32_main_v3 m c)

theorem at33_main_v6 : R33 m c (Proc.devRef .tc main_v6) = Cert.Model.dst (F := Ideal) (A1 m c) :=
  (carry32 (R32 m c) main_v6 (by decide)).trans (at32_main_v6 m c)

theorem at33_main_v8 : R33 m c (Proc.devRef .tc main_v8) = Cert.Model.wts (F := Ideal) (A2 m c) :=
  (carry32 (R32 m c) main_v8 (by decide)).trans (at32_main_v8 m c)

/-! ### Boundary 34 -/

theorem at34_main_arg0 : R34 m c (Proc.devRef .tc main_arg0) = (A0 m c) :=
  (carry33 (R33 m c) main_arg0 (by decide)).trans (at33_main_arg0 m c)

theorem at34_main_arg1 : R34 m c (Proc.devRef .tc main_arg1) = (A1 m c) :=
  (carry33 (R33 m c) main_arg1 (by decide)).trans (at33_main_arg1 m c)

theorem at34_main_arg2 : R34 m c (Proc.devRef .tc main_arg2) = (A2 m c) :=
  (carry33 (R33 m c) main_arg2 (by decide)).trans (at33_main_arg2 m c)

theorem at34_main_arg3 : R34 m c (Proc.devRef .tc main_arg3) = (A3 m c) :=
  (carry33 (R33 m c) main_arg3 (by decide)).trans (at33_main_arg3 m c)

theorem at34_main_arg4 : R34 m c (Proc.devRef .tc main_arg4) = (A4 m c) :=
  (carry33 (R33 m c) main_arg4 (by decide)).trans (at33_main_arg4 m c)

theorem at34_main_arg5 : R34 m c (Proc.devRef .tc main_arg5) = (A5 m c) :=
  (carry33 (R33 m c) main_arg5 (by decide)).trans (at33_main_arg5 m c)

theorem at34_main_arg6 : R34 m c (Proc.devRef .tc main_arg6) = (A6 m c) :=
  (carry33 (R33 m c) main_arg6 (by decide)).trans (at33_main_arg6 m c)

theorem at34_main_v106 : R34 m c (Proc.devRef .tc main_v106) = Cert.Model.xOut0 (F := Ideal) (A0 m c) (A1 m c) (A2 m c) (A3 m c) (A4 m c) :=
  (carry33 (R33 m c) main_v106 (by decide)).trans (at33_main_v106 m c)

theorem at34_main_v196 : R34 m c (Proc.devRef .tc main_v196) = Cert.RefOps.relu (F := Ideal) (Cert.RefOps.addRow (F := Ideal) (Cert.Model.aggB1 (F := Ideal) (A0 m c) (A1 m c) (A2 m c) (A3 m c) (A4 m c)) (Cert.Model.biasRow3 (F := Ideal) (A4 m c))) :=
  (carry33 (R33 m c) main_v196 (by decide)).trans (at33_main_v196 m c)

theorem at34_main_v197 : R34 m c (Proc.devRef .tc main_v197) = Cert.RefOps.rowNorm (F := Ideal) (Cert.RefOps.relu (F := Ideal) (Cert.RefOps.addRow (F := Ideal) (Cert.Model.aggB1 (F := Ideal) (A0 m c) (A1 m c) (A2 m c) (A3 m c) (A4 m c)) (Cert.Model.biasRow3 (F := Ideal) (A4 m c)))) :=
  w33_main_v197 (R33 m c) (A0 m c) (A1 m c) (A2 m c) (A3 m c) (A4 m c) (A5 m c) (A6 m c) (at33_main_v196 m c)

theorem at34_main_v3 : R34 m c (Proc.devRef .tc main_v3) = Cert.Model.src (F := Ideal) (A1 m c) :=
  (carry33 (R33 m c) main_v3 (by decide)).trans (at33_main_v3 m c)

theorem at34_main_v6 : R34 m c (Proc.devRef .tc main_v6) = Cert.Model.dst (F := Ideal) (A1 m c) :=
  (carry33 (R33 m c) main_v6 (by decide)).trans (at33_main_v6 m c)

theorem at34_main_v8 : R34 m c (Proc.devRef .tc main_v8) = Cert.Model.wts (F := Ideal) (A2 m c) :=
  (carry33 (R33 m c) main_v8 (by decide)).trans (at33_main_v8 m c)

/-! ### Boundary 35 -/

theorem at35_main_arg0 : R35 m c (Proc.devRef .tc main_arg0) = (A0 m c) :=
  (carry34 (R34 m c) main_arg0 (by decide)).trans (at34_main_arg0 m c)

theorem at35_main_arg1 : R35 m c (Proc.devRef .tc main_arg1) = (A1 m c) :=
  (carry34 (R34 m c) main_arg1 (by decide)).trans (at34_main_arg1 m c)

theorem at35_main_arg2 : R35 m c (Proc.devRef .tc main_arg2) = (A2 m c) :=
  (carry34 (R34 m c) main_arg2 (by decide)).trans (at34_main_arg2 m c)

theorem at35_main_arg3 : R35 m c (Proc.devRef .tc main_arg3) = (A3 m c) :=
  (carry34 (R34 m c) main_arg3 (by decide)).trans (at34_main_arg3 m c)

theorem at35_main_arg4 : R35 m c (Proc.devRef .tc main_arg4) = (A4 m c) :=
  (carry34 (R34 m c) main_arg4 (by decide)).trans (at34_main_arg4 m c)

theorem at35_main_arg5 : R35 m c (Proc.devRef .tc main_arg5) = (A5 m c) :=
  (carry34 (R34 m c) main_arg5 (by decide)).trans (at34_main_arg5 m c)

theorem at35_main_arg6 : R35 m c (Proc.devRef .tc main_arg6) = (A6 m c) :=
  (carry34 (R34 m c) main_arg6 (by decide)).trans (at34_main_arg6 m c)

theorem at35_main_v204 : R35 m c (Proc.devRef .tc main_v204) = Cert.Model.xOut1 (F := Ideal) (A0 m c) (A1 m c) (A2 m c) (A3 m c) (A4 m c) :=
  w34_main_v204 (R34 m c) (A0 m c) (A1 m c) (A2 m c) (A3 m c) (A4 m c) (A5 m c) (A6 m c) (at34_main_v106 m c) (at34_main_v196 m c) (at34_main_v197 m c)

theorem at35_main_v3 : R35 m c (Proc.devRef .tc main_v3) = Cert.Model.src (F := Ideal) (A1 m c) :=
  (carry34 (R34 m c) main_v3 (by decide)).trans (at34_main_v3 m c)

theorem at35_main_v6 : R35 m c (Proc.devRef .tc main_v6) = Cert.Model.dst (F := Ideal) (A1 m c) :=
  (carry34 (R34 m c) main_v6 (by decide)).trans (at34_main_v6 m c)

theorem at35_main_v8 : R35 m c (Proc.devRef .tc main_v8) = Cert.Model.wts (F := Ideal) (A2 m c) :=
  (carry34 (R34 m c) main_v8 (by decide)).trans (at34_main_v8 m c)

/-! ### Boundary 36 -/

theorem at36_main_arg0 : R36 m c (Proc.devRef .tc main_arg0) = (A0 m c) :=
  (carry35 (R35 m c) main_arg0 (by decide)).trans (at35_main_arg0 m c)

theorem at36_main_arg1 : R36 m c (Proc.devRef .tc main_arg1) = (A1 m c) :=
  (carry35 (R35 m c) main_arg1 (by decide)).trans (at35_main_arg1 m c)

theorem at36_main_arg2 : R36 m c (Proc.devRef .tc main_arg2) = (A2 m c) :=
  (carry35 (R35 m c) main_arg2 (by decide)).trans (at35_main_arg2 m c)

theorem at36_main_arg3 : R36 m c (Proc.devRef .tc main_arg3) = (A3 m c) :=
  (carry35 (R35 m c) main_arg3 (by decide)).trans (at35_main_arg3 m c)

theorem at36_main_arg4 : R36 m c (Proc.devRef .tc main_arg4) = (A4 m c) :=
  (carry35 (R35 m c) main_arg4 (by decide)).trans (at35_main_arg4 m c)

theorem at36_main_arg5 : R36 m c (Proc.devRef .tc main_arg5) = (A5 m c) :=
  (carry35 (R35 m c) main_arg5 (by decide)).trans (at35_main_arg5 m c)

theorem at36_main_arg6 : R36 m c (Proc.devRef .tc main_arg6) = (A6 m c) :=
  (carry35 (R35 m c) main_arg6 (by decide)).trans (at35_main_arg6 m c)

theorem at36_main_v204 : R36 m c (Proc.devRef .tc main_v204) = Cert.Model.xOut1 (F := Ideal) (A0 m c) (A1 m c) (A2 m c) (A3 m c) (A4 m c) :=
  (carry35 (R35 m c) main_v204 (by decide)).trans (at35_main_v204 m c)

theorem at36_main_v208 : R36 m c (Proc.devRef .tc main_v208) = biasVec4 (F := Ideal) (A4 m c) :=
  w35_main_v208 (R35 m c) (A0 m c) (A1 m c) (A2 m c) (A3 m c) (A4 m c) (A5 m c) (A6 m c) (at35_main_arg4 m c)

theorem at36_main_v209 : R36 m c (Proc.devRef .tc main_v209) = Cert.Model.hOut1 (F := Ideal) (A0 m c) (A1 m c) (A2 m c) (A3 m c) (A4 m c) :=
  w35_main_v209 (R35 m c) (A0 m c) (A1 m c) (A2 m c) (A3 m c) (A4 m c) (A5 m c) (A6 m c) (at35_main_arg3 m c) (at35_main_v204 m c)

theorem at36_main_v3 : R36 m c (Proc.devRef .tc main_v3) = Cert.Model.src (F := Ideal) (A1 m c) :=
  (carry35 (R35 m c) main_v3 (by decide)).trans (at35_main_v3 m c)

theorem at36_main_v6 : R36 m c (Proc.devRef .tc main_v6) = Cert.Model.dst (F := Ideal) (A1 m c) :=
  (carry35 (R35 m c) main_v6 (by decide)).trans (at35_main_v6 m c)

theorem at36_main_v8 : R36 m c (Proc.devRef .tc main_v8) = Cert.Model.wts (F := Ideal) (A2 m c) :=
  (carry35 (R35 m c) main_v8 (by decide)).trans (at35_main_v8 m c)

/-! ### Boundary 37 -/

theorem at37_main_arg0 : R37 m c (Proc.devRef .tc main_arg0) = (A0 m c) :=
  (carry36 (R36 m c) main_arg0 (by decide)).trans (at36_main_arg0 m c)

theorem at37_main_arg1 : R37 m c (Proc.devRef .tc main_arg1) = (A1 m c) :=
  (carry36 (R36 m c) main_arg1 (by decide)).trans (at36_main_arg1 m c)

theorem at37_main_arg2 : R37 m c (Proc.devRef .tc main_arg2) = (A2 m c) :=
  (carry36 (R36 m c) main_arg2 (by decide)).trans (at36_main_arg2 m c)

theorem at37_main_arg3 : R37 m c (Proc.devRef .tc main_arg3) = (A3 m c) :=
  (carry36 (R36 m c) main_arg3 (by decide)).trans (at36_main_arg3 m c)

theorem at37_main_arg4 : R37 m c (Proc.devRef .tc main_arg4) = (A4 m c) :=
  (carry36 (R36 m c) main_arg4 (by decide)).trans (at36_main_arg4 m c)

theorem at37_main_arg5 : R37 m c (Proc.devRef .tc main_arg5) = (A5 m c) :=
  (carry36 (R36 m c) main_arg5 (by decide)).trans (at36_main_arg5 m c)

theorem at37_main_arg6 : R37 m c (Proc.devRef .tc main_arg6) = (A6 m c) :=
  (carry36 (R36 m c) main_arg6 (by decide)).trans (at36_main_arg6 m c)

theorem at37_main_v204 : R37 m c (Proc.devRef .tc main_v204) = Cert.Model.xOut1 (F := Ideal) (A0 m c) (A1 m c) (A2 m c) (A3 m c) (A4 m c) :=
  (carry36 (R36 m c) main_v204 (by decide)).trans (at36_main_v204 m c)

theorem at37_main_v208 : R37 m c (Proc.devRef .tc main_v208) = biasVec4 (F := Ideal) (A4 m c) :=
  (carry36 (R36 m c) main_v208 (by decide)).trans (at36_main_v208 m c)

theorem at37_main_v209 : R37 m c (Proc.devRef .tc main_v209) = Cert.Model.hOut1 (F := Ideal) (A0 m c) (A1 m c) (A2 m c) (A3 m c) (A4 m c) :=
  (carry36 (R36 m c) main_v209 (by decide)).trans (at36_main_v209 m c)

theorem at37_main_v212 : R37 m c (Proc.devRef .tc main_v212) = Cert.Model.deg (F := Ideal) (A1 m c) (A2 m c) :=
  w36_main_v212 (R36 m c) (A0 m c) (A1 m c) (A2 m c) (A3 m c) (A4 m c) (A5 m c) (A6 m c) (at36_main_v6 m c) (at36_main_v8 m c)

theorem at37_main_v3 : R37 m c (Proc.devRef .tc main_v3) = Cert.Model.src (F := Ideal) (A1 m c) :=
  (carry36 (R36 m c) main_v3 (by decide)).trans (at36_main_v3 m c)

theorem at37_main_v6 : R37 m c (Proc.devRef .tc main_v6) = Cert.Model.dst (F := Ideal) (A1 m c) :=
  (carry36 (R36 m c) main_v6 (by decide)).trans (at36_main_v6 m c)

theorem at37_main_v8 : R37 m c (Proc.devRef .tc main_v8) = Cert.Model.wts (F := Ideal) (A2 m c) :=
  (carry36 (R36 m c) main_v8 (by decide)).trans (at36_main_v8 m c)

/-! ### Boundary 38 -/

theorem at38_main_arg0 : R38 m c (Proc.devRef .tc main_arg0) = (A0 m c) :=
  (carry37 (R37 m c) main_arg0 (by decide)).trans (at37_main_arg0 m c)

theorem at38_main_arg1 : R38 m c (Proc.devRef .tc main_arg1) = (A1 m c) :=
  (carry37 (R37 m c) main_arg1 (by decide)).trans (at37_main_arg1 m c)

theorem at38_main_arg2 : R38 m c (Proc.devRef .tc main_arg2) = (A2 m c) :=
  (carry37 (R37 m c) main_arg2 (by decide)).trans (at37_main_arg2 m c)

theorem at38_main_arg3 : R38 m c (Proc.devRef .tc main_arg3) = (A3 m c) :=
  (carry37 (R37 m c) main_arg3 (by decide)).trans (at37_main_arg3 m c)

theorem at38_main_arg4 : R38 m c (Proc.devRef .tc main_arg4) = (A4 m c) :=
  (carry37 (R37 m c) main_arg4 (by decide)).trans (at37_main_arg4 m c)

theorem at38_main_arg5 : R38 m c (Proc.devRef .tc main_arg5) = (A5 m c) :=
  (carry37 (R37 m c) main_arg5 (by decide)).trans (at37_main_arg5 m c)

theorem at38_main_arg6 : R38 m c (Proc.devRef .tc main_arg6) = (A6 m c) :=
  (carry37 (R37 m c) main_arg6 (by decide)).trans (at37_main_arg6 m c)

theorem at38_main_v204 : R38 m c (Proc.devRef .tc main_v204) = Cert.Model.xOut1 (F := Ideal) (A0 m c) (A1 m c) (A2 m c) (A3 m c) (A4 m c) :=
  (carry37 (R37 m c) main_v204 (by decide)).trans (at37_main_v204 m c)

theorem at38_main_v208 : R38 m c (Proc.devRef .tc main_v208) = biasVec4 (F := Ideal) (A4 m c) :=
  (carry37 (R37 m c) main_v208 (by decide)).trans (at37_main_v208 m c)

theorem at38_main_v209 : R38 m c (Proc.devRef .tc main_v209) = Cert.Model.hOut1 (F := Ideal) (A0 m c) (A1 m c) (A2 m c) (A3 m c) (A4 m c) :=
  (carry37 (R37 m c) main_v209 (by decide)).trans (at37_main_v209 m c)

theorem at38_main_v212 : R38 m c (Proc.devRef .tc main_v212) = Cert.Model.deg (F := Ideal) (A1 m c) (A2 m c) :=
  (carry37 (R37 m c) main_v212 (by decide)).trans (at37_main_v212 m c)

theorem at38_main_v214 : R38 m c (Proc.devRef .tc main_v214) = Cert.Model.degPos (F := Ideal) (A1 m c) (A2 m c) :=
  w37_main_v214 (R37 m c) (A0 m c) (A1 m c) (A2 m c) (A3 m c) (A4 m c) (A5 m c) (A6 m c) (at37_main_v212 m c)

theorem at38_main_v3 : R38 m c (Proc.devRef .tc main_v3) = Cert.Model.src (F := Ideal) (A1 m c) :=
  (carry37 (R37 m c) main_v3 (by decide)).trans (at37_main_v3 m c)

theorem at38_main_v6 : R38 m c (Proc.devRef .tc main_v6) = Cert.Model.dst (F := Ideal) (A1 m c) :=
  (carry37 (R37 m c) main_v6 (by decide)).trans (at37_main_v6 m c)

theorem at38_main_v8 : R38 m c (Proc.devRef .tc main_v8) = Cert.Model.wts (F := Ideal) (A2 m c) :=
  (carry37 (R37 m c) main_v8 (by decide)).trans (at37_main_v8 m c)

/-! ### Boundary 39 -/

theorem at39_main_arg0 : R39 m c (Proc.devRef .tc main_arg0) = (A0 m c) :=
  (carry38 (R38 m c) main_arg0 (by decide)).trans (at38_main_arg0 m c)

theorem at39_main_arg1 : R39 m c (Proc.devRef .tc main_arg1) = (A1 m c) :=
  (carry38 (R38 m c) main_arg1 (by decide)).trans (at38_main_arg1 m c)

theorem at39_main_arg2 : R39 m c (Proc.devRef .tc main_arg2) = (A2 m c) :=
  (carry38 (R38 m c) main_arg2 (by decide)).trans (at38_main_arg2 m c)

theorem at39_main_arg3 : R39 m c (Proc.devRef .tc main_arg3) = (A3 m c) :=
  (carry38 (R38 m c) main_arg3 (by decide)).trans (at38_main_arg3 m c)

theorem at39_main_arg4 : R39 m c (Proc.devRef .tc main_arg4) = (A4 m c) :=
  (carry38 (R38 m c) main_arg4 (by decide)).trans (at38_main_arg4 m c)

theorem at39_main_arg5 : R39 m c (Proc.devRef .tc main_arg5) = (A5 m c) :=
  (carry38 (R38 m c) main_arg5 (by decide)).trans (at38_main_arg5 m c)

theorem at39_main_arg6 : R39 m c (Proc.devRef .tc main_arg6) = (A6 m c) :=
  (carry38 (R38 m c) main_arg6 (by decide)).trans (at38_main_arg6 m c)

theorem at39_main_v204 : R39 m c (Proc.devRef .tc main_v204) = Cert.Model.xOut1 (F := Ideal) (A0 m c) (A1 m c) (A2 m c) (A3 m c) (A4 m c) :=
  (carry38 (R38 m c) main_v204 (by decide)).trans (at38_main_v204 m c)

theorem at39_main_v208 : R39 m c (Proc.devRef .tc main_v208) = biasVec4 (F := Ideal) (A4 m c) :=
  (carry38 (R38 m c) main_v208 (by decide)).trans (at38_main_v208 m c)

theorem at39_main_v209 : R39 m c (Proc.devRef .tc main_v209) = Cert.Model.hOut1 (F := Ideal) (A0 m c) (A1 m c) (A2 m c) (A3 m c) (A4 m c) :=
  (carry38 (R38 m c) main_v209 (by decide)).trans (at38_main_v209 m c)

theorem at39_main_v214 : R39 m c (Proc.devRef .tc main_v214) = Cert.Model.degPos (F := Ideal) (A1 m c) (A2 m c) :=
  (carry38 (R38 m c) main_v214 (by decide)).trans (at38_main_v214 m c)

theorem at39_main_v215 : R39 m c (Proc.devRef .tc main_v215) = Cert.Model.degRsqrt (F := Ideal) (A1 m c) (A2 m c) :=
  w38_main_v215 (R38 m c) (A0 m c) (A1 m c) (A2 m c) (A3 m c) (A4 m c) (A5 m c) (A6 m c) (at38_main_v212 m c)

theorem at39_main_v3 : R39 m c (Proc.devRef .tc main_v3) = Cert.Model.src (F := Ideal) (A1 m c) :=
  (carry38 (R38 m c) main_v3 (by decide)).trans (at38_main_v3 m c)

theorem at39_main_v6 : R39 m c (Proc.devRef .tc main_v6) = Cert.Model.dst (F := Ideal) (A1 m c) :=
  (carry38 (R38 m c) main_v6 (by decide)).trans (at38_main_v6 m c)

theorem at39_main_v8 : R39 m c (Proc.devRef .tc main_v8) = Cert.Model.wts (F := Ideal) (A2 m c) :=
  (carry38 (R38 m c) main_v8 (by decide)).trans (at38_main_v8 m c)

/-! ### Boundary 40 -/

theorem at40_main_arg0 : R40 m c (Proc.devRef .tc main_arg0) = (A0 m c) :=
  (carry39 (R39 m c) main_arg0 (by decide)).trans (at39_main_arg0 m c)

theorem at40_main_arg1 : R40 m c (Proc.devRef .tc main_arg1) = (A1 m c) :=
  (carry39 (R39 m c) main_arg1 (by decide)).trans (at39_main_arg1 m c)

theorem at40_main_arg2 : R40 m c (Proc.devRef .tc main_arg2) = (A2 m c) :=
  (carry39 (R39 m c) main_arg2 (by decide)).trans (at39_main_arg2 m c)

theorem at40_main_arg3 : R40 m c (Proc.devRef .tc main_arg3) = (A3 m c) :=
  (carry39 (R39 m c) main_arg3 (by decide)).trans (at39_main_arg3 m c)

theorem at40_main_arg4 : R40 m c (Proc.devRef .tc main_arg4) = (A4 m c) :=
  (carry39 (R39 m c) main_arg4 (by decide)).trans (at39_main_arg4 m c)

theorem at40_main_arg5 : R40 m c (Proc.devRef .tc main_arg5) = (A5 m c) :=
  (carry39 (R39 m c) main_arg5 (by decide)).trans (at39_main_arg5 m c)

theorem at40_main_arg6 : R40 m c (Proc.devRef .tc main_arg6) = (A6 m c) :=
  (carry39 (R39 m c) main_arg6 (by decide)).trans (at39_main_arg6 m c)

theorem at40_main_v204 : R40 m c (Proc.devRef .tc main_v204) = Cert.Model.xOut1 (F := Ideal) (A0 m c) (A1 m c) (A2 m c) (A3 m c) (A4 m c) :=
  (carry39 (R39 m c) main_v204 (by decide)).trans (at39_main_v204 m c)

theorem at40_main_v208 : R40 m c (Proc.devRef .tc main_v208) = biasVec4 (F := Ideal) (A4 m c) :=
  (carry39 (R39 m c) main_v208 (by decide)).trans (at39_main_v208 m c)

theorem at40_main_v209 : R40 m c (Proc.devRef .tc main_v209) = Cert.Model.hOut1 (F := Ideal) (A0 m c) (A1 m c) (A2 m c) (A3 m c) (A4 m c) :=
  (carry39 (R39 m c) main_v209 (by decide)).trans (at39_main_v209 m c)

theorem at40_main_v216 : R40 m c (Proc.devRef .tc main_v216) = Cert.Model.dinv (F := Ideal) (A1 m c) (A2 m c) :=
  w39_main_v216 (R39 m c) (A0 m c) (A1 m c) (A2 m c) (A3 m c) (A4 m c) (A5 m c) (A6 m c) (at39_main_v214 m c) (at39_main_v215 m c)

theorem at40_main_v3 : R40 m c (Proc.devRef .tc main_v3) = Cert.Model.src (F := Ideal) (A1 m c) :=
  (carry39 (R39 m c) main_v3 (by decide)).trans (at39_main_v3 m c)

theorem at40_main_v6 : R40 m c (Proc.devRef .tc main_v6) = Cert.Model.dst (F := Ideal) (A1 m c) :=
  (carry39 (R39 m c) main_v6 (by decide)).trans (at39_main_v6 m c)

theorem at40_main_v8 : R40 m c (Proc.devRef .tc main_v8) = Cert.Model.wts (F := Ideal) (A2 m c) :=
  (carry39 (R39 m c) main_v8 (by decide)).trans (at39_main_v8 m c)

/-! ### Boundary 41 -/

theorem at41_main_arg0 : R41 m c (Proc.devRef .tc main_arg0) = (A0 m c) :=
  (carry40 (R40 m c) main_arg0 (by decide)).trans (at40_main_arg0 m c)

theorem at41_main_arg1 : R41 m c (Proc.devRef .tc main_arg1) = (A1 m c) :=
  (carry40 (R40 m c) main_arg1 (by decide)).trans (at40_main_arg1 m c)

theorem at41_main_arg2 : R41 m c (Proc.devRef .tc main_arg2) = (A2 m c) :=
  (carry40 (R40 m c) main_arg2 (by decide)).trans (at40_main_arg2 m c)

theorem at41_main_arg3 : R41 m c (Proc.devRef .tc main_arg3) = (A3 m c) :=
  (carry40 (R40 m c) main_arg3 (by decide)).trans (at40_main_arg3 m c)

theorem at41_main_arg4 : R41 m c (Proc.devRef .tc main_arg4) = (A4 m c) :=
  (carry40 (R40 m c) main_arg4 (by decide)).trans (at40_main_arg4 m c)

theorem at41_main_arg5 : R41 m c (Proc.devRef .tc main_arg5) = (A5 m c) :=
  (carry40 (R40 m c) main_arg5 (by decide)).trans (at40_main_arg5 m c)

theorem at41_main_arg6 : R41 m c (Proc.devRef .tc main_arg6) = (A6 m c) :=
  (carry40 (R40 m c) main_arg6 (by decide)).trans (at40_main_arg6 m c)

theorem at41_main_v204 : R41 m c (Proc.devRef .tc main_v204) = Cert.Model.xOut1 (F := Ideal) (A0 m c) (A1 m c) (A2 m c) (A3 m c) (A4 m c) :=
  (carry40 (R40 m c) main_v204 (by decide)).trans (at40_main_v204 m c)

theorem at41_main_v208 : R41 m c (Proc.devRef .tc main_v208) = biasVec4 (F := Ideal) (A4 m c) :=
  (carry40 (R40 m c) main_v208 (by decide)).trans (at40_main_v208 m c)

theorem at41_main_v209 : R41 m c (Proc.devRef .tc main_v209) = Cert.Model.hOut1 (F := Ideal) (A0 m c) (A1 m c) (A2 m c) (A3 m c) (A4 m c) :=
  (carry40 (R40 m c) main_v209 (by decide)).trans (at40_main_v209 m c)

theorem at41_main_v232 : R41 m c (Proc.devRef .tc main_v232) = Cert.Model.enorm (F := Ideal) (A1 m c) (A2 m c) :=
  w40_main_v232 (R40 m c) (A0 m c) (A1 m c) (A2 m c) (A3 m c) (A4 m c) (A5 m c) (A6 m c) (at40_main_v216 m c) (at40_main_v3 m c) (at40_main_v6 m c) (at40_main_v8 m c)

theorem at41_main_v3 : R41 m c (Proc.devRef .tc main_v3) = Cert.Model.src (F := Ideal) (A1 m c) :=
  (carry40 (R40 m c) main_v3 (by decide)).trans (at40_main_v3 m c)

theorem at41_main_v6 : R41 m c (Proc.devRef .tc main_v6) = Cert.Model.dst (F := Ideal) (A1 m c) :=
  (carry40 (R40 m c) main_v6 (by decide)).trans (at40_main_v6 m c)

theorem at41_main_v8 : R41 m c (Proc.devRef .tc main_v8) = Cert.Model.wts (F := Ideal) (A2 m c) :=
  (carry40 (R40 m c) main_v8 (by decide)).trans (at40_main_v8 m c)

/-! ### Boundary 42 -/

theorem at42_main_arg0 : R42 m c (Proc.devRef .tc main_arg0) = (A0 m c) :=
  (carry41 (R41 m c) main_arg0 (by decide)).trans (at41_main_arg0 m c)

theorem at42_main_arg1 : R42 m c (Proc.devRef .tc main_arg1) = (A1 m c) :=
  (carry41 (R41 m c) main_arg1 (by decide)).trans (at41_main_arg1 m c)

theorem at42_main_arg2 : R42 m c (Proc.devRef .tc main_arg2) = (A2 m c) :=
  (carry41 (R41 m c) main_arg2 (by decide)).trans (at41_main_arg2 m c)

theorem at42_main_arg3 : R42 m c (Proc.devRef .tc main_arg3) = (A3 m c) :=
  (carry41 (R41 m c) main_arg3 (by decide)).trans (at41_main_arg3 m c)

theorem at42_main_arg4 : R42 m c (Proc.devRef .tc main_arg4) = (A4 m c) :=
  (carry41 (R41 m c) main_arg4 (by decide)).trans (at41_main_arg4 m c)

theorem at42_main_arg5 : R42 m c (Proc.devRef .tc main_arg5) = (A5 m c) :=
  (carry41 (R41 m c) main_arg5 (by decide)).trans (at41_main_arg5 m c)

theorem at42_main_arg6 : R42 m c (Proc.devRef .tc main_arg6) = (A6 m c) :=
  (carry41 (R41 m c) main_arg6 (by decide)).trans (at41_main_arg6 m c)

theorem at42_main_v204 : R42 m c (Proc.devRef .tc main_v204) = Cert.Model.xOut1 (F := Ideal) (A0 m c) (A1 m c) (A2 m c) (A3 m c) (A4 m c) :=
  (carry41 (R41 m c) main_v204 (by decide)).trans (at41_main_v204 m c)

theorem at42_main_v208 : R42 m c (Proc.devRef .tc main_v208) = biasVec4 (F := Ideal) (A4 m c) :=
  (carry41 (R41 m c) main_v208 (by decide)).trans (at41_main_v208 m c)

theorem at42_main_v245 : R42 m c (Proc.devRef .tc main_v245) = Cert.Model.aggA2 (F := Ideal) (A0 m c) (A1 m c) (A2 m c) (A3 m c) (A4 m c) :=
  w41_main_v245 (R41 m c) (A0 m c) (A1 m c) (A2 m c) (A3 m c) (A4 m c) (A5 m c) (A6 m c) (at41_main_v209 m c) (at41_main_v232 m c) (at41_main_v3 m c) (at41_main_v6 m c)

theorem at42_main_v3 : R42 m c (Proc.devRef .tc main_v3) = Cert.Model.src (F := Ideal) (A1 m c) :=
  (carry41 (R41 m c) main_v3 (by decide)).trans (at41_main_v3 m c)

theorem at42_main_v6 : R42 m c (Proc.devRef .tc main_v6) = Cert.Model.dst (F := Ideal) (A1 m c) :=
  (carry41 (R41 m c) main_v6 (by decide)).trans (at41_main_v6 m c)

theorem at42_main_v8 : R42 m c (Proc.devRef .tc main_v8) = Cert.Model.wts (F := Ideal) (A2 m c) :=
  (carry41 (R41 m c) main_v8 (by decide)).trans (at41_main_v8 m c)

/-! ### Boundary 43 -/

theorem at43_main_arg0 : R43 m c (Proc.devRef .tc main_arg0) = (A0 m c) :=
  (carry42 (R42 m c) main_arg0 (by decide)).trans (at42_main_arg0 m c)

theorem at43_main_arg1 : R43 m c (Proc.devRef .tc main_arg1) = (A1 m c) :=
  (carry42 (R42 m c) main_arg1 (by decide)).trans (at42_main_arg1 m c)

theorem at43_main_arg2 : R43 m c (Proc.devRef .tc main_arg2) = (A2 m c) :=
  (carry42 (R42 m c) main_arg2 (by decide)).trans (at42_main_arg2 m c)

theorem at43_main_arg3 : R43 m c (Proc.devRef .tc main_arg3) = (A3 m c) :=
  (carry42 (R42 m c) main_arg3 (by decide)).trans (at42_main_arg3 m c)

theorem at43_main_arg4 : R43 m c (Proc.devRef .tc main_arg4) = (A4 m c) :=
  (carry42 (R42 m c) main_arg4 (by decide)).trans (at42_main_arg4 m c)

theorem at43_main_arg5 : R43 m c (Proc.devRef .tc main_arg5) = (A5 m c) :=
  (carry42 (R42 m c) main_arg5 (by decide)).trans (at42_main_arg5 m c)

theorem at43_main_arg6 : R43 m c (Proc.devRef .tc main_arg6) = (A6 m c) :=
  (carry42 (R42 m c) main_arg6 (by decide)).trans (at42_main_arg6 m c)

theorem at43_main_v204 : R43 m c (Proc.devRef .tc main_v204) = Cert.Model.xOut1 (F := Ideal) (A0 m c) (A1 m c) (A2 m c) (A3 m c) (A4 m c) :=
  (carry42 (R42 m c) main_v204 (by decide)).trans (at42_main_v204 m c)

theorem at43_main_v253 : R43 m c (Proc.devRef .tc main_v253) = biasVec5 (F := Ideal) (A4 m c) :=
  w42_main_v253 (R42 m c) (A0 m c) (A1 m c) (A2 m c) (A3 m c) (A4 m c) (A5 m c) (A6 m c) (at42_main_arg4 m c)

theorem at43_main_v254 : R43 m c (Proc.devRef .tc main_v254) = Cert.Model.hMid2 (F := Ideal) (A0 m c) (A1 m c) (A2 m c) (A3 m c) (A4 m c) :=
  w42_main_v254 (R42 m c) (A0 m c) (A1 m c) (A2 m c) (A3 m c) (A4 m c) (A5 m c) (A6 m c) (at42_main_arg3 m c) (at42_main_v208 m c) (at42_main_v245 m c)

theorem at43_main_v3 : R43 m c (Proc.devRef .tc main_v3) = Cert.Model.src (F := Ideal) (A1 m c) :=
  (carry42 (R42 m c) main_v3 (by decide)).trans (at42_main_v3 m c)

theorem at43_main_v6 : R43 m c (Proc.devRef .tc main_v6) = Cert.Model.dst (F := Ideal) (A1 m c) :=
  (carry42 (R42 m c) main_v6 (by decide)).trans (at42_main_v6 m c)

theorem at43_main_v8 : R43 m c (Proc.devRef .tc main_v8) = Cert.Model.wts (F := Ideal) (A2 m c) :=
  (carry42 (R42 m c) main_v8 (by decide)).trans (at42_main_v8 m c)

/-! ### Boundary 44 -/

theorem at44_main_arg0 : R44 m c (Proc.devRef .tc main_arg0) = (A0 m c) :=
  (carry43 (R43 m c) main_arg0 (by decide)).trans (at43_main_arg0 m c)

theorem at44_main_arg1 : R44 m c (Proc.devRef .tc main_arg1) = (A1 m c) :=
  (carry43 (R43 m c) main_arg1 (by decide)).trans (at43_main_arg1 m c)

theorem at44_main_arg2 : R44 m c (Proc.devRef .tc main_arg2) = (A2 m c) :=
  (carry43 (R43 m c) main_arg2 (by decide)).trans (at43_main_arg2 m c)

theorem at44_main_arg3 : R44 m c (Proc.devRef .tc main_arg3) = (A3 m c) :=
  (carry43 (R43 m c) main_arg3 (by decide)).trans (at43_main_arg3 m c)

theorem at44_main_arg4 : R44 m c (Proc.devRef .tc main_arg4) = (A4 m c) :=
  (carry43 (R43 m c) main_arg4 (by decide)).trans (at43_main_arg4 m c)

theorem at44_main_arg5 : R44 m c (Proc.devRef .tc main_arg5) = (A5 m c) :=
  (carry43 (R43 m c) main_arg5 (by decide)).trans (at43_main_arg5 m c)

theorem at44_main_arg6 : R44 m c (Proc.devRef .tc main_arg6) = (A6 m c) :=
  (carry43 (R43 m c) main_arg6 (by decide)).trans (at43_main_arg6 m c)

theorem at44_main_v204 : R44 m c (Proc.devRef .tc main_v204) = Cert.Model.xOut1 (F := Ideal) (A0 m c) (A1 m c) (A2 m c) (A3 m c) (A4 m c) :=
  (carry43 (R43 m c) main_v204 (by decide)).trans (at43_main_v204 m c)

theorem at44_main_v253 : R44 m c (Proc.devRef .tc main_v253) = biasVec5 (F := Ideal) (A4 m c) :=
  (carry43 (R43 m c) main_v253 (by decide)).trans (at43_main_v253 m c)

theorem at44_main_v254 : R44 m c (Proc.devRef .tc main_v254) = Cert.Model.hMid2 (F := Ideal) (A0 m c) (A1 m c) (A2 m c) (A3 m c) (A4 m c) :=
  (carry43 (R43 m c) main_v254 (by decide)).trans (at43_main_v254 m c)

theorem at44_main_v257 : R44 m c (Proc.devRef .tc main_v257) = Cert.Model.deg (F := Ideal) (A1 m c) (A2 m c) :=
  w43_main_v257 (R43 m c) (A0 m c) (A1 m c) (A2 m c) (A3 m c) (A4 m c) (A5 m c) (A6 m c) (at43_main_v6 m c) (at43_main_v8 m c)

theorem at44_main_v3 : R44 m c (Proc.devRef .tc main_v3) = Cert.Model.src (F := Ideal) (A1 m c) :=
  (carry43 (R43 m c) main_v3 (by decide)).trans (at43_main_v3 m c)

theorem at44_main_v6 : R44 m c (Proc.devRef .tc main_v6) = Cert.Model.dst (F := Ideal) (A1 m c) :=
  (carry43 (R43 m c) main_v6 (by decide)).trans (at43_main_v6 m c)

theorem at44_main_v8 : R44 m c (Proc.devRef .tc main_v8) = Cert.Model.wts (F := Ideal) (A2 m c) :=
  (carry43 (R43 m c) main_v8 (by decide)).trans (at43_main_v8 m c)

/-! ### Boundary 45 -/

theorem at45_main_arg0 : R45 m c (Proc.devRef .tc main_arg0) = (A0 m c) :=
  (carry44 (R44 m c) main_arg0 (by decide)).trans (at44_main_arg0 m c)

theorem at45_main_arg1 : R45 m c (Proc.devRef .tc main_arg1) = (A1 m c) :=
  (carry44 (R44 m c) main_arg1 (by decide)).trans (at44_main_arg1 m c)

theorem at45_main_arg2 : R45 m c (Proc.devRef .tc main_arg2) = (A2 m c) :=
  (carry44 (R44 m c) main_arg2 (by decide)).trans (at44_main_arg2 m c)

theorem at45_main_arg3 : R45 m c (Proc.devRef .tc main_arg3) = (A3 m c) :=
  (carry44 (R44 m c) main_arg3 (by decide)).trans (at44_main_arg3 m c)

theorem at45_main_arg4 : R45 m c (Proc.devRef .tc main_arg4) = (A4 m c) :=
  (carry44 (R44 m c) main_arg4 (by decide)).trans (at44_main_arg4 m c)

theorem at45_main_arg5 : R45 m c (Proc.devRef .tc main_arg5) = (A5 m c) :=
  (carry44 (R44 m c) main_arg5 (by decide)).trans (at44_main_arg5 m c)

theorem at45_main_arg6 : R45 m c (Proc.devRef .tc main_arg6) = (A6 m c) :=
  (carry44 (R44 m c) main_arg6 (by decide)).trans (at44_main_arg6 m c)

theorem at45_main_v204 : R45 m c (Proc.devRef .tc main_v204) = Cert.Model.xOut1 (F := Ideal) (A0 m c) (A1 m c) (A2 m c) (A3 m c) (A4 m c) :=
  (carry44 (R44 m c) main_v204 (by decide)).trans (at44_main_v204 m c)

theorem at45_main_v253 : R45 m c (Proc.devRef .tc main_v253) = biasVec5 (F := Ideal) (A4 m c) :=
  (carry44 (R44 m c) main_v253 (by decide)).trans (at44_main_v253 m c)

theorem at45_main_v254 : R45 m c (Proc.devRef .tc main_v254) = Cert.Model.hMid2 (F := Ideal) (A0 m c) (A1 m c) (A2 m c) (A3 m c) (A4 m c) :=
  (carry44 (R44 m c) main_v254 (by decide)).trans (at44_main_v254 m c)

theorem at45_main_v257 : R45 m c (Proc.devRef .tc main_v257) = Cert.Model.deg (F := Ideal) (A1 m c) (A2 m c) :=
  (carry44 (R44 m c) main_v257 (by decide)).trans (at44_main_v257 m c)

theorem at45_main_v259 : R45 m c (Proc.devRef .tc main_v259) = Cert.Model.degPos (F := Ideal) (A1 m c) (A2 m c) :=
  w44_main_v259 (R44 m c) (A0 m c) (A1 m c) (A2 m c) (A3 m c) (A4 m c) (A5 m c) (A6 m c) (at44_main_v257 m c)

theorem at45_main_v3 : R45 m c (Proc.devRef .tc main_v3) = Cert.Model.src (F := Ideal) (A1 m c) :=
  (carry44 (R44 m c) main_v3 (by decide)).trans (at44_main_v3 m c)

theorem at45_main_v6 : R45 m c (Proc.devRef .tc main_v6) = Cert.Model.dst (F := Ideal) (A1 m c) :=
  (carry44 (R44 m c) main_v6 (by decide)).trans (at44_main_v6 m c)

theorem at45_main_v8 : R45 m c (Proc.devRef .tc main_v8) = Cert.Model.wts (F := Ideal) (A2 m c) :=
  (carry44 (R44 m c) main_v8 (by decide)).trans (at44_main_v8 m c)

/-! ### Boundary 46 -/

theorem at46_main_arg0 : R46 m c (Proc.devRef .tc main_arg0) = (A0 m c) :=
  (carry45 (R45 m c) main_arg0 (by decide)).trans (at45_main_arg0 m c)

theorem at46_main_arg1 : R46 m c (Proc.devRef .tc main_arg1) = (A1 m c) :=
  (carry45 (R45 m c) main_arg1 (by decide)).trans (at45_main_arg1 m c)

theorem at46_main_arg2 : R46 m c (Proc.devRef .tc main_arg2) = (A2 m c) :=
  (carry45 (R45 m c) main_arg2 (by decide)).trans (at45_main_arg2 m c)

theorem at46_main_arg3 : R46 m c (Proc.devRef .tc main_arg3) = (A3 m c) :=
  (carry45 (R45 m c) main_arg3 (by decide)).trans (at45_main_arg3 m c)

theorem at46_main_arg4 : R46 m c (Proc.devRef .tc main_arg4) = (A4 m c) :=
  (carry45 (R45 m c) main_arg4 (by decide)).trans (at45_main_arg4 m c)

theorem at46_main_arg5 : R46 m c (Proc.devRef .tc main_arg5) = (A5 m c) :=
  (carry45 (R45 m c) main_arg5 (by decide)).trans (at45_main_arg5 m c)

theorem at46_main_arg6 : R46 m c (Proc.devRef .tc main_arg6) = (A6 m c) :=
  (carry45 (R45 m c) main_arg6 (by decide)).trans (at45_main_arg6 m c)

theorem at46_main_v204 : R46 m c (Proc.devRef .tc main_v204) = Cert.Model.xOut1 (F := Ideal) (A0 m c) (A1 m c) (A2 m c) (A3 m c) (A4 m c) :=
  (carry45 (R45 m c) main_v204 (by decide)).trans (at45_main_v204 m c)

theorem at46_main_v253 : R46 m c (Proc.devRef .tc main_v253) = biasVec5 (F := Ideal) (A4 m c) :=
  (carry45 (R45 m c) main_v253 (by decide)).trans (at45_main_v253 m c)

theorem at46_main_v254 : R46 m c (Proc.devRef .tc main_v254) = Cert.Model.hMid2 (F := Ideal) (A0 m c) (A1 m c) (A2 m c) (A3 m c) (A4 m c) :=
  (carry45 (R45 m c) main_v254 (by decide)).trans (at45_main_v254 m c)

theorem at46_main_v259 : R46 m c (Proc.devRef .tc main_v259) = Cert.Model.degPos (F := Ideal) (A1 m c) (A2 m c) :=
  (carry45 (R45 m c) main_v259 (by decide)).trans (at45_main_v259 m c)

theorem at46_main_v260 : R46 m c (Proc.devRef .tc main_v260) = Cert.Model.degRsqrt (F := Ideal) (A1 m c) (A2 m c) :=
  w45_main_v260 (R45 m c) (A0 m c) (A1 m c) (A2 m c) (A3 m c) (A4 m c) (A5 m c) (A6 m c) (at45_main_v257 m c)

theorem at46_main_v3 : R46 m c (Proc.devRef .tc main_v3) = Cert.Model.src (F := Ideal) (A1 m c) :=
  (carry45 (R45 m c) main_v3 (by decide)).trans (at45_main_v3 m c)

theorem at46_main_v6 : R46 m c (Proc.devRef .tc main_v6) = Cert.Model.dst (F := Ideal) (A1 m c) :=
  (carry45 (R45 m c) main_v6 (by decide)).trans (at45_main_v6 m c)

theorem at46_main_v8 : R46 m c (Proc.devRef .tc main_v8) = Cert.Model.wts (F := Ideal) (A2 m c) :=
  (carry45 (R45 m c) main_v8 (by decide)).trans (at45_main_v8 m c)

/-! ### Boundary 47 -/

theorem at47_main_arg0 : R47 m c (Proc.devRef .tc main_arg0) = (A0 m c) :=
  (carry46 (R46 m c) main_arg0 (by decide)).trans (at46_main_arg0 m c)

theorem at47_main_arg1 : R47 m c (Proc.devRef .tc main_arg1) = (A1 m c) :=
  (carry46 (R46 m c) main_arg1 (by decide)).trans (at46_main_arg1 m c)

theorem at47_main_arg2 : R47 m c (Proc.devRef .tc main_arg2) = (A2 m c) :=
  (carry46 (R46 m c) main_arg2 (by decide)).trans (at46_main_arg2 m c)

theorem at47_main_arg3 : R47 m c (Proc.devRef .tc main_arg3) = (A3 m c) :=
  (carry46 (R46 m c) main_arg3 (by decide)).trans (at46_main_arg3 m c)

theorem at47_main_arg4 : R47 m c (Proc.devRef .tc main_arg4) = (A4 m c) :=
  (carry46 (R46 m c) main_arg4 (by decide)).trans (at46_main_arg4 m c)

theorem at47_main_arg5 : R47 m c (Proc.devRef .tc main_arg5) = (A5 m c) :=
  (carry46 (R46 m c) main_arg5 (by decide)).trans (at46_main_arg5 m c)

theorem at47_main_arg6 : R47 m c (Proc.devRef .tc main_arg6) = (A6 m c) :=
  (carry46 (R46 m c) main_arg6 (by decide)).trans (at46_main_arg6 m c)

theorem at47_main_v204 : R47 m c (Proc.devRef .tc main_v204) = Cert.Model.xOut1 (F := Ideal) (A0 m c) (A1 m c) (A2 m c) (A3 m c) (A4 m c) :=
  (carry46 (R46 m c) main_v204 (by decide)).trans (at46_main_v204 m c)

theorem at47_main_v253 : R47 m c (Proc.devRef .tc main_v253) = biasVec5 (F := Ideal) (A4 m c) :=
  (carry46 (R46 m c) main_v253 (by decide)).trans (at46_main_v253 m c)

theorem at47_main_v254 : R47 m c (Proc.devRef .tc main_v254) = Cert.Model.hMid2 (F := Ideal) (A0 m c) (A1 m c) (A2 m c) (A3 m c) (A4 m c) :=
  (carry46 (R46 m c) main_v254 (by decide)).trans (at46_main_v254 m c)

theorem at47_main_v261 : R47 m c (Proc.devRef .tc main_v261) = Cert.Model.dinv (F := Ideal) (A1 m c) (A2 m c) :=
  w46_main_v261 (R46 m c) (A0 m c) (A1 m c) (A2 m c) (A3 m c) (A4 m c) (A5 m c) (A6 m c) (at46_main_v259 m c) (at46_main_v260 m c)

theorem at47_main_v3 : R47 m c (Proc.devRef .tc main_v3) = Cert.Model.src (F := Ideal) (A1 m c) :=
  (carry46 (R46 m c) main_v3 (by decide)).trans (at46_main_v3 m c)

theorem at47_main_v6 : R47 m c (Proc.devRef .tc main_v6) = Cert.Model.dst (F := Ideal) (A1 m c) :=
  (carry46 (R46 m c) main_v6 (by decide)).trans (at46_main_v6 m c)

theorem at47_main_v8 : R47 m c (Proc.devRef .tc main_v8) = Cert.Model.wts (F := Ideal) (A2 m c) :=
  (carry46 (R46 m c) main_v8 (by decide)).trans (at46_main_v8 m c)

/-! ### Boundary 48 -/

theorem at48_main_arg0 : R48 m c (Proc.devRef .tc main_arg0) = (A0 m c) :=
  (carry47 (R47 m c) main_arg0 (by decide)).trans (at47_main_arg0 m c)

theorem at48_main_arg1 : R48 m c (Proc.devRef .tc main_arg1) = (A1 m c) :=
  (carry47 (R47 m c) main_arg1 (by decide)).trans (at47_main_arg1 m c)

theorem at48_main_arg2 : R48 m c (Proc.devRef .tc main_arg2) = (A2 m c) :=
  (carry47 (R47 m c) main_arg2 (by decide)).trans (at47_main_arg2 m c)

theorem at48_main_arg3 : R48 m c (Proc.devRef .tc main_arg3) = (A3 m c) :=
  (carry47 (R47 m c) main_arg3 (by decide)).trans (at47_main_arg3 m c)

theorem at48_main_arg4 : R48 m c (Proc.devRef .tc main_arg4) = (A4 m c) :=
  (carry47 (R47 m c) main_arg4 (by decide)).trans (at47_main_arg4 m c)

theorem at48_main_arg5 : R48 m c (Proc.devRef .tc main_arg5) = (A5 m c) :=
  (carry47 (R47 m c) main_arg5 (by decide)).trans (at47_main_arg5 m c)

theorem at48_main_arg6 : R48 m c (Proc.devRef .tc main_arg6) = (A6 m c) :=
  (carry47 (R47 m c) main_arg6 (by decide)).trans (at47_main_arg6 m c)

theorem at48_main_v204 : R48 m c (Proc.devRef .tc main_v204) = Cert.Model.xOut1 (F := Ideal) (A0 m c) (A1 m c) (A2 m c) (A3 m c) (A4 m c) :=
  (carry47 (R47 m c) main_v204 (by decide)).trans (at47_main_v204 m c)

theorem at48_main_v253 : R48 m c (Proc.devRef .tc main_v253) = biasVec5 (F := Ideal) (A4 m c) :=
  (carry47 (R47 m c) main_v253 (by decide)).trans (at47_main_v253 m c)

theorem at48_main_v254 : R48 m c (Proc.devRef .tc main_v254) = Cert.Model.hMid2 (F := Ideal) (A0 m c) (A1 m c) (A2 m c) (A3 m c) (A4 m c) :=
  (carry47 (R47 m c) main_v254 (by decide)).trans (at47_main_v254 m c)

theorem at48_main_v277 : R48 m c (Proc.devRef .tc main_v277) = Cert.Model.enorm (F := Ideal) (A1 m c) (A2 m c) :=
  w47_main_v277 (R47 m c) (A0 m c) (A1 m c) (A2 m c) (A3 m c) (A4 m c) (A5 m c) (A6 m c) (at47_main_v261 m c) (at47_main_v3 m c) (at47_main_v6 m c) (at47_main_v8 m c)

theorem at48_main_v3 : R48 m c (Proc.devRef .tc main_v3) = Cert.Model.src (F := Ideal) (A1 m c) :=
  (carry47 (R47 m c) main_v3 (by decide)).trans (at47_main_v3 m c)

theorem at48_main_v6 : R48 m c (Proc.devRef .tc main_v6) = Cert.Model.dst (F := Ideal) (A1 m c) :=
  (carry47 (R47 m c) main_v6 (by decide)).trans (at47_main_v6 m c)

theorem at48_main_v8 : R48 m c (Proc.devRef .tc main_v8) = Cert.Model.wts (F := Ideal) (A2 m c) :=
  (carry47 (R47 m c) main_v8 (by decide)).trans (at47_main_v8 m c)

/-! ### Boundary 49 -/

theorem at49_main_arg0 : R49 m c (Proc.devRef .tc main_arg0) = (A0 m c) :=
  (carry48 (R48 m c) main_arg0 (by decide)).trans (at48_main_arg0 m c)

theorem at49_main_arg1 : R49 m c (Proc.devRef .tc main_arg1) = (A1 m c) :=
  (carry48 (R48 m c) main_arg1 (by decide)).trans (at48_main_arg1 m c)

theorem at49_main_arg2 : R49 m c (Proc.devRef .tc main_arg2) = (A2 m c) :=
  (carry48 (R48 m c) main_arg2 (by decide)).trans (at48_main_arg2 m c)

theorem at49_main_arg3 : R49 m c (Proc.devRef .tc main_arg3) = (A3 m c) :=
  (carry48 (R48 m c) main_arg3 (by decide)).trans (at48_main_arg3 m c)

theorem at49_main_arg4 : R49 m c (Proc.devRef .tc main_arg4) = (A4 m c) :=
  (carry48 (R48 m c) main_arg4 (by decide)).trans (at48_main_arg4 m c)

theorem at49_main_arg5 : R49 m c (Proc.devRef .tc main_arg5) = (A5 m c) :=
  (carry48 (R48 m c) main_arg5 (by decide)).trans (at48_main_arg5 m c)

theorem at49_main_arg6 : R49 m c (Proc.devRef .tc main_arg6) = (A6 m c) :=
  (carry48 (R48 m c) main_arg6 (by decide)).trans (at48_main_arg6 m c)

theorem at49_main_v204 : R49 m c (Proc.devRef .tc main_v204) = Cert.Model.xOut1 (F := Ideal) (A0 m c) (A1 m c) (A2 m c) (A3 m c) (A4 m c) :=
  (carry48 (R48 m c) main_v204 (by decide)).trans (at48_main_v204 m c)

theorem at49_main_v253 : R49 m c (Proc.devRef .tc main_v253) = biasVec5 (F := Ideal) (A4 m c) :=
  (carry48 (R48 m c) main_v253 (by decide)).trans (at48_main_v253 m c)

theorem at49_main_v290 : R49 m c (Proc.devRef .tc main_v290) = Cert.Model.aggB2 (F := Ideal) (A0 m c) (A1 m c) (A2 m c) (A3 m c) (A4 m c) :=
  w48_main_v290 (R48 m c) (A0 m c) (A1 m c) (A2 m c) (A3 m c) (A4 m c) (A5 m c) (A6 m c) (at48_main_v254 m c) (at48_main_v277 m c) (at48_main_v3 m c) (at48_main_v6 m c)

theorem at49_main_v3 : R49 m c (Proc.devRef .tc main_v3) = Cert.Model.src (F := Ideal) (A1 m c) :=
  (carry48 (R48 m c) main_v3 (by decide)).trans (at48_main_v3 m c)

theorem at49_main_v6 : R49 m c (Proc.devRef .tc main_v6) = Cert.Model.dst (F := Ideal) (A1 m c) :=
  (carry48 (R48 m c) main_v6 (by decide)).trans (at48_main_v6 m c)

theorem at49_main_v8 : R49 m c (Proc.devRef .tc main_v8) = Cert.Model.wts (F := Ideal) (A2 m c) :=
  (carry48 (R48 m c) main_v8 (by decide)).trans (at48_main_v8 m c)

/-! ### Boundary 50 -/

theorem at50_main_arg0 : R50 m c (Proc.devRef .tc main_arg0) = (A0 m c) :=
  (carry49 (R49 m c) main_arg0 (by decide)).trans (at49_main_arg0 m c)

theorem at50_main_arg1 : R50 m c (Proc.devRef .tc main_arg1) = (A1 m c) :=
  (carry49 (R49 m c) main_arg1 (by decide)).trans (at49_main_arg1 m c)

theorem at50_main_arg2 : R50 m c (Proc.devRef .tc main_arg2) = (A2 m c) :=
  (carry49 (R49 m c) main_arg2 (by decide)).trans (at49_main_arg2 m c)

theorem at50_main_arg3 : R50 m c (Proc.devRef .tc main_arg3) = (A3 m c) :=
  (carry49 (R49 m c) main_arg3 (by decide)).trans (at49_main_arg3 m c)

theorem at50_main_arg4 : R50 m c (Proc.devRef .tc main_arg4) = (A4 m c) :=
  (carry49 (R49 m c) main_arg4 (by decide)).trans (at49_main_arg4 m c)

theorem at50_main_arg5 : R50 m c (Proc.devRef .tc main_arg5) = (A5 m c) :=
  (carry49 (R49 m c) main_arg5 (by decide)).trans (at49_main_arg5 m c)

theorem at50_main_arg6 : R50 m c (Proc.devRef .tc main_arg6) = (A6 m c) :=
  (carry49 (R49 m c) main_arg6 (by decide)).trans (at49_main_arg6 m c)

theorem at50_main_v204 : R50 m c (Proc.devRef .tc main_v204) = Cert.Model.xOut1 (F := Ideal) (A0 m c) (A1 m c) (A2 m c) (A3 m c) (A4 m c) :=
  (carry49 (R49 m c) main_v204 (by decide)).trans (at49_main_v204 m c)

theorem at50_main_v294 : R50 m c (Proc.devRef .tc main_v294) = Cert.RefOps.relu (F := Ideal) (Cert.RefOps.addRow (F := Ideal) (Cert.Model.aggB2 (F := Ideal) (A0 m c) (A1 m c) (A2 m c) (A3 m c) (A4 m c)) (Cert.Model.biasRow5 (F := Ideal) (A4 m c))) :=
  w49_main_v294 (R49 m c) (A0 m c) (A1 m c) (A2 m c) (A3 m c) (A4 m c) (A5 m c) (A6 m c) (at49_main_v253 m c) (at49_main_v290 m c)

theorem at50_main_v3 : R50 m c (Proc.devRef .tc main_v3) = Cert.Model.src (F := Ideal) (A1 m c) :=
  (carry49 (R49 m c) main_v3 (by decide)).trans (at49_main_v3 m c)

theorem at50_main_v6 : R50 m c (Proc.devRef .tc main_v6) = Cert.Model.dst (F := Ideal) (A1 m c) :=
  (carry49 (R49 m c) main_v6 (by decide)).trans (at49_main_v6 m c)

theorem at50_main_v8 : R50 m c (Proc.devRef .tc main_v8) = Cert.Model.wts (F := Ideal) (A2 m c) :=
  (carry49 (R49 m c) main_v8 (by decide)).trans (at49_main_v8 m c)

/-! ### Boundary 51 -/

theorem at51_main_arg0 : R51 m c (Proc.devRef .tc main_arg0) = (A0 m c) :=
  (carry50 (R50 m c) main_arg0 (by decide)).trans (at50_main_arg0 m c)

theorem at51_main_arg1 : R51 m c (Proc.devRef .tc main_arg1) = (A1 m c) :=
  (carry50 (R50 m c) main_arg1 (by decide)).trans (at50_main_arg1 m c)

theorem at51_main_arg2 : R51 m c (Proc.devRef .tc main_arg2) = (A2 m c) :=
  (carry50 (R50 m c) main_arg2 (by decide)).trans (at50_main_arg2 m c)

theorem at51_main_arg3 : R51 m c (Proc.devRef .tc main_arg3) = (A3 m c) :=
  (carry50 (R50 m c) main_arg3 (by decide)).trans (at50_main_arg3 m c)

theorem at51_main_arg4 : R51 m c (Proc.devRef .tc main_arg4) = (A4 m c) :=
  (carry50 (R50 m c) main_arg4 (by decide)).trans (at50_main_arg4 m c)

theorem at51_main_arg5 : R51 m c (Proc.devRef .tc main_arg5) = (A5 m c) :=
  (carry50 (R50 m c) main_arg5 (by decide)).trans (at50_main_arg5 m c)

theorem at51_main_arg6 : R51 m c (Proc.devRef .tc main_arg6) = (A6 m c) :=
  (carry50 (R50 m c) main_arg6 (by decide)).trans (at50_main_arg6 m c)

theorem at51_main_v204 : R51 m c (Proc.devRef .tc main_v204) = Cert.Model.xOut1 (F := Ideal) (A0 m c) (A1 m c) (A2 m c) (A3 m c) (A4 m c) :=
  (carry50 (R50 m c) main_v204 (by decide)).trans (at50_main_v204 m c)

theorem at51_main_v294 : R51 m c (Proc.devRef .tc main_v294) = Cert.RefOps.relu (F := Ideal) (Cert.RefOps.addRow (F := Ideal) (Cert.Model.aggB2 (F := Ideal) (A0 m c) (A1 m c) (A2 m c) (A3 m c) (A4 m c)) (Cert.Model.biasRow5 (F := Ideal) (A4 m c))) :=
  (carry50 (R50 m c) main_v294 (by decide)).trans (at50_main_v294 m c)

theorem at51_main_v295 : R51 m c (Proc.devRef .tc main_v295) = Cert.RefOps.rowNorm (F := Ideal) (Cert.RefOps.relu (F := Ideal) (Cert.RefOps.addRow (F := Ideal) (Cert.Model.aggB2 (F := Ideal) (A0 m c) (A1 m c) (A2 m c) (A3 m c) (A4 m c)) (Cert.Model.biasRow5 (F := Ideal) (A4 m c)))) :=
  w50_main_v295 (R50 m c) (A0 m c) (A1 m c) (A2 m c) (A3 m c) (A4 m c) (A5 m c) (A6 m c) (at50_main_v294 m c)

theorem at51_main_v3 : R51 m c (Proc.devRef .tc main_v3) = Cert.Model.src (F := Ideal) (A1 m c) :=
  (carry50 (R50 m c) main_v3 (by decide)).trans (at50_main_v3 m c)

theorem at51_main_v6 : R51 m c (Proc.devRef .tc main_v6) = Cert.Model.dst (F := Ideal) (A1 m c) :=
  (carry50 (R50 m c) main_v6 (by decide)).trans (at50_main_v6 m c)

theorem at51_main_v8 : R51 m c (Proc.devRef .tc main_v8) = Cert.Model.wts (F := Ideal) (A2 m c) :=
  (carry50 (R50 m c) main_v8 (by decide)).trans (at50_main_v8 m c)

/-! ### Boundary 52 -/

theorem at52_main_arg0 : R52 m c (Proc.devRef .tc main_arg0) = (A0 m c) :=
  (carry51 (R51 m c) main_arg0 (by decide)).trans (at51_main_arg0 m c)

theorem at52_main_arg1 : R52 m c (Proc.devRef .tc main_arg1) = (A1 m c) :=
  (carry51 (R51 m c) main_arg1 (by decide)).trans (at51_main_arg1 m c)

theorem at52_main_arg2 : R52 m c (Proc.devRef .tc main_arg2) = (A2 m c) :=
  (carry51 (R51 m c) main_arg2 (by decide)).trans (at51_main_arg2 m c)

theorem at52_main_arg3 : R52 m c (Proc.devRef .tc main_arg3) = (A3 m c) :=
  (carry51 (R51 m c) main_arg3 (by decide)).trans (at51_main_arg3 m c)

theorem at52_main_arg4 : R52 m c (Proc.devRef .tc main_arg4) = (A4 m c) :=
  (carry51 (R51 m c) main_arg4 (by decide)).trans (at51_main_arg4 m c)

theorem at52_main_arg5 : R52 m c (Proc.devRef .tc main_arg5) = (A5 m c) :=
  (carry51 (R51 m c) main_arg5 (by decide)).trans (at51_main_arg5 m c)

theorem at52_main_arg6 : R52 m c (Proc.devRef .tc main_arg6) = (A6 m c) :=
  (carry51 (R51 m c) main_arg6 (by decide)).trans (at51_main_arg6 m c)

theorem at52_main_v3 : R52 m c (Proc.devRef .tc main_v3) = Cert.Model.src (F := Ideal) (A1 m c) :=
  (carry51 (R51 m c) main_v3 (by decide)).trans (at51_main_v3 m c)

theorem at52_main_v302 : R52 m c (Proc.devRef .tc main_v302) = Cert.Model.xOut2 (F := Ideal) (A0 m c) (A1 m c) (A2 m c) (A3 m c) (A4 m c) :=
  w51_main_v302 (R51 m c) (A0 m c) (A1 m c) (A2 m c) (A3 m c) (A4 m c) (A5 m c) (A6 m c) (at51_main_v204 m c) (at51_main_v294 m c) (at51_main_v295 m c)

theorem at52_main_v6 : R52 m c (Proc.devRef .tc main_v6) = Cert.Model.dst (F := Ideal) (A1 m c) :=
  (carry51 (R51 m c) main_v6 (by decide)).trans (at51_main_v6 m c)

theorem at52_main_v8 : R52 m c (Proc.devRef .tc main_v8) = Cert.Model.wts (F := Ideal) (A2 m c) :=
  (carry51 (R51 m c) main_v8 (by decide)).trans (at51_main_v8 m c)

/-! ### Boundary 53 -/

theorem at53_main_arg0 : R53 m c (Proc.devRef .tc main_arg0) = (A0 m c) :=
  (carry52 (R52 m c) main_arg0 (by decide)).trans (at52_main_arg0 m c)

theorem at53_main_arg1 : R53 m c (Proc.devRef .tc main_arg1) = (A1 m c) :=
  (carry52 (R52 m c) main_arg1 (by decide)).trans (at52_main_arg1 m c)

theorem at53_main_arg2 : R53 m c (Proc.devRef .tc main_arg2) = (A2 m c) :=
  (carry52 (R52 m c) main_arg2 (by decide)).trans (at52_main_arg2 m c)

theorem at53_main_arg3 : R53 m c (Proc.devRef .tc main_arg3) = (A3 m c) :=
  (carry52 (R52 m c) main_arg3 (by decide)).trans (at52_main_arg3 m c)

theorem at53_main_arg4 : R53 m c (Proc.devRef .tc main_arg4) = (A4 m c) :=
  (carry52 (R52 m c) main_arg4 (by decide)).trans (at52_main_arg4 m c)

theorem at53_main_arg5 : R53 m c (Proc.devRef .tc main_arg5) = (A5 m c) :=
  (carry52 (R52 m c) main_arg5 (by decide)).trans (at52_main_arg5 m c)

theorem at53_main_arg6 : R53 m c (Proc.devRef .tc main_arg6) = (A6 m c) :=
  (carry52 (R52 m c) main_arg6 (by decide)).trans (at52_main_arg6 m c)

theorem at53_main_v3 : R53 m c (Proc.devRef .tc main_v3) = Cert.Model.src (F := Ideal) (A1 m c) :=
  (carry52 (R52 m c) main_v3 (by decide)).trans (at52_main_v3 m c)

theorem at53_main_v302 : R53 m c (Proc.devRef .tc main_v302) = Cert.Model.xOut2 (F := Ideal) (A0 m c) (A1 m c) (A2 m c) (A3 m c) (A4 m c) :=
  (carry52 (R52 m c) main_v302 (by decide)).trans (at52_main_v302 m c)

theorem at53_main_v306 : R53 m c (Proc.devRef .tc main_v306) = biasVec6 (F := Ideal) (A4 m c) :=
  w52_main_v306 (R52 m c) (A0 m c) (A1 m c) (A2 m c) (A3 m c) (A4 m c) (A5 m c) (A6 m c) (at52_main_arg4 m c)

theorem at53_main_v307 : R53 m c (Proc.devRef .tc main_v307) = Cert.Model.hOut2 (F := Ideal) (A0 m c) (A1 m c) (A2 m c) (A3 m c) (A4 m c) :=
  w52_main_v307 (R52 m c) (A0 m c) (A1 m c) (A2 m c) (A3 m c) (A4 m c) (A5 m c) (A6 m c) (at52_main_arg3 m c) (at52_main_v302 m c)

theorem at53_main_v6 : R53 m c (Proc.devRef .tc main_v6) = Cert.Model.dst (F := Ideal) (A1 m c) :=
  (carry52 (R52 m c) main_v6 (by decide)).trans (at52_main_v6 m c)

theorem at53_main_v8 : R53 m c (Proc.devRef .tc main_v8) = Cert.Model.wts (F := Ideal) (A2 m c) :=
  (carry52 (R52 m c) main_v8 (by decide)).trans (at52_main_v8 m c)

/-! ### Boundary 54 -/

theorem at54_main_arg0 : R54 m c (Proc.devRef .tc main_arg0) = (A0 m c) :=
  (carry53 (R53 m c) main_arg0 (by decide)).trans (at53_main_arg0 m c)

theorem at54_main_arg1 : R54 m c (Proc.devRef .tc main_arg1) = (A1 m c) :=
  (carry53 (R53 m c) main_arg1 (by decide)).trans (at53_main_arg1 m c)

theorem at54_main_arg2 : R54 m c (Proc.devRef .tc main_arg2) = (A2 m c) :=
  (carry53 (R53 m c) main_arg2 (by decide)).trans (at53_main_arg2 m c)

theorem at54_main_arg3 : R54 m c (Proc.devRef .tc main_arg3) = (A3 m c) :=
  (carry53 (R53 m c) main_arg3 (by decide)).trans (at53_main_arg3 m c)

theorem at54_main_arg4 : R54 m c (Proc.devRef .tc main_arg4) = (A4 m c) :=
  (carry53 (R53 m c) main_arg4 (by decide)).trans (at53_main_arg4 m c)

theorem at54_main_arg5 : R54 m c (Proc.devRef .tc main_arg5) = (A5 m c) :=
  (carry53 (R53 m c) main_arg5 (by decide)).trans (at53_main_arg5 m c)

theorem at54_main_arg6 : R54 m c (Proc.devRef .tc main_arg6) = (A6 m c) :=
  (carry53 (R53 m c) main_arg6 (by decide)).trans (at53_main_arg6 m c)

theorem at54_main_v3 : R54 m c (Proc.devRef .tc main_v3) = Cert.Model.src (F := Ideal) (A1 m c) :=
  (carry53 (R53 m c) main_v3 (by decide)).trans (at53_main_v3 m c)

theorem at54_main_v302 : R54 m c (Proc.devRef .tc main_v302) = Cert.Model.xOut2 (F := Ideal) (A0 m c) (A1 m c) (A2 m c) (A3 m c) (A4 m c) :=
  (carry53 (R53 m c) main_v302 (by decide)).trans (at53_main_v302 m c)

theorem at54_main_v306 : R54 m c (Proc.devRef .tc main_v306) = biasVec6 (F := Ideal) (A4 m c) :=
  (carry53 (R53 m c) main_v306 (by decide)).trans (at53_main_v306 m c)

theorem at54_main_v307 : R54 m c (Proc.devRef .tc main_v307) = Cert.Model.hOut2 (F := Ideal) (A0 m c) (A1 m c) (A2 m c) (A3 m c) (A4 m c) :=
  (carry53 (R53 m c) main_v307 (by decide)).trans (at53_main_v307 m c)

theorem at54_main_v310 : R54 m c (Proc.devRef .tc main_v310) = Cert.Model.deg (F := Ideal) (A1 m c) (A2 m c) :=
  w53_main_v310 (R53 m c) (A0 m c) (A1 m c) (A2 m c) (A3 m c) (A4 m c) (A5 m c) (A6 m c) (at53_main_v6 m c) (at53_main_v8 m c)

theorem at54_main_v6 : R54 m c (Proc.devRef .tc main_v6) = Cert.Model.dst (F := Ideal) (A1 m c) :=
  (carry53 (R53 m c) main_v6 (by decide)).trans (at53_main_v6 m c)

theorem at54_main_v8 : R54 m c (Proc.devRef .tc main_v8) = Cert.Model.wts (F := Ideal) (A2 m c) :=
  (carry53 (R53 m c) main_v8 (by decide)).trans (at53_main_v8 m c)

/-! ### Boundary 55 -/

theorem at55_main_arg0 : R55 m c (Proc.devRef .tc main_arg0) = (A0 m c) :=
  (carry54 (R54 m c) main_arg0 (by decide)).trans (at54_main_arg0 m c)

theorem at55_main_arg1 : R55 m c (Proc.devRef .tc main_arg1) = (A1 m c) :=
  (carry54 (R54 m c) main_arg1 (by decide)).trans (at54_main_arg1 m c)

theorem at55_main_arg2 : R55 m c (Proc.devRef .tc main_arg2) = (A2 m c) :=
  (carry54 (R54 m c) main_arg2 (by decide)).trans (at54_main_arg2 m c)

theorem at55_main_arg3 : R55 m c (Proc.devRef .tc main_arg3) = (A3 m c) :=
  (carry54 (R54 m c) main_arg3 (by decide)).trans (at54_main_arg3 m c)

theorem at55_main_arg4 : R55 m c (Proc.devRef .tc main_arg4) = (A4 m c) :=
  (carry54 (R54 m c) main_arg4 (by decide)).trans (at54_main_arg4 m c)

theorem at55_main_arg5 : R55 m c (Proc.devRef .tc main_arg5) = (A5 m c) :=
  (carry54 (R54 m c) main_arg5 (by decide)).trans (at54_main_arg5 m c)

theorem at55_main_arg6 : R55 m c (Proc.devRef .tc main_arg6) = (A6 m c) :=
  (carry54 (R54 m c) main_arg6 (by decide)).trans (at54_main_arg6 m c)

theorem at55_main_v3 : R55 m c (Proc.devRef .tc main_v3) = Cert.Model.src (F := Ideal) (A1 m c) :=
  (carry54 (R54 m c) main_v3 (by decide)).trans (at54_main_v3 m c)

theorem at55_main_v302 : R55 m c (Proc.devRef .tc main_v302) = Cert.Model.xOut2 (F := Ideal) (A0 m c) (A1 m c) (A2 m c) (A3 m c) (A4 m c) :=
  (carry54 (R54 m c) main_v302 (by decide)).trans (at54_main_v302 m c)

theorem at55_main_v306 : R55 m c (Proc.devRef .tc main_v306) = biasVec6 (F := Ideal) (A4 m c) :=
  (carry54 (R54 m c) main_v306 (by decide)).trans (at54_main_v306 m c)

theorem at55_main_v307 : R55 m c (Proc.devRef .tc main_v307) = Cert.Model.hOut2 (F := Ideal) (A0 m c) (A1 m c) (A2 m c) (A3 m c) (A4 m c) :=
  (carry54 (R54 m c) main_v307 (by decide)).trans (at54_main_v307 m c)

theorem at55_main_v310 : R55 m c (Proc.devRef .tc main_v310) = Cert.Model.deg (F := Ideal) (A1 m c) (A2 m c) :=
  (carry54 (R54 m c) main_v310 (by decide)).trans (at54_main_v310 m c)

theorem at55_main_v312 : R55 m c (Proc.devRef .tc main_v312) = Cert.Model.degPos (F := Ideal) (A1 m c) (A2 m c) :=
  w54_main_v312 (R54 m c) (A0 m c) (A1 m c) (A2 m c) (A3 m c) (A4 m c) (A5 m c) (A6 m c) (at54_main_v310 m c)

theorem at55_main_v6 : R55 m c (Proc.devRef .tc main_v6) = Cert.Model.dst (F := Ideal) (A1 m c) :=
  (carry54 (R54 m c) main_v6 (by decide)).trans (at54_main_v6 m c)

theorem at55_main_v8 : R55 m c (Proc.devRef .tc main_v8) = Cert.Model.wts (F := Ideal) (A2 m c) :=
  (carry54 (R54 m c) main_v8 (by decide)).trans (at54_main_v8 m c)

/-! ### Boundary 56 -/

theorem at56_main_arg0 : R56 m c (Proc.devRef .tc main_arg0) = (A0 m c) :=
  (carry55 (R55 m c) main_arg0 (by decide)).trans (at55_main_arg0 m c)

theorem at56_main_arg1 : R56 m c (Proc.devRef .tc main_arg1) = (A1 m c) :=
  (carry55 (R55 m c) main_arg1 (by decide)).trans (at55_main_arg1 m c)

theorem at56_main_arg2 : R56 m c (Proc.devRef .tc main_arg2) = (A2 m c) :=
  (carry55 (R55 m c) main_arg2 (by decide)).trans (at55_main_arg2 m c)

theorem at56_main_arg3 : R56 m c (Proc.devRef .tc main_arg3) = (A3 m c) :=
  (carry55 (R55 m c) main_arg3 (by decide)).trans (at55_main_arg3 m c)

theorem at56_main_arg4 : R56 m c (Proc.devRef .tc main_arg4) = (A4 m c) :=
  (carry55 (R55 m c) main_arg4 (by decide)).trans (at55_main_arg4 m c)

theorem at56_main_arg5 : R56 m c (Proc.devRef .tc main_arg5) = (A5 m c) :=
  (carry55 (R55 m c) main_arg5 (by decide)).trans (at55_main_arg5 m c)

theorem at56_main_arg6 : R56 m c (Proc.devRef .tc main_arg6) = (A6 m c) :=
  (carry55 (R55 m c) main_arg6 (by decide)).trans (at55_main_arg6 m c)

theorem at56_main_v3 : R56 m c (Proc.devRef .tc main_v3) = Cert.Model.src (F := Ideal) (A1 m c) :=
  (carry55 (R55 m c) main_v3 (by decide)).trans (at55_main_v3 m c)

theorem at56_main_v302 : R56 m c (Proc.devRef .tc main_v302) = Cert.Model.xOut2 (F := Ideal) (A0 m c) (A1 m c) (A2 m c) (A3 m c) (A4 m c) :=
  (carry55 (R55 m c) main_v302 (by decide)).trans (at55_main_v302 m c)

theorem at56_main_v306 : R56 m c (Proc.devRef .tc main_v306) = biasVec6 (F := Ideal) (A4 m c) :=
  (carry55 (R55 m c) main_v306 (by decide)).trans (at55_main_v306 m c)

theorem at56_main_v307 : R56 m c (Proc.devRef .tc main_v307) = Cert.Model.hOut2 (F := Ideal) (A0 m c) (A1 m c) (A2 m c) (A3 m c) (A4 m c) :=
  (carry55 (R55 m c) main_v307 (by decide)).trans (at55_main_v307 m c)

theorem at56_main_v312 : R56 m c (Proc.devRef .tc main_v312) = Cert.Model.degPos (F := Ideal) (A1 m c) (A2 m c) :=
  (carry55 (R55 m c) main_v312 (by decide)).trans (at55_main_v312 m c)

theorem at56_main_v313 : R56 m c (Proc.devRef .tc main_v313) = Cert.Model.degRsqrt (F := Ideal) (A1 m c) (A2 m c) :=
  w55_main_v313 (R55 m c) (A0 m c) (A1 m c) (A2 m c) (A3 m c) (A4 m c) (A5 m c) (A6 m c) (at55_main_v310 m c)

theorem at56_main_v6 : R56 m c (Proc.devRef .tc main_v6) = Cert.Model.dst (F := Ideal) (A1 m c) :=
  (carry55 (R55 m c) main_v6 (by decide)).trans (at55_main_v6 m c)

theorem at56_main_v8 : R56 m c (Proc.devRef .tc main_v8) = Cert.Model.wts (F := Ideal) (A2 m c) :=
  (carry55 (R55 m c) main_v8 (by decide)).trans (at55_main_v8 m c)

/-! ### Boundary 57 -/

theorem at57_main_arg0 : R57 m c (Proc.devRef .tc main_arg0) = (A0 m c) :=
  (carry56 (R56 m c) main_arg0 (by decide)).trans (at56_main_arg0 m c)

theorem at57_main_arg1 : R57 m c (Proc.devRef .tc main_arg1) = (A1 m c) :=
  (carry56 (R56 m c) main_arg1 (by decide)).trans (at56_main_arg1 m c)

theorem at57_main_arg2 : R57 m c (Proc.devRef .tc main_arg2) = (A2 m c) :=
  (carry56 (R56 m c) main_arg2 (by decide)).trans (at56_main_arg2 m c)

theorem at57_main_arg3 : R57 m c (Proc.devRef .tc main_arg3) = (A3 m c) :=
  (carry56 (R56 m c) main_arg3 (by decide)).trans (at56_main_arg3 m c)

theorem at57_main_arg4 : R57 m c (Proc.devRef .tc main_arg4) = (A4 m c) :=
  (carry56 (R56 m c) main_arg4 (by decide)).trans (at56_main_arg4 m c)

theorem at57_main_arg5 : R57 m c (Proc.devRef .tc main_arg5) = (A5 m c) :=
  (carry56 (R56 m c) main_arg5 (by decide)).trans (at56_main_arg5 m c)

theorem at57_main_arg6 : R57 m c (Proc.devRef .tc main_arg6) = (A6 m c) :=
  (carry56 (R56 m c) main_arg6 (by decide)).trans (at56_main_arg6 m c)

theorem at57_main_v3 : R57 m c (Proc.devRef .tc main_v3) = Cert.Model.src (F := Ideal) (A1 m c) :=
  (carry56 (R56 m c) main_v3 (by decide)).trans (at56_main_v3 m c)

theorem at57_main_v302 : R57 m c (Proc.devRef .tc main_v302) = Cert.Model.xOut2 (F := Ideal) (A0 m c) (A1 m c) (A2 m c) (A3 m c) (A4 m c) :=
  (carry56 (R56 m c) main_v302 (by decide)).trans (at56_main_v302 m c)

theorem at57_main_v306 : R57 m c (Proc.devRef .tc main_v306) = biasVec6 (F := Ideal) (A4 m c) :=
  (carry56 (R56 m c) main_v306 (by decide)).trans (at56_main_v306 m c)

theorem at57_main_v307 : R57 m c (Proc.devRef .tc main_v307) = Cert.Model.hOut2 (F := Ideal) (A0 m c) (A1 m c) (A2 m c) (A3 m c) (A4 m c) :=
  (carry56 (R56 m c) main_v307 (by decide)).trans (at56_main_v307 m c)

theorem at57_main_v314 : R57 m c (Proc.devRef .tc main_v314) = Cert.Model.dinv (F := Ideal) (A1 m c) (A2 m c) :=
  w56_main_v314 (R56 m c) (A0 m c) (A1 m c) (A2 m c) (A3 m c) (A4 m c) (A5 m c) (A6 m c) (at56_main_v312 m c) (at56_main_v313 m c)

theorem at57_main_v6 : R57 m c (Proc.devRef .tc main_v6) = Cert.Model.dst (F := Ideal) (A1 m c) :=
  (carry56 (R56 m c) main_v6 (by decide)).trans (at56_main_v6 m c)

theorem at57_main_v8 : R57 m c (Proc.devRef .tc main_v8) = Cert.Model.wts (F := Ideal) (A2 m c) :=
  (carry56 (R56 m c) main_v8 (by decide)).trans (at56_main_v8 m c)

/-! ### Boundary 58 -/

theorem at58_main_arg0 : R58 m c (Proc.devRef .tc main_arg0) = (A0 m c) :=
  (carry57 (R57 m c) main_arg0 (by decide)).trans (at57_main_arg0 m c)

theorem at58_main_arg1 : R58 m c (Proc.devRef .tc main_arg1) = (A1 m c) :=
  (carry57 (R57 m c) main_arg1 (by decide)).trans (at57_main_arg1 m c)

theorem at58_main_arg2 : R58 m c (Proc.devRef .tc main_arg2) = (A2 m c) :=
  (carry57 (R57 m c) main_arg2 (by decide)).trans (at57_main_arg2 m c)

theorem at58_main_arg3 : R58 m c (Proc.devRef .tc main_arg3) = (A3 m c) :=
  (carry57 (R57 m c) main_arg3 (by decide)).trans (at57_main_arg3 m c)

theorem at58_main_arg4 : R58 m c (Proc.devRef .tc main_arg4) = (A4 m c) :=
  (carry57 (R57 m c) main_arg4 (by decide)).trans (at57_main_arg4 m c)

theorem at58_main_arg5 : R58 m c (Proc.devRef .tc main_arg5) = (A5 m c) :=
  (carry57 (R57 m c) main_arg5 (by decide)).trans (at57_main_arg5 m c)

theorem at58_main_arg6 : R58 m c (Proc.devRef .tc main_arg6) = (A6 m c) :=
  (carry57 (R57 m c) main_arg6 (by decide)).trans (at57_main_arg6 m c)

theorem at58_main_v3 : R58 m c (Proc.devRef .tc main_v3) = Cert.Model.src (F := Ideal) (A1 m c) :=
  (carry57 (R57 m c) main_v3 (by decide)).trans (at57_main_v3 m c)

theorem at58_main_v302 : R58 m c (Proc.devRef .tc main_v302) = Cert.Model.xOut2 (F := Ideal) (A0 m c) (A1 m c) (A2 m c) (A3 m c) (A4 m c) :=
  (carry57 (R57 m c) main_v302 (by decide)).trans (at57_main_v302 m c)

theorem at58_main_v306 : R58 m c (Proc.devRef .tc main_v306) = biasVec6 (F := Ideal) (A4 m c) :=
  (carry57 (R57 m c) main_v306 (by decide)).trans (at57_main_v306 m c)

theorem at58_main_v307 : R58 m c (Proc.devRef .tc main_v307) = Cert.Model.hOut2 (F := Ideal) (A0 m c) (A1 m c) (A2 m c) (A3 m c) (A4 m c) :=
  (carry57 (R57 m c) main_v307 (by decide)).trans (at57_main_v307 m c)

theorem at58_main_v330 : R58 m c (Proc.devRef .tc main_v330) = Cert.Model.enorm (F := Ideal) (A1 m c) (A2 m c) :=
  w57_main_v330 (R57 m c) (A0 m c) (A1 m c) (A2 m c) (A3 m c) (A4 m c) (A5 m c) (A6 m c) (at57_main_v3 m c) (at57_main_v314 m c) (at57_main_v6 m c) (at57_main_v8 m c)

theorem at58_main_v6 : R58 m c (Proc.devRef .tc main_v6) = Cert.Model.dst (F := Ideal) (A1 m c) :=
  (carry57 (R57 m c) main_v6 (by decide)).trans (at57_main_v6 m c)

theorem at58_main_v8 : R58 m c (Proc.devRef .tc main_v8) = Cert.Model.wts (F := Ideal) (A2 m c) :=
  (carry57 (R57 m c) main_v8 (by decide)).trans (at57_main_v8 m c)

/-! ### Boundary 59 -/

theorem at59_main_arg0 : R59 m c (Proc.devRef .tc main_arg0) = (A0 m c) :=
  (carry58 (R58 m c) main_arg0 (by decide)).trans (at58_main_arg0 m c)

theorem at59_main_arg1 : R59 m c (Proc.devRef .tc main_arg1) = (A1 m c) :=
  (carry58 (R58 m c) main_arg1 (by decide)).trans (at58_main_arg1 m c)

theorem at59_main_arg2 : R59 m c (Proc.devRef .tc main_arg2) = (A2 m c) :=
  (carry58 (R58 m c) main_arg2 (by decide)).trans (at58_main_arg2 m c)

theorem at59_main_arg3 : R59 m c (Proc.devRef .tc main_arg3) = (A3 m c) :=
  (carry58 (R58 m c) main_arg3 (by decide)).trans (at58_main_arg3 m c)

theorem at59_main_arg4 : R59 m c (Proc.devRef .tc main_arg4) = (A4 m c) :=
  (carry58 (R58 m c) main_arg4 (by decide)).trans (at58_main_arg4 m c)

theorem at59_main_arg5 : R59 m c (Proc.devRef .tc main_arg5) = (A5 m c) :=
  (carry58 (R58 m c) main_arg5 (by decide)).trans (at58_main_arg5 m c)

theorem at59_main_arg6 : R59 m c (Proc.devRef .tc main_arg6) = (A6 m c) :=
  (carry58 (R58 m c) main_arg6 (by decide)).trans (at58_main_arg6 m c)

theorem at59_main_v3 : R59 m c (Proc.devRef .tc main_v3) = Cert.Model.src (F := Ideal) (A1 m c) :=
  (carry58 (R58 m c) main_v3 (by decide)).trans (at58_main_v3 m c)

theorem at59_main_v302 : R59 m c (Proc.devRef .tc main_v302) = Cert.Model.xOut2 (F := Ideal) (A0 m c) (A1 m c) (A2 m c) (A3 m c) (A4 m c) :=
  (carry58 (R58 m c) main_v302 (by decide)).trans (at58_main_v302 m c)

theorem at59_main_v306 : R59 m c (Proc.devRef .tc main_v306) = biasVec6 (F := Ideal) (A4 m c) :=
  (carry58 (R58 m c) main_v306 (by decide)).trans (at58_main_v306 m c)

theorem at59_main_v343 : R59 m c (Proc.devRef .tc main_v343) = Cert.Model.aggA3 (F := Ideal) (A0 m c) (A1 m c) (A2 m c) (A3 m c) (A4 m c) :=
  w58_main_v343 (R58 m c) (A0 m c) (A1 m c) (A2 m c) (A3 m c) (A4 m c) (A5 m c) (A6 m c) (at58_main_v3 m c) (at58_main_v307 m c) (at58_main_v330 m c) (at58_main_v6 m c)

theorem at59_main_v6 : R59 m c (Proc.devRef .tc main_v6) = Cert.Model.dst (F := Ideal) (A1 m c) :=
  (carry58 (R58 m c) main_v6 (by decide)).trans (at58_main_v6 m c)

theorem at59_main_v8 : R59 m c (Proc.devRef .tc main_v8) = Cert.Model.wts (F := Ideal) (A2 m c) :=
  (carry58 (R58 m c) main_v8 (by decide)).trans (at58_main_v8 m c)

/-! ### Boundary 60 -/

theorem at60_main_arg0 : R60 m c (Proc.devRef .tc main_arg0) = (A0 m c) :=
  (carry59 (R59 m c) main_arg0 (by decide)).trans (at59_main_arg0 m c)

theorem at60_main_arg1 : R60 m c (Proc.devRef .tc main_arg1) = (A1 m c) :=
  (carry59 (R59 m c) main_arg1 (by decide)).trans (at59_main_arg1 m c)

theorem at60_main_arg2 : R60 m c (Proc.devRef .tc main_arg2) = (A2 m c) :=
  (carry59 (R59 m c) main_arg2 (by decide)).trans (at59_main_arg2 m c)

theorem at60_main_arg3 : R60 m c (Proc.devRef .tc main_arg3) = (A3 m c) :=
  (carry59 (R59 m c) main_arg3 (by decide)).trans (at59_main_arg3 m c)

theorem at60_main_arg4 : R60 m c (Proc.devRef .tc main_arg4) = (A4 m c) :=
  (carry59 (R59 m c) main_arg4 (by decide)).trans (at59_main_arg4 m c)

theorem at60_main_arg5 : R60 m c (Proc.devRef .tc main_arg5) = (A5 m c) :=
  (carry59 (R59 m c) main_arg5 (by decide)).trans (at59_main_arg5 m c)

theorem at60_main_arg6 : R60 m c (Proc.devRef .tc main_arg6) = (A6 m c) :=
  (carry59 (R59 m c) main_arg6 (by decide)).trans (at59_main_arg6 m c)

theorem at60_main_v3 : R60 m c (Proc.devRef .tc main_v3) = Cert.Model.src (F := Ideal) (A1 m c) :=
  (carry59 (R59 m c) main_v3 (by decide)).trans (at59_main_v3 m c)

theorem at60_main_v302 : R60 m c (Proc.devRef .tc main_v302) = Cert.Model.xOut2 (F := Ideal) (A0 m c) (A1 m c) (A2 m c) (A3 m c) (A4 m c) :=
  (carry59 (R59 m c) main_v302 (by decide)).trans (at59_main_v302 m c)

theorem at60_main_v351 : R60 m c (Proc.devRef .tc main_v351) = biasVec7 (F := Ideal) (A4 m c) :=
  w59_main_v351 (R59 m c) (A0 m c) (A1 m c) (A2 m c) (A3 m c) (A4 m c) (A5 m c) (A6 m c) (at59_main_arg4 m c)

theorem at60_main_v352 : R60 m c (Proc.devRef .tc main_v352) = Cert.Model.hMid3 (F := Ideal) (A0 m c) (A1 m c) (A2 m c) (A3 m c) (A4 m c) :=
  w59_main_v352 (R59 m c) (A0 m c) (A1 m c) (A2 m c) (A3 m c) (A4 m c) (A5 m c) (A6 m c) (at59_main_arg3 m c) (at59_main_v306 m c) (at59_main_v343 m c)

theorem at60_main_v6 : R60 m c (Proc.devRef .tc main_v6) = Cert.Model.dst (F := Ideal) (A1 m c) :=
  (carry59 (R59 m c) main_v6 (by decide)).trans (at59_main_v6 m c)

theorem at60_main_v8 : R60 m c (Proc.devRef .tc main_v8) = Cert.Model.wts (F := Ideal) (A2 m c) :=
  (carry59 (R59 m c) main_v8 (by decide)).trans (at59_main_v8 m c)

/-! ### Boundary 61 -/

theorem at61_main_arg0 : R61 m c (Proc.devRef .tc main_arg0) = (A0 m c) :=
  (carry60 (R60 m c) main_arg0 (by decide)).trans (at60_main_arg0 m c)

theorem at61_main_arg1 : R61 m c (Proc.devRef .tc main_arg1) = (A1 m c) :=
  (carry60 (R60 m c) main_arg1 (by decide)).trans (at60_main_arg1 m c)

theorem at61_main_arg2 : R61 m c (Proc.devRef .tc main_arg2) = (A2 m c) :=
  (carry60 (R60 m c) main_arg2 (by decide)).trans (at60_main_arg2 m c)

theorem at61_main_arg3 : R61 m c (Proc.devRef .tc main_arg3) = (A3 m c) :=
  (carry60 (R60 m c) main_arg3 (by decide)).trans (at60_main_arg3 m c)

theorem at61_main_arg4 : R61 m c (Proc.devRef .tc main_arg4) = (A4 m c) :=
  (carry60 (R60 m c) main_arg4 (by decide)).trans (at60_main_arg4 m c)

theorem at61_main_arg5 : R61 m c (Proc.devRef .tc main_arg5) = (A5 m c) :=
  (carry60 (R60 m c) main_arg5 (by decide)).trans (at60_main_arg5 m c)

theorem at61_main_arg6 : R61 m c (Proc.devRef .tc main_arg6) = (A6 m c) :=
  (carry60 (R60 m c) main_arg6 (by decide)).trans (at60_main_arg6 m c)

theorem at61_main_v3 : R61 m c (Proc.devRef .tc main_v3) = Cert.Model.src (F := Ideal) (A1 m c) :=
  (carry60 (R60 m c) main_v3 (by decide)).trans (at60_main_v3 m c)

theorem at61_main_v302 : R61 m c (Proc.devRef .tc main_v302) = Cert.Model.xOut2 (F := Ideal) (A0 m c) (A1 m c) (A2 m c) (A3 m c) (A4 m c) :=
  (carry60 (R60 m c) main_v302 (by decide)).trans (at60_main_v302 m c)

theorem at61_main_v351 : R61 m c (Proc.devRef .tc main_v351) = biasVec7 (F := Ideal) (A4 m c) :=
  (carry60 (R60 m c) main_v351 (by decide)).trans (at60_main_v351 m c)

theorem at61_main_v352 : R61 m c (Proc.devRef .tc main_v352) = Cert.Model.hMid3 (F := Ideal) (A0 m c) (A1 m c) (A2 m c) (A3 m c) (A4 m c) :=
  (carry60 (R60 m c) main_v352 (by decide)).trans (at60_main_v352 m c)

theorem at61_main_v355 : R61 m c (Proc.devRef .tc main_v355) = Cert.Model.deg (F := Ideal) (A1 m c) (A2 m c) :=
  w60_main_v355 (R60 m c) (A0 m c) (A1 m c) (A2 m c) (A3 m c) (A4 m c) (A5 m c) (A6 m c) (at60_main_v6 m c) (at60_main_v8 m c)

theorem at61_main_v6 : R61 m c (Proc.devRef .tc main_v6) = Cert.Model.dst (F := Ideal) (A1 m c) :=
  (carry60 (R60 m c) main_v6 (by decide)).trans (at60_main_v6 m c)

theorem at61_main_v8 : R61 m c (Proc.devRef .tc main_v8) = Cert.Model.wts (F := Ideal) (A2 m c) :=
  (carry60 (R60 m c) main_v8 (by decide)).trans (at60_main_v8 m c)

/-! ### Boundary 62 -/

theorem at62_main_arg0 : R62 m c (Proc.devRef .tc main_arg0) = (A0 m c) :=
  (carry61 (R61 m c) main_arg0 (by decide)).trans (at61_main_arg0 m c)

theorem at62_main_arg1 : R62 m c (Proc.devRef .tc main_arg1) = (A1 m c) :=
  (carry61 (R61 m c) main_arg1 (by decide)).trans (at61_main_arg1 m c)

theorem at62_main_arg2 : R62 m c (Proc.devRef .tc main_arg2) = (A2 m c) :=
  (carry61 (R61 m c) main_arg2 (by decide)).trans (at61_main_arg2 m c)

theorem at62_main_arg3 : R62 m c (Proc.devRef .tc main_arg3) = (A3 m c) :=
  (carry61 (R61 m c) main_arg3 (by decide)).trans (at61_main_arg3 m c)

theorem at62_main_arg4 : R62 m c (Proc.devRef .tc main_arg4) = (A4 m c) :=
  (carry61 (R61 m c) main_arg4 (by decide)).trans (at61_main_arg4 m c)

theorem at62_main_arg5 : R62 m c (Proc.devRef .tc main_arg5) = (A5 m c) :=
  (carry61 (R61 m c) main_arg5 (by decide)).trans (at61_main_arg5 m c)

theorem at62_main_arg6 : R62 m c (Proc.devRef .tc main_arg6) = (A6 m c) :=
  (carry61 (R61 m c) main_arg6 (by decide)).trans (at61_main_arg6 m c)

theorem at62_main_v3 : R62 m c (Proc.devRef .tc main_v3) = Cert.Model.src (F := Ideal) (A1 m c) :=
  (carry61 (R61 m c) main_v3 (by decide)).trans (at61_main_v3 m c)

theorem at62_main_v302 : R62 m c (Proc.devRef .tc main_v302) = Cert.Model.xOut2 (F := Ideal) (A0 m c) (A1 m c) (A2 m c) (A3 m c) (A4 m c) :=
  (carry61 (R61 m c) main_v302 (by decide)).trans (at61_main_v302 m c)

theorem at62_main_v351 : R62 m c (Proc.devRef .tc main_v351) = biasVec7 (F := Ideal) (A4 m c) :=
  (carry61 (R61 m c) main_v351 (by decide)).trans (at61_main_v351 m c)

theorem at62_main_v352 : R62 m c (Proc.devRef .tc main_v352) = Cert.Model.hMid3 (F := Ideal) (A0 m c) (A1 m c) (A2 m c) (A3 m c) (A4 m c) :=
  (carry61 (R61 m c) main_v352 (by decide)).trans (at61_main_v352 m c)

theorem at62_main_v355 : R62 m c (Proc.devRef .tc main_v355) = Cert.Model.deg (F := Ideal) (A1 m c) (A2 m c) :=
  (carry61 (R61 m c) main_v355 (by decide)).trans (at61_main_v355 m c)

theorem at62_main_v357 : R62 m c (Proc.devRef .tc main_v357) = Cert.Model.degPos (F := Ideal) (A1 m c) (A2 m c) :=
  w61_main_v357 (R61 m c) (A0 m c) (A1 m c) (A2 m c) (A3 m c) (A4 m c) (A5 m c) (A6 m c) (at61_main_v355 m c)

theorem at62_main_v6 : R62 m c (Proc.devRef .tc main_v6) = Cert.Model.dst (F := Ideal) (A1 m c) :=
  (carry61 (R61 m c) main_v6 (by decide)).trans (at61_main_v6 m c)

theorem at62_main_v8 : R62 m c (Proc.devRef .tc main_v8) = Cert.Model.wts (F := Ideal) (A2 m c) :=
  (carry61 (R61 m c) main_v8 (by decide)).trans (at61_main_v8 m c)

/-! ### Boundary 63 -/

theorem at63_main_arg0 : R63 m c (Proc.devRef .tc main_arg0) = (A0 m c) :=
  (carry62 (R62 m c) main_arg0 (by decide)).trans (at62_main_arg0 m c)

theorem at63_main_arg1 : R63 m c (Proc.devRef .tc main_arg1) = (A1 m c) :=
  (carry62 (R62 m c) main_arg1 (by decide)).trans (at62_main_arg1 m c)

theorem at63_main_arg2 : R63 m c (Proc.devRef .tc main_arg2) = (A2 m c) :=
  (carry62 (R62 m c) main_arg2 (by decide)).trans (at62_main_arg2 m c)

theorem at63_main_arg3 : R63 m c (Proc.devRef .tc main_arg3) = (A3 m c) :=
  (carry62 (R62 m c) main_arg3 (by decide)).trans (at62_main_arg3 m c)

theorem at63_main_arg4 : R63 m c (Proc.devRef .tc main_arg4) = (A4 m c) :=
  (carry62 (R62 m c) main_arg4 (by decide)).trans (at62_main_arg4 m c)

theorem at63_main_arg5 : R63 m c (Proc.devRef .tc main_arg5) = (A5 m c) :=
  (carry62 (R62 m c) main_arg5 (by decide)).trans (at62_main_arg5 m c)

theorem at63_main_arg6 : R63 m c (Proc.devRef .tc main_arg6) = (A6 m c) :=
  (carry62 (R62 m c) main_arg6 (by decide)).trans (at62_main_arg6 m c)

theorem at63_main_v3 : R63 m c (Proc.devRef .tc main_v3) = Cert.Model.src (F := Ideal) (A1 m c) :=
  (carry62 (R62 m c) main_v3 (by decide)).trans (at62_main_v3 m c)

theorem at63_main_v302 : R63 m c (Proc.devRef .tc main_v302) = Cert.Model.xOut2 (F := Ideal) (A0 m c) (A1 m c) (A2 m c) (A3 m c) (A4 m c) :=
  (carry62 (R62 m c) main_v302 (by decide)).trans (at62_main_v302 m c)

theorem at63_main_v351 : R63 m c (Proc.devRef .tc main_v351) = biasVec7 (F := Ideal) (A4 m c) :=
  (carry62 (R62 m c) main_v351 (by decide)).trans (at62_main_v351 m c)

theorem at63_main_v352 : R63 m c (Proc.devRef .tc main_v352) = Cert.Model.hMid3 (F := Ideal) (A0 m c) (A1 m c) (A2 m c) (A3 m c) (A4 m c) :=
  (carry62 (R62 m c) main_v352 (by decide)).trans (at62_main_v352 m c)

theorem at63_main_v357 : R63 m c (Proc.devRef .tc main_v357) = Cert.Model.degPos (F := Ideal) (A1 m c) (A2 m c) :=
  (carry62 (R62 m c) main_v357 (by decide)).trans (at62_main_v357 m c)

theorem at63_main_v358 : R63 m c (Proc.devRef .tc main_v358) = Cert.Model.degRsqrt (F := Ideal) (A1 m c) (A2 m c) :=
  w62_main_v358 (R62 m c) (A0 m c) (A1 m c) (A2 m c) (A3 m c) (A4 m c) (A5 m c) (A6 m c) (at62_main_v355 m c)

theorem at63_main_v6 : R63 m c (Proc.devRef .tc main_v6) = Cert.Model.dst (F := Ideal) (A1 m c) :=
  (carry62 (R62 m c) main_v6 (by decide)).trans (at62_main_v6 m c)

theorem at63_main_v8 : R63 m c (Proc.devRef .tc main_v8) = Cert.Model.wts (F := Ideal) (A2 m c) :=
  (carry62 (R62 m c) main_v8 (by decide)).trans (at62_main_v8 m c)

/-! ### Boundary 64 -/

theorem at64_main_arg0 : R64 m c (Proc.devRef .tc main_arg0) = (A0 m c) :=
  (carry63 (R63 m c) main_arg0 (by decide)).trans (at63_main_arg0 m c)

theorem at64_main_arg1 : R64 m c (Proc.devRef .tc main_arg1) = (A1 m c) :=
  (carry63 (R63 m c) main_arg1 (by decide)).trans (at63_main_arg1 m c)

theorem at64_main_arg2 : R64 m c (Proc.devRef .tc main_arg2) = (A2 m c) :=
  (carry63 (R63 m c) main_arg2 (by decide)).trans (at63_main_arg2 m c)

theorem at64_main_arg3 : R64 m c (Proc.devRef .tc main_arg3) = (A3 m c) :=
  (carry63 (R63 m c) main_arg3 (by decide)).trans (at63_main_arg3 m c)

theorem at64_main_arg4 : R64 m c (Proc.devRef .tc main_arg4) = (A4 m c) :=
  (carry63 (R63 m c) main_arg4 (by decide)).trans (at63_main_arg4 m c)

theorem at64_main_arg5 : R64 m c (Proc.devRef .tc main_arg5) = (A5 m c) :=
  (carry63 (R63 m c) main_arg5 (by decide)).trans (at63_main_arg5 m c)

theorem at64_main_arg6 : R64 m c (Proc.devRef .tc main_arg6) = (A6 m c) :=
  (carry63 (R63 m c) main_arg6 (by decide)).trans (at63_main_arg6 m c)

theorem at64_main_v3 : R64 m c (Proc.devRef .tc main_v3) = Cert.Model.src (F := Ideal) (A1 m c) :=
  (carry63 (R63 m c) main_v3 (by decide)).trans (at63_main_v3 m c)

theorem at64_main_v302 : R64 m c (Proc.devRef .tc main_v302) = Cert.Model.xOut2 (F := Ideal) (A0 m c) (A1 m c) (A2 m c) (A3 m c) (A4 m c) :=
  (carry63 (R63 m c) main_v302 (by decide)).trans (at63_main_v302 m c)

theorem at64_main_v351 : R64 m c (Proc.devRef .tc main_v351) = biasVec7 (F := Ideal) (A4 m c) :=
  (carry63 (R63 m c) main_v351 (by decide)).trans (at63_main_v351 m c)

theorem at64_main_v352 : R64 m c (Proc.devRef .tc main_v352) = Cert.Model.hMid3 (F := Ideal) (A0 m c) (A1 m c) (A2 m c) (A3 m c) (A4 m c) :=
  (carry63 (R63 m c) main_v352 (by decide)).trans (at63_main_v352 m c)

theorem at64_main_v359 : R64 m c (Proc.devRef .tc main_v359) = Cert.Model.dinv (F := Ideal) (A1 m c) (A2 m c) :=
  w63_main_v359 (R63 m c) (A0 m c) (A1 m c) (A2 m c) (A3 m c) (A4 m c) (A5 m c) (A6 m c) (at63_main_v357 m c) (at63_main_v358 m c)

theorem at64_main_v6 : R64 m c (Proc.devRef .tc main_v6) = Cert.Model.dst (F := Ideal) (A1 m c) :=
  (carry63 (R63 m c) main_v6 (by decide)).trans (at63_main_v6 m c)

theorem at64_main_v8 : R64 m c (Proc.devRef .tc main_v8) = Cert.Model.wts (F := Ideal) (A2 m c) :=
  (carry63 (R63 m c) main_v8 (by decide)).trans (at63_main_v8 m c)

/-! ### Boundary 65 -/

theorem at65_main_arg0 : R65 m c (Proc.devRef .tc main_arg0) = (A0 m c) :=
  (carry64 (R64 m c) main_arg0 (by decide)).trans (at64_main_arg0 m c)

theorem at65_main_arg1 : R65 m c (Proc.devRef .tc main_arg1) = (A1 m c) :=
  (carry64 (R64 m c) main_arg1 (by decide)).trans (at64_main_arg1 m c)

theorem at65_main_arg2 : R65 m c (Proc.devRef .tc main_arg2) = (A2 m c) :=
  (carry64 (R64 m c) main_arg2 (by decide)).trans (at64_main_arg2 m c)

theorem at65_main_arg3 : R65 m c (Proc.devRef .tc main_arg3) = (A3 m c) :=
  (carry64 (R64 m c) main_arg3 (by decide)).trans (at64_main_arg3 m c)

theorem at65_main_arg4 : R65 m c (Proc.devRef .tc main_arg4) = (A4 m c) :=
  (carry64 (R64 m c) main_arg4 (by decide)).trans (at64_main_arg4 m c)

theorem at65_main_arg5 : R65 m c (Proc.devRef .tc main_arg5) = (A5 m c) :=
  (carry64 (R64 m c) main_arg5 (by decide)).trans (at64_main_arg5 m c)

theorem at65_main_arg6 : R65 m c (Proc.devRef .tc main_arg6) = (A6 m c) :=
  (carry64 (R64 m c) main_arg6 (by decide)).trans (at64_main_arg6 m c)

theorem at65_main_v3 : R65 m c (Proc.devRef .tc main_v3) = Cert.Model.src (F := Ideal) (A1 m c) :=
  (carry64 (R64 m c) main_v3 (by decide)).trans (at64_main_v3 m c)

theorem at65_main_v302 : R65 m c (Proc.devRef .tc main_v302) = Cert.Model.xOut2 (F := Ideal) (A0 m c) (A1 m c) (A2 m c) (A3 m c) (A4 m c) :=
  (carry64 (R64 m c) main_v302 (by decide)).trans (at64_main_v302 m c)

theorem at65_main_v351 : R65 m c (Proc.devRef .tc main_v351) = biasVec7 (F := Ideal) (A4 m c) :=
  (carry64 (R64 m c) main_v351 (by decide)).trans (at64_main_v351 m c)

theorem at65_main_v352 : R65 m c (Proc.devRef .tc main_v352) = Cert.Model.hMid3 (F := Ideal) (A0 m c) (A1 m c) (A2 m c) (A3 m c) (A4 m c) :=
  (carry64 (R64 m c) main_v352 (by decide)).trans (at64_main_v352 m c)

theorem at65_main_v375 : R65 m c (Proc.devRef .tc main_v375) = Cert.Model.enorm (F := Ideal) (A1 m c) (A2 m c) :=
  w64_main_v375 (R64 m c) (A0 m c) (A1 m c) (A2 m c) (A3 m c) (A4 m c) (A5 m c) (A6 m c) (at64_main_v3 m c) (at64_main_v359 m c) (at64_main_v6 m c) (at64_main_v8 m c)

theorem at65_main_v6 : R65 m c (Proc.devRef .tc main_v6) = Cert.Model.dst (F := Ideal) (A1 m c) :=
  (carry64 (R64 m c) main_v6 (by decide)).trans (at64_main_v6 m c)

theorem at65_main_v8 : R65 m c (Proc.devRef .tc main_v8) = Cert.Model.wts (F := Ideal) (A2 m c) :=
  (carry64 (R64 m c) main_v8 (by decide)).trans (at64_main_v8 m c)

/-! ### Boundary 66 -/

theorem at66_main_arg0 : R66 m c (Proc.devRef .tc main_arg0) = (A0 m c) :=
  (carry65 (R65 m c) main_arg0 (by decide)).trans (at65_main_arg0 m c)

theorem at66_main_arg1 : R66 m c (Proc.devRef .tc main_arg1) = (A1 m c) :=
  (carry65 (R65 m c) main_arg1 (by decide)).trans (at65_main_arg1 m c)

theorem at66_main_arg2 : R66 m c (Proc.devRef .tc main_arg2) = (A2 m c) :=
  (carry65 (R65 m c) main_arg2 (by decide)).trans (at65_main_arg2 m c)

theorem at66_main_arg3 : R66 m c (Proc.devRef .tc main_arg3) = (A3 m c) :=
  (carry65 (R65 m c) main_arg3 (by decide)).trans (at65_main_arg3 m c)

theorem at66_main_arg4 : R66 m c (Proc.devRef .tc main_arg4) = (A4 m c) :=
  (carry65 (R65 m c) main_arg4 (by decide)).trans (at65_main_arg4 m c)

theorem at66_main_arg5 : R66 m c (Proc.devRef .tc main_arg5) = (A5 m c) :=
  (carry65 (R65 m c) main_arg5 (by decide)).trans (at65_main_arg5 m c)

theorem at66_main_arg6 : R66 m c (Proc.devRef .tc main_arg6) = (A6 m c) :=
  (carry65 (R65 m c) main_arg6 (by decide)).trans (at65_main_arg6 m c)

theorem at66_main_v3 : R66 m c (Proc.devRef .tc main_v3) = Cert.Model.src (F := Ideal) (A1 m c) :=
  (carry65 (R65 m c) main_v3 (by decide)).trans (at65_main_v3 m c)

theorem at66_main_v302 : R66 m c (Proc.devRef .tc main_v302) = Cert.Model.xOut2 (F := Ideal) (A0 m c) (A1 m c) (A2 m c) (A3 m c) (A4 m c) :=
  (carry65 (R65 m c) main_v302 (by decide)).trans (at65_main_v302 m c)

theorem at66_main_v351 : R66 m c (Proc.devRef .tc main_v351) = biasVec7 (F := Ideal) (A4 m c) :=
  (carry65 (R65 m c) main_v351 (by decide)).trans (at65_main_v351 m c)

theorem at66_main_v388 : R66 m c (Proc.devRef .tc main_v388) = Cert.Model.aggB3 (F := Ideal) (A0 m c) (A1 m c) (A2 m c) (A3 m c) (A4 m c) :=
  w65_main_v388 (R65 m c) (A0 m c) (A1 m c) (A2 m c) (A3 m c) (A4 m c) (A5 m c) (A6 m c) (at65_main_v3 m c) (at65_main_v352 m c) (at65_main_v375 m c) (at65_main_v6 m c)

theorem at66_main_v6 : R66 m c (Proc.devRef .tc main_v6) = Cert.Model.dst (F := Ideal) (A1 m c) :=
  (carry65 (R65 m c) main_v6 (by decide)).trans (at65_main_v6 m c)

theorem at66_main_v8 : R66 m c (Proc.devRef .tc main_v8) = Cert.Model.wts (F := Ideal) (A2 m c) :=
  (carry65 (R65 m c) main_v8 (by decide)).trans (at65_main_v8 m c)

/-! ### Boundary 67 -/

theorem at67_main_arg0 : R67 m c (Proc.devRef .tc main_arg0) = (A0 m c) :=
  (carry66 (R66 m c) main_arg0 (by decide)).trans (at66_main_arg0 m c)

theorem at67_main_arg1 : R67 m c (Proc.devRef .tc main_arg1) = (A1 m c) :=
  (carry66 (R66 m c) main_arg1 (by decide)).trans (at66_main_arg1 m c)

theorem at67_main_arg2 : R67 m c (Proc.devRef .tc main_arg2) = (A2 m c) :=
  (carry66 (R66 m c) main_arg2 (by decide)).trans (at66_main_arg2 m c)

theorem at67_main_arg3 : R67 m c (Proc.devRef .tc main_arg3) = (A3 m c) :=
  (carry66 (R66 m c) main_arg3 (by decide)).trans (at66_main_arg3 m c)

theorem at67_main_arg4 : R67 m c (Proc.devRef .tc main_arg4) = (A4 m c) :=
  (carry66 (R66 m c) main_arg4 (by decide)).trans (at66_main_arg4 m c)

theorem at67_main_arg5 : R67 m c (Proc.devRef .tc main_arg5) = (A5 m c) :=
  (carry66 (R66 m c) main_arg5 (by decide)).trans (at66_main_arg5 m c)

theorem at67_main_arg6 : R67 m c (Proc.devRef .tc main_arg6) = (A6 m c) :=
  (carry66 (R66 m c) main_arg6 (by decide)).trans (at66_main_arg6 m c)

theorem at67_main_v3 : R67 m c (Proc.devRef .tc main_v3) = Cert.Model.src (F := Ideal) (A1 m c) :=
  (carry66 (R66 m c) main_v3 (by decide)).trans (at66_main_v3 m c)

theorem at67_main_v302 : R67 m c (Proc.devRef .tc main_v302) = Cert.Model.xOut2 (F := Ideal) (A0 m c) (A1 m c) (A2 m c) (A3 m c) (A4 m c) :=
  (carry66 (R66 m c) main_v302 (by decide)).trans (at66_main_v302 m c)

theorem at67_main_v392 : R67 m c (Proc.devRef .tc main_v392) = Cert.RefOps.relu (F := Ideal) (Cert.RefOps.addRow (F := Ideal) (Cert.Model.aggB3 (F := Ideal) (A0 m c) (A1 m c) (A2 m c) (A3 m c) (A4 m c)) (Cert.Model.biasRow7 (F := Ideal) (A4 m c))) :=
  w66_main_v392 (R66 m c) (A0 m c) (A1 m c) (A2 m c) (A3 m c) (A4 m c) (A5 m c) (A6 m c) (at66_main_v351 m c) (at66_main_v388 m c)

theorem at67_main_v6 : R67 m c (Proc.devRef .tc main_v6) = Cert.Model.dst (F := Ideal) (A1 m c) :=
  (carry66 (R66 m c) main_v6 (by decide)).trans (at66_main_v6 m c)

theorem at67_main_v8 : R67 m c (Proc.devRef .tc main_v8) = Cert.Model.wts (F := Ideal) (A2 m c) :=
  (carry66 (R66 m c) main_v8 (by decide)).trans (at66_main_v8 m c)

/-! ### Boundary 68 -/

theorem at68_main_arg0 : R68 m c (Proc.devRef .tc main_arg0) = (A0 m c) :=
  (carry67 (R67 m c) main_arg0 (by decide)).trans (at67_main_arg0 m c)

theorem at68_main_arg1 : R68 m c (Proc.devRef .tc main_arg1) = (A1 m c) :=
  (carry67 (R67 m c) main_arg1 (by decide)).trans (at67_main_arg1 m c)

theorem at68_main_arg2 : R68 m c (Proc.devRef .tc main_arg2) = (A2 m c) :=
  (carry67 (R67 m c) main_arg2 (by decide)).trans (at67_main_arg2 m c)

theorem at68_main_arg3 : R68 m c (Proc.devRef .tc main_arg3) = (A3 m c) :=
  (carry67 (R67 m c) main_arg3 (by decide)).trans (at67_main_arg3 m c)

theorem at68_main_arg4 : R68 m c (Proc.devRef .tc main_arg4) = (A4 m c) :=
  (carry67 (R67 m c) main_arg4 (by decide)).trans (at67_main_arg4 m c)

theorem at68_main_arg5 : R68 m c (Proc.devRef .tc main_arg5) = (A5 m c) :=
  (carry67 (R67 m c) main_arg5 (by decide)).trans (at67_main_arg5 m c)

theorem at68_main_arg6 : R68 m c (Proc.devRef .tc main_arg6) = (A6 m c) :=
  (carry67 (R67 m c) main_arg6 (by decide)).trans (at67_main_arg6 m c)

theorem at68_main_v3 : R68 m c (Proc.devRef .tc main_v3) = Cert.Model.src (F := Ideal) (A1 m c) :=
  (carry67 (R67 m c) main_v3 (by decide)).trans (at67_main_v3 m c)

theorem at68_main_v302 : R68 m c (Proc.devRef .tc main_v302) = Cert.Model.xOut2 (F := Ideal) (A0 m c) (A1 m c) (A2 m c) (A3 m c) (A4 m c) :=
  (carry67 (R67 m c) main_v302 (by decide)).trans (at67_main_v302 m c)

theorem at68_main_v392 : R68 m c (Proc.devRef .tc main_v392) = Cert.RefOps.relu (F := Ideal) (Cert.RefOps.addRow (F := Ideal) (Cert.Model.aggB3 (F := Ideal) (A0 m c) (A1 m c) (A2 m c) (A3 m c) (A4 m c)) (Cert.Model.biasRow7 (F := Ideal) (A4 m c))) :=
  (carry67 (R67 m c) main_v392 (by decide)).trans (at67_main_v392 m c)

theorem at68_main_v393 : R68 m c (Proc.devRef .tc main_v393) = Cert.RefOps.rowNorm (F := Ideal) (Cert.RefOps.relu (F := Ideal) (Cert.RefOps.addRow (F := Ideal) (Cert.Model.aggB3 (F := Ideal) (A0 m c) (A1 m c) (A2 m c) (A3 m c) (A4 m c)) (Cert.Model.biasRow7 (F := Ideal) (A4 m c)))) :=
  w67_main_v393 (R67 m c) (A0 m c) (A1 m c) (A2 m c) (A3 m c) (A4 m c) (A5 m c) (A6 m c) (at67_main_v392 m c)

theorem at68_main_v6 : R68 m c (Proc.devRef .tc main_v6) = Cert.Model.dst (F := Ideal) (A1 m c) :=
  (carry67 (R67 m c) main_v6 (by decide)).trans (at67_main_v6 m c)

theorem at68_main_v8 : R68 m c (Proc.devRef .tc main_v8) = Cert.Model.wts (F := Ideal) (A2 m c) :=
  (carry67 (R67 m c) main_v8 (by decide)).trans (at67_main_v8 m c)

/-! ### Boundary 69 -/

theorem at69_main_arg0 : R69 m c (Proc.devRef .tc main_arg0) = (A0 m c) :=
  (carry68 (R68 m c) main_arg0 (by decide)).trans (at68_main_arg0 m c)

theorem at69_main_arg1 : R69 m c (Proc.devRef .tc main_arg1) = (A1 m c) :=
  (carry68 (R68 m c) main_arg1 (by decide)).trans (at68_main_arg1 m c)

theorem at69_main_arg2 : R69 m c (Proc.devRef .tc main_arg2) = (A2 m c) :=
  (carry68 (R68 m c) main_arg2 (by decide)).trans (at68_main_arg2 m c)

theorem at69_main_arg3 : R69 m c (Proc.devRef .tc main_arg3) = (A3 m c) :=
  (carry68 (R68 m c) main_arg3 (by decide)).trans (at68_main_arg3 m c)

theorem at69_main_arg4 : R69 m c (Proc.devRef .tc main_arg4) = (A4 m c) :=
  (carry68 (R68 m c) main_arg4 (by decide)).trans (at68_main_arg4 m c)

theorem at69_main_arg5 : R69 m c (Proc.devRef .tc main_arg5) = (A5 m c) :=
  (carry68 (R68 m c) main_arg5 (by decide)).trans (at68_main_arg5 m c)

theorem at69_main_arg6 : R69 m c (Proc.devRef .tc main_arg6) = (A6 m c) :=
  (carry68 (R68 m c) main_arg6 (by decide)).trans (at68_main_arg6 m c)

theorem at69_main_v3 : R69 m c (Proc.devRef .tc main_v3) = Cert.Model.src (F := Ideal) (A1 m c) :=
  (carry68 (R68 m c) main_v3 (by decide)).trans (at68_main_v3 m c)

theorem at69_main_v400 : R69 m c (Proc.devRef .tc main_v400) = Cert.Model.xOut3 (F := Ideal) (A0 m c) (A1 m c) (A2 m c) (A3 m c) (A4 m c) :=
  w68_main_v400 (R68 m c) (A0 m c) (A1 m c) (A2 m c) (A3 m c) (A4 m c) (A5 m c) (A6 m c) (at68_main_v302 m c) (at68_main_v392 m c) (at68_main_v393 m c)

theorem at69_main_v6 : R69 m c (Proc.devRef .tc main_v6) = Cert.Model.dst (F := Ideal) (A1 m c) :=
  (carry68 (R68 m c) main_v6 (by decide)).trans (at68_main_v6 m c)

theorem at69_main_v8 : R69 m c (Proc.devRef .tc main_v8) = Cert.Model.wts (F := Ideal) (A2 m c) :=
  (carry68 (R68 m c) main_v8 (by decide)).trans (at68_main_v8 m c)

/-! ### Boundary 70 -/

theorem at70_main_arg0 : R70 m c (Proc.devRef .tc main_arg0) = (A0 m c) :=
  (carry69 (R69 m c) main_arg0 (by decide)).trans (at69_main_arg0 m c)

theorem at70_main_arg1 : R70 m c (Proc.devRef .tc main_arg1) = (A1 m c) :=
  (carry69 (R69 m c) main_arg1 (by decide)).trans (at69_main_arg1 m c)

theorem at70_main_arg2 : R70 m c (Proc.devRef .tc main_arg2) = (A2 m c) :=
  (carry69 (R69 m c) main_arg2 (by decide)).trans (at69_main_arg2 m c)

theorem at70_main_arg3 : R70 m c (Proc.devRef .tc main_arg3) = (A3 m c) :=
  (carry69 (R69 m c) main_arg3 (by decide)).trans (at69_main_arg3 m c)

theorem at70_main_arg4 : R70 m c (Proc.devRef .tc main_arg4) = (A4 m c) :=
  (carry69 (R69 m c) main_arg4 (by decide)).trans (at69_main_arg4 m c)

theorem at70_main_arg5 : R70 m c (Proc.devRef .tc main_arg5) = (A5 m c) :=
  (carry69 (R69 m c) main_arg5 (by decide)).trans (at69_main_arg5 m c)

theorem at70_main_arg6 : R70 m c (Proc.devRef .tc main_arg6) = (A6 m c) :=
  (carry69 (R69 m c) main_arg6 (by decide)).trans (at69_main_arg6 m c)

theorem at70_main_v3 : R70 m c (Proc.devRef .tc main_v3) = Cert.Model.src (F := Ideal) (A1 m c) :=
  (carry69 (R69 m c) main_v3 (by decide)).trans (at69_main_v3 m c)

theorem at70_main_v401 : R70 m c (Proc.devRef .tc main_v401) = Cert.Model.hFinal (F := Ideal) (A0 m c) (A1 m c) (A2 m c) (A3 m c) (A4 m c) (A5 m c) :=
  w69_main_v401 (R69 m c) (A0 m c) (A1 m c) (A2 m c) (A3 m c) (A4 m c) (A5 m c) (A6 m c) (at69_main_arg5 m c) (at69_main_v400 m c)

theorem at70_main_v6 : R70 m c (Proc.devRef .tc main_v6) = Cert.Model.dst (F := Ideal) (A1 m c) :=
  (carry69 (R69 m c) main_v6 (by decide)).trans (at69_main_v6 m c)

theorem at70_main_v8 : R70 m c (Proc.devRef .tc main_v8) = Cert.Model.wts (F := Ideal) (A2 m c) :=
  (carry69 (R69 m c) main_v8 (by decide)).trans (at69_main_v8 m c)

/-! ### Boundary 71 -/

theorem at71_main_arg0 : R71 m c (Proc.devRef .tc main_arg0) = (A0 m c) :=
  (carry70 (R70 m c) main_arg0 (by decide)).trans (at70_main_arg0 m c)

theorem at71_main_arg1 : R71 m c (Proc.devRef .tc main_arg1) = (A1 m c) :=
  (carry70 (R70 m c) main_arg1 (by decide)).trans (at70_main_arg1 m c)

theorem at71_main_arg2 : R71 m c (Proc.devRef .tc main_arg2) = (A2 m c) :=
  (carry70 (R70 m c) main_arg2 (by decide)).trans (at70_main_arg2 m c)

theorem at71_main_arg3 : R71 m c (Proc.devRef .tc main_arg3) = (A3 m c) :=
  (carry70 (R70 m c) main_arg3 (by decide)).trans (at70_main_arg3 m c)

theorem at71_main_arg4 : R71 m c (Proc.devRef .tc main_arg4) = (A4 m c) :=
  (carry70 (R70 m c) main_arg4 (by decide)).trans (at70_main_arg4 m c)

theorem at71_main_arg5 : R71 m c (Proc.devRef .tc main_arg5) = (A5 m c) :=
  (carry70 (R70 m c) main_arg5 (by decide)).trans (at70_main_arg5 m c)

theorem at71_main_arg6 : R71 m c (Proc.devRef .tc main_arg6) = (A6 m c) :=
  (carry70 (R70 m c) main_arg6 (by decide)).trans (at70_main_arg6 m c)

theorem at71_main_v3 : R71 m c (Proc.devRef .tc main_v3) = Cert.Model.src (F := Ideal) (A1 m c) :=
  (carry70 (R70 m c) main_v3 (by decide)).trans (at70_main_v3 m c)

theorem at71_main_v401 : R71 m c (Proc.devRef .tc main_v401) = Cert.Model.hFinal (F := Ideal) (A0 m c) (A1 m c) (A2 m c) (A3 m c) (A4 m c) (A5 m c) :=
  (carry70 (R70 m c) main_v401 (by decide)).trans (at70_main_v401 m c)

theorem at71_main_v404 : R71 m c (Proc.devRef .tc main_v404) = Cert.Model.deg (F := Ideal) (A1 m c) (A2 m c) :=
  w70_main_v404 (R70 m c) (A0 m c) (A1 m c) (A2 m c) (A3 m c) (A4 m c) (A5 m c) (A6 m c) (at70_main_v6 m c) (at70_main_v8 m c)

theorem at71_main_v6 : R71 m c (Proc.devRef .tc main_v6) = Cert.Model.dst (F := Ideal) (A1 m c) :=
  (carry70 (R70 m c) main_v6 (by decide)).trans (at70_main_v6 m c)

theorem at71_main_v8 : R71 m c (Proc.devRef .tc main_v8) = Cert.Model.wts (F := Ideal) (A2 m c) :=
  (carry70 (R70 m c) main_v8 (by decide)).trans (at70_main_v8 m c)

/-! ### Boundary 72 -/

theorem at72_main_arg0 : R72 m c (Proc.devRef .tc main_arg0) = (A0 m c) :=
  (carry71 (R71 m c) main_arg0 (by decide)).trans (at71_main_arg0 m c)

theorem at72_main_arg1 : R72 m c (Proc.devRef .tc main_arg1) = (A1 m c) :=
  (carry71 (R71 m c) main_arg1 (by decide)).trans (at71_main_arg1 m c)

theorem at72_main_arg2 : R72 m c (Proc.devRef .tc main_arg2) = (A2 m c) :=
  (carry71 (R71 m c) main_arg2 (by decide)).trans (at71_main_arg2 m c)

theorem at72_main_arg3 : R72 m c (Proc.devRef .tc main_arg3) = (A3 m c) :=
  (carry71 (R71 m c) main_arg3 (by decide)).trans (at71_main_arg3 m c)

theorem at72_main_arg4 : R72 m c (Proc.devRef .tc main_arg4) = (A4 m c) :=
  (carry71 (R71 m c) main_arg4 (by decide)).trans (at71_main_arg4 m c)

theorem at72_main_arg5 : R72 m c (Proc.devRef .tc main_arg5) = (A5 m c) :=
  (carry71 (R71 m c) main_arg5 (by decide)).trans (at71_main_arg5 m c)

theorem at72_main_arg6 : R72 m c (Proc.devRef .tc main_arg6) = (A6 m c) :=
  (carry71 (R71 m c) main_arg6 (by decide)).trans (at71_main_arg6 m c)

theorem at72_main_v3 : R72 m c (Proc.devRef .tc main_v3) = Cert.Model.src (F := Ideal) (A1 m c) :=
  (carry71 (R71 m c) main_v3 (by decide)).trans (at71_main_v3 m c)

theorem at72_main_v401 : R72 m c (Proc.devRef .tc main_v401) = Cert.Model.hFinal (F := Ideal) (A0 m c) (A1 m c) (A2 m c) (A3 m c) (A4 m c) (A5 m c) :=
  (carry71 (R71 m c) main_v401 (by decide)).trans (at71_main_v401 m c)

theorem at72_main_v404 : R72 m c (Proc.devRef .tc main_v404) = Cert.Model.deg (F := Ideal) (A1 m c) (A2 m c) :=
  (carry71 (R71 m c) main_v404 (by decide)).trans (at71_main_v404 m c)

theorem at72_main_v406 : R72 m c (Proc.devRef .tc main_v406) = Cert.Model.degPos (F := Ideal) (A1 m c) (A2 m c) :=
  w71_main_v406 (R71 m c) (A0 m c) (A1 m c) (A2 m c) (A3 m c) (A4 m c) (A5 m c) (A6 m c) (at71_main_v404 m c)

theorem at72_main_v6 : R72 m c (Proc.devRef .tc main_v6) = Cert.Model.dst (F := Ideal) (A1 m c) :=
  (carry71 (R71 m c) main_v6 (by decide)).trans (at71_main_v6 m c)

theorem at72_main_v8 : R72 m c (Proc.devRef .tc main_v8) = Cert.Model.wts (F := Ideal) (A2 m c) :=
  (carry71 (R71 m c) main_v8 (by decide)).trans (at71_main_v8 m c)

/-! ### Boundary 73 -/

theorem at73_main_arg0 : R73 m c (Proc.devRef .tc main_arg0) = (A0 m c) :=
  (carry72 (R72 m c) main_arg0 (by decide)).trans (at72_main_arg0 m c)

theorem at73_main_arg1 : R73 m c (Proc.devRef .tc main_arg1) = (A1 m c) :=
  (carry72 (R72 m c) main_arg1 (by decide)).trans (at72_main_arg1 m c)

theorem at73_main_arg2 : R73 m c (Proc.devRef .tc main_arg2) = (A2 m c) :=
  (carry72 (R72 m c) main_arg2 (by decide)).trans (at72_main_arg2 m c)

theorem at73_main_arg3 : R73 m c (Proc.devRef .tc main_arg3) = (A3 m c) :=
  (carry72 (R72 m c) main_arg3 (by decide)).trans (at72_main_arg3 m c)

theorem at73_main_arg4 : R73 m c (Proc.devRef .tc main_arg4) = (A4 m c) :=
  (carry72 (R72 m c) main_arg4 (by decide)).trans (at72_main_arg4 m c)

theorem at73_main_arg5 : R73 m c (Proc.devRef .tc main_arg5) = (A5 m c) :=
  (carry72 (R72 m c) main_arg5 (by decide)).trans (at72_main_arg5 m c)

theorem at73_main_arg6 : R73 m c (Proc.devRef .tc main_arg6) = (A6 m c) :=
  (carry72 (R72 m c) main_arg6 (by decide)).trans (at72_main_arg6 m c)

theorem at73_main_v3 : R73 m c (Proc.devRef .tc main_v3) = Cert.Model.src (F := Ideal) (A1 m c) :=
  (carry72 (R72 m c) main_v3 (by decide)).trans (at72_main_v3 m c)

theorem at73_main_v401 : R73 m c (Proc.devRef .tc main_v401) = Cert.Model.hFinal (F := Ideal) (A0 m c) (A1 m c) (A2 m c) (A3 m c) (A4 m c) (A5 m c) :=
  (carry72 (R72 m c) main_v401 (by decide)).trans (at72_main_v401 m c)

theorem at73_main_v406 : R73 m c (Proc.devRef .tc main_v406) = Cert.Model.degPos (F := Ideal) (A1 m c) (A2 m c) :=
  (carry72 (R72 m c) main_v406 (by decide)).trans (at72_main_v406 m c)

theorem at73_main_v407 : R73 m c (Proc.devRef .tc main_v407) = Cert.Model.degRsqrt (F := Ideal) (A1 m c) (A2 m c) :=
  w72_main_v407 (R72 m c) (A0 m c) (A1 m c) (A2 m c) (A3 m c) (A4 m c) (A5 m c) (A6 m c) (at72_main_v404 m c)

theorem at73_main_v6 : R73 m c (Proc.devRef .tc main_v6) = Cert.Model.dst (F := Ideal) (A1 m c) :=
  (carry72 (R72 m c) main_v6 (by decide)).trans (at72_main_v6 m c)

theorem at73_main_v8 : R73 m c (Proc.devRef .tc main_v8) = Cert.Model.wts (F := Ideal) (A2 m c) :=
  (carry72 (R72 m c) main_v8 (by decide)).trans (at72_main_v8 m c)

/-! ### Boundary 74 -/

theorem at74_main_arg0 : R74 m c (Proc.devRef .tc main_arg0) = (A0 m c) :=
  (carry73 (R73 m c) main_arg0 (by decide)).trans (at73_main_arg0 m c)

theorem at74_main_arg1 : R74 m c (Proc.devRef .tc main_arg1) = (A1 m c) :=
  (carry73 (R73 m c) main_arg1 (by decide)).trans (at73_main_arg1 m c)

theorem at74_main_arg2 : R74 m c (Proc.devRef .tc main_arg2) = (A2 m c) :=
  (carry73 (R73 m c) main_arg2 (by decide)).trans (at73_main_arg2 m c)

theorem at74_main_arg3 : R74 m c (Proc.devRef .tc main_arg3) = (A3 m c) :=
  (carry73 (R73 m c) main_arg3 (by decide)).trans (at73_main_arg3 m c)

theorem at74_main_arg4 : R74 m c (Proc.devRef .tc main_arg4) = (A4 m c) :=
  (carry73 (R73 m c) main_arg4 (by decide)).trans (at73_main_arg4 m c)

theorem at74_main_arg5 : R74 m c (Proc.devRef .tc main_arg5) = (A5 m c) :=
  (carry73 (R73 m c) main_arg5 (by decide)).trans (at73_main_arg5 m c)

theorem at74_main_arg6 : R74 m c (Proc.devRef .tc main_arg6) = (A6 m c) :=
  (carry73 (R73 m c) main_arg6 (by decide)).trans (at73_main_arg6 m c)

theorem at74_main_v3 : R74 m c (Proc.devRef .tc main_v3) = Cert.Model.src (F := Ideal) (A1 m c) :=
  (carry73 (R73 m c) main_v3 (by decide)).trans (at73_main_v3 m c)

theorem at74_main_v401 : R74 m c (Proc.devRef .tc main_v401) = Cert.Model.hFinal (F := Ideal) (A0 m c) (A1 m c) (A2 m c) (A3 m c) (A4 m c) (A5 m c) :=
  (carry73 (R73 m c) main_v401 (by decide)).trans (at73_main_v401 m c)

theorem at74_main_v408 : R74 m c (Proc.devRef .tc main_v408) = Cert.Model.dinv (F := Ideal) (A1 m c) (A2 m c) :=
  w73_main_v408 (R73 m c) (A0 m c) (A1 m c) (A2 m c) (A3 m c) (A4 m c) (A5 m c) (A6 m c) (at73_main_v406 m c) (at73_main_v407 m c)

theorem at74_main_v6 : R74 m c (Proc.devRef .tc main_v6) = Cert.Model.dst (F := Ideal) (A1 m c) :=
  (carry73 (R73 m c) main_v6 (by decide)).trans (at73_main_v6 m c)

theorem at74_main_v8 : R74 m c (Proc.devRef .tc main_v8) = Cert.Model.wts (F := Ideal) (A2 m c) :=
  (carry73 (R73 m c) main_v8 (by decide)).trans (at73_main_v8 m c)

/-! ### Boundary 75 -/

theorem at75_main_arg0 : R75 m c (Proc.devRef .tc main_arg0) = (A0 m c) :=
  (carry74 (R74 m c) main_arg0 (by decide)).trans (at74_main_arg0 m c)

theorem at75_main_arg1 : R75 m c (Proc.devRef .tc main_arg1) = (A1 m c) :=
  (carry74 (R74 m c) main_arg1 (by decide)).trans (at74_main_arg1 m c)

theorem at75_main_arg2 : R75 m c (Proc.devRef .tc main_arg2) = (A2 m c) :=
  (carry74 (R74 m c) main_arg2 (by decide)).trans (at74_main_arg2 m c)

theorem at75_main_arg3 : R75 m c (Proc.devRef .tc main_arg3) = (A3 m c) :=
  (carry74 (R74 m c) main_arg3 (by decide)).trans (at74_main_arg3 m c)

theorem at75_main_arg4 : R75 m c (Proc.devRef .tc main_arg4) = (A4 m c) :=
  (carry74 (R74 m c) main_arg4 (by decide)).trans (at74_main_arg4 m c)

theorem at75_main_arg5 : R75 m c (Proc.devRef .tc main_arg5) = (A5 m c) :=
  (carry74 (R74 m c) main_arg5 (by decide)).trans (at74_main_arg5 m c)

theorem at75_main_arg6 : R75 m c (Proc.devRef .tc main_arg6) = (A6 m c) :=
  (carry74 (R74 m c) main_arg6 (by decide)).trans (at74_main_arg6 m c)

theorem at75_main_v3 : R75 m c (Proc.devRef .tc main_v3) = Cert.Model.src (F := Ideal) (A1 m c) :=
  (carry74 (R74 m c) main_v3 (by decide)).trans (at74_main_v3 m c)

theorem at75_main_v401 : R75 m c (Proc.devRef .tc main_v401) = Cert.Model.hFinal (F := Ideal) (A0 m c) (A1 m c) (A2 m c) (A3 m c) (A4 m c) (A5 m c) :=
  (carry74 (R74 m c) main_v401 (by decide)).trans (at74_main_v401 m c)

theorem at75_main_v424 : R75 m c (Proc.devRef .tc main_v424) = Cert.Model.enorm (F := Ideal) (A1 m c) (A2 m c) :=
  w74_main_v424 (R74 m c) (A0 m c) (A1 m c) (A2 m c) (A3 m c) (A4 m c) (A5 m c) (A6 m c) (at74_main_v3 m c) (at74_main_v408 m c) (at74_main_v6 m c) (at74_main_v8 m c)

theorem at75_main_v6 : R75 m c (Proc.devRef .tc main_v6) = Cert.Model.dst (F := Ideal) (A1 m c) :=
  (carry74 (R74 m c) main_v6 (by decide)).trans (at74_main_v6 m c)

/-! ### Boundary 76 -/

theorem at76_main_arg0 : R76 m c (Proc.devRef .tc main_arg0) = (A0 m c) :=
  (carry75 (R75 m c) main_arg0 (by decide)).trans (at75_main_arg0 m c)

theorem at76_main_arg1 : R76 m c (Proc.devRef .tc main_arg1) = (A1 m c) :=
  (carry75 (R75 m c) main_arg1 (by decide)).trans (at75_main_arg1 m c)

theorem at76_main_arg2 : R76 m c (Proc.devRef .tc main_arg2) = (A2 m c) :=
  (carry75 (R75 m c) main_arg2 (by decide)).trans (at75_main_arg2 m c)

theorem at76_main_arg3 : R76 m c (Proc.devRef .tc main_arg3) = (A3 m c) :=
  (carry75 (R75 m c) main_arg3 (by decide)).trans (at75_main_arg3 m c)

theorem at76_main_arg4 : R76 m c (Proc.devRef .tc main_arg4) = (A4 m c) :=
  (carry75 (R75 m c) main_arg4 (by decide)).trans (at75_main_arg4 m c)

theorem at76_main_arg5 : R76 m c (Proc.devRef .tc main_arg5) = (A5 m c) :=
  (carry75 (R75 m c) main_arg5 (by decide)).trans (at75_main_arg5 m c)

theorem at76_main_arg6 : R76 m c (Proc.devRef .tc main_arg6) = (A6 m c) :=
  (carry75 (R75 m c) main_arg6 (by decide)).trans (at75_main_arg6 m c)

theorem at76_main_v437 : R76 m c (Proc.devRef .tc main_v437) = Cert.Model.aggFinal (F := Ideal) (A0 m c) (A1 m c) (A2 m c) (A3 m c) (A4 m c) (A5 m c) :=
  w75_main_v437 (R75 m c) (A0 m c) (A1 m c) (A2 m c) (A3 m c) (A4 m c) (A5 m c) (A6 m c) (at75_main_v3 m c) (at75_main_v401 m c) (at75_main_v424 m c) (at75_main_v6 m c)

/-! ### Boundary 77 -/

theorem at77_main_arg0 : R77 m c (Proc.devRef .tc main_arg0) = (A0 m c) :=
  (carry76 (R76 m c) main_arg0 (by decide)).trans (at76_main_arg0 m c)

theorem at77_main_arg1 : R77 m c (Proc.devRef .tc main_arg1) = (A1 m c) :=
  (carry76 (R76 m c) main_arg1 (by decide)).trans (at76_main_arg1 m c)

theorem at77_main_arg2 : R77 m c (Proc.devRef .tc main_arg2) = (A2 m c) :=
  (carry76 (R76 m c) main_arg2 (by decide)).trans (at76_main_arg2 m c)

theorem at77_main_arg3 : R77 m c (Proc.devRef .tc main_arg3) = (A3 m c) :=
  (carry76 (R76 m c) main_arg3 (by decide)).trans (at76_main_arg3 m c)

theorem at77_main_arg4 : R77 m c (Proc.devRef .tc main_arg4) = (A4 m c) :=
  (carry76 (R76 m c) main_arg4 (by decide)).trans (at76_main_arg4 m c)

theorem at77_main_arg5 : R77 m c (Proc.devRef .tc main_arg5) = (A5 m c) :=
  (carry76 (R76 m c) main_arg5 (by decide)).trans (at76_main_arg5 m c)

theorem at77_main_arg6 : R77 m c (Proc.devRef .tc main_arg6) = (A6 m c) :=
  (carry76 (R76 m c) main_arg6 (by decide)).trans (at76_main_arg6 m c)

theorem at77_main_v440 : R77 m c (Proc.devRef .tc main_v440) = zFinal (A0 m c) (A1 m c) (A2 m c) (A3 m c) (A4 m c) (A5 m c) (A6 m c) :=
  w76_main_v440 (R76 m c) (A0 m c) (A1 m c) (A2 m c) (A3 m c) (A4 m c) (A5 m c) (A6 m c) (at76_main_arg6 m c) (at76_main_v437 m c)

/-! ### Boundary 78 -/

theorem at78_main_arg0 : R78 m c (Proc.devRef .tc main_arg0) = (A0 m c) :=
  (carry77 (R77 m c) main_arg0 (by decide)).trans (at77_main_arg0 m c)

theorem at78_main_arg1 : R78 m c (Proc.devRef .tc main_arg1) = (A1 m c) :=
  (carry77 (R77 m c) main_arg1 (by decide)).trans (at77_main_arg1 m c)

theorem at78_main_arg2 : R78 m c (Proc.devRef .tc main_arg2) = (A2 m c) :=
  (carry77 (R77 m c) main_arg2 (by decide)).trans (at77_main_arg2 m c)

theorem at78_main_arg3 : R78 m c (Proc.devRef .tc main_arg3) = (A3 m c) :=
  (carry77 (R77 m c) main_arg3 (by decide)).trans (at77_main_arg3 m c)

theorem at78_main_arg4 : R78 m c (Proc.devRef .tc main_arg4) = (A4 m c) :=
  (carry77 (R77 m c) main_arg4 (by decide)).trans (at77_main_arg4 m c)

theorem at78_main_arg5 : R78 m c (Proc.devRef .tc main_arg5) = (A5 m c) :=
  (carry77 (R77 m c) main_arg5 (by decide)).trans (at77_main_arg5 m c)

theorem at78_main_arg6 : R78 m c (Proc.devRef .tc main_arg6) = (A6 m c) :=
  (carry77 (R77 m c) main_arg6 (by decide)).trans (at77_main_arg6 m c)

theorem at78_main_call21_v5 : R78 m c (Proc.devRef .tc main_call21_v5) = Cert.RefOps.shifted (F := Ideal) (zFinal (A0 m c) (A1 m c) (A2 m c) (A3 m c) (A4 m c) (A5 m c) (A6 m c)) :=
  w77_main_call21_v5 (R77 m c) (A0 m c) (A1 m c) (A2 m c) (A3 m c) (A4 m c) (A5 m c) (A6 m c) (at77_main_v440 m c)

/-! ### Boundary 79 -/

theorem at79_main_arg0 : R79 m c (Proc.devRef .tc main_arg0) = (A0 m c) :=
  (carry78 (R78 m c) main_arg0 (by decide)).trans (at78_main_arg0 m c)

theorem at79_main_arg1 : R79 m c (Proc.devRef .tc main_arg1) = (A1 m c) :=
  (carry78 (R78 m c) main_arg1 (by decide)).trans (at78_main_arg1 m c)

theorem at79_main_arg2 : R79 m c (Proc.devRef .tc main_arg2) = (A2 m c) :=
  (carry78 (R78 m c) main_arg2 (by decide)).trans (at78_main_arg2 m c)

theorem at79_main_arg3 : R79 m c (Proc.devRef .tc main_arg3) = (A3 m c) :=
  (carry78 (R78 m c) main_arg3 (by decide)).trans (at78_main_arg3 m c)

theorem at79_main_arg4 : R79 m c (Proc.devRef .tc main_arg4) = (A4 m c) :=
  (carry78 (R78 m c) main_arg4 (by decide)).trans (at78_main_arg4 m c)

theorem at79_main_arg5 : R79 m c (Proc.devRef .tc main_arg5) = (A5 m c) :=
  (carry78 (R78 m c) main_arg5 (by decide)).trans (at78_main_arg5 m c)

theorem at79_main_arg6 : R79 m c (Proc.devRef .tc main_arg6) = (A6 m c) :=
  (carry78 (R78 m c) main_arg6 (by decide)).trans (at78_main_arg6 m c)

theorem at79_main_v441 : R79 m c (Proc.devRef .tc main_v441) = Cert.Model.out (F := Ideal) (A0 m c) (A1 m c) (A2 m c) (A3 m c) (A4 m c) (A5 m c) (A6 m c) :=
  w78_main_v441 (R78 m c) (A0 m c) (A1 m c) (A2 m c) (A3 m c) (A4 m c) (A5 m c) (A6 m c) (at78_main_call21_v5 m c)

/-- The whole line's fold over the launch contents is the last boundary's contents. -/
theorem after_ops_launch : StableHlo.after (ops (F := Ideal)) (launchContents m c) = R79 m c := after_ops (launchContents m c)

end Boundaries

/-! ## The run -/

/-- On every device, from any memory with zero counters: every weakly fair execution of the reference's @main terminates
    with the result buffer at the network's function of the arguments' launch contents, and the arguments unchanged. -/
theorem run_model (m : (ℓ : Loc nD τ sig) → Buf (Elt Ideal) ℓ) (ρ : Dev nD → PrngReg) :
    θ_run Cert.ReferenceIdeal.defs (onTc (τ := τ) (Cert.ReferenceIdeal.main (F := Ideal))) ⟨m, fun _ => 0, ρ⟩ fun r => ∀ c : Dev nD,
      r.2.mem ((c.tc : Thread nD τ).loc main_v441) = Cert.Model.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run Cert.ReferenceIdeal.defs _ _).mono (fun _ h c =>
    ⟨(h c main_v441).trans ((congrFun (after_ops_launch m c) _).trans (at79_main_v441 m c)),
      (h c main_arg0).trans ((congrFun (after_ops_launch m c) _).trans (at79_main_arg0 m c)),
      (h c main_arg1).trans ((congrFun (after_ops_launch m c) _).trans (at79_main_arg1 m c)),
      (h c main_arg2).trans ((congrFun (after_ops_launch m c) _).trans (at79_main_arg2 m c)),
      (h c main_arg3).trans ((congrFun (after_ops_launch m c) _).trans (at79_main_arg3 m c)),
      (h c main_arg4).trans ((congrFun (after_ops_launch m c) _).trans (at79_main_arg4 m c)),
      (h c main_arg5).trans ((congrFun (after_ops_launch m c) _).trans (at79_main_arg5 m c)),
      (h c main_arg6).trans ((congrFun (after_ops_launch m c) _).trans (at79_main_arg6 m c))⟩)
    (run_after m ρ)

end Cert.RefRun

end
-- ==== Proof.lean ====
/-
  A residual graph-convolution network (four blocks of two sparse convolutions each, a final convolution and a
  row-wise log-softmax over 100000 nodes and 740000 edges with self-loops), once as ten TensorCore kernels among host
  stretches and once as plain host operations.

  Both idealized programs compute ONE function of the seven arguments, `Cert.Model.out` (Proof/Model.lean): the
  edges' symmetric normalisation is a function of the graph alone, so making it once (the kernel) or once per
  convolution (the reference) gives the same array; every kernel region works on blocks of 10000 rows and its body is
  row-wise, with each product's whole contraction axis inside the block, so the arrays the regions leave are the
  reference's dense steps applied to whole arrays — the same sums of the same terms, no law of the extended reals
  beyond `x / 2 = x · ½` being needed, and the precondition never opened; the aggregation between two dense steps is
  the same host operations on both sides.

    * the kernel's run, its result named: Proof/KernelRun.lean; what each region leaves: Proof/Region*.lean; the
      buffers' contents at every boundary between two segments: Proof/FoldA.lean, FoldB.lean, FoldC.lean;
    * the reference's run, its result named: Proof/RefRun*.lean;
    * the frames of the two kernel programs are the generated ones; the reference's frame is its run with the result
      dropped; no operation was rewritten by the idealization, so `preserves` is `True`.
-/
import proofs.«147806_j25666724560908_2_alg».proof.Defs
import proofs.«147806_j25666724560908_2_alg».proof.Proof.Gen.Kernel
import proofs.«147806_j25666724560908_2_alg».proof.Proof.Gen.Kernel.Skeleton
import proofs.«147806_j25666724560908_2_alg».proof.Proof.Gen.Kernel.Launch
import proofs.«147806_j25666724560908_2_alg».proof.Proof.Gen.Kernel.Points
import proofs.«147806_j25666724560908_2_alg».proof.Proof.Gen.Kernel.Frame
import proofs.«147806_j25666724560908_2_alg».proof.Proof.Gen.KernelIdeal
import proofs.«147806_j25666724560908_2_alg».proof.Proof.Gen.KernelIdeal.Skeleton
import proofs.«147806_j25666724560908_2_alg».proof.Proof.Gen.KernelIdeal.Launch
import proofs.«147806_j25666724560908_2_alg».proof.Proof.Gen.KernelIdeal.Points
import proofs.«147806_j25666724560908_2_alg».proof.Proof.Gen.KernelIdeal.Frame
import proofs.«147806_j25666724560908_2_alg».proof.Proof.Gen.ReferenceIdeal
import proofs.«147806_j25666724560908_2_alg».proof.Proof.Gen.Pre_finite_inputs
import proofs.«147806_j25666724560908_2_alg».proof.Proof.KernelValue
import proofs.«147806_j25666724560908_2_alg».proof.Proof.RefRunModel
import Idealize.ShloMosaic.Adequacy
import Idealize.ShloMosaic.Init

noncomputable section

namespace Cert.Proof

open Idealize.ShloMosaic Idealize.SL.Sem

/-- The reference's frame: its run with the result dropped. -/
theorem frame_ri : Cert.frame_ReferenceIdeal := fun m ρ _ =>
  (θ_run Cert.ReferenceIdeal.defs _ _).mono (fun _ h c => (h c).2) (Cert.RefRun.run_model m ρ)

/-- Both idealized programs end with the network's function of arguments that agree. -/
theorem algebraic : Cert.algebraic_KernelIdeal_ReferenceIdeal := by
  intro m ρ m' ρ' _ hagree
  refine ⟨fun c => Cert.Model.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.RunValue.run_model m ρ, ?_⟩
  refine (θ_run Cert.ReferenceIdeal.defs _ _).mono (fun r h c => ⟨(h c).1.trans ?_, (h c).2⟩) (Cert.RefRun.run_model m' ρ')
  rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
